-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v338)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v338) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v417) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x600000 : Shape := ⟨2, ![2, 600000]⟩
abbrev S600000x2 : Shape := ⟨2, ![600000, 2]⟩
abbrev S120x128 : Shape := ⟨2, ![120, 128]⟩
abbrev S3x128 : Shape := ⟨2, ![3, 128]⟩
abbrev S5x6x128 : Shape := ⟨3, ![5, 6, 128]⟩
abbrev S5x3x128 : Shape := ⟨3, ![5, 3, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S_ : Shape := ⟨0, ![]⟩

class Facts : Prop where
  bcast_S_S120x128 : S_.BroadcastsInDim S120x128 (![] : Fin 0 → Fin S120x128.rank)
  reducesTo_S120x128_S_d0_1 : S120x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S5x6x128 : S_.BroadcastsInDim S5x6x128 (![] : Fin 0 → Fin S5x6x128.rank)
  reducesTo_S5x6x128_S_d0_1_2 : S5x6x128.ReducesTo [0, 1, 2] S_
  bcast_S_S5x3x128 : S_.BroadcastsInDim S5x3x128 (![] : Fin 0 → Fin S5x3x128.rank)
  reducesTo_S5x3x128_S_d0_1_2 : S5x3x128.ReducesTo [0, 1, 2] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg10 : FVec F S5x128 .f32) (main_arg11 : FVec F S5x128 .f32) (main_arg12 : FVec F S5x128 .f32) (main_v33 : IVec S_ 1) : IVec S_ 1 :=
  let main_v34 : FVec F S5x128 .f32 := Host.absf main_arg10
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  let main_v39 : FVec F S5x128 .f32 := Host.absf main_arg11
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128 .f32 := Host.absf main_arg12
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg7 : FVec F S5x128x256 .f32) (main_arg8 : FVec F S5x256 .f32) (main_arg9 : FVec F S5x256x128 .f32) (main_arg10 : FVec F S5x128 .f32) (main_arg11 : FVec F S5x128 .f32) (main_arg12 : FVec F S5x128 .f32) (main_v13 : IVec S_ 1) (main_v16 : IVec S5x3x128 1) : IVec S_ 1 :=
  let main_c_5 : IVec S_ 1 := constantI S_ 1 1#1
  let main_v17 : IVec S_ 1 := (fun x v => Host.reduce IntOp.andi x v reducesTo_S5x3x128_S_d0_1_2 h_S_) main_v16 main_c_5
  let main_v18 : IVec S_ 1 := andi main_v13 main_v17
  let main_v19 : FVec F S5x128x256 .f32 := Host.absf main_arg7
  let main_cst_6 : FVec F S_ .f32 := constant S_ .f32 0x7F800000#32
  let main_v20 : FVec F S5x128x256 .f32 := broadcastInDim S5x128x256 ![] bcast_S_S5x128x256 main_cst_6
  let main_v21 : IVec S5x128x256 1 := cmpf .olt main_v19 main_v20
  let main_c_7 : IVec S_ 1 := constantI S_ 1 1#1
  let main_v22 : IVec S_ 1 := (fun x v => Host.reduce IntOp.andi x v reducesTo_S5x128x256_S_d0_1_2 h_S_) main_v21 main_c_7
  let main_v23 : IVec S_ 1 := andi main_v18 main_v22
  let main_v24 : FVec F S5x256 .f32 := Host.absf main_arg8
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256x128 .f32 := Host.absf main_arg9
  let main_cst_10 : FVec F S_ .f32 := constant S_ .f32 0x7F800000#32
  let main_v30 : FVec F S5x256x128 .f32 := broadcastInDim S5x256x128 ![] bcast_S_S5x256x128 main_cst_10
  let main_v31 : IVec S5x256x128 1 := cmpf .olt main_v29 main_v30
  let main_c_11 : IVec S_ 1 := constantI S_ 1 1#1
  let main_v32 : IVec S_ 1 := (fun x v => Host.reduce IntOp.andi x v reducesTo_S5x256x128_S_d0_1_2 h_S_) main_v31 main_c_11
  let main_v33 : IVec S_ 1 := andi main_v28 main_v32
  fn_part2 (F := F) main_arg10 main_arg11 main_arg12 main_v33

def fn {F : FTy → Type} [FloatOps F] (main_arg0 : IVec S50000x2 32) (main_arg1 : IVec S2x600000 32) (main_arg2 : IVec S600000x2 32) (main_arg3 : FVec F S120x128 .f32) (main_arg4 : FVec F S3x128 .f32) (main_arg5 : FVec F S5x6x128 .f32) (main_arg6 : FVec F S5x3x128 .f32) (main_arg7 : FVec F S5x128x256 .f32) (main_arg8 : FVec F S5x256 .f32) (main_arg9 : FVec F S5x256x128 .f32) (main_arg10 : FVec F S5x128 .f32) (main_arg11 : FVec F S5x128 .f32) (main_arg12 : FVec F S5x128 .f32) : IVec S_ 1 :=
  let main_v0 : FVec F S120x128 .f32 := Host.absf main_arg3
  let main_cst : FVec F S_ .f32 := constant S_ .f32 0x7F800000#32
  let main_v1 : FVec F S120x128 .f32 := broadcastInDim S120x128 ![] bcast_S_S120x128 main_cst
  let main_v2 : IVec S120x128 1 := cmpf .olt main_v0 main_v1
  let main_c : IVec S_ 1 := constantI S_ 1 1#1
  let main_v3 : IVec S_ 1 := (fun x v => Host.reduce IntOp.andi x v reducesTo_S120x128_S_d0_1 h_S_) main_v2 main_c
  let main_v4 : FVec F S3x128 .f32 := Host.absf main_arg4
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S5x6x128 .f32 := Host.absf main_arg5
  let main_cst_2 : FVec F S_ .f32 := constant S_ .f32 0x7F800000#32
  let main_v10 : FVec F S5x6x128 .f32 := broadcastInDim S5x6x128 ![] bcast_S_S5x6x128 main_cst_2
  let main_v11 : IVec S5x6x128 1 := cmpf .olt main_v9 main_v10
  let main_c_3 : IVec S_ 1 := constantI S_ 1 1#1
  let main_v12 : IVec S_ 1 := (fun x v => Host.reduce IntOp.andi x v reducesTo_S5x6x128_S_d0_1_2 h_S_) main_v11 main_c_3
  let main_v13 : IVec S_ 1 := andi main_v8 main_v12
  let main_v14 : FVec F S5x3x128 .f32 := Host.absf main_arg6
  let main_cst_4 : FVec F S_ .f32 := constant S_ .f32 0x7F800000#32
  let main_v15 : FVec F S5x3x128 .f32 := broadcastInDim S5x3x128 ![] bcast_S_S5x3x128 main_cst_4
  let main_v16 : IVec S5x3x128 1 := cmpf .olt main_v14 main_v15
  fn_part1 (F := F) main_arg7 main_arg8 main_arg9 main_arg10 main_arg11 main_arg12 main_v13 main_v16
-- ==== Kernel.lean ====
abbrev S50000x2 : Shape := ⟨2, ![50000, 2]⟩
abbrev S2x600000 : Shape := ⟨2, ![2, 600000]⟩
abbrev S600000x2 : Shape := ⟨2, ![600000, 2]⟩
abbrev S120x128 : Shape := ⟨2, ![120, 128]⟩
abbrev S3x128 : Shape := ⟨2, ![3, 128]⟩
abbrev S5x6x128 : Shape := ⟨3, ![5, 6, 128]⟩
abbrev S5x3x128 : Shape := ⟨3, ![5, 3, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x600000 : Shape := ⟨2, ![1, 600000]⟩
abbrev S600000 : Shape := ⟨1, ![600000]⟩
abbrev S650000 : Shape := ⟨1, ![650000]⟩
abbrev S600000x1 : Shape := ⟨2, ![600000, 1]⟩
abbrev S1x6x128 : Shape := ⟨3, ![1, 6, 128]⟩
abbrev S6x128 : Shape := ⟨2, ![6, 128]⟩
abbrev S650000x1 : Shape := ⟨2, ![650000, 1]⟩
abbrev S650000x128 : Shape := ⟨2, ![650000, 128]⟩
abbrev S1x3x128 : Shape := ⟨3, ![1, 3, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S5000x128 : Shape := ⟨2, ![5000, 128]⟩
abbrev S5000x256 : Shape := ⟨2, ![5000, 256]⟩

abbrev nBuf : Space → Nat
  | .hbm => 418
  | .vmem => 100
  | .smem => 0
  | _ => 0

abbrev hbmTy0_0 (i : Nat) : BufTy := match i % 128 with
  | 0 => ⟨S50000x2, .i32⟩
  | 1 => ⟨S2x600000, .i32⟩
  | 2 => ⟨S600000x2, .i32⟩
  | 3 => ⟨S120x128, .f32⟩
  | 4 => ⟨S3x128, .f32⟩
  | 5 => ⟨S5x6x128, .f32⟩
  | 6 => ⟨S5x3x128, .f32⟩
  | 7 => ⟨S5x128x256, .f32⟩
  | 8 => ⟨S5x256, .f32⟩
  | 9 => ⟨S5x256x128, .f32⟩
  | 10 => ⟨S5x128, .f32⟩
  | 11 => ⟨S5x128, .f32⟩
  | 12 => ⟨S5x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S50000, .i32⟩
  | 37 => ⟨S1x600000, .i32⟩
  | 38 => ⟨S600000, .i32⟩
  | 39 => ⟨S650000, .i32⟩
  | 40 => ⟨S1x600000, .i32⟩
  | 41 => ⟨S600000, .i32⟩
  | 42 => ⟨S650000, .i32⟩
  | 43 => ⟨S600000x1, .i32⟩
  | 44 => ⟨S600000, .i32⟩
  | 45 => ⟨S_, .i32⟩
  | 46 => ⟨S50000, .i32⟩
  | 47 => ⟨S650000, .i32⟩
  | 48 => ⟨S600000x1, .i32⟩
  | 49 => ⟨S600000, .i32⟩
  | 50 => ⟨S_, .i32⟩
  | 51 => ⟨S50000, .i32⟩
  | 52 => ⟨S650000, .i32⟩
  | 53 => ⟨S1x6x128, .f32⟩
  | 54 => ⟨S6x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S1x3x128, .f32⟩
  | 65 => ⟨S3x128, .f32⟩
  | 66 => ⟨S_, .i32⟩
  | 67 => ⟨S650000, .i32⟩
  | 68 => ⟨S650000, .i1⟩
  | 69 => ⟨S_, .i32⟩
  | 70 => ⟨S650000, .i32⟩
  | 71 => ⟨S650000, .i32⟩
  | 72 => ⟨S650000, .i32⟩
  | 73 => ⟨S650000x1, .i32⟩
  | 74 => ⟨S650000x128, .f32⟩
  | 75 => ⟨S650000x128, .f32⟩
  | 76 => ⟨S_, .i32⟩
  | 77 => ⟨S650000, .i32⟩
  | 78 => ⟨S650000, .i1⟩
  | 79 => ⟨S_, .i32⟩
  | 80 => ⟨S650000, .i32⟩
  | 81 => ⟨S650000, .i32⟩
  | 82 => ⟨S650000, .i32⟩
  | 83 => ⟨S650000x1, .i32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128x256, .f32⟩
  | 91 => ⟨S128x256, .f32⟩
  | 92 => ⟨S1x256, .f32⟩
  | 93 => ⟨S256, .f32⟩
  | 94 => ⟨S1x256x128, .f32⟩
  | 95 => ⟨S256x128, .f32⟩
  | 96 => ⟨S1x128, .f32⟩
  | 97 => ⟨S128, .f32⟩
  | 98 => ⟨S1x256, .f32⟩
  | 99 => ⟨S1x128, .f32⟩
  | 100 => ⟨S50000x128, .f32⟩
  | 101 => ⟨S1x128, .f32⟩
  | 102 => ⟨S1x128, .f32⟩
  | 103 => ⟨S128, .f32⟩
  | 104 => ⟨S_, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S50000x128, .f32⟩
  | 126 => ⟨S1x6x128, .f32⟩
  | 127 => ⟨S6x128, .f32⟩
  | _ => ⟨S50000x2, .i32⟩

abbrev hbmTy0_1 (i : Nat) : BufTy := match i % 128 with
  | 0 => ⟨S_, .i32⟩
  | 1 => ⟨S650000, .i32⟩
  | 2 => ⟨S650000, .i1⟩
  | 3 => ⟨S_, .i32⟩
  | 4 => ⟨S650000, .i32⟩
  | 5 => ⟨S650000, .i32⟩
  | 6 => ⟨S650000, .i32⟩
  | 7 => ⟨S650000x1, .i32⟩
  | 8 => ⟨S650000x128, .f32⟩
  | 9 => ⟨S1x3x128, .f32⟩
  | 10 => ⟨S3x128, .f32⟩
  | 11 => ⟨S_, .i32⟩
  | 12 => ⟨S650000, .i32⟩
  | 13 => ⟨S650000, .i1⟩
  | 14 => ⟨S_, .i32⟩
  | 15 => ⟨S650000, .i32⟩
  | 16 => ⟨S650000, .i32⟩
  | 17 => ⟨S650000, .i32⟩
  | 18 => ⟨S650000x1, .i32⟩
  | 19 => ⟨S650000x128, .f32⟩
  | 20 => ⟨S650000x128, .f32⟩
  | 21 => ⟨S_, .i32⟩
  | 22 => ⟨S650000, .i32⟩
  | 23 => ⟨S650000, .i1⟩
  | 24 => ⟨S_, .i32⟩
  | 25 => ⟨S650000, .i32⟩
  | 26 => ⟨S650000, .i32⟩
  | 27 => ⟨S650000, .i32⟩
  | 28 => ⟨S650000x1, .i32⟩
  | 29 => ⟨S650000x128, .f32⟩
  | 30 => ⟨S650000x128, .f32⟩
  | 31 => ⟨S_, .f32⟩
  | 32 => ⟨S50000x128, .f32⟩
  | 33 => ⟨S650000x1, .i32⟩
  | 34 => ⟨S50000x128, .f32⟩
  | 35 => ⟨S1x128x256, .f32⟩
  | 36 => ⟨S128x256, .f32⟩
  | 37 => ⟨S1x256, .f32⟩
  | 38 => ⟨S256, .f32⟩
  | 39 => ⟨S1x256x128, .f32⟩
  | 40 => ⟨S256x128, .f32⟩
  | 41 => ⟨S1x128, .f32⟩
  | 42 => ⟨S128, .f32⟩
  | 43 => ⟨S1x256, .f32⟩
  | 44 => ⟨S1x128, .f32⟩
  | 45 => ⟨S50000x128, .f32⟩
  | 46 => ⟨S1x128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S1x128, .f32⟩
  | 68 => ⟨S1x128, .f32⟩
  | 69 => ⟨S1x128, .f32⟩
  | 70 => ⟨S50000x128, .f32⟩
  | 71 => ⟨S1x6x128, .f32⟩
  | 72 => ⟨S6x128, .f32⟩
  | 73 => ⟨S_, .i32⟩
  | 74 => ⟨S650000, .i32⟩
  | 75 => ⟨S650000, .i1⟩
  | 76 => ⟨S_, .i32⟩
  | 77 => ⟨S650000, .i32⟩
  | 78 => ⟨S650000, .i32⟩
  | 79 => ⟨S650000, .i32⟩
  | 80 => ⟨S650000x1, .i32⟩
  | 81 => ⟨S650000x128, .f32⟩
  | 82 => ⟨S1x3x128, .f32⟩
  | 83 => ⟨S3x128, .f32⟩
  | 84 => ⟨S_, .i32⟩
  | 85 => ⟨S650000, .i32⟩
  | 86 => ⟨S650000, .i1⟩
  | 87 => ⟨S_, .i32⟩
  | 88 => ⟨S650000, .i32⟩
  | 89 => ⟨S650000, .i32⟩
  | 90 => ⟨S650000, .i32⟩
  | 91 => ⟨S650000x1, .i32⟩
  | 92 => ⟨S650000x128, .f32⟩
  | 93 => ⟨S650000x128, .f32⟩
  | 94 => ⟨S_, .i32⟩
  | 95 => ⟨S650000, .i32⟩
  | 96 => ⟨S650000, .i1⟩
  | 97 => ⟨S_, .i32⟩
  | 98 => ⟨S650000, .i32⟩
  | 99 => ⟨S650000, .i32⟩
  | 100 => ⟨S650000, .i32⟩
  | 101 => ⟨S650000x1, .i32⟩
  | 102 => ⟨S650000x128, .f32⟩
  | 103 => ⟨S650000x128, .f32⟩
  | 104 => ⟨S_, .f32⟩
  | 105 => ⟨S50000x128, .f32⟩
  | 106 => ⟨S650000x1, .i32⟩
  | 107 => ⟨S50000x128, .f32⟩
  | 108 => ⟨S1x128x256, .f32⟩
  | 109 => ⟨S128x256, .f32⟩
  | 110 => ⟨S1x256, .f32⟩
  | 111 => ⟨S256, .f32⟩
  | 112 => ⟨S1x256x128, .f32⟩
  | 113 => ⟨S256x128, .f32⟩
  | 114 => ⟨S1x128, .f32⟩
  | 115 => ⟨S128, .f32⟩
  | 116 => ⟨S1x256, .f32⟩
  | 117 => ⟨S1x128, .f32⟩
  | 118 => ⟨S50000x128, .f32⟩
  | 119 => ⟨S1x128, .f32⟩
  | 120 => ⟨S1x128, .f32⟩
  | 121 => ⟨S128, .f32⟩
  | 122 => ⟨S_, .f32⟩
  | 123 => ⟨S128, .f32⟩
  | 124 => ⟨S128, .f32⟩
  | 125 => ⟨S128, .f32⟩
  | 126 => ⟨S_, .f32⟩
  | 127 => ⟨S128, .f32⟩
  | _ => ⟨S50000x2, .i32⟩

abbrev hbmTy0_2 (i : Nat) : BufTy := match i % 128 with
  | 0 => ⟨S128, .f32⟩
  | 1 => ⟨S128, .f32⟩
  | 2 => ⟨S128, .f32⟩
  | 3 => ⟨S_, .f32⟩
  | 4 => ⟨S128, .f32⟩
  | 5 => ⟨S128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S1x128, .f32⟩
  | 13 => ⟨S1x128, .f32⟩
  | 14 => ⟨S1x128, .f32⟩
  | 15 => ⟨S50000x128, .f32⟩
  | 16 => ⟨S1x6x128, .f32⟩
  | 17 => ⟨S6x128, .f32⟩
  | 18 => ⟨S_, .i32⟩
  | 19 => ⟨S650000, .i32⟩
  | 20 => ⟨S650000, .i1⟩
  | 21 => ⟨S_, .i32⟩
  | 22 => ⟨S650000, .i32⟩
  | 23 => ⟨S650000, .i32⟩
  | 24 => ⟨S650000, .i32⟩
  | 25 => ⟨S650000x1, .i32⟩
  | 26 => ⟨S650000x128, .f32⟩
  | 27 => ⟨S1x3x128, .f32⟩
  | 28 => ⟨S3x128, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000x128, .f32⟩
  | 38 => ⟨S650000x128, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000x128, .f32⟩
  | 48 => ⟨S650000x128, .f32⟩
  | 49 => ⟨S_, .f32⟩
  | 50 => ⟨S50000x128, .f32⟩
  | 51 => ⟨S650000x1, .i32⟩
  | 52 => ⟨S50000x128, .f32⟩
  | 53 => ⟨S1x128x256, .f32⟩
  | 54 => ⟨S128x256, .f32⟩
  | 55 => ⟨S1x256, .f32⟩
  | 56 => ⟨S256, .f32⟩
  | 57 => ⟨S1x256x128, .f32⟩
  | 58 => ⟨S256x128, .f32⟩
  | 59 => ⟨S1x128, .f32⟩
  | 60 => ⟨S128, .f32⟩
  | 61 => ⟨S1x256, .f32⟩
  | 62 => ⟨S1x128, .f32⟩
  | 63 => ⟨S50000x128, .f32⟩
  | 64 => ⟨S1x128, .f32⟩
  | 65 => ⟨S1x128, .f32⟩
  | 66 => ⟨S128, .f32⟩
  | 67 => ⟨S_, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S50000x128, .f32⟩
  | 89 => ⟨S1x6x128, .f32⟩
  | 90 => ⟨S6x128, .f32⟩
  | 91 => ⟨S_, .i32⟩
  | 92 => ⟨S650000, .i32⟩
  | 93 => ⟨S650000, .i1⟩
  | 94 => ⟨S_, .i32⟩
  | 95 => ⟨S650000, .i32⟩
  | 96 => ⟨S650000, .i32⟩
  | 97 => ⟨S650000, .i32⟩
  | 98 => ⟨S650000x1, .i32⟩
  | 99 => ⟨S650000x128, .f32⟩
  | 100 => ⟨S1x3x128, .f32⟩
  | 101 => ⟨S3x128, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000x128, .f32⟩
  | 111 => ⟨S650000x128, .f32⟩
  | 112 => ⟨S_, .i32⟩
  | 113 => ⟨S650000, .i32⟩
  | 114 => ⟨S650000, .i1⟩
  | 115 => ⟨S_, .i32⟩
  | 116 => ⟨S650000, .i32⟩
  | 117 => ⟨S650000, .i32⟩
  | 118 => ⟨S650000, .i32⟩
  | 119 => ⟨S650000x1, .i32⟩
  | 120 => ⟨S650000x128, .f32⟩
  | 121 => ⟨S650000x128, .f32⟩
  | 122 => ⟨S_, .f32⟩
  | 123 => ⟨S50000x128, .f32⟩
  | 124 => ⟨S650000x1, .i32⟩
  | 125 => ⟨S50000x128, .f32⟩
  | 126 => ⟨S1x128x256, .f32⟩
  | 127 => ⟨S128x256, .f32⟩
  | _ => ⟨S50000x2, .i32⟩

abbrev hbmTy0_3 (i : Nat) : BufTy := match i % 128 with
  | 0 => ⟨S1x256, .f32⟩
  | 1 => ⟨S256, .f32⟩
  | 2 => ⟨S1x256x128, .f32⟩
  | 3 => ⟨S256x128, .f32⟩
  | 4 => ⟨S1x128, .f32⟩
  | 5 => ⟨S128, .f32⟩
  | 6 => ⟨S1x256, .f32⟩
  | 7 => ⟨S1x128, .f32⟩
  | 8 => ⟨S50000x128, .f32⟩
  | 9 => ⟨S1x128, .f32⟩
  | 10 => ⟨S1x128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S128, .f32⟩
  | 21 => ⟨S_, .f32⟩
  | 22 => ⟨S128, .f32⟩
  | 23 => ⟨S128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S50000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | _ => ⟨S50000x2, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x256, .f32⟩
  | .local _ .vmem, ⟨43, _⟩ => ⟨S1x256, .f32⟩
  | .local _ .vmem, ⟨44, _⟩ => ⟨S256x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x256, .f32⟩
  | .local _ .vmem, ⟨63, _⟩ => ⟨S1x256, .f32⟩
  | .local _ .vmem, ⟨64, _⟩ => ⟨S256x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S128x256, .f32⟩
  | .local _ .vmem, ⟨83, _⟩ => ⟨S1x256, .f32⟩
  | .local _ .vmem, ⟨84, _⟩ => ⟨S256x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S5000x128, .f32⟩
  | .local _ .vmem, ⟨93, _⟩ => ⟨S5000x128, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | _, _ => ⟨S50000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74_0 : Ref sig .tc := ⟨.hbm, 100, rfl⟩
abbrev main_v74_1 : Ref sig .tc := ⟨.hbm, 101, rfl⟩
abbrev main_v74_2 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_14 : Ref sig .tc := ⟨.hbm, 128, rfl⟩
abbrev main_v97 : Ref sig .tc := ⟨.hbm, 129, rfl⟩
abbrev main_v98 : Ref sig .tc := ⟨.hbm, 130, rfl⟩
abbrev main_c_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_16 : Ref sig .tc := ⟨.hbm, 139, rfl⟩
abbrev main_v106 : Ref sig .tc := ⟨.hbm, 140, rfl⟩
abbrev main_v107 : Ref sig .tc := ⟨.hbm, 141, rfl⟩
abbrev main_c_17 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_18 : Ref sig .tc := ⟨.hbm, 149, rfl⟩
abbrev main_v114 : Ref sig .tc := ⟨.hbm, 150, rfl⟩
abbrev main_v115 : Ref sig .tc := ⟨.hbm, 151, rfl⟩
abbrev main_c_19 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_20 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135_0 : Ref sig .tc := ⟨.hbm, 173, rfl⟩
abbrev main_v135_1 : Ref sig .tc := ⟨.hbm, 174, rfl⟩
abbrev main_v135_2 : Ref sig .tc := ⟨.hbm, 175, rfl⟩
abbrev main_v136 : Ref sig .tc := ⟨.hbm, 176, rfl⟩
abbrev main_cst_21 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_22 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_23 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_c_24 : Ref sig .tc := ⟨.hbm, 201, rfl⟩
abbrev main_v158 : Ref sig .tc := ⟨.hbm, 202, rfl⟩
abbrev main_v159 : Ref sig .tc := ⟨.hbm, 203, rfl⟩
abbrev main_c_25 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_c_26 : Ref sig .tc := ⟨.hbm, 212, rfl⟩
abbrev main_v167 : Ref sig .tc := ⟨.hbm, 213, rfl⟩
abbrev main_v168 : Ref sig .tc := ⟨.hbm, 214, rfl⟩
abbrev main_c_27 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_c_28 : Ref sig .tc := ⟨.hbm, 222, rfl⟩
abbrev main_v175 : Ref sig .tc := ⟨.hbm, 223, rfl⟩
abbrev main_v176 : Ref sig .tc := ⟨.hbm, 224, rfl⟩
abbrev main_c_29 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_30 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196_0 : Ref sig .tc := ⟨.hbm, 246, rfl⟩
abbrev main_v196_1 : Ref sig .tc := ⟨.hbm, 247, rfl⟩
abbrev main_v196_2 : Ref sig .tc := ⟨.hbm, 248, rfl⟩
abbrev main_v197 : Ref sig .tc := ⟨.hbm, 249, rfl⟩
abbrev main_cst_31 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_32 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_33 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_c_34 : Ref sig .tc := ⟨.hbm, 274, rfl⟩
abbrev main_v219 : Ref sig .tc := ⟨.hbm, 275, rfl⟩
abbrev main_v220 : Ref sig .tc := ⟨.hbm, 276, rfl⟩
abbrev main_c_35 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_c_36 : Ref sig .tc := ⟨.hbm, 285, rfl⟩
abbrev main_v228 : Ref sig .tc := ⟨.hbm, 286, rfl⟩
abbrev main_v229 : Ref sig .tc := ⟨.hbm, 287, rfl⟩
abbrev main_c_37 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_c_38 : Ref sig .tc := ⟨.hbm, 295, rfl⟩
abbrev main_v236 : Ref sig .tc := ⟨.hbm, 296, rfl⟩
abbrev main_v237 : Ref sig .tc := ⟨.hbm, 297, rfl⟩
abbrev main_c_39 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_cst_40 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257_0 : Ref sig .tc := ⟨.hbm, 319, rfl⟩
abbrev main_v257_1 : Ref sig .tc := ⟨.hbm, 320, rfl⟩
abbrev main_v257_2 : Ref sig .tc := ⟨.hbm, 321, rfl⟩
abbrev main_v258 : Ref sig .tc := ⟨.hbm, 322, rfl⟩
abbrev main_cst_41 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_cst_42 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_cst_43 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_c_44 : Ref sig .tc := ⟨.hbm, 347, rfl⟩
abbrev main_v280 : Ref sig .tc := ⟨.hbm, 348, rfl⟩
abbrev main_v281 : Ref sig .tc := ⟨.hbm, 349, rfl⟩
abbrev main_c_45 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_c_46 : Ref sig .tc := ⟨.hbm, 358, rfl⟩
abbrev main_v289 : Ref sig .tc := ⟨.hbm, 359, rfl⟩
abbrev main_v290 : Ref sig .tc := ⟨.hbm, 360, rfl⟩
abbrev main_c_47 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_c_48 : Ref sig .tc := ⟨.hbm, 368, rfl⟩
abbrev main_v297 : Ref sig .tc := ⟨.hbm, 369, rfl⟩
abbrev main_v298 : Ref sig .tc := ⟨.hbm, 370, rfl⟩
abbrev main_c_49 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_cst_50 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318_0 : Ref sig .tc := ⟨.hbm, 392, rfl⟩
abbrev main_v318_1 : Ref sig .tc := ⟨.hbm, 393, rfl⟩
abbrev main_v318_2 : Ref sig .tc := ⟨.hbm, 394, rfl⟩
abbrev main_v319 : Ref sig .tc := ⟨.hbm, 395, rfl⟩
abbrev main_cst_51 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_cst_52 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_cst_53 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_v331 : Ref sig .tc := ⟨.hbm, 410, rfl⟩
abbrev main_v332 : Ref sig .tc := ⟨.hbm, 411, rfl⟩
abbrev main_v333 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg7_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc8_stg6_0 : Ref sig .tc := ⟨.vmem, 88, rfl⟩
abbrev cc8_stg7_0 : Ref sig .tc := ⟨.vmem, 89, rfl⟩
abbrev cc8_scratch0 : Ref sig .tc := ⟨.vmem, 90, rfl⟩
abbrev cc8_scratch1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg5_0 : Ref sig .tc := ⟨.vmem, 98, rfl⟩
abbrev cc9_stg5_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc8_sem6_0 : DmaSem sig := 80
abbrev cc8_sem7_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_24 : BitVec 32 := 0#32
  let v43 : BitVec 1 := Scalar.cmpi .ne v42 c0_i32_24
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_24 : BitVec 32 := 0#32
  let v43 : BitVec 1 := Scalar.cmpi .ne v42 c0_i32_24
  v43

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_24 : BitVec 32 := 0#32
  let v43 : BitVec 1 := Scalar.cmpi .ne v42 c0_i32_24
  v43

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_24 : BitVec 32 := 0#32
  let v43 : BitVec 1 := Scalar.cmpi .ne v42 c0_i32_24
  v43

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  slices_S600000x2_S600000x1_0_0 : S600000x2.Slices ![0, 0] S600000x1
  shapeCasts_S600000x1_S600000 : S600000x1.ShapeCasts S600000
  slices_S600000x2_S600000x1_0_1 : S600000x2.Slices ![0, 1] S600000x1
  slices_S5x6x128_S1x6x128_0_0_0 : S5x6x128.Slices ![0, 0, 0] S1x6x128
  shapeCasts_S1x6x128_S6x128 : S1x6x128.ShapeCasts S6x128
  bcast_S_S650000 : S_.BroadcastsInDim S650000 (![] : Fin 0 → Fin S650000.rank)
  bcast_S650000_S650000x1_0 : S650000.BroadcastsInDim S650000x1 (![0] : Fin 1 → Fin S650000x1.rank)
  slices_S5x3x128_S1x3x128_0_0_0 : S5x3x128.Slices ![0, 0, 0] S1x3x128
  shapeCasts_S1x3x128_S3x128 : S1x3x128.ShapeCasts S3x128
  bcast_S_S50000x128 : S_.BroadcastsInDim S50000x128 (![] : Fin 0 → Fin S50000x128.rank)
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  shapeCasts_S256_S1x256 : S256.ShapeCasts S1x256
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  reduces_S5000x128_S128 : S5000x128.Reduces [0] S128
  bcast_S_S128 : S_.BroadcastsInDim S128 (![] : Fin 0 → Fin S128.rank)
  slices_S5x6x128_S1x6x128_1_0_0 : S5x6x128.Slices ![1, 0, 0] S1x6x128
  slices_S5x3x128_S1x3x128_1_0_0 : S5x3x128.Slices ![1, 0, 0] S1x3x128
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x6x128_S1x6x128_2_0_0 : S5x6x128.Slices ![2, 0, 0] S1x6x128
  slices_S5x3x128_S1x3x128_2_0_0 : S5x3x128.Slices ![2, 0, 0] S1x3x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5x6x128_S1x6x128_3_0_0 : S5x6x128.Slices ![3, 0, 0] S1x6x128
  slices_S5x3x128_S1x3x128_3_0_0 : S5x3x128.Slices ![3, 0, 0] S1x3x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5x6x128_S1x6x128_4_0_0 : S5x6x128.Slices ![4, 0, 0] S1x6x128
  slices_S5x3x128_S1x3x128_4_0_0 : S5x3x128.Slices ![4, 0, 0] S1x3x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S6x128_S650000x1_S650000x128_1_0_n_n_0_1_1128_wf : GatherDims.WF S6x128 S650000x1 S650000x128 [1] [0] [] [0] [] 1 ![1, 128]
  gather_S3x128_S650000x1_S650000x128_1_0_n_n_0_1_1128_wf : GatherDims.WF S3x128 S650000x1 S650000x128 [1] [0] [] [0] [] 1 ![1, 128]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x128.size a ≤ S256x128.size a
  hwx8_3 : ∀ i : grid8.Coords, EltTy.bits .f32 = 32 ∨ (Rect.block (s := S256x128) S256x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S6x128_S650000x1_S650000x128_1_0_n_n_0_1_1128 : GatherDims S6x128 S650000x1 S650000x128 where
  offsetDims := [1]
  collapsedSliceDims := [0]
  operandBatchingDims := []
  startIndicesBatchingDims := []
  startIndexMap := [0]
  indexVectorDim := 1
  sliceSizes := ![1, 128]
  wf := gather_S6x128_S650000x1_S650000x128_1_0_n_n_0_1_1128_wf
def gather_S3x128_S650000x1_S650000x128_1_0_n_n_0_1_1128 : GatherDims S3x128 S650000x1 S650000x128 where
  offsetDims := [1]
  collapsedSliceDims := [0]
  operandBatchingDims := []
  startIndicesBatchingDims := []
  startIndexMap := [0]
  indexVectorDim := 1
  sliceSizes := ![1, 128]
  wf := gather_S3x128_S650000x1_S650000x128_1_0_n_n_0_1_1128_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v63) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v74_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v74_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v74_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v124) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v133) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v130) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v134) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v135_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v135_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v135_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v135_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v151) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v152) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v153) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v154) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v155) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v185) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v187) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v194) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v191) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v195) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v196_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v196_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v196_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v196_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v212) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v213) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v214) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v215) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v216) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v246) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v248) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v255) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v252) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v256) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v257_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v257_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v257_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun i => !(k6_cond2 i == 1#1) | 7 => fun i => !(k6_cond2 i == 1#1) | ⟨_ + 8, h⟩ => absurd h (Nat.not_lt.2 (Nat.le_add_left _ _))

abbrev win7_0 : Pipeline.Window sig grid7 :=
  Pipeline.Window.ofSpec (Memref.whole main_v257_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v273) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v274) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v275) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v276) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v277) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v307) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v309) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v316) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v313) S256x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v317) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v318_0) S5000x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v318_1) S1x128.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v318_2) S1x128.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun i => !(k8_cond2 i == 1#1) | 7 => fun i => !(k8_cond2 i == 1#1) | ⟨_ + 8, h⟩ => absurd h (Nat.not_lt.2 (Nat.le_add_left _ _))

abbrev win9_0 : Pipeline.Window sig grid9 :=
  Pipeline.Window.ofSpec (Memref.whole main_v318_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v334) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v335) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v336) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v337) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v338) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x2 : Shape := ⟨2, ![50000, 2]⟩
abbrev S2x600000 : Shape := ⟨2, ![2, 600000]⟩
abbrev S600000x2 : Shape := ⟨2, ![600000, 2]⟩
abbrev S120x128 : Shape := ⟨2, ![120, 128]⟩
abbrev S3x128 : Shape := ⟨2, ![3, 128]⟩
abbrev S5x6x128 : Shape := ⟨3, ![5, 6, 128]⟩
abbrev S5x3x128 : Shape := ⟨3, ![5, 3, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S50000x1 : Shape := ⟨2, ![50000, 1]⟩
abbrev S50000 : Shape := ⟨1, ![50000]⟩
abbrev S_ : Shape := ⟨0, ![]⟩
abbrev S50000x128 : Shape := ⟨2, ![50000, 128]⟩
abbrev S1x600000 : Shape := ⟨2, ![1, 600000]⟩
abbrev S600000 : Shape := ⟨1, ![600000]⟩
abbrev S650000 : Shape := ⟨1, ![650000]⟩
abbrev S600000x1 : Shape := ⟨2, ![600000, 1]⟩
abbrev S1x6x128 : Shape := ⟨3, ![1, 6, 128]⟩
abbrev S6x128 : Shape := ⟨2, ![6, 128]⟩
abbrev S650000x1 : Shape := ⟨2, ![650000, 1]⟩
abbrev S650000x128 : Shape := ⟨2, ![650000, 128]⟩
abbrev S1x3x128 : Shape := ⟨3, ![1, 3, 128]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 515
  | .vmem => 0
  | .smem => 0
  | _ => 0

abbrev hbmTy0_0 (i : Nat) : BufTy := match i % 128 with
  | 0 => ⟨S50000x2, .i32⟩
  | 1 => ⟨S2x600000, .i32⟩
  | 2 => ⟨S600000x2, .i32⟩
  | 3 => ⟨S120x128, .f32⟩
  | 4 => ⟨S3x128, .f32⟩
  | 5 => ⟨S5x6x128, .f32⟩
  | 6 => ⟨S5x3x128, .f32⟩
  | 7 => ⟨S5x128x256, .f32⟩
  | 8 => ⟨S5x256, .f32⟩
  | 9 => ⟨S5x256x128, .f32⟩
  | 10 => ⟨S5x128, .f32⟩
  | 11 => ⟨S5x128, .f32⟩
  | 12 => ⟨S5x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x128, .f32⟩
  | 36 => ⟨S50000, .i32⟩
  | 37 => ⟨S1x600000, .i32⟩
  | 38 => ⟨S600000, .i32⟩
  | 39 => ⟨S650000, .i32⟩
  | 40 => ⟨S1x600000, .i32⟩
  | 41 => ⟨S600000, .i32⟩
  | 42 => ⟨S650000, .i32⟩
  | 43 => ⟨S600000x1, .i32⟩
  | 44 => ⟨S600000, .i32⟩
  | 45 => ⟨S_, .i32⟩
  | 46 => ⟨S50000, .i32⟩
  | 47 => ⟨S650000, .i32⟩
  | 48 => ⟨S600000x1, .i32⟩
  | 49 => ⟨S600000, .i32⟩
  | 50 => ⟨S_, .i32⟩
  | 51 => ⟨S50000, .i32⟩
  | 52 => ⟨S650000, .i32⟩
  | 53 => ⟨S1x6x128, .f32⟩
  | 54 => ⟨S6x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S1x3x128, .f32⟩
  | 65 => ⟨S3x128, .f32⟩
  | 66 => ⟨S_, .i32⟩
  | 67 => ⟨S650000, .i32⟩
  | 68 => ⟨S650000, .i1⟩
  | 69 => ⟨S_, .i32⟩
  | 70 => ⟨S650000, .i32⟩
  | 71 => ⟨S650000, .i32⟩
  | 72 => ⟨S650000, .i32⟩
  | 73 => ⟨S650000x1, .i32⟩
  | 74 => ⟨S650000x128, .f32⟩
  | 75 => ⟨S650000x128, .f32⟩
  | 76 => ⟨S_, .i32⟩
  | 77 => ⟨S650000, .i32⟩
  | 78 => ⟨S650000, .i1⟩
  | 79 => ⟨S_, .i32⟩
  | 80 => ⟨S650000, .i32⟩
  | 81 => ⟨S650000, .i32⟩
  | 82 => ⟨S650000, .i32⟩
  | 83 => ⟨S650000x1, .i32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128x256, .f32⟩
  | 91 => ⟨S128x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S1x256x128, .f32⟩
  | 102 => ⟨S256x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x2, .i32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x6x128, .f32⟩
  | 19 => ⟨S6x128, .f32⟩
  | 20 => ⟨S_, .i32⟩
  | 21 => ⟨S650000, .i32⟩
  | 22 => ⟨S650000, .i1⟩
  | 23 => ⟨S_, .i32⟩
  | 24 => ⟨S650000, .i32⟩
  | 25 => ⟨S650000, .i32⟩
  | 26 => ⟨S650000, .i32⟩
  | 27 => ⟨S650000x1, .i32⟩
  | 28 => ⟨S650000x128, .f32⟩
  | 29 => ⟨S1x3x128, .f32⟩
  | 30 => ⟨S3x128, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000x128, .f32⟩
  | 40 => ⟨S650000x128, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000x128, .f32⟩
  | 50 => ⟨S650000x128, .f32⟩
  | 51 => ⟨S_, .f32⟩
  | 52 => ⟨S50000x128, .f32⟩
  | 53 => ⟨S650000x1, .i32⟩
  | 54 => ⟨S50000x128, .f32⟩
  | 55 => ⟨S1x128x256, .f32⟩
  | 56 => ⟨S128x256, .f32⟩
  | 57 => ⟨S50000x256, .f32⟩
  | 58 => ⟨S1x256, .f32⟩
  | 59 => ⟨S256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S1x256x128, .f32⟩
  | 67 => ⟨S256x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x6x128, .f32⟩
  | 112 => ⟨S6x128, .f32⟩
  | 113 => ⟨S_, .i32⟩
  | 114 => ⟨S650000, .i32⟩
  | 115 => ⟨S650000, .i1⟩
  | 116 => ⟨S_, .i32⟩
  | 117 => ⟨S650000, .i32⟩
  | 118 => ⟨S650000, .i32⟩
  | 119 => ⟨S650000, .i32⟩
  | 120 => ⟨S650000x1, .i32⟩
  | 121 => ⟨S650000x128, .f32⟩
  | 122 => ⟨S1x3x128, .f32⟩
  | 123 => ⟨S3x128, .f32⟩
  | 124 => ⟨S_, .i32⟩
  | 125 => ⟨S650000, .i32⟩
  | 126 => ⟨S650000, .i1⟩
  | 127 => ⟨S_, .i32⟩
  | _ => ⟨S50000x2, .i32⟩

abbrev hbmTy0_2 (i : Nat) : BufTy := match i % 128 with
  | 0 => ⟨S650000, .i32⟩
  | 1 => ⟨S650000, .i32⟩
  | 2 => ⟨S650000, .i32⟩
  | 3 => ⟨S650000x1, .i32⟩
  | 4 => ⟨S650000x128, .f32⟩
  | 5 => ⟨S650000x128, .f32⟩
  | 6 => ⟨S_, .i32⟩
  | 7 => ⟨S650000, .i32⟩
  | 8 => ⟨S650000, .i1⟩
  | 9 => ⟨S_, .i32⟩
  | 10 => ⟨S650000, .i32⟩
  | 11 => ⟨S650000, .i32⟩
  | 12 => ⟨S650000, .i32⟩
  | 13 => ⟨S650000x1, .i32⟩
  | 14 => ⟨S650000x128, .f32⟩
  | 15 => ⟨S650000x128, .f32⟩
  | 16 => ⟨S_, .f32⟩
  | 17 => ⟨S50000x128, .f32⟩
  | 18 => ⟨S650000x1, .i32⟩
  | 19 => ⟨S50000x128, .f32⟩
  | 20 => ⟨S1x128x256, .f32⟩
  | 21 => ⟨S128x256, .f32⟩
  | 22 => ⟨S50000x256, .f32⟩
  | 23 => ⟨S1x256, .f32⟩
  | 24 => ⟨S256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S1x256x128, .f32⟩
  | 32 => ⟨S256x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x6x128, .f32⟩
  | 77 => ⟨S6x128, .f32⟩
  | 78 => ⟨S_, .i32⟩
  | 79 => ⟨S650000, .i32⟩
  | 80 => ⟨S650000, .i1⟩
  | 81 => ⟨S_, .i32⟩
  | 82 => ⟨S650000, .i32⟩
  | 83 => ⟨S650000, .i32⟩
  | 84 => ⟨S650000, .i32⟩
  | 85 => ⟨S650000x1, .i32⟩
  | 86 => ⟨S650000x128, .f32⟩
  | 87 => ⟨S1x3x128, .f32⟩
  | 88 => ⟨S3x128, .f32⟩
  | 89 => ⟨S_, .i32⟩
  | 90 => ⟨S650000, .i32⟩
  | 91 => ⟨S650000, .i1⟩
  | 92 => ⟨S_, .i32⟩
  | 93 => ⟨S650000, .i32⟩
  | 94 => ⟨S650000, .i32⟩
  | 95 => ⟨S650000, .i32⟩
  | 96 => ⟨S650000x1, .i32⟩
  | 97 => ⟨S650000x128, .f32⟩
  | 98 => ⟨S650000x128, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000x128, .f32⟩
  | 108 => ⟨S650000x128, .f32⟩
  | 109 => ⟨S_, .f32⟩
  | 110 => ⟨S50000x128, .f32⟩
  | 111 => ⟨S650000x1, .i32⟩
  | 112 => ⟨S50000x128, .f32⟩
  | 113 => ⟨S1x128x256, .f32⟩
  | 114 => ⟨S128x256, .f32⟩
  | 115 => ⟨S50000x256, .f32⟩
  | 116 => ⟨S1x256, .f32⟩
  | 117 => ⟨S256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S1x256x128, .f32⟩
  | 125 => ⟨S256x128, .f32⟩
  | 126 => ⟨S50000x128, .f32⟩
  | 127 => ⟨S1x128, .f32⟩
  | _ => ⟨S50000x2, .i32⟩

abbrev hbmTy0_3 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1x6x128, .f32⟩
  | 42 => ⟨S6x128, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000x128, .f32⟩
  | 52 => ⟨S1x3x128, .f32⟩
  | 53 => ⟨S3x128, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x128, .f32⟩
  | 63 => ⟨S650000x128, .f32⟩
  | 64 => ⟨S_, .i32⟩
  | 65 => ⟨S650000, .i32⟩
  | 66 => ⟨S650000, .i1⟩
  | 67 => ⟨S_, .i32⟩
  | 68 => ⟨S650000, .i32⟩
  | 69 => ⟨S650000, .i32⟩
  | 70 => ⟨S650000, .i32⟩
  | 71 => ⟨S650000x1, .i32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S1x128x256, .f32⟩
  | 79 => ⟨S128x256, .f32⟩
  | 80 => ⟨S50000x256, .f32⟩
  | 81 => ⟨S1x256, .f32⟩
  | 82 => ⟨S256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S1x256x128, .f32⟩
  | 90 => ⟨S256x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000x2, .i32⟩

abbrev hbmTy0_4 (i : Nat) : BufTy := match i % 128 with
  | 0 => ⟨S1x128, .f32⟩
  | 1 => ⟨S50000x128, .f32⟩
  | 2 => ⟨S50000x128, .f32⟩
  | _ => ⟨S50000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x2, .i32⟩

abbrev bufTy : (tb : Table) → Fin (tcTables nBuf tb) → BufTy
  | .hbm, ⟨i, _⟩ => hbmTy i
  | _, _ => ⟨S50000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call0_cst : Ref sig .tc := ⟨.hbm, 98, rfl⟩
abbrev main_call0_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_13 : Ref sig .tc := ⟨.hbm, 118, rfl⟩
abbrev main_v88 : Ref sig .tc := ⟨.hbm, 119, rfl⟩
abbrev main_cst_14 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_15 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_call1_cst : Ref sig .tc := ⟨.hbm, 143, rfl⟩
abbrev main_call1_v0 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_16 : Ref sig .tc := ⟨.hbm, 148, rfl⟩
abbrev main_v113 : Ref sig .tc := ⟨.hbm, 149, rfl⟩
abbrev main_v114 : Ref sig .tc := ⟨.hbm, 150, rfl⟩
abbrev main_c_17 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_18 : Ref sig .tc := ⟨.hbm, 159, rfl⟩
abbrev main_v122 : Ref sig .tc := ⟨.hbm, 160, rfl⟩
abbrev main_v123 : Ref sig .tc := ⟨.hbm, 161, rfl⟩
abbrev main_c_19 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_20 : Ref sig .tc := ⟨.hbm, 169, rfl⟩
abbrev main_v130 : Ref sig .tc := ⟨.hbm, 170, rfl⟩
abbrev main_v131 : Ref sig .tc := ⟨.hbm, 171, rfl⟩
abbrev main_c_21 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_22 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_call2_cst : Ref sig .tc := ⟨.hbm, 191, rfl⟩
abbrev main_call2_v0 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_23 : Ref sig .tc := ⟨.hbm, 202, rfl⟩
abbrev main_v158 : Ref sig .tc := ⟨.hbm, 203, rfl⟩
abbrev main_cst_24 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_25 : Ref sig .tc := ⟨.hbm, 211, rfl⟩
abbrev main_v165 : Ref sig .tc := ⟨.hbm, 212, rfl⟩
abbrev main_cst_26 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_27 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_call3_cst : Ref sig .tc := ⟨.hbm, 236, rfl⟩
abbrev main_call3_v0 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_28 : Ref sig .tc := ⟨.hbm, 241, rfl⟩
abbrev main_v190 : Ref sig .tc := ⟨.hbm, 242, rfl⟩
abbrev main_v191 : Ref sig .tc := ⟨.hbm, 243, rfl⟩
abbrev main_c_29 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_c_30 : Ref sig .tc := ⟨.hbm, 252, rfl⟩
abbrev main_v199 : Ref sig .tc := ⟨.hbm, 253, rfl⟩
abbrev main_v200 : Ref sig .tc := ⟨.hbm, 254, rfl⟩
abbrev main_c_31 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_c_32 : Ref sig .tc := ⟨.hbm, 262, rfl⟩
abbrev main_v207 : Ref sig .tc := ⟨.hbm, 263, rfl⟩
abbrev main_v208 : Ref sig .tc := ⟨.hbm, 264, rfl⟩
abbrev main_c_33 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_34 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_call4_cst : Ref sig .tc := ⟨.hbm, 284, rfl⟩
abbrev main_call4_v0 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_35 : Ref sig .tc := ⟨.hbm, 295, rfl⟩
abbrev main_v235 : Ref sig .tc := ⟨.hbm, 296, rfl⟩
abbrev main_cst_36 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_37 : Ref sig .tc := ⟨.hbm, 304, rfl⟩
abbrev main_v242 : Ref sig .tc := ⟨.hbm, 305, rfl⟩
abbrev main_cst_38 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_cst_39 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_call5_cst : Ref sig .tc := ⟨.hbm, 329, rfl⟩
abbrev main_call5_v0 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_c_40 : Ref sig .tc := ⟨.hbm, 334, rfl⟩
abbrev main_v267 : Ref sig .tc := ⟨.hbm, 335, rfl⟩
abbrev main_v268 : Ref sig .tc := ⟨.hbm, 336, rfl⟩
abbrev main_c_41 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_c_42 : Ref sig .tc := ⟨.hbm, 345, rfl⟩
abbrev main_v276 : Ref sig .tc := ⟨.hbm, 346, rfl⟩
abbrev main_v277 : Ref sig .tc := ⟨.hbm, 347, rfl⟩
abbrev main_c_43 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_c_44 : Ref sig .tc := ⟨.hbm, 355, rfl⟩
abbrev main_v284 : Ref sig .tc := ⟨.hbm, 356, rfl⟩
abbrev main_v285 : Ref sig .tc := ⟨.hbm, 357, rfl⟩
abbrev main_c_45 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_cst_46 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_call6_cst : Ref sig .tc := ⟨.hbm, 377, rfl⟩
abbrev main_call6_v0 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_v311 : Ref sig .tc := ⟨.hbm, 387, rfl⟩
abbrev main_cst_47 : Ref sig .tc := ⟨.hbm, 388, rfl⟩
abbrev main_v312 : Ref sig .tc := ⟨.hbm, 389, rfl⟩
abbrev main_cst_48 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_cst_49 : Ref sig .tc := ⟨.hbm, 397, rfl⟩
abbrev main_v319 : Ref sig .tc := ⟨.hbm, 398, rfl⟩
abbrev main_cst_50 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_cst_51 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_call7_cst : Ref sig .tc := ⟨.hbm, 422, rfl⟩
abbrev main_call7_v0 : Ref sig .tc := ⟨.hbm, 423, rfl⟩
abbrev main_v341 : Ref sig .tc := ⟨.hbm, 424, rfl⟩
abbrev main_v342 : Ref sig .tc := ⟨.hbm, 425, rfl⟩
abbrev main_v343 : Ref sig .tc := ⟨.hbm, 426, rfl⟩
abbrev main_c_52 : Ref sig .tc := ⟨.hbm, 427, rfl⟩
abbrev main_v344 : Ref sig .tc := ⟨.hbm, 428, rfl⟩
abbrev main_v345 : Ref sig .tc := ⟨.hbm, 429, rfl⟩
abbrev main_c_53 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_v351 : Ref sig .tc := ⟨.hbm, 436, rfl⟩
abbrev main_v352 : Ref sig .tc := ⟨.hbm, 437, rfl⟩
abbrev main_c_54 : Ref sig .tc := ⟨.hbm, 438, rfl⟩
abbrev main_v353 : Ref sig .tc := ⟨.hbm, 439, rfl⟩
abbrev main_v354 : Ref sig .tc := ⟨.hbm, 440, rfl⟩
abbrev main_c_55 : Ref sig .tc := ⟨.hbm, 441, rfl⟩
abbrev main_v355 : Ref sig .tc := ⟨.hbm, 442, rfl⟩
abbrev main_v356 : Ref sig .tc := ⟨.hbm, 443, rfl⟩
abbrev main_v357 : Ref sig .tc := ⟨.hbm, 444, rfl⟩
abbrev main_v358 : Ref sig .tc := ⟨.hbm, 445, rfl⟩
abbrev main_v359 : Ref sig .tc := ⟨.hbm, 446, rfl⟩
abbrev main_v360 : Ref sig .tc := ⟨.hbm, 447, rfl⟩
abbrev main_c_56 : Ref sig .tc := ⟨.hbm, 448, rfl⟩
abbrev main_v361 : Ref sig .tc := ⟨.hbm, 449, rfl⟩
abbrev main_v362 : Ref sig .tc := ⟨.hbm, 450, rfl⟩
abbrev main_c_57 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_cst_58 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_call8_cst : Ref sig .tc := ⟨.hbm, 470, rfl⟩
abbrev main_call8_v0 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_v383 : Ref sig .tc := ⟨.hbm, 475, rfl⟩
abbrev main_v384 : Ref sig .tc := ⟨.hbm, 476, rfl⟩
abbrev main_v385 : Ref sig .tc := ⟨.hbm, 477, rfl⟩
abbrev main_v386 : Ref sig .tc := ⟨.hbm, 478, rfl⟩
abbrev main_v387 : Ref sig .tc := ⟨.hbm, 479, rfl⟩
abbrev main_v388 : Ref sig .tc := ⟨.hbm, 480, rfl⟩
abbrev main_cst_59 : Ref sig .tc := ⟨.hbm, 481, rfl⟩
abbrev main_v389 : Ref sig .tc := ⟨.hbm, 482, rfl⟩
abbrev main_cst_60 : Ref sig .tc := ⟨.hbm, 483, rfl⟩
abbrev main_v390 : Ref sig .tc := ⟨.hbm, 484, rfl⟩
abbrev main_v391 : Ref sig .tc := ⟨.hbm, 485, rfl⟩
abbrev main_v392 : Ref sig .tc := ⟨.hbm, 486, rfl⟩
abbrev main_v393 : Ref sig .tc := ⟨.hbm, 487, rfl⟩
abbrev main_v394 : Ref sig .tc := ⟨.hbm, 488, rfl⟩
abbrev main_v395 : Ref sig .tc := ⟨.hbm, 489, rfl⟩
abbrev main_cst_61 : Ref sig .tc := ⟨.hbm, 490, rfl⟩
abbrev main_v396 : Ref sig .tc := ⟨.hbm, 491, rfl⟩
abbrev main_cst_62 : Ref sig .tc := ⟨.hbm, 492, rfl⟩
abbrev main_v397 : Ref sig .tc := ⟨.hbm, 493, rfl⟩
abbrev main_v398 : Ref sig .tc := ⟨.hbm, 494, rfl⟩
abbrev main_v399 : Ref sig .tc := ⟨.hbm, 495, rfl⟩
abbrev main_v400 : Ref sig .tc := ⟨.hbm, 496, rfl⟩
abbrev main_v401 : Ref sig .tc := ⟨.hbm, 497, rfl⟩
abbrev main_cst_63 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_v416 : Ref sig .tc := ⟨.hbm, 513, rfl⟩
abbrev main_v417 : Ref sig .tc := ⟨.hbm, 514, rfl⟩

abbrev nD : Nat := 1
abbrev τ : Topo := Topo.v7x

variable {F : FTy → Type} [FloatOps F]

class Facts₀ : Prop where
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x2_S50000x1_0_1 : S50000x2.Slices ![0, 1] S50000x1
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  slices_S600000x2_S600000x1_0_0 : S600000x2.Slices ![0, 0] S600000x1
  shapeCasts_S600000x1_S600000 : S600000x1.ShapeCasts S600000
  slices_S600000x2_S600000x1_0_1 : S600000x2.Slices ![0, 1] S600000x1
  slices_S5x6x128_S1x6x128_0_0_0 : S5x6x128.Slices ![0, 0, 0] S1x6x128
  shapeCasts_S1x6x128_S6x128 : S1x6x128.ShapeCasts S6x128
  bcast_S_S650000 : S_.BroadcastsInDim S650000 (![] : Fin 0 → Fin S650000.rank)
  bcast_S650000_S650000x1_0 : S650000.BroadcastsInDim S650000x1 (![0] : Fin 1 → Fin S650000x1.rank)
  slices_S5x3x128_S1x3x128_0_0_0 : S5x3x128.Slices ![0, 0, 0] S1x3x128
  shapeCasts_S1x3x128_S3x128 : S1x3x128.ShapeCasts S3x128
  bcast_S_S50000x128 : S_.BroadcastsInDim S50000x128 (![] : Fin 0 → Fin S50000x128.rank)
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S5x6x128_S1x6x128_1_0_0 : S5x6x128.Slices ![1, 0, 0] S1x6x128
  slices_S5x3x128_S1x3x128_1_0_0 : S5x3x128.Slices ![1, 0, 0] S1x3x128
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x6x128_S1x6x128_2_0_0 : S5x6x128.Slices ![2, 0, 0] S1x6x128
  slices_S5x3x128_S1x3x128_2_0_0 : S5x3x128.Slices ![2, 0, 0] S1x3x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5x6x128_S1x6x128_3_0_0 : S5x6x128.Slices ![3, 0, 0] S1x6x128
  slices_S5x3x128_S1x3x128_3_0_0 : S5x3x128.Slices ![3, 0, 0] S1x3x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5x6x128_S1x6x128_4_0_0 : S5x6x128.Slices ![4, 0, 0] S1x6x128
  slices_S5x3x128_S1x3x128_4_0_0 : S5x3x128.Slices ![4, 0, 0] S1x3x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  gather_S120x128_S50000x1_S50000x128_1_0_n_n_0_1_1128_wf : GatherDims.WF S120x128 S50000x1 S50000x128 [1] [0] [] [0] [] 1 ![1, 128]
  gather_S3x128_S50000x1_S50000x128_1_0_n_n_0_1_1128_wf : GatherDims.WF S3x128 S50000x1 S50000x128 [1] [0] [] [0] [] 1 ![1, 128]
  gather_S6x128_S650000x1_S650000x128_1_0_n_n_0_1_1128_wf : GatherDims.WF S6x128 S650000x1 S650000x128 [1] [0] [] [0] [] 1 ![1, 128]
  gather_S3x128_S650000x1_S650000x128_1_0_n_n_0_1_1128_wf : GatherDims.WF S3x128 S650000x1 S650000x128 [1] [0] [] [0] [] 1 ![1, 128]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S120x128_S50000x1_S50000x128_1_0_n_n_0_1_1128 : GatherDims S120x128 S50000x1 S50000x128 where
  offsetDims := [1]
  collapsedSliceDims := [0]
  operandBatchingDims := []
  startIndicesBatchingDims := []
  startIndexMap := [0]
  indexVectorDim := 1
  sliceSizes := ![1, 128]
  wf := gather_S120x128_S50000x1_S50000x128_1_0_n_n_0_1_1128_wf
def gather_S3x128_S50000x1_S50000x128_1_0_n_n_0_1_1128 : GatherDims S3x128 S50000x1 S50000x128 where
  offsetDims := [1]
  collapsedSliceDims := [0]
  operandBatchingDims := []
  startIndicesBatchingDims := []
  startIndexMap := [0]
  indexVectorDim := 1
  sliceSizes := ![1, 128]
  wf := gather_S3x128_S50000x1_S50000x128_1_0_n_n_0_1_1128_wf
def gather_S6x128_S650000x1_S650000x128_1_0_n_n_0_1_1128 : GatherDims S6x128 S650000x1 S650000x128 where
  offsetDims := [1]
  collapsedSliceDims := [0]
  operandBatchingDims := []
  startIndicesBatchingDims := []
  startIndexMap := [0]
  indexVectorDim := 1
  sliceSizes := ![1, 128]
  wf := gather_S6x128_S650000x1_S650000x128_1_0_n_n_0_1_1128_wf
def gather_S3x128_S650000x1_S650000x128_1_0_n_n_0_1_1128 : GatherDims S3x128 S650000x1 S650000x128 where
  offsetDims := [1]
  collapsedSliceDims := [0]
  operandBatchingDims := []
  startIndicesBatchingDims := []
  startIndexMap := [0]
  indexVectorDim := 1
  sliceSizes := ![1, 128]
  wf := gather_S3x128_S650000x1_S650000x128_1_0_n_n_0_1_1128_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.Host.lean ====
/-
  The host stretches of the program between its ten regions: what each stretch's operations write (each operation
  writes its own result buffer and nothing else, and allocates nothing), so that a buffer outside a stretch's written
  list holds after the stretch what it held before it; and a stretch as a segment of the run over the unscoped buffers.
-/
import proofs.«118775_j16338055594318_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One operation's written set is its result buffer, which the stretch's list names. -/
local macro "wr1" : tactic => `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-- No operation of stretch 0 allocates a buffer. -/
theorem hostOps0_fresh : (hostOps0 : List (HloOp τ sig (Elt F))).Forall fun op => op.fresh = ∅ := by
  simp only [List.Forall]; repeat' constructor
/-- The buffers stretch 0's operations write: their results. -/
abbrev hostOps0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_c_3, main_v28, main_v29, main_v30, main_v31, main_c_4, main_v32, main_v33, main_v34, main_v35, main_c_5, main_v36, main_v37, main_c_6, main_v38, main_v39, main_v40, main_v41, main_v42, main_v43, main_v44, main_c_7, main_v45, main_v46, main_c_8, main_v47, main_v48, main_v49, main_v50, main_v51, main_v52, main_c_9, main_v53, main_v54, main_c_10, main_v55, main_v56, main_v57, main_v58, main_v59, main_v60, main_cst, main_v61, main_v62, main_v63, main_v64, main_v65, main_v66, main_v67, main_v68, main_v69, main_v70, main_v71, main_v72, main_v73]
theorem hostOps0_writes : (hostOps0 : List (HloOp τ sig (Elt F))).Forall fun op => op.writes ⊆ (hostOps0_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 1 allocates a buffer. -/
theorem hostOps1_fresh : (hostOps1 : List (HloOp τ sig (Elt F))).Forall fun op => op.fresh = ∅ := by
  simp only [List.Forall]; repeat' constructor
/-- The buffers stretch 1's operations write: their results. -/
abbrev hostOps1_W : List (Ref sig .tc) := [main_v75, main_cst_11, main_v76, main_v77, main_v78, main_cst_12, main_v79, main_v80, main_v81, main_v82, main_cst_13, main_v83, main_v84, main_v85, main_v86, main_v87, main_v88, main_v89, main_v90, main_v91, main_v92, main_v93]
theorem hostOps1_writes : (hostOps1 : List (HloOp τ sig (Elt F))).Forall fun op => op.writes ⊆ (hostOps1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 2 allocates a buffer. -/
theorem hostOps2_fresh : (hostOps2 : List (HloOp τ sig (Elt F))).Forall fun op => op.fresh = ∅ := by
  simp only [List.Forall]; repeat' constructor
/-- The buffers stretch 2's operations write: their results. -/
abbrev hostOps2_W : List (Ref sig .tc) := [main_v95, main_v96, main_c_14, main_v97, main_v98, main_c_15, main_v99, main_v100, main_v101, main_v102, main_v103, main_v104, main_v105, main_c_16, main_v106, main_v107, main_c_17, main_v108, main_v109, main_v110, main_v111, main_v112, main_v113, main_c_18, main_v114, main_v115, main_c_19, main_v116, main_v117, main_v118, main_v119, main_v120, main_v121, main_cst_20, main_v122, main_v123, main_v124, main_v125, main_v126, main_v127, main_v128, main_v129, main_v130, main_v131, main_v132, main_v133, main_v134]
theorem hostOps2_writes : (hostOps2 : List (HloOp τ sig (Elt F))).Forall fun op => op.writes ⊆ (hostOps2_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 3 allocates a buffer. -/
theorem hostOps3_fresh : (hostOps3 : List (HloOp τ sig (Elt F))).Forall fun op => op.fresh = ∅ := by
  simp only [List.Forall]; repeat' constructor
/-- The buffers stretch 3's operations write: their results. -/
abbrev hostOps3_W : List (Ref sig .tc) := [main_v136, main_cst_21, main_v137, main_v138, main_v139, main_cst_22, main_v140, main_v141, main_v142, main_v143, main_cst_23, main_v144, main_v145, main_v146, main_v147, main_v148, main_v149, main_v150, main_v151, main_v152, main_v153, main_v154]
theorem hostOps3_writes : (hostOps3 : List (HloOp τ sig (Elt F))).Forall fun op => op.writes ⊆ (hostOps3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 4 allocates a buffer. -/
theorem hostOps4_fresh : (hostOps4 : List (HloOp τ sig (Elt F))).Forall fun op => op.fresh = ∅ := by
  simp only [List.Forall]; repeat' constructor
/-- The buffers stretch 4's operations write: their results. -/
abbrev hostOps4_W : List (Ref sig .tc) := [main_v156, main_v157, main_c_24, main_v158, main_v159, main_c_25, main_v160, main_v161, main_v162, main_v163, main_v164, main_v165, main_v166, main_c_26, main_v167, main_v168, main_c_27, main_v169, main_v170, main_v171, main_v172, main_v173, main_v174, main_c_28, main_v175, main_v176, main_c_29, main_v177, main_v178, main_v179, main_v180, main_v181, main_v182, main_cst_30, main_v183, main_v184, main_v185, main_v186, main_v187, main_v188, main_v189, main_v190, main_v191, main_v192, main_v193, main_v194, main_v195]
theorem hostOps4_writes : (hostOps4 : List (HloOp τ sig (Elt F))).Forall fun op => op.writes ⊆ (hostOps4_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 5 allocates a buffer. -/
theorem hostOps5_fresh : (hostOps5 : List (HloOp τ sig (Elt F))).Forall fun op => op.fresh = ∅ := by
  simp only [List.Forall]; repeat' constructor
/-- The buffers stretch 5's operations write: their results. -/
abbrev hostOps5_W : List (Ref sig .tc) := [main_v197, main_cst_31, main_v198, main_v199, main_v200, main_cst_32, main_v201, main_v202, main_v203, main_v204, main_cst_33, main_v205, main_v206, main_v207, main_v208, main_v209, main_v210, main_v211, main_v212, main_v213, main_v214, main_v215]
theorem hostOps5_writes : (hostOps5 : List (HloOp τ sig (Elt F))).Forall fun op => op.writes ⊆ (hostOps5_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 6 allocates a buffer. -/
theorem hostOps6_fresh : (hostOps6 : List (HloOp τ sig (Elt F))).Forall fun op => op.fresh = ∅ := by
  simp only [List.Forall]; repeat' constructor
/-- The buffers stretch 6's operations write: their results. -/
abbrev hostOps6_W : List (Ref sig .tc) := [main_v217, main_v218, main_c_34, main_v219, main_v220, main_c_35, main_v221, main_v222, main_v223, main_v224, main_v225, main_v226, main_v227, main_c_36, main_v228, main_v229, main_c_37, main_v230, main_v231, main_v232, main_v233, main_v234, main_v235, main_c_38, main_v236, main_v237, main_c_39, main_v238, main_v239, main_v240, main_v241, main_v242, main_v243, main_cst_40, main_v244, main_v245, main_v246, main_v247, main_v248, main_v249, main_v250, main_v251, main_v252, main_v253, main_v254, main_v255, main_v256]
theorem hostOps6_writes : (hostOps6 : List (HloOp τ sig (Elt F))).Forall fun op => op.writes ⊆ (hostOps6_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 7 allocates a buffer. -/
theorem hostOps7_fresh : (hostOps7 : List (HloOp τ sig (Elt F))).Forall fun op => op.fresh = ∅ := by
  simp only [List.Forall]; repeat' constructor
/-- The buffers stretch 7's operations write: their results. -/
abbrev hostOps7_W : List (Ref sig .tc) := [main_v258, main_cst_41, main_v259, main_v260, main_v261, main_cst_42, main_v262, main_v263, main_v264, main_v265, main_cst_43, main_v266, main_v267, main_v268, main_v269, main_v270, main_v271, main_v272, main_v273, main_v274, main_v275, main_v276]
theorem hostOps7_writes : (hostOps7 : List (HloOp τ sig (Elt F))).Forall fun op => op.writes ⊆ (hostOps7_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 8 allocates a buffer. -/
theorem hostOps8_fresh : (hostOps8 : List (HloOp τ sig (Elt F))).Forall fun op => op.fresh = ∅ := by
  simp only [List.Forall]; repeat' constructor
/-- The buffers stretch 8's operations write: their results. -/
abbrev hostOps8_W : List (Ref sig .tc) := [main_v278, main_v279, main_c_44, main_v280, main_v281, main_c_45, main_v282, main_v283, main_v284, main_v285, main_v286, main_v287, main_v288, main_c_46, main_v289, main_v290, main_c_47, main_v291, main_v292, main_v293, main_v294, main_v295, main_v296, main_c_48, main_v297, main_v298, main_c_49, main_v299, main_v300, main_v301, main_v302, main_v303, main_v304, main_cst_50, main_v305, main_v306, main_v307, main_v308, main_v309, main_v310, main_v311, main_v312, main_v313, main_v314, main_v315, main_v316, main_v317]
theorem hostOps8_writes : (hostOps8 : List (HloOp τ sig (Elt F))).Forall fun op => op.writes ⊆ (hostOps8_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 9 allocates a buffer. -/
theorem hostOps9_fresh : (hostOps9 : List (HloOp τ sig (Elt F))).Forall fun op => op.fresh = ∅ := by
  simp only [List.Forall]; repeat' constructor
/-- The buffers stretch 9's operations write: their results. -/
abbrev hostOps9_W : List (Ref sig .tc) := [main_v319, main_cst_51, main_v320, main_v321, main_v322, main_cst_52, main_v323, main_v324, main_v325, main_v326, main_cst_53, main_v327, main_v328, main_v329, main_v330, main_v331, main_v332, main_v333, main_v334, main_v335, main_v336, main_v337]
theorem hostOps9_writes : (hostOps9 : List (HloOp τ sig (Elt F))).Forall fun op => op.writes ⊆ (hostOps9_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

end Cert.Kernel.Hand

end
-- ==== Proof.K.Mlp0Base.lean ====
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
proof data whose array is `V`'s and whose body leaves the block in place: an unfetched window's block index
has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The two conditions of the body, over the grid -/

/-- The first conditional (the scratch rows are reset): its condition from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The last conditional (the scratch rows are copied out): its condition from the grid coordinates. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point nothing is stored into window 6: it is idle there and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last point it is stored into. -/
theorem liveAt0_6 : ∀ t : Fin cfg0.N, cond0_1 (grid0.coords t) → cfg0.idle 6 (grid0.coords t) = false := by decide +kernel
/-- Before the last point nothing is stored into window 7: it is idle there and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is stored into. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two scratch rows: whole scoped buffers of the call's own, passed beside the windows. -/
abbrev scM0_0 : Memref sig .tc .vmem S1x128 .f32 := Memref.whole cc0_scratch0
abbrev scM0_1 : Memref sig .tc .vmem S1x128 .f32 := Memref.whole cc0_scratch1

/-- The whole-block rectangle of a shape, as the body's loads and stores spell it. -/
abbrev rA0 : Rect S5000x128 := Rect.unit (s := S5000x128) ![0, 0] S5000x128.size inb_S5000x128_S5000x128_0_0
abbrev rR0 : Rect S1x128 := Rect.unit (s := S1x128) ![0, 0] S1x128.size inb_S1x128_S1x128_0_0

/-- The offsets `![0, 0]` are zero. -/
theorem hz2 : (![0, 0] : Fin 2 → ℕ) = fun _ => 0 := by
  funext a; match a with | ⟨0, _⟩ => rfl | ⟨1, _⟩ => rfl

/-- A store through the whole block (zero offsets, however the zeros are spelt), made LAST, leaves its payload,
    whatever the earlier stores and the contents before them were. -/
theorem read_writes_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩), View.canon_cons_unit_zero hz]

/-- A load through the whole block of a whole memref at contents `X` reads `X`. -/
theorem readAt_unread_whole {κ : Kind} {sp : Space} {S : Shape} {e : EltTy} {m : Memref sig κ sp S e} (h : m.IsWhole) (X : S.Idx → Elt F e)
    {off : Fin S.rank → ℕ} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- Every other scoped buffer of the core (the other calls' staging buffers and scratch), unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.Kernel.Hand

end
-- ==== Proof.K.Mlp0RunA.lean ====
import proofs.«118775_j16338055594318_1_alg».proof.Proof.K.Mlp0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun0_A (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare xi6 ∗ owns (c : Thread nD τ) arg8 fullShare xi7
            ∗ owns (c : Thread nD τ) arg9 fullShare (k0_pay5 x0 x1 x2 x3 x4 k0_pay2) ∗ owns (c : Thread nD τ) arg10 fullShare (k0_pay1 (k0_pay4 x0 x1 x2 x3 x4) k0_pay3)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp0RunB.lean ====
import proofs.«118775_j16338055594318_1_alg».proof.Proof.K.Mlp0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun0_B (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare xi6 ∗ owns (c : Thread nD τ) arg8 fullShare xi7
            ∗ owns (c : Thread nD τ) arg9 fullShare (k0_pay5 x0 x1 x2 x3 x4 xs0) ∗ owns (c : Thread nD τ) arg10 fullShare (k0_pay1 (k0_pay4 x0 x1 x2 x3 x4) xs1)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp0RunC.lean ====
import proofs.«118775_j16338055594318_1_alg».proof.Proof.K.Mlp0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun0_C (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare (k0_pay5 x0 x1 x2 x3 x4 xs0) ∗ owns (c : Thread nD τ) arg8 fullShare (k0_pay1 (k0_pay4 x0 x1 x2 x3 x4) xs1)
            ∗ owns (c : Thread nD τ) arg9 fullShare (k0_pay5 x0 x1 x2 x3 x4 xs0) ∗ owns (c : Thread nD τ) arg10 fullShare (k0_pay1 (k0_pay4 x0 x1 x2 x3 x4) xs1)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp0.lean ====
import proofs.«118775_j16338055594318_1_alg».proof.Proof.K.Mlp0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the proof data, the body obligation, and the invariant's two ends

With `hn0 t` the tile of the MLP's output at point `t` (what the point stores into window 5), the two scratch rows
hold after point `n` the column sums of `hn0 0 … hn0 n` and of their squares, added up from zero in the order of
the points: `acc0`. Windows 6 and 7 receive `acc0` at the last point. -/

section Region
variable (V : (c : Dev nD) → (b : Ref sig .tc) → Buf (Elt F) ((c : Thread nD τ).loc b))

/-- What point `t` stores into window 5: the MLP's output on the point's tile. -/
def hn0 (c : Dev nD) (t : Fin cfg0.N) : Vec F S5000x128 .f32 :=
  k0_pay4 (iblk0 V c 0 t) (iblk0 V c 1 t) (iblk0 V c 2 t) (iblk0 V c 3 t) (iblk0 V c 4 t)

/-- What the two scratch rows hold after point `n`: at the first point the tile's column sums (of the values, of their
    squares) added to zero; afterwards added to what the point before left. -/
def acc0 (c : Dev nD) : (n : ℕ) → n < cfg0.N → Vec F S1x128 .f32 × Vec F S1x128 .f32
  | 0, hn => (k0_pay5 (iblk0 V c 0 ⟨0, hn⟩) (iblk0 V c 1 ⟨0, hn⟩) (iblk0 V c 2 ⟨0, hn⟩) (iblk0 V c 3 ⟨0, hn⟩) (iblk0 V c 4 ⟨0, hn⟩) k0_pay2, k0_pay1 (hn0 V c ⟨0, hn⟩) k0_pay3)
  | n + 1, hn => (k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).1,
      k0_pay1 (hn0 V c ⟨n + 1, hn⟩) (acc0 c n (Nat.lt_of_succ_lt hn)).2)

/-- `acc0` at the first point. -/
theorem acc0_first (c : Dev nD) (t : Fin cfg0.N) (hz : t.val = 0) :
    acc0 V c t.val t.isLt = (k0_pay5 (iblk0 V c 0 t) (iblk0 V c 1 t) (iblk0 V c 2 t) (iblk0 V c 3 t) (iblk0 V c 4 t) k0_pay2, k0_pay1 (hn0 V c t) k0_pay3) := by
  obtain ⟨n, hn⟩ := t
  cases n with
  | zero => rfl
  | succ n => exact absurd hz (Nat.succ_ne_zero n)

/-- `acc0` at a later point: over what the point before left. -/
theorem acc0_later (c : Dev nD) (t : Fin cfg0.N) (hz : t.val ≠ 0) :
    acc0 V c t.val t.isLt = (k0_pay5 (iblk0 V c 0 t) (iblk0 V c 1 t) (iblk0 V c 2 t) (iblk0 V c 3 t) (iblk0 V c 4 t) (acc0 V c (t.val - 1) (Nat.lt_of_le_of_lt (Nat.sub_le _ _) t.isLt)).1,
      k0_pay1 (hn0 V c t) (acc0 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc0` of the point before, beside the other scoped buffers and the
    generator register. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2) ∗ rest0 c) ∗ (∃ r, prngReg c r)) := by
  cases n with
  | zero => exact absurd rfl hz
  | succ n => rfl

/-- The proof data of the pipeline on core `c`: the arrays as the region finds them; after the body at point `t` each
    input's buffer at its block, window 5's at `hn0 t`, windows 6 and 7 at `acc0 t`; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hn0 V c t
    | ⟨6, _⟩ => (acc0 V c t.val t.isLt).1
    | ⟨7, _⟩ => (acc0 V c t.val t.isLt).2
    | ⟨_ + 8, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hn0 V c t := by dsimp only [dat0]
theorem after0_6 (c : Dev nD) (t : Fin cfg0.N) : (dat0 V c).after 6 t = (acc0 V c t.val t.isLt).1 := by dsimp only [dat0]
theorem after0_7 (c : Dev nD) (t : Fin cfg0.N) : (dat0 V c).after 7 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, the last, or one between,
    and that case's run applies; the invariant hands the body the scratch rows (at anything at the first point, at
    `acc0` of the point before afterwards) and takes them back at `acc0` of this point; the other scoped buffers, the
    generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 10 := lt_of_lt_of_eq t.isLt (show cfg0.N = 10 from N_0)
  by_cases h9 : t.val = 9
  · have h0 : ¬t.val = 0 := by omega
    rw [show (dat0 V c).leavesExact 6 t = owns (c : Thread nD τ) (ms0_6 t) fullShare ((dat0 V c).after 6 t) from by
      unfold Dat.leavesExact; rw [liveAt0_6 t ((hcond0_1 t).mpr h9)], after0_6]
    rw [show (dat0 V c).leavesExact 7 t = owns (c : Thread nD τ) (ms0_7 t) fullShare ((dat0 V c).after 7 t) from by
      unfold Dat.leavesExact; rw [liveAt0_7 t ((hcond0_1 t).mpr h9)], after0_7]
    rw [acc0_later V c t h0]; unfold hn0; (try dsimp only)
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_C c (grid0.coords t) _ _ _ _ _ _ _ _ _ _ _ _ _ _ _ _ _ _ _ _ (fun h => h0 ((hcond0_0 t).mp h)) ((hcond0_1 t).mpr h9) (iblk0 V c 0 t) (iblk0 V c 1 t) (iblk0 V c 2 t) (iblk0 V c 3 t) (iblk0 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h9 ((hcond0_1 t).mp h)
    rw [Dat.leavesExact_idle (dat0 V c) 6 t (idleAt0_6 t hc1) (noFlush0_6 t hc1)]
    rw [Dat.leavesExact_idle (dat0 V c) 7 t (idleAt0_7 t hc1) (noFlush0_7 t hc1)]
    by_cases hz : t.val = 0
    · rw [acc0_first V c t hz]; unfold hn0; (try dsimp only)
      rw [PhiS0_castSucc V c t, PhiS0_zero V c _ _ hz, PhiA0_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_A c (grid0.coords t) _ _ _ _ _ _ _ _ _ _ _ _ _ _ _ _ _ _ _ _ ((hcond0_0 t).mpr hz) hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc0_later V c t hz]; unfold hn0; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_B c (grid0.coords t) _ _ _ _ _ _ _ _ _ _ _ _ _ _ _ _ _ _ _ _ (fun h => hz ((hcond0_0 t).mp h)) hc1 (iblk0 V c 0 t) (iblk0 V c 1 t) (iblk0 V c 2 t) (iblk0 V c 3 t) (iblk0 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Region

end Cert.Kernel.Hand

end
-- ==== Proof.K.Bn1.lean ====
/-
  Region 1 of the program, the call of `cc1__bn_apply_relu_kernel` (pipeline 1): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out1`): the
  payload `k1_pay1` of the five input blocks at `t`.
-/
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data over `V`'s
    arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched at
    the first point only, and its block index never moves), for any proof data over `V`'s
    arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at
    the first point only, and its block index never moves), for any proof data over `V`'s
    arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at
    the first point only, and its block index never moves), for any proof data over `V`'s
    arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (it is fetched at
    the first point only, and its block index never moves), for any proof data over `V`'s
    arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The two offsets of every load and store of the body are zero. -/
theorem zero_off1 : (![0, 0] : Fin 2 → Nat) = fun _ => 0 := funext fun a => by fin_cases a <;> rfl

/-- Window 5's staging buffer after the body at point `t`: the body's one store, over the whole tile, of the
    normalised tile computed from the five input blocks at `t`. -/
def out1 (c : Dev nD) (t : Fin cfg1.N) : Vec F S5000x128 .f32 :=
  k1_pay1 (iblk1 V c 0 t) (iblk1 V c 1 t) (iblk1 V c 2 t) (iblk1 V c 3 t) (iblk1 V c 4 t)

/-- One store through the whole-tile rectangle, of the payload of whole-buffer loads, leaves the payload of the
    buffers' contents. -/
theorem canon_pay1 (x0 : Vec F S5000x128 .f32) (x1 x2 x3 x4 : Vec F S1x128 .f32) :
    View.canon [(⟨Rect.unit (s := S5000x128) ![0, 0] S5000x128.size inb_S5000x128_S5000x128_0_0,
        k1_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k1_pay1 x0 x1 x2 x3 x4 := by
  rw [View.canon_unit_zero zero_off1]
  simp only [View.ld_unit_zero (S := S5000x128) zero_off1, View.ld_unit_zero (S := S1x128) zero_off1]

/-- The one store covers the tile. -/
theorem cover1 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off1 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__bn_apply_relu_kernel i arg1 harg1 arg2 harg2 arg3 harg3 arg4 harg4 arg5 harg5 arg6 harg6) K := by
  simp only [cc1__bn_apply_relu_kernel_eq_skeleton]; unfold cc1__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover1 _)).trans (canon_pay1 _ _ _ _ _)

/-! ## The pipeline's proof data -/

/-- The proof data of pipeline 1 on core `c`: the arrays as the region finds them; after the body at point `t`
    each input's buffer at its block and the output's at `out1`; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point and after the last is the plain one. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Hand
-- ==== Proof.K.Mlp2Base.lean ====
import proofs.«118775_j16338055594318_1_alg».proof.Proof.K.Mlp0Base
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for any
proof data whose array is `V`'s and whose body leaves the block in place: an unfetched window's block index
has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two conditions of the body, over the grid -/

/-- The first conditional (the scratch rows are reset): its condition from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The last conditional (the scratch rows are copied out): its condition from the grid coordinates. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point nothing is stored into window 6: it is idle there and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is stored into. -/
theorem liveAt2_6 : ∀ t : Fin cfg2.N, cond2_1 (grid2.coords t) → cfg2.idle 6 (grid2.coords t) = false := by decide +kernel
/-- Before the last point nothing is stored into window 7: it is idle there and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is stored into. -/
theorem liveAt2_7 : ∀ t : Fin cfg2.N, cond2_1 (grid2.coords t) → cfg2.idle 7 (grid2.coords t) = false := by decide +kernel

/-! ## The memrefs the body is called with -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two scratch rows: whole scoped buffers of the call's own, passed beside the windows. -/
abbrev scM2_0 : Memref sig .tc .vmem S1x128 .f32 := Memref.whole cc2_scratch0
abbrev scM2_1 : Memref sig .tc .vmem S1x128 .f32 := Memref.whole cc2_scratch1

/-- The whole-block rectangle of a shape, as the body's loads and stores spell it. -/
abbrev rA2 : Rect S5000x128 := Rect.unit (s := S5000x128) ![0, 0] S5000x128.size inb_S5000x128_S5000x128_0_0
abbrev rR2 : Rect S1x128 := Rect.unit (s := S1x128) ![0, 0] S1x128.size inb_S1x128_S1x128_0_0

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- What the launch hands the region, with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.Kernel.Hand

end
-- ==== Proof.K.Mlp2RunA.lean ====
import proofs.«118775_j16338055594318_1_alg».proof.Proof.K.Mlp2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun2_A (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare xi6 ∗ owns (c : Thread nD τ) arg8 fullShare xi7
            ∗ owns (c : Thread nD τ) arg9 fullShare (k2_pay5 x0 x1 x2 x3 x4 k2_pay2) ∗ owns (c : Thread nD τ) arg10 fullShare (k2_pay1 (k2_pay4 x0 x1 x2 x3 x4) k2_pay3)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp2RunB.lean ====
import proofs.«118775_j16338055594318_1_alg».proof.Proof.K.Mlp2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun2_B (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare xi6 ∗ owns (c : Thread nD τ) arg8 fullShare xi7
            ∗ owns (c : Thread nD τ) arg9 fullShare (k2_pay5 x0 x1 x2 x3 x4 xs0) ∗ owns (c : Thread nD τ) arg10 fullShare (k2_pay1 (k2_pay4 x0 x1 x2 x3 x4) xs1)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp2RunC.lean ====
import proofs.«118775_j16338055594318_1_alg».proof.Proof.K.Mlp2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun2_C (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare (k2_pay5 x0 x1 x2 x3 x4 xs0) ∗ owns (c : Thread nD τ) arg8 fullShare (k2_pay1 (k2_pay4 x0 x1 x2 x3 x4) xs1)
            ∗ owns (c : Thread nD τ) arg9 fullShare (k2_pay5 x0 x1 x2 x3 x4 xs0) ∗ owns (c : Thread nD τ) arg10 fullShare (k2_pay1 (k2_pay4 x0 x1 x2 x3 x4) xs1)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp2.lean ====
import proofs.«118775_j16338055594318_1_alg».proof.Proof.K.Mlp2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the proof data, the body obligation, and the invariant's two ends

With `hn2 t` the tile of the MLP's output at point `t` (what the point stores into window 5), the two scratch rows
hold after point `n` the column sums of `hn2 0 … hn2 n` and of their squares, added up from zero in the order of
the points: `acc2`. Windows 6 and 7 receive `acc2` at the last point. -/

section Region
variable (V : (c : Dev nD) → (b : Ref sig .tc) → Buf (Elt F) ((c : Thread nD τ).loc b))

/-- What point `t` stores into window 5: the MLP's output on the point's tile. -/
def hn2 (c : Dev nD) (t : Fin cfg2.N) : Vec F S5000x128 .f32 :=
  k2_pay4 (iblk2 V c 0 t) (iblk2 V c 1 t) (iblk2 V c 2 t) (iblk2 V c 3 t) (iblk2 V c 4 t)

/-- What the two scratch rows hold after point `n`: at the first point the tile's column sums (of the values, of their
    squares) added to zero; afterwards added to what the point before left. -/
def acc2 (c : Dev nD) : (n : ℕ) → n < cfg2.N → Vec F S1x128 .f32 × Vec F S1x128 .f32
  | 0, hn => (k2_pay5 (iblk2 V c 0 ⟨0, hn⟩) (iblk2 V c 1 ⟨0, hn⟩) (iblk2 V c 2 ⟨0, hn⟩) (iblk2 V c 3 ⟨0, hn⟩) (iblk2 V c 4 ⟨0, hn⟩) k2_pay2, k2_pay1 (hn2 V c ⟨0, hn⟩) k2_pay3)
  | n + 1, hn => (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).1,
      k2_pay1 (hn2 V c ⟨n + 1, hn⟩) (acc2 c n (Nat.lt_of_succ_lt hn)).2)

/-- `acc2` at the first point. -/
theorem acc2_first (c : Dev nD) (t : Fin cfg2.N) (hz : t.val = 0) :
    acc2 V c t.val t.isLt = (k2_pay5 (iblk2 V c 0 t) (iblk2 V c 1 t) (iblk2 V c 2 t) (iblk2 V c 3 t) (iblk2 V c 4 t) k2_pay2, k2_pay1 (hn2 V c t) k2_pay3) := by
  obtain ⟨n, hn⟩ := t
  cases n with
  | zero => rfl
  | succ n => exact absurd hz (Nat.succ_ne_zero n)

/-- `acc2` at a later point: over what the point before left. -/
theorem acc2_later (c : Dev nD) (t : Fin cfg2.N) (hz : t.val ≠ 0) :
    acc2 V c t.val t.isLt = (k2_pay5 (iblk2 V c 0 t) (iblk2 V c 1 t) (iblk2 V c 2 t) (iblk2 V c 3 t) (iblk2 V c 4 t) (acc2 V c (t.val - 1) (Nat.lt_of_le_of_lt (Nat.sub_le _ _) t.isLt)).1,
      k2_pay1 (hn2 V c t) (acc2 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc2` of the point before, beside the other scoped buffers and the
    generator register. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

/-- The proof data of the pipeline on core `c`: the arrays as the region finds them; after the body at point `t` each
    input's buffer at its block, window 5's at `hn2 t`, windows 6 and 7 at `acc2 t`; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hn2 V c t
    | ⟨6, _⟩ => (acc2 V c t.val t.isLt).1
    | ⟨7, _⟩ => (acc2 V c t.val t.isLt).2
    | ⟨_ + 8, h⟩ => absurd h (Nat.not_lt.2 (Nat.le_add_left _ _))
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = hn2 V c t := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the point is the first, the last, or one between,
    and that case's run applies; the invariant hands the body the scratch rows (at anything at the first point, at
    `acc2` of the point before afterwards) and takes them back at `acc2` of this point; the other scoped buffers, the
    generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt (show cfg2.N = 10 from N_2)
  by_cases h9 : t.val = 9
  · have h0 : ¬t.val = 0 := by omega
    rw [show (dat2 V c).leavesExact 6 t = owns (c : Thread nD τ) (ms2_6 t) fullShare ((dat2 V c).after 6 t) from by
      unfold Dat.leavesExact; rw [liveAt2_6 t ((hcond2_1 t).mpr h9)], after2_6]
    rw [show (dat2 V c).leavesExact 7 t = owns (c : Thread nD τ) (ms2_7 t) fullShare ((dat2 V c).after 7 t) from by
      unfold Dat.leavesExact; rw [liveAt2_7 t ((hcond2_1 t).mpr h9)], after2_7]
    rw [acc2_later V c t h0]; unfold hn2; (try dsimp only)
    rw [PhiS2_castSucc V c t, PhiS2_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun2_C c (grid2.coords t) _ _ _ _ _ _ _ _ _ _ _ _ _ _ _ _ _ _ _ _ (fun h => h0 ((hcond2_0 t).mp h)) ((hcond2_1 t).mpr h9) (iblk2 V c 0 t) (iblk2 V c 1 t) (iblk2 V c 2 t) (iblk2 V c 3 t) (iblk2 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h9 ((hcond2_1 t).mp h)
    rw [Dat.leavesExact_idle (dat2 V c) 6 t (idleAt2_6 t hc1) (noFlush2_6 t hc1)]
    rw [Dat.leavesExact_idle (dat2 V c) 7 t (idleAt2_7 t hc1) (noFlush2_7 t hc1)]
    by_cases hz : t.val = 0
    · rw [acc2_first V c t hz]; unfold hn2; (try dsimp only)
      rw [PhiS2_castSucc V c t, PhiS2_zero V c _ _ hz, PhiA2_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_A c (grid2.coords t) _ _ _ _ _ _ _ _ _ _ _ _ _ _ _ _ _ _ _ _ ((hcond2_0 t).mpr hz) hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc2_later V c t hz]; unfold hn2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_B c (grid2.coords t) _ _ _ _ _ _ _ _ _ _ _ _ _ _ _ _ _ _ _ _ (fun h => hz ((hcond2_0 t).mp h)) hc1 (iblk2 V c 0 t) (iblk2 V c 1 t) (iblk2 V c 2 t) (iblk2 V c 3 t) (iblk2 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.Kernel.Hand

end
-- ==== Proof.K.Bn3.lean ====
/-
  Region 3 of the program, the call of `cc3__bn_apply_relu_kernel` (pipeline 3): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out3`): the
  payload `k3_pay1` of the five input blocks at `t`.
-/
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data over `V`'s
    arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (it is fetched at
    the first point only, and its block index never moves), for any proof data over `V`'s
    arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (it is fetched at
    the first point only, and its block index never moves), for any proof data over `V`'s
    arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (it is fetched at
    the first point only, and its block index never moves), for any proof data over `V`'s
    arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (it is fetched at
    the first point only, and its block index never moves), for any proof data over `V`'s
    arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The two offsets of every load and store of the body are zero. -/
theorem zero_off3 : (![0, 0] : Fin 2 → Nat) = fun _ => 0 := funext fun a => by fin_cases a <;> rfl

/-- Window 5's staging buffer after the body at point `t`: the body's one store, over the whole tile, of the
    normalised tile computed from the five input blocks at `t`. -/
def out3 (c : Dev nD) (t : Fin cfg3.N) : Vec F S5000x128 .f32 :=
  k3_pay1 (iblk3 V c 0 t) (iblk3 V c 1 t) (iblk3 V c 2 t) (iblk3 V c 3 t) (iblk3 V c 4 t)

/-- One store through the whole-tile rectangle, of the payload of whole-buffer loads, leaves the payload of the
    buffers' contents. -/
theorem canon_pay3 (x0 : Vec F S5000x128 .f32) (x1 x2 x3 x4 : Vec F S1x128 .f32) :
    View.canon [(⟨Rect.unit (s := S5000x128) ![0, 0] S5000x128.size inb_S5000x128_S5000x128_0_0,
        k3_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k3_pay1 x0 x1 x2 x3 x4 := by
  rw [View.canon_unit_zero zero_off3]
  simp only [View.ld_unit_zero (S := S5000x128) zero_off3, View.ld_unit_zero (S := S1x128) zero_off3]

/-- The one store covers the tile. -/
theorem cover3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off3 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_apply_relu_kernel i arg1 harg1 arg2 harg2 arg3 harg3 arg4 harg4 arg5 harg5 arg6 harg6) K := by
  simp only [cc3__bn_apply_relu_kernel_eq_skeleton]; unfold cc3__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover3 _)).trans (canon_pay3 _ _ _ _ _)

/-! ## The pipeline's proof data -/

/-- The proof data of pipeline 3 on core `c`: the arrays as the region finds them; after the body at point `t`
    each input's buffer at its block and the output's at `out3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 V c t := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold out3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant before the first point and after the last is the plain one. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand
-- ==== Proof.K.Mlp4Base.lean ====
import proofs.«118775_j16338055594318_1_alg».proof.Proof.K.Mlp0Base
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for any
proof data whose array is `V`'s and whose body leaves the block in place: an unfetched window's block index
has not moved since the point that fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The two conditions of the body, over the grid -/

/-- The first conditional (the scratch rows are reset): its condition from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The last conditional (the scratch rows are copied out): its condition from the grid coordinates. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point nothing is stored into window 6: it is idle there and not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is stored into. -/
theorem liveAt4_6 : ∀ t : Fin cfg4.N, cond4_1 (grid4.coords t) → cfg4.idle 6 (grid4.coords t) = false := by decide +kernel
/-- Before the last point nothing is stored into window 7: it is idle there and not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last point it is stored into. -/
theorem liveAt4_7 : ∀ t : Fin cfg4.N, cond4_1 (grid4.coords t) → cfg4.idle 7 (grid4.coords t) = false := by decide +kernel

/-! ## The memrefs the body is called with -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two scratch rows: whole scoped buffers of the call's own, passed beside the windows. -/
abbrev scM4_0 : Memref sig .tc .vmem S1x128 .f32 := Memref.whole cc4_scratch0
abbrev scM4_1 : Memref sig .tc .vmem S1x128 .f32 := Memref.whole cc4_scratch1

/-- The whole-block rectangle of a shape, as the body's loads and stores spell it. -/
abbrev rA4 : Rect S5000x128 := Rect.unit (s := S5000x128) ![0, 0] S5000x128.size inb_S5000x128_S5000x128_0_0
abbrev rR4 : Rect S1x128 := Rect.unit (s := S1x128) ![0, 0] S1x128.size inb_S1x128_S1x128_0_0

/-- Every other scoped buffer of the core (the other calls' staging buffers and scratch), unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- What the launch hands the region, with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.Kernel.Hand

end
-- ==== Proof.K.Mlp4RunA.lean ====
import proofs.«118775_j16338055594318_1_alg».proof.Proof.K.Mlp4Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun4_A (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare xi6 ∗ owns (c : Thread nD τ) arg8 fullShare xi7
            ∗ owns (c : Thread nD τ) arg9 fullShare (k4_pay5 x0 x1 x2 x3 x4 k4_pay2) ∗ owns (c : Thread nD τ) arg10 fullShare (k4_pay1 (k4_pay4 x0 x1 x2 x3 x4) k4_pay3)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp4RunB.lean ====
import proofs.«118775_j16338055594318_1_alg».proof.Proof.K.Mlp4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun4_B (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare xi6 ∗ owns (c : Thread nD τ) arg8 fullShare xi7
            ∗ owns (c : Thread nD τ) arg9 fullShare (k4_pay5 x0 x1 x2 x3 x4 xs0) ∗ owns (c : Thread nD τ) arg10 fullShare (k4_pay1 (k4_pay4 x0 x1 x2 x3 x4) xs1)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp4RunC.lean ====
import proofs.«118775_j16338055594318_1_alg».proof.Proof.K.Mlp4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun4_C (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare (k4_pay5 x0 x1 x2 x3 x4 xs0) ∗ owns (c : Thread nD τ) arg8 fullShare (k4_pay1 (k4_pay4 x0 x1 x2 x3 x4) xs1)
            ∗ owns (c : Thread nD τ) arg9 fullShare (k4_pay5 x0 x1 x2 x3 x4 xs0) ∗ owns (c : Thread nD τ) arg10 fullShare (k4_pay1 (k4_pay4 x0 x1 x2 x3 x4) xs1)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp4.lean ====
import proofs.«118775_j16338055594318_1_alg».proof.Proof.K.Mlp4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the proof data, the body obligation, and the invariant's two ends

With `hn4 t` the tile of the MLP's output at point `t` (what the point stores into window 5), the two scratch rows
hold after point `n` the column sums of `hn4 0 … hn4 n` and of their squares, added up from zero in the order of
the points: `acc4`. Windows 6 and 7 receive `acc4` at the last point. -/

section Region
variable (V : (c : Dev nD) → (b : Ref sig .tc) → Buf (Elt F) ((c : Thread nD τ).loc b))

/-- What point `t` stores into window 5: the MLP's output on the point's tile. -/
def hn4 (c : Dev nD) (t : Fin cfg4.N) : Vec F S5000x128 .f32 :=
  k4_pay4 (iblk4 V c 0 t) (iblk4 V c 1 t) (iblk4 V c 2 t) (iblk4 V c 3 t) (iblk4 V c 4 t)

/-- What the two scratch rows hold after point `n`: at the first point the tile's column sums (of the values, of their
    squares) added to zero; afterwards added to what the point before left. -/
def acc4 (c : Dev nD) : (n : ℕ) → n < cfg4.N → Vec F S1x128 .f32 × Vec F S1x128 .f32
  | 0, hn => (k4_pay5 (iblk4 V c 0 ⟨0, hn⟩) (iblk4 V c 1 ⟨0, hn⟩) (iblk4 V c 2 ⟨0, hn⟩) (iblk4 V c 3 ⟨0, hn⟩) (iblk4 V c 4 ⟨0, hn⟩) k4_pay2, k4_pay1 (hn4 V c ⟨0, hn⟩) k4_pay3)
  | n + 1, hn => (k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (acc4 c n (Nat.lt_of_succ_lt hn)).1,
      k4_pay1 (hn4 V c ⟨n + 1, hn⟩) (acc4 c n (Nat.lt_of_succ_lt hn)).2)

/-- `acc4` at the first point. -/
theorem acc4_first (c : Dev nD) (t : Fin cfg4.N) (hz : t.val = 0) :
    acc4 V c t.val t.isLt = (k4_pay5 (iblk4 V c 0 t) (iblk4 V c 1 t) (iblk4 V c 2 t) (iblk4 V c 3 t) (iblk4 V c 4 t) k4_pay2, k4_pay1 (hn4 V c t) k4_pay3) := by
  obtain ⟨n, hn⟩ := t
  cases n with
  | zero => rfl
  | succ n => exact absurd hz (Nat.succ_ne_zero n)

/-- `acc4` at a later point: over what the point before left. -/
theorem acc4_later (c : Dev nD) (t : Fin cfg4.N) (hz : t.val ≠ 0) :
    acc4 V c t.val t.isLt = (k4_pay5 (iblk4 V c 0 t) (iblk4 V c 1 t) (iblk4 V c 2 t) (iblk4 V c 3 t) (iblk4 V c 4 t) (acc4 V c (t.val - 1) (Nat.lt_of_le_of_lt (Nat.sub_le _ _) t.isLt)).1,
      k4_pay1 (hn4 V c t) (acc4 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc4` of the point before, beside the other scoped buffers and the
    generator register. -/
def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2) ∗ rest4 c) ∗ (∃ r, prngReg c r)) := by
  cases n with
  | zero => exact absurd rfl hz
  | succ n => rfl

/-- The proof data of the pipeline on core `c`: the arrays as the region finds them; after the body at point `t` each
    input's buffer at its block, window 5's at `hn4 t`, windows 6 and 7 at `acc4 t`; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => hn4 V c t
    | ⟨6, _⟩ => (acc4 V c t.val t.isLt).1
    | ⟨7, _⟩ => (acc4 V c t.val t.isLt).2
    | ⟨_ + 8, h⟩ => absurd h (Nat.not_lt.2 (Nat.le_add_left _ _))
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = hn4 V c t := by dsimp only [dat4]
theorem after4_6 (c : Dev nD) (t : Fin cfg4.N) : (dat4 V c).after 6 t = (acc4 V c t.val t.isLt).1 := by dsimp only [dat4]
theorem after4_7 (c : Dev nD) (t : Fin cfg4.N) : (dat4 V c).after 7 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the point is the first, the last, or one between,
    and that case's run applies; the invariant hands the body the scratch rows (at anything at the first point, at
    `acc4` of the point before afterwards) and takes them back at `acc4` of this point; the other scoped buffers, the
    generator register and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 10 := lt_of_lt_of_eq t.isLt (show cfg4.N = 10 from N_4)
  by_cases h9 : t.val = 9
  · have h0 : ¬t.val = 0 := by omega
    rw [show (dat4 V c).leavesExact 6 t = owns (c : Thread nD τ) (ms4_6 t) fullShare ((dat4 V c).after 6 t) from by
      unfold Dat.leavesExact; rw [liveAt4_6 t ((hcond4_1 t).mpr h9)], after4_6]
    rw [show (dat4 V c).leavesExact 7 t = owns (c : Thread nD τ) (ms4_7 t) fullShare ((dat4 V c).after 7 t) from by
      unfold Dat.leavesExact; rw [liveAt4_7 t ((hcond4_1 t).mpr h9)], after4_7]
    rw [acc4_later V c t h0]; unfold hn4; (try dsimp only)
    rw [PhiS4_castSucc V c t, PhiS4_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun4_C c (grid4.coords t) _ _ _ _ _ _ _ _ _ _ _ _ _ _ _ _ _ _ _ _ (fun h => h0 ((hcond4_0 t).mp h)) ((hcond4_1 t).mpr h9) (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond4_1 (grid4.coords t) := fun h => h9 ((hcond4_1 t).mp h)
    rw [Dat.leavesExact_idle (dat4 V c) 6 t (idleAt4_6 t hc1) (noFlush4_6 t hc1)]
    rw [Dat.leavesExact_idle (dat4 V c) 7 t (idleAt4_7 t hc1) (noFlush4_7 t hc1)]
    by_cases hz : t.val = 0
    · rw [acc4_first V c t hz]; unfold hn4; (try dsimp only)
      rw [PhiS4_castSucc V c t, PhiS4_zero V c _ _ hz, PhiA4_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun4_A c (grid4.coords t) _ _ _ _ _ _ _ _ _ _ _ _ _ _ _ _ _ _ _ _ ((hcond4_0 t).mpr hz) hc1 (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc4_later V c t hz]; unfold hn4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun4_B c (grid4.coords t) _ _ _ _ _ _ _ _ _ _ _ _ _ _ _ _ _ _ _ _ (fun h => hz ((hcond4_0 t).mp h)) hc1 (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Region

end Cert.Kernel.Hand

end
-- ==== Proof.K.Bn5.lean ====
/-
  Region 5 of the program, the call of `cc5__bn_apply_relu_kernel` (pipeline 5): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out5`): the
  payload `k5_pay1` of the five input blocks at `t`.
-/
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data over `V`'s
    arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (it is fetched at
    the first point only, and its block index never moves), for any proof data over `V`'s
    arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (it is fetched at
    the first point only, and its block index never moves), for any proof data over `V`'s
    arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (it is fetched at
    the first point only, and its block index never moves), for any proof data over `V`'s
    arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (it is fetched at
    the first point only, and its block index never moves), for any proof data over `V`'s
    arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer -/

/-- The two offsets of every load and store of the body are zero. -/
theorem zero_off5 : (![0, 0] : Fin 2 → Nat) = fun _ => 0 := funext fun a => by fin_cases a <;> rfl

/-- Window 5's staging buffer after the body at point `t`: the body's one store, over the whole tile, of the
    normalised tile computed from the five input blocks at `t`. -/
def out5 (c : Dev nD) (t : Fin cfg5.N) : Vec F S5000x128 .f32 :=
  k5_pay1 (iblk5 V c 0 t) (iblk5 V c 1 t) (iblk5 V c 2 t) (iblk5 V c 3 t) (iblk5 V c 4 t)

/-- One store through the whole-tile rectangle, of the payload of whole-buffer loads, leaves the payload of the
    buffers' contents. -/
theorem canon_pay5 (x0 : Vec F S5000x128 .f32) (x1 x2 x3 x4 : Vec F S1x128 .f32) :
    View.canon [(⟨Rect.unit (s := S5000x128) ![0, 0] S5000x128.size inb_S5000x128_S5000x128_0_0,
        k5_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k5_pay1 x0 x1 x2 x3 x4 := by
  rw [View.canon_unit_zero zero_off5]
  simp only [View.ld_unit_zero (S := S5000x128) zero_off5, View.ld_unit_zero (S := S1x128) zero_off5]

/-- The one store covers the tile. -/
theorem cover5 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off5 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__bn_apply_relu_kernel i arg1 harg1 arg2 harg2 arg3 harg3 arg4 harg4 arg5 harg5 arg6 harg6) K := by
  simp only [cc5__bn_apply_relu_kernel_eq_skeleton]; unfold cc5__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover5 _)).trans (canon_pay5 _ _ _ _ _)

/-! ## The pipeline's proof data -/

/-- The proof data of pipeline 5 on core `c`: the arrays as the region finds them; after the body at point `t`
    each input's buffer at its block and the output's at `out5`; the plain invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c t := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  unfold out5
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The invariant before the first point and after the last is the plain one. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand
-- ==== Proof.K.Mlp6Base.lean ====
import proofs.«118775_j16338055594318_1_alg».proof.Proof.K.Mlp0Base
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not, for any
proof data whose array is `V`'s and whose body leaves the block in place: an unfetched window's block index
has not moved since the point that fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end Region

/-! ## The two conditions of the body, over the grid -/

/-- The first conditional (the scratch rows are reset): its condition from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The last conditional (the scratch rows are copied out): its condition from the grid coordinates. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Before the last point nothing is stored into window 6: it is idle there and not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
/-- At the last point it is stored into. -/
theorem liveAt6_6 : ∀ t : Fin cfg6.N, cond6_1 (grid6.coords t) → cfg6.idle 6 (grid6.coords t) = false := by decide +kernel
/-- Before the last point nothing is stored into window 7: it is idle there and not written back. -/
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
/-- At the last point it is stored into. -/
theorem liveAt6_7 : ∀ t : Fin cfg6.N, cond6_1 (grid6.coords t) → cfg6.idle 7 (grid6.coords t) = false := by decide +kernel

/-! ## The memrefs the body is called with -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
/-- The two scratch rows: whole scoped buffers of the call's own, passed beside the windows. -/
abbrev scM6_0 : Memref sig .tc .vmem S1x128 .f32 := Memref.whole cc6_scratch0
abbrev scM6_1 : Memref sig .tc .vmem S1x128 .f32 := Memref.whole cc6_scratch1

/-- The whole-block rectangle of a shape, as the body's loads and stores spell it. -/
abbrev rA6 : Rect S5000x128 := Rect.unit (s := S5000x128) ![0, 0] S5000x128.size inb_S5000x128_S5000x128_0_0
abbrev rR6 : Rect S1x128 := Rect.unit (s := S1x128) ![0, 0] S1x128.size inb_S1x128_S1x128_0_0

/-- Every other scoped buffer of the core (the other calls' staging buffers and scratch), unopened. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- What the launch hands the region, with the two scratch rows as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.Kernel.Hand

end
-- ==== Proof.K.Mlp6RunA.lean ====
import proofs.«118775_j16338055594318_1_alg».proof.Proof.K.Mlp6Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun6_A (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i) (hc1 : ¬cond6_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare xi6 ∗ owns (c : Thread nD τ) arg8 fullShare xi7
            ∗ owns (c : Thread nD τ) arg9 fullShare (k6_pay5 x0 x1 x2 x3 x4 k6_pay2) ∗ owns (c : Thread nD τ) arg10 fullShare (k6_pay1 (k6_pay4 x0 x1 x2 x3 x4) k6_pay3)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp6RunB.lean ====
import proofs.«118775_j16338055594318_1_alg».proof.Proof.K.Mlp6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun6_B (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i) (hc1 : ¬cond6_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare xi6 ∗ owns (c : Thread nD τ) arg8 fullShare xi7
            ∗ owns (c : Thread nD τ) arg9 fullShare (k6_pay5 x0 x1 x2 x3 x4 xs0) ∗ owns (c : Thread nD τ) arg10 fullShare (k6_pay1 (k6_pay4 x0 x1 x2 x3 x4) xs1)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp6RunC.lean ====
import proofs.«118775_j16338055594318_1_alg».proof.Proof.K.Mlp6RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun6_C (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i) (hc1 : cond6_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare (k6_pay5 x0 x1 x2 x3 x4 xs0) ∗ owns (c : Thread nD τ) arg8 fullShare (k6_pay1 (k6_pay4 x0 x1 x2 x3 x4) xs1)
            ∗ owns (c : Thread nD τ) arg9 fullShare (k6_pay5 x0 x1 x2 x3 x4 xs0) ∗ owns (c : Thread nD τ) arg10 fullShare (k6_pay1 (k6_pay4 x0 x1 x2 x3 x4) xs1)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp6.lean ====
import proofs.«118775_j16338055594318_1_alg».proof.Proof.K.Mlp6RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the proof data, the body obligation, and the invariant's two ends

With `hn6 t` the tile of the MLP's output at point `t` (what the point stores into window 5), the two scratch rows
hold after point `n` the column sums of `hn6 0 … hn6 n` and of their squares, added up from zero in the order of
the points: `acc6`. Windows 6 and 7 receive `acc6` at the last point. -/

section Region
variable (V : (c : Dev nD) → (b : Ref sig .tc) → Buf (Elt F) ((c : Thread nD τ).loc b))

/-- What point `t` stores into window 5: the MLP's output on the point's tile. -/
def hn6 (c : Dev nD) (t : Fin cfg6.N) : Vec F S5000x128 .f32 :=
  k6_pay4 (iblk6 V c 0 t) (iblk6 V c 1 t) (iblk6 V c 2 t) (iblk6 V c 3 t) (iblk6 V c 4 t)

/-- What the two scratch rows hold after point `n`: at the first point the tile's column sums (of the values, of their
    squares) added to zero; afterwards added to what the point before left. -/
def acc6 (c : Dev nD) : (n : ℕ) → n < cfg6.N → Vec F S1x128 .f32 × Vec F S1x128 .f32
  | 0, hn => (k6_pay5 (iblk6 V c 0 ⟨0, hn⟩) (iblk6 V c 1 ⟨0, hn⟩) (iblk6 V c 2 ⟨0, hn⟩) (iblk6 V c 3 ⟨0, hn⟩) (iblk6 V c 4 ⟨0, hn⟩) k6_pay2, k6_pay1 (hn6 V c ⟨0, hn⟩) k6_pay3)
  | n + 1, hn => (k6_pay5 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (acc6 c n (Nat.lt_of_succ_lt hn)).1,
      k6_pay1 (hn6 V c ⟨n + 1, hn⟩) (acc6 c n (Nat.lt_of_succ_lt hn)).2)

/-- `acc6` at the first point. -/
theorem acc6_first (c : Dev nD) (t : Fin cfg6.N) (hz : t.val = 0) :
    acc6 V c t.val t.isLt = (k6_pay5 (iblk6 V c 0 t) (iblk6 V c 1 t) (iblk6 V c 2 t) (iblk6 V c 3 t) (iblk6 V c 4 t) k6_pay2, k6_pay1 (hn6 V c t) k6_pay3) := by
  obtain ⟨n, hn⟩ := t
  cases n with
  | zero => rfl
  | succ n => exact absurd hz (Nat.succ_ne_zero n)

/-- `acc6` at a later point: over what the point before left. -/
theorem acc6_later (c : Dev nD) (t : Fin cfg6.N) (hz : t.val ≠ 0) :
    acc6 V c t.val t.isLt = (k6_pay5 (iblk6 V c 0 t) (iblk6 V c 1 t) (iblk6 V c 2 t) (iblk6 V c 3 t) (iblk6 V c 4 t) (acc6 V c (t.val - 1) (Nat.lt_of_le_of_lt (Nat.sub_le _ _) t.isLt)).1,
      k6_pay1 (hn6 V c t) (acc6 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc6` of the point before, beside the other scoped buffers and the
    generator register. -/
def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2) ∗ rest6 c) ∗ (∃ r, prngReg c r)) := by
  cases n with
  | zero => exact absurd rfl hz
  | succ n => rfl

/-- The proof data of the pipeline on core `c`: the arrays as the region finds them; after the body at point `t` each
    input's buffer at its block, window 5's at `hn6 t`, windows 6 and 7 at `acc6 t`; the invariant `PhiS6`; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => hn6 V c t
    | ⟨6, _⟩ => (acc6 V c t.val t.isLt).1
    | ⟨7, _⟩ => (acc6 V c t.val t.isLt).2
    | ⟨_ + 8, h⟩ => absurd h (Nat.not_lt.2 (Nat.le_add_left _ _))
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = hn6 V c t := by dsimp only [dat6]
theorem after6_6 (c : Dev nD) (t : Fin cfg6.N) : (dat6 V c).after 6 t = (acc6 V c t.val t.isLt).1 := by dsimp only [dat6]
theorem after6_7 (c : Dev nD) (t : Fin cfg6.N) : (dat6 V c).after 7 t = (acc6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
/-- The body at any point: the inputs' memrefs hold their blocks; the point is the first, the last, or one between,
    and that case's run applies; the invariant hands the body the scratch rows (at anything at the first point, at
    `acc6` of the point before afterwards) and takes them back at `acc6` of this point; the other scoped buffers, the
    generator register and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  have hN : t.val < 10 := lt_of_lt_of_eq t.isLt (show cfg6.N = 10 from N_6)
  by_cases h9 : t.val = 9
  · have h0 : ¬t.val = 0 := by omega
    rw [show (dat6 V c).leavesExact 6 t = owns (c : Thread nD τ) (ms6_6 t) fullShare ((dat6 V c).after 6 t) from by
      unfold Dat.leavesExact; rw [liveAt6_6 t ((hcond6_1 t).mpr h9)], after6_6]
    rw [show (dat6 V c).leavesExact 7 t = owns (c : Thread nD τ) (ms6_7 t) fullShare ((dat6 V c).after 7 t) from by
      unfold Dat.leavesExact; rw [liveAt6_7 t ((hcond6_1 t).mpr h9)], after6_7]
    rw [acc6_later V c t h0]; unfold hn6; (try dsimp only)
    rw [PhiS6_castSucc V c t, PhiS6_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun6_C c (grid6.coords t) _ _ _ _ _ _ _ _ _ _ _ _ _ _ _ _ _ _ _ _ (fun h => h0 ((hcond6_0 t).mp h)) ((hcond6_1 t).mpr h9) (iblk6 V c 0 t) (iblk6 V c 1 t) (iblk6 V c 2 t) (iblk6 V c 3 t) (iblk6 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond6_1 (grid6.coords t) := fun h => h9 ((hcond6_1 t).mp h)
    rw [Dat.leavesExact_idle (dat6 V c) 6 t (idleAt6_6 t hc1) (noFlush6_6 t hc1)]
    rw [Dat.leavesExact_idle (dat6 V c) 7 t (idleAt6_7 t hc1) (noFlush6_7 t hc1)]
    by_cases hz : t.val = 0
    · rw [acc6_first V c t hz]; unfold hn6; (try dsimp only)
      rw [PhiS6_castSucc V c t, PhiS6_zero V c _ _ hz, PhiA6_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun6_A c (grid6.coords t) _ _ _ _ _ _ _ _ _ _ _ _ _ _ _ _ _ _ _ _ ((hcond6_0 t).mpr hz) hc1 (iblk6 V c 0 t) (iblk6 V c 1 t) (iblk6 V c 2 t) (iblk6 V c 3 t) (iblk6 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc6_later V c t hz]; unfold hn6; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun6_B c (grid6.coords t) _ _ _ _ _ _ _ _ _ _ _ _ _ _ _ _ _ _ _ _ (fun h => hz ((hcond6_0 t).mp h)) hc1 (iblk6 V c 0 t) (iblk6 V c 1 t) (iblk6 V c 2 t) (iblk6 V c 3 t) (iblk6 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the scratch rows' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region

end Cert.Kernel.Hand

end
-- ==== Proof.K.Bn7.lean ====
/-
  Region 7 of the program, the call of `cc7__bn_apply_relu_kernel` (pipeline 7): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out7`): the
  payload `k7_pay1` of the five input blocks at `t`.
-/
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data over `V`'s
    arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (it is fetched at
    the first point only, and its block index never moves), for any proof data over `V`'s
    arrays whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (it is fetched at
    the first point only, and its block index never moves), for any proof data over `V`'s
    arrays whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (it is fetched at
    the first point only, and its block index never moves), for any proof data over `V`'s
    arrays whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (it is fetched at
    the first point only, and its block index never moves), for any proof data over `V`'s
    arrays whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer -/

/-- The two offsets of every load and store of the body are zero. -/
theorem zero_off7 : (![0, 0] : Fin 2 → Nat) = fun _ => 0 := funext fun a => by fin_cases a <;> rfl

/-- Window 5's staging buffer after the body at point `t`: the body's one store, over the whole tile, of the
    normalised tile computed from the five input blocks at `t`. -/
def out7 (c : Dev nD) (t : Fin cfg7.N) : Vec F S5000x128 .f32 :=
  k7_pay1 (iblk7 V c 0 t) (iblk7 V c 1 t) (iblk7 V c 2 t) (iblk7 V c 3 t) (iblk7 V c 4 t)

/-- One store through the whole-tile rectangle, of the payload of whole-buffer loads, leaves the payload of the
    buffers' contents. -/
theorem canon_pay7 (x0 : Vec F S5000x128 .f32) (x1 x2 x3 x4 : Vec F S1x128 .f32) :
    View.canon [(⟨Rect.unit (s := S5000x128) ![0, 0] S5000x128.size inb_S5000x128_S5000x128_0_0,
        k7_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k7_pay1 x0 x1 x2 x3 x4 := by
  rw [View.canon_unit_zero zero_off7]
  simp only [View.ld_unit_zero (S := S5000x128) zero_off7, View.ld_unit_zero (S := S1x128) zero_off7]

/-- The one store covers the tile. -/
theorem cover7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off7 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k7_pay1 x0 x1 x2 x3 x4)) -∗ K ⟨⟩))
      ⊢ wp frame (wpE (defs₀ (F := F)) Variants.none c none) E (cc7__bn_apply_relu_kernel i arg1 harg1 arg2 harg2 arg3 harg3 arg4 harg4 arg5 harg5 arg6 harg6) K := by
  simp only [cc7__bn_apply_relu_kernel_eq_skeleton]; unfold cc7__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover7 _)).trans (canon_pay7 _ _ _ _ _)

/-! ## The pipeline's proof data -/

/-- The proof data of pipeline 7 on core `c`: the arrays as the region finds them; after the body at point `t`
    each input's buffer at its block and the output's at `out7`; the plain invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 V c t
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  unfold out7
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- The invariant before the first point and after the last is the plain one. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.Kernel.Hand
-- ==== Proof.K.Mlp8Base.lean ====
import proofs.«118775_j16338055594318_1_alg».proof.Proof.K.Mlp0Base
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point, fetched there or not, for any
proof data whose array is `V`'s and whose body leaves the block in place: an unfetched window's block index
has not moved since the point that fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

end Region

/-! ## The two conditions of the body, over the grid -/

/-- The first conditional (the scratch rows are reset): its condition from the grid coordinates. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The last conditional (the scratch rows are copied out): its condition from the grid coordinates. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
/-- Before the last point nothing is stored into window 6: it is idle there and not written back. -/
theorem idleAt8_6 : ∀ t : Fin cfg8.N, ¬cond8_1 (grid8.coords t) → cfg8.idle 6 (grid8.coords t) = true := by decide +kernel
theorem noFlush8_6 : ∀ t : Fin cfg8.N, ¬cond8_1 (grid8.coords t) → (cfg8.win 6).flush t = false := by decide +kernel
/-- At the last point it is stored into. -/
theorem liveAt8_6 : ∀ t : Fin cfg8.N, cond8_1 (grid8.coords t) → cfg8.idle 6 (grid8.coords t) = false := by decide +kernel
/-- Before the last point nothing is stored into window 7: it is idle there and not written back. -/
theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
/-- At the last point it is stored into. -/
theorem liveAt8_7 : ∀ t : Fin cfg8.N, cond8_1 (grid8.coords t) → cfg8.idle 7 (grid8.coords t) = false := by decide +kernel

/-! ## The memrefs the body is called with -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S128x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S256x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S5000x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
/-- The two scratch rows: whole scoped buffers of the call's own, passed beside the windows. -/
abbrev scM8_0 : Memref sig .tc .vmem S1x128 .f32 := Memref.whole cc8_scratch0
abbrev scM8_1 : Memref sig .tc .vmem S1x128 .f32 := Memref.whole cc8_scratch1

/-- The whole-block rectangle of a shape, as the body's loads and stores spell it. -/
abbrev rA8 : Rect S5000x128 := Rect.unit (s := S5000x128) ![0, 0] S5000x128.size inb_S5000x128_S5000x128_0_0
abbrev rR8 : Rect S1x128 := Rect.unit (s := S1x128) ![0, 0] S1x128.size inb_S1x128_S1x128_0_0

/-- Every other scoped buffer of the core (the other calls' staging buffers and scratch), unopened. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- What the launch hands the region, with the two scratch rows as memrefs owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

end Cert.Kernel.Hand

end
-- ==== Proof.K.Mlp8RunA.lean ====
import proofs.«118775_j16338055594318_1_alg».proof.Proof.K.Mlp8Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun8_A (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond8_0 i) (hc1 : ¬cond8_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare xi6 ∗ owns (c : Thread nD τ) arg8 fullShare xi7
            ∗ owns (c : Thread nD τ) arg9 fullShare (k8_pay5 x0 x1 x2 x3 x4 k8_pay2) ∗ owns (c : Thread nD τ) arg10 fullShare (k8_pay1 (k8_pay4 x0 x1 x2 x3 x4) k8_pay3)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp8RunB.lean ====
import proofs.«118775_j16338055594318_1_alg».proof.Proof.K.Mlp8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun8_B (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i) (hc1 : ¬cond8_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare xi6 ∗ owns (c : Thread nD τ) arg8 fullShare xi7
            ∗ owns (c : Thread nD τ) arg9 fullShare (k8_pay5 x0 x1 x2 x3 x4 xs0) ∗ owns (c : Thread nD τ) arg10 fullShare (k8_pay1 (k8_pay4 x0 x1 x2 x3 x4) xs1)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp8RunC.lean ====
import proofs.«118775_j16338055594318_1_alg».proof.Proof.K.Mlp8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun8_C (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i) (hc1 : cond8_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare (k8_pay5 x0 x1 x2 x3 x4 xs0) ∗ owns (c : Thread nD τ) arg8 fullShare (k8_pay1 (k8_pay4 x0 x1 x2 x3 x4) xs1)
            ∗ owns (c : Thread nD τ) arg9 fullShare (k8_pay5 x0 x1 x2 x3 x4 xs0) ∗ owns (c : Thread nD τ) arg10 fullShare (k8_pay1 (k8_pay4 x0 x1 x2 x3 x4) xs1)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.Kernel.Hand

end
-- ==== Proof.K.Mlp8.lean ====
import proofs.«118775_j16338055594318_1_alg».proof.Proof.K.Mlp8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the proof data, the body obligation, and the invariant's two ends

With `hn8 t` the tile of the MLP's output at point `t` (what the point stores into window 5), the two scratch rows
hold after point `n` the column sums of `hn8 0 … hn8 n` and of their squares, added up from zero in the order of
the points: `acc8`. Windows 6 and 7 receive `acc8` at the last point. -/

section Region
variable (V : (c : Dev nD) → (b : Ref sig .tc) → Buf (Elt F) ((c : Thread nD τ).loc b))

/-- What point `t` stores into window 5: the MLP's output on the point's tile. -/
def hn8 (c : Dev nD) (t : Fin cfg8.N) : Vec F S5000x128 .f32 :=
  k8_pay4 (iblk8 V c 0 t) (iblk8 V c 1 t) (iblk8 V c 2 t) (iblk8 V c 3 t) (iblk8 V c 4 t)

/-- What the two scratch rows hold after point `n`: at the first point the tile's column sums (of the values, of their
    squares) added to zero; afterwards added to what the point before left. -/
def acc8 (c : Dev nD) : (n : ℕ) → n < cfg8.N → Vec F S1x128 .f32 × Vec F S1x128 .f32
  | 0, hn => (k8_pay5 (iblk8 V c 0 ⟨0, hn⟩) (iblk8 V c 1 ⟨0, hn⟩) (iblk8 V c 2 ⟨0, hn⟩) (iblk8 V c 3 ⟨0, hn⟩) (iblk8 V c 4 ⟨0, hn⟩) k8_pay2, k8_pay1 (hn8 V c ⟨0, hn⟩) k8_pay3)
  | n + 1, hn => (k8_pay5 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (acc8 c n (Nat.lt_of_succ_lt hn)).1,
      k8_pay1 (hn8 V c ⟨n + 1, hn⟩) (acc8 c n (Nat.lt_of_succ_lt hn)).2)

/-- `acc8` at the first point. -/
theorem acc8_first (c : Dev nD) (t : Fin cfg8.N) (hz : t.val = 0) :
    acc8 V c t.val t.isLt = (k8_pay5 (iblk8 V c 0 t) (iblk8 V c 1 t) (iblk8 V c 2 t) (iblk8 V c 3 t) (iblk8 V c 4 t) k8_pay2, k8_pay1 (hn8 V c t) k8_pay3) := by
  obtain ⟨n, hn⟩ := t
  cases n with
  | zero => rfl
  | succ n => exact absurd hz (Nat.succ_ne_zero n)

/-- `acc8` at a later point: over what the point before left. -/
theorem acc8_later (c : Dev nD) (t : Fin cfg8.N) (hz : t.val ≠ 0) :
    acc8 V c t.val t.isLt = (k8_pay5 (iblk8 V c 0 t) (iblk8 V c 1 t) (iblk8 V c 2 t) (iblk8 V c 3 t) (iblk8 V c 4 t) (acc8 V c (t.val - 1) (Nat.lt_of_le_of_lt (Nat.sub_le _ _) t.isLt)).1,
      k8_pay1 (hn8 V c t) (acc8 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc8` of the point before, beside the other scoped buffers and the
    generator register. -/
def PhiS8 (c : Dev nD) : (n : ℕ) → n ≤ cfg8.N → sProp 𝕄
  | 0, _ => Pipeline.ΦA spec8 c
  | n + 1, hn => iprop(iprop(iprop(owns (c : Thread nD τ) scM8_0 fullShare (acc8 V c n hn).1 ∗ owns (c : Thread nD τ) scM8_1 fullShare (acc8 V c n hn).2) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (acc8 V c n hn).1 ∗ owns (c : Thread nD τ) scM8_1 fullShare (acc8 V c n hn).2) ∗ rest8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (acc8 V c (n - 1) (by omega)).1 ∗ owns (c : Thread nD τ) scM8_1 fullShare (acc8 V c (n - 1) (by omega)).2) ∗ rest8 c) ∗ (∃ r, prngReg c r)) := by
  cases n with
  | zero => exact absurd rfl hz
  | succ n => rfl

/-- The proof data of the pipeline on core `c`: the arrays as the region finds them; after the body at point `t` each
    input's buffer at its block, window 5's at `hn8 t`, windows 6 and 7 at `acc8 t`; the invariant `PhiS8`; nothing
    owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => hn8 V c t
    | ⟨6, _⟩ => (acc8 V c t.val t.isLt).1
    | ⟨7, _⟩ => (acc8 V c t.val t.isLt).2
    | ⟨_ + 8, h⟩ => absurd h (Nat.not_lt.2 (Nat.le_add_left _ _))
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = hn8 V c t := by dsimp only [dat8]
theorem after8_6 (c : Dev nD) (t : Fin cfg8.N) : (dat8 V c).after 6 t = (acc8 V c t.val t.isLt).1 := by dsimp only [dat8]
theorem after8_7 (c : Dev nD) (t : Fin cfg8.N) : (dat8 V c).after 7 t = (acc8 V c t.val t.isLt).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the point is the first, the last, or one between,
    and that case's run applies; the invariant hands the body the scratch rows (at anything at the first point, at
    `acc8` of the point before afterwards) and takes them back at `acc8` of this point; the other scoped buffers, the
    generator register and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  have hN : t.val < 10 := lt_of_lt_of_eq t.isLt (show cfg8.N = 10 from N_8)
  by_cases h9 : t.val = 9
  · have h0 : ¬t.val = 0 := by omega
    rw [show (dat8 V c).leavesExact 6 t = owns (c : Thread nD τ) (ms8_6 t) fullShare ((dat8 V c).after 6 t) from by
      unfold Dat.leavesExact; rw [liveAt8_6 t ((hcond8_1 t).mpr h9)], after8_6]
    rw [show (dat8 V c).leavesExact 7 t = owns (c : Thread nD τ) (ms8_7 t) fullShare ((dat8 V c).after 7 t) from by
      unfold Dat.leavesExact; rw [liveAt8_7 t ((hcond8_1 t).mpr h9)], after8_7]
    rw [acc8_later V c t h0]; unfold hn8; (try dsimp only)
    rw [PhiS8_castSucc V c t, PhiS8_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun8_C c (grid8.coords t) _ _ _ _ _ _ _ _ _ _ _ _ _ _ _ _ _ _ _ _ (fun h => h0 ((hcond8_0 t).mp h)) ((hcond8_1 t).mpr h9) (iblk8 V c 0 t) (iblk8 V c 1 t) (iblk8 V c 2 t) (iblk8 V c 3 t) (iblk8 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond8_1 (grid8.coords t) := fun h => h9 ((hcond8_1 t).mp h)
    rw [Dat.leavesExact_idle (dat8 V c) 6 t (idleAt8_6 t hc1) (noFlush8_6 t hc1)]
    rw [Dat.leavesExact_idle (dat8 V c) 7 t (idleAt8_7 t hc1) (noFlush8_7 t hc1)]
    by_cases hz : t.val = 0
    · rw [acc8_first V c t hz]; unfold hn8; (try dsimp only)
      rw [PhiS8_castSucc V c t, PhiS8_zero V c _ _ hz, PhiA8_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun8_A c (grid8.coords t) _ _ _ _ _ _ _ _ _ _ _ _ _ _ _ _ _ _ _ _ ((hcond8_0 t).mpr hz) hc1 (iblk8 V c 0 t) (iblk8 V c 1 t) (iblk8 V c 2 t) (iblk8 V c 3 t) (iblk8 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc8_later V c t hz]; unfold hn8; (try dsimp only)
      rw [PhiS8_castSucc V c t, PhiS8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun8_B c (grid8.coords t) _ _ _ _ _ _ _ _ _ _ _ _ _ _ _ _ _ _ _ _ (fun h => hz ((hcond8_0 t).mp h)) hc1 (iblk8 V c 0 t) (iblk8 V c 1 t) (iblk8 V c 2 t) (iblk8 V c 3 t) (iblk8 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives it back: the scratch rows' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Region

end Cert.Kernel.Hand

end
-- ==== Proof.K.Bn9.lean ====
/-
  Region 9 of the program, the call of `cc9__bn_apply_kernel` (pipeline 9): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  ((x - mean) * rstd) * gamma + beta  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out9`): the
  payload `k9_pay1` of the five input blocks at `t`.
-/
import proofs.«118775_j16338055594318_1_alg».proof.Proof.Gen.Kernel.Launch
import proofs.«118775_j16338055594318_1_alg».proof.Proof.Gen.Kernel.Skeleton
import proofs.«118775_j16338055594318_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof data over `V`'s
    arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (it is fetched at
    the first point only, and its block index never moves), for any proof data over `V`'s
    arrays whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (it is fetched at
    the first point only, and its block index never moves), for any proof data over `V`'s
    arrays whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (it is fetched at
    the first point only, and its block index never moves), for any proof data over `V`'s
    arrays whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not (it is fetched at
    the first point only, and its block index never moves), for any proof data over `V`'s
    arrays whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in the output window's buffer -/

/-- The two offsets of every load and store of the body are zero. -/
theorem zero_off9 : (![0, 0] : Fin 2 → Nat) = fun _ => 0 := funext fun a => by fin_cases a <;> rfl

/-- Window 5's staging buffer after the body at point `t`: the body's one store, over the whole tile, of the
    normalised tile computed from the five input blocks at `t`. -/
def out9 (c : Dev nD) (t : Fin cfg9.N) : Vec F S5000x128 .f32 :=
  k9_pay1 (iblk9 V c 0 t) (iblk9 V c 1 t) (iblk9 V c 2 t) (iblk9 V c 3 t) (iblk9 V c 4 t)

/-- One store through the whole-tile rectangle, of the payload of whole-buffer loads, leaves the payload of the
    buffers' contents. -/
theorem canon_pay9 (x0 : Vec F S5000x128 .f32) (x1 x2 x3 x4 : Vec F S1x128 .f32) :
    View.canon [(⟨Rect.unit (s := S5000x128) ![0, 0] S5000x128.size inb_S5000x128_S5000x128_0_0,
        k9_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k9_pay1 x0 x1 x2 x3 x4 := by
  rw [View.canon_unit_zero zero_off9]
  simp only [View.ld_unit_zero (S := S5000x128) zero_off9, View.ld_unit_zero (S := S1x128) zero_off9]

/-- The one store covers the tile. -/
theorem cover9 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off9 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k9_pay1 x0 x1 x2 x3 x4)) -∗ K ⟨⟩))
      ⊢ wp frame (wpE (defs₀ (F := F)) Variants.none c none) E (cc9__bn_apply_kernel i arg1 harg1 arg2 harg2 arg3 harg3 arg4 harg4 arg5 harg5 arg6 harg6) K := by
  simp only [cc9__bn_apply_kernel_eq_skeleton]; unfold cc9__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover9 _)).trans (canon_pay9 _ _ _ _ _)

/-! ## The pipeline's proof data -/

/-- The proof data of pipeline 9 on core `c`: the arrays as the region finds them; after the body at point `t`
    each input's buffer at its block and the output's at `out9`; the plain invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 V c t
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9 V c t := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  unfold out9
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- The invariant before the first point and after the last is the plain one. -/
theorem hin9 (c : Dev nD) : Pipeline.ΦA spec9 c ⊢ (dat9 V c).Φ 0 := .rfl
theorem hout9 (c : Dev nD) : (dat9 V c).Φ (Fin.last cfg9.N) ⊢ Pipeline.ΦA spec9 c := .rfl

end Cert.Kernel.Hand
-- ==== Proof.K.Run.lean ====
/-
  The run of the whole program: its twenty items in order — ten stretches of host operations, each followed by one
  region — from the launch memory to the return. The buffer contents at each boundary are a fold through the items
  (a stretch leaves its operations' results, a region leaves its windows' arrays at what its write-backs fold to and
  every other buffer as entered); every argument array walks back through the fold to its launch contents, since no
  operation and no region writes one; each region is a segment entered from "every unscoped buffer at the boundary's
  contents, the generator register at some state, nothing owed" and left in the same form at the next boundary.
-/
import proofs.«118775_j16338055594318_1_alg».proof.Proof.K.Host
import proofs.«118775_j16338055594318_1_alg».proof.Proof.K.Mlp0
import proofs.«118775_j16338055594318_1_alg».proof.Proof.K.Bn1
import proofs.«118775_j16338055594318_1_alg».proof.Proof.K.Mlp2
import proofs.«118775_j16338055594318_1_alg».proof.Proof.K.Bn3
import proofs.«118775_j16338055594318_1_alg».proof.Proof.K.Mlp4
import proofs.«118775_j16338055594318_1_alg».proof.Proof.K.Bn5
import proofs.«118775_j16338055594318_1_alg».proof.Proof.K.Mlp6
import proofs.«118775_j16338055594318_1_alg».proof.Proof.K.Bn7
import proofs.«118775_j16338055594318_1_alg».proof.Proof.K.Mlp8
import proofs.«118775_j16338055594318_1_alg».proof.Proof.K.Bn9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Every buffer of core `c` at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer stretch 0 does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- A buffer stretch 1 does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- A buffer stretch 2 does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- A buffer stretch 3 does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its windows' arrays at what the write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- A buffer stretch 4 does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its windows' arrays at what the write-backs fold to, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- A buffer stretch 5 does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its windows' arrays at what the write-backs fold to, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- A buffer stretch 6 does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its windows' arrays at what the write-backs fold to, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- A buffer stretch 7 does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: its windows' arrays at what the write-backs fold to, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- A buffer stretch 8 does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: its windows' arrays at what the write-backs fold to, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- A buffer stretch 9 does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: its windows' arrays at what the write-backs fold to, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-! ## The arguments end as launched -/
theorem W20_main_arg0 (c : Dev nD) : W20 m ρ c (Proc.devRef .tc main_arg0) = m ((c : Thread nD τ).loc main_arg0) :=
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl
theorem W20_main_arg1 (c : Dev nD) : W20 m ρ c (Proc.devRef .tc main_arg1) = m ((c : Thread nD τ).loc main_arg1) :=
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl
theorem W20_main_arg2 (c : Dev nD) : W20 m ρ c (Proc.devRef .tc main_arg2) = m ((c : Thread nD τ).loc main_arg2) :=
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W20_main_arg3 (c : Dev nD) : W20 m ρ c (Proc.devRef .tc main_arg3) = m ((c : Thread nD τ).loc main_arg3) :=
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl
theorem W20_main_arg4 (c : Dev nD) : W20 m ρ c (Proc.devRef .tc main_arg4) = m ((c : Thread nD τ).loc main_arg4) :=
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W20_main_arg5 (c : Dev nD) : W20 m ρ c (Proc.devRef .tc main_arg5) = m ((c : Thread nD τ).loc main_arg5) :=
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl
theorem W20_main_arg6 (c : Dev nD) : W20 m ρ c (Proc.devRef .tc main_arg6) = m ((c : Thread nD τ).loc main_arg6) :=
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl
theorem W20_main_arg7 (c : Dev nD) : W20 m ρ c (Proc.devRef .tc main_arg7) = m ((c : Thread nD τ).loc main_arg7) :=
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl
theorem W20_main_arg8 (c : Dev nD) : W20 m ρ c (Proc.devRef .tc main_arg8) = m ((c : Thread nD τ).loc main_arg8) :=
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl
theorem W20_main_arg9 (c : Dev nD) : W20 m ρ c (Proc.devRef .tc main_arg9) = m ((c : Thread nD τ).loc main_arg9) :=
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl
theorem W20_main_arg10 (c : Dev nD) : W20 m ρ c (Proc.devRef .tc main_arg10) = m ((c : Thread nD τ).loc main_arg10) :=
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl
theorem W20_main_arg11 (c : Dev nD) : W20 m ρ c (Proc.devRef .tc main_arg11) = m ((c : Thread nD τ).loc main_arg11) :=
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl
theorem W20_main_arg12 (c : Dev nD) : W20 m ρ c (Proc.devRef .tc main_arg12) = m ((c : Thread nD τ).loc main_arg12) :=
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl

/-! ## The proof data family and the thread state -/

/-- No pipeline has a prefetched table. -/
abbrev adm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨_ + 10, h⟩ => absurd h (Nat.not_lt.2 (Nat.le_add_left _ _))
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0: entered from every unscoped buffer at the contents after stretch 0, left at its exit contents. Its
    windows' arrays are split out of the unscoped buffers and put back at the exit contents; the generator register
    goes into the region's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents after stretch 1, left at its exit contents. Its
    windows' arrays are split out of the unscoped buffers and put back at the exit contents; the generator register
    goes into the region's invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents after stretch 2, left at its exit contents. Its
    windows' arrays are split out of the unscoped buffers and put back at the exit contents; the generator register
    goes into the region's invariant and comes back; nothing is owed; the body has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents after stretch 3, left at its exit contents. Its
    windows' arrays are split out of the unscoped buffers and put back at the exit contents; the generator register
    goes into the region's invariant and comes back; nothing is owed; the body has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    refine BIBase.Entails.trans (hout3 (V7 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents after stretch 4, left at its exit contents. Its
    windows' arrays are split out of the unscoped buffers and put back at the exit contents; the generator register
    goes into the region's invariant and comes back; nothing is owed; the body has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    refine BIBase.Entails.trans (hout4 (V9 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents after stretch 5, left at its exit contents. Its
    windows' arrays are split out of the unscoped buffers and put back at the exit contents; the generator register
    goes into the region's invariant and comes back; nothing is owed; the body has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    refine BIBase.Entails.trans (hout5 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents after stretch 6, left at its exit contents. Its
    windows' arrays are split out of the unscoped buffers and put back at the exit contents; the generator register
    goes into the region's invariant and comes back; nothing is owed; the body has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V13 m ρ) c)
    unfold Pipeline.ΦA
    iintro ⟨Hp, -, Hr⟩
    isplitl [Hr]; · iexact Hr
    iexact Hp
  hout c := by
    refine BIBase.Entails.trans (hout6 (V13 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents after stretch 7, left at its exit contents. Its
    windows' arrays are split out of the unscoped buffers and put back at the exit contents; the generator register
    goes into the region's invariant and comes back; nothing is owed; the body has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V15 m ρ) c)
    unfold Pipeline.ΦA
    iintro ⟨Hp, -, Hr⟩
    isplitl [Hr]; · iexact Hr
    iexact Hp
  hout c := by
    refine BIBase.Entails.trans (hout7 (V15 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents after stretch 8, left at its exit contents. Its
    windows' arrays are split out of the unscoped buffers and put back at the exit contents; the generator register
    goes into the region's invariant and comes back; nothing is owed; the body has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V17 m ρ) c)
    unfold Pipeline.ΦA
    iintro ⟨Hp, -, Hr⟩
    isplitl [Hr]; · iexact Hr
    iexact Hp
  hout c := by
    refine BIBase.Entails.trans (hout8 (V17 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents after stretch 9, left at its exit contents. Its
    windows' arrays are split out of the unscoped buffers and put back at the exit contents; the generator register
    goes into the region's invariant and comes back; nothing is owed; the body has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (V19 m ρ) c)
    unfold Pipeline.ΦA
    iintro ⟨Hp, -, Hr⟩
    isplitl [Hr]; · iexact Hr
    iexact Hp
  hout c := by
    refine BIBase.Entails.trans (hout9 (V19 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twenty segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ) ]
/-- The program IS the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c)⟩) (run_main m ρ)

/-- The same with the result array named: it ends at the last boundary's contents. -/
theorem run_result : θ_run defs (onTc (τ := τ) (main (F := F))) ⟨m, fun _ => 0, ρ⟩ (fun r => ∀ c : Dev nD,
      r.2.mem ((c.tc : Thread nD τ).loc main_v338) = W20 m ρ c (Proc.devRef .tc main_v338)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v338 (by decide)),
    (h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c)⟩) (run_main m ρ)

end Cert.Kernel.Hand

end
-- ==== Proof.KI.Host.lean ====
/-
  The host stretches of the program between its ten regions: what each stretch's operations write (each operation
  writes its own result buffer and nothing else, and allocates nothing), so that a buffer outside a stretch's written
  list holds after the stretch what it held before it; and a stretch as a segment of the run over the unscoped buffers.
-/
import proofs.«118775_j16338055594318_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One operation's written set is its result buffer, which the stretch's list names. -/
local macro "wr1" : tactic => `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)))

/-- No operation of stretch 0 allocates a buffer. -/
theorem hostOps0_fresh : (hostOps0 : List (HloOp τ sig (Elt F))).Forall fun op => op.fresh = ∅ := by
  simp only [List.Forall]; repeat' constructor
/-- The buffers stretch 0's operations write: their results. -/
abbrev hostOps0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_c_3, main_v28, main_v29, main_v30, main_v31, main_c_4, main_v32, main_v33, main_v34, main_v35, main_c_5, main_v36, main_v37, main_c_6, main_v38, main_v39, main_v40, main_v41, main_v42, main_v43, main_v44, main_c_7, main_v45, main_v46, main_c_8, main_v47, main_v48, main_v49, main_v50, main_v51, main_v52, main_c_9, main_v53, main_v54, main_c_10, main_v55, main_v56, main_v57, main_v58, main_v59, main_v60, main_cst, main_v61, main_v62, main_v63, main_v64, main_v65, main_v66, main_v67, main_v68, main_v69, main_v70, main_v71, main_v72, main_v73]
theorem hostOps0_writes : (hostOps0 : List (HloOp τ sig (Elt F))).Forall fun op => op.writes ⊆ (hostOps0_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 1 allocates a buffer. -/
theorem hostOps1_fresh : (hostOps1 : List (HloOp τ sig (Elt F))).Forall fun op => op.fresh = ∅ := by
  simp only [List.Forall]; repeat' constructor
/-- The buffers stretch 1's operations write: their results. -/
abbrev hostOps1_W : List (Ref sig .tc) := [main_v75, main_cst_11, main_v76, main_v77, main_v78, main_cst_12, main_v79, main_v80, main_v81, main_v82, main_cst_13, main_v83, main_v84, main_v85, main_v86, main_v87, main_v88, main_v89, main_v90, main_v91, main_v92, main_v93]
theorem hostOps1_writes : (hostOps1 : List (HloOp τ sig (Elt F))).Forall fun op => op.writes ⊆ (hostOps1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 2 allocates a buffer. -/
theorem hostOps2_fresh : (hostOps2 : List (HloOp τ sig (Elt F))).Forall fun op => op.fresh = ∅ := by
  simp only [List.Forall]; repeat' constructor
/-- The buffers stretch 2's operations write: their results. -/
abbrev hostOps2_W : List (Ref sig .tc) := [main_v95, main_v96, main_c_14, main_v97, main_v98, main_c_15, main_v99, main_v100, main_v101, main_v102, main_v103, main_v104, main_v105, main_c_16, main_v106, main_v107, main_c_17, main_v108, main_v109, main_v110, main_v111, main_v112, main_v113, main_c_18, main_v114, main_v115, main_c_19, main_v116, main_v117, main_v118, main_v119, main_v120, main_v121, main_cst_20, main_v122, main_v123, main_v124, main_v125, main_v126, main_v127, main_v128, main_v129, main_v130, main_v131, main_v132, main_v133, main_v134]
theorem hostOps2_writes : (hostOps2 : List (HloOp τ sig (Elt F))).Forall fun op => op.writes ⊆ (hostOps2_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 3 allocates a buffer. -/
theorem hostOps3_fresh : (hostOps3 : List (HloOp τ sig (Elt F))).Forall fun op => op.fresh = ∅ := by
  simp only [List.Forall]; repeat' constructor
/-- The buffers stretch 3's operations write: their results. -/
abbrev hostOps3_W : List (Ref sig .tc) := [main_v136, main_cst_21, main_v137, main_v138, main_v139, main_cst_22, main_v140, main_v141, main_v142, main_v143, main_cst_23, main_v144, main_v145, main_v146, main_v147, main_v148, main_v149, main_v150, main_v151, main_v152, main_v153, main_v154]
theorem hostOps3_writes : (hostOps3 : List (HloOp τ sig (Elt F))).Forall fun op => op.writes ⊆ (hostOps3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 4 allocates a buffer. -/
theorem hostOps4_fresh : (hostOps4 : List (HloOp τ sig (Elt F))).Forall fun op => op.fresh = ∅ := by
  simp only [List.Forall]; repeat' constructor
/-- The buffers stretch 4's operations write: their results. -/
abbrev hostOps4_W : List (Ref sig .tc) := [main_v156, main_v157, main_c_24, main_v158, main_v159, main_c_25, main_v160, main_v161, main_v162, main_v163, main_v164, main_v165, main_v166, main_c_26, main_v167, main_v168, main_c_27, main_v169, main_v170, main_v171, main_v172, main_v173, main_v174, main_c_28, main_v175, main_v176, main_c_29, main_v177, main_v178, main_v179, main_v180, main_v181, main_v182, main_cst_30, main_v183, main_v184, main_v185, main_v186, main_v187, main_v188, main_v189, main_v190, main_v191, main_v192, main_v193, main_v194, main_v195]
theorem hostOps4_writes : (hostOps4 : List (HloOp τ sig (Elt F))).Forall fun op => op.writes ⊆ (hostOps4_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 5 allocates a buffer. -/
theorem hostOps5_fresh : (hostOps5 : List (HloOp τ sig (Elt F))).Forall fun op => op.fresh = ∅ := by
  simp only [List.Forall]; repeat' constructor
/-- The buffers stretch 5's operations write: their results. -/
abbrev hostOps5_W : List (Ref sig .tc) := [main_v197, main_cst_31, main_v198, main_v199, main_v200, main_cst_32, main_v201, main_v202, main_v203, main_v204, main_cst_33, main_v205, main_v206, main_v207, main_v208, main_v209, main_v210, main_v211, main_v212, main_v213, main_v214, main_v215]
theorem hostOps5_writes : (hostOps5 : List (HloOp τ sig (Elt F))).Forall fun op => op.writes ⊆ (hostOps5_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 6 allocates a buffer. -/
theorem hostOps6_fresh : (hostOps6 : List (HloOp τ sig (Elt F))).Forall fun op => op.fresh = ∅ := by
  simp only [List.Forall]; repeat' constructor
/-- The buffers stretch 6's operations write: their results. -/
abbrev hostOps6_W : List (Ref sig .tc) := [main_v217, main_v218, main_c_34, main_v219, main_v220, main_c_35, main_v221, main_v222, main_v223, main_v224, main_v225, main_v226, main_v227, main_c_36, main_v228, main_v229, main_c_37, main_v230, main_v231, main_v232, main_v233, main_v234, main_v235, main_c_38, main_v236, main_v237, main_c_39, main_v238, main_v239, main_v240, main_v241, main_v242, main_v243, main_cst_40, main_v244, main_v245, main_v246, main_v247, main_v248, main_v249, main_v250, main_v251, main_v252, main_v253, main_v254, main_v255, main_v256]
theorem hostOps6_writes : (hostOps6 : List (HloOp τ sig (Elt F))).Forall fun op => op.writes ⊆ (hostOps6_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 7 allocates a buffer. -/
theorem hostOps7_fresh : (hostOps7 : List (HloOp τ sig (Elt F))).Forall fun op => op.fresh = ∅ := by
  simp only [List.Forall]; repeat' constructor
/-- The buffers stretch 7's operations write: their results. -/
abbrev hostOps7_W : List (Ref sig .tc) := [main_v258, main_cst_41, main_v259, main_v260, main_v261, main_cst_42, main_v262, main_v263, main_v264, main_v265, main_cst_43, main_v266, main_v267, main_v268, main_v269, main_v270, main_v271, main_v272, main_v273, main_v274, main_v275, main_v276]
theorem hostOps7_writes : (hostOps7 : List (HloOp τ sig (Elt F))).Forall fun op => op.writes ⊆ (hostOps7_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

/-- No operation of stretch 8 allocates a buffer. -/
theorem hostOps8_fresh : (hostOps8 : List (HloOp τ sig (Elt F))).Forall fun op => op.fresh = ∅ := by
  simp only [List.Forall]; repeat' constructor
/-- The buffers stretch 8's operations write: their results. -/
abbrev hostOps8_W : List (Ref sig .tc) := [main_v278, main_v279, main_c_44, main_v280, main_v281, main_c_45, main_v282, main_v283, main_v284, main_v285, main_v286, main_v287, main_v288, main_c_46, main_v289, main_v290, main_c_47, main_v291, main_v292, main_v293, main_v294, main_v295, main_v296, main_c_48, main_v297, main_v298, main_c_49, main_v299, main_v300, main_v301, main_v302, main_v303, main_v304, main_cst_50, main_v305, main_v306, main_v307, main_v308, main_v309, main_v310, main_v311, main_v312, main_v313, main_v314, main_v315, main_v316, main_v317]
theorem hostOps8_writes : (hostOps8 : List (HloOp τ sig (Elt F))).Forall fun op => op.writes ⊆ (hostOps8_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- No operation of stretch 9 allocates a buffer. -/
theorem hostOps9_fresh : (hostOps9 : List (HloOp τ sig (Elt F))).Forall fun op => op.fresh = ∅ := by
  simp only [List.Forall]; repeat' constructor
/-- The buffers stretch 9's operations write: their results. -/
abbrev hostOps9_W : List (Ref sig .tc) := [main_v319, main_cst_51, main_v320, main_v321, main_v322, main_cst_52, main_v323, main_v324, main_v325, main_v326, main_cst_53, main_v327, main_v328, main_v329, main_v330, main_v331, main_v332, main_v333, main_v334, main_v335, main_v336, main_v337]
theorem hostOps9_writes : (hostOps9 : List (HloOp τ sig (Elt F))).Forall fun op => op.writes ⊆ (hostOps9_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1⟩

end Cert.KernelIdeal.Hand

end
-- ==== Proof.KI.Mlp0Base.lean ====
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
proof data whose array is `V`'s and whose body leaves the block in place: an unfetched window's block index
has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The two conditions of the body, over the grid -/

/-- The first conditional (the scratch rows are reset): its condition from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The last conditional (the scratch rows are copied out): its condition from the grid coordinates. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point nothing is stored into window 6: it is idle there and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last point it is stored into. -/
theorem liveAt0_6 : ∀ t : Fin cfg0.N, cond0_1 (grid0.coords t) → cfg0.idle 6 (grid0.coords t) = false := by decide +kernel
/-- Before the last point nothing is stored into window 7: it is idle there and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point it is stored into. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two scratch rows: whole scoped buffers of the call's own, passed beside the windows. -/
abbrev scM0_0 : Memref sig .tc .vmem S1x128 .f32 := Memref.whole cc0_scratch0
abbrev scM0_1 : Memref sig .tc .vmem S1x128 .f32 := Memref.whole cc0_scratch1

/-- The whole-block rectangle of a shape, as the body's loads and stores spell it. -/
abbrev rA0 : Rect S5000x128 := Rect.unit (s := S5000x128) ![0, 0] S5000x128.size inb_S5000x128_S5000x128_0_0
abbrev rR0 : Rect S1x128 := Rect.unit (s := S1x128) ![0, 0] S1x128.size inb_S1x128_S1x128_0_0

/-- The offsets `![0, 0]` are zero. -/
theorem hz2 : (![0, 0] : Fin 2 → ℕ) = fun _ => 0 := by
  funext a; match a with | ⟨0, _⟩ => rfl | ⟨1, _⟩ => rfl

/-- A store through the whole block (zero offsets, however the zeros are spelt), made LAST, leaves its payload,
    whatever the earlier stores and the contents before them were. -/
theorem read_writes_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩), View.canon_cons_unit_zero hz]

/-- A load through the whole block of a whole memref at contents `X` reads `X`. -/
theorem readAt_unread_whole {κ : Kind} {sp : Space} {S : Shape} {e : EltTy} {m : Memref sig κ sp S e} (h : m.IsWhole) (X : S.Idx → Elt F e)
    {off : Fin S.rank → ℕ} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-- Every other scoped buffer of the core (the other calls' staging buffers and scratch), unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two scratch rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.KernelIdeal.Hand

end
-- ==== Proof.KI.Mlp0RunA.lean ====
import proofs.«118775_j16338055594318_1_alg».proof.Proof.KI.Mlp0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun0_A (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare xi6 ∗ owns (c : Thread nD τ) arg8 fullShare xi7
            ∗ owns (c : Thread nD τ) arg9 fullShare (k0_pay5 x0 x1 x2 x3 x4 k0_pay2) ∗ owns (c : Thread nD τ) arg10 fullShare (k0_pay1 (k0_pay4 x0 x1 x2 x3 x4) k0_pay3)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp0RunB.lean ====
import proofs.«118775_j16338055594318_1_alg».proof.Proof.KI.Mlp0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun0_B (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare xi6 ∗ owns (c : Thread nD τ) arg8 fullShare xi7
            ∗ owns (c : Thread nD τ) arg9 fullShare (k0_pay5 x0 x1 x2 x3 x4 xs0) ∗ owns (c : Thread nD τ) arg10 fullShare (k0_pay1 (k0_pay4 x0 x1 x2 x3 x4) xs1)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp0RunC.lean ====
import proofs.«118775_j16338055594318_1_alg».proof.Proof.KI.Mlp0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun0_C (c : Dev nD) (i : grid0.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x0 x1 x2 x3 x4) ∗ owns (c : Thread nD τ) arg7 fullShare (k0_pay5 x0 x1 x2 x3 x4 xs0) ∗ owns (c : Thread nD τ) arg8 fullShare (k0_pay1 (k0_pay4 x0 x1 x2 x3 x4) xs1)
            ∗ owns (c : Thread nD τ) arg9 fullShare (k0_pay5 x0 x1 x2 x3 x4 xs0) ∗ owns (c : Thread nD τ) arg10 fullShare (k0_pay1 (k0_pay4 x0 x1 x2 x3 x4) xs1)) -∗ K ⟨⟩))
      ⊢ wp frame (wpE (defs₀ (F := F)) Variants.none c none) E (cc0__mlp_bn_stats_kernel i arg1 harg1 arg2 harg2 arg3 harg3 arg4 harg4 arg5 harg5 arg6 harg6 arg7 harg7 arg8 harg8 arg9 harg9 arg10 harg10) K := by
  simp only [cc0__mlp_bn_stats_kernel_eq_skeleton]; unfold cc0__mlp_bn_stats_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp0.lean ====
import proofs.«118775_j16338055594318_1_alg».proof.Proof.KI.Mlp0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the proof data, the body obligation, and the invariant's two ends

With `hn0 t` the tile of the MLP's output at point `t` (what the point stores into window 5), the two scratch rows
hold after point `n` the column sums of `hn0 0 … hn0 n` and of their squares, added up from zero in the order of
the points: `acc0`. Windows 6 and 7 receive `acc0` at the last point. -/

section Region
variable (V : (c : Dev nD) → (b : Ref sig .tc) → Buf (Elt F) ((c : Thread nD τ).loc b))

/-- What point `t` stores into window 5: the MLP's output on the point's tile. -/
def hn0 (c : Dev nD) (t : Fin cfg0.N) : Vec F S5000x128 .f32 :=
  k0_pay4 (iblk0 V c 0 t) (iblk0 V c 1 t) (iblk0 V c 2 t) (iblk0 V c 3 t) (iblk0 V c 4 t)

/-- What the two scratch rows hold after point `n`: at the first point the tile's column sums (of the values, of their
    squares) added to zero; afterwards added to what the point before left. -/
def acc0 (c : Dev nD) : (n : ℕ) → n < cfg0.N → Vec F S1x128 .f32 × Vec F S1x128 .f32
  | 0, hn => (k0_pay5 (iblk0 V c 0 ⟨0, hn⟩) (iblk0 V c 1 ⟨0, hn⟩) (iblk0 V c 2 ⟨0, hn⟩) (iblk0 V c 3 ⟨0, hn⟩) (iblk0 V c 4 ⟨0, hn⟩) k0_pay2, k0_pay1 (hn0 V c ⟨0, hn⟩) k0_pay3)
  | n + 1, hn => (k0_pay5 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (acc0 c n (Nat.lt_of_succ_lt hn)).1,
      k0_pay1 (hn0 V c ⟨n + 1, hn⟩) (acc0 c n (Nat.lt_of_succ_lt hn)).2)

/-- `acc0` at the first point. -/
theorem acc0_first (c : Dev nD) (t : Fin cfg0.N) (hz : t.val = 0) :
    acc0 V c t.val t.isLt = (k0_pay5 (iblk0 V c 0 t) (iblk0 V c 1 t) (iblk0 V c 2 t) (iblk0 V c 3 t) (iblk0 V c 4 t) k0_pay2, k0_pay1 (hn0 V c t) k0_pay3) := by
  obtain ⟨n, hn⟩ := t
  cases n with
  | zero => rfl
  | succ n => exact absurd hz (Nat.succ_ne_zero n)

/-- `acc0` at a later point: over what the point before left. -/
theorem acc0_later (c : Dev nD) (t : Fin cfg0.N) (hz : t.val ≠ 0) :
    acc0 V c t.val t.isLt = (k0_pay5 (iblk0 V c 0 t) (iblk0 V c 1 t) (iblk0 V c 2 t) (iblk0 V c 3 t) (iblk0 V c 4 t) (acc0 V c (t.val - 1) (Nat.lt_of_le_of_lt (Nat.sub_le _ _) t.isLt)).1,
      k0_pay1 (hn0 V c t) (acc0 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc0` of the point before, beside the other scoped buffers and the
    generator register. -/
def PhiS0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (acc0 V c n hn).1 ∗ owns (c : Thread nD τ) scM0_1 fullShare (acc0 V c n hn).2) ∗ rest0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (acc0 V c (n - 1) (by omega)).1 ∗ owns (c : Thread nD τ) scM0_1 fullShare (acc0 V c (n - 1) (by omega)).2) ∗ rest0 c) ∗ (∃ r, prngReg c r)) := by
  cases n with
  | zero => exact absurd rfl hz
  | succ n => rfl

/-- The proof data of the pipeline on core `c`: the arrays as the region finds them; after the body at point `t` each
    input's buffer at its block, window 5's at `hn0 t`, windows 6 and 7 at `acc0 t`; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hn0 V c t
    | ⟨6, _⟩ => (acc0 V c t.val t.isLt).1
    | ⟨7, _⟩ => (acc0 V c t.val t.isLt).2
    | ⟨_ + 8, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = hn0 V c t := by dsimp only [dat0]
theorem after0_6 (c : Dev nD) (t : Fin cfg0.N) : (dat0 V c).after 6 t = (acc0 V c t.val t.isLt).1 := by dsimp only [dat0]
theorem after0_7 (c : Dev nD) (t : Fin cfg0.N) : (dat0 V c).after 7 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks; the point is the first, the last, or one between,
    and that case's run applies; the invariant hands the body the scratch rows (at anything at the first point, at
    `acc0` of the point before afterwards) and takes them back at `acc0` of this point; the other scoped buffers, the
    generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 10 := lt_of_lt_of_eq t.isLt (show cfg0.N = 10 from N_0)
  by_cases h9 : t.val = 9
  · have h0 : ¬t.val = 0 := by omega
    rw [show (dat0 V c).leavesExact 6 t = owns (c : Thread nD τ) (ms0_6 t) fullShare ((dat0 V c).after 6 t) from by
      unfold Dat.leavesExact; rw [liveAt0_6 t ((hcond0_1 t).mpr h9)], after0_6]
    rw [show (dat0 V c).leavesExact 7 t = owns (c : Thread nD τ) (ms0_7 t) fullShare ((dat0 V c).after 7 t) from by
      unfold Dat.leavesExact; rw [liveAt0_7 t ((hcond0_1 t).mpr h9)], after0_7]
    rw [acc0_later V c t h0]; unfold hn0; (try dsimp only)
    rw [PhiS0_castSucc V c t, PhiS0_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun0_C c (grid0.coords t) _ _ _ _ _ _ _ _ _ _ _ _ _ _ _ _ _ _ _ _ (fun h => h0 ((hcond0_0 t).mp h)) ((hcond0_1 t).mpr h9) (iblk0 V c 0 t) (iblk0 V c 1 t) (iblk0 V c 2 t) (iblk0 V c 3 t) (iblk0 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond0_1 (grid0.coords t) := fun h => h9 ((hcond0_1 t).mp h)
    rw [Dat.leavesExact_idle (dat0 V c) 6 t (idleAt0_6 t hc1) (noFlush0_6 t hc1)]
    rw [Dat.leavesExact_idle (dat0 V c) 7 t (idleAt0_7 t hc1) (noFlush0_7 t hc1)]
    by_cases hz : t.val = 0
    · rw [acc0_first V c t hz]; unfold hn0; (try dsimp only)
      rw [PhiS0_castSucc V c t, PhiS0_zero V c _ _ hz, PhiA0_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_A c (grid0.coords t) _ _ _ _ _ _ _ _ _ _ _ _ _ _ _ _ _ _ _ _ ((hcond0_0 t).mpr hz) hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc0_later V c t hz]; unfold hn0; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun0_B c (grid0.coords t) _ _ _ _ _ _ _ _ _ _ _ _ _ _ _ _ _ _ _ _ (fun h => hz ((hcond0_0 t).mp h)) hc1 (iblk0 V c 0 t) (iblk0 V c 1 t) (iblk0 V c 2 t) (iblk0 V c 3 t) (iblk0 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the scratch rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Region

end Cert.KernelIdeal.Hand

end
-- ==== Proof.KI.Bn1.lean ====
/-
  Region 1 of the program, the call of `cc1__bn_apply_relu_kernel` (pipeline 1): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out1`): the
  payload `k1_pay1` of the five input blocks at `t`.
-/
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data over `V`'s
    arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched at
    the first point only, and its block index never moves), for any proof data over `V`'s
    arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at
    the first point only, and its block index never moves), for any proof data over `V`'s
    arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at
    the first point only, and its block index never moves), for any proof data over `V`'s
    arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (it is fetched at
    the first point only, and its block index never moves), for any proof data over `V`'s
    arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The two offsets of every load and store of the body are zero. -/
theorem zero_off1 : (![0, 0] : Fin 2 → Nat) = fun _ => 0 := funext fun a => by fin_cases a <;> rfl

/-- Window 5's staging buffer after the body at point `t`: the body's one store, over the whole tile, of the
    normalised tile computed from the five input blocks at `t`. -/
def out1 (c : Dev nD) (t : Fin cfg1.N) : Vec F S5000x128 .f32 :=
  k1_pay1 (iblk1 V c 0 t) (iblk1 V c 1 t) (iblk1 V c 2 t) (iblk1 V c 3 t) (iblk1 V c 4 t)

/-- One store through the whole-tile rectangle, of the payload of whole-buffer loads, leaves the payload of the
    buffers' contents. -/
theorem canon_pay1 (x0 : Vec F S5000x128 .f32) (x1 x2 x3 x4 : Vec F S1x128 .f32) :
    View.canon [(⟨Rect.unit (s := S5000x128) ![0, 0] S5000x128.size inb_S5000x128_S5000x128_0_0,
        k1_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k1_pay1 x0 x1 x2 x3 x4 := by
  rw [View.canon_unit_zero zero_off1]
  simp only [View.ld_unit_zero (S := S5000x128) zero_off1, View.ld_unit_zero (S := S1x128) zero_off1]

/-- The one store covers the tile. -/
theorem cover1 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off1 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__bn_apply_relu_kernel i arg1 harg1 arg2 harg2 arg3 harg3 arg4 harg4 arg5 harg5 arg6 harg6) K := by
  simp only [cc1__bn_apply_relu_kernel_eq_skeleton]; unfold cc1__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover1 _)).trans (canon_pay1 _ _ _ _ _)

/-! ## The pipeline's proof data -/

/-- The proof data of pipeline 1 on core `c`: the arrays as the region finds them; after the body at point `t`
    each input's buffer at its block and the output's at `out1`; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point and after the last is the plain one. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Hand
-- ==== Proof.KI.Mlp2Base.lean ====
import proofs.«118775_j16338055594318_1_alg».proof.Proof.KI.Mlp0Base
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not, for any
proof data whose array is `V`'s and whose body leaves the block in place: an unfetched window's block index
has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The two conditions of the body, over the grid -/

/-- The first conditional (the scratch rows are reset): its condition from the grid coordinates. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The last conditional (the scratch rows are copied out): its condition from the grid coordinates. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point nothing is stored into window 6: it is idle there and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At the last point it is stored into. -/
theorem liveAt2_6 : ∀ t : Fin cfg2.N, cond2_1 (grid2.coords t) → cfg2.idle 6 (grid2.coords t) = false := by decide +kernel
/-- Before the last point nothing is stored into window 7: it is idle there and not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point it is stored into. -/
theorem liveAt2_7 : ∀ t : Fin cfg2.N, cond2_1 (grid2.coords t) → cfg2.idle 7 (grid2.coords t) = false := by decide +kernel

/-! ## The memrefs the body is called with -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two scratch rows: whole scoped buffers of the call's own, passed beside the windows. -/
abbrev scM2_0 : Memref sig .tc .vmem S1x128 .f32 := Memref.whole cc2_scratch0
abbrev scM2_1 : Memref sig .tc .vmem S1x128 .f32 := Memref.whole cc2_scratch1

/-- The whole-block rectangle of a shape, as the body's loads and stores spell it. -/
abbrev rA2 : Rect S5000x128 := Rect.unit (s := S5000x128) ![0, 0] S5000x128.size inb_S5000x128_S5000x128_0_0
abbrev rR2 : Rect S1x128 := Rect.unit (s := S1x128) ![0, 0] S1x128.size inb_S1x128_S1x128_0_0

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- What the launch hands the region, with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

end Cert.KernelIdeal.Hand

end
-- ==== Proof.KI.Mlp2RunA.lean ====
import proofs.«118775_j16338055594318_1_alg».proof.Proof.KI.Mlp2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun2_A (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare xi6 ∗ owns (c : Thread nD τ) arg8 fullShare xi7
            ∗ owns (c : Thread nD τ) arg9 fullShare (k2_pay5 x0 x1 x2 x3 x4 k2_pay2) ∗ owns (c : Thread nD τ) arg10 fullShare (k2_pay1 (k2_pay4 x0 x1 x2 x3 x4) k2_pay3)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp2RunB.lean ====
import proofs.«118775_j16338055594318_1_alg».proof.Proof.KI.Mlp2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun2_B (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare xi6 ∗ owns (c : Thread nD τ) arg8 fullShare xi7
            ∗ owns (c : Thread nD τ) arg9 fullShare (k2_pay5 x0 x1 x2 x3 x4 xs0) ∗ owns (c : Thread nD τ) arg10 fullShare (k2_pay1 (k2_pay4 x0 x1 x2 x3 x4) xs1)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp2RunC.lean ====
import proofs.«118775_j16338055594318_1_alg».proof.Proof.KI.Mlp2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun2_C (c : Dev nD) (i : grid2.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4) ∗ owns (c : Thread nD τ) arg7 fullShare (k2_pay5 x0 x1 x2 x3 x4 xs0) ∗ owns (c : Thread nD τ) arg8 fullShare (k2_pay1 (k2_pay4 x0 x1 x2 x3 x4) xs1)
            ∗ owns (c : Thread nD τ) arg9 fullShare (k2_pay5 x0 x1 x2 x3 x4 xs0) ∗ owns (c : Thread nD τ) arg10 fullShare (k2_pay1 (k2_pay4 x0 x1 x2 x3 x4) xs1)) -∗ K ⟨⟩))
      ⊢ wp frame (wpE (defs₀ (F := F)) Variants.none c none) E (cc2__mlp_bn_stats_kernel i arg1 harg1 arg2 harg2 arg3 harg3 arg4 harg4 arg5 harg5 arg6 harg6 arg7 harg7 arg8 harg8 arg9 harg9 arg10 harg10) K := by
  simp only [cc2__mlp_bn_stats_kernel_eq_skeleton]; unfold cc2__mlp_bn_stats_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp2.lean ====
import proofs.«118775_j16338055594318_1_alg».proof.Proof.KI.Mlp2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the proof data, the body obligation, and the invariant's two ends

With `hn2 t` the tile of the MLP's output at point `t` (what the point stores into window 5), the two scratch rows
hold after point `n` the column sums of `hn2 0 … hn2 n` and of their squares, added up from zero in the order of
the points: `acc2`. Windows 6 and 7 receive `acc2` at the last point. -/

section Region
variable (V : (c : Dev nD) → (b : Ref sig .tc) → Buf (Elt F) ((c : Thread nD τ).loc b))

/-- What point `t` stores into window 5: the MLP's output on the point's tile. -/
def hn2 (c : Dev nD) (t : Fin cfg2.N) : Vec F S5000x128 .f32 :=
  k2_pay4 (iblk2 V c 0 t) (iblk2 V c 1 t) (iblk2 V c 2 t) (iblk2 V c 3 t) (iblk2 V c 4 t)

/-- What the two scratch rows hold after point `n`: at the first point the tile's column sums (of the values, of their
    squares) added to zero; afterwards added to what the point before left. -/
def acc2 (c : Dev nD) : (n : ℕ) → n < cfg2.N → Vec F S1x128 .f32 × Vec F S1x128 .f32
  | 0, hn => (k2_pay5 (iblk2 V c 0 ⟨0, hn⟩) (iblk2 V c 1 ⟨0, hn⟩) (iblk2 V c 2 ⟨0, hn⟩) (iblk2 V c 3 ⟨0, hn⟩) (iblk2 V c 4 ⟨0, hn⟩) k2_pay2, k2_pay1 (hn2 V c ⟨0, hn⟩) k2_pay3)
  | n + 1, hn => (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (acc2 c n (Nat.lt_of_succ_lt hn)).1,
      k2_pay1 (hn2 V c ⟨n + 1, hn⟩) (acc2 c n (Nat.lt_of_succ_lt hn)).2)

/-- `acc2` at the first point. -/
theorem acc2_first (c : Dev nD) (t : Fin cfg2.N) (hz : t.val = 0) :
    acc2 V c t.val t.isLt = (k2_pay5 (iblk2 V c 0 t) (iblk2 V c 1 t) (iblk2 V c 2 t) (iblk2 V c 3 t) (iblk2 V c 4 t) k2_pay2, k2_pay1 (hn2 V c t) k2_pay3) := by
  obtain ⟨n, hn⟩ := t
  cases n with
  | zero => rfl
  | succ n => exact absurd hz (Nat.succ_ne_zero n)

/-- `acc2` at a later point: over what the point before left. -/
theorem acc2_later (c : Dev nD) (t : Fin cfg2.N) (hz : t.val ≠ 0) :
    acc2 V c t.val t.isLt = (k2_pay5 (iblk2 V c 0 t) (iblk2 V c 1 t) (iblk2 V c 2 t) (iblk2 V c 3 t) (iblk2 V c 4 t) (acc2 V c (t.val - 1) (Nat.lt_of_le_of_lt (Nat.sub_le _ _) t.isLt)).1,
      k2_pay1 (hn2 V c t) (acc2 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc2` of the point before, beside the other scoped buffers and the
    generator register. -/
def PhiS2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (acc2 V c n hn).1 ∗ owns (c : Thread nD τ) scM2_1 fullShare (acc2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (acc2 V c (n - 1) (by omega)).1 ∗ owns (c : Thread nD τ) scM2_1 fullShare (acc2 V c (n - 1) (by omega)).2) ∗ rest2 c) ∗ (∃ r, prngReg c r)) := by
  cases n with
  | zero => exact absurd rfl hz
  | succ n => rfl

/-- The proof data of the pipeline on core `c`: the arrays as the region finds them; after the body at point `t` each
    input's buffer at its block, window 5's at `hn2 t`, windows 6 and 7 at `acc2 t`; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => hn2 V c t
    | ⟨6, _⟩ => (acc2 V c t.val t.isLt).1
    | ⟨7, _⟩ => (acc2 V c t.val t.isLt).2
    | ⟨_ + 8, h⟩ => absurd h (Nat.not_lt.2 (Nat.le_add_left _ _))
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = hn2 V c t := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the point is the first, the last, or one between,
    and that case's run applies; the invariant hands the body the scratch rows (at anything at the first point, at
    `acc2` of the point before afterwards) and takes them back at `acc2` of this point; the other scoped buffers, the
    generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt (show cfg2.N = 10 from N_2)
  by_cases h9 : t.val = 9
  · have h0 : ¬t.val = 0 := by omega
    rw [show (dat2 V c).leavesExact 6 t = owns (c : Thread nD τ) (ms2_6 t) fullShare ((dat2 V c).after 6 t) from by
      unfold Dat.leavesExact; rw [liveAt2_6 t ((hcond2_1 t).mpr h9)], after2_6]
    rw [show (dat2 V c).leavesExact 7 t = owns (c : Thread nD τ) (ms2_7 t) fullShare ((dat2 V c).after 7 t) from by
      unfold Dat.leavesExact; rw [liveAt2_7 t ((hcond2_1 t).mpr h9)], after2_7]
    rw [acc2_later V c t h0]; unfold hn2; (try dsimp only)
    rw [PhiS2_castSucc V c t, PhiS2_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun2_C c (grid2.coords t) _ _ _ _ _ _ _ _ _ _ _ _ _ _ _ _ _ _ _ _ (fun h => h0 ((hcond2_0 t).mp h)) ((hcond2_1 t).mpr h9) (iblk2 V c 0 t) (iblk2 V c 1 t) (iblk2 V c 2 t) (iblk2 V c 3 t) (iblk2 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond2_1 (grid2.coords t) := fun h => h9 ((hcond2_1 t).mp h)
    rw [Dat.leavesExact_idle (dat2 V c) 6 t (idleAt2_6 t hc1) (noFlush2_6 t hc1)]
    rw [Dat.leavesExact_idle (dat2 V c) 7 t (idleAt2_7 t hc1) (noFlush2_7 t hc1)]
    by_cases hz : t.val = 0
    · rw [acc2_first V c t hz]; unfold hn2; (try dsimp only)
      rw [PhiS2_castSucc V c t, PhiS2_zero V c _ _ hz, PhiA2_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_A c (grid2.coords t) _ _ _ _ _ _ _ _ _ _ _ _ _ _ _ _ _ _ _ _ ((hcond2_0 t).mpr hz) hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc2_later V c t hz]; unfold hn2; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun2_B c (grid2.coords t) _ _ _ _ _ _ _ _ _ _ _ _ _ _ _ _ _ _ _ _ (fun h => hz ((hcond2_0 t).mp h)) hc1 (iblk2 V c 0 t) (iblk2 V c 1 t) (iblk2 V c 2 t) (iblk2 V c 3 t) (iblk2 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Region

end Cert.KernelIdeal.Hand

end
-- ==== Proof.KI.Bn3.lean ====
/-
  Region 3 of the program, the call of `cc3__bn_apply_relu_kernel` (pipeline 3): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out3`): the
  payload `k3_pay1` of the five input blocks at `t`.
-/
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data over `V`'s
    arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (it is fetched at
    the first point only, and its block index never moves), for any proof data over `V`'s
    arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (it is fetched at
    the first point only, and its block index never moves), for any proof data over `V`'s
    arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (it is fetched at
    the first point only, and its block index never moves), for any proof data over `V`'s
    arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (it is fetched at
    the first point only, and its block index never moves), for any proof data over `V`'s
    arrays whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The two offsets of every load and store of the body are zero. -/
theorem zero_off3 : (![0, 0] : Fin 2 → Nat) = fun _ => 0 := funext fun a => by fin_cases a <;> rfl

/-- Window 5's staging buffer after the body at point `t`: the body's one store, over the whole tile, of the
    normalised tile computed from the five input blocks at `t`. -/
def out3 (c : Dev nD) (t : Fin cfg3.N) : Vec F S5000x128 .f32 :=
  k3_pay1 (iblk3 V c 0 t) (iblk3 V c 1 t) (iblk3 V c 2 t) (iblk3 V c 3 t) (iblk3 V c 4 t)

/-- One store through the whole-tile rectangle, of the payload of whole-buffer loads, leaves the payload of the
    buffers' contents. -/
theorem canon_pay3 (x0 : Vec F S5000x128 .f32) (x1 x2 x3 x4 : Vec F S1x128 .f32) :
    View.canon [(⟨Rect.unit (s := S5000x128) ![0, 0] S5000x128.size inb_S5000x128_S5000x128_0_0,
        k3_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k3_pay1 x0 x1 x2 x3 x4 := by
  rw [View.canon_unit_zero zero_off3]
  simp only [View.ld_unit_zero (S := S5000x128) zero_off3, View.ld_unit_zero (S := S1x128) zero_off3]

/-- The one store covers the tile. -/
theorem cover3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off3 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_apply_relu_kernel i arg1 harg1 arg2 harg2 arg3 harg3 arg4 harg4 arg5 harg5 arg6 harg6) K := by
  simp only [cc3__bn_apply_relu_kernel_eq_skeleton]; unfold cc3__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover3 _)).trans (canon_pay3 _ _ _ _ _)

/-! ## The pipeline's proof data -/

/-- The proof data of pipeline 3 on core `c`: the arrays as the region finds them; after the body at point `t`
    each input's buffer at its block and the output's at `out3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 V c t := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold out3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant before the first point and after the last is the plain one. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand
-- ==== Proof.KI.Mlp4Base.lean ====
import proofs.«118775_j16338055594318_1_alg».proof.Proof.KI.Mlp0Base
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not, for any
proof data whose array is `V`'s and whose body leaves the block in place: an unfetched window's block index
has not moved since the point that fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The two conditions of the body, over the grid -/

/-- The first conditional (the scratch rows are reset): its condition from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The last conditional (the scratch rows are copied out): its condition from the grid coordinates. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point nothing is stored into window 6: it is idle there and not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point it is stored into. -/
theorem liveAt4_6 : ∀ t : Fin cfg4.N, cond4_1 (grid4.coords t) → cfg4.idle 6 (grid4.coords t) = false := by decide +kernel
/-- Before the last point nothing is stored into window 7: it is idle there and not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
/-- At the last point it is stored into. -/
theorem liveAt4_7 : ∀ t : Fin cfg4.N, cond4_1 (grid4.coords t) → cfg4.idle 7 (grid4.coords t) = false := by decide +kernel

/-! ## The memrefs the body is called with -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two scratch rows: whole scoped buffers of the call's own, passed beside the windows. -/
abbrev scM4_0 : Memref sig .tc .vmem S1x128 .f32 := Memref.whole cc4_scratch0
abbrev scM4_1 : Memref sig .tc .vmem S1x128 .f32 := Memref.whole cc4_scratch1

/-- The whole-block rectangle of a shape, as the body's loads and stores spell it. -/
abbrev rA4 : Rect S5000x128 := Rect.unit (s := S5000x128) ![0, 0] S5000x128.size inb_S5000x128_S5000x128_0_0
abbrev rR4 : Rect S1x128 := Rect.unit (s := S1x128) ![0, 0] S1x128.size inb_S1x128_S1x128_0_0

/-- Every other scoped buffer of the core (the other calls' staging buffers and scratch), unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- What the launch hands the region, with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.KernelIdeal.Hand

end
-- ==== Proof.KI.Mlp4RunA.lean ====
import proofs.«118775_j16338055594318_1_alg».proof.Proof.KI.Mlp4Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun4_A (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare xi6 ∗ owns (c : Thread nD τ) arg8 fullShare xi7
            ∗ owns (c : Thread nD τ) arg9 fullShare (k4_pay5 x0 x1 x2 x3 x4 k4_pay2) ∗ owns (c : Thread nD τ) arg10 fullShare (k4_pay1 (k4_pay4 x0 x1 x2 x3 x4) k4_pay3)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp4RunB.lean ====
import proofs.«118775_j16338055594318_1_alg».proof.Proof.KI.Mlp4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun4_B (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare xi6 ∗ owns (c : Thread nD τ) arg8 fullShare xi7
            ∗ owns (c : Thread nD τ) arg9 fullShare (k4_pay5 x0 x1 x2 x3 x4 xs0) ∗ owns (c : Thread nD τ) arg10 fullShare (k4_pay1 (k4_pay4 x0 x1 x2 x3 x4) xs1)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp4RunC.lean ====
import proofs.«118775_j16338055594318_1_alg».proof.Proof.KI.Mlp4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun4_C (c : Dev nD) (i : grid4.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k4_pay4 x0 x1 x2 x3 x4) ∗ owns (c : Thread nD τ) arg7 fullShare (k4_pay5 x0 x1 x2 x3 x4 xs0) ∗ owns (c : Thread nD τ) arg8 fullShare (k4_pay1 (k4_pay4 x0 x1 x2 x3 x4) xs1)
            ∗ owns (c : Thread nD τ) arg9 fullShare (k4_pay5 x0 x1 x2 x3 x4 xs0) ∗ owns (c : Thread nD τ) arg10 fullShare (k4_pay1 (k4_pay4 x0 x1 x2 x3 x4) xs1)) -∗ K ⟨⟩))
      ⊢ wp frame (wpE (defs₀ (F := F)) Variants.none c none) E (cc4__mlp_bn_stats_kernel i arg1 harg1 arg2 harg2 arg3 harg3 arg4 harg4 arg5 harg5 arg6 harg6 arg7 harg7 arg8 harg8 arg9 harg9 arg10 harg10) K := by
  simp only [cc4__mlp_bn_stats_kernel_eq_skeleton]; unfold cc4__mlp_bn_stats_kernel_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp4.lean ====
import proofs.«118775_j16338055594318_1_alg».proof.Proof.KI.Mlp4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the proof data, the body obligation, and the invariant's two ends

With `hn4 t` the tile of the MLP's output at point `t` (what the point stores into window 5), the two scratch rows
hold after point `n` the column sums of `hn4 0 … hn4 n` and of their squares, added up from zero in the order of
the points: `acc4`. Windows 6 and 7 receive `acc4` at the last point. -/

section Region
variable (V : (c : Dev nD) → (b : Ref sig .tc) → Buf (Elt F) ((c : Thread nD τ).loc b))

/-- What point `t` stores into window 5: the MLP's output on the point's tile. -/
def hn4 (c : Dev nD) (t : Fin cfg4.N) : Vec F S5000x128 .f32 :=
  k4_pay4 (iblk4 V c 0 t) (iblk4 V c 1 t) (iblk4 V c 2 t) (iblk4 V c 3 t) (iblk4 V c 4 t)

/-- What the two scratch rows hold after point `n`: at the first point the tile's column sums (of the values, of their
    squares) added to zero; afterwards added to what the point before left. -/
def acc4 (c : Dev nD) : (n : ℕ) → n < cfg4.N → Vec F S1x128 .f32 × Vec F S1x128 .f32
  | 0, hn => (k4_pay5 (iblk4 V c 0 ⟨0, hn⟩) (iblk4 V c 1 ⟨0, hn⟩) (iblk4 V c 2 ⟨0, hn⟩) (iblk4 V c 3 ⟨0, hn⟩) (iblk4 V c 4 ⟨0, hn⟩) k4_pay2, k4_pay1 (hn4 V c ⟨0, hn⟩) k4_pay3)
  | n + 1, hn => (k4_pay5 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (acc4 c n (Nat.lt_of_succ_lt hn)).1,
      k4_pay1 (hn4 V c ⟨n + 1, hn⟩) (acc4 c n (Nat.lt_of_succ_lt hn)).2)

/-- `acc4` at the first point. -/
theorem acc4_first (c : Dev nD) (t : Fin cfg4.N) (hz : t.val = 0) :
    acc4 V c t.val t.isLt = (k4_pay5 (iblk4 V c 0 t) (iblk4 V c 1 t) (iblk4 V c 2 t) (iblk4 V c 3 t) (iblk4 V c 4 t) k4_pay2, k4_pay1 (hn4 V c t) k4_pay3) := by
  obtain ⟨n, hn⟩ := t
  cases n with
  | zero => rfl
  | succ n => exact absurd hz (Nat.succ_ne_zero n)

/-- `acc4` at a later point: over what the point before left. -/
theorem acc4_later (c : Dev nD) (t : Fin cfg4.N) (hz : t.val ≠ 0) :
    acc4 V c t.val t.isLt = (k4_pay5 (iblk4 V c 0 t) (iblk4 V c 1 t) (iblk4 V c 2 t) (iblk4 V c 3 t) (iblk4 V c 4 t) (acc4 V c (t.val - 1) (Nat.lt_of_le_of_lt (Nat.sub_le _ _) t.isLt)).1,
      k4_pay1 (hn4 V c t) (acc4 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc4` of the point before, beside the other scoped buffers and the
    generator register. -/
def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2) ∗ rest4 c) ∗ (∃ r, prngReg c r)) := by
  cases n with
  | zero => exact absurd rfl hz
  | succ n => rfl

/-- The proof data of the pipeline on core `c`: the arrays as the region finds them; after the body at point `t` each
    input's buffer at its block, window 5's at `hn4 t`, windows 6 and 7 at `acc4 t`; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => hn4 V c t
    | ⟨6, _⟩ => (acc4 V c t.val t.isLt).1
    | ⟨7, _⟩ => (acc4 V c t.val t.isLt).2
    | ⟨_ + 8, h⟩ => absurd h (Nat.not_lt.2 (Nat.le_add_left _ _))
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = hn4 V c t := by dsimp only [dat4]
theorem after4_6 (c : Dev nD) (t : Fin cfg4.N) : (dat4 V c).after 6 t = (acc4 V c t.val t.isLt).1 := by dsimp only [dat4]
theorem after4_7 (c : Dev nD) (t : Fin cfg4.N) : (dat4 V c).after 7 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the point is the first, the last, or one between,
    and that case's run applies; the invariant hands the body the scratch rows (at anything at the first point, at
    `acc4` of the point before afterwards) and takes them back at `acc4` of this point; the other scoped buffers, the
    generator register and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 10 := lt_of_lt_of_eq t.isLt (show cfg4.N = 10 from N_4)
  by_cases h9 : t.val = 9
  · have h0 : ¬t.val = 0 := by omega
    rw [show (dat4 V c).leavesExact 6 t = owns (c : Thread nD τ) (ms4_6 t) fullShare ((dat4 V c).after 6 t) from by
      unfold Dat.leavesExact; rw [liveAt4_6 t ((hcond4_1 t).mpr h9)], after4_6]
    rw [show (dat4 V c).leavesExact 7 t = owns (c : Thread nD τ) (ms4_7 t) fullShare ((dat4 V c).after 7 t) from by
      unfold Dat.leavesExact; rw [liveAt4_7 t ((hcond4_1 t).mpr h9)], after4_7]
    rw [acc4_later V c t h0]; unfold hn4; (try dsimp only)
    rw [PhiS4_castSucc V c t, PhiS4_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun4_C c (grid4.coords t) _ _ _ _ _ _ _ _ _ _ _ _ _ _ _ _ _ _ _ _ (fun h => h0 ((hcond4_0 t).mp h)) ((hcond4_1 t).mpr h9) (iblk4 V c 0 t) (iblk4 V c 1 t) (iblk4 V c 2 t) (iblk4 V c 3 t) (iblk4 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond4_1 (grid4.coords t) := fun h => h9 ((hcond4_1 t).mp h)
    rw [Dat.leavesExact_idle (dat4 V c) 6 t (idleAt4_6 t hc1) (noFlush4_6 t hc1)]
    rw [Dat.leavesExact_idle (dat4 V c) 7 t (idleAt4_7 t hc1) (noFlush4_7 t hc1)]
    by_cases hz : t.val = 0
    · rw [acc4_first V c t hz]; unfold hn4; (try dsimp only)
      rw [PhiS4_castSucc V c t, PhiS4_zero V c _ _ hz, PhiA4_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun4_A c (grid4.coords t) _ _ _ _ _ _ _ _ _ _ _ _ _ _ _ _ _ _ _ _ ((hcond4_0 t).mpr hz) hc1 (iblk4 V c 0 t) (iblk4 V c 1 t) (iblk4 V c 2 t) (iblk4 V c 3 t) (iblk4 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc4_later V c t hz]; unfold hn4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun4_B c (grid4.coords t) _ _ _ _ _ _ _ _ _ _ _ _ _ _ _ _ _ _ _ _ (fun h => hz ((hcond4_0 t).mp h)) hc1 (iblk4 V c 0 t) (iblk4 V c 1 t) (iblk4 V c 2 t) (iblk4 V c 3 t) (iblk4 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Region

end Cert.KernelIdeal.Hand

end
-- ==== Proof.KI.Bn5.lean ====
/-
  Region 5 of the program, the call of `cc5__bn_apply_relu_kernel` (pipeline 5): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out5`): the
  payload `k5_pay1` of the five input blocks at `t`.
-/
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data over `V`'s
    arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (it is fetched at
    the first point only, and its block index never moves), for any proof data over `V`'s
    arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (it is fetched at
    the first point only, and its block index never moves), for any proof data over `V`'s
    arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (it is fetched at
    the first point only, and its block index never moves), for any proof data over `V`'s
    arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (it is fetched at
    the first point only, and its block index never moves), for any proof data over `V`'s
    arrays whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer -/

/-- The two offsets of every load and store of the body are zero. -/
theorem zero_off5 : (![0, 0] : Fin 2 → Nat) = fun _ => 0 := funext fun a => by fin_cases a <;> rfl

/-- Window 5's staging buffer after the body at point `t`: the body's one store, over the whole tile, of the
    normalised tile computed from the five input blocks at `t`. -/
def out5 (c : Dev nD) (t : Fin cfg5.N) : Vec F S5000x128 .f32 :=
  k5_pay1 (iblk5 V c 0 t) (iblk5 V c 1 t) (iblk5 V c 2 t) (iblk5 V c 3 t) (iblk5 V c 4 t)

/-- One store through the whole-tile rectangle, of the payload of whole-buffer loads, leaves the payload of the
    buffers' contents. -/
theorem canon_pay5 (x0 : Vec F S5000x128 .f32) (x1 x2 x3 x4 : Vec F S1x128 .f32) :
    View.canon [(⟨Rect.unit (s := S5000x128) ![0, 0] S5000x128.size inb_S5000x128_S5000x128_0_0,
        k5_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k5_pay1 x0 x1 x2 x3 x4 := by
  rw [View.canon_unit_zero zero_off5]
  simp only [View.ld_unit_zero (S := S5000x128) zero_off5, View.ld_unit_zero (S := S1x128) zero_off5]

/-- The one store covers the tile. -/
theorem cover5 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off5 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__bn_apply_relu_kernel i arg1 harg1 arg2 harg2 arg3 harg3 arg4 harg4 arg5 harg5 arg6 harg6) K := by
  simp only [cc5__bn_apply_relu_kernel_eq_skeleton]; unfold cc5__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover5 _)).trans (canon_pay5 _ _ _ _ _)

/-! ## The pipeline's proof data -/

/-- The proof data of pipeline 5 on core `c`: the arrays as the region finds them; after the body at point `t`
    each input's buffer at its block and the output's at `out5`; the plain invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 V c t := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  unfold out5
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The invariant before the first point and after the last is the plain one. -/
theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand
-- ==== Proof.KI.Mlp6Base.lean ====
import proofs.«118775_j16338055594318_1_alg».proof.Proof.KI.Mlp0Base
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not, for any
proof data whose array is `V`'s and whose body leaves the block in place: an unfetched window's block index
has not moved since the point that fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

end Region

/-! ## The two conditions of the body, over the grid -/

/-- The first conditional (the scratch rows are reset): its condition from the grid coordinates. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The last conditional (the scratch rows are copied out): its condition from the grid coordinates. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
/-- Before the last point nothing is stored into window 6: it is idle there and not written back. -/
theorem idleAt6_6 : ∀ t : Fin cfg6.N, ¬cond6_1 (grid6.coords t) → cfg6.idle 6 (grid6.coords t) = true := by decide +kernel
theorem noFlush6_6 : ∀ t : Fin cfg6.N, ¬cond6_1 (grid6.coords t) → (cfg6.win 6).flush t = false := by decide +kernel
/-- At the last point it is stored into. -/
theorem liveAt6_6 : ∀ t : Fin cfg6.N, cond6_1 (grid6.coords t) → cfg6.idle 6 (grid6.coords t) = false := by decide +kernel
/-- Before the last point nothing is stored into window 7: it is idle there and not written back. -/
theorem idleAt6_7 : ∀ t : Fin cfg6.N, ¬cond6_1 (grid6.coords t) → cfg6.idle 7 (grid6.coords t) = true := by decide +kernel
theorem noFlush6_7 : ∀ t : Fin cfg6.N, ¬cond6_1 (grid6.coords t) → (cfg6.win 7).flush t = false := by decide +kernel
/-- At the last point it is stored into. -/
theorem liveAt6_7 : ∀ t : Fin cfg6.N, cond6_1 (grid6.coords t) → cfg6.idle 7 (grid6.coords t) = false := by decide +kernel

/-! ## The memrefs the body is called with -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
/-- The two scratch rows: whole scoped buffers of the call's own, passed beside the windows. -/
abbrev scM6_0 : Memref sig .tc .vmem S1x128 .f32 := Memref.whole cc6_scratch0
abbrev scM6_1 : Memref sig .tc .vmem S1x128 .f32 := Memref.whole cc6_scratch1

/-- The whole-block rectangle of a shape, as the body's loads and stores spell it. -/
abbrev rA6 : Rect S5000x128 := Rect.unit (s := S5000x128) ![0, 0] S5000x128.size inb_S5000x128_S5000x128_0_0
abbrev rR6 : Rect S1x128 := Rect.unit (s := S1x128) ![0, 0] S1x128.size inb_S1x128_S1x128_0_0

/-- Every other scoped buffer of the core (the other calls' staging buffers and scratch), unopened. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- What the launch hands the region, with the two scratch rows as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.KernelIdeal.Hand

end
-- ==== Proof.KI.Mlp6RunA.lean ====
import proofs.«118775_j16338055594318_1_alg».proof.Proof.KI.Mlp6Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun6_A (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond6_0 i) (hc1 : ¬cond6_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare xi6 ∗ owns (c : Thread nD τ) arg8 fullShare xi7
            ∗ owns (c : Thread nD τ) arg9 fullShare (k6_pay5 x0 x1 x2 x3 x4 k6_pay2) ∗ owns (c : Thread nD τ) arg10 fullShare (k6_pay1 (k6_pay4 x0 x1 x2 x3 x4) k6_pay3)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp6RunB.lean ====
import proofs.«118775_j16338055594318_1_alg».proof.Proof.KI.Mlp6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun6_B (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i) (hc1 : ¬cond6_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare xi6 ∗ owns (c : Thread nD τ) arg8 fullShare xi7
            ∗ owns (c : Thread nD τ) arg9 fullShare (k6_pay5 x0 x1 x2 x3 x4 xs0) ∗ owns (c : Thread nD τ) arg10 fullShare (k6_pay1 (k6_pay4 x0 x1 x2 x3 x4) xs1)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp6RunC.lean ====
import proofs.«118775_j16338055594318_1_alg».proof.Proof.KI.Mlp6RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun6_C (c : Dev nD) (i : grid6.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond6_0 i) (hc1 : cond6_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k6_pay4 x0 x1 x2 x3 x4) ∗ owns (c : Thread nD τ) arg7 fullShare (k6_pay5 x0 x1 x2 x3 x4 xs0) ∗ owns (c : Thread nD τ) arg8 fullShare (k6_pay1 (k6_pay4 x0 x1 x2 x3 x4) xs1)
            ∗ owns (c : Thread nD τ) arg9 fullShare (k6_pay5 x0 x1 x2 x3 x4 xs0) ∗ owns (c : Thread nD τ) arg10 fullShare (k6_pay1 (k6_pay4 x0 x1 x2 x3 x4) xs1)) -∗ K ⟨⟩))
      ⊢ wp frame (wpE (defs₀ (F := F)) Variants.none c none) E (cc6__mlp_bn_stats_kernel i arg1 harg1 arg2 harg2 arg3 harg3 arg4 harg4 arg5 harg5 arg6 harg6 arg7 harg7 arg8 harg8 arg9 harg9 arg10 harg10) K := by
  simp only [cc6__mlp_bn_stats_kernel_eq_skeleton]; unfold cc6__mlp_bn_stats_kernel_skel
  simp only [k6_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp6.lean ====
import proofs.«118775_j16338055594318_1_alg».proof.Proof.KI.Mlp6RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the proof data, the body obligation, and the invariant's two ends

With `hn6 t` the tile of the MLP's output at point `t` (what the point stores into window 5), the two scratch rows
hold after point `n` the column sums of `hn6 0 … hn6 n` and of their squares, added up from zero in the order of
the points: `acc6`. Windows 6 and 7 receive `acc6` at the last point. -/

section Region
variable (V : (c : Dev nD) → (b : Ref sig .tc) → Buf (Elt F) ((c : Thread nD τ).loc b))

/-- What point `t` stores into window 5: the MLP's output on the point's tile. -/
def hn6 (c : Dev nD) (t : Fin cfg6.N) : Vec F S5000x128 .f32 :=
  k6_pay4 (iblk6 V c 0 t) (iblk6 V c 1 t) (iblk6 V c 2 t) (iblk6 V c 3 t) (iblk6 V c 4 t)

/-- What the two scratch rows hold after point `n`: at the first point the tile's column sums (of the values, of their
    squares) added to zero; afterwards added to what the point before left. -/
def acc6 (c : Dev nD) : (n : ℕ) → n < cfg6.N → Vec F S1x128 .f32 × Vec F S1x128 .f32
  | 0, hn => (k6_pay5 (iblk6 V c 0 ⟨0, hn⟩) (iblk6 V c 1 ⟨0, hn⟩) (iblk6 V c 2 ⟨0, hn⟩) (iblk6 V c 3 ⟨0, hn⟩) (iblk6 V c 4 ⟨0, hn⟩) k6_pay2, k6_pay1 (hn6 V c ⟨0, hn⟩) k6_pay3)
  | n + 1, hn => (k6_pay5 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (acc6 c n (Nat.lt_of_succ_lt hn)).1,
      k6_pay1 (hn6 V c ⟨n + 1, hn⟩) (acc6 c n (Nat.lt_of_succ_lt hn)).2)

/-- `acc6` at the first point. -/
theorem acc6_first (c : Dev nD) (t : Fin cfg6.N) (hz : t.val = 0) :
    acc6 V c t.val t.isLt = (k6_pay5 (iblk6 V c 0 t) (iblk6 V c 1 t) (iblk6 V c 2 t) (iblk6 V c 3 t) (iblk6 V c 4 t) k6_pay2, k6_pay1 (hn6 V c t) k6_pay3) := by
  obtain ⟨n, hn⟩ := t
  cases n with
  | zero => rfl
  | succ n => exact absurd hz (Nat.succ_ne_zero n)

/-- `acc6` at a later point: over what the point before left. -/
theorem acc6_later (c : Dev nD) (t : Fin cfg6.N) (hz : t.val ≠ 0) :
    acc6 V c t.val t.isLt = (k6_pay5 (iblk6 V c 0 t) (iblk6 V c 1 t) (iblk6 V c 2 t) (iblk6 V c 3 t) (iblk6 V c 4 t) (acc6 V c (t.val - 1) (Nat.lt_of_le_of_lt (Nat.sub_le _ _) t.isLt)).1,
      k6_pay1 (hn6 V c t) (acc6 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc6` of the point before, beside the other scoped buffers and the
    generator register. -/
def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2) ∗ rest6 c) ∗ (∃ r, prngReg c r)) := by
  cases n with
  | zero => exact absurd rfl hz
  | succ n => rfl

/-- The proof data of the pipeline on core `c`: the arrays as the region finds them; after the body at point `t` each
    input's buffer at its block, window 5's at `hn6 t`, windows 6 and 7 at `acc6 t`; the invariant `PhiS6`; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => hn6 V c t
    | ⟨6, _⟩ => (acc6 V c t.val t.isLt).1
    | ⟨7, _⟩ => (acc6 V c t.val t.isLt).2
    | ⟨_ + 8, h⟩ => absurd h (Nat.not_lt.2 (Nat.le_add_left _ _))
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = hn6 V c t := by dsimp only [dat6]
theorem after6_6 (c : Dev nD) (t : Fin cfg6.N) : (dat6 V c).after 6 t = (acc6 V c t.val t.isLt).1 := by dsimp only [dat6]
theorem after6_7 (c : Dev nD) (t : Fin cfg6.N) : (dat6 V c).after 7 t = (acc6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t)

set_option maxHeartbeats 4800000 in
/-- The body at any point: the inputs' memrefs hold their blocks; the point is the first, the last, or one between,
    and that case's run applies; the invariant hands the body the scratch rows (at anything at the first point, at
    `acc6` of the point before afterwards) and takes them back at `acc6` of this point; the other scoped buffers, the
    generator register and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  have hN : t.val < 10 := lt_of_lt_of_eq t.isLt (show cfg6.N = 10 from N_6)
  by_cases h9 : t.val = 9
  · have h0 : ¬t.val = 0 := by omega
    rw [show (dat6 V c).leavesExact 6 t = owns (c : Thread nD τ) (ms6_6 t) fullShare ((dat6 V c).after 6 t) from by
      unfold Dat.leavesExact; rw [liveAt6_6 t ((hcond6_1 t).mpr h9)], after6_6]
    rw [show (dat6 V c).leavesExact 7 t = owns (c : Thread nD τ) (ms6_7 t) fullShare ((dat6 V c).after 7 t) from by
      unfold Dat.leavesExact; rw [liveAt6_7 t ((hcond6_1 t).mpr h9)], after6_7]
    rw [acc6_later V c t h0]; unfold hn6; (try dsimp only)
    rw [PhiS6_castSucc V c t, PhiS6_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun6_C c (grid6.coords t) _ _ _ _ _ _ _ _ _ _ _ _ _ _ _ _ _ _ _ _ (fun h => h0 ((hcond6_0 t).mp h)) ((hcond6_1 t).mpr h9) (iblk6 V c 0 t) (iblk6 V c 1 t) (iblk6 V c 2 t) (iblk6 V c 3 t) (iblk6 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond6_1 (grid6.coords t) := fun h => h9 ((hcond6_1 t).mp h)
    rw [Dat.leavesExact_idle (dat6 V c) 6 t (idleAt6_6 t hc1) (noFlush6_6 t hc1)]
    rw [Dat.leavesExact_idle (dat6 V c) 7 t (idleAt6_7 t hc1) (noFlush6_7 t hc1)]
    by_cases hz : t.val = 0
    · rw [acc6_first V c t hz]; unfold hn6; (try dsimp only)
      rw [PhiS6_castSucc V c t, PhiS6_zero V c _ _ hz, PhiA6_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun6_A c (grid6.coords t) _ _ _ _ _ _ _ _ _ _ _ _ _ _ _ _ _ _ _ _ ((hcond6_0 t).mpr hz) hc1 (iblk6 V c 0 t) (iblk6 V c 1 t) (iblk6 V c 2 t) (iblk6 V c 3 t) (iblk6 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc6_later V c t hz]; unfold hn6; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun6_B c (grid6.coords t) _ _ _ _ _ _ _ _ _ _ _ _ _ _ _ _ _ _ _ _ (fun h => hz ((hcond6_0 t).mp h)) hc1 (iblk6 V c 0 t) (iblk6 V c 1 t) (iblk6 V c 2 t) (iblk6 V c 3 t) (iblk6 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the scratch rows' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Region

end Cert.KernelIdeal.Hand

end
-- ==== Proof.KI.Bn7.lean ====
/-
  Region 7 of the program, the call of `cc7__bn_apply_relu_kernel` (pipeline 7): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  max(((x - mean) * rstd) * gamma + beta, 0)  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out7`): the
  payload `k7_pay1` of the five input blocks at `t`.
-/
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data over `V`'s
    arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not (it is fetched at
    the first point only, and its block index never moves), for any proof data over `V`'s
    arrays whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not (it is fetched at
    the first point only, and its block index never moves), for any proof data over `V`'s
    arrays whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not (it is fetched at
    the first point only, and its block index never moves), for any proof data over `V`'s
    arrays whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not (it is fetched at
    the first point only, and its block index never moves), for any proof data over `V`'s
    arrays whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer -/

/-- The two offsets of every load and store of the body are zero. -/
theorem zero_off7 : (![0, 0] : Fin 2 → Nat) = fun _ => 0 := funext fun a => by fin_cases a <;> rfl

/-- Window 5's staging buffer after the body at point `t`: the body's one store, over the whole tile, of the
    normalised tile computed from the five input blocks at `t`. -/
def out7 (c : Dev nD) (t : Fin cfg7.N) : Vec F S5000x128 .f32 :=
  k7_pay1 (iblk7 V c 0 t) (iblk7 V c 1 t) (iblk7 V c 2 t) (iblk7 V c 3 t) (iblk7 V c 4 t)

/-- One store through the whole-tile rectangle, of the payload of whole-buffer loads, leaves the payload of the
    buffers' contents. -/
theorem canon_pay7 (x0 : Vec F S5000x128 .f32) (x1 x2 x3 x4 : Vec F S1x128 .f32) :
    View.canon [(⟨Rect.unit (s := S5000x128) ![0, 0] S5000x128.size inb_S5000x128_S5000x128_0_0,
        k7_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k7_pay1 x0 x1 x2 x3 x4 := by
  rw [View.canon_unit_zero zero_off7]
  simp only [View.ld_unit_zero (S := S5000x128) zero_off7, View.ld_unit_zero (S := S1x128) zero_off7]

/-- The one store covers the tile. -/
theorem cover7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off7 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k7_pay1 x0 x1 x2 x3 x4)) -∗ K ⟨⟩))
      ⊢ wp frame (wpE (defs₀ (F := F)) Variants.none c none) E (cc7__bn_apply_relu_kernel i arg1 harg1 arg2 harg2 arg3 harg3 arg4 harg4 arg5 harg5 arg6 harg6) K := by
  simp only [cc7__bn_apply_relu_kernel_eq_skeleton]; unfold cc7__bn_apply_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover7 _)).trans (canon_pay7 _ _ _ _ _)

/-! ## The pipeline's proof data -/

/-- The proof data of pipeline 7 on core `c`: the arrays as the region finds them; after the body at point `t`
    each input's buffer at its block and the output's at `out7`; the plain invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 V c t
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7 V c t := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  unfold out7
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- The invariant before the first point and after the last is the plain one. -/
theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.KernelIdeal.Hand
-- ==== Proof.KI.Mlp8Base.lean ====
import proofs.«118775_j16338055594318_1_alg».proof.Proof.KI.Mlp0Base
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8 (an MLP-and-statistics call): what its three control cases share

The call runs over ten row tiles. Windows 0..4 are inputs (the tile of aggregated features, and the two
weight matrices and two bias rows, the same at every point); window 5 receives the tile of the MLP's
output; windows 6 and 7 receive, at the last point only, the column sums and the column sums of squares,
which two scratch rows accumulate from point to point. Everything is stated at a parameter `V`: the
contents of the core's buffers when the region is entered. -/

section Region
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point, fetched there or not, for any
proof data whose array is `V`'s and whose body leaves the block in place: an unfetched window's block index
has not moved since the point that fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

end Region

/-! ## The two conditions of the body, over the grid -/

/-- The first conditional (the scratch rows are reset): its condition from the grid coordinates. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The last conditional (the scratch rows are copied out): its condition from the grid coordinates. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
/-- Before the last point nothing is stored into window 6: it is idle there and not written back. -/
theorem idleAt8_6 : ∀ t : Fin cfg8.N, ¬cond8_1 (grid8.coords t) → cfg8.idle 6 (grid8.coords t) = true := by decide +kernel
theorem noFlush8_6 : ∀ t : Fin cfg8.N, ¬cond8_1 (grid8.coords t) → (cfg8.win 6).flush t = false := by decide +kernel
/-- At the last point it is stored into. -/
theorem liveAt8_6 : ∀ t : Fin cfg8.N, cond8_1 (grid8.coords t) → cfg8.idle 6 (grid8.coords t) = false := by decide +kernel
/-- Before the last point nothing is stored into window 7: it is idle there and not written back. -/
theorem idleAt8_7 : ∀ t : Fin cfg8.N, ¬cond8_1 (grid8.coords t) → cfg8.idle 7 (grid8.coords t) = true := by decide +kernel
theorem noFlush8_7 : ∀ t : Fin cfg8.N, ¬cond8_1 (grid8.coords t) → (cfg8.win 7).flush t = false := by decide +kernel
/-- At the last point it is stored into. -/
theorem liveAt8_7 : ∀ t : Fin cfg8.N, cond8_1 (grid8.coords t) → cfg8.idle 7 (grid8.coords t) = false := by decide +kernel

/-! ## The memrefs the body is called with -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S128x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S256x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S5000x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
/-- The two scratch rows: whole scoped buffers of the call's own, passed beside the windows. -/
abbrev scM8_0 : Memref sig .tc .vmem S1x128 .f32 := Memref.whole cc8_scratch0
abbrev scM8_1 : Memref sig .tc .vmem S1x128 .f32 := Memref.whole cc8_scratch1

/-- The whole-block rectangle of a shape, as the body's loads and stores spell it. -/
abbrev rA8 : Rect S5000x128 := Rect.unit (s := S5000x128) ![0, 0] S5000x128.size inb_S5000x128_S5000x128_0_0
abbrev rR8 : Rect S1x128 := Rect.unit (s := S1x128) ![0, 0] S1x128.size inb_S1x128_S1x128_0_0

/-- Every other scoped buffer of the core (the other calls' staging buffers and scratch), unopened. -/
abbrev rest8 (c : Dev nD) : sProp 𝕄 :=
  Pipeline.scopedRestBut (Ix := Unit) (Name := ℕ) (U := UR sig nD τ) (Lvl := ℕ) (Val := Elt F) spec8 c [cc8_scratch0, cc8_scratch1]

/-- What the launch hands the region, with the two scratch rows as memrefs owned at some contents. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

end Cert.KernelIdeal.Hand

end
-- ==== Proof.KI.Mlp8RunA.lean ====
import proofs.«118775_j16338055594318_1_alg».proof.Proof.KI.Mlp8Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the FIRST point (the scratch rows are reset, then accumulated into; nothing is copied out): on whole
    memrefs, the inputs' at their contents, output 5's and the scratch rows at anything, outputs 6 and 7 handed back
    untouched, it runs to the continuation with output 5 at the MLP's tile, and the scratch rows at the tile's column
    sums and column sums of squares added to zero. -/
theorem kernelRun8_A (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond8_0 i) (hc1 : ¬cond8_1 i)
    (x0 : Vec F S5000x128 .f32) (x1 : Vec F S128x256 .f32) (x2 : Vec F S1x256 .f32) (x3 : Vec F S256x128 .f32) (x4 : Vec F S1x128 .f32) (xi6 xi7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare xi6 ∗ owns (c : Thread nD τ) arg8 fullShare xi7
            ∗ owns (c : Thread nD τ) arg9 fullShare (k8_pay5 x0 x1 x2 x3 x4 k8_pay2) ∗ owns (c : Thread nD τ) arg10 fullShare (k8_pay1 (k8_pay4 x0 x1 x2 x3 x4) k8_pay3)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp8RunB.lean ====
import proofs.«118775_j16338055594318_1_alg».proof.Proof.KI.Mlp8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at a MIDDLE point (nothing reset, nothing copied out): the scratch rows come at what the point before
    left and go at the tile's column sums and column sums of squares added to that; outputs 6 and 7 are handed back
    untouched. -/
theorem kernelRun8_B (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i) (hc1 : ¬cond8_1 i)
    (x0 : Vec F S5000x128 .f32) (x1 : Vec F S128x256 .f32) (x2 : Vec F S1x256 .f32) (x3 : Vec F S256x128 .f32) (x4 : Vec F S1x128 .f32) (xi6 xi7 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare xi6 ∗ owns (c : Thread nD τ) arg8 fullShare xi7
            ∗ owns (c : Thread nD τ) arg9 fullShare (k8_pay5 x0 x1 x2 x3 x4 xs0) ∗ owns (c : Thread nD τ) arg10 fullShare (k8_pay1 (k8_pay4 x0 x1 x2 x3 x4) xs1)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists f7; isplitr; · ipureintro; exact hf7
    iexact H7
  isplitl [H8]
  · iexists f8; isplitr; · ipureintro; exact hf8
    iexact H8
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp8RunC.lean ====
import proofs.«118775_j16338055594318_1_alg».proof.Proof.KI.Mlp8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the body's run in one of its three control cases

The body is run symbolically on whole memrefs. Every store it makes is of a whole block, so what a buffer reads
afterwards is the last payload stored into it, and each payload is a pure function (the skeleton's) of the input
blocks and of what the scratch rows held. -/

set_option maxHeartbeats 1000000 in
/-- The body at the LAST point (nothing reset; the scratch rows are copied out): as at a middle point, and outputs 6
    and 7 receive the two accumulated rows. -/
theorem kernelRun8_C (c : Dev nD) (i : grid8.Coords) (arg1 : Memref sig .tc .vmem S5000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond8_0 i) (hc1 : cond8_1 i)
    (x0 : Vec F S5000x128 .f32) (x1 : Vec F S128x256 .f32) (x2 : Vec F S1x256 .f32) (x3 : Vec F S256x128 .f32) (x4 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4) ∗ owns (c : Thread nD τ) arg7 fullShare (k8_pay5 x0 x1 x2 x3 x4 xs0) ∗ owns (c : Thread nD τ) arg8 fullShare (k8_pay1 (k8_pay4 x0 x1 x2 x3 x4) xs1)
            ∗ owns (c : Thread nD τ) arg9 fullShare (k8_pay5 x0 x1 x2 x3 x4 xs0) ∗ owns (c : Thread nD τ) arg10 fullShare (k8_pay1 (k8_pay4 x0 x1 x2 x3 x4) xs1)) -∗ K ⟨⟩))
      ⊢ wp frame (wpE (defs₀ (F := F)) Variants.none c none) E (cc8__mlp_bn_stats_kernel i arg1 harg1 arg2 harg2 arg3 harg3 arg4 harg4 arg5 harg5 arg6 harg6 arg7 harg7 arg8 harg8 arg9 harg9 arg10 harg10) K := by
  simp only [cc8__mlp_bn_stats_kernel_eq_skeleton]; unfold cc8__mlp_bn_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    (try sl_unfold_words)
    rw [read_writes_whole (S := S5000x128) arg6.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H7]
  · iexists _; isplitr
    swap; · iexact H7
    ipureintro
    (try sl_unfold_words)
    rw [read_writes_whole (S := S1x128) arg7.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H8]
  · iexists _; isplitr
    swap; · iexact H8
    ipureintro
    (try sl_unfold_words)
    rw [read_writes_whole (S := S1x128) arg8.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  isplitl [H9]
  · iexists _; isplitr
    swap; · iexact H9
    ipureintro
    (try sl_unfold_words)
    rw [read_writes_whole (S := S1x128) arg9.view _ hz2]
    (try sl_unfold_words)
    simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]
  iexists _; isplitr
  swap; · iexact H10
  ipureintro
  (try sl_unfold_words)
  rw [read_writes_whole (S := S1x128) arg10.view _ hz2]
  (try sl_unfold_words)
  simp only [readAt_unread_whole (S := S5000x128) _ _ hz2, readAt_unread_whole (S := S128x256) _ _ hz2, readAt_unread_whole (S := S1x256) _ _ hz2, readAt_unread_whole (S := S256x128) _ _ hz2, readAt_unread_whole (S := S1x128) _ _ hz2, View.readCov_unit_zero (S := S1x128) _ hz2]

end Cert.KernelIdeal.Hand

end
-- ==== Proof.KI.Mlp8.lean ====
import proofs.«118775_j16338055594318_1_alg».proof.Proof.KI.Mlp8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the proof data, the body obligation, and the invariant's two ends

With `hn8 t` the tile of the MLP's output at point `t` (what the point stores into window 5), the two scratch rows
hold after point `n` the column sums of `hn8 0 … hn8 n` and of their squares, added up from zero in the order of
the points: `acc8`. Windows 6 and 7 receive `acc8` at the last point. -/

section Region
variable (V : (c : Dev nD) → (b : Ref sig .tc) → Buf (Elt F) ((c : Thread nD τ).loc b))

/-- What point `t` stores into window 5: the MLP's output on the point's tile. -/
def hn8 (c : Dev nD) (t : Fin cfg8.N) : Vec F S5000x128 .f32 :=
  k8_pay4 (iblk8 V c 0 t) (iblk8 V c 1 t) (iblk8 V c 2 t) (iblk8 V c 3 t) (iblk8 V c 4 t)

/-- What the two scratch rows hold after point `n`: at the first point the tile's column sums (of the values, of their
    squares) added to zero; afterwards added to what the point before left. -/
def acc8 (c : Dev nD) : (n : ℕ) → n < cfg8.N → Vec F S1x128 .f32 × Vec F S1x128 .f32
  | 0, hn => (k8_pay5 (iblk8 V c 0 ⟨0, hn⟩) (iblk8 V c 1 ⟨0, hn⟩) (iblk8 V c 2 ⟨0, hn⟩) (iblk8 V c 3 ⟨0, hn⟩) (iblk8 V c 4 ⟨0, hn⟩) k8_pay2, k8_pay1 (hn8 V c ⟨0, hn⟩) k8_pay3)
  | n + 1, hn => (k8_pay5 (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (acc8 c n (Nat.lt_of_succ_lt hn)).1,
      k8_pay1 (hn8 V c ⟨n + 1, hn⟩) (acc8 c n (Nat.lt_of_succ_lt hn)).2)

/-- `acc8` at the first point. -/
theorem acc8_first (c : Dev nD) (t : Fin cfg8.N) (hz : t.val = 0) :
    acc8 V c t.val t.isLt = (k8_pay5 (iblk8 V c 0 t) (iblk8 V c 1 t) (iblk8 V c 2 t) (iblk8 V c 3 t) (iblk8 V c 4 t) k8_pay2, k8_pay1 (hn8 V c t) k8_pay3) := by
  obtain ⟨n, hn⟩ := t
  cases n with
  | zero => rfl
  | succ n => exact absurd hz (Nat.succ_ne_zero n)

/-- `acc8` at a later point: over what the point before left. -/
theorem acc8_later (c : Dev nD) (t : Fin cfg8.N) (hz : t.val ≠ 0) :
    acc8 V c t.val t.isLt = (k8_pay5 (iblk8 V c 0 t) (iblk8 V c 1 t) (iblk8 V c 2 t) (iblk8 V c 3 t) (iblk8 V c 4 t) (acc8 V c (t.val - 1) (Nat.lt_of_le_of_lt (Nat.sub_le _ _) t.isLt)).1,
      k8_pay1 (hn8 V c t) (acc8 V c (t.val - 1) (Nat.lt_of_le_of_lt (Nat.sub_le _ _) t.isLt)).2) := by
  obtain ⟨n, hn⟩ := t
  cases n with
  | zero => exact absurd rfl hz
  | succ n => rfl

/-- The region invariant before position `n`: before the first point what the launch hands over (both scratch rows at
    anything); afterwards the scratch rows at `acc8` of the point before, beside the other scoped buffers and the
    generator register. -/
def PhiS8 (c : Dev nD) : (n : ℕ) → n ≤ cfg8.N → sProp 𝕄
  | 0, _ => Pipeline.ΦA spec8 c
  | n + 1, hn => iprop(iprop(iprop(owns (c : Thread nD τ) scM8_0 fullShare (acc8 V c n hn).1 ∗ owns (c : Thread nD τ) scM8_1 fullShare (acc8 V c n hn).2) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (acc8 V c n hn).1 ∗ owns (c : Thread nD τ) scM8_1 fullShare (acc8 V c n hn).2) ∗ rest8 c) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (acc8 V c (n - 1) (by omega)).1 ∗ owns (c : Thread nD τ) scM8_1 fullShare (acc8 V c (n - 1) (by omega)).2) ∗ rest8 c) ∗ (∃ r, prngReg c r)) := by
  cases n with
  | zero => exact absurd rfl hz
  | succ n => rfl

/-- The proof data of the pipeline on core `c`: the arrays as the region finds them; after the body at point `t` each
    input's buffer at its block, window 5's at `hn8 t`, windows 6 and 7 at `acc8 t`; the invariant `PhiS8`; nothing
    owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => hn8 V c t
    | ⟨6, _⟩ => (acc8 V c t.val t.isLt).1
    | ⟨7, _⟩ => (acc8 V c t.val t.isLt).2
    | ⟨_ + 8, h⟩ => absurd h (Nat.not_lt.2 (Nat.le_add_left _ _))
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = hn8 V c t := by dsimp only [dat8]
theorem after8_6 (c : Dev nD) (t : Fin cfg8.N) : (dat8 V c).after 6 t = (acc8 V c t.val t.isLt).1 := by dsimp only [dat8]
theorem after8_7 (c : Dev nD) (t : Fin cfg8.N) : (dat8 V c).after 7 t = (acc8 V c t.val t.isLt).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the point is the first, the last, or one between,
    and that case's run applies; the invariant hands the body the scratch rows (at anything at the first point, at
    `acc8` of the point before afterwards) and takes them back at `acc8` of this point; the other scoped buffers, the
    generator register and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  have hN : t.val < 10 := lt_of_lt_of_eq t.isLt (show cfg8.N = 10 from N_8)
  by_cases h9 : t.val = 9
  · have h0 : ¬t.val = 0 := by omega
    rw [show (dat8 V c).leavesExact 6 t = owns (c : Thread nD τ) (ms8_6 t) fullShare ((dat8 V c).after 6 t) from by
      unfold Dat.leavesExact; rw [liveAt8_6 t ((hcond8_1 t).mpr h9)], after8_6]
    rw [show (dat8 V c).leavesExact 7 t = owns (c : Thread nD τ) (ms8_7 t) fullShare ((dat8 V c).after 7 t) from by
      unfold Dat.leavesExact; rw [liveAt8_7 t ((hcond8_1 t).mpr h9)], after8_7]
    rw [acc8_later V c t h0]; unfold hn8; (try dsimp only)
    rw [PhiS8_castSucc V c t, PhiS8_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRun8_C c (grid8.coords t) _ _ _ _ _ _ _ _ _ _ _ _ _ _ _ _ _ _ _ _ (fun h => h0 ((hcond8_0 t).mp h)) ((hcond8_1 t).mpr h9) (iblk8 V c 0 t) (iblk8 V c 1 t) (iblk8 V c 2 t) (iblk8 V c 3 t) (iblk8 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc1 : ¬cond8_1 (grid8.coords t) := fun h => h9 ((hcond8_1 t).mp h)
    rw [Dat.leavesExact_idle (dat8 V c) 6 t (idleAt8_6 t hc1) (noFlush8_6 t hc1)]
    rw [Dat.leavesExact_idle (dat8 V c) 7 t (idleAt8_7 t hc1) (noFlush8_7 t hc1)]
    by_cases hz : t.val = 0
    · rw [acc8_first V c t hz]; unfold hn8; (try dsimp only)
      rw [PhiS8_castSucc V c t, PhiS8_zero V c _ _ hz, PhiA8_eq]
      iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun8_A c (grid8.coords t) _ _ _ _ _ _ _ _ _ _ _ _ _ _ _ _ _ _ _ _ ((hcond8_0 t).mpr hz) hc1 (iblk8 V c 0 t) (iblk8 V c 1 t) (iblk8 V c 2 t) (iblk8 V c 3 t) (iblk8 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [acc8_later V c t hz]; unfold hn8; (try dsimp only)
      rw [PhiS8_castSucc V c t, PhiS8_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun8_B c (grid8.coords t) _ _ _ _ _ _ _ _ _ _ _ _ _ _ _ _ _ _ _ _ (fun h => hz ((hcond8_0 t).mp h)) hc1 (iblk8 V c 0 t) (iblk8 V c 1 t) (iblk8 V c 2 t) (iblk8 V c 3 t) (iblk8 V c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives it back: the scratch rows' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Region

end Cert.KernelIdeal.Hand

end
-- ==== Proof.KI.Bn9.lean ====
/-
  Region 9 of the program, the call of `cc9__bn_apply_kernel` (pipeline 9): the normalisation of a [50000,128] array,
  tile by tile, over a grid of 10 points of 5000 rows each.  At every point the body reads the whole tile of
  window 0 and the four [1,128] rows of windows 1 to 4 (mean, reciprocal deviation, scale, shift) and stores, over the
  whole tile of window 5, the pointwise value  ((x - mean) * rstd) * gamma + beta  with each row broadcast down
  the 5000 rows.  The body keeps nothing between points and has no branch, so the invariant is the plain one:
  the scoped rest and the generator register pass through untouched.

  Everything is stated at a PARAMETER `V`, the contents of the core's buffers when the region is entered, and for
  any float instance `F`.  What point `t` leaves in window 5's staging buffer is stated explicitly (`out9`): the
  payload `k9_pay1` of the five input blocks at `t`.
-/
import proofs.«118775_j16338055594318_1_alg».proof.Proof.Gen.KernelIdeal.Launch
import proofs.«118775_j16338055594318_1_alg».proof.Proof.Gen.KernelIdeal.Skeleton
import proofs.«118775_j16338055594318_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof data over `V`'s
    arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (it is fetched at
    the first point only, and its block index never moves), for any proof data over `V`'s
    arrays whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (it is fetched at
    the first point only, and its block index never moves), for any proof data over `V`'s
    arrays whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (it is fetched at
    the first point only, and its block index never moves), for any proof data over `V`'s
    arrays whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not (it is fetched at
    the first point only, and its block index never moves), for any proof data over `V`'s
    arrays whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves in the output window's buffer -/

/-- The two offsets of every load and store of the body are zero. -/
theorem zero_off9 : (![0, 0] : Fin 2 → Nat) = fun _ => 0 := funext fun a => by fin_cases a <;> rfl

/-- Window 5's staging buffer after the body at point `t`: the body's one store, over the whole tile, of the
    normalised tile computed from the five input blocks at `t`. -/
def out9 (c : Dev nD) (t : Fin cfg9.N) : Vec F S5000x128 .f32 :=
  k9_pay1 (iblk9 V c 0 t) (iblk9 V c 1 t) (iblk9 V c 2 t) (iblk9 V c 3 t) (iblk9 V c 4 t)

/-- One store through the whole-tile rectangle, of the payload of whole-buffer loads, leaves the payload of the
    buffers' contents. -/
theorem canon_pay9 (x0 : Vec F S5000x128 .f32) (x1 x2 x3 x4 : Vec F S1x128 .f32) :
    View.canon [(⟨Rect.unit (s := S5000x128) ![0, 0] S5000x128.size inb_S5000x128_S5000x128_0_0,
        k9_pay1 (View.ld x0 (Rect.unit (s := S5000x128) ![0, 0] S5000x128.size inb_S5000x128_S5000x128_0_0))
          (View.ld x1 (Rect.unit (s := S1x128) ![0, 0] S1x128.size inb_S1x128_S1x128_0_0))
          (View.ld x2 (Rect.unit (s := S1x128) ![0, 0] S1x128.size inb_S1x128_S1x128_0_0))
          (View.ld x3 (Rect.unit (s := S1x128) ![0, 0] S1x128.size inb_S1x128_S1x128_0_0))
          (View.ld x4 (Rect.unit (s := S1x128) ![0, 0] S1x128.size inb_S1x128_S1x128_0_0))⟩ : View.Piece (Elt F) S5000x128 .f32)]
      = k9_pay1 x0 x1 x2 x3 x4 := by
  rw [View.canon_unit_zero zero_off9]
  simp only [View.ld_unit_zero (S := S5000x128) zero_off9, View.ld_unit_zero (S := S1x128) zero_off9]

/-- The one store covers the tile. -/
theorem cover9 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero zero_off9 inb_S5000x128_S5000x128_0_0 y⟩

/-! ## The body's triple -/

set_option maxHeartbeats 1000000 in
/-- The body on whole staging memrefs, the five inputs' at read contents `x0 … x4` and the output's at anything, runs
    to the continuation holding the inputs' as they were and the output's at the payload of `x0 … x4`. -/
theorem sound_kernel9 (c : Dev nD) (E : Set ℕ) (i : grid9.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k9_pay1 x0 x1 x2 x3 x4)) -∗ K ⟨⟩))
      ⊢ wp frame (wpE (defs₀ (F := F)) Variants.none c none) E (cc9__bn_apply_kernel i arg1 harg1 arg2 harg2 arg3 harg3 arg4 harg4 arg5 harg5 arg6 harg6) K := by
  simp only [cc9__bn_apply_kernel_eq_skeleton]; unfold cc9__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover9 _)).trans (canon_pay9 _ _ _ _ _)

/-! ## The pipeline's proof data -/

/-- The proof data of pipeline 9 on core `c`: the arrays as the region finds them; after the body at point `t`
    each input's buffer at its block and the output's at `out9`; the plain invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9 V c t
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9 V c t := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so the body's triple applies; the invariant and the
    core's obligations pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  unfold out9
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- The invariant before the first point and after the last is the plain one. -/
theorem hin9 (c : Dev nD) : Pipeline.ΦA spec9 c ⊢ (dat9 V c).Φ 0 := .rfl
theorem hout9 (c : Dev nD) : (dat9 V c).Φ (Fin.last cfg9.N) ⊢ Pipeline.ΦA spec9 c := .rfl

end Cert.KernelIdeal.Hand
-- ==== Proof.KI.Run.lean ====
/-
  The run of the whole program: its twenty items in order — ten stretches of host operations, each followed by one
  region — from the launch memory to the return. The buffer contents at each boundary are a fold through the items
  (a stretch leaves its operations' results, a region leaves its windows' arrays at what its write-backs fold to and
  every other buffer as entered); every argument array walks back through the fold to its launch contents, since no
  operation and no region writes one; each region is a segment entered from "every unscoped buffer at the boundary's
  contents, the generator register at some state, nothing owed" and left in the same form at the next boundary.
-/
import proofs.«118775_j16338055594318_1_alg».proof.Proof.KI.Host
import proofs.«118775_j16338055594318_1_alg».proof.Proof.KI.Mlp0
import proofs.«118775_j16338055594318_1_alg».proof.Proof.KI.Bn1
import proofs.«118775_j16338055594318_1_alg».proof.Proof.KI.Mlp2
import proofs.«118775_j16338055594318_1_alg».proof.Proof.KI.Bn3
import proofs.«118775_j16338055594318_1_alg».proof.Proof.KI.Mlp4
import proofs.«118775_j16338055594318_1_alg».proof.Proof.KI.Bn5
import proofs.«118775_j16338055594318_1_alg».proof.Proof.KI.Mlp6
import proofs.«118775_j16338055594318_1_alg».proof.Proof.KI.Bn7
import proofs.«118775_j16338055594318_1_alg».proof.Proof.KI.Mlp8
import proofs.«118775_j16338055594318_1_alg».proof.Proof.KI.Bn9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Every buffer of core `c` at launch. -/
abbrev W0 : Dev nD → Valuation τ sig (Elt F) := fun c b => (s₀ m ρ).mem ((c : Dev nD), b)

/-- After stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer stretch 0 does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- A buffer stretch 1 does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- A buffer stretch 2 does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- A buffer stretch 3 does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its windows' arrays at what the write-backs fold to, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- A buffer stretch 4 does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its windows' arrays at what the write-backs fold to, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- A buffer stretch 5 does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its windows' arrays at what the write-backs fold to, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After stretch 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- A buffer stretch 6 does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its windows' arrays at what the write-backs fold to, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After stretch 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- A buffer stretch 7 does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: its windows' arrays at what the write-backs fold to, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After stretch 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- A buffer stretch 8 does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: its windows' arrays at what the write-backs fold to, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After stretch 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- A buffer stretch 9 does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: its windows' arrays at what the write-backs fold to, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-! ## The arguments end as launched -/
theorem W20_main_arg0 (c : Dev nD) : W20 m ρ c (Proc.devRef .tc main_arg0) = m ((c : Thread nD τ).loc main_arg0) :=
  (W20_of_ne m ρ c main_arg0 (by decide)).trans <|
  (W19_of m ρ c main_arg0 (by decide)).trans <|
  (W18_of_ne m ρ c main_arg0 (by decide)).trans <|
  (W17_of m ρ c main_arg0 (by decide)).trans <|
  (W16_of_ne m ρ c main_arg0 (by decide)).trans <|
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl
theorem W20_main_arg1 (c : Dev nD) : W20 m ρ c (Proc.devRef .tc main_arg1) = m ((c : Thread nD τ).loc main_arg1) :=
  (W20_of_ne m ρ c main_arg1 (by decide)).trans <|
  (W19_of m ρ c main_arg1 (by decide)).trans <|
  (W18_of_ne m ρ c main_arg1 (by decide)).trans <|
  (W17_of m ρ c main_arg1 (by decide)).trans <|
  (W16_of_ne m ρ c main_arg1 (by decide)).trans <|
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl
theorem W20_main_arg2 (c : Dev nD) : W20 m ρ c (Proc.devRef .tc main_arg2) = m ((c : Thread nD τ).loc main_arg2) :=
  (W20_of_ne m ρ c main_arg2 (by decide)).trans <|
  (W19_of m ρ c main_arg2 (by decide)).trans <|
  (W18_of_ne m ρ c main_arg2 (by decide)).trans <|
  (W17_of m ρ c main_arg2 (by decide)).trans <|
  (W16_of_ne m ρ c main_arg2 (by decide)).trans <|
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl
theorem W20_main_arg3 (c : Dev nD) : W20 m ρ c (Proc.devRef .tc main_arg3) = m ((c : Thread nD τ).loc main_arg3) :=
  (W20_of_ne m ρ c main_arg3 (by decide)).trans <|
  (W19_of m ρ c main_arg3 (by decide)).trans <|
  (W18_of_ne m ρ c main_arg3 (by decide)).trans <|
  (W17_of m ρ c main_arg3 (by decide)).trans <|
  (W16_of_ne m ρ c main_arg3 (by decide)).trans <|
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl
theorem W20_main_arg4 (c : Dev nD) : W20 m ρ c (Proc.devRef .tc main_arg4) = m ((c : Thread nD τ).loc main_arg4) :=
  (W20_of_ne m ρ c main_arg4 (by decide)).trans <|
  (W19_of m ρ c main_arg4 (by decide)).trans <|
  (W18_of_ne m ρ c main_arg4 (by decide)).trans <|
  (W17_of m ρ c main_arg4 (by decide)).trans <|
  (W16_of_ne m ρ c main_arg4 (by decide)).trans <|
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl
theorem W20_main_arg5 (c : Dev nD) : W20 m ρ c (Proc.devRef .tc main_arg5) = m ((c : Thread nD τ).loc main_arg5) :=
  (W20_of_ne m ρ c main_arg5 (by decide)).trans <|
  (W19_of m ρ c main_arg5 (by decide)).trans <|
  (W18_of_ne m ρ c main_arg5 (by decide)).trans <|
  (W17_of m ρ c main_arg5 (by decide)).trans <|
  (W16_of_ne m ρ c main_arg5 (by decide)).trans <|
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl
theorem W20_main_arg6 (c : Dev nD) : W20 m ρ c (Proc.devRef .tc main_arg6) = m ((c : Thread nD τ).loc main_arg6) :=
  (W20_of_ne m ρ c main_arg6 (by decide)).trans <|
  (W19_of m ρ c main_arg6 (by decide)).trans <|
  (W18_of_ne m ρ c main_arg6 (by decide)).trans <|
  (W17_of m ρ c main_arg6 (by decide)).trans <|
  (W16_of_ne m ρ c main_arg6 (by decide)).trans <|
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl
theorem W20_main_arg7 (c : Dev nD) : W20 m ρ c (Proc.devRef .tc main_arg7) = m ((c : Thread nD τ).loc main_arg7) :=
  (W20_of_ne m ρ c main_arg7 (by decide)).trans <|
  (W19_of m ρ c main_arg7 (by decide)).trans <|
  (W18_of_ne m ρ c main_arg7 (by decide)).trans <|
  (W17_of m ρ c main_arg7 (by decide)).trans <|
  (W16_of_ne m ρ c main_arg7 (by decide)).trans <|
  (W15_of m ρ c main_arg7 (by decide)).trans <|
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl
theorem W20_main_arg8 (c : Dev nD) : W20 m ρ c (Proc.devRef .tc main_arg8) = m ((c : Thread nD τ).loc main_arg8) :=
  (W20_of_ne m ρ c main_arg8 (by decide)).trans <|
  (W19_of m ρ c main_arg8 (by decide)).trans <|
  (W18_of_ne m ρ c main_arg8 (by decide)).trans <|
  (W17_of m ρ c main_arg8 (by decide)).trans <|
  (W16_of_ne m ρ c main_arg8 (by decide)).trans <|
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl
theorem W20_main_arg9 (c : Dev nD) : W20 m ρ c (Proc.devRef .tc main_arg9) = m ((c : Thread nD τ).loc main_arg9) :=
  (W20_of_ne m ρ c main_arg9 (by decide)).trans <|
  (W19_of m ρ c main_arg9 (by decide)).trans <|
  (W18_of_ne m ρ c main_arg9 (by decide)).trans <|
  (W17_of m ρ c main_arg9 (by decide)).trans <|
  (W16_of_ne m ρ c main_arg9 (by decide)).trans <|
  (W15_of m ρ c main_arg9 (by decide)).trans <|
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl
theorem W20_main_arg10 (c : Dev nD) : W20 m ρ c (Proc.devRef .tc main_arg10) = m ((c : Thread nD τ).loc main_arg10) :=
  (W20_of_ne m ρ c main_arg10 (by decide)).trans <|
  (W19_of m ρ c main_arg10 (by decide)).trans <|
  (W18_of_ne m ρ c main_arg10 (by decide)).trans <|
  (W17_of m ρ c main_arg10 (by decide)).trans <|
  (W16_of_ne m ρ c main_arg10 (by decide)).trans <|
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl
theorem W20_main_arg11 (c : Dev nD) : W20 m ρ c (Proc.devRef .tc main_arg11) = m ((c : Thread nD τ).loc main_arg11) :=
  (W20_of_ne m ρ c main_arg11 (by decide)).trans <|
  (W19_of m ρ c main_arg11 (by decide)).trans <|
  (W18_of_ne m ρ c main_arg11 (by decide)).trans <|
  (W17_of m ρ c main_arg11 (by decide)).trans <|
  (W16_of_ne m ρ c main_arg11 (by decide)).trans <|
  (W15_of m ρ c main_arg11 (by decide)).trans <|
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl
theorem W20_main_arg12 (c : Dev nD) : W20 m ρ c (Proc.devRef .tc main_arg12) = m ((c : Thread nD τ).loc main_arg12) :=
  (W20_of_ne m ρ c main_arg12 (by decide)).trans <|
  (W19_of m ρ c main_arg12 (by decide)).trans <|
  (W18_of_ne m ρ c main_arg12 (by decide)).trans <|
  (W17_of m ρ c main_arg12 (by decide)).trans <|
  (W16_of_ne m ρ c main_arg12 (by decide)).trans <|
  (W15_of m ρ c main_arg12 (by decide)).trans <|
  (W14_of_ne m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl

/-! ## The proof data family and the thread state -/

/-- No pipeline has a prefetched table. -/
abbrev adm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨_ + 10, h⟩ => absurd h (Nat.not_lt.2 (Nat.le_add_left _ _))
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W20 m ρ c) ∗ ∃ r, prngReg c r)

/-! ## The regions as segments -/

set_option backward.isDefEq.respectTransparency.types false in
/-- Region 0: entered from every unscoped buffer at the contents after stretch 0, left at its exit contents. Its
    windows' arrays are split out of the unscoped buffers and put back at the exit contents; the generator register
    goes into the region's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents after stretch 1, left at its exit contents. Its
    windows' arrays are split out of the unscoped buffers and put back at the exit contents; the generator register
    goes into the region's invariant and comes back; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the contents after stretch 2, left at its exit contents. Its
    windows' arrays are split out of the unscoped buffers and put back at the exit contents; the generator register
    goes into the region's invariant and comes back; nothing is owed; the body has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the contents after stretch 3, left at its exit contents. Its
    windows' arrays are split out of the unscoped buffers and put back at the exit contents; the generator register
    goes into the region's invariant and comes back; nothing is owed; the body has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    refine BIBase.Entails.trans (hout3 (V7 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at the contents after stretch 4, left at its exit contents. Its
    windows' arrays are split out of the unscoped buffers and put back at the exit contents; the generator register
    goes into the region's invariant and comes back; nothing is owed; the body has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    refine BIBase.Entails.trans (hout4 (V9 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at the contents after stretch 5, left at its exit contents. Its
    windows' arrays are split out of the unscoped buffers and put back at the exit contents; the generator register
    goes into the region's invariant and comes back; nothing is owed; the body has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    refine BIBase.Entails.trans (hout5 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at the contents after stretch 6, left at its exit contents. Its
    windows' arrays are split out of the unscoped buffers and put back at the exit contents; the generator register
    goes into the region's invariant and comes back; nothing is owed; the body has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V13 m ρ) c)
    unfold Pipeline.ΦA
    iintro ⟨Hp, -, Hr⟩
    isplitl [Hr]; · iexact Hr
    iexact Hp
  hout c := by
    refine BIBase.Entails.trans (hout6 (V13 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at the contents after stretch 7, left at its exit contents. Its
    windows' arrays are split out of the unscoped buffers and put back at the exit contents; the generator register
    goes into the region's invariant and comes back; nothing is owed; the body has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V15 m ρ) c)
    unfold Pipeline.ΦA
    iintro ⟨Hp, -, Hr⟩
    isplitl [Hr]; · iexact Hr
    iexact Hp
  hout c := by
    refine BIBase.Entails.trans (hout7 (V15 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at the contents after stretch 8, left at its exit contents. Its
    windows' arrays are split out of the unscoped buffers and put back at the exit contents; the generator register
    goes into the region's invariant and comes back; nothing is owed; the body has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V17 m ρ) c)
    unfold Pipeline.ΦA
    iintro ⟨Hp, -, Hr⟩
    isplitl [Hr]; · iexact Hr
    iexact Hp
  hout c := by
    refine BIBase.Entails.trans (hout8 (V17 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at the contents after stretch 9, left at its exit contents. Its
    windows' arrays are split out of the unscoped buffers and put back at the exit contents; the generator register
    goes into the region's invariant and comes back; nothing is owed; the body has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (V19 m ρ) c)
    unfold Pipeline.ΦA
    iintro ⟨Hp, -, Hr⟩
    isplitl [Hr]; · iexact Hr
    iexact Hp
  hout c := by
    refine BIBase.Entails.trans (hout9 (V19 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twenty segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ) ]
/-- The program IS the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c)⟩) (run_main m ρ)

/-- The same with the result array named: it ends at the last boundary's contents. -/
theorem run_result : θ_run defs (onTc (τ := τ) (main (F := F))) ⟨m, fun _ => 0, ρ⟩ (fun r => ∀ c : Dev nD,
      r.2.mem ((c.tc : Thread nD τ).loc main_v338) = W20 m ρ c (Proc.devRef .tc main_v338)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v338 (by decide)),
    (h c _ (mem_uc main_arg0 (by decide))).trans (W20_main_arg0 m ρ c),
    (h c _ (mem_uc main_arg1 (by decide))).trans (W20_main_arg1 m ρ c),
    (h c _ (mem_uc main_arg2 (by decide))).trans (W20_main_arg2 m ρ c),
    (h c _ (mem_uc main_arg3 (by decide))).trans (W20_main_arg3 m ρ c),
    (h c _ (mem_uc main_arg4 (by decide))).trans (W20_main_arg4 m ρ c),
    (h c _ (mem_uc main_arg5 (by decide))).trans (W20_main_arg5 m ρ c),
    (h c _ (mem_uc main_arg6 (by decide))).trans (W20_main_arg6 m ρ c),
    (h c _ (mem_uc main_arg7 (by decide))).trans (W20_main_arg7 m ρ c),
    (h c _ (mem_uc main_arg8 (by decide))).trans (W20_main_arg8 m ρ c),
    (h c _ (mem_uc main_arg9 (by decide))).trans (W20_main_arg9 m ρ c),
    (h c _ (mem_uc main_arg10 (by decide))).trans (W20_main_arg10 m ρ c),
    (h c _ (mem_uc main_arg11 (by decide))).trans (W20_main_arg11 m ρ c),
    (h c _ (mem_uc main_arg12 (by decide))).trans (W20_main_arg12 m ρ c)⟩) (run_main m ρ)

end Cert.KernelIdeal.Hand

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.Val.RefOps.lean ====
/-
  The reference program as a list of host operations, cut where its layers begin: the prefix (the input embedding and
  the edge lists with their self loops), then one piece per layer (the aggregation, the two-layer perceptron, the batch
  statistics and the normalization). The program is the sequence of the pieces in order, so that its run leaves every
  buffer at the fold of the pieces over the launch contents, one piece after the other; no piece writes an argument.
-/
import proofs.«118775_j16338055594318_1_alg».proof.Proof.Gen.ReferenceIdeal
import proofs.«118775_j16338055594318_1_alg».proof.Proof.LibRunPieces
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One operation's written set is its result buffer, which the piece's list names. -/
local macro "wr1" : tactic => `(tactic| (simp only [nullary_writes, unary_writes, binary_writes, ternary_writes, quaternary_writes, reshape_writes, binaryIndexed_writes, unaryIndexed_writes, nary_writes, Finset.singleton_subset_iff, List.mem_toFinset]; exact List.mem_map_of_mem (by decide)))

/-- The prefix: operations 0 … 39 of the program, in order. -/
abbrev refPre : List (HloOp τ sig (Elt F)) :=
  [ unary main_arg0 main_v0 ((extractStridedSlice S50000x1 ![0, 0] · slices_S50000x2_S50000x1_0_0) : (⟨S50000x2, .i32⟩ : BufTy).Contents (Elt F) → (⟨S50000x1, .i32⟩ : BufTy).Contents (Elt F)),
    reshape main_v0 main_v1 rfl shapeCasts_S50000x1_S50000,
    nullary main_c (constantI S_ 32 0#32),
    unary main_c main_v2 (broadcastInDim S50000 ![] bcast_S_S50000 : (⟨S_, .i32⟩ : BufTy).Contents (Elt F) → (⟨S50000, .i32⟩ : BufTy).Contents (Elt F)),
    binary main_v1 main_v2 main_v3 (cmpi .slt : (⟨S50000, .i32⟩ : BufTy).Contents (Elt F) → (⟨S50000, .i32⟩ : BufTy).Contents (Elt F) → (⟨S50000, .i1⟩ : BufTy).Contents (Elt F)),
    nullary main_c_0 (constantI S_ 32 120#32),
    unary main_c_0 main_v4 (broadcastInDim S50000 ![] bcast_S_S50000 : (⟨S_, .i32⟩ : BufTy).Contents (Elt F) → (⟨S50000, .i32⟩ : BufTy).Contents (Elt F)),
    binary main_v1 main_v4 main_v5 (addi : (⟨S50000, .i32⟩ : BufTy).Contents (Elt F) → (⟨S50000, .i32⟩ : BufTy).Contents (Elt F) → (⟨S50000, .i32⟩ : BufTy).Contents (Elt F)),
    ternary main_v3 main_v5 main_v1 main_v6 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v6 main_v7 (broadcastInDim S50000x1 ![0] bcast_S50000_S50000x1_0 : (⟨S50000, .i32⟩ : BufTy).Contents (Elt F) → (⟨S50000x1, .i32⟩ : BufTy).Contents (Elt F)),
    binary main_arg3 main_v7 main_v8 ((fun x i => Host.gather gather_S120x128_S50000x1_S50000x128_1_0_n_n_0_1_1128 x i) : (⟨S120x128, .f32⟩ : BufTy).Contents (Elt F) → (⟨S50000x1, .i32⟩ : BufTy).Contents (Elt F) → (⟨S50000x128, .f32⟩ : BufTy).Contents (Elt F)),
    unary main_arg0 main_v9 ((extractStridedSlice S50000x1 ![0, 1] · slices_S50000x2_S50000x1_0_1) : (⟨S50000x2, .i32⟩ : BufTy).Contents (Elt F) → (⟨S50000x1, .i32⟩ : BufTy).Contents (Elt F)),
    reshape main_v9 main_v10 rfl shapeCasts_S50000x1_S50000,
    nullary main_c_1 (constantI S_ 32 0#32),
    unary main_c_1 main_v11 (broadcastInDim S50000 ![] bcast_S_S50000 : (⟨S_, .i32⟩ : BufTy).Contents (Elt F) → (⟨S50000, .i32⟩ : BufTy).Contents (Elt F)),
    binary main_v10 main_v11 main_v12 (cmpi .slt : (⟨S50000, .i32⟩ : BufTy).Contents (Elt F) → (⟨S50000, .i32⟩ : BufTy).Contents (Elt F) → (⟨S50000, .i1⟩ : BufTy).Contents (Elt F)),
    nullary main_c_2 (constantI S_ 32 3#32),
    unary main_c_2 main_v13 (broadcastInDim S50000 ![] bcast_S_S50000 : (⟨S_, .i32⟩ : BufTy).Contents (Elt F) → (⟨S50000, .i32⟩ : BufTy).Contents (Elt F)),
    binary main_v10 main_v13 main_v14 (addi : (⟨S50000, .i32⟩ : BufTy).Contents (Elt F) → (⟨S50000, .i32⟩ : BufTy).Contents (Elt F) → (⟨S50000, .i32⟩ : BufTy).Contents (Elt F)),
    ternary main_v12 main_v14 main_v10 main_v15 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v15 main_v16 (broadcastInDim S50000x1 ![0] bcast_S50000_S50000x1_0 : (⟨S50000, .i32⟩ : BufTy).Contents (Elt F) → (⟨S50000x1, .i32⟩ : BufTy).Contents (Elt F)),
    binary main_arg4 main_v16 main_v17 ((fun x i => Host.gather gather_S3x128_S50000x1_S50000x128_1_0_n_n_0_1_1128 x i) : (⟨S3x128, .f32⟩ : BufTy).Contents (Elt F) → (⟨S50000x1, .i32⟩ : BufTy).Contents (Elt F) → (⟨S50000x128, .f32⟩ : BufTy).Contents (Elt F)),
    binary main_v8 main_v17 main_v18 (addf : (⟨S50000x128, .f32⟩ : BufTy).Contents (Elt F) → (⟨S50000x128, .f32⟩ : BufTy).Contents (Elt F) → (⟨S50000x128, .f32⟩ : BufTy).Contents (Elt F)),
    nullary main_v19 (iotaInDim S50000 32 0),
    unary main_arg1 main_v20 ((extractStridedSlice S1x600000 ![0, 0] · slices_S2x600000_S1x600000_0_0) : (⟨S2x600000, .i32⟩ : BufTy).Contents (Elt F) → (⟨S1x600000, .i32⟩ : BufTy).Contents (Elt F)),
    reshape main_v20 main_v21 rfl shapeCasts_S1x600000_S600000,
    binary main_v21 main_v19 main_v22 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v23 ((extractStridedSlice S1x600000 ![1, 0] · slices_S2x600000_S1x600000_1_0) : (⟨S2x600000, .i32⟩ : BufTy).Contents (Elt F) → (⟨S1x600000, .i32⟩ : BufTy).Contents (Elt F)),
    reshape main_v23 main_v24 rfl shapeCasts_S1x600000_S600000,
    binary main_v24 main_v19 main_v25 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg2 main_v26 ((extractStridedSlice S600000x1 ![0, 0] · slices_S600000x2_S600000x1_0_0) : (⟨S600000x2, .i32⟩ : BufTy).Contents (Elt F) → (⟨S600000x1, .i32⟩ : BufTy).Contents (Elt F)),
    reshape main_v26 main_v27 rfl shapeCasts_S600000x1_S600000,
    nullary main_c_3 (constantI S_ 32 4#32),
    unary main_c_3 main_v28 (broadcastInDim S50000 ![] bcast_S_S50000 : (⟨S_, .i32⟩ : BufTy).Contents (Elt F) → (⟨S50000, .i32⟩ : BufTy).Contents (Elt F)),
    binary main_v27 main_v28 main_v29 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg2 main_v30 ((extractStridedSlice S600000x1 ![0, 1] · slices_S600000x2_S600000x1_0_1) : (⟨S600000x2, .i32⟩ : BufTy).Contents (Elt F) → (⟨S600000x1, .i32⟩ : BufTy).Contents (Elt F)),
    reshape main_v30 main_v31 rfl shapeCasts_S600000x1_S600000,
    nullary main_c_4 (constantI S_ 32 0#32),
    unary main_c_4 main_v32 (broadcastInDim S50000 ![] bcast_S_S50000 : (⟨S_, .i32⟩ : BufTy).Contents (Elt F) → (⟨S50000, .i32⟩ : BufTy).Contents (Elt F)),
    binary main_v31 main_v32 main_v33 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
theorem refPre_fresh : (refPre : List (HloOp τ sig (Elt F))).Forall fun op => op.fresh = ∅ := by
  simp only [List.Forall]; repeat' constructor
/-- The buffers the piece writes. -/
abbrev refPre_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_c_3, main_v28, main_v29, main_v30, main_v31, main_c_4, main_v32, main_v33]
theorem refPre_writes : (refPre : List (HloOp τ sig (Elt F))).Forall fun op => op.writes ⊆ (refPre_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- Layer 0: operations 40 … 132 of the program, in order. -/
abbrev refLayer0 : List (HloOp τ sig (Elt F)) :=
  [ unary main_arg5 main_v34 ((extractStridedSlice S1x6x128 ![0, 0, 0] · slices_S5x6x128_S1x6x128_0_0_0) : (⟨S5x6x128, .f32⟩ : BufTy).Contents (Elt F) → (⟨S1x6x128, .f32⟩ : BufTy).Contents (Elt F)),
    reshape main_v34 main_v35 rfl shapeCasts_S1x6x128_S6x128,
    nullary main_c_5 (constantI S_ 32 0#32),
    unary main_c_5 main_v36 (broadcastInDim S650000 ![] bcast_S_S650000 : (⟨S_, .i32⟩ : BufTy).Contents (Elt F) → (⟨S650000, .i32⟩ : BufTy).Contents (Elt F)),
    binary main_v29 main_v36 main_v37 (cmpi .slt : (⟨S650000, .i32⟩ : BufTy).Contents (Elt F) → (⟨S650000, .i32⟩ : BufTy).Contents (Elt F) → (⟨S650000, .i1⟩ : BufTy).Contents (Elt F)),
    nullary main_c_6 (constantI S_ 32 6#32),
    unary main_c_6 main_v38 (broadcastInDim S650000 ![] bcast_S_S650000 : (⟨S_, .i32⟩ : BufTy).Contents (Elt F) → (⟨S650000, .i32⟩ : BufTy).Contents (Elt F)),
    binary main_v29 main_v38 main_v39 (addi : (⟨S650000, .i32⟩ : BufTy).Contents (Elt F) → (⟨S650000, .i32⟩ : BufTy).Contents (Elt F) → (⟨S650000, .i32⟩ : BufTy).Contents (Elt F)),
    ternary main_v37 main_v39 main_v29 main_v40 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v40 main_v41 (broadcastInDim S650000x1 ![0] bcast_S650000_S650000x1_0 : (⟨S650000, .i32⟩ : BufTy).Contents (Elt F) → (⟨S650000x1, .i32⟩ : BufTy).Contents (Elt F)),
    binary main_v35 main_v41 main_v42 ((fun x i => Host.gather gather_S6x128_S650000x1_S650000x128_1_0_n_n_0_1_1128 x i) : (⟨S6x128, .f32⟩ : BufTy).Contents (Elt F) → (⟨S650000x1, .i32⟩ : BufTy).Contents (Elt F) → (⟨S650000x128, .f32⟩ : BufTy).Contents (Elt F)),
    unary main_arg6 main_v43 ((extractStridedSlice S1x3x128 ![0, 0, 0] · slices_S5x3x128_S1x3x128_0_0_0) : (⟨S5x3x128, .f32⟩ : BufTy).Contents (Elt F) → (⟨S1x3x128, .f32⟩ : BufTy).Contents (Elt F)),
    reshape main_v43 main_v44 rfl shapeCasts_S1x3x128_S3x128,
    nullary main_c_7 (constantI S_ 32 0#32),
    unary main_c_7 main_v45 (broadcastInDim S650000 ![] bcast_S_S650000 : (⟨S_, .i32⟩ : BufTy).Contents (Elt F) → (⟨S650000, .i32⟩ : BufTy).Contents (Elt F)),
    binary main_v33 main_v45 main_v46 (cmpi .slt : (⟨S650000, .i32⟩ : BufTy).Contents (Elt F) → (⟨S650000, .i32⟩ : BufTy).Contents (Elt F) → (⟨S650000, .i1⟩ : BufTy).Contents (Elt F)),
    nullary main_c_8 (constantI S_ 32 3#32),
    unary main_c_8 main_v47 (broadcastInDim S650000 ![] bcast_S_S650000 : (⟨S_, .i32⟩ : BufTy).Contents (Elt F) → (⟨S650000, .i32⟩ : BufTy).Contents (Elt F)),
    binary main_v33 main_v47 main_v48 (addi : (⟨S650000, .i32⟩ : BufTy).Contents (Elt F) → (⟨S650000, .i32⟩ : BufTy).Contents (Elt F) → (⟨S650000, .i32⟩ : BufTy).Contents (Elt F)),
    ternary main_v46 main_v48 main_v33 main_v49 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v49 main_v50 (broadcastInDim S650000x1 ![0] bcast_S650000_S650000x1_0 : (⟨S650000, .i32⟩ : BufTy).Contents (Elt F) → (⟨S650000x1, .i32⟩ : BufTy).Contents (Elt F)),
    binary main_v44 main_v50 main_v51 ((fun x i => Host.gather gather_S3x128_S650000x1_S650000x128_1_0_n_n_0_1_1128 x i) : (⟨S3x128, .f32⟩ : BufTy).Contents (Elt F) → (⟨S650000x1, .i32⟩ : BufTy).Contents (Elt F) → (⟨S650000x128, .f32⟩ : BufTy).Contents (Elt F)),
    binary main_v42 main_v51 main_v52 (addf : (⟨S650000x128, .f32⟩ : BufTy).Contents (Elt F) → (⟨S650000x128, .f32⟩ : BufTy).Contents (Elt F) → (⟨S650000x128, .f32⟩ : BufTy).Contents (Elt F)),
    nullary main_c_9 (constantI S_ 32 0#32),
    unary main_c_9 main_v53 (broadcastInDim S650000 ![] bcast_S_S650000 : (⟨S_, .i32⟩ : BufTy).Contents (Elt F) → (⟨S650000, .i32⟩ : BufTy).Contents (Elt F)),
    binary main_v22 main_v53 main_v54 (cmpi .slt : (⟨S650000, .i32⟩ : BufTy).Contents (Elt F) → (⟨S650000, .i32⟩ : BufTy).Contents (Elt F) → (⟨S650000, .i1⟩ : BufTy).Contents (Elt F)),
    nullary main_c_10 (constantI S_ 32 50000#32),
    unary main_c_10 main_v55 (broadcastInDim S650000 ![] bcast_S_S650000 : (⟨S_, .i32⟩ : BufTy).Contents (Elt F) → (⟨S650000, .i32⟩ : BufTy).Contents (Elt F)),
    binary main_v22 main_v55 main_v56 (addi : (⟨S650000, .i32⟩ : BufTy).Contents (Elt F) → (⟨S650000, .i32⟩ : BufTy).Contents (Elt F) → (⟨S650000, .i32⟩ : BufTy).Contents (Elt F)),
    ternary main_v54 main_v56 main_v22 main_v57 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v57 main_v58 (broadcastInDim S650000x1 ![0] bcast_S650000_S650000x1_0 : (⟨S650000, .i32⟩ : BufTy).Contents (Elt F) → (⟨S650000x1, .i32⟩ : BufTy).Contents (Elt F)),
    binary main_v18 main_v58 main_v59 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    binary main_v59 main_v52 main_v60 (addf : (⟨S650000x128, .f32⟩ : BufTy).Contents (Elt F) → (⟨S650000x128, .f32⟩ : BufTy).Contents (Elt F) → (⟨S650000x128, .f32⟩ : BufTy).Contents (Elt F)),
    nullary main_cst (constant S_ .f32 0x00000000#32),
    unary main_cst main_v61 (broadcastInDim S50000x128 ![] bcast_S_S50000x128 : (⟨S_, .f32⟩ : BufTy).Contents (Elt F) → (⟨S50000x128, .f32⟩ : BufTy).Contents (Elt F)),
    unary main_v25 main_v62 (broadcastInDim S650000x1 ![0] bcast_S650000_S650000x1_0 : (⟨S650000, .i32⟩ : BufTy).Contents (Elt F) → (⟨S650000x1, .i32⟩ : BufTy).Contents (Elt F)),
    ternary main_v61 main_v62 main_v60 main_v63 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v64 ((extractStridedSlice S1x128x256 ![0, 0, 0] · slices_S5x128x256_S1x128x256_0_0_0) : (⟨S5x128x256, .f32⟩ : BufTy).Contents (Elt F) → (⟨S1x128x256, .f32⟩ : BufTy).Contents (Elt F)),
    reshape main_v64 main_v65 rfl shapeCasts_S1x128x256_S128x256,
    binary main_v63 main_v65 main_v66 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v67 ((extractStridedSlice S1x256 ![0, 0] · slices_S5x256_S1x256_0_0) : (⟨S5x256, .f32⟩ : BufTy).Contents (Elt F) → (⟨S1x256, .f32⟩ : BufTy).Contents (Elt F)),
    reshape main_v67 main_v68 rfl shapeCasts_S1x256_S256,
    unary main_v68 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v66 main_v70 main_v71 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v71) (TRef.of (T := ⟨S50000x256, .f32⟩) main_call0_v0) (TRef.of (T := ⟨S50000x256, .f32⟩) main_v72) maximumf,
    unary main_arg9 main_v73 ((extractStridedSlice S1x256x128 ![0, 0, 0] · slices_S5x256x128_S1x256x128_0_0_0) : (⟨S5x256x128, .f32⟩ : BufTy).Contents (Elt F) → (⟨S1x256x128, .f32⟩ : BufTy).Contents (Elt F)),
    reshape main_v73 main_v74 rfl shapeCasts_S1x256x128_S256x128,
    binary main_v72 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v76 ((extractStridedSlice S1x128 ![0, 0] · slices_S5x128_S1x128_0_0) : (⟨S5x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v80 main_cst_11 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (subf : (⟨S50000x128, .f32⟩ : BufTy).Contents (Elt F) → (⟨S50000x128, .f32⟩ : BufTy).Contents (Elt F) → (⟨S50000x128, .f32⟩ : BufTy).Contents (Elt F)),
    binary main_v86 main_v86 main_v87 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v87 main_cst_13 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v89 (broadcastInDim S128 ![] bcast_S_S128 : (⟨S_, .f32⟩ : BufTy).Contents (Elt F) → (⟨S128, .f32⟩ : BufTy).Contents (Elt F)),
    binary main_v88 main_v89 main_v90 (Host.divf : (⟨S128, .f32⟩ : BufTy).Contents (Elt F) → (⟨S128, .f32⟩ : BufTy).Contents (Elt F) → (⟨S128, .f32⟩ : BufTy).Contents (Elt F)),
    unary main_v83 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v80 main_v92 main_v93 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v93 main_v98 main_v99 (mulf : (⟨S50000x128, .f32⟩ : BufTy).Contents (Elt F) → (⟨S50000x128, .f32⟩ : BufTy).Contents (Elt F) → (⟨S50000x128, .f32⟩ : BufTy).Contents (Elt F)),
    unary main_arg11 main_v100 ((extractStridedSlice S1x128 ![0, 0] · slices_S5x128_S1x128_0_0) : (⟨S5x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v99 main_v103 main_v104 (mulf : (⟨S50000x128, .f32⟩ : BufTy).Contents (Elt F) → (⟨S50000x128, .f32⟩ : BufTy).Contents (Elt F) → (⟨S50000x128, .f32⟩ : BufTy).Contents (Elt F)),
    unary main_arg12 main_v105 ((extractStridedSlice S1x128 ![0, 0] · slices_S5x128_S1x128_0_0) : (⟨S5x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v104 main_v108 main_v109 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v109) (TRef.of (T := ⟨S50000x128, .f32⟩) main_call1_v0) (TRef.of (T := ⟨S50000x128, .f32⟩) main_v110) maximumf ]
theorem refLayer0_fresh : (refLayer0 : List (HloOp τ sig (Elt F))).Forall fun op => op.fresh = ∅ := by
  simp only [List.Forall]; repeat' constructor
/-- The buffers the piece writes. -/
abbrev refLayer0_W : List (Ref sig .tc) := [main_v34, main_v35, main_c_5, main_v36, main_v37, main_c_6, main_v38, main_v39, main_v40, main_v41, main_v42, main_v43, main_v44, main_c_7, main_v45, main_v46, main_c_8, main_v47, main_v48, main_v49, main_v50, main_v51, main_v52, main_c_9, main_v53, main_v54, main_c_10, main_v55, main_v56, main_v57, main_v58, main_v59, main_v60, main_cst, main_v61, main_v62, main_v63, main_v64, main_v65, main_v66, main_v67, main_v68, main_v69, main_v70, main_v71, main_call0_cst, main_call0_v0, main_v72, main_v73, main_v74, main_v75, main_v76, main_v77, main_v78, main_v79, main_v80, main_cst_11, main_v81, main_cst_12, main_v82, main_v83, main_v84, main_v85, main_v86, main_v87, main_cst_13, main_v88, main_cst_14, main_v89, main_v90, main_v91, main_v92, main_v93, main_cst_15, main_v94, main_v95, main_v96, main_v97, main_v98, main_v99, main_v100, main_v101, main_v102, main_v103, main_v104, main_v105, main_v106, main_v107, main_v108, main_v109, main_call1_cst, main_call1_v0, main_v110]
theorem refLayer0_writes : (refLayer0 : List (HloOp τ sig (Elt F))).Forall fun op => op.writes ⊆ (refLayer0_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- Layer 1: operations 133 … 225 of the program, in order. -/
abbrev refLayer1 : List (HloOp τ sig (Elt F)) :=
  [ unary main_arg5 main_v111 ((extractStridedSlice S1x6x128 ![1, 0, 0] · slices_S5x6x128_S1x6x128_1_0_0) : (⟨S5x6x128, .f32⟩ : BufTy).Contents (Elt F) → (⟨S1x6x128, .f32⟩ : BufTy).Contents (Elt F)),
    reshape main_v111 main_v112 rfl shapeCasts_S1x6x128_S6x128,
    nullary main_c_16 (constantI S_ 32 0#32),
    unary main_c_16 main_v113 (broadcastInDim S650000 ![] bcast_S_S650000 : (⟨S_, .i32⟩ : BufTy).Contents (Elt F) → (⟨S650000, .i32⟩ : BufTy).Contents (Elt F)),
    binary main_v29 main_v113 main_v114 (cmpi .slt : (⟨S650000, .i32⟩ : BufTy).Contents (Elt F) → (⟨S650000, .i32⟩ : BufTy).Contents (Elt F) → (⟨S650000, .i1⟩ : BufTy).Contents (Elt F)),
    nullary main_c_17 (constantI S_ 32 6#32),
    unary main_c_17 main_v115 (broadcastInDim S650000 ![] bcast_S_S650000 : (⟨S_, .i32⟩ : BufTy).Contents (Elt F) → (⟨S650000, .i32⟩ : BufTy).Contents (Elt F)),
    binary main_v29 main_v115 main_v116 (addi : (⟨S650000, .i32⟩ : BufTy).Contents (Elt F) → (⟨S650000, .i32⟩ : BufTy).Contents (Elt F) → (⟨S650000, .i32⟩ : BufTy).Contents (Elt F)),
    ternary main_v114 main_v116 main_v29 main_v117 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v117 main_v118 (broadcastInDim S650000x1 ![0] bcast_S650000_S650000x1_0 : (⟨S650000, .i32⟩ : BufTy).Contents (Elt F) → (⟨S650000x1, .i32⟩ : BufTy).Contents (Elt F)),
    binary main_v112 main_v118 main_v119 ((fun x i => Host.gather gather_S6x128_S650000x1_S650000x128_1_0_n_n_0_1_1128 x i) : (⟨S6x128, .f32⟩ : BufTy).Contents (Elt F) → (⟨S650000x1, .i32⟩ : BufTy).Contents (Elt F) → (⟨S650000x128, .f32⟩ : BufTy).Contents (Elt F)),
    unary main_arg6 main_v120 ((extractStridedSlice S1x3x128 ![1, 0, 0] · slices_S5x3x128_S1x3x128_1_0_0) : (⟨S5x3x128, .f32⟩ : BufTy).Contents (Elt F) → (⟨S1x3x128, .f32⟩ : BufTy).Contents (Elt F)),
    reshape main_v120 main_v121 rfl shapeCasts_S1x3x128_S3x128,
    nullary main_c_18 (constantI S_ 32 0#32),
    unary main_c_18 main_v122 (broadcastInDim S650000 ![] bcast_S_S650000 : (⟨S_, .i32⟩ : BufTy).Contents (Elt F) → (⟨S650000, .i32⟩ : BufTy).Contents (Elt F)),
    binary main_v33 main_v122 main_v123 (cmpi .slt : (⟨S650000, .i32⟩ : BufTy).Contents (Elt F) → (⟨S650000, .i32⟩ : BufTy).Contents (Elt F) → (⟨S650000, .i1⟩ : BufTy).Contents (Elt F)),
    nullary main_c_19 (constantI S_ 32 3#32),
    unary main_c_19 main_v124 (broadcastInDim S650000 ![] bcast_S_S650000 : (⟨S_, .i32⟩ : BufTy).Contents (Elt F) → (⟨S650000, .i32⟩ : BufTy).Contents (Elt F)),
    binary main_v33 main_v124 main_v125 (addi : (⟨S650000, .i32⟩ : BufTy).Contents (Elt F) → (⟨S650000, .i32⟩ : BufTy).Contents (Elt F) → (⟨S650000, .i32⟩ : BufTy).Contents (Elt F)),
    ternary main_v123 main_v125 main_v33 main_v126 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v126 main_v127 (broadcastInDim S650000x1 ![0] bcast_S650000_S650000x1_0 : (⟨S650000, .i32⟩ : BufTy).Contents (Elt F) → (⟨S650000x1, .i32⟩ : BufTy).Contents (Elt F)),
    binary main_v121 main_v127 main_v128 ((fun x i => Host.gather gather_S3x128_S650000x1_S650000x128_1_0_n_n_0_1_1128 x i) : (⟨S3x128, .f32⟩ : BufTy).Contents (Elt F) → (⟨S650000x1, .i32⟩ : BufTy).Contents (Elt F) → (⟨S650000x128, .f32⟩ : BufTy).Contents (Elt F)),
    binary main_v119 main_v128 main_v129 (addf : (⟨S650000x128, .f32⟩ : BufTy).Contents (Elt F) → (⟨S650000x128, .f32⟩ : BufTy).Contents (Elt F) → (⟨S650000x128, .f32⟩ : BufTy).Contents (Elt F)),
    nullary main_c_20 (constantI S_ 32 0#32),
    unary main_c_20 main_v130 (broadcastInDim S650000 ![] bcast_S_S650000 : (⟨S_, .i32⟩ : BufTy).Contents (Elt F) → (⟨S650000, .i32⟩ : BufTy).Contents (Elt F)),
    binary main_v22 main_v130 main_v131 (cmpi .slt : (⟨S650000, .i32⟩ : BufTy).Contents (Elt F) → (⟨S650000, .i32⟩ : BufTy).Contents (Elt F) → (⟨S650000, .i1⟩ : BufTy).Contents (Elt F)),
    nullary main_c_21 (constantI S_ 32 50000#32),
    unary main_c_21 main_v132 (broadcastInDim S650000 ![] bcast_S_S650000 : (⟨S_, .i32⟩ : BufTy).Contents (Elt F) → (⟨S650000, .i32⟩ : BufTy).Contents (Elt F)),
    binary main_v22 main_v132 main_v133 (addi : (⟨S650000, .i32⟩ : BufTy).Contents (Elt F) → (⟨S650000, .i32⟩ : BufTy).Contents (Elt F) → (⟨S650000, .i32⟩ : BufTy).Contents (Elt F)),
    ternary main_v131 main_v133 main_v22 main_v134 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v134 main_v135 (broadcastInDim S650000x1 ![0] bcast_S650000_S650000x1_0 : (⟨S650000, .i32⟩ : BufTy).Contents (Elt F) → (⟨S650000x1, .i32⟩ : BufTy).Contents (Elt F)),
    binary main_v110 main_v135 main_v136 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    binary main_v136 main_v129 main_v137 (addf : (⟨S650000x128, .f32⟩ : BufTy).Contents (Elt F) → (⟨S650000x128, .f32⟩ : BufTy).Contents (Elt F) → (⟨S650000x128, .f32⟩ : BufTy).Contents (Elt F)),
    nullary main_cst_22 (constant S_ .f32 0x00000000#32),
    unary main_cst_22 main_v138 (broadcastInDim S50000x128 ![] bcast_S_S50000x128 : (⟨S_, .f32⟩ : BufTy).Contents (Elt F) → (⟨S50000x128, .f32⟩ : BufTy).Contents (Elt F)),
    unary main_v25 main_v139 (broadcastInDim S650000x1 ![0] bcast_S650000_S650000x1_0 : (⟨S650000, .i32⟩ : BufTy).Contents (Elt F) → (⟨S650000x1, .i32⟩ : BufTy).Contents (Elt F)),
    ternary main_v138 main_v139 main_v137 main_v140 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v141 ((extractStridedSlice S1x128x256 ![1, 0, 0] · slices_S5x128x256_S1x128x256_1_0_0) : (⟨S5x128x256, .f32⟩ : BufTy).Contents (Elt F) → (⟨S1x128x256, .f32⟩ : BufTy).Contents (Elt F)),
    reshape main_v141 main_v142 rfl shapeCasts_S1x128x256_S128x256,
    binary main_v140 main_v142 main_v143 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v144 ((extractStridedSlice S1x256 ![1, 0] · slices_S5x256_S1x256_1_0) : (⟨S5x256, .f32⟩ : BufTy).Contents (Elt F) → (⟨S1x256, .f32⟩ : BufTy).Contents (Elt F)),
    reshape main_v144 main_v145 rfl shapeCasts_S1x256_S256,
    unary main_v145 main_v146 (broadcastInDim S1x256 ![1] bcast_S256_S1x256_1 : (⟨S256, .f32⟩ : BufTy).Contents (Elt F) → (⟨S1x256, .f32⟩ : BufTy).Contents (Elt F)),
    unary main_v146 main_v147 (broadcastInDim S50000x256 ![0, 1] bcast_S1x256_S50000x256_0_1 : (⟨S1x256, .f32⟩ : BufTy).Contents (Elt F) → (⟨S50000x256, .f32⟩ : BufTy).Contents (Elt F)),
    binary main_v143 main_v147 main_v148 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v148) (TRef.of (T := ⟨S50000x256, .f32⟩) main_call2_v0) (TRef.of (T := ⟨S50000x256, .f32⟩) main_v149) maximumf,
    unary main_arg9 main_v150 ((extractStridedSlice S1x256x128 ![1, 0, 0] · slices_S5x256x128_S1x256x128_1_0_0) : (⟨S5x256x128, .f32⟩ : BufTy).Contents (Elt F) → (⟨S1x256x128, .f32⟩ : BufTy).Contents (Elt F)),
    reshape main_v150 main_v151 rfl shapeCasts_S1x256x128_S256x128,
    binary main_v149 main_v151 main_v152 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v153 ((extractStridedSlice S1x128 ![1, 0] · slices_S5x128_S1x128_1_0) : (⟨S5x128, .f32⟩ : BufTy).Contents (Elt F) → (⟨S1x128, .f32⟩ : BufTy).Contents (Elt F)),
    reshape main_v153 main_v154 rfl shapeCasts_S1x128_S128,
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v152 main_v156 main_v157 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32),
    binary main_v157 main_cst_23 main_v158 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_24 (constant S_ .f32 0x47435000#32),
    unary main_cst_24 main_v159 (broadcastInDim S128 ![] bcast_S_S128 : (⟨S_, .f32⟩ : BufTy).Contents (Elt F) → (⟨S128, .f32⟩ : BufTy).Contents (Elt F)),
    binary main_v158 main_v159 main_v160 (Host.divf : (⟨S128, .f32⟩ : BufTy).Contents (Elt F) → (⟨S128, .f32⟩ : BufTy).Contents (Elt F) → (⟨S128, .f32⟩ : BufTy).Contents (Elt F)),
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v157 main_v162 main_v163 (subf : (⟨S50000x128, .f32⟩ : BufTy).Contents (Elt F) → (⟨S50000x128, .f32⟩ : BufTy).Contents (Elt F) → (⟨S50000x128, .f32⟩ : BufTy).Contents (Elt F)),
    binary main_v163 main_v163 main_v164 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v164 main_cst_25 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v166 (broadcastInDim S128 ![] bcast_S_S128 : (⟨S_, .f32⟩ : BufTy).Contents (Elt F) → (⟨S128, .f32⟩ : BufTy).Contents (Elt F)),
    binary main_v165 main_v166 main_v167 (Host.divf : (⟨S128, .f32⟩ : BufTy).Contents (Elt F) → (⟨S128, .f32⟩ : BufTy).Contents (Elt F) → (⟨S128, .f32⟩ : BufTy).Contents (Elt F)),
    unary main_v160 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v157 main_v169 main_v170 (subf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v171 (broadcastInDim S128 ![] bcast_S_S128 : (⟨S_, .f32⟩ : BufTy).Contents (Elt F) → (⟨S128, .f32⟩ : BufTy).Contents (Elt F)),
    binary main_v167 main_v171 main_v172 (addf : (⟨S128, .f32⟩ : BufTy).Contents (Elt F) → (⟨S128, .f32⟩ : BufTy).Contents (Elt F) → (⟨S128, .f32⟩ : BufTy).Contents (Elt F)),
    unary main_v172 main_v173 (Host.rsqrt : (⟨S128, .f32⟩ : BufTy).Contents (Elt F) → (⟨S128, .f32⟩ : BufTy).Contents (Elt F)),
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v170 main_v175 main_v176 (mulf : (⟨S50000x128, .f32⟩ : BufTy).Contents (Elt F) → (⟨S50000x128, .f32⟩ : BufTy).Contents (Elt F) → (⟨S50000x128, .f32⟩ : BufTy).Contents (Elt F)),
    unary main_arg11 main_v177 ((extractStridedSlice S1x128 ![1, 0] · slices_S5x128_S1x128_1_0) : (⟨S5x128, .f32⟩ : BufTy).Contents (Elt F) → (⟨S1x128, .f32⟩ : BufTy).Contents (Elt F)),
    reshape main_v177 main_v178 rfl shapeCasts_S1x128_S128,
    unary main_v178 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v176 main_v180 main_v181 (mulf : (⟨S50000x128, .f32⟩ : BufTy).Contents (Elt F) → (⟨S50000x128, .f32⟩ : BufTy).Contents (Elt F) → (⟨S50000x128, .f32⟩ : BufTy).Contents (Elt F)),
    unary main_arg12 main_v182 ((extractStridedSlice S1x128 ![1, 0] · slices_S5x128_S1x128_1_0) : (⟨S5x128, .f32⟩ : BufTy).Contents (Elt F) → (⟨S1x128, .f32⟩ : BufTy).Contents (Elt F)),
    reshape main_v182 main_v183 rfl shapeCasts_S1x128_S128,
    unary main_v183 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v181 main_v185 main_v186 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v186) (TRef.of (T := ⟨S50000x128, .f32⟩) main_call3_v0) (TRef.of (T := ⟨S50000x128, .f32⟩) main_v187) maximumf ]
theorem refLayer1_fresh : (refLayer1 : List (HloOp τ sig (Elt F))).Forall fun op => op.fresh = ∅ := by
  simp only [List.Forall]; repeat' constructor
/-- The buffers the piece writes. -/
abbrev refLayer1_W : List (Ref sig .tc) := [main_v111, main_v112, main_c_16, main_v113, main_v114, main_c_17, main_v115, main_v116, main_v117, main_v118, main_v119, main_v120, main_v121, main_c_18, main_v122, main_v123, main_c_19, main_v124, main_v125, main_v126, main_v127, main_v128, main_v129, main_c_20, main_v130, main_v131, main_c_21, main_v132, main_v133, main_v134, main_v135, main_v136, main_v137, main_cst_22, main_v138, main_v139, main_v140, main_v141, main_v142, main_v143, main_v144, main_v145, main_v146, main_v147, main_v148, main_call2_cst, main_call2_v0, main_v149, main_v150, main_v151, main_v152, main_v153, main_v154, main_v155, main_v156, main_v157, main_cst_23, main_v158, main_cst_24, main_v159, main_v160, main_v161, main_v162, main_v163, main_v164, main_cst_25, main_v165, main_cst_26, main_v166, main_v167, main_v168, main_v169, main_v170, main_cst_27, main_v171, main_v172, main_v173, main_v174, main_v175, main_v176, main_v177, main_v178, main_v179, main_v180, main_v181, main_v182, main_v183, main_v184, main_v185, main_v186, main_call3_cst, main_call3_v0, main_v187]
theorem refLayer1_writes : (refLayer1 : List (HloOp τ sig (Elt F))).Forall fun op => op.writes ⊆ (refLayer1_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- Layer 2: operations 226 … 318 of the program, in order. -/
abbrev refLayer2 : List (HloOp τ sig (Elt F)) :=
  [ unary main_arg5 main_v188 ((extractStridedSlice S1x6x128 ![2, 0, 0] · slices_S5x6x128_S1x6x128_2_0_0) : (⟨S5x6x128, .f32⟩ : BufTy).Contents (Elt F) → (⟨S1x6x128, .f32⟩ : BufTy).Contents (Elt F)),
    reshape main_v188 main_v189 rfl shapeCasts_S1x6x128_S6x128,
    nullary main_c_28 (constantI S_ 32 0#32),
    unary main_c_28 main_v190 (broadcastInDim S650000 ![] bcast_S_S650000 : (⟨S_, .i32⟩ : BufTy).Contents (Elt F) → (⟨S650000, .i32⟩ : BufTy).Contents (Elt F)),
    binary main_v29 main_v190 main_v191 (cmpi .slt : (⟨S650000, .i32⟩ : BufTy).Contents (Elt F) → (⟨S650000, .i32⟩ : BufTy).Contents (Elt F) → (⟨S650000, .i1⟩ : BufTy).Contents (Elt F)),
    nullary main_c_29 (constantI S_ 32 6#32),
    unary main_c_29 main_v192 (broadcastInDim S650000 ![] bcast_S_S650000 : (⟨S_, .i32⟩ : BufTy).Contents (Elt F) → (⟨S650000, .i32⟩ : BufTy).Contents (Elt F)),
    binary main_v29 main_v192 main_v193 (addi : (⟨S650000, .i32⟩ : BufTy).Contents (Elt F) → (⟨S650000, .i32⟩ : BufTy).Contents (Elt F) → (⟨S650000, .i32⟩ : BufTy).Contents (Elt F)),
    ternary main_v191 main_v193 main_v29 main_v194 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v194 main_v195 (broadcastInDim S650000x1 ![0] bcast_S650000_S650000x1_0 : (⟨S650000, .i32⟩ : BufTy).Contents (Elt F) → (⟨S650000x1, .i32⟩ : BufTy).Contents (Elt F)),
    binary main_v189 main_v195 main_v196 ((fun x i => Host.gather gather_S6x128_S650000x1_S650000x128_1_0_n_n_0_1_1128 x i) : (⟨S6x128, .f32⟩ : BufTy).Contents (Elt F) → (⟨S650000x1, .i32⟩ : BufTy).Contents (Elt F) → (⟨S650000x128, .f32⟩ : BufTy).Contents (Elt F)),
    unary main_arg6 main_v197 ((extractStridedSlice S1x3x128 ![2, 0, 0] · slices_S5x3x128_S1x3x128_2_0_0) : (⟨S5x3x128, .f32⟩ : BufTy).Contents (Elt F) → (⟨S1x3x128, .f32⟩ : BufTy).Contents (Elt F)),
    reshape main_v197 main_v198 rfl shapeCasts_S1x3x128_S3x128,
    nullary main_c_30 (constantI S_ 32 0#32),
    unary main_c_30 main_v199 (broadcastInDim S650000 ![] bcast_S_S650000 : (⟨S_, .i32⟩ : BufTy).Contents (Elt F) → (⟨S650000, .i32⟩ : BufTy).Contents (Elt F)),
    binary main_v33 main_v199 main_v200 (cmpi .slt : (⟨S650000, .i32⟩ : BufTy).Contents (Elt F) → (⟨S650000, .i32⟩ : BufTy).Contents (Elt F) → (⟨S650000, .i1⟩ : BufTy).Contents (Elt F)),
    nullary main_c_31 (constantI S_ 32 3#32),
    unary main_c_31 main_v201 (broadcastInDim S650000 ![] bcast_S_S650000 : (⟨S_, .i32⟩ : BufTy).Contents (Elt F) → (⟨S650000, .i32⟩ : BufTy).Contents (Elt F)),
    binary main_v33 main_v201 main_v202 (addi : (⟨S650000, .i32⟩ : BufTy).Contents (Elt F) → (⟨S650000, .i32⟩ : BufTy).Contents (Elt F) → (⟨S650000, .i32⟩ : BufTy).Contents (Elt F)),
    ternary main_v200 main_v202 main_v33 main_v203 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v203 main_v204 (broadcastInDim S650000x1 ![0] bcast_S650000_S650000x1_0 : (⟨S650000, .i32⟩ : BufTy).Contents (Elt F) → (⟨S650000x1, .i32⟩ : BufTy).Contents (Elt F)),
    binary main_v198 main_v204 main_v205 ((fun x i => Host.gather gather_S3x128_S650000x1_S650000x128_1_0_n_n_0_1_1128 x i) : (⟨S3x128, .f32⟩ : BufTy).Contents (Elt F) → (⟨S650000x1, .i32⟩ : BufTy).Contents (Elt F) → (⟨S650000x128, .f32⟩ : BufTy).Contents (Elt F)),
    binary main_v196 main_v205 main_v206 (addf : (⟨S650000x128, .f32⟩ : BufTy).Contents (Elt F) → (⟨S650000x128, .f32⟩ : BufTy).Contents (Elt F) → (⟨S650000x128, .f32⟩ : BufTy).Contents (Elt F)),
    nullary main_c_32 (constantI S_ 32 0#32),
    unary main_c_32 main_v207 (broadcastInDim S650000 ![] bcast_S_S650000 : (⟨S_, .i32⟩ : BufTy).Contents (Elt F) → (⟨S650000, .i32⟩ : BufTy).Contents (Elt F)),
    binary main_v22 main_v207 main_v208 (cmpi .slt : (⟨S650000, .i32⟩ : BufTy).Contents (Elt F) → (⟨S650000, .i32⟩ : BufTy).Contents (Elt F) → (⟨S650000, .i1⟩ : BufTy).Contents (Elt F)),
    nullary main_c_33 (constantI S_ 32 50000#32),
    unary main_c_33 main_v209 (broadcastInDim S650000 ![] bcast_S_S650000 : (⟨S_, .i32⟩ : BufTy).Contents (Elt F) → (⟨S650000, .i32⟩ : BufTy).Contents (Elt F)),
    binary main_v22 main_v209 main_v210 (addi : (⟨S650000, .i32⟩ : BufTy).Contents (Elt F) → (⟨S650000, .i32⟩ : BufTy).Contents (Elt F) → (⟨S650000, .i32⟩ : BufTy).Contents (Elt F)),
    ternary main_v208 main_v210 main_v22 main_v211 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v211 main_v212 (broadcastInDim S650000x1 ![0] bcast_S650000_S650000x1_0 : (⟨S650000, .i32⟩ : BufTy).Contents (Elt F) → (⟨S650000x1, .i32⟩ : BufTy).Contents (Elt F)),
    binary main_v187 main_v212 main_v213 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    binary main_v213 main_v206 main_v214 (addf : (⟨S650000x128, .f32⟩ : BufTy).Contents (Elt F) → (⟨S650000x128, .f32⟩ : BufTy).Contents (Elt F) → (⟨S650000x128, .f32⟩ : BufTy).Contents (Elt F)),
    nullary main_cst_34 (constant S_ .f32 0x00000000#32),
    unary main_cst_34 main_v215 (broadcastInDim S50000x128 ![] bcast_S_S50000x128 : (⟨S_, .f32⟩ : BufTy).Contents (Elt F) → (⟨S50000x128, .f32⟩ : BufTy).Contents (Elt F)),
    unary main_v25 main_v216 (broadcastInDim S650000x1 ![0] bcast_S650000_S650000x1_0 : (⟨S650000, .i32⟩ : BufTy).Contents (Elt F) → (⟨S650000x1, .i32⟩ : BufTy).Contents (Elt F)),
    ternary main_v215 main_v216 main_v214 main_v217 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v218 ((extractStridedSlice S1x128x256 ![2, 0, 0] · slices_S5x128x256_S1x128x256_2_0_0) : (⟨S5x128x256, .f32⟩ : BufTy).Contents (Elt F) → (⟨S1x128x256, .f32⟩ : BufTy).Contents (Elt F)),
    reshape main_v218 main_v219 rfl shapeCasts_S1x128x256_S128x256,
    binary main_v217 main_v219 main_v220 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v221 ((extractStridedSlice S1x256 ![2, 0] · slices_S5x256_S1x256_2_0) : (⟨S5x256, .f32⟩ : BufTy).Contents (Elt F) → (⟨S1x256, .f32⟩ : BufTy).Contents (Elt F)),
    reshape main_v221 main_v222 rfl shapeCasts_S1x256_S256,
    unary main_v222 main_v223 (broadcastInDim S1x256 ![1] bcast_S256_S1x256_1 : (⟨S256, .f32⟩ : BufTy).Contents (Elt F) → (⟨S1x256, .f32⟩ : BufTy).Contents (Elt F)),
    unary main_v223 main_v224 (broadcastInDim S50000x256 ![0, 1] bcast_S1x256_S50000x256_0_1 : (⟨S1x256, .f32⟩ : BufTy).Contents (Elt F) → (⟨S50000x256, .f32⟩ : BufTy).Contents (Elt F)),
    binary main_v220 main_v224 main_v225 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x256, .f32⟩) main_call4_v0) (broadcastInDim S50000x256 ![] bcast_S_S50000x256),
    TRef.binary (TRef.of (T := ⟨S50000x256, .f32⟩) main_v225) (TRef.of (T := ⟨S50000x256, .f32⟩) main_call4_v0) (TRef.of (T := ⟨S50000x256, .f32⟩) main_v226) maximumf,
    unary main_arg9 main_v227 ((extractStridedSlice S1x256x128 ![2, 0, 0] · slices_S5x256x128_S1x256x128_2_0_0) : (⟨S5x256x128, .f32⟩ : BufTy).Contents (Elt F) → (⟨S1x256x128, .f32⟩ : BufTy).Contents (Elt F)),
    reshape main_v227 main_v228 rfl shapeCasts_S1x256x128_S256x128,
    binary main_v226 main_v228 main_v229 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v230 ((extractStridedSlice S1x128 ![2, 0] · slices_S5x128_S1x128_2_0) : (⟨S5x128, .f32⟩ : BufTy).Contents (Elt F) → (⟨S1x128, .f32⟩ : BufTy).Contents (Elt F)),
    reshape main_v230 main_v231 rfl shapeCasts_S1x128_S128,
    unary main_v231 main_v232 (broadcastInDim S1x128 ![1] bcast_S128_S1x128_1 : (⟨S128, .f32⟩ : BufTy).Contents (Elt F) → (⟨S1x128, .f32⟩ : BufTy).Contents (Elt F)),
    unary main_v232 main_v233 (broadcastInDim S50000x128 ![0, 1] bcast_S1x128_S50000x128_0_1 : (⟨S1x128, .f32⟩ : BufTy).Contents (Elt F) → (⟨S50000x128, .f32⟩ : BufTy).Contents (Elt F)),
    binary main_v229 main_v233 main_v234 (addf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x00000000#32),
    binary main_v234 main_cst_35 main_v235 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_36 (constant S_ .f32 0x47435000#32),
    unary main_cst_36 main_v236 (broadcastInDim S128 ![] bcast_S_S128 : (⟨S_, .f32⟩ : BufTy).Contents (Elt F) → (⟨S128, .f32⟩ : BufTy).Contents (Elt F)),
    binary main_v235 main_v236 main_v237 (Host.divf : (⟨S128, .f32⟩ : BufTy).Contents (Elt F) → (⟨S128, .f32⟩ : BufTy).Contents (Elt F) → (⟨S128, .f32⟩ : BufTy).Contents (Elt F)),
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S50000x128 ![0, 1] bcast_S1x128_S50000x128_0_1 : (⟨S1x128, .f32⟩ : BufTy).Contents (Elt F) → (⟨S50000x128, .f32⟩ : BufTy).Contents (Elt F)),
    binary main_v234 main_v239 main_v240 (subf : (⟨S50000x128, .f32⟩ : BufTy).Contents (Elt F) → (⟨S50000x128, .f32⟩ : BufTy).Contents (Elt F) → (⟨S50000x128, .f32⟩ : BufTy).Contents (Elt F)),
    binary main_v240 main_v240 main_v241 (mulf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x00000000#32),
    binary main_v241 main_cst_37 main_v242 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_38 (constant S_ .f32 0x47435000#32),
    unary main_cst_38 main_v243 (broadcastInDim S128 ![] bcast_S_S128 : (⟨S_, .f32⟩ : BufTy).Contents (Elt F) → (⟨S128, .f32⟩ : BufTy).Contents (Elt F)),
    binary main_v242 main_v243 main_v244 (Host.divf : (⟨S128, .f32⟩ : BufTy).Contents (Elt F) → (⟨S128, .f32⟩ : BufTy).Contents (Elt F) → (⟨S128, .f32⟩ : BufTy).Contents (Elt F)),
    unary main_v237 main_v245 (broadcastInDim S1x128 ![1] bcast_S128_S1x128_1 : (⟨S128, .f32⟩ : BufTy).Contents (Elt F) → (⟨S1x128, .f32⟩ : BufTy).Contents (Elt F)),
    unary main_v245 main_v246 (broadcastInDim S50000x128 ![0, 1] bcast_S1x128_S50000x128_0_1 : (⟨S1x128, .f32⟩ : BufTy).Contents (Elt F) → (⟨S50000x128, .f32⟩ : BufTy).Contents (Elt F)),
    binary main_v234 main_v246 main_v247 (subf : (⟨S50000x128, .f32⟩ : BufTy).Contents (Elt F) → (⟨S50000x128, .f32⟩ : BufTy).Contents (Elt F) → (⟨S50000x128, .f32⟩ : BufTy).Contents (Elt F)),
    nullary main_cst_39 (constant S_ .f32 0x3727C5AC#32),
    unary main_cst_39 main_v248 (broadcastInDim S128 ![] bcast_S_S128 : (⟨S_, .f32⟩ : BufTy).Contents (Elt F) → (⟨S128, .f32⟩ : BufTy).Contents (Elt F)),
    binary main_v244 main_v248 main_v249 (addf : (⟨S128, .f32⟩ : BufTy).Contents (Elt F) → (⟨S128, .f32⟩ : BufTy).Contents (Elt F) → (⟨S128, .f32⟩ : BufTy).Contents (Elt F)),
    unary main_v249 main_v250 (Host.rsqrt : (⟨S128, .f32⟩ : BufTy).Contents (Elt F) → (⟨S128, .f32⟩ : BufTy).Contents (Elt F)),
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S50000x128 ![0, 1] bcast_S1x128_S50000x128_0_1 : (⟨S1x128, .f32⟩ : BufTy).Contents (Elt F) → (⟨S50000x128, .f32⟩ : BufTy).Contents (Elt F)),
    binary main_v247 main_v252 main_v253 (mulf : (⟨S50000x128, .f32⟩ : BufTy).Contents (Elt F) → (⟨S50000x128, .f32⟩ : BufTy).Contents (Elt F) → (⟨S50000x128, .f32⟩ : BufTy).Contents (Elt F)),
    unary main_arg11 main_v254 ((extractStridedSlice S1x128 ![2, 0] · slices_S5x128_S1x128_2_0) : (⟨S5x128, .f32⟩ : BufTy).Contents (Elt F) → (⟨S1x128, .f32⟩ : BufTy).Contents (Elt F)),
    reshape main_v254 main_v255 rfl shapeCasts_S1x128_S128,
    unary main_v255 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v253 main_v257 main_v258 (mulf : (⟨S50000x128, .f32⟩ : BufTy).Contents (Elt F) → (⟨S50000x128, .f32⟩ : BufTy).Contents (Elt F) → (⟨S50000x128, .f32⟩ : BufTy).Contents (Elt F)),
    unary main_arg12 main_v259 ((extractStridedSlice S1x128 ![2, 0] · slices_S5x128_S1x128_2_0) : (⟨S5x128, .f32⟩ : BufTy).Contents (Elt F) → (⟨S1x128, .f32⟩ : BufTy).Contents (Elt F)),
    reshape main_v259 main_v260 rfl shapeCasts_S1x128_S128,
    unary main_v260 main_v261 (broadcastInDim S1x128 ![1] bcast_S128_S1x128_1 : (⟨S128, .f32⟩ : BufTy).Contents (Elt F) → (⟨S1x128, .f32⟩ : BufTy).Contents (Elt F)),
    unary main_v261 main_v262 (broadcastInDim S50000x128 ![0, 1] bcast_S1x128_S50000x128_0_1 : (⟨S1x128, .f32⟩ : BufTy).Contents (Elt F) → (⟨S50000x128, .f32⟩ : BufTy).Contents (Elt F)),
    binary main_v258 main_v262 main_v263 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v263) (TRef.of (T := ⟨S50000x128, .f32⟩) main_call5_v0) (TRef.of (T := ⟨S50000x128, .f32⟩) main_v264) maximumf ]
theorem refLayer2_fresh : (refLayer2 : List (HloOp τ sig (Elt F))).Forall fun op => op.fresh = ∅ := by
  simp only [List.Forall]; repeat' constructor
/-- The buffers the piece writes. -/
abbrev refLayer2_W : List (Ref sig .tc) := [main_v188, main_v189, main_c_28, main_v190, main_v191, main_c_29, main_v192, main_v193, main_v194, main_v195, main_v196, main_v197, main_v198, main_c_30, main_v199, main_v200, main_c_31, main_v201, main_v202, main_v203, main_v204, main_v205, main_v206, main_c_32, main_v207, main_v208, main_c_33, main_v209, main_v210, main_v211, main_v212, main_v213, main_v214, main_cst_34, main_v215, main_v216, main_v217, main_v218, main_v219, main_v220, main_v221, main_v222, main_v223, main_v224, main_v225, main_call4_cst, main_call4_v0, main_v226, main_v227, main_v228, main_v229, main_v230, main_v231, main_v232, main_v233, main_v234, main_cst_35, main_v235, main_cst_36, main_v236, main_v237, main_v238, main_v239, main_v240, main_v241, main_cst_37, main_v242, main_cst_38, main_v243, main_v244, main_v245, main_v246, main_v247, main_cst_39, main_v248, main_v249, main_v250, main_v251, main_v252, main_v253, main_v254, main_v255, main_v256, main_v257, main_v258, main_v259, main_v260, main_v261, main_v262, main_v263, main_call5_cst, main_call5_v0, main_v264]
theorem refLayer2_writes : (refLayer2 : List (HloOp τ sig (Elt F))).Forall fun op => op.writes ⊆ (refLayer2_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- Layer 3: operations 319 … 411 of the program, in order. -/
abbrev refLayer3 : List (HloOp τ sig (Elt F)) :=
  [ unary main_arg5 main_v265 ((extractStridedSlice S1x6x128 ![3, 0, 0] · slices_S5x6x128_S1x6x128_3_0_0) : (⟨S5x6x128, .f32⟩ : BufTy).Contents (Elt F) → (⟨S1x6x128, .f32⟩ : BufTy).Contents (Elt F)),
    reshape main_v265 main_v266 rfl shapeCasts_S1x6x128_S6x128,
    nullary main_c_40 (constantI S_ 32 0#32),
    unary main_c_40 main_v267 (broadcastInDim S650000 ![] bcast_S_S650000 : (⟨S_, .i32⟩ : BufTy).Contents (Elt F) → (⟨S650000, .i32⟩ : BufTy).Contents (Elt F)),
    binary main_v29 main_v267 main_v268 (cmpi .slt : (⟨S650000, .i32⟩ : BufTy).Contents (Elt F) → (⟨S650000, .i32⟩ : BufTy).Contents (Elt F) → (⟨S650000, .i1⟩ : BufTy).Contents (Elt F)),
    nullary main_c_41 (constantI S_ 32 6#32),
    unary main_c_41 main_v269 (broadcastInDim S650000 ![] bcast_S_S650000 : (⟨S_, .i32⟩ : BufTy).Contents (Elt F) → (⟨S650000, .i32⟩ : BufTy).Contents (Elt F)),
    binary main_v29 main_v269 main_v270 (addi : (⟨S650000, .i32⟩ : BufTy).Contents (Elt F) → (⟨S650000, .i32⟩ : BufTy).Contents (Elt F) → (⟨S650000, .i32⟩ : BufTy).Contents (Elt F)),
    ternary main_v268 main_v270 main_v29 main_v271 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v271 main_v272 (broadcastInDim S650000x1 ![0] bcast_S650000_S650000x1_0 : (⟨S650000, .i32⟩ : BufTy).Contents (Elt F) → (⟨S650000x1, .i32⟩ : BufTy).Contents (Elt F)),
    binary main_v266 main_v272 main_v273 ((fun x i => Host.gather gather_S6x128_S650000x1_S650000x128_1_0_n_n_0_1_1128 x i) : (⟨S6x128, .f32⟩ : BufTy).Contents (Elt F) → (⟨S650000x1, .i32⟩ : BufTy).Contents (Elt F) → (⟨S650000x128, .f32⟩ : BufTy).Contents (Elt F)),
    unary main_arg6 main_v274 ((extractStridedSlice S1x3x128 ![3, 0, 0] · slices_S5x3x128_S1x3x128_3_0_0) : (⟨S5x3x128, .f32⟩ : BufTy).Contents (Elt F) → (⟨S1x3x128, .f32⟩ : BufTy).Contents (Elt F)),
    reshape main_v274 main_v275 rfl shapeCasts_S1x3x128_S3x128,
    nullary main_c_42 (constantI S_ 32 0#32),
    unary main_c_42 main_v276 (broadcastInDim S650000 ![] bcast_S_S650000 : (⟨S_, .i32⟩ : BufTy).Contents (Elt F) → (⟨S650000, .i32⟩ : BufTy).Contents (Elt F)),
    binary main_v33 main_v276 main_v277 (cmpi .slt : (⟨S650000, .i32⟩ : BufTy).Contents (Elt F) → (⟨S650000, .i32⟩ : BufTy).Contents (Elt F) → (⟨S650000, .i1⟩ : BufTy).Contents (Elt F)),
    nullary main_c_43 (constantI S_ 32 3#32),
    unary main_c_43 main_v278 (broadcastInDim S650000 ![] bcast_S_S650000 : (⟨S_, .i32⟩ : BufTy).Contents (Elt F) → (⟨S650000, .i32⟩ : BufTy).Contents (Elt F)),
    binary main_v33 main_v278 main_v279 (addi : (⟨S650000, .i32⟩ : BufTy).Contents (Elt F) → (⟨S650000, .i32⟩ : BufTy).Contents (Elt F) → (⟨S650000, .i32⟩ : BufTy).Contents (Elt F)),
    ternary main_v277 main_v279 main_v33 main_v280 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v280 main_v281 (broadcastInDim S650000x1 ![0] bcast_S650000_S650000x1_0 : (⟨S650000, .i32⟩ : BufTy).Contents (Elt F) → (⟨S650000x1, .i32⟩ : BufTy).Contents (Elt F)),
    binary main_v275 main_v281 main_v282 ((fun x i => Host.gather gather_S3x128_S650000x1_S650000x128_1_0_n_n_0_1_1128 x i) : (⟨S3x128, .f32⟩ : BufTy).Contents (Elt F) → (⟨S650000x1, .i32⟩ : BufTy).Contents (Elt F) → (⟨S650000x128, .f32⟩ : BufTy).Contents (Elt F)),
    binary main_v273 main_v282 main_v283 (addf : (⟨S650000x128, .f32⟩ : BufTy).Contents (Elt F) → (⟨S650000x128, .f32⟩ : BufTy).Contents (Elt F) → (⟨S650000x128, .f32⟩ : BufTy).Contents (Elt F)),
    nullary main_c_44 (constantI S_ 32 0#32),
    unary main_c_44 main_v284 (broadcastInDim S650000 ![] bcast_S_S650000 : (⟨S_, .i32⟩ : BufTy).Contents (Elt F) → (⟨S650000, .i32⟩ : BufTy).Contents (Elt F)),
    binary main_v22 main_v284 main_v285 (cmpi .slt : (⟨S650000, .i32⟩ : BufTy).Contents (Elt F) → (⟨S650000, .i32⟩ : BufTy).Contents (Elt F) → (⟨S650000, .i1⟩ : BufTy).Contents (Elt F)),
    nullary main_c_45 (constantI S_ 32 50000#32),
    unary main_c_45 main_v286 (broadcastInDim S650000 ![] bcast_S_S650000 : (⟨S_, .i32⟩ : BufTy).Contents (Elt F) → (⟨S650000, .i32⟩ : BufTy).Contents (Elt F)),
    binary main_v22 main_v286 main_v287 (addi : (⟨S650000, .i32⟩ : BufTy).Contents (Elt F) → (⟨S650000, .i32⟩ : BufTy).Contents (Elt F) → (⟨S650000, .i32⟩ : BufTy).Contents (Elt F)),
    ternary main_v285 main_v287 main_v22 main_v288 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v288 main_v289 (broadcastInDim S650000x1 ![0] bcast_S650000_S650000x1_0 : (⟨S650000, .i32⟩ : BufTy).Contents (Elt F) → (⟨S650000x1, .i32⟩ : BufTy).Contents (Elt F)),
    binary main_v264 main_v289 main_v290 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    binary main_v290 main_v283 main_v291 (addf : (⟨S650000x128, .f32⟩ : BufTy).Contents (Elt F) → (⟨S650000x128, .f32⟩ : BufTy).Contents (Elt F) → (⟨S650000x128, .f32⟩ : BufTy).Contents (Elt F)),
    nullary main_cst_46 (constant S_ .f32 0x00000000#32),
    unary main_cst_46 main_v292 (broadcastInDim S50000x128 ![] bcast_S_S50000x128 : (⟨S_, .f32⟩ : BufTy).Contents (Elt F) → (⟨S50000x128, .f32⟩ : BufTy).Contents (Elt F)),
    unary main_v25 main_v293 (broadcastInDim S650000x1 ![0] bcast_S650000_S650000x1_0 : (⟨S650000, .i32⟩ : BufTy).Contents (Elt F) → (⟨S650000x1, .i32⟩ : BufTy).Contents (Elt F)),
    ternary main_v292 main_v293 main_v291 main_v294 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v295 ((extractStridedSlice S1x128x256 ![3, 0, 0] · slices_S5x128x256_S1x128x256_3_0_0) : (⟨S5x128x256, .f32⟩ : BufTy).Contents (Elt F) → (⟨S1x128x256, .f32⟩ : BufTy).Contents (Elt F)),
    reshape main_v295 main_v296 rfl shapeCasts_S1x128x256_S128x256,
    binary main_v294 main_v296 main_v297 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v298 ((extractStridedSlice S1x256 ![3, 0] · slices_S5x256_S1x256_3_0) : (⟨S5x256, .f32⟩ : BufTy).Contents (Elt F) → (⟨S1x256, .f32⟩ : BufTy).Contents (Elt F)),
    reshape main_v298 main_v299 rfl shapeCasts_S1x256_S256,
    unary main_v299 main_v300 (broadcastInDim S1x256 ![1] bcast_S256_S1x256_1 : (⟨S256, .f32⟩ : BufTy).Contents (Elt F) → (⟨S1x256, .f32⟩ : BufTy).Contents (Elt F)),
    unary main_v300 main_v301 (broadcastInDim S50000x256 ![0, 1] bcast_S1x256_S50000x256_0_1 : (⟨S1x256, .f32⟩ : BufTy).Contents (Elt F) → (⟨S50000x256, .f32⟩ : BufTy).Contents (Elt F)),
    binary main_v297 main_v301 main_v302 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x256, .f32⟩) main_call6_v0) (broadcastInDim S50000x256 ![] bcast_S_S50000x256),
    TRef.binary (TRef.of (T := ⟨S50000x256, .f32⟩) main_v302) (TRef.of (T := ⟨S50000x256, .f32⟩) main_call6_v0) (TRef.of (T := ⟨S50000x256, .f32⟩) main_v303) maximumf,
    unary main_arg9 main_v304 ((extractStridedSlice S1x256x128 ![3, 0, 0] · slices_S5x256x128_S1x256x128_3_0_0) : (⟨S5x256x128, .f32⟩ : BufTy).Contents (Elt F) → (⟨S1x256x128, .f32⟩ : BufTy).Contents (Elt F)),
    reshape main_v304 main_v305 rfl shapeCasts_S1x256x128_S256x128,
    binary main_v303 main_v305 main_v306 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v307 ((extractStridedSlice S1x128 ![3, 0] · slices_S5x128_S1x128_3_0) : (⟨S5x128, .f32⟩ : BufTy).Contents (Elt F) → (⟨S1x128, .f32⟩ : BufTy).Contents (Elt F)),
    reshape main_v307 main_v308 rfl shapeCasts_S1x128_S128,
    unary main_v308 main_v309 (broadcastInDim S1x128 ![1] bcast_S128_S1x128_1 : (⟨S128, .f32⟩ : BufTy).Contents (Elt F) → (⟨S1x128, .f32⟩ : BufTy).Contents (Elt F)),
    unary main_v309 main_v310 (broadcastInDim S50000x128 ![0, 1] bcast_S1x128_S50000x128_0_1 : (⟨S1x128, .f32⟩ : BufTy).Contents (Elt F) → (⟨S50000x128, .f32⟩ : BufTy).Contents (Elt F)),
    binary main_v306 main_v310 main_v311 (addf : (⟨S50000x128, .f32⟩ : BufTy).Contents (Elt F) → (⟨S50000x128, .f32⟩ : BufTy).Contents (Elt F) → (⟨S50000x128, .f32⟩ : BufTy).Contents (Elt F)),
    nullary main_cst_47 (constant S_ .f32 0x00000000#32),
    binary main_v311 main_cst_47 main_v312 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_48 (constant S_ .f32 0x47435000#32),
    unary main_cst_48 main_v313 (broadcastInDim S128 ![] bcast_S_S128 : (⟨S_, .f32⟩ : BufTy).Contents (Elt F) → (⟨S128, .f32⟩ : BufTy).Contents (Elt F)),
    binary main_v312 main_v313 main_v314 (Host.divf : (⟨S128, .f32⟩ : BufTy).Contents (Elt F) → (⟨S128, .f32⟩ : BufTy).Contents (Elt F) → (⟨S128, .f32⟩ : BufTy).Contents (Elt F)),
    unary main_v314 main_v315 (broadcastInDim S1x128 ![1] bcast_S128_S1x128_1 : (⟨S128, .f32⟩ : BufTy).Contents (Elt F) → (⟨S1x128, .f32⟩ : BufTy).Contents (Elt F)),
    unary main_v315 main_v316 (broadcastInDim S50000x128 ![0, 1] bcast_S1x128_S50000x128_0_1 : (⟨S1x128, .f32⟩ : BufTy).Contents (Elt F) → (⟨S50000x128, .f32⟩ : BufTy).Contents (Elt F)),
    binary main_v311 main_v316 main_v317 (subf : (⟨S50000x128, .f32⟩ : BufTy).Contents (Elt F) → (⟨S50000x128, .f32⟩ : BufTy).Contents (Elt F) → (⟨S50000x128, .f32⟩ : BufTy).Contents (Elt F)),
    binary main_v317 main_v317 main_v318 (mulf : (⟨S50000x128, .f32⟩ : BufTy).Contents (Elt F) → (⟨S50000x128, .f32⟩ : BufTy).Contents (Elt F) → (⟨S50000x128, .f32⟩ : BufTy).Contents (Elt F)),
    nullary main_cst_49 (constant S_ .f32 0x00000000#32),
    binary main_v318 main_cst_49 main_v319 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_50 (constant S_ .f32 0x47435000#32),
    unary main_cst_50 main_v320 (broadcastInDim S128 ![] bcast_S_S128 : (⟨S_, .f32⟩ : BufTy).Contents (Elt F) → (⟨S128, .f32⟩ : BufTy).Contents (Elt F)),
    binary main_v319 main_v320 main_v321 (Host.divf : (⟨S128, .f32⟩ : BufTy).Contents (Elt F) → (⟨S128, .f32⟩ : BufTy).Contents (Elt F) → (⟨S128, .f32⟩ : BufTy).Contents (Elt F)),
    unary main_v314 main_v322 (broadcastInDim S1x128 ![1] bcast_S128_S1x128_1 : (⟨S128, .f32⟩ : BufTy).Contents (Elt F) → (⟨S1x128, .f32⟩ : BufTy).Contents (Elt F)),
    unary main_v322 main_v323 (broadcastInDim S50000x128 ![0, 1] bcast_S1x128_S50000x128_0_1 : (⟨S1x128, .f32⟩ : BufTy).Contents (Elt F) → (⟨S50000x128, .f32⟩ : BufTy).Contents (Elt F)),
    binary main_v311 main_v323 main_v324 (subf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x3727C5AC#32),
    unary main_cst_51 main_v325 (broadcastInDim S128 ![] bcast_S_S128 : (⟨S_, .f32⟩ : BufTy).Contents (Elt F) → (⟨S128, .f32⟩ : BufTy).Contents (Elt F)),
    binary main_v321 main_v325 main_v326 (addf : (⟨S128, .f32⟩ : BufTy).Contents (Elt F) → (⟨S128, .f32⟩ : BufTy).Contents (Elt F) → (⟨S128, .f32⟩ : BufTy).Contents (Elt F)),
    unary main_v326 main_v327 (Host.rsqrt : (⟨S128, .f32⟩ : BufTy).Contents (Elt F) → (⟨S128, .f32⟩ : BufTy).Contents (Elt F)),
    unary main_v327 main_v328 (broadcastInDim S1x128 ![1] bcast_S128_S1x128_1 : (⟨S128, .f32⟩ : BufTy).Contents (Elt F) → (⟨S1x128, .f32⟩ : BufTy).Contents (Elt F)),
    unary main_v328 main_v329 (broadcastInDim S50000x128 ![0, 1] bcast_S1x128_S50000x128_0_1 : (⟨S1x128, .f32⟩ : BufTy).Contents (Elt F) → (⟨S50000x128, .f32⟩ : BufTy).Contents (Elt F)),
    binary main_v324 main_v329 main_v330 (mulf : (⟨S50000x128, .f32⟩ : BufTy).Contents (Elt F) → (⟨S50000x128, .f32⟩ : BufTy).Contents (Elt F) → (⟨S50000x128, .f32⟩ : BufTy).Contents (Elt F)),
    unary main_arg11 main_v331 ((extractStridedSlice S1x128 ![3, 0] · slices_S5x128_S1x128_3_0) : (⟨S5x128, .f32⟩ : BufTy).Contents (Elt F) → (⟨S1x128, .f32⟩ : BufTy).Contents (Elt F)),
    reshape main_v331 main_v332 rfl shapeCasts_S1x128_S128,
    unary main_v332 main_v333 (broadcastInDim S1x128 ![1] bcast_S128_S1x128_1 : (⟨S128, .f32⟩ : BufTy).Contents (Elt F) → (⟨S1x128, .f32⟩ : BufTy).Contents (Elt F)),
    unary main_v333 main_v334 (broadcastInDim S50000x128 ![0, 1] bcast_S1x128_S50000x128_0_1 : (⟨S1x128, .f32⟩ : BufTy).Contents (Elt F) → (⟨S50000x128, .f32⟩ : BufTy).Contents (Elt F)),
    binary main_v330 main_v334 main_v335 (mulf : (⟨S50000x128, .f32⟩ : BufTy).Contents (Elt F) → (⟨S50000x128, .f32⟩ : BufTy).Contents (Elt F) → (⟨S50000x128, .f32⟩ : BufTy).Contents (Elt F)),
    unary main_arg12 main_v336 ((extractStridedSlice S1x128 ![3, 0] · slices_S5x128_S1x128_3_0) : (⟨S5x128, .f32⟩ : BufTy).Contents (Elt F) → (⟨S1x128, .f32⟩ : BufTy).Contents (Elt F)),
    reshape main_v336 main_v337 rfl shapeCasts_S1x128_S128,
    unary main_v337 main_v338 (broadcastInDim S1x128 ![1] bcast_S128_S1x128_1 : (⟨S128, .f32⟩ : BufTy).Contents (Elt F) → (⟨S1x128, .f32⟩ : BufTy).Contents (Elt F)),
    unary main_v338 main_v339 (broadcastInDim S50000x128 ![0, 1] bcast_S1x128_S50000x128_0_1 : (⟨S1x128, .f32⟩ : BufTy).Contents (Elt F) → (⟨S50000x128, .f32⟩ : BufTy).Contents (Elt F)),
    binary main_v335 main_v339 main_v340 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v340) (TRef.of (T := ⟨S50000x128, .f32⟩) main_call7_v0) (TRef.of (T := ⟨S50000x128, .f32⟩) main_v341) maximumf ]
theorem refLayer3_fresh : (refLayer3 : List (HloOp τ sig (Elt F))).Forall fun op => op.fresh = ∅ := by
  simp only [List.Forall]; repeat' constructor
/-- The buffers the piece writes. -/
abbrev refLayer3_W : List (Ref sig .tc) := [main_v265, main_v266, main_c_40, main_v267, main_v268, main_c_41, main_v269, main_v270, main_v271, main_v272, main_v273, main_v274, main_v275, main_c_42, main_v276, main_v277, main_c_43, main_v278, main_v279, main_v280, main_v281, main_v282, main_v283, main_c_44, main_v284, main_v285, main_c_45, main_v286, main_v287, main_v288, main_v289, main_v290, main_v291, main_cst_46, main_v292, main_v293, main_v294, main_v295, main_v296, main_v297, main_v298, main_v299, main_v300, main_v301, main_v302, main_call6_cst, main_call6_v0, main_v303, main_v304, main_v305, main_v306, main_v307, main_v308, main_v309, main_v310, main_v311, main_cst_47, main_v312, main_cst_48, main_v313, main_v314, main_v315, main_v316, main_v317, main_v318, main_cst_49, main_v319, main_cst_50, main_v320, main_v321, main_v322, main_v323, main_v324, main_cst_51, main_v325, main_v326, main_v327, main_v328, main_v329, main_v330, main_v331, main_v332, main_v333, main_v334, main_v335, main_v336, main_v337, main_v338, main_v339, main_v340, main_call7_cst, main_call7_v0, main_v341]
theorem refLayer3_writes : (refLayer3 : List (HloOp τ sig (Elt F))).Forall fun op => op.writes ⊆ (refLayer3_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- Layer 4: operations 412 … 501 of the program, in order. -/
abbrev refLayer4 : List (HloOp τ sig (Elt F)) :=
  [ unary main_arg5 main_v342 ((extractStridedSlice S1x6x128 ![4, 0, 0] · slices_S5x6x128_S1x6x128_4_0_0) : (⟨S5x6x128, .f32⟩ : BufTy).Contents (Elt F) → (⟨S1x6x128, .f32⟩ : BufTy).Contents (Elt F)),
    reshape main_v342 main_v343 rfl shapeCasts_S1x6x128_S6x128,
    nullary main_c_52 (constantI S_ 32 0#32),
    unary main_c_52 main_v344 (broadcastInDim S650000 ![] bcast_S_S650000 : (⟨S_, .i32⟩ : BufTy).Contents (Elt F) → (⟨S650000, .i32⟩ : BufTy).Contents (Elt F)),
    binary main_v29 main_v344 main_v345 (cmpi .slt : (⟨S650000, .i32⟩ : BufTy).Contents (Elt F) → (⟨S650000, .i32⟩ : BufTy).Contents (Elt F) → (⟨S650000, .i1⟩ : BufTy).Contents (Elt F)),
    nullary main_c_53 (constantI S_ 32 6#32),
    unary main_c_53 main_v346 (broadcastInDim S650000 ![] bcast_S_S650000 : (⟨S_, .i32⟩ : BufTy).Contents (Elt F) → (⟨S650000, .i32⟩ : BufTy).Contents (Elt F)),
    binary main_v29 main_v346 main_v347 (addi : (⟨S650000, .i32⟩ : BufTy).Contents (Elt F) → (⟨S650000, .i32⟩ : BufTy).Contents (Elt F) → (⟨S650000, .i32⟩ : BufTy).Contents (Elt F)),
    ternary main_v345 main_v347 main_v29 main_v348 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v348 main_v349 (broadcastInDim S650000x1 ![0] bcast_S650000_S650000x1_0 : (⟨S650000, .i32⟩ : BufTy).Contents (Elt F) → (⟨S650000x1, .i32⟩ : BufTy).Contents (Elt F)),
    binary main_v343 main_v349 main_v350 ((fun x i => Host.gather gather_S6x128_S650000x1_S650000x128_1_0_n_n_0_1_1128 x i) : (⟨S6x128, .f32⟩ : BufTy).Contents (Elt F) → (⟨S650000x1, .i32⟩ : BufTy).Contents (Elt F) → (⟨S650000x128, .f32⟩ : BufTy).Contents (Elt F)),
    unary main_arg6 main_v351 ((extractStridedSlice S1x3x128 ![4, 0, 0] · slices_S5x3x128_S1x3x128_4_0_0) : (⟨S5x3x128, .f32⟩ : BufTy).Contents (Elt F) → (⟨S1x3x128, .f32⟩ : BufTy).Contents (Elt F)),
    reshape main_v351 main_v352 rfl shapeCasts_S1x3x128_S3x128,
    nullary main_c_54 (constantI S_ 32 0#32),
    unary main_c_54 main_v353 (broadcastInDim S650000 ![] bcast_S_S650000 : (⟨S_, .i32⟩ : BufTy).Contents (Elt F) → (⟨S650000, .i32⟩ : BufTy).Contents (Elt F)),
    binary main_v33 main_v353 main_v354 (cmpi .slt : (⟨S650000, .i32⟩ : BufTy).Contents (Elt F) → (⟨S650000, .i32⟩ : BufTy).Contents (Elt F) → (⟨S650000, .i1⟩ : BufTy).Contents (Elt F)),
    nullary main_c_55 (constantI S_ 32 3#32),
    unary main_c_55 main_v355 (broadcastInDim S650000 ![] bcast_S_S650000 : (⟨S_, .i32⟩ : BufTy).Contents (Elt F) → (⟨S650000, .i32⟩ : BufTy).Contents (Elt F)),
    binary main_v33 main_v355 main_v356 (addi : (⟨S650000, .i32⟩ : BufTy).Contents (Elt F) → (⟨S650000, .i32⟩ : BufTy).Contents (Elt F) → (⟨S650000, .i32⟩ : BufTy).Contents (Elt F)),
    ternary main_v354 main_v356 main_v33 main_v357 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v357 main_v358 (broadcastInDim S650000x1 ![0] bcast_S650000_S650000x1_0 : (⟨S650000, .i32⟩ : BufTy).Contents (Elt F) → (⟨S650000x1, .i32⟩ : BufTy).Contents (Elt F)),
    binary main_v352 main_v358 main_v359 ((fun x i => Host.gather gather_S3x128_S650000x1_S650000x128_1_0_n_n_0_1_1128 x i) : (⟨S3x128, .f32⟩ : BufTy).Contents (Elt F) → (⟨S650000x1, .i32⟩ : BufTy).Contents (Elt F) → (⟨S650000x128, .f32⟩ : BufTy).Contents (Elt F)),
    binary main_v350 main_v359 main_v360 (addf : (⟨S650000x128, .f32⟩ : BufTy).Contents (Elt F) → (⟨S650000x128, .f32⟩ : BufTy).Contents (Elt F) → (⟨S650000x128, .f32⟩ : BufTy).Contents (Elt F)),
    nullary main_c_56 (constantI S_ 32 0#32),
    unary main_c_56 main_v361 (broadcastInDim S650000 ![] bcast_S_S650000 : (⟨S_, .i32⟩ : BufTy).Contents (Elt F) → (⟨S650000, .i32⟩ : BufTy).Contents (Elt F)),
    binary main_v22 main_v361 main_v362 (cmpi .slt : (⟨S650000, .i32⟩ : BufTy).Contents (Elt F) → (⟨S650000, .i32⟩ : BufTy).Contents (Elt F) → (⟨S650000, .i1⟩ : BufTy).Contents (Elt F)),
    nullary main_c_57 (constantI S_ 32 50000#32),
    unary main_c_57 main_v363 (broadcastInDim S650000 ![] bcast_S_S650000 : (⟨S_, .i32⟩ : BufTy).Contents (Elt F) → (⟨S650000, .i32⟩ : BufTy).Contents (Elt F)),
    binary main_v22 main_v363 main_v364 (addi : (⟨S650000, .i32⟩ : BufTy).Contents (Elt F) → (⟨S650000, .i32⟩ : BufTy).Contents (Elt F) → (⟨S650000, .i32⟩ : BufTy).Contents (Elt F)),
    ternary main_v362 main_v364 main_v22 main_v365 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v365 main_v366 (broadcastInDim S650000x1 ![0] bcast_S650000_S650000x1_0 : (⟨S650000, .i32⟩ : BufTy).Contents (Elt F) → (⟨S650000x1, .i32⟩ : BufTy).Contents (Elt F)),
    binary main_v341 main_v366 main_v367 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    binary main_v367 main_v360 main_v368 (addf : (⟨S650000x128, .f32⟩ : BufTy).Contents (Elt F) → (⟨S650000x128, .f32⟩ : BufTy).Contents (Elt F) → (⟨S650000x128, .f32⟩ : BufTy).Contents (Elt F)),
    nullary main_cst_58 (constant S_ .f32 0x00000000#32),
    unary main_cst_58 main_v369 (broadcastInDim S50000x128 ![] bcast_S_S50000x128 : (⟨S_, .f32⟩ : BufTy).Contents (Elt F) → (⟨S50000x128, .f32⟩ : BufTy).Contents (Elt F)),
    unary main_v25 main_v370 (broadcastInDim S650000x1 ![0] bcast_S650000_S650000x1_0 : (⟨S650000, .i32⟩ : BufTy).Contents (Elt F) → (⟨S650000x1, .i32⟩ : BufTy).Contents (Elt F)),
    ternary main_v369 main_v370 main_v368 main_v371 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg7 main_v372 ((extractStridedSlice S1x128x256 ![4, 0, 0] · slices_S5x128x256_S1x128x256_4_0_0) : (⟨S5x128x256, .f32⟩ : BufTy).Contents (Elt F) → (⟨S1x128x256, .f32⟩ : BufTy).Contents (Elt F)),
    reshape main_v372 main_v373 rfl shapeCasts_S1x128x256_S128x256,
    binary main_v371 main_v373 main_v374 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v375 ((extractStridedSlice S1x256 ![4, 0] · slices_S5x256_S1x256_4_0) : (⟨S5x256, .f32⟩ : BufTy).Contents (Elt F) → (⟨S1x256, .f32⟩ : BufTy).Contents (Elt F)),
    reshape main_v375 main_v376 rfl shapeCasts_S1x256_S256,
    unary main_v376 main_v377 (broadcastInDim S1x256 ![1] bcast_S256_S1x256_1 : (⟨S256, .f32⟩ : BufTy).Contents (Elt F) → (⟨S1x256, .f32⟩ : BufTy).Contents (Elt F)),
    unary main_v377 main_v378 (broadcastInDim S50000x256 ![0, 1] bcast_S1x256_S50000x256_0_1 : (⟨S1x256, .f32⟩ : BufTy).Contents (Elt F) → (⟨S50000x256, .f32⟩ : BufTy).Contents (Elt F)),
    binary main_v374 main_v378 main_v379 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x256, .f32⟩) main_call8_v0) (broadcastInDim S50000x256 ![] bcast_S_S50000x256),
    TRef.binary (TRef.of (T := ⟨S50000x256, .f32⟩) main_v379) (TRef.of (T := ⟨S50000x256, .f32⟩) main_call8_v0) (TRef.of (T := ⟨S50000x256, .f32⟩) main_v380) maximumf,
    unary main_arg9 main_v381 ((extractStridedSlice S1x256x128 ![4, 0, 0] · slices_S5x256x128_S1x256x128_4_0_0) : (⟨S5x256x128, .f32⟩ : BufTy).Contents (Elt F) → (⟨S1x256x128, .f32⟩ : BufTy).Contents (Elt F)),
    reshape main_v381 main_v382 rfl shapeCasts_S1x256x128_S256x128,
    binary main_v380 main_v382 main_v383 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v384 ((extractStridedSlice S1x128 ![4, 0] · slices_S5x128_S1x128_4_0) : (⟨S5x128, .f32⟩ : BufTy).Contents (Elt F) → (⟨S1x128, .f32⟩ : BufTy).Contents (Elt F)),
    reshape main_v384 main_v385 rfl shapeCasts_S1x128_S128,
    unary main_v385 main_v386 (broadcastInDim S1x128 ![1] bcast_S128_S1x128_1 : (⟨S128, .f32⟩ : BufTy).Contents (Elt F) → (⟨S1x128, .f32⟩ : BufTy).Contents (Elt F)),
    unary main_v386 main_v387 (broadcastInDim S50000x128 ![0, 1] bcast_S1x128_S50000x128_0_1 : (⟨S1x128, .f32⟩ : BufTy).Contents (Elt F) → (⟨S50000x128, .f32⟩ : BufTy).Contents (Elt F)),
    binary main_v383 main_v387 main_v388 (addf : (⟨S50000x128, .f32⟩ : BufTy).Contents (Elt F) → (⟨S50000x128, .f32⟩ : BufTy).Contents (Elt F) → (⟨S50000x128, .f32⟩ : BufTy).Contents (Elt F)),
    nullary main_cst_59 (constant S_ .f32 0x00000000#32),
    binary main_v388 main_cst_59 main_v389 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_60 (constant S_ .f32 0x47435000#32),
    unary main_cst_60 main_v390 (broadcastInDim S128 ![] bcast_S_S128 : (⟨S_, .f32⟩ : BufTy).Contents (Elt F) → (⟨S128, .f32⟩ : BufTy).Contents (Elt F)),
    binary main_v389 main_v390 main_v391 (Host.divf : (⟨S128, .f32⟩ : BufTy).Contents (Elt F) → (⟨S128, .f32⟩ : BufTy).Contents (Elt F) → (⟨S128, .f32⟩ : BufTy).Contents (Elt F)),
    unary main_v391 main_v392 (broadcastInDim S1x128 ![1] bcast_S128_S1x128_1 : (⟨S128, .f32⟩ : BufTy).Contents (Elt F) → (⟨S1x128, .f32⟩ : BufTy).Contents (Elt F)),
    unary main_v392 main_v393 (broadcastInDim S50000x128 ![0, 1] bcast_S1x128_S50000x128_0_1 : (⟨S1x128, .f32⟩ : BufTy).Contents (Elt F) → (⟨S50000x128, .f32⟩ : BufTy).Contents (Elt F)),
    binary main_v388 main_v393 main_v394 (subf : (⟨S50000x128, .f32⟩ : BufTy).Contents (Elt F) → (⟨S50000x128, .f32⟩ : BufTy).Contents (Elt F) → (⟨S50000x128, .f32⟩ : BufTy).Contents (Elt F)),
    binary main_v394 main_v394 main_v395 (mulf : (⟨S50000x128, .f32⟩ : BufTy).Contents (Elt F) → (⟨S50000x128, .f32⟩ : BufTy).Contents (Elt F) → (⟨S50000x128, .f32⟩ : BufTy).Contents (Elt F)),
    nullary main_cst_61 (constant S_ .f32 0x00000000#32),
    binary main_v395 main_cst_61 main_v396 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_62 (constant S_ .f32 0x47435000#32),
    unary main_cst_62 main_v397 (broadcastInDim S128 ![] bcast_S_S128 : (⟨S_, .f32⟩ : BufTy).Contents (Elt F) → (⟨S128, .f32⟩ : BufTy).Contents (Elt F)),
    binary main_v396 main_v397 main_v398 (Host.divf : (⟨S128, .f32⟩ : BufTy).Contents (Elt F) → (⟨S128, .f32⟩ : BufTy).Contents (Elt F) → (⟨S128, .f32⟩ : BufTy).Contents (Elt F)),
    unary main_v391 main_v399 (broadcastInDim S1x128 ![1] bcast_S128_S1x128_1 : (⟨S128, .f32⟩ : BufTy).Contents (Elt F) → (⟨S1x128, .f32⟩ : BufTy).Contents (Elt F)),
    unary main_v399 main_v400 (broadcastInDim S50000x128 ![0, 1] bcast_S1x128_S50000x128_0_1 : (⟨S1x128, .f32⟩ : BufTy).Contents (Elt F) → (⟨S50000x128, .f32⟩ : BufTy).Contents (Elt F)),
    binary main_v388 main_v400 main_v401 (subf : (⟨S50000x128, .f32⟩ : BufTy).Contents (Elt F) → (⟨S50000x128, .f32⟩ : BufTy).Contents (Elt F) → (⟨S50000x128, .f32⟩ : BufTy).Contents (Elt F)),
    nullary main_cst_63 (constant S_ .f32 0x3727C5AC#32),
    unary main_cst_63 main_v402 (broadcastInDim S128 ![] bcast_S_S128 : (⟨S_, .f32⟩ : BufTy).Contents (Elt F) → (⟨S128, .f32⟩ : BufTy).Contents (Elt F)),
    binary main_v398 main_v402 main_v403 (addf : (⟨S128, .f32⟩ : BufTy).Contents (Elt F) → (⟨S128, .f32⟩ : BufTy).Contents (Elt F) → (⟨S128, .f32⟩ : BufTy).Contents (Elt F)),
    unary main_v403 main_v404 (Host.rsqrt : (⟨S128, .f32⟩ : BufTy).Contents (Elt F) → (⟨S128, .f32⟩ : BufTy).Contents (Elt F)),
    unary main_v404 main_v405 (broadcastInDim S1x128 ![1] bcast_S128_S1x128_1 : (⟨S128, .f32⟩ : BufTy).Contents (Elt F) → (⟨S1x128, .f32⟩ : BufTy).Contents (Elt F)),
    unary main_v405 main_v406 (broadcastInDim S50000x128 ![0, 1] bcast_S1x128_S50000x128_0_1 : (⟨S1x128, .f32⟩ : BufTy).Contents (Elt F) → (⟨S50000x128, .f32⟩ : BufTy).Contents (Elt F)),
    binary main_v401 main_v406 main_v407 (mulf : (⟨S50000x128, .f32⟩ : BufTy).Contents (Elt F) → (⟨S50000x128, .f32⟩ : BufTy).Contents (Elt F) → (⟨S50000x128, .f32⟩ : BufTy).Contents (Elt F)),
    unary main_arg11 main_v408 ((extractStridedSlice S1x128 ![4, 0] · slices_S5x128_S1x128_4_0) : (⟨S5x128, .f32⟩ : BufTy).Contents (Elt F) → (⟨S1x128, .f32⟩ : BufTy).Contents (Elt F)),
    reshape main_v408 main_v409 rfl shapeCasts_S1x128_S128,
    unary main_v409 main_v410 (broadcastInDim S1x128 ![1] bcast_S128_S1x128_1 : (⟨S128, .f32⟩ : BufTy).Contents (Elt F) → (⟨S1x128, .f32⟩ : BufTy).Contents (Elt F)),
    unary main_v410 main_v411 (broadcastInDim S50000x128 ![0, 1] bcast_S1x128_S50000x128_0_1 : (⟨S1x128, .f32⟩ : BufTy).Contents (Elt F) → (⟨S50000x128, .f32⟩ : BufTy).Contents (Elt F)),
    binary main_v407 main_v411 main_v412 (mulf : (⟨S50000x128, .f32⟩ : BufTy).Contents (Elt F) → (⟨S50000x128, .f32⟩ : BufTy).Contents (Elt F) → (⟨S50000x128, .f32⟩ : BufTy).Contents (Elt F)),
    unary main_arg12 main_v413 ((extractStridedSlice S1x128 ![4, 0] · slices_S5x128_S1x128_4_0) : (⟨S5x128, .f32⟩ : BufTy).Contents (Elt F) → (⟨S1x128, .f32⟩ : BufTy).Contents (Elt F)),
    reshape main_v413 main_v414 rfl shapeCasts_S1x128_S128,
    unary main_v414 main_v415 (broadcastInDim S1x128 ![1] bcast_S128_S1x128_1 : (⟨S128, .f32⟩ : BufTy).Contents (Elt F) → (⟨S1x128, .f32⟩ : BufTy).Contents (Elt F)),
    unary main_v415 main_v416 (broadcastInDim S50000x128 ![0, 1] bcast_S1x128_S50000x128_0_1 : (⟨S1x128, .f32⟩ : BufTy).Contents (Elt F) → (⟨S50000x128, .f32⟩ : BufTy).Contents (Elt F)),
    binary main_v412 main_v416 main_v417 (addf : (⟨S50000x128, .f32⟩ : BufTy).Contents (Elt F) → (⟨S50000x128, .f32⟩ : BufTy).Contents (Elt F) → (⟨S50000x128, .f32⟩ : BufTy).Contents (Elt F)) ]
theorem refLayer4_fresh : (refLayer4 : List (HloOp τ sig (Elt F))).Forall fun op => op.fresh = ∅ := by
  simp only [List.Forall]; repeat' constructor
/-- The buffers the piece writes. -/
abbrev refLayer4_W : List (Ref sig .tc) := [main_v342, main_v343, main_c_52, main_v344, main_v345, main_c_53, main_v346, main_v347, main_v348, main_v349, main_v350, main_v351, main_v352, main_c_54, main_v353, main_v354, main_c_55, main_v355, main_v356, main_v357, main_v358, main_v359, main_v360, main_c_56, main_v361, main_v362, main_c_57, main_v363, main_v364, main_v365, main_v366, main_v367, main_v368, main_cst_58, main_v369, main_v370, main_v371, main_v372, main_v373, main_v374, main_v375, main_v376, main_v377, main_v378, main_v379, main_call8_cst, main_call8_v0, main_v380, main_v381, main_v382, main_v383, main_v384, main_v385, main_v386, main_v387, main_v388, main_cst_59, main_v389, main_cst_60, main_v390, main_v391, main_v392, main_v393, main_v394, main_v395, main_cst_61, main_v396, main_cst_62, main_v397, main_v398, main_v399, main_v400, main_v401, main_cst_63, main_v402, main_v403, main_v404, main_v405, main_v406, main_v407, main_v408, main_v409, main_v410, main_v411, main_v412, main_v413, main_v414, main_v415, main_v416, main_v417]
theorem refLayer4_writes : (refLayer4 : List (HloOp τ sig (Elt F))).Forall fun op => op.writes ⊆ (refLayer4_W.map (Proc.devRef (τ := τ) .tc)).toFinset := by
  simp only [List.Forall]; exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- The whole program's operations: the pieces in order. -/
abbrev refOps : List (HloOp τ sig (Elt F)) := refPre ++ (refLayer0 ++ (refLayer1 ++ (refLayer2 ++ (refLayer3 ++ refLayer4))))

set_option maxHeartbeats 4000000 in
theorem main_eq (c : Dev nD) : main (F := F) c = seq refOps := rfl
theorem scopedRefs_eq : (Finset.univ.filter fun b : Ref sig .tc => b.isScoped) = ∅ := by decide
theorem scopedSems_eq : (Finset.univ.filter fun sm : SemLoc sig => sm.isScoped .tc) = ∅ := by decide
theorem refPre_sub : (refPre : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., binary_bufs_sub .., unary_bufs_sub .., reshape_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub ..⟩
theorem refLayer0_sub : (refLayer0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem refLayer1_sub : (refLayer1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem refLayer2_sub : (refLayer2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem refLayer3_sub : (refLayer3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem refLayer4_sub : (refLayer4 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
/-- Membership in the whole list is membership in one piece. -/
theorem mem_refOps {op : HloOp τ sig (Elt F)} (h : op ∈ (refOps : List (HloOp τ sig (Elt F)))) :
    op ∈ (refPre : List (HloOp τ sig (Elt F))) ∨ op ∈ (refLayer0 : List (HloOp τ sig (Elt F))) ∨ op ∈ (refLayer1 : List (HloOp τ sig (Elt F))) ∨ op ∈ (refLayer2 : List (HloOp τ sig (Elt F))) ∨ op ∈ (refLayer3 : List (HloOp τ sig (Elt F))) ∨ op ∈ (refLayer4 : List (HloOp τ sig (Elt F))) := by
  rcases List.mem_append.mp h with h | h
  · exact Or.inl h
  rcases List.mem_append.mp h with h | h
  · exact Or.inr (Or.inl h)
  rcases List.mem_append.mp h with h | h
  · exact Or.inr (Or.inr (Or.inl h))
  rcases List.mem_append.mp h with h | h
  · exact Or.inr (Or.inr (Or.inr (Or.inl h)))
  rcases List.mem_append.mp h with h | h
  · exact Or.inr (Or.inr (Or.inr (Or.inr (Or.inl h))))
  · exact Or.inr (Or.inr (Or.inr (Or.inr (Or.inr h))))
theorem refOps_sub : (refOps : List (HloOp τ sig (Elt F))).Forall fun op => op.bufs ⊆ tcRefs τ sig :=
  List.forall_iff_forall_mem.mpr fun op h => by
    rcases mem_refOps h with h | h | h | h | h | h
    · exact (List.forall_iff_forall_mem.mp refPre_sub) op h
    · exact (List.forall_iff_forall_mem.mp refLayer0_sub) op h
    · exact (List.forall_iff_forall_mem.mp refLayer1_sub) op h
    · exact (List.forall_iff_forall_mem.mp refLayer2_sub) op h
    · exact (List.forall_iff_forall_mem.mp refLayer3_sub) op h
    · exact (List.forall_iff_forall_mem.mp refLayer4_sub) op h
theorem refOps_fresh : ∀ op ∈ (refOps : List (HloOp τ sig (Elt F))), op.fresh = ∅ := fun op h => by
  rcases mem_refOps h with h | h | h | h | h | h
  · exact (List.forall_iff_forall_mem.mp refPre_fresh) op h
  · exact (List.forall_iff_forall_mem.mp refLayer0_fresh) op h
  · exact (List.forall_iff_forall_mem.mp refLayer1_fresh) op h
  · exact (List.forall_iff_forall_mem.mp refLayer2_fresh) op h
  · exact (List.forall_iff_forall_mem.mp refLayer3_fresh) op h
  · exact (List.forall_iff_forall_mem.mp refLayer4_fresh) op h

/-- The buffer contents after the whole program: the pieces folded in order. -/
theorem after_refOps (V : Valuation τ sig (Elt F)) :
    after refOps V = after refLayer4 (after refLayer3 (after refLayer2 (after refLayer1 (after refLayer0 (after refPre V))))) := by
  simp only [refOps, Cert.Lib.RunPieces.after_append]

/-- From any memory with zero counters every weakly fair execution of the reference terminates, nothing faulting, with
    every buffer at the fold of its operations over the launch contents. -/
theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_seq scopedRefs_eq scopedSems_eq defs main (fun _ => refOps) main_eq (fun _ => refOps_sub) m ρ (fun _ => refOps_fresh)

/-- No piece writes an argument: an argument's buffer holds its launch contents after the whole program. -/
theorem after_refOps_arg (V : Valuation τ sig (Elt F)) (r : Ref sig .tc)
    (h0 : r ∉ refPre_W) (h1 : r ∉ refLayer0_W) (h2 : r ∉ refLayer1_W) (h3 : r ∉ refLayer2_W) (h4 : r ∉ refLayer3_W) (h5 : r ∉ refLayer4_W) :
    after refOps V (Proc.devRef .tc r) = V (Proc.devRef .tc r) := by
  rw [after_refOps, after_of_writes_sub refLayer4 _ refLayer4_writes h5, after_of_writes_sub refLayer3 _ refLayer3_writes h4,
    after_of_writes_sub refLayer2 _ refLayer2_writes h3, after_of_writes_sub refLayer1 _ refLayer1_writes h2,
    after_of_writes_sub refLayer0 _ refLayer0_writes h1, after_of_writes_sub refPre _ refPre_writes h0]

end Cert.ReferenceIdeal.Hand

end
-- ==== Proof.Val.RefFrame.lean ====
/-
  The reference's frame: it runs to the end, faults nowhere, and every argument array ends holding its launch contents,
  since the run leaves each buffer at the fold of the program's operations and no operation writes an argument.
-/
import proofs.«118775_j16338055594318_1_alg».proof.Proof.Val.RefOps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ref_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c main_arg0).trans (after_refOps_arg _ _ (by decide) (by decide) (by decide) (by decide) (by decide) (by decide)),
    (h c main_arg1).trans (after_refOps_arg _ _ (by decide) (by decide) (by decide) (by decide) (by decide) (by decide)),
    (h c main_arg2).trans (after_refOps_arg _ _ (by decide) (by decide) (by decide) (by decide) (by decide) (by decide)),
    (h c main_arg3).trans (after_refOps_arg _ _ (by decide) (by decide) (by decide) (by decide) (by decide) (by decide)),
    (h c main_arg4).trans (after_refOps_arg _ _ (by decide) (by decide) (by decide) (by decide) (by decide) (by decide)),
    (h c main_arg5).trans (after_refOps_arg _ _ (by decide) (by decide) (by decide) (by decide) (by decide) (by decide)),
    (h c main_arg6).trans (after_refOps_arg _ _ (by decide) (by decide) (by decide) (by decide) (by decide) (by decide)),
    (h c main_arg7).trans (after_refOps_arg _ _ (by decide) (by decide) (by decide) (by decide) (by decide) (by decide)),
    (h c main_arg8).trans (after_refOps_arg _ _ (by decide) (by decide) (by decide) (by decide) (by decide) (by decide)),
    (h c main_arg9).trans (after_refOps_arg _ _ (by decide) (by decide) (by decide) (by decide) (by decide) (by decide)),
    (h c main_arg10).trans (after_refOps_arg _ _ (by decide) (by decide) (by decide) (by decide) (by decide) (by decide)),
    (h c main_arg11).trans (after_refOps_arg _ _ (by decide) (by decide) (by decide) (by decide) (by decide) (by decide)),
    (h c main_arg12).trans (after_refOps_arg _ _ (by decide) (by decide) (by decide) (by decide) (by decide) (by decide))⟩) (ref_run m ρ)

end Cert.ReferenceIdeal.Hand

end
-- ==== Proof.Val.Keep.lean ====
/-
  What the run's items leave alone: an argument array holds its launch contents at every boundary of the run, and the
  edge lists built by the first stretch (sources, destinations and the two edge attributes, each with its self loops) hold
  what that stretch left at every later boundary — no later operation writes them and no region has them as a window.
-/
import proofs.«118775_j16338055594318_1_alg».proof.Proof.KI.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ) (ρ : Dev nD → PrngReg)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) := (W1_of m ρ c main_arg3 (by decide)).trans (W0_arg3 m ρ c)
theorem W2_arg3 (c : Dev nD) : W2 m ρ c (Proc.devRef .tc main_arg3) = m ((c : Thread nD τ).loc main_arg3) := (W2_of_ne m ρ c main_arg3 (by decide)).trans (W1_arg3 m ρ c)
theorem W3_arg3 (c : Dev nD) : W3 m ρ c (Proc.devRef .tc main_arg3) = m ((c : Thread nD τ).loc main_arg3) := (W3_of m ρ c main_arg3 (by decide)).trans (W2_arg3 m ρ c)
theorem W4_arg3 (c : Dev nD) : W4 m ρ c (Proc.devRef .tc main_arg3) = m ((c : Thread nD τ).loc main_arg3) := (W4_of_ne m ρ c main_arg3 (by decide)).trans (W3_arg3 m ρ c)
theorem W5_arg3 (c : Dev nD) : W5 m ρ c (Proc.devRef .tc main_arg3) = m ((c : Thread nD τ).loc main_arg3) := (W5_of m ρ c main_arg3 (by decide)).trans (W4_arg3 m ρ c)
theorem W6_arg3 (c : Dev nD) : W6 m ρ c (Proc.devRef .tc main_arg3) = m ((c : Thread nD τ).loc main_arg3) := (W6_of_ne m ρ c main_arg3 (by decide)).trans (W5_arg3 m ρ c)
theorem W7_arg3 (c : Dev nD) : W7 m ρ c (Proc.devRef .tc main_arg3) = m ((c : Thread nD τ).loc main_arg3) := (W7_of m ρ c main_arg3 (by decide)).trans (W6_arg3 m ρ c)
theorem W8_arg3 (c : Dev nD) : W8 m ρ c (Proc.devRef .tc main_arg3) = m ((c : Thread nD τ).loc main_arg3) := (W8_of_ne m ρ c main_arg3 (by decide)).trans (W7_arg3 m ρ c)
theorem W9_arg3 (c : Dev nD) : W9 m ρ c (Proc.devRef .tc main_arg3) = m ((c : Thread nD τ).loc main_arg3) := (W9_of m ρ c main_arg3 (by decide)).trans (W8_arg3 m ρ c)
theorem W10_arg3 (c : Dev nD) : W10 m ρ c (Proc.devRef .tc main_arg3) = m ((c : Thread nD τ).loc main_arg3) := (W10_of_ne m ρ c main_arg3 (by decide)).trans (W9_arg3 m ρ c)
theorem W11_arg3 (c : Dev nD) : W11 m ρ c (Proc.devRef .tc main_arg3) = m ((c : Thread nD τ).loc main_arg3) := (W11_of m ρ c main_arg3 (by decide)).trans (W10_arg3 m ρ c)
theorem W12_arg3 (c : Dev nD) : W12 m ρ c (Proc.devRef .tc main_arg3) = m ((c : Thread nD τ).loc main_arg3) := (W12_of_ne m ρ c main_arg3 (by decide)).trans (W11_arg3 m ρ c)
theorem W13_arg3 (c : Dev nD) : W13 m ρ c (Proc.devRef .tc main_arg3) = m ((c : Thread nD τ).loc main_arg3) := (W13_of m ρ c main_arg3 (by decide)).trans (W12_arg3 m ρ c)
theorem W14_arg3 (c : Dev nD) : W14 m ρ c (Proc.devRef .tc main_arg3) = m ((c : Thread nD τ).loc main_arg3) := (W14_of_ne m ρ c main_arg3 (by decide)).trans (W13_arg3 m ρ c)
theorem W15_arg3 (c : Dev nD) : W15 m ρ c (Proc.devRef .tc main_arg3) = m ((c : Thread nD τ).loc main_arg3) := (W15_of m ρ c main_arg3 (by decide)).trans (W14_arg3 m ρ c)
theorem W16_arg3 (c : Dev nD) : W16 m ρ c (Proc.devRef .tc main_arg3) = m ((c : Thread nD τ).loc main_arg3) := (W16_of_ne m ρ c main_arg3 (by decide)).trans (W15_arg3 m ρ c)
theorem W17_arg3 (c : Dev nD) : W17 m ρ c (Proc.devRef .tc main_arg3) = m ((c : Thread nD τ).loc main_arg3) := (W17_of m ρ c main_arg3 (by decide)).trans (W16_arg3 m ρ c)
theorem W18_arg3 (c : Dev nD) : W18 m ρ c (Proc.devRef .tc main_arg3) = m ((c : Thread nD τ).loc main_arg3) := (W18_of_ne m ρ c main_arg3 (by decide)).trans (W17_arg3 m ρ c)
theorem W19_arg3 (c : Dev nD) : W19 m ρ c (Proc.devRef .tc main_arg3) = m ((c : Thread nD τ).loc main_arg3) := (W19_of m ρ c main_arg3 (by decide)).trans (W18_arg3 m ρ c)
theorem W20_arg3 (c : Dev nD) : W20 m ρ c (Proc.devRef .tc main_arg3) = m ((c : Thread nD τ).loc main_arg3) := (W20_of_ne m ρ c main_arg3 (by decide)).trans (W19_arg3 m ρ c)
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) := (W1_of m ρ c main_arg4 (by decide)).trans (W0_arg4 m ρ c)
theorem W2_arg4 (c : Dev nD) : W2 m ρ c (Proc.devRef .tc main_arg4) = m ((c : Thread nD τ).loc main_arg4) := (W2_of_ne m ρ c main_arg4 (by decide)).trans (W1_arg4 m ρ c)
theorem W3_arg4 (c : Dev nD) : W3 m ρ c (Proc.devRef .tc main_arg4) = m ((c : Thread nD τ).loc main_arg4) := (W3_of m ρ c main_arg4 (by decide)).trans (W2_arg4 m ρ c)
theorem W4_arg4 (c : Dev nD) : W4 m ρ c (Proc.devRef .tc main_arg4) = m ((c : Thread nD τ).loc main_arg4) := (W4_of_ne m ρ c main_arg4 (by decide)).trans (W3_arg4 m ρ c)
theorem W5_arg4 (c : Dev nD) : W5 m ρ c (Proc.devRef .tc main_arg4) = m ((c : Thread nD τ).loc main_arg4) := (W5_of m ρ c main_arg4 (by decide)).trans (W4_arg4 m ρ c)
theorem W6_arg4 (c : Dev nD) : W6 m ρ c (Proc.devRef .tc main_arg4) = m ((c : Thread nD τ).loc main_arg4) := (W6_of_ne m ρ c main_arg4 (by decide)).trans (W5_arg4 m ρ c)
theorem W7_arg4 (c : Dev nD) : W7 m ρ c (Proc.devRef .tc main_arg4) = m ((c : Thread nD τ).loc main_arg4) := (W7_of m ρ c main_arg4 (by decide)).trans (W6_arg4 m ρ c)
theorem W8_arg4 (c : Dev nD) : W8 m ρ c (Proc.devRef .tc main_arg4) = m ((c : Thread nD τ).loc main_arg4) := (W8_of_ne m ρ c main_arg4 (by decide)).trans (W7_arg4 m ρ c)
theorem W9_arg4 (c : Dev nD) : W9 m ρ c (Proc.devRef .tc main_arg4) = m ((c : Thread nD τ).loc main_arg4) := (W9_of m ρ c main_arg4 (by decide)).trans (W8_arg4 m ρ c)
theorem W10_arg4 (c : Dev nD) : W10 m ρ c (Proc.devRef .tc main_arg4) = m ((c : Thread nD τ).loc main_arg4) := (W10_of_ne m ρ c main_arg4 (by decide)).trans (W9_arg4 m ρ c)
theorem W11_arg4 (c : Dev nD) : W11 m ρ c (Proc.devRef .tc main_arg4) = m ((c : Thread nD τ).loc main_arg4) := (W11_of m ρ c main_arg4 (by decide)).trans (W10_arg4 m ρ c)
theorem W12_arg4 (c : Dev nD) : W12 m ρ c (Proc.devRef .tc main_arg4) = m ((c : Thread nD τ).loc main_arg4) := (W12_of_ne m ρ c main_arg4 (by decide)).trans (W11_arg4 m ρ c)
theorem W13_arg4 (c : Dev nD) : W13 m ρ c (Proc.devRef .tc main_arg4) = m ((c : Thread nD τ).loc main_arg4) := (W13_of m ρ c main_arg4 (by decide)).trans (W12_arg4 m ρ c)
theorem W14_arg4 (c : Dev nD) : W14 m ρ c (Proc.devRef .tc main_arg4) = m ((c : Thread nD τ).loc main_arg4) := (W14_of_ne m ρ c main_arg4 (by decide)).trans (W13_arg4 m ρ c)
theorem W15_arg4 (c : Dev nD) : W15 m ρ c (Proc.devRef .tc main_arg4) = m ((c : Thread nD τ).loc main_arg4) := (W15_of m ρ c main_arg4 (by decide)).trans (W14_arg4 m ρ c)
theorem W16_arg4 (c : Dev nD) : W16 m ρ c (Proc.devRef .tc main_arg4) = m ((c : Thread nD τ).loc main_arg4) := (W16_of_ne m ρ c main_arg4 (by decide)).trans (W15_arg4 m ρ c)
theorem W17_arg4 (c : Dev nD) : W17 m ρ c (Proc.devRef .tc main_arg4) = m ((c : Thread nD τ).loc main_arg4) := (W17_of m ρ c main_arg4 (by decide)).trans (W16_arg4 m ρ c)
theorem W18_arg4 (c : Dev nD) : W18 m ρ c (Proc.devRef .tc main_arg4) = m ((c : Thread nD τ).loc main_arg4) := (W18_of_ne m ρ c main_arg4 (by decide)).trans (W17_arg4 m ρ c)
theorem W19_arg4 (c : Dev nD) : W19 m ρ c (Proc.devRef .tc main_arg4) = m ((c : Thread nD τ).loc main_arg4) := (W19_of m ρ c main_arg4 (by decide)).trans (W18_arg4 m ρ c)
theorem W20_arg4 (c : Dev nD) : W20 m ρ c (Proc.devRef .tc main_arg4) = m ((c : Thread nD τ).loc main_arg4) := (W20_of_ne m ρ c main_arg4 (by decide)).trans (W19_arg4 m ρ c)
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) := (W1_of m ρ c main_arg5 (by decide)).trans (W0_arg5 m ρ c)
theorem W2_arg5 (c : Dev nD) : W2 m ρ c (Proc.devRef .tc main_arg5) = m ((c : Thread nD τ).loc main_arg5) := (W2_of_ne m ρ c main_arg5 (by decide)).trans (W1_arg5 m ρ c)
theorem W3_arg5 (c : Dev nD) : W3 m ρ c (Proc.devRef .tc main_arg5) = m ((c : Thread nD τ).loc main_arg5) := (W3_of m ρ c main_arg5 (by decide)).trans (W2_arg5 m ρ c)
theorem W4_arg5 (c : Dev nD) : W4 m ρ c (Proc.devRef .tc main_arg5) = m ((c : Thread nD τ).loc main_arg5) := (W4_of_ne m ρ c main_arg5 (by decide)).trans (W3_arg5 m ρ c)
theorem W5_arg5 (c : Dev nD) : W5 m ρ c (Proc.devRef .tc main_arg5) = m ((c : Thread nD τ).loc main_arg5) := (W5_of m ρ c main_arg5 (by decide)).trans (W4_arg5 m ρ c)
theorem W6_arg5 (c : Dev nD) : W6 m ρ c (Proc.devRef .tc main_arg5) = m ((c : Thread nD τ).loc main_arg5) := (W6_of_ne m ρ c main_arg5 (by decide)).trans (W5_arg5 m ρ c)
theorem W7_arg5 (c : Dev nD) : W7 m ρ c (Proc.devRef .tc main_arg5) = m ((c : Thread nD τ).loc main_arg5) := (W7_of m ρ c main_arg5 (by decide)).trans (W6_arg5 m ρ c)
theorem W8_arg5 (c : Dev nD) : W8 m ρ c (Proc.devRef .tc main_arg5) = m ((c : Thread nD τ).loc main_arg5) := (W8_of_ne m ρ c main_arg5 (by decide)).trans (W7_arg5 m ρ c)
theorem W9_arg5 (c : Dev nD) : W9 m ρ c (Proc.devRef .tc main_arg5) = m ((c : Thread nD τ).loc main_arg5) := (W9_of m ρ c main_arg5 (by decide)).trans (W8_arg5 m ρ c)
theorem W10_arg5 (c : Dev nD) : W10 m ρ c (Proc.devRef .tc main_arg5) = m ((c : Thread nD τ).loc main_arg5) := (W10_of_ne m ρ c main_arg5 (by decide)).trans (W9_arg5 m ρ c)
theorem W11_arg5 (c : Dev nD) : W11 m ρ c (Proc.devRef .tc main_arg5) = m ((c : Thread nD τ).loc main_arg5) := (W11_of m ρ c main_arg5 (by decide)).trans (W10_arg5 m ρ c)
theorem W12_arg5 (c : Dev nD) : W12 m ρ c (Proc.devRef .tc main_arg5) = m ((c : Thread nD τ).loc main_arg5) := (W12_of_ne m ρ c main_arg5 (by decide)).trans (W11_arg5 m ρ c)
theorem W13_arg5 (c : Dev nD) : W13 m ρ c (Proc.devRef .tc main_arg5) = m ((c : Thread nD τ).loc main_arg5) := (W13_of m ρ c main_arg5 (by decide)).trans (W12_arg5 m ρ c)
theorem W14_arg5 (c : Dev nD) : W14 m ρ c (Proc.devRef .tc main_arg5) = m ((c : Thread nD τ).loc main_arg5) := (W14_of_ne m ρ c main_arg5 (by decide)).trans (W13_arg5 m ρ c)
theorem W15_arg5 (c : Dev nD) : W15 m ρ c (Proc.devRef .tc main_arg5) = m ((c : Thread nD τ).loc main_arg5) := (W15_of m ρ c main_arg5 (by decide)).trans (W14_arg5 m ρ c)
theorem W16_arg5 (c : Dev nD) : W16 m ρ c (Proc.devRef .tc main_arg5) = m ((c : Thread nD τ).loc main_arg5) := (W16_of_ne m ρ c main_arg5 (by decide)).trans (W15_arg5 m ρ c)
theorem W17_arg5 (c : Dev nD) : W17 m ρ c (Proc.devRef .tc main_arg5) = m ((c : Thread nD τ).loc main_arg5) := (W17_of m ρ c main_arg5 (by decide)).trans (W16_arg5 m ρ c)
theorem W18_arg5 (c : Dev nD) : W18 m ρ c (Proc.devRef .tc main_arg5) = m ((c : Thread nD τ).loc main_arg5) := (W18_of_ne m ρ c main_arg5 (by decide)).trans (W17_arg5 m ρ c)
theorem W19_arg5 (c : Dev nD) : W19 m ρ c (Proc.devRef .tc main_arg5) = m ((c : Thread nD τ).loc main_arg5) := (W19_of m ρ c main_arg5 (by decide)).trans (W18_arg5 m ρ c)
theorem W20_arg5 (c : Dev nD) : W20 m ρ c (Proc.devRef .tc main_arg5) = m ((c : Thread nD τ).loc main_arg5) := (W20_of_ne m ρ c main_arg5 (by decide)).trans (W19_arg5 m ρ c)
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) := (W1_of m ρ c main_arg6 (by decide)).trans (W0_arg6 m ρ c)
theorem W2_arg6 (c : Dev nD) : W2 m ρ c (Proc.devRef .tc main_arg6) = m ((c : Thread nD τ).loc main_arg6) := (W2_of_ne m ρ c main_arg6 (by decide)).trans (W1_arg6 m ρ c)
theorem W3_arg6 (c : Dev nD) : W3 m ρ c (Proc.devRef .tc main_arg6) = m ((c : Thread nD τ).loc main_arg6) := (W3_of m ρ c main_arg6 (by decide)).trans (W2_arg6 m ρ c)
theorem W4_arg6 (c : Dev nD) : W4 m ρ c (Proc.devRef .tc main_arg6) = m ((c : Thread nD τ).loc main_arg6) := (W4_of_ne m ρ c main_arg6 (by decide)).trans (W3_arg6 m ρ c)
theorem W5_arg6 (c : Dev nD) : W5 m ρ c (Proc.devRef .tc main_arg6) = m ((c : Thread nD τ).loc main_arg6) := (W5_of m ρ c main_arg6 (by decide)).trans (W4_arg6 m ρ c)
theorem W6_arg6 (c : Dev nD) : W6 m ρ c (Proc.devRef .tc main_arg6) = m ((c : Thread nD τ).loc main_arg6) := (W6_of_ne m ρ c main_arg6 (by decide)).trans (W5_arg6 m ρ c)
theorem W7_arg6 (c : Dev nD) : W7 m ρ c (Proc.devRef .tc main_arg6) = m ((c : Thread nD τ).loc main_arg6) := (W7_of m ρ c main_arg6 (by decide)).trans (W6_arg6 m ρ c)
theorem W8_arg6 (c : Dev nD) : W8 m ρ c (Proc.devRef .tc main_arg6) = m ((c : Thread nD τ).loc main_arg6) := (W8_of_ne m ρ c main_arg6 (by decide)).trans (W7_arg6 m ρ c)
theorem W9_arg6 (c : Dev nD) : W9 m ρ c (Proc.devRef .tc main_arg6) = m ((c : Thread nD τ).loc main_arg6) := (W9_of m ρ c main_arg6 (by decide)).trans (W8_arg6 m ρ c)
theorem W10_arg6 (c : Dev nD) : W10 m ρ c (Proc.devRef .tc main_arg6) = m ((c : Thread nD τ).loc main_arg6) := (W10_of_ne m ρ c main_arg6 (by decide)).trans (W9_arg6 m ρ c)
theorem W11_arg6 (c : Dev nD) : W11 m ρ c (Proc.devRef .tc main_arg6) = m ((c : Thread nD τ).loc main_arg6) := (W11_of m ρ c main_arg6 (by decide)).trans (W10_arg6 m ρ c)
theorem W12_arg6 (c : Dev nD) : W12 m ρ c (Proc.devRef .tc main_arg6) = m ((c : Thread nD τ).loc main_arg6) := (W12_of_ne m ρ c main_arg6 (by decide)).trans (W11_arg6 m ρ c)
theorem W13_arg6 (c : Dev nD) : W13 m ρ c (Proc.devRef .tc main_arg6) = m ((c : Thread nD τ).loc main_arg6) := (W13_of m ρ c main_arg6 (by decide)).trans (W12_arg6 m ρ c)
theorem W14_arg6 (c : Dev nD) : W14 m ρ c (Proc.devRef .tc main_arg6) = m ((c : Thread nD τ).loc main_arg6) := (W14_of_ne m ρ c main_arg6 (by decide)).trans (W13_arg6 m ρ c)
theorem W15_arg6 (c : Dev nD) : W15 m ρ c (Proc.devRef .tc main_arg6) = m ((c : Thread nD τ).loc main_arg6) := (W15_of m ρ c main_arg6 (by decide)).trans (W14_arg6 m ρ c)
theorem W16_arg6 (c : Dev nD) : W16 m ρ c (Proc.devRef .tc main_arg6) = m ((c : Thread nD τ).loc main_arg6) := (W16_of_ne m ρ c main_arg6 (by decide)).trans (W15_arg6 m ρ c)
theorem W17_arg6 (c : Dev nD) : W17 m ρ c (Proc.devRef .tc main_arg6) = m ((c : Thread nD τ).loc main_arg6) := (W17_of m ρ c main_arg6 (by decide)).trans (W16_arg6 m ρ c)
theorem W18_arg6 (c : Dev nD) : W18 m ρ c (Proc.devRef .tc main_arg6) = m ((c : Thread nD τ).loc main_arg6) := (W18_of_ne m ρ c main_arg6 (by decide)).trans (W17_arg6 m ρ c)
theorem W19_arg6 (c : Dev nD) : W19 m ρ c (Proc.devRef .tc main_arg6) = m ((c : Thread nD τ).loc main_arg6) := (W19_of m ρ c main_arg6 (by decide)).trans (W18_arg6 m ρ c)
theorem W20_arg6 (c : Dev nD) : W20 m ρ c (Proc.devRef .tc main_arg6) = m ((c : Thread nD τ).loc main_arg6) := (W20_of_ne m ρ c main_arg6 (by decide)).trans (W19_arg6 m ρ c)
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) := (W1_of m ρ c main_arg7 (by decide)).trans (W0_arg7 m ρ c)
theorem W2_arg7 (c : Dev nD) : W2 m ρ c (Proc.devRef .tc main_arg7) = m ((c : Thread nD τ).loc main_arg7) := (W2_of_ne m ρ c main_arg7 (by decide)).trans (W1_arg7 m ρ c)
theorem W3_arg7 (c : Dev nD) : W3 m ρ c (Proc.devRef .tc main_arg7) = m ((c : Thread nD τ).loc main_arg7) := (W3_of m ρ c main_arg7 (by decide)).trans (W2_arg7 m ρ c)
theorem W4_arg7 (c : Dev nD) : W4 m ρ c (Proc.devRef .tc main_arg7) = m ((c : Thread nD τ).loc main_arg7) := (W4_of_ne m ρ c main_arg7 (by decide)).trans (W3_arg7 m ρ c)
theorem W5_arg7 (c : Dev nD) : W5 m ρ c (Proc.devRef .tc main_arg7) = m ((c : Thread nD τ).loc main_arg7) := (W5_of m ρ c main_arg7 (by decide)).trans (W4_arg7 m ρ c)
theorem W6_arg7 (c : Dev nD) : W6 m ρ c (Proc.devRef .tc main_arg7) = m ((c : Thread nD τ).loc main_arg7) := (W6_of_ne m ρ c main_arg7 (by decide)).trans (W5_arg7 m ρ c)
theorem W7_arg7 (c : Dev nD) : W7 m ρ c (Proc.devRef .tc main_arg7) = m ((c : Thread nD τ).loc main_arg7) := (W7_of m ρ c main_arg7 (by decide)).trans (W6_arg7 m ρ c)
theorem W8_arg7 (c : Dev nD) : W8 m ρ c (Proc.devRef .tc main_arg7) = m ((c : Thread nD τ).loc main_arg7) := (W8_of_ne m ρ c main_arg7 (by decide)).trans (W7_arg7 m ρ c)
theorem W9_arg7 (c : Dev nD) : W9 m ρ c (Proc.devRef .tc main_arg7) = m ((c : Thread nD τ).loc main_arg7) := (W9_of m ρ c main_arg7 (by decide)).trans (W8_arg7 m ρ c)
theorem W10_arg7 (c : Dev nD) : W10 m ρ c (Proc.devRef .tc main_arg7) = m ((c : Thread nD τ).loc main_arg7) := (W10_of_ne m ρ c main_arg7 (by decide)).trans (W9_arg7 m ρ c)
theorem W11_arg7 (c : Dev nD) : W11 m ρ c (Proc.devRef .tc main_arg7) = m ((c : Thread nD τ).loc main_arg7) := (W11_of m ρ c main_arg7 (by decide)).trans (W10_arg7 m ρ c)
theorem W12_arg7 (c : Dev nD) : W12 m ρ c (Proc.devRef .tc main_arg7) = m ((c : Thread nD τ).loc main_arg7) := (W12_of_ne m ρ c main_arg7 (by decide)).trans (W11_arg7 m ρ c)
theorem W13_arg7 (c : Dev nD) : W13 m ρ c (Proc.devRef .tc main_arg7) = m ((c : Thread nD τ).loc main_arg7) := (W13_of m ρ c main_arg7 (by decide)).trans (W12_arg7 m ρ c)
theorem W14_arg7 (c : Dev nD) : W14 m ρ c (Proc.devRef .tc main_arg7) = m ((c : Thread nD τ).loc main_arg7) := (W14_of_ne m ρ c main_arg7 (by decide)).trans (W13_arg7 m ρ c)
theorem W15_arg7 (c : Dev nD) : W15 m ρ c (Proc.devRef .tc main_arg7) = m ((c : Thread nD τ).loc main_arg7) := (W15_of m ρ c main_arg7 (by decide)).trans (W14_arg7 m ρ c)
theorem W16_arg7 (c : Dev nD) : W16 m ρ c (Proc.devRef .tc main_arg7) = m ((c : Thread nD τ).loc main_arg7) := (W16_of_ne m ρ c main_arg7 (by decide)).trans (W15_arg7 m ρ c)
theorem W17_arg7 (c : Dev nD) : W17 m ρ c (Proc.devRef .tc main_arg7) = m ((c : Thread nD τ).loc main_arg7) := (W17_of m ρ c main_arg7 (by decide)).trans (W16_arg7 m ρ c)
theorem W18_arg7 (c : Dev nD) : W18 m ρ c (Proc.devRef .tc main_arg7) = m ((c : Thread nD τ).loc main_arg7) := (W18_of_ne m ρ c main_arg7 (by decide)).trans (W17_arg7 m ρ c)
theorem W19_arg7 (c : Dev nD) : W19 m ρ c (Proc.devRef .tc main_arg7) = m ((c : Thread nD τ).loc main_arg7) := (W19_of m ρ c main_arg7 (by decide)).trans (W18_arg7 m ρ c)
theorem W20_arg7 (c : Dev nD) : W20 m ρ c (Proc.devRef .tc main_arg7) = m ((c : Thread nD τ).loc main_arg7) := (W20_of_ne m ρ c main_arg7 (by decide)).trans (W19_arg7 m ρ c)
theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) := (W1_of m ρ c main_arg8 (by decide)).trans (W0_arg8 m ρ c)
theorem W2_arg8 (c : Dev nD) : W2 m ρ c (Proc.devRef .tc main_arg8) = m ((c : Thread nD τ).loc main_arg8) := (W2_of_ne m ρ c main_arg8 (by decide)).trans (W1_arg8 m ρ c)
theorem W3_arg8 (c : Dev nD) : W3 m ρ c (Proc.devRef .tc main_arg8) = m ((c : Thread nD τ).loc main_arg8) := (W3_of m ρ c main_arg8 (by decide)).trans (W2_arg8 m ρ c)
theorem W4_arg8 (c : Dev nD) : W4 m ρ c (Proc.devRef .tc main_arg8) = m ((c : Thread nD τ).loc main_arg8) := (W4_of_ne m ρ c main_arg8 (by decide)).trans (W3_arg8 m ρ c)
theorem W5_arg8 (c : Dev nD) : W5 m ρ c (Proc.devRef .tc main_arg8) = m ((c : Thread nD τ).loc main_arg8) := (W5_of m ρ c main_arg8 (by decide)).trans (W4_arg8 m ρ c)
theorem W6_arg8 (c : Dev nD) : W6 m ρ c (Proc.devRef .tc main_arg8) = m ((c : Thread nD τ).loc main_arg8) := (W6_of_ne m ρ c main_arg8 (by decide)).trans (W5_arg8 m ρ c)
theorem W7_arg8 (c : Dev nD) : W7 m ρ c (Proc.devRef .tc main_arg8) = m ((c : Thread nD τ).loc main_arg8) := (W7_of m ρ c main_arg8 (by decide)).trans (W6_arg8 m ρ c)
theorem W8_arg8 (c : Dev nD) : W8 m ρ c (Proc.devRef .tc main_arg8) = m ((c : Thread nD τ).loc main_arg8) := (W8_of_ne m ρ c main_arg8 (by decide)).trans (W7_arg8 m ρ c)
theorem W9_arg8 (c : Dev nD) : W9 m ρ c (Proc.devRef .tc main_arg8) = m ((c : Thread nD τ).loc main_arg8) := (W9_of m ρ c main_arg8 (by decide)).trans (W8_arg8 m ρ c)
theorem W10_arg8 (c : Dev nD) : W10 m ρ c (Proc.devRef .tc main_arg8) = m ((c : Thread nD τ).loc main_arg8) := (W10_of_ne m ρ c main_arg8 (by decide)).trans (W9_arg8 m ρ c)
theorem W11_arg8 (c : Dev nD) : W11 m ρ c (Proc.devRef .tc main_arg8) = m ((c : Thread nD τ).loc main_arg8) := (W11_of m ρ c main_arg8 (by decide)).trans (W10_arg8 m ρ c)
theorem W12_arg8 (c : Dev nD) : W12 m ρ c (Proc.devRef .tc main_arg8) = m ((c : Thread nD τ).loc main_arg8) := (W12_of_ne m ρ c main_arg8 (by decide)).trans (W11_arg8 m ρ c)
theorem W13_arg8 (c : Dev nD) : W13 m ρ c (Proc.devRef .tc main_arg8) = m ((c : Thread nD τ).loc main_arg8) := (W13_of m ρ c main_arg8 (by decide)).trans (W12_arg8 m ρ c)
theorem W14_arg8 (c : Dev nD) : W14 m ρ c (Proc.devRef .tc main_arg8) = m ((c : Thread nD τ).loc main_arg8) := (W14_of_ne m ρ c main_arg8 (by decide)).trans (W13_arg8 m ρ c)
theorem W15_arg8 (c : Dev nD) : W15 m ρ c (Proc.devRef .tc main_arg8) = m ((c : Thread nD τ).loc main_arg8) := (W15_of m ρ c main_arg8 (by decide)).trans (W14_arg8 m ρ c)
theorem W16_arg8 (c : Dev nD) : W16 m ρ c (Proc.devRef .tc main_arg8) = m ((c : Thread nD τ).loc main_arg8) := (W16_of_ne m ρ c main_arg8 (by decide)).trans (W15_arg8 m ρ c)
theorem W17_arg8 (c : Dev nD) : W17 m ρ c (Proc.devRef .tc main_arg8) = m ((c : Thread nD τ).loc main_arg8) := (W17_of m ρ c main_arg8 (by decide)).trans (W16_arg8 m ρ c)
theorem W18_arg8 (c : Dev nD) : W18 m ρ c (Proc.devRef .tc main_arg8) = m ((c : Thread nD τ).loc main_arg8) := (W18_of_ne m ρ c main_arg8 (by decide)).trans (W17_arg8 m ρ c)
theorem W19_arg8 (c : Dev nD) : W19 m ρ c (Proc.devRef .tc main_arg8) = m ((c : Thread nD τ).loc main_arg8) := (W19_of m ρ c main_arg8 (by decide)).trans (W18_arg8 m ρ c)
theorem W20_arg8 (c : Dev nD) : W20 m ρ c (Proc.devRef .tc main_arg8) = m ((c : Thread nD τ).loc main_arg8) := (W20_of_ne m ρ c main_arg8 (by decide)).trans (W19_arg8 m ρ c)
theorem W0_arg9 (c : Dev nD) : W0 m ρ c (Proc.devRef .tc main_arg9) = m ((c : Thread nD τ).loc main_arg9) := rfl
theorem W1_arg9 (c : Dev nD) : W1 m ρ c (Proc.devRef .tc main_arg9) = m ((c : Thread nD τ).loc main_arg9) := (W1_of m ρ c main_arg9 (by decide)).trans (W0_arg9 m ρ c)
theorem W2_arg9 (c : Dev nD) : W2 m ρ c (Proc.devRef .tc main_arg9) = m ((c : Thread nD τ).loc main_arg9) := (W2_of_ne m ρ c main_arg9 (by decide)).trans (W1_arg9 m ρ c)
theorem W3_arg9 (c : Dev nD) : W3 m ρ c (Proc.devRef .tc main_arg9) = m ((c : Thread nD τ).loc main_arg9) := (W3_of m ρ c main_arg9 (by decide)).trans (W2_arg9 m ρ c)
theorem W4_arg9 (c : Dev nD) : W4 m ρ c (Proc.devRef .tc main_arg9) = m ((c : Thread nD τ).loc main_arg9) := (W4_of_ne m ρ c main_arg9 (by decide)).trans (W3_arg9 m ρ c)
theorem W5_arg9 (c : Dev nD) : W5 m ρ c (Proc.devRef .tc main_arg9) = m ((c : Thread nD τ).loc main_arg9) := (W5_of m ρ c main_arg9 (by decide)).trans (W4_arg9 m ρ c)
theorem W6_arg9 (c : Dev nD) : W6 m ρ c (Proc.devRef .tc main_arg9) = m ((c : Thread nD τ).loc main_arg9) := (W6_of_ne m ρ c main_arg9 (by decide)).trans (W5_arg9 m ρ c)
theorem W7_arg9 (c : Dev nD) : W7 m ρ c (Proc.devRef .tc main_arg9) = m ((c : Thread nD τ).loc main_arg9) := (W7_of m ρ c main_arg9 (by decide)).trans (W6_arg9 m ρ c)
theorem W8_arg9 (c : Dev nD) : W8 m ρ c (Proc.devRef .tc main_arg9) = m ((c : Thread nD τ).loc main_arg9) := (W8_of_ne m ρ c main_arg9 (by decide)).trans (W7_arg9 m ρ c)
theorem W9_arg9 (c : Dev nD) : W9 m ρ c (Proc.devRef .tc main_arg9) = m ((c : Thread nD τ).loc main_arg9) := (W9_of m ρ c main_arg9 (by decide)).trans (W8_arg9 m ρ c)
theorem W10_arg9 (c : Dev nD) : W10 m ρ c (Proc.devRef .tc main_arg9) = m ((c : Thread nD τ).loc main_arg9) := (W10_of_ne m ρ c main_arg9 (by decide)).trans (W9_arg9 m ρ c)
theorem W11_arg9 (c : Dev nD) : W11 m ρ c (Proc.devRef .tc main_arg9) = m ((c : Thread nD τ).loc main_arg9) := (W11_of m ρ c main_arg9 (by decide)).trans (W10_arg9 m ρ c)
theorem W12_arg9 (c : Dev nD) : W12 m ρ c (Proc.devRef .tc main_arg9) = m ((c : Thread nD τ).loc main_arg9) := (W12_of_ne m ρ c main_arg9 (by decide)).trans (W11_arg9 m ρ c)
theorem W13_arg9 (c : Dev nD) : W13 m ρ c (Proc.devRef .tc main_arg9) = m ((c : Thread nD τ).loc main_arg9) := (W13_of m ρ c main_arg9 (by decide)).trans (W12_arg9 m ρ c)
theorem W14_arg9 (c : Dev nD) : W14 m ρ c (Proc.devRef .tc main_arg9) = m ((c : Thread nD τ).loc main_arg9) := (W14_of_ne m ρ c main_arg9 (by decide)).trans (W13_arg9 m ρ c)
theorem W15_arg9 (c : Dev nD) : W15 m ρ c (Proc.devRef .tc main_arg9) = m ((c : Thread nD τ).loc main_arg9) := (W15_of m ρ c main_arg9 (by decide)).trans (W14_arg9 m ρ c)
theorem W16_arg9 (c : Dev nD) : W16 m ρ c (Proc.devRef .tc main_arg9) = m ((c : Thread nD τ).loc main_arg9) := (W16_of_ne m ρ c main_arg9 (by decide)).trans (W15_arg9 m ρ c)
theorem W17_arg9 (c : Dev nD) : W17 m ρ c (Proc.devRef .tc main_arg9) = m ((c : Thread nD τ).loc main_arg9) := (W17_of m ρ c main_arg9 (by decide)).trans (W16_arg9 m ρ c)
theorem W18_arg9 (c : Dev nD) : W18 m ρ c (Proc.devRef .tc main_arg9) = m ((c : Thread nD τ).loc main_arg9) := (W18_of_ne m ρ c main_arg9 (by decide)).trans (W17_arg9 m ρ c)
theorem W19_arg9 (c : Dev nD) : W19 m ρ c (Proc.devRef .tc main_arg9) = m ((c : Thread nD τ).loc main_arg9) := (W19_of m ρ c main_arg9 (by decide)).trans (W18_arg9 m ρ c)
theorem W20_arg9 (c : Dev nD) : W20 m ρ c (Proc.devRef .tc main_arg9) = m ((c : Thread nD τ).loc main_arg9) := (W20_of_ne m ρ c main_arg9 (by decide)).trans (W19_arg9 m ρ c)
theorem W0_arg10 (c : Dev nD) : W0 m ρ c (Proc.devRef .tc main_arg10) = m ((c : Thread nD τ).loc main_arg10) := rfl
theorem W1_arg10 (c : Dev nD) : W1 m ρ c (Proc.devRef .tc main_arg10) = m ((c : Thread nD τ).loc main_arg10) := (W1_of m ρ c main_arg10 (by decide)).trans (W0_arg10 m ρ c)
theorem W2_arg10 (c : Dev nD) : W2 m ρ c (Proc.devRef .tc main_arg10) = m ((c : Thread nD τ).loc main_arg10) := (W2_of_ne m ρ c main_arg10 (by decide)).trans (W1_arg10 m ρ c)
theorem W3_arg10 (c : Dev nD) : W3 m ρ c (Proc.devRef .tc main_arg10) = m ((c : Thread nD τ).loc main_arg10) := (W3_of m ρ c main_arg10 (by decide)).trans (W2_arg10 m ρ c)
theorem W4_arg10 (c : Dev nD) : W4 m ρ c (Proc.devRef .tc main_arg10) = m ((c : Thread nD τ).loc main_arg10) := (W4_of_ne m ρ c main_arg10 (by decide)).trans (W3_arg10 m ρ c)
theorem W5_arg10 (c : Dev nD) : W5 m ρ c (Proc.devRef .tc main_arg10) = m ((c : Thread nD τ).loc main_arg10) := (W5_of m ρ c main_arg10 (by decide)).trans (W4_arg10 m ρ c)
theorem W6_arg10 (c : Dev nD) : W6 m ρ c (Proc.devRef .tc main_arg10) = m ((c : Thread nD τ).loc main_arg10) := (W6_of_ne m ρ c main_arg10 (by decide)).trans (W5_arg10 m ρ c)
theorem W7_arg10 (c : Dev nD) : W7 m ρ c (Proc.devRef .tc main_arg10) = m ((c : Thread nD τ).loc main_arg10) := (W7_of m ρ c main_arg10 (by decide)).trans (W6_arg10 m ρ c)
theorem W8_arg10 (c : Dev nD) : W8 m ρ c (Proc.devRef .tc main_arg10) = m ((c : Thread nD τ).loc main_arg10) := (W8_of_ne m ρ c main_arg10 (by decide)).trans (W7_arg10 m ρ c)
theorem W9_arg10 (c : Dev nD) : W9 m ρ c (Proc.devRef .tc main_arg10) = m ((c : Thread nD τ).loc main_arg10) := (W9_of m ρ c main_arg10 (by decide)).trans (W8_arg10 m ρ c)
theorem W10_arg10 (c : Dev nD) : W10 m ρ c (Proc.devRef .tc main_arg10) = m ((c : Thread nD τ).loc main_arg10) := (W10_of_ne m ρ c main_arg10 (by decide)).trans (W9_arg10 m ρ c)
theorem W11_arg10 (c : Dev nD) : W11 m ρ c (Proc.devRef .tc main_arg10) = m ((c : Thread nD τ).loc main_arg10) := (W11_of m ρ c main_arg10 (by decide)).trans (W10_arg10 m ρ c)
theorem W12_arg10 (c : Dev nD) : W12 m ρ c (Proc.devRef .tc main_arg10) = m ((c : Thread nD τ).loc main_arg10) := (W12_of_ne m ρ c main_arg10 (by decide)).trans (W11_arg10 m ρ c)
theorem W13_arg10 (c : Dev nD) : W13 m ρ c (Proc.devRef .tc main_arg10) = m ((c : Thread nD τ).loc main_arg10) := (W13_of m ρ c main_arg10 (by decide)).trans (W12_arg10 m ρ c)
theorem W14_arg10 (c : Dev nD) : W14 m ρ c (Proc.devRef .tc main_arg10) = m ((c : Thread nD τ).loc main_arg10) := (W14_of_ne m ρ c main_arg10 (by decide)).trans (W13_arg10 m ρ c)
theorem W15_arg10 (c : Dev nD) : W15 m ρ c (Proc.devRef .tc main_arg10) = m ((c : Thread nD τ).loc main_arg10) := (W15_of m ρ c main_arg10 (by decide)).trans (W14_arg10 m ρ c)
theorem W16_arg10 (c : Dev nD) : W16 m ρ c (Proc.devRef .tc main_arg10) = m ((c : Thread nD τ).loc main_arg10) := (W16_of_ne m ρ c main_arg10 (by decide)).trans (W15_arg10 m ρ c)
theorem W17_arg10 (c : Dev nD) : W17 m ρ c (Proc.devRef .tc main_arg10) = m ((c : Thread nD τ).loc main_arg10) := (W17_of m ρ c main_arg10 (by decide)).trans (W16_arg10 m ρ c)
theorem W18_arg10 (c : Dev nD) : W18 m ρ c (Proc.devRef .tc main_arg10) = m ((c : Thread nD τ).loc main_arg10) := (W18_of_ne m ρ c main_arg10 (by decide)).trans (W17_arg10 m ρ c)
theorem W19_arg10 (c : Dev nD) : W19 m ρ c (Proc.devRef .tc main_arg10) = m ((c : Thread nD τ).loc main_arg10) := (W19_of m ρ c main_arg10 (by decide)).trans (W18_arg10 m ρ c)
theorem W20_arg10 (c : Dev nD) : W20 m ρ c (Proc.devRef .tc main_arg10) = m ((c : Thread nD τ).loc main_arg10) := (W20_of_ne m ρ c main_arg10 (by decide)).trans (W19_arg10 m ρ c)
theorem W0_arg11 (c : Dev nD) : W0 m ρ c (Proc.devRef .tc main_arg11) = m ((c : Thread nD τ).loc main_arg11) := rfl
theorem W1_arg11 (c : Dev nD) : W1 m ρ c (Proc.devRef .tc main_arg11) = m ((c : Thread nD τ).loc main_arg11) := (W1_of m ρ c main_arg11 (by decide)).trans (W0_arg11 m ρ c)
theorem W2_arg11 (c : Dev nD) : W2 m ρ c (Proc.devRef .tc main_arg11) = m ((c : Thread nD τ).loc main_arg11) := (W2_of_ne m ρ c main_arg11 (by decide)).trans (W1_arg11 m ρ c)
theorem W3_arg11 (c : Dev nD) : W3 m ρ c (Proc.devRef .tc main_arg11) = m ((c : Thread nD τ).loc main_arg11) := (W3_of m ρ c main_arg11 (by decide)).trans (W2_arg11 m ρ c)
theorem W4_arg11 (c : Dev nD) : W4 m ρ c (Proc.devRef .tc main_arg11) = m ((c : Thread nD τ).loc main_arg11) := (W4_of_ne m ρ c main_arg11 (by decide)).trans (W3_arg11 m ρ c)
theorem W5_arg11 (c : Dev nD) : W5 m ρ c (Proc.devRef .tc main_arg11) = m ((c : Thread nD τ).loc main_arg11) := (W5_of m ρ c main_arg11 (by decide)).trans (W4_arg11 m ρ c)
theorem W6_arg11 (c : Dev nD) : W6 m ρ c (Proc.devRef .tc main_arg11) = m ((c : Thread nD τ).loc main_arg11) := (W6_of_ne m ρ c main_arg11 (by decide)).trans (W5_arg11 m ρ c)
theorem W7_arg11 (c : Dev nD) : W7 m ρ c (Proc.devRef .tc main_arg11) = m ((c : Thread nD τ).loc main_arg11) := (W7_of m ρ c main_arg11 (by decide)).trans (W6_arg11 m ρ c)
theorem W8_arg11 (c : Dev nD) : W8 m ρ c (Proc.devRef .tc main_arg11) = m ((c : Thread nD τ).loc main_arg11) := (W8_of_ne m ρ c main_arg11 (by decide)).trans (W7_arg11 m ρ c)
theorem W9_arg11 (c : Dev nD) : W9 m ρ c (Proc.devRef .tc main_arg11) = m ((c : Thread nD τ).loc main_arg11) := (W9_of m ρ c main_arg11 (by decide)).trans (W8_arg11 m ρ c)
theorem W10_arg11 (c : Dev nD) : W10 m ρ c (Proc.devRef .tc main_arg11) = m ((c : Thread nD τ).loc main_arg11) := (W10_of_ne m ρ c main_arg11 (by decide)).trans (W9_arg11 m ρ c)
theorem W11_arg11 (c : Dev nD) : W11 m ρ c (Proc.devRef .tc main_arg11) = m ((c : Thread nD τ).loc main_arg11) := (W11_of m ρ c main_arg11 (by decide)).trans (W10_arg11 m ρ c)
theorem W12_arg11 (c : Dev nD) : W12 m ρ c (Proc.devRef .tc main_arg11) = m ((c : Thread nD τ).loc main_arg11) := (W12_of_ne m ρ c main_arg11 (by decide)).trans (W11_arg11 m ρ c)
theorem W13_arg11 (c : Dev nD) : W13 m ρ c (Proc.devRef .tc main_arg11) = m ((c : Thread nD τ).loc main_arg11) := (W13_of m ρ c main_arg11 (by decide)).trans (W12_arg11 m ρ c)
theorem W14_arg11 (c : Dev nD) : W14 m ρ c (Proc.devRef .tc main_arg11) = m ((c : Thread nD τ).loc main_arg11) := (W14_of_ne m ρ c main_arg11 (by decide)).trans (W13_arg11 m ρ c)
theorem W15_arg11 (c : Dev nD) : W15 m ρ c (Proc.devRef .tc main_arg11) = m ((c : Thread nD τ).loc main_arg11) := (W15_of m ρ c main_arg11 (by decide)).trans (W14_arg11 m ρ c)
theorem W16_arg11 (c : Dev nD) : W16 m ρ c (Proc.devRef .tc main_arg11) = m ((c : Thread nD τ).loc main_arg11) := (W16_of_ne m ρ c main_arg11 (by decide)).trans (W15_arg11 m ρ c)
theorem W17_arg11 (c : Dev nD) : W17 m ρ c (Proc.devRef .tc main_arg11) = m ((c : Thread nD τ).loc main_arg11) := (W17_of m ρ c main_arg11 (by decide)).trans (W16_arg11 m ρ c)
theorem W18_arg11 (c : Dev nD) : W18 m ρ c (Proc.devRef .tc main_arg11) = m ((c : Thread nD τ).loc main_arg11) := (W18_of_ne m ρ c main_arg11 (by decide)).trans (W17_arg11 m ρ c)
theorem W19_arg11 (c : Dev nD) : W19 m ρ c (Proc.devRef .tc main_arg11) = m ((c : Thread nD τ).loc main_arg11) := (W19_of m ρ c main_arg11 (by decide)).trans (W18_arg11 m ρ c)
theorem W20_arg11 (c : Dev nD) : W20 m ρ c (Proc.devRef .tc main_arg11) = m ((c : Thread nD τ).loc main_arg11) := (W20_of_ne m ρ c main_arg11 (by decide)).trans (W19_arg11 m ρ c)
theorem W0_arg12 (c : Dev nD) : W0 m ρ c (Proc.devRef .tc main_arg12) = m ((c : Thread nD τ).loc main_arg12) := rfl
theorem W1_arg12 (c : Dev nD) : W1 m ρ c (Proc.devRef .tc main_arg12) = m ((c : Thread nD τ).loc main_arg12) := (W1_of m ρ c main_arg12 (by decide)).trans (W0_arg12 m ρ c)
theorem W2_arg12 (c : Dev nD) : W2 m ρ c (Proc.devRef .tc main_arg12) = m ((c : Thread nD τ).loc main_arg12) := (W2_of_ne m ρ c main_arg12 (by decide)).trans (W1_arg12 m ρ c)
theorem W3_arg12 (c : Dev nD) : W3 m ρ c (Proc.devRef .tc main_arg12) = m ((c : Thread nD τ).loc main_arg12) := (W3_of m ρ c main_arg12 (by decide)).trans (W2_arg12 m ρ c)
theorem W4_arg12 (c : Dev nD) : W4 m ρ c (Proc.devRef .tc main_arg12) = m ((c : Thread nD τ).loc main_arg12) := (W4_of_ne m ρ c main_arg12 (by decide)).trans (W3_arg12 m ρ c)
theorem W5_arg12 (c : Dev nD) : W5 m ρ c (Proc.devRef .tc main_arg12) = m ((c : Thread nD τ).loc main_arg12) := (W5_of m ρ c main_arg12 (by decide)).trans (W4_arg12 m ρ c)
theorem W6_arg12 (c : Dev nD) : W6 m ρ c (Proc.devRef .tc main_arg12) = m ((c : Thread nD τ).loc main_arg12) := (W6_of_ne m ρ c main_arg12 (by decide)).trans (W5_arg12 m ρ c)
theorem W7_arg12 (c : Dev nD) : W7 m ρ c (Proc.devRef .tc main_arg12) = m ((c : Thread nD τ).loc main_arg12) := (W7_of m ρ c main_arg12 (by decide)).trans (W6_arg12 m ρ c)
theorem W8_arg12 (c : Dev nD) : W8 m ρ c (Proc.devRef .tc main_arg12) = m ((c : Thread nD τ).loc main_arg12) := (W8_of_ne m ρ c main_arg12 (by decide)).trans (W7_arg12 m ρ c)
theorem W9_arg12 (c : Dev nD) : W9 m ρ c (Proc.devRef .tc main_arg12) = m ((c : Thread nD τ).loc main_arg12) := (W9_of m ρ c main_arg12 (by decide)).trans (W8_arg12 m ρ c)
theorem W10_arg12 (c : Dev nD) : W10 m ρ c (Proc.devRef .tc main_arg12) = m ((c : Thread nD τ).loc main_arg12) := (W10_of_ne m ρ c main_arg12 (by decide)).trans (W9_arg12 m ρ c)
theorem W11_arg12 (c : Dev nD) : W11 m ρ c (Proc.devRef .tc main_arg12) = m ((c : Thread nD τ).loc main_arg12) := (W11_of m ρ c main_arg12 (by decide)).trans (W10_arg12 m ρ c)
theorem W12_arg12 (c : Dev nD) : W12 m ρ c (Proc.devRef .tc main_arg12) = m ((c : Thread nD τ).loc main_arg12) := (W12_of_ne m ρ c main_arg12 (by decide)).trans (W11_arg12 m ρ c)
theorem W13_arg12 (c : Dev nD) : W13 m ρ c (Proc.devRef .tc main_arg12) = m ((c : Thread nD τ).loc main_arg12) := (W13_of m ρ c main_arg12 (by decide)).trans (W12_arg12 m ρ c)
theorem W14_arg12 (c : Dev nD) : W14 m ρ c (Proc.devRef .tc main_arg12) = m ((c : Thread nD τ).loc main_arg12) := (W14_of_ne m ρ c main_arg12 (by decide)).trans (W13_arg12 m ρ c)
theorem W15_arg12 (c : Dev nD) : W15 m ρ c (Proc.devRef .tc main_arg12) = m ((c : Thread nD τ).loc main_arg12) := (W15_of m ρ c main_arg12 (by decide)).trans (W14_arg12 m ρ c)
theorem W16_arg12 (c : Dev nD) : W16 m ρ c (Proc.devRef .tc main_arg12) = m ((c : Thread nD τ).loc main_arg12) := (W16_of_ne m ρ c main_arg12 (by decide)).trans (W15_arg12 m ρ c)
theorem W17_arg12 (c : Dev nD) : W17 m ρ c (Proc.devRef .tc main_arg12) = m ((c : Thread nD τ).loc main_arg12) := (W17_of m ρ c main_arg12 (by decide)).trans (W16_arg12 m ρ c)
theorem W18_arg12 (c : Dev nD) : W18 m ρ c (Proc.devRef .tc main_arg12) = m ((c : Thread nD τ).loc main_arg12) := (W18_of_ne m ρ c main_arg12 (by decide)).trans (W17_arg12 m ρ c)
theorem W19_arg12 (c : Dev nD) : W19 m ρ c (Proc.devRef .tc main_arg12) = m ((c : Thread nD τ).loc main_arg12) := (W19_of m ρ c main_arg12 (by decide)).trans (W18_arg12 m ρ c)
theorem W20_arg12 (c : Dev nD) : W20 m ρ c (Proc.devRef .tc main_arg12) = m ((c : Thread nD τ).loc main_arg12) := (W20_of_ne m ρ c main_arg12 (by decide)).trans (W19_arg12 m ρ c)
theorem W2_src (c : Dev nD) : W2 m ρ c (Proc.devRef .tc main_v22) = W1 m ρ c (Proc.devRef .tc main_v22) := (W2_of_ne m ρ c main_v22 (by decide)).trans (rfl)
theorem W3_src (c : Dev nD) : W3 m ρ c (Proc.devRef .tc main_v22) = W1 m ρ c (Proc.devRef .tc main_v22) := (W3_of m ρ c main_v22 (by decide)).trans (W2_src m ρ c)
theorem W4_src (c : Dev nD) : W4 m ρ c (Proc.devRef .tc main_v22) = W1 m ρ c (Proc.devRef .tc main_v22) := (W4_of_ne m ρ c main_v22 (by decide)).trans (W3_src m ρ c)
theorem W5_src (c : Dev nD) : W5 m ρ c (Proc.devRef .tc main_v22) = W1 m ρ c (Proc.devRef .tc main_v22) := (W5_of m ρ c main_v22 (by decide)).trans (W4_src m ρ c)
theorem W6_src (c : Dev nD) : W6 m ρ c (Proc.devRef .tc main_v22) = W1 m ρ c (Proc.devRef .tc main_v22) := (W6_of_ne m ρ c main_v22 (by decide)).trans (W5_src m ρ c)
theorem W7_src (c : Dev nD) : W7 m ρ c (Proc.devRef .tc main_v22) = W1 m ρ c (Proc.devRef .tc main_v22) := (W7_of m ρ c main_v22 (by decide)).trans (W6_src m ρ c)
theorem W8_src (c : Dev nD) : W8 m ρ c (Proc.devRef .tc main_v22) = W1 m ρ c (Proc.devRef .tc main_v22) := (W8_of_ne m ρ c main_v22 (by decide)).trans (W7_src m ρ c)
theorem W9_src (c : Dev nD) : W9 m ρ c (Proc.devRef .tc main_v22) = W1 m ρ c (Proc.devRef .tc main_v22) := (W9_of m ρ c main_v22 (by decide)).trans (W8_src m ρ c)
theorem W10_src (c : Dev nD) : W10 m ρ c (Proc.devRef .tc main_v22) = W1 m ρ c (Proc.devRef .tc main_v22) := (W10_of_ne m ρ c main_v22 (by decide)).trans (W9_src m ρ c)
theorem W11_src (c : Dev nD) : W11 m ρ c (Proc.devRef .tc main_v22) = W1 m ρ c (Proc.devRef .tc main_v22) := (W11_of m ρ c main_v22 (by decide)).trans (W10_src m ρ c)
theorem W12_src (c : Dev nD) : W12 m ρ c (Proc.devRef .tc main_v22) = W1 m ρ c (Proc.devRef .tc main_v22) := (W12_of_ne m ρ c main_v22 (by decide)).trans (W11_src m ρ c)
theorem W13_src (c : Dev nD) : W13 m ρ c (Proc.devRef .tc main_v22) = W1 m ρ c (Proc.devRef .tc main_v22) := (W13_of m ρ c main_v22 (by decide)).trans (W12_src m ρ c)
theorem W14_src (c : Dev nD) : W14 m ρ c (Proc.devRef .tc main_v22) = W1 m ρ c (Proc.devRef .tc main_v22) := (W14_of_ne m ρ c main_v22 (by decide)).trans (W13_src m ρ c)
theorem W15_src (c : Dev nD) : W15 m ρ c (Proc.devRef .tc main_v22) = W1 m ρ c (Proc.devRef .tc main_v22) := (W15_of m ρ c main_v22 (by decide)).trans (W14_src m ρ c)
theorem W16_src (c : Dev nD) : W16 m ρ c (Proc.devRef .tc main_v22) = W1 m ρ c (Proc.devRef .tc main_v22) := (W16_of_ne m ρ c main_v22 (by decide)).trans (W15_src m ρ c)
theorem W2_dst (c : Dev nD) : W2 m ρ c (Proc.devRef .tc main_v25) = W1 m ρ c (Proc.devRef .tc main_v25) := (W2_of_ne m ρ c main_v25 (by decide)).trans (rfl)
theorem W3_dst (c : Dev nD) : W3 m ρ c (Proc.devRef .tc main_v25) = W1 m ρ c (Proc.devRef .tc main_v25) := (W3_of m ρ c main_v25 (by decide)).trans (W2_dst m ρ c)
theorem W4_dst (c : Dev nD) : W4 m ρ c (Proc.devRef .tc main_v25) = W1 m ρ c (Proc.devRef .tc main_v25) := (W4_of_ne m ρ c main_v25 (by decide)).trans (W3_dst m ρ c)
theorem W5_dst (c : Dev nD) : W5 m ρ c (Proc.devRef .tc main_v25) = W1 m ρ c (Proc.devRef .tc main_v25) := (W5_of m ρ c main_v25 (by decide)).trans (W4_dst m ρ c)
theorem W6_dst (c : Dev nD) : W6 m ρ c (Proc.devRef .tc main_v25) = W1 m ρ c (Proc.devRef .tc main_v25) := (W6_of_ne m ρ c main_v25 (by decide)).trans (W5_dst m ρ c)
theorem W7_dst (c : Dev nD) : W7 m ρ c (Proc.devRef .tc main_v25) = W1 m ρ c (Proc.devRef .tc main_v25) := (W7_of m ρ c main_v25 (by decide)).trans (W6_dst m ρ c)
theorem W8_dst (c : Dev nD) : W8 m ρ c (Proc.devRef .tc main_v25) = W1 m ρ c (Proc.devRef .tc main_v25) := (W8_of_ne m ρ c main_v25 (by decide)).trans (W7_dst m ρ c)
theorem W9_dst (c : Dev nD) : W9 m ρ c (Proc.devRef .tc main_v25) = W1 m ρ c (Proc.devRef .tc main_v25) := (W9_of m ρ c main_v25 (by decide)).trans (W8_dst m ρ c)
theorem W10_dst (c : Dev nD) : W10 m ρ c (Proc.devRef .tc main_v25) = W1 m ρ c (Proc.devRef .tc main_v25) := (W10_of_ne m ρ c main_v25 (by decide)).trans (W9_dst m ρ c)
theorem W11_dst (c : Dev nD) : W11 m ρ c (Proc.devRef .tc main_v25) = W1 m ρ c (Proc.devRef .tc main_v25) := (W11_of m ρ c main_v25 (by decide)).trans (W10_dst m ρ c)
theorem W12_dst (c : Dev nD) : W12 m ρ c (Proc.devRef .tc main_v25) = W1 m ρ c (Proc.devRef .tc main_v25) := (W12_of_ne m ρ c main_v25 (by decide)).trans (W11_dst m ρ c)
theorem W13_dst (c : Dev nD) : W13 m ρ c (Proc.devRef .tc main_v25) = W1 m ρ c (Proc.devRef .tc main_v25) := (W13_of m ρ c main_v25 (by decide)).trans (W12_dst m ρ c)
theorem W14_dst (c : Dev nD) : W14 m ρ c (Proc.devRef .tc main_v25) = W1 m ρ c (Proc.devRef .tc main_v25) := (W14_of_ne m ρ c main_v25 (by decide)).trans (W13_dst m ρ c)
theorem W15_dst (c : Dev nD) : W15 m ρ c (Proc.devRef .tc main_v25) = W1 m ρ c (Proc.devRef .tc main_v25) := (W15_of m ρ c main_v25 (by decide)).trans (W14_dst m ρ c)
theorem W16_dst (c : Dev nD) : W16 m ρ c (Proc.devRef .tc main_v25) = W1 m ρ c (Proc.devRef .tc main_v25) := (W16_of_ne m ρ c main_v25 (by decide)).trans (W15_dst m ρ c)
theorem W2_ea0 (c : Dev nD) : W2 m ρ c (Proc.devRef .tc main_v29) = W1 m ρ c (Proc.devRef .tc main_v29) := (W2_of_ne m ρ c main_v29 (by decide)).trans (rfl)
theorem W3_ea0 (c : Dev nD) : W3 m ρ c (Proc.devRef .tc main_v29) = W1 m ρ c (Proc.devRef .tc main_v29) := (W3_of m ρ c main_v29 (by decide)).trans (W2_ea0 m ρ c)
theorem W4_ea0 (c : Dev nD) : W4 m ρ c (Proc.devRef .tc main_v29) = W1 m ρ c (Proc.devRef .tc main_v29) := (W4_of_ne m ρ c main_v29 (by decide)).trans (W3_ea0 m ρ c)
theorem W5_ea0 (c : Dev nD) : W5 m ρ c (Proc.devRef .tc main_v29) = W1 m ρ c (Proc.devRef .tc main_v29) := (W5_of m ρ c main_v29 (by decide)).trans (W4_ea0 m ρ c)
theorem W6_ea0 (c : Dev nD) : W6 m ρ c (Proc.devRef .tc main_v29) = W1 m ρ c (Proc.devRef .tc main_v29) := (W6_of_ne m ρ c main_v29 (by decide)).trans (W5_ea0 m ρ c)
theorem W7_ea0 (c : Dev nD) : W7 m ρ c (Proc.devRef .tc main_v29) = W1 m ρ c (Proc.devRef .tc main_v29) := (W7_of m ρ c main_v29 (by decide)).trans (W6_ea0 m ρ c)
theorem W8_ea0 (c : Dev nD) : W8 m ρ c (Proc.devRef .tc main_v29) = W1 m ρ c (Proc.devRef .tc main_v29) := (W8_of_ne m ρ c main_v29 (by decide)).trans (W7_ea0 m ρ c)
theorem W9_ea0 (c : Dev nD) : W9 m ρ c (Proc.devRef .tc main_v29) = W1 m ρ c (Proc.devRef .tc main_v29) := (W9_of m ρ c main_v29 (by decide)).trans (W8_ea0 m ρ c)
theorem W10_ea0 (c : Dev nD) : W10 m ρ c (Proc.devRef .tc main_v29) = W1 m ρ c (Proc.devRef .tc main_v29) := (W10_of_ne m ρ c main_v29 (by decide)).trans (W9_ea0 m ρ c)
theorem W11_ea0 (c : Dev nD) : W11 m ρ c (Proc.devRef .tc main_v29) = W1 m ρ c (Proc.devRef .tc main_v29) := (W11_of m ρ c main_v29 (by decide)).trans (W10_ea0 m ρ c)
theorem W12_ea0 (c : Dev nD) : W12 m ρ c (Proc.devRef .tc main_v29) = W1 m ρ c (Proc.devRef .tc main_v29) := (W12_of_ne m ρ c main_v29 (by decide)).trans (W11_ea0 m ρ c)
theorem W13_ea0 (c : Dev nD) : W13 m ρ c (Proc.devRef .tc main_v29) = W1 m ρ c (Proc.devRef .tc main_v29) := (W13_of m ρ c main_v29 (by decide)).trans (W12_ea0 m ρ c)
theorem W14_ea0 (c : Dev nD) : W14 m ρ c (Proc.devRef .tc main_v29) = W1 m ρ c (Proc.devRef .tc main_v29) := (W14_of_ne m ρ c main_v29 (by decide)).trans (W13_ea0 m ρ c)
theorem W15_ea0 (c : Dev nD) : W15 m ρ c (Proc.devRef .tc main_v29) = W1 m ρ c (Proc.devRef .tc main_v29) := (W15_of m ρ c main_v29 (by decide)).trans (W14_ea0 m ρ c)
theorem W16_ea0 (c : Dev nD) : W16 m ρ c (Proc.devRef .tc main_v29) = W1 m ρ c (Proc.devRef .tc main_v29) := (W16_of_ne m ρ c main_v29 (by decide)).trans (W15_ea0 m ρ c)
theorem W2_ea1 (c : Dev nD) : W2 m ρ c (Proc.devRef .tc main_v33) = W1 m ρ c (Proc.devRef .tc main_v33) := (W2_of_ne m ρ c main_v33 (by decide)).trans (rfl)
theorem W3_ea1 (c : Dev nD) : W3 m ρ c (Proc.devRef .tc main_v33) = W1 m ρ c (Proc.devRef .tc main_v33) := (W3_of m ρ c main_v33 (by decide)).trans (W2_ea1 m ρ c)
theorem W4_ea1 (c : Dev nD) : W4 m ρ c (Proc.devRef .tc main_v33) = W1 m ρ c (Proc.devRef .tc main_v33) := (W4_of_ne m ρ c main_v33 (by decide)).trans (W3_ea1 m ρ c)
theorem W5_ea1 (c : Dev nD) : W5 m ρ c (Proc.devRef .tc main_v33) = W1 m ρ c (Proc.devRef .tc main_v33) := (W5_of m ρ c main_v33 (by decide)).trans (W4_ea1 m ρ c)
theorem W6_ea1 (c : Dev nD) : W6 m ρ c (Proc.devRef .tc main_v33) = W1 m ρ c (Proc.devRef .tc main_v33) := (W6_of_ne m ρ c main_v33 (by decide)).trans (W5_ea1 m ρ c)
theorem W7_ea1 (c : Dev nD) : W7 m ρ c (Proc.devRef .tc main_v33) = W1 m ρ c (Proc.devRef .tc main_v33) := (W7_of m ρ c main_v33 (by decide)).trans (W6_ea1 m ρ c)
theorem W8_ea1 (c : Dev nD) : W8 m ρ c (Proc.devRef .tc main_v33) = W1 m ρ c (Proc.devRef .tc main_v33) := (W8_of_ne m ρ c main_v33 (by decide)).trans (W7_ea1 m ρ c)
theorem W9_ea1 (c : Dev nD) : W9 m ρ c (Proc.devRef .tc main_v33) = W1 m ρ c (Proc.devRef .tc main_v33) := (W9_of m ρ c main_v33 (by decide)).trans (W8_ea1 m ρ c)
theorem W10_ea1 (c : Dev nD) : W10 m ρ c (Proc.devRef .tc main_v33) = W1 m ρ c (Proc.devRef .tc main_v33) := (W10_of_ne m ρ c main_v33 (by decide)).trans (W9_ea1 m ρ c)
theorem W11_ea1 (c : Dev nD) : W11 m ρ c (Proc.devRef .tc main_v33) = W1 m ρ c (Proc.devRef .tc main_v33) := (W11_of m ρ c main_v33 (by decide)).trans (W10_ea1 m ρ c)
theorem W12_ea1 (c : Dev nD) : W12 m ρ c (Proc.devRef .tc main_v33) = W1 m ρ c (Proc.devRef .tc main_v33) := (W12_of_ne m ρ c main_v33 (by decide)).trans (W11_ea1 m ρ c)
theorem W13_ea1 (c : Dev nD) : W13 m ρ c (Proc.devRef .tc main_v33) = W1 m ρ c (Proc.devRef .tc main_v33) := (W13_of m ρ c main_v33 (by decide)).trans (W12_ea1 m ρ c)
theorem W14_ea1 (c : Dev nD) : W14 m ρ c (Proc.devRef .tc main_v33) = W1 m ρ c (Proc.devRef .tc main_v33) := (W14_of_ne m ρ c main_v33 (by decide)).trans (W13_ea1 m ρ c)
theorem W15_ea1 (c : Dev nD) : W15 m ρ c (Proc.devRef .tc main_v33) = W1 m ρ c (Proc.devRef .tc main_v33) := (W15_of m ρ c main_v33 (by decide)).trans (W14_ea1 m ρ c)
theorem W16_ea1 (c : Dev nD) : W16 m ρ c (Proc.devRef .tc main_v33) = W1 m ρ c (Proc.devRef .tc main_v33) := (W16_of_ne m ρ c main_v33 (by decide)).trans (W15_ea1 m ρ c)

end Cert.KernelIdeal.Val

end
-- ==== Proof.Val.PayOps.lean ====
/-
  The non-pointwise operations of the kernels' bodies read at one element, at the ideal float values (extended
  reals, every operation exact), stated once for all ten regions, whose bodies use the same two products and the
  same column reduction: the zero literal; each of the two matrix products into a zero accumulator as the sum over
  its contracted coordinate; the sum over the rows of a [5000,128] tile as the sum over the row coordinate.
-/
import proofs.«118775_j16338055594318_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The f32 zero word read as a scalar at the ideal values is the extended real 0. -/
theorem scalar_zero_f32 : (Scalar.ofBits (F := Ideal) .f32 0x00000000#32 : Ideal .f32) = 0 :=
  Ideal.ofBits_zero_f32

/-- In the first product, the left operand's index at output (i, j) and contraction index q has the output's row. -/
theorem dot1_lhs_row (y : S5000x256.Idx) (q : dot_S5000x128_S128x256_S5000x256_1_0_0_1_n_n.contr.Idx) :
    (dot_S5000x128_S128x256_S5000x256_1_0_0_1_n_n.lhsIdx y q 0).val = (y 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- In the first product, the right operand's index at output (i, j) and contraction index q has the output's column. -/
theorem dot1_rhs_col (y : S5000x256.Idx) (q : dot_S5000x128_S128x256_S5000x256_1_0_0_1_n_n.contr.Idx) :
    (dot_S5000x128_S128x256_S5000x256_1_0_0_1_n_n.rhsIdx y q 1).val = (y 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The first product into the zero splat, read at (i, j): the sum over the 128 contracted coordinates of the
    operands' products, the contraction index re-indexed by its one coordinate. -/
theorem matmul1_apply {φ₁ φ₂ : FTy} (a : FVec Ideal S5000x128 φ₁) (b : FVec Ideal S128x256 φ₂) (i : Fin 5000) (j : Fin 256) :
    matmul dot_S5000x128_S128x256_S5000x256_1_0_0_1_n_n none a b (constant (F := Ideal) S5000x256 .f32 0x00000000#32) (ix2 i j)
      = ∑ k : Fin 128, a (ix2 i k) * b (ix2 k j) := by
  simp only [matmul]
  rw [Ideal.matmul_constant_zero_apply,
    ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 i j)
      ((contrEquiv1 dot_S5000x128_S128x256_S5000x256_1_0_0_1_n_n 128 rfl rfl).symm k) = ix2 i k :=
    funext fun c => Fin.ext (by
      match c with
      | ⟨0, _⟩ => exact dot1_lhs_row _ _
      | ⟨1, _⟩ => exact (dot_S5000x128_S128x256_S5000x256_1_0_0_1_n_n.lhsIdx_val_of_single rfl _ _).trans hk)
  have er : dot_S5000x128_S128x256_S5000x256_1_0_0_1_n_n.rhsIdx (ix2 i j)
      ((contrEquiv1 dot_S5000x128_S128x256_S5000x256_1_0_0_1_n_n 128 rfl rfl).symm k) = ix2 k j :=
    funext fun c => Fin.ext (by
      match c with
      | ⟨0, _⟩ => exact (dot_S5000x128_S128x256_S5000x256_1_0_0_1_n_n.rhsIdx_val_of_single rfl _ _).trans hk
      | ⟨1, _⟩ => exact dot1_rhs_col _ _)
  rw [el, er]

/-- In the second product, the left operand's index at output (i, j) and contraction index q has the output's row. -/
theorem dot2_lhs_row (y : S5000x128.Idx) (q : dot_S5000x256_S256x128_S5000x128_1_0_0_1_n_n.contr.Idx) :
    (dot_S5000x256_S256x128_S5000x128_1_0_0_1_n_n.lhsIdx y q 0).val = (y 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- In the second product, the right operand's index at output (i, j) and contraction index q has the output's column. -/
theorem dot2_rhs_col (y : S5000x128.Idx) (q : dot_S5000x256_S256x128_S5000x128_1_0_0_1_n_n.contr.Idx) :
    (dot_S5000x256_S256x128_S5000x128_1_0_0_1_n_n.rhsIdx y q 1).val = (y 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The second product into the zero splat, read at (i, j): the sum over the 256 contracted coordinates of the
    operands' products, the contraction index re-indexed by its one coordinate. -/
theorem matmul2_apply {φ₁ φ₂ : FTy} (a : FVec Ideal S5000x256 φ₁) (b : FVec Ideal S256x128 φ₂) (i : Fin 5000) (j : Fin 128) :
    matmul dot_S5000x256_S256x128_S5000x128_1_0_0_1_n_n none a b (constant (F := Ideal) S5000x128 .f32 0x00000000#32) (ix2 i j)
      = ∑ k : Fin 256, a (ix2 i k) * b (ix2 k j) := by
  simp only [matmul]
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 i j)
      ((contrEquiv1 dot_S5000x256_S256x128_S5000x128_1_0_0_1_n_n 256 rfl rfl).symm k) = ix2 i k :=
    funext fun c => Fin.ext (by
      match c with
      | ⟨0, _⟩ => exact dot2_lhs_row _ _
      | ⟨1, _⟩ => exact (dot_S5000x256_S256x128_S5000x128_1_0_0_1_n_n.lhsIdx_val_of_single rfl _ _).trans hk)
  have er : dot_S5000x256_S256x128_S5000x128_1_0_0_1_n_n.rhsIdx (ix2 i j)
      ((contrEquiv1 dot_S5000x256_S256x128_S5000x128_1_0_0_1_n_n 256 rfl rfl).symm k) = ix2 k j :=
    funext fun c => Fin.ext (by
      match c with
      | ⟨0, _⟩ => exact (dot_S5000x256_S256x128_S5000x128_1_0_0_1_n_n.rhsIdx_val_of_single rfl _ _).trans hk
      | ⟨1, _⟩ => exact dot2_rhs_col _ _)
  rw [el, er]

/-- The sum over the 5000 rows of a [5000,128] tile, accumulated from the zero word, read at column d: the
    reduced index d with the row i inserted on the dropped axis is (i, d). -/
theorem colsum_apply (src : FVec Ideal S5000x128 .f32) (h : S5000x128.Reduces [0] S128) (hφ : FKind.Formats .f32)
    (hacc : (0x00000000#32 : BitVec 32) = 0x00000000#32) (d : Fin 128) :
    multiReduction (F := Ideal) .add [0] S128 src 0x00000000#32 h hφ hacc (ix1 d)
      = ∑ i : Fin 5000, src (ix2 i d) := by
  refine (Ideal.multiReduction_add_single src 0x00000000#32 h hφ hacc (ix1 d)).trans ?_
  refine Finset.sum_congr rfl fun i _ => congrArg src ?_
  funext c
  match c with
  | ⟨0, _⟩ => exact Fin.ext rfl
  | ⟨1, _⟩ => exact Fin.ext rfl

end Cert.KernelIdeal.Val

end
-- ==== Proof.Val.PayMlp0.lean ====
/-
  The payloads of region 0's MLP-and-statistics body read at one element, at the ideal float values (extended
  reals, every operation exact, a change of float format the identity): the output tile hn at (i, d) as the
  two-layer perceptron's value; the running column sum and column sum of squares after a grid point as what
  they held plus the tile's column sum (of squares); the two resets as zero.
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The MLP's output tile at (i, d): the second layer applied to the ReLU of the first,
    hn[i,d] = (∑ j, max ((∑ k, x[i,k] * w1[k,j]) + b1[0,j]) 0 * w2[j,d]) + b2[0,d]
    (the changes of float format are the identity at the ideal values). -/
theorem hn_apply (x : Vec Ideal S5000x128 .f32) (w1 : Vec Ideal S128x256 .f32) (b1 : Vec Ideal S1x256 .f32)
    (w2 : Vec Ideal S256x128 .f32) (b2 : Vec Ideal S1x128 .f32) (i : Fin 5000) (d : Fin 128) :
    k0_pay4 (F := Ideal) x w1 b1 w2 b2 (ix2 i d)
      = (∑ j : Fin 256, max ((∑ k : Fin 128, x (ix2 i k) * w1 (ix2 k j)) + b1 (ix2 (0 : Fin 1) j)) 0 * w2 (ix2 j d))
          + b2 (ix2 (0 : Fin 1) d) := by
  unfold k0_pay4
  simp only [addf_apply, matmul2_apply, truncf_apply, maximumf_apply, matmul1_apply, broadcast_apply, shapeCast_self,
    broadcastTo_1b_ab_apply, scalar_zero_f32]

/-- The running column sum after a grid point, at column d: what it held plus the sum of the tile's column. -/
theorem sum_apply (x : Vec Ideal S5000x128 .f32) (w1 : Vec Ideal S128x256 .f32) (b1 : Vec Ideal S1x256 .f32)
    (w2 : Vec Ideal S256x128 .f32) (b2 : Vec Ideal S1x128 .f32) (acc : Vec Ideal S1x128 .f32) (u : Fin 1) (d : Fin 128) :
    k0_pay5 (F := Ideal) x w1 b1 w2 b2 acc (ix2 u d)
      = acc (ix2 u d) + ∑ i : Fin 5000, k0_pay4 (F := Ideal) x w1 b1 w2 b2 (ix2 i d) := by
  unfold k0_pay5
  simp only [shapeCast_self, addf_apply, shapeCast_a_1a_apply]
  exact congrArg (acc (ix2 u d) + ·) (colsum_apply _ _ _ _ d)

/-- The running column sum of squares after a grid point, at column d: what it held plus the sum of the squares of
    the tile's column. -/
theorem sumsq_apply (hn : FVec Ideal S5000x128 .f32) (acc : Vec Ideal S1x128 .f32) (u : Fin 1) (d : Fin 128) :
    k0_pay1 (F := Ideal) hn acc (ix2 u d) = acc (ix2 u d) + ∑ i : Fin 5000, hn (ix2 i d) * hn (ix2 i d) := by
  unfold k0_pay1
  simp only [shapeCast_self, addf_apply, shapeCast_a_1a_apply]
  exact congrArg (acc (ix2 u d) + ·) (colsum_apply (mulf hn hn) _ _ _ d)

/-- The reset of the running sum at the first grid point writes zero everywhere. -/
theorem reset0_apply (u : Fin 1) (d : Fin 128) : k0_pay2 (F := Ideal) (ix2 u d) = 0 := by
  unfold k0_pay2
  simp only [shapeCast_self, broadcast_apply, scalar_zero_f32]

/-- The reset of the running sum of squares at the first grid point writes zero everywhere. -/
theorem reset1_apply (u : Fin 1) (d : Fin 128) : k0_pay3 (F := Ideal) (ix2 u d) = 0 := by
  unfold k0_pay3
  simp only [shapeCast_self, broadcast_apply, scalar_zero_f32]

end Cert.KernelIdeal.Val

end
-- ==== Proof.Val.MlpArr.lean ====
/-
  The two-layer perceptron of a message-passing layer as a whole-array function, over the extended reals.  From a
  [50000,128] array x, a [128,256] matrix w1 with a [1,256] bias row b1, and a [256,128] matrix w2 with a [1,128]
  bias row b2, the entry at row r and column d is
      (∑ j, max ((∑ k, x[r,k] * w1[k,j]) + b1[0,j]) 0 * w2[j,d]) + b2[0,d] :
  the first layer's 256 hidden units, clamped below at zero, fed to the second layer.  Row r of the result depends
  on row r of x only.
-/
import Idealize.ShloMosaic.PureOps.Ideal
import Idealize.ShloMosaic.Lib.ValueIdx

noncomputable section

namespace Cert.KernelIdeal.Val

open Idealize.ShloMosaic Idealize.ShloMosaic.ValueIdx

/-- Entry (r, d) of the perceptron's output from row r of x, the two matrices and the two bias rows. -/
def mlpArr (x : (⟨2, ![50000, 128]⟩ : Shape).Idx → EReal) (w1 : (⟨2, ![128, 256]⟩ : Shape).Idx → EReal)
    (b1 : (⟨2, ![1, 256]⟩ : Shape).Idx → EReal) (w2 : (⟨2, ![256, 128]⟩ : Shape).Idx → EReal)
    (b2 : (⟨2, ![1, 128]⟩ : Shape).Idx → EReal) : (⟨2, ![50000, 128]⟩ : Shape).Idx → EReal :=
  fun idx => (∑ j : Fin 256, max ((∑ k : Fin 128, x (ix2 (idx 0) k) * w1 (ix2 k j)) + b1 (ix2 (0 : Fin 1) j)) 0 * w2 (ix2 j (idx 1)))
    + b2 (ix2 (0 : Fin 1) (idx 1))

end Cert.KernelIdeal.Val

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.LibBatchNormMoments.lean ====
/-
  A column's first two moments, collected tile by tile, and the two textbook forms of a variance.

  A batch normalisation needs, for every feature column, the mean `μ = (∑ᵣ xᵣ) / N` and the (biased) variance of the
  column's `N` entries. The variance can be taken centred, `(∑ᵣ (xᵣ - μ)²) / N`, or from the raw second moment,
  `(∑ᵣ xᵣ²) / N - μ²`. Over the reals the two agree: expanding the square gives `∑ xᵣ² - 2 μ ∑ xᵣ + N μ²`, and
  `∑ xᵣ = N μ`. Over the EXTENDED reals they do not (one infinite entry makes the raw form `⊤ - ⊤ = ⊥` and the
  centred form `⊤`), so the statement in the extended reals is for a column of finite entries, each the cast of a real.

  A sum over `g · b` rows may be collected as `g` partial sums of `b` consecutive rows each, in any commutative
  monoid, the extended reals included: this is how a column sum accumulated over row tiles is the whole column's sum.
-/
import Mathlib.Data.EReal.Operations
import Mathlib.Algebra.BigOperators.Fin
import Mathlib.Algebra.BigOperators.Ring.Finset
import Mathlib.Logic.Equiv.Fin.Basic
import Mathlib.Tactic.Ring
import Mathlib.Tactic.FieldSimp
import Idealize.ShloMosaic.PureOps.Ideal
import proofs.«118775_j16338055594318_1_alg».proof.Proof.LibRealSums

namespace Cert.Moments

open Finset Idealize.ShloMosaic

/-! ## Rows collected tile by tile -/

/-- Row `j` of tile `t`, among `g` tiles of `b` rows each. -/
def tileRow {g b : ℕ} (t : Fin g) (j : Fin b) : Fin (g * b) := finProdFinEquiv (t, j)

theorem tileRow_val {g b : ℕ} (t : Fin g) (j : Fin b) : (tileRow t j).val = j.val + b * t.val := rfl

/-- A sum over all `g · b` rows is the sum over the tiles of each tile's sum. -/
theorem sum_tiles {M : Type*} [AddCommMonoid M] {g b : ℕ} (F : Fin (g * b) → M) :
    ∑ r, F r = ∑ t : Fin g, ∑ j : Fin b, F (tileRow t j) := by
  rw [← Equiv.sum_comp finProdFinEquiv F, Fintype.sum_prod_type]
  rfl

/-! ## The variance, centred or from the raw second moment -/

/-- Over the reals: the raw second moment less the squared mean is the mean of the squared deviations. `N` is the
    number of entries, as a real. -/
theorem var_two_forms {ι : Type*} [Fintype ι] (f : ι → ℝ) (N : ℝ) (hN : N = (Fintype.card ι : ℝ)) (h0 : N ≠ 0) :
    (∑ i, f i * f i) / N - (∑ i, f i) / N * ((∑ i, f i) / N)
      = (∑ i, (f i - (∑ j, f j) / N) * (f i - (∑ j, f j) / N)) / N := by
  have expand : ∀ μ : ℝ, ∑ i, (f i - μ) * (f i - μ) = (∑ i, f i * f i) - 2 * μ * (∑ i, f i) + N * (μ * μ) := by
    intro μ
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, ← hN]
    ring
  rw [expand]
  field_simp
  ring

/-- The same in the extended reals, for a column whose entries are casts of reals, with the quotient the instance's own
    (`Ideal.div` by the cast of a nonzero real is the product with its reciprocal). -/
theorem var_two_forms_coe {ι : Type*} [Fintype ι] (f : ι → ℝ) (N : ℝ) (hN : N = (Fintype.card ι : ℝ)) (h0 : N ≠ 0) :
    Ideal.div (∑ i, (f i : EReal) * (f i : EReal)) (N : EReal)
        - Ideal.div (∑ i, (f i : EReal)) (N : EReal) * Ideal.div (∑ i, (f i : EReal)) (N : EReal)
      = Ideal.div (∑ i, ((f i : EReal) - Ideal.div (∑ j, (f j : EReal)) (N : EReal))
          * ((f i : EReal) - Ideal.div (∑ j, (f j : EReal)) (N : EReal))) (N : EReal) := by
  simp only [Ideal.div_coe h0, ← EReal.coe_mul, ← Cert.RealSums.coe_sum, ← EReal.coe_sub, one_div, ← div_eq_mul_inv]
  exact congrArg _ (var_two_forms f N hN h0)

/-- The mean of a column of finite entries is finite: it is the cast of the real mean. -/
theorem mean_coe {ι : Type*} [Fintype ι] (f : ι → ℝ) (N : ℝ) (h0 : N ≠ 0) :
    Ideal.div (∑ i, (f i : EReal)) (N : EReal) = (((∑ i, f i) / N : ℝ) : EReal) := by
  rw [Ideal.div_coe h0, ← Cert.RealSums.coe_sum, ← EReal.coe_mul]
  congr 1
  ring

/-- The centred variance of a column of finite entries is the cast of a NONNEGATIVE real. -/
theorem var_centred_coe {ι : Type*} [Fintype ι] (f : ι → ℝ) (N : ℝ) (h0 : 0 < N) :
    ∃ v : ℝ, 0 ≤ v ∧
      Ideal.div (∑ i, ((f i : EReal) - Ideal.div (∑ j, (f j : EReal)) (N : EReal))
          * ((f i : EReal) - Ideal.div (∑ j, (f j : EReal)) (N : EReal))) (N : EReal) = (v : EReal) := by
  refine ⟨(∑ i, (f i - (∑ j, f j) / N) * (f i - (∑ j, f j) / N)) / N,
    div_nonneg (Finset.sum_nonneg fun i _ => mul_self_nonneg _) h0.le, ?_⟩
  rw [mean_coe f N h0.ne']
  simp only [Ideal.div_coe h0.ne', ← EReal.coe_sub, ← EReal.coe_mul, ← Cert.RealSums.coe_sum]
  congr 1
  ring

end Cert.Moments
-- ==== Proof.LibColumnMoments.lean ====
/-
  One feature column's statistics, as the tiled kernel collects them and as the reference takes them.

  The kernel walks the `g` row tiles of a column in order. It keeps two running totals, cleared at the first tile and
  increased at every tile by that tile's sum and sum of squares; after the last tile they are the column's sum and sum of
  squares (a running total over an initial segment of the tiles, by induction along the tiles). It then divides both by
  the number of rows `N = g · b` and subtracts the squared mean from the mean square. The reference takes the mean the same
  way and the variance as the mean of the squared deviations from it. For a column of FINITE entries the two variances
  are the same extended real (the cast of one nonnegative real), and so is everything computed from them.
-/
import proofs.«118775_j16338055594318_1_alg».proof.Proof.LibBatchNormMoments

namespace Cert.ColumnMoments

open Finset Idealize.ShloMosaic Cert.Moments

/-! ## A running total over the tiles -/

/-- A total that starts from zero at the first tile and grows by `F t` at tile `t` is, after tile `t`, the sum of
    `F` over the tiles up to `t`. -/
theorem running_total {M : Type*} [AddCommMonoid M] {g : ℕ} (F A : Fin (g + 1) → M) (h0 : A 0 = 0 + F 0)
    (hs : ∀ t : Fin g, A t.succ = A t.castSucc + F t.succ) (t : Fin (g + 1)) :
    A t = ∑ u ∈ Finset.Iic t, F u := by
  induction t using Fin.induction with
  | zero =>
    have : Finset.Iic (0 : Fin (g + 1)) = {0} := by
      ext u; simp [Fin.le_zero_iff]
    rw [h0, this, Finset.sum_singleton, zero_add]
  | succ t ih =>
    have : Finset.Iic t.succ = insert t.succ (Finset.Iic t.castSucc) := by
      ext u
      simp only [Finset.mem_Iic, Finset.mem_insert]
      constructor
      · intro h
        rcases Fin.lt_or_eq_of_le h with h | h
        · exact Or.inr (Fin.le_castSucc_iff.2 h)
        · exact Or.inl h
      · rintro (h | h)
        · exact h.le
        · exact h.trans (Fin.castSucc_lt_succ (i := t)).le
    rw [hs, ih, this, Finset.sum_insert (by simp [Finset.mem_Iic, Fin.castSucc_lt_succ]), add_comm]

/-- After the last tile the running total is the sum over all tiles. -/
theorem running_total_last {M : Type*} [AddCommMonoid M] {g : ℕ} (F A : Fin (g + 1) → M) (h0 : A 0 = 0 + F 0)
    (hs : ∀ t : Fin g, A t.succ = A t.castSucc + F t.succ) : A (Fin.last g) = ∑ u, F u := by
  rw [running_total F A h0 hs]
  congr 1
  ext u; simp [Fin.le_last]

/-! ## The two programs' column statistics agree on finite columns -/

/-- The kernel's variance — the tiles' sums of squares over `N`, less the square of the tiles' sums over `N` — is the
    reference's: the mean over the column of the squared deviation from the column's mean. `h` is a column of `g · b`
    finite entries and `N` the count `g · b` as a real. -/
theorem tiled_var_eq_centred {g b : ℕ} (h : Fin (g * b) → ℝ) (N : ℝ) (hN : N = ((g * b : ℕ) : ℝ)) (h0 : N ≠ 0) :
    Ideal.div (∑ t : Fin g, ∑ j : Fin b, (h (tileRow t j) : EReal) * (h (tileRow t j) : EReal)) (N : EReal)
        - Ideal.div (∑ t : Fin g, ∑ j : Fin b, (h (tileRow t j) : EReal)) (N : EReal)
          * Ideal.div (∑ t : Fin g, ∑ j : Fin b, (h (tileRow t j) : EReal)) (N : EReal)
      = Ideal.div (∑ r, ((h r : EReal) - Ideal.div (∑ r', (h r' : EReal)) (N : EReal))
          * ((h r : EReal) - Ideal.div (∑ r', (h r' : EReal)) (N : EReal))) (N : EReal) := by
  rw [← sum_tiles (fun r => (h r : EReal) * (h r : EReal)), ← sum_tiles (fun r => (h r : EReal))]
  exact var_two_forms_coe h N (by rw [hN, Fintype.card_fin]) h0

/-- The kernel's mean is the reference's: the tiles' sums over `N` is the column's sum over `N`. -/
theorem tiled_mean_eq {g b : ℕ} (h : Fin (g * b) → EReal) (N : EReal) :
    Ideal.div (∑ t : Fin g, ∑ j : Fin b, h (tileRow t j)) N = Ideal.div (∑ r, h r) N := by
  rw [← sum_tiles h]

end Cert.ColumnMoments
-- ==== Proof.Val.FinalMlp0.lean ====
/-
  Region 0's three output arrays after its ten grid points, as functions of the arrays the region finds on entry.
  Point t stores, over rows 5000 t … 5000 t + 4999 of the [50000,128] array `main_v74_0`, the two-layer perceptron of the
  same rows of `main_v63` (weights `main_v65`, `main_v69`, bias rows `main_v72`, `main_v73`); the ten tiles are disjoint and
  fill the array, which ends holding `mlpArr` of the five entry arrays.  Two scratch rows keep, column by column, the
  running sum of the stored values and of their squares: zero plus the first tile's column sums after the first point,
  increased by each later tile's; the last point copies them to the [1,128] arrays `main_v74_1` and `main_v74_2`, which
  end holding the sums over all ten tiles.
-/
import proofs.«118775_j16338055594318_1_alg».proof.Proof.KI.Mlp0
import proofs.«118775_j16338055594318_1_alg».proof.Proof.Val.PayMlp0
import proofs.«118775_j16338055594318_1_alg».proof.Proof.Val.MlpArr
import proofs.«118775_j16338055594318_1_alg».proof.Proof.LibColumnMoments
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## The block indices over the grid -/

/-- The tile windows 0 and 5 sit at block (t, 0) at point t; -/
theorem idx0_0 : ∀ t : Fin cfg0.N, win0_0.index t (0 : Fin 2) = t.val ∧ win0_0.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
/-- the weight, bias and statistics windows stay at block (0, 0). -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)

/-- The last point is a point. -/
theorem h9_0 : 9 < cfg0.N := by rw [show cfg0.N = 10 from N_0]; decide

/-! ## The input blocks, read off the entry arrays -/

/-- Window 0's block at point t is rows 5000 t … 5000 t + 4999 of `main_v63` as the region finds it. -/
theorem tile0_apply (c : Dev nD) (t : Fin cfg0.N) (i : Fin 5000) (k : Fin 128) (R : Fin 50000) (hR : R.val = t.val * 5000 + i.val) :
    (iblk0 V c 0 t : Vec Ideal S5000x128 .f32) (ix2 i k) = (V c main_v63 : S50000x128.Idx → EReal) (ix2 R k) := by
  have e0 : win0_0.index t (0 : Fin 2) = t.val := (idx0_0 t).1
  have e1 : win0_0.index t (1 : Fin 2) = 0 := (idx0_0 t).2
  unfold iblk0
  rw [View.read_apply]
  show V c main_v63 _ = V c main_v63 _
  congr 1
  funext x
  apply Fin.ext
  match x with
  | ⟨0, _⟩ => show win0_0.index t (0 : Fin 2) * 5000 + 1 * i.val = R.val; rw [e0, hR]; omega
  | ⟨1, _⟩ => show win0_0.index t (1 : Fin 2) * 128 + 1 * k.val = k.val; rw [e1]; omega

/-- Window 1 stays at block (0, 0), and its one block is its whole array `main_v65` as the region finds it. -/
theorem blk0_1_apply (c : Dev nD) (t : Fin cfg0.N) (a : Fin 128) (b : Fin 256) :
    (iblk0 V c 1 t : Vec Ideal S128x256 .f32) (ix2 a b) = (V c main_v65 : S128x256.Idx → EReal) (ix2 a b) := by
  have e0 : win0_1.index t (0 : Fin 2) = 0 := (idx0_1 t).1
  have e1 : win0_1.index t (1 : Fin 2) = 0 := (idx0_1 t).2
  unfold iblk0
  rw [View.read_apply]
  show V c main_v65 _ = V c main_v65 _
  congr 1
  funext x
  apply Fin.ext
  match x with
  | ⟨0, _⟩ => show win0_1.index t (0 : Fin 2) * 128 + 1 * a.val = a.val; rw [e0]; omega
  | ⟨1, _⟩ => show win0_1.index t (1 : Fin 2) * 256 + 1 * b.val = b.val; rw [e1]; omega

/-- Window 2 stays at block (0, 0), and its one block is its whole array `main_v72` as the region finds it. -/
theorem blk0_2_apply (c : Dev nD) (t : Fin cfg0.N) (a : Fin 1) (b : Fin 256) :
    (iblk0 V c 2 t : Vec Ideal S1x256 .f32) (ix2 a b) = (V c main_v72 : S1x256.Idx → EReal) (ix2 a b) := by
  have e0 : win0_2.index t (0 : Fin 2) = 0 := (idx0_2 t).1
  have e1 : win0_2.index t (1 : Fin 2) = 0 := (idx0_2 t).2
  unfold iblk0
  rw [View.read_apply]
  show V c main_v72 _ = V c main_v72 _
  congr 1
  funext x
  apply Fin.ext
  match x with
  | ⟨0, _⟩ => show win0_2.index t (0 : Fin 2) * 1 + 1 * a.val = a.val; rw [e0]; omega
  | ⟨1, _⟩ => show win0_2.index t (1 : Fin 2) * 256 + 1 * b.val = b.val; rw [e1]; omega

/-- Window 3 stays at block (0, 0), and its one block is its whole array `main_v69` as the region finds it. -/
theorem blk0_3_apply (c : Dev nD) (t : Fin cfg0.N) (a : Fin 256) (b : Fin 128) :
    (iblk0 V c 3 t : Vec Ideal S256x128 .f32) (ix2 a b) = (V c main_v69 : S256x128.Idx → EReal) (ix2 a b) := by
  have e0 : win0_3.index t (0 : Fin 2) = 0 := (idx0_3 t).1
  have e1 : win0_3.index t (1 : Fin 2) = 0 := (idx0_3 t).2
  unfold iblk0
  rw [View.read_apply]
  show V c main_v69 _ = V c main_v69 _
  congr 1
  funext x
  apply Fin.ext
  match x with
  | ⟨0, _⟩ => show win0_3.index t (0 : Fin 2) * 256 + 1 * a.val = a.val; rw [e0]; omega
  | ⟨1, _⟩ => show win0_3.index t (1 : Fin 2) * 128 + 1 * b.val = b.val; rw [e1]; omega

/-- Window 4 stays at block (0, 0), and its one block is its whole array `main_v73` as the region finds it. -/
theorem blk0_4_apply (c : Dev nD) (t : Fin cfg0.N) (a : Fin 1) (b : Fin 128) :
    (iblk0 V c 4 t : Vec Ideal S1x128 .f32) (ix2 a b) = (V c main_v73 : S1x128.Idx → EReal) (ix2 a b) := by
  have e0 : win0_4.index t (0 : Fin 2) = 0 := (idx0_4 t).1
  have e1 : win0_4.index t (1 : Fin 2) = 0 := (idx0_4 t).2
  unfold iblk0
  rw [View.read_apply]
  show V c main_v73 _ = V c main_v73 _
  congr 1
  funext x
  apply Fin.ext
  match x with
  | ⟨0, _⟩ => show win0_4.index t (0 : Fin 2) * 1 + 1 * a.val = a.val; rw [e0]; omega
  | ⟨1, _⟩ => show win0_4.index t (1 : Fin 2) * 128 + 1 * b.val = b.val; rw [e1]; omega

/-! ## What a point stores into window 5 -/

/-- The stored value at (i, d), when the tile block's row i is row R of an array `A` and the other four blocks are
    the arrays `W1`, `B1`, `W2`, `B2`, is entry (R, d) of the perceptron's output array. -/
theorem mlp_block0 (A : S50000x128.Idx → EReal) (W1 : S128x256.Idx → EReal) (B1 : S1x256.Idx → EReal)
    (W2 : S256x128.Idx → EReal) (B2 : S1x128.Idx → EReal)
    (x0 : Vec Ideal S5000x128 .f32) (x1 : Vec Ideal S128x256 .f32) (x2 : Vec Ideal S1x256 .f32)
    (x3 : Vec Ideal S256x128 .f32) (x4 : Vec Ideal S1x128 .f32) (i : Fin 5000) (d : Fin 128) (R : Fin 50000)
    (h0 : ∀ k : Fin 128, x0 (ix2 i k) = A (ix2 R k)) (h1 : ∀ (k : Fin 128) (j : Fin 256), x1 (ix2 k j) = W1 (ix2 k j))
    (h2 : ∀ j : Fin 256, x2 (ix2 (0 : Fin 1) j) = B1 (ix2 (0 : Fin 1) j))
    (h3 : ∀ (j : Fin 256) (d' : Fin 128), x3 (ix2 j d') = W2 (ix2 j d'))
    (h4 : ∀ d' : Fin 128, x4 (ix2 (0 : Fin 1) d') = B2 (ix2 (0 : Fin 1) d')) :
    k0_pay4 (F := Ideal) x0 x1 x2 x3 x4 (ix2 i d) = mlpArr A W1 B1 W2 B2 (ix2 R d) := by
  rw [hn_apply]
  simp only [h0, h1, h2, h3, h4]
  rfl

/-- Entry (i, d) of what point t stores into window 5 is entry (5000 t + i, d) of the perceptron's output array. -/
theorem hn0_apply (c : Dev nD) (t : Fin cfg0.N) (i : Fin 5000) (d : Fin 128) (R : Fin 50000) (hR : R.val = t.val * 5000 + i.val) :
    hn0 (F := Ideal) V c t (ix2 i d) = mlpArr (V c main_v63) (V c main_v65) (V c main_v72) (V c main_v69) (V c main_v73) (ix2 R d) := by
  unfold hn0
  exact mlp_block0 (V c main_v63) (V c main_v65) (V c main_v72) (V c main_v69) (V c main_v73)
    (iblk0 V c 0 t) (iblk0 V c 1 t) (iblk0 V c 2 t) (iblk0 V c 3 t) (iblk0 V c 4 t) i d R
    (fun k => tile0_apply V c t i k R hR) (fun k j => blk0_1_apply V c t k j) (fun j => blk0_2_apply V c t (0 : Fin 1) j)
    (fun j d' => blk0_3_apply V c t j d') (fun d' => blk0_4_apply V c t (0 : Fin 1) d')

/-! ## Window 5: the ten tiles fill the output array -/

/-- Entry (i, d) of window 5's block at point t is entry (5000 t + i, d) of the output array. -/
theorem outIdx0 (t : Fin cfg0.N) (i : Fin 5000) (d : Fin 128) (R : Fin 50000) (hR : R.val = t.val * 5000 + i.val) :
    ((cfg0.win 5).blk t).view.emb (ix2 i d) = (ix2 R d : S50000x128.Idx) := by
  have e0 : win0_5.index t (0 : Fin 2) = t.val := (idx0_5 t).1
  have e1 : win0_5.index t (1 : Fin 2) = 0 := (idx0_5 t).2
  funext x
  apply Fin.ext
  match x with
  | ⟨0, _⟩ => show win0_5.index t (0 : Fin 2) * 5000 + 1 * i.val = R.val; rw [e0, hR]; omega
  | ⟨1, _⟩ => show win0_5.index t (1 : Fin 2) * 128 + 1 * d.val = d.val; rw [e1]; omega

/-- What point t writes back to the output array is block t of the perceptron's output array. -/
theorem flushed0_5_eq (c : Dev nD) (t : Fin cfg0.N) :
    (dat0 (F := Ideal) V c).flushed 5 t
      = ((cfg0.win 5).blk t).view.read (Elt Ideal) (mlpArr (V c main_v63) (V c main_v65) (V c main_v72) (V c main_v69) (V c main_v73)) := by
  show (cfg0.win 5).cut (grid0.coords t) ((dat0 (F := Ideal) V c).after 5 t) = _
  rw [after0_5]
  funext j
  obtain ⟨i, d, rfl⟩ : ∃ (i : Fin 5000) (d : Fin 128), j = ix2 i d := ⟨j 0, j 1, eq_ix2 j⟩
  have ht : t.val < 10 := Nat.lt_of_lt_of_eq t.isLt (show cfg0.N = 10 from N_0)
  have hR : t.val * 5000 + i.val < 50000 := by have := i.isLt; omega
  rw [View.read_apply, outIdx0 t i d ⟨t.val * 5000 + i.val, hR⟩ rfl]
  show hn0 (F := Ideal) V c t (ix2 i d) = _
  exact hn0_apply V c t i d ⟨t.val * 5000 + i.val, hR⟩ rfl

/-- An index of the output array is in point t's block iff each coordinate is in the block's range on its axis. -/
theorem mem_tile0 (t : Fin cfg0.N) (idx : S50000x128.Idx) :
    idx ∈ ((cfg0.win 5).blk t).view.set ↔ ∀ a : Fin 2, win0_5.index t a * S5000x128.size a ≤ (idx a).val
      ∧ (idx a).val < win0_5.index t a * S5000x128.size a + S5000x128.size a := by
  show idx ∈ ((View.whole main_v74_0).slice (win0_5.rect t)).set ↔ _
  rw [View.set_slice_whole, Rect.mem_set_unit]
  exact Iff.rfl

/-- Every index of the output array is in the block of the point its row falls in: row r is written at point r / 5000. -/
theorem tiles_cover0 (idx : S50000x128.Idx) :
    ∃ t : Fin cfg0.N, (cfg0.win 5).flush t = true ∧ idx ∈ ((cfg0.win 5).blk t).view.set := by
  have h0 : (idx 0).val < 50000 := (idx 0).isLt
  have h1 : (idx 1).val < 128 := (idx 1).isLt
  have hN : (idx 0).val / 5000 < cfg0.N := by rw [show cfg0.N = 10 from N_0]; omega
  have e0 : win0_5.index ⟨(idx 0).val / 5000, hN⟩ (0 : Fin 2) = (idx 0).val / 5000 := (idx0_5 ⟨(idx 0).val / 5000, hN⟩).1
  have e1 : win0_5.index ⟨(idx 0).val / 5000, hN⟩ (1 : Fin 2) = 0 := (idx0_5 ⟨(idx 0).val / 5000, hN⟩).2
  refine ⟨⟨(idx 0).val / 5000, hN⟩, flush0_5 _, ?_⟩
  rw [mem_tile0]
  intro a
  match a with
  | ⟨0, _⟩ =>
    show win0_5.index ⟨(idx 0).val / 5000, hN⟩ (0 : Fin 2) * 5000 ≤ (idx 0).val
      ∧ (idx 0).val < win0_5.index ⟨(idx 0).val / 5000, hN⟩ (0 : Fin 2) * 5000 + 5000
    rw [e0]; omega
  | ⟨1, _⟩ =>
    show win0_5.index ⟨(idx 0).val / 5000, hN⟩ (1 : Fin 2) * 128 ≤ (idx 1).val
      ∧ (idx 1).val < win0_5.index ⟨(idx 0).val / 5000, hN⟩ (1 : Fin 2) * 128 + 128
    rw [e1]; omega

/-- THE OUTPUT ARRAY after the region's ten points: the perceptron's output array of the five entry arrays. -/
theorem final0_hn (c : Dev nD) :
    (dat0 (F := Ideal) V c).arrAt 5 cfg0.N = mlpArr (V c main_v63) (V c main_v65) (V c main_v72) (V c main_v69) (V c main_v73) :=
  (dat0 (F := Ideal) V c).arrAt_eq_of_cover 5 (mlpArr (V c main_v63) (V c main_v65) (V c main_v72) (V c main_v69) (V c main_v73))
    (fun t _ => flushed0_5_eq V c t) (tiles_cover0)

/-! ## Window 6: the column sums, written back at the last point only -/

/-- Window 6's one block is the whole [1,128] array. -/
theorem rowIdx0_6 (t : Fin cfg0.N) (u : Fin 1) (d : Fin 128) :
    ((cfg0.win 6).blk t).view.emb (ix2 u d) = (ix2 u d : S1x128.Idx) := by
  have e0 : win0_6.index t (0 : Fin 2) = 0 := (idx0_6 t).1
  have e1 : win0_6.index t (1 : Fin 2) = 0 := (idx0_6 t).2
  funext x
  apply Fin.ext
  match x with
  | ⟨0, _⟩ => show win0_6.index t (0 : Fin 2) * 1 + 1 * u.val = u.val; rw [e0]; omega
  | ⟨1, _⟩ => show win0_6.index t (1 : Fin 2) * 128 + 1 * d.val = d.val; rw [e1]; omega

/-- The only point that writes window 6 back is the last, and it writes what the scratch row then holds. -/
theorem flushed0_6_eq (c : Dev nD) (t : Fin cfg0.N) (hf : (cfg0.win 6).flush t = true) :
    (dat0 (F := Ideal) V c).flushed 6 t
      = ((cfg0.win 6).blk t).view.read (Elt Ideal) ((acc0 (F := Ideal) V c 9 h9_0).1 : S1x128.Idx → EReal) := by
  have hN : t.val < 10 := Nat.lt_of_lt_of_eq t.isLt (show cfg0.N = 10 from N_0)
  have ht9 : t.val = 9 := by have := (flush0_6 t).mp hf; omega
  obtain rfl : t = ⟨9, h9_0⟩ := Fin.ext ht9
  show (cfg0.win 6).cut (grid0.coords ⟨9, h9_0⟩) ((dat0 (F := Ideal) V c).after 6 ⟨9, h9_0⟩) = _
  rw [after0_6]
  funext j
  obtain ⟨u, d, rfl⟩ : ∃ (u : Fin 1) (d : Fin 128), j = ix2 u d := ⟨j 0, j 1, eq_ix2 j⟩
  rw [View.read_apply, rowIdx0_6 ⟨9, h9_0⟩ u d]
  rfl

theorem mem_row0_6 (t : Fin cfg0.N) (idx : S1x128.Idx) :
    idx ∈ ((cfg0.win 6).blk t).view.set ↔ ∀ a : Fin 2, win0_6.index t a * S1x128.size a ≤ (idx a).val
      ∧ (idx a).val < win0_6.index t a * S1x128.size a + S1x128.size a := by
  show idx ∈ ((View.whole main_v74_1).slice (win0_6.rect t)).set ↔ _
  rw [View.set_slice_whole, Rect.mem_set_unit]
  exact Iff.rfl

/-- The last point's block covers the whole [1,128] array. -/
theorem row_cover0_6 (idx : S1x128.Idx) :
    ∃ t : Fin cfg0.N, (cfg0.win 6).flush t = true ∧ idx ∈ ((cfg0.win 6).blk t).view.set := by
  have h0 : (idx 0).val < 1 := (idx 0).isLt
  have h1 : (idx 1).val < 128 := (idx 1).isLt
  have e0 : win0_6.index ⟨9, h9_0⟩ (0 : Fin 2) = 0 := (idx0_6 ⟨9, h9_0⟩).1
  have e1 : win0_6.index ⟨9, h9_0⟩ (1 : Fin 2) = 0 := (idx0_6 ⟨9, h9_0⟩).2
  refine ⟨⟨9, h9_0⟩, (flush0_6 _).mpr rfl, ?_⟩
  rw [mem_row0_6]
  intro a
  match a with
  | ⟨0, _⟩ =>
    show win0_6.index ⟨9, h9_0⟩ (0 : Fin 2) * 1 ≤ (idx 0).val ∧ (idx 0).val < win0_6.index ⟨9, h9_0⟩ (0 : Fin 2) * 1 + 1
    rw [e0]; omega
  | ⟨1, _⟩ =>
    show win0_6.index ⟨9, h9_0⟩ (1 : Fin 2) * 128 ≤ (idx 1).val ∧ (idx 1).val < win0_6.index ⟨9, h9_0⟩ (1 : Fin 2) * 128 + 128
    rw [e1]; omega

/-- Window 6's array after the ten points is what the scratch row holds after the last. -/
theorem arr0_6 (c : Dev nD) :
    (dat0 (F := Ideal) V c).arrAt 6 cfg0.N = ((acc0 (F := Ideal) V c 9 h9_0).1 : S1x128.Idx → EReal) :=
  (dat0 (F := Ideal) V c).arrAt_eq_of_cover 6 ((acc0 (F := Ideal) V c 9 h9_0).1 : S1x128.Idx → EReal)
    (fun t hf => flushed0_6_eq V c t hf) row_cover0_6

/-! ## Window 7: the column sums of squares, written back at the last point only -/

/-- Window 7's one block is the whole [1,128] array. -/
theorem rowIdx0_7 (t : Fin cfg0.N) (u : Fin 1) (d : Fin 128) :
    ((cfg0.win 7).blk t).view.emb (ix2 u d) = (ix2 u d : S1x128.Idx) := by
  have e0 : win0_7.index t (0 : Fin 2) = 0 := (idx0_7 t).1
  have e1 : win0_7.index t (1 : Fin 2) = 0 := (idx0_7 t).2
  funext x
  apply Fin.ext
  match x with
  | ⟨0, _⟩ => show win0_7.index t (0 : Fin 2) * 1 + 1 * u.val = u.val; rw [e0]; omega
  | ⟨1, _⟩ => show win0_7.index t (1 : Fin 2) * 128 + 1 * d.val = d.val; rw [e1]; omega

/-- The only point that writes window 7 back is the last, and it writes what the scratch row then holds. -/
theorem flushed0_7_eq (c : Dev nD) (t : Fin cfg0.N) (hf : (cfg0.win 7).flush t = true) :
    (dat0 (F := Ideal) V c).flushed 7 t
      = ((cfg0.win 7).blk t).view.read (Elt Ideal) ((acc0 (F := Ideal) V c 9 h9_0).2 : S1x128.Idx → EReal) := by
  have hN : t.val < 10 := Nat.lt_of_lt_of_eq t.isLt (show cfg0.N = 10 from N_0)
  have ht9 : t.val = 9 := by have := (flush0_7 t).mp hf; omega
  obtain rfl : t = ⟨9, h9_0⟩ := Fin.ext ht9
  show (cfg0.win 7).cut (grid0.coords ⟨9, h9_0⟩) ((dat0 (F := Ideal) V c).after 7 ⟨9, h9_0⟩) = _
  rw [after0_7]
  funext j
  obtain ⟨u, d, rfl⟩ : ∃ (u : Fin 1) (d : Fin 128), j = ix2 u d := ⟨j 0, j 1, eq_ix2 j⟩
  rw [View.read_apply, rowIdx0_7 ⟨9, h9_0⟩ u d]
  rfl

theorem mem_row0_7 (t : Fin cfg0.N) (idx : S1x128.Idx) :
    idx ∈ ((cfg0.win 7).blk t).view.set ↔ ∀ a : Fin 2, win0_7.index t a * S1x128.size a ≤ (idx a).val
      ∧ (idx a).val < win0_7.index t a * S1x128.size a + S1x128.size a := by
  show idx ∈ ((View.whole main_v74_2).slice (win0_7.rect t)).set ↔ _
  rw [View.set_slice_whole, Rect.mem_set_unit]
  exact Iff.rfl

/-- The last point's block covers the whole [1,128] array. -/
theorem row_cover0_7 (idx : S1x128.Idx) :
    ∃ t : Fin cfg0.N, (cfg0.win 7).flush t = true ∧ idx ∈ ((cfg0.win 7).blk t).view.set := by
  have h0 : (idx 0).val < 1 := (idx 0).isLt
  have h1 : (idx 1).val < 128 := (idx 1).isLt
  have e0 : win0_7.index ⟨9, h9_0⟩ (0 : Fin 2) = 0 := (idx0_7 ⟨9, h9_0⟩).1
  have e1 : win0_7.index ⟨9, h9_0⟩ (1 : Fin 2) = 0 := (idx0_7 ⟨9, h9_0⟩).2
  refine ⟨⟨9, h9_0⟩, (flush0_7 _).mpr rfl, ?_⟩
  rw [mem_row0_7]
  intro a
  match a with
  | ⟨0, _⟩ =>
    show win0_7.index ⟨9, h9_0⟩ (0 : Fin 2) * 1 ≤ (idx 0).val ∧ (idx 0).val < win0_7.index ⟨9, h9_0⟩ (0 : Fin 2) * 1 + 1
    rw [e0]; omega
  | ⟨1, _⟩ =>
    show win0_7.index ⟨9, h9_0⟩ (1 : Fin 2) * 128 ≤ (idx 1).val ∧ (idx 1).val < win0_7.index ⟨9, h9_0⟩ (1 : Fin 2) * 128 + 128
    rw [e1]; omega

/-- Window 7's array after the ten points is what the scratch row holds after the last. -/
theorem arr0_7 (c : Dev nD) :
    (dat0 (F := Ideal) V c).arrAt 7 cfg0.N = ((acc0 (F := Ideal) V c 9 h9_0).2 : S1x128.Idx → EReal) :=
  (dat0 (F := Ideal) V c).arrAt_eq_of_cover 7 ((acc0 (F := Ideal) V c 9 h9_0).2 : S1x128.Idx → EReal)
    (fun t hf => flushed0_7_eq V c t hf) row_cover0_7

/-! ## The scratch rows are running totals over the tiles -/

/-- One point's step of the running column sum, at column d: what the row held plus the column sum of the point's tile
    of the perceptron's output array (`T` the point, as a tile number). -/
theorem acc0_step_sum (c : Dev nD) (t : Fin cfg0.N) (T : Fin 10) (hT : T.val = t.val) (acc : Vec Ideal S1x128 .f32)
    (u : Fin 1) (d : Fin 128) :
    k0_pay5 (F := Ideal) (iblk0 V c 0 t) (iblk0 V c 1 t) (iblk0 V c 2 t) (iblk0 V c 3 t) (iblk0 V c 4 t) acc (ix2 u d)
      = acc (ix2 u d) + ∑ i : Fin 5000, mlpArr (V c main_v63) (V c main_v65) (V c main_v72) (V c main_v69) (V c main_v73) (ix2 (Cert.Moments.tileRow T i) d) :=
  (sum_apply (iblk0 V c 0 t) (iblk0 V c 1 t) (iblk0 V c 2 t) (iblk0 V c 3 t) (iblk0 V c 4 t) acc u d).trans
    (congrArg (acc (ix2 u d) + ·) (Finset.sum_congr rfl fun i _ =>
      hn0_apply V c t i d (Cert.Moments.tileRow T i) (by rw [Cert.Moments.tileRow_val, hT]; omega)))

/-- The same for the running column sum of squares. -/
theorem acc0_step_sumsq (c : Dev nD) (t : Fin cfg0.N) (T : Fin 10) (hT : T.val = t.val) (acc : Vec Ideal S1x128 .f32)
    (u : Fin 1) (d : Fin 128) :
    k0_pay1 (F := Ideal) (hn0 (F := Ideal) V c t) acc (ix2 u d)
      = acc (ix2 u d) + ∑ i : Fin 5000, mlpArr (V c main_v63) (V c main_v65) (V c main_v72) (V c main_v69) (V c main_v73) (ix2 (Cert.Moments.tileRow T i) d)
          * mlpArr (V c main_v63) (V c main_v65) (V c main_v72) (V c main_v69) (V c main_v73) (ix2 (Cert.Moments.tileRow T i) d) :=
  (sumsq_apply (hn0 (F := Ideal) V c t) acc u d).trans
    (congrArg (acc (ix2 u d) + ·) (Finset.sum_congr rfl fun i _ => by
      rw [hn0_apply V c t i d (Cert.Moments.tileRow T i) (by rw [Cert.Moments.tileRow_val, hT]; omega)]))

/-- A point number below ten is a grid point. -/
theorem pt_lt0 (T : Fin (9 + 1)) : T.val < cfg0.N := Nat.lt_of_lt_of_eq T.isLt (show (9 + 1 : ℕ) = cfg0.N from N_0.symm)

/-- THE COLUMN SUMS after the region's ten points: column d of `main_v74_1` holds the sum, over the ten tiles and the
    5000 rows of each, of column d of the perceptron's output array. -/
theorem final0_sum (c : Dev nD) (u : Fin 1) (d : Fin 128) :
    (dat0 (F := Ideal) V c).arrAt 6 cfg0.N (ix2 u d)
      = ∑ t : Fin 10, ∑ i : Fin 5000, mlpArr (V c main_v63) (V c main_v65) (V c main_v72) (V c main_v69) (V c main_v73) (ix2 (Cert.Moments.tileRow t i) d) := by
  rw [arr0_6 V c]
  exact Cert.ColumnMoments.running_total_last (g := 9)
    (fun T : Fin (9 + 1) => ∑ i : Fin 5000, mlpArr (V c main_v63) (V c main_v65) (V c main_v72) (V c main_v69) (V c main_v73) (ix2 (Cert.Moments.tileRow (g := 10) (b := 5000) T i) d))
    (fun T : Fin (9 + 1) => ((acc0 (F := Ideal) V c T.val (pt_lt0 T)).1 : S1x128.Idx → EReal) (ix2 u d))
    ((acc0_step_sum V c ⟨0, pt_lt0 0⟩ 0 rfl (k0_pay2 (F := Ideal)) u d).trans (by rw [reset0_apply]))
    (fun T => acc0_step_sum V c ⟨T.val + 1, pt_lt0 T.succ⟩ T.succ rfl (acc0 (F := Ideal) V c T.val (pt_lt0 T.castSucc)).1 u d)

/-- THE COLUMN SUMS OF SQUARES after the region's ten points, the same way in `main_v74_2`. -/
theorem final0_sumsq (c : Dev nD) (u : Fin 1) (d : Fin 128) :
    (dat0 (F := Ideal) V c).arrAt 7 cfg0.N (ix2 u d)
      = ∑ t : Fin 10, ∑ i : Fin 5000, mlpArr (V c main_v63) (V c main_v65) (V c main_v72) (V c main_v69) (V c main_v73) (ix2 (Cert.Moments.tileRow t i) d)
          * mlpArr (V c main_v63) (V c main_v65) (V c main_v72) (V c main_v69) (V c main_v73) (ix2 (Cert.Moments.tileRow t i) d) := by
  rw [arr0_7 V c]
  exact Cert.ColumnMoments.running_total_last (g := 9)
    (fun T : Fin (9 + 1) => ∑ i : Fin 5000, mlpArr (V c main_v63) (V c main_v65) (V c main_v72) (V c main_v69) (V c main_v73) (ix2 (Cert.Moments.tileRow (g := 10) (b := 5000) T i) d)
      * mlpArr (V c main_v63) (V c main_v65) (V c main_v72) (V c main_v69) (V c main_v73) (ix2 (Cert.Moments.tileRow (g := 10) (b := 5000) T i) d))
    (fun T : Fin (9 + 1) => ((acc0 (F := Ideal) V c T.val (pt_lt0 T)).2 : S1x128.Idx → EReal) (ix2 u d))
    ((acc0_step_sumsq V c ⟨0, pt_lt0 0⟩ 0 rfl (k0_pay3 (F := Ideal)) u d).trans (by rw [reset1_apply]))
    (fun T => acc0_step_sumsq V c ⟨T.val + 1, pt_lt0 T.succ⟩ T.succ rfl (acc0 (F := Ideal) V c T.val (pt_lt0 T.castSucc)).2 u d)

end Cert.KernelIdeal.Val

end
-- ==== Proof.Val.PayBn1.lean ====
/-
  The payload of region 1's batch-norm-apply-and-ReLU body read at one element, at the ideal float values
  (extended reals, every operation exact): at row i and column d it is
  max (((hn[i,d] - mean[0,d]) * rstd[0,d]) * gamma[0,d] + beta[0,d]) 0.
  Each of the four [1,128] rows is broadcast over the 5000 rows of the tile, so it is read at (0, d).
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- Region 1's stored value at (i, d): normalize, scale, shift, then clamp below at zero. -/
theorem bn_relu_apply (hn : Vec Ideal S5000x128 .f32) (mean rstd gamma beta : Vec Ideal S1x128 .f32)
    (i : Fin 5000) (d : Fin 128) :
    k1_pay1 (F := Ideal) hn mean rstd gamma beta (ix2 i d)
      = max (((hn (ix2 i d) - mean (ix2 (0 : Fin 1) d)) * rstd (ix2 (0 : Fin 1) d)) * gamma (ix2 (0 : Fin 1) d)
          + beta (ix2 (0 : Fin 1) d)) 0 := by
  unfold k1_pay1
  simp only [maximumf_apply, addf_apply, mulf_apply, subf_apply, broadcast_apply, shapeCast_self,
    broadcastTo_1b_ab_apply, scalar_zero_f32]

end Cert.KernelIdeal.Val

end
-- ==== Proof.Val.BnArr.lean ====
/-
  The normalisation layers as whole-array functions, over the extended reals.  From a [50000,128] array x and four
  [1,128] rows (mean, reciprocal deviation, scale, shift) the entry at row r and column d is
      ((x[r,d] - mean[0,d]) * rstd[0,d]) * gamma[0,d] + beta[0,d],
  clamped below at zero in the four inner layers and left as it is in the last one.  Each row entry is read at the
  column of the array entry: the rows are broadcast down the 50000 rows.
-/
import Idealize.ShloMosaic.PureOps.Ideal
import Idealize.ShloMosaic.Lib.ValueIdx

noncomputable section

namespace Cert.KernelIdeal.Val

open Idealize.ShloMosaic Idealize.ShloMosaic.ValueIdx

/-- Normalise, scale, shift, clamp below at zero: entry (r, d) from x[r,d] and the four rows at (0, d). -/
def bnReluArr (x : (⟨2, ![50000, 128]⟩ : Shape).Idx → EReal) (mean rstd gamma beta : (⟨2, ![1, 128]⟩ : Shape).Idx → EReal) :
    (⟨2, ![50000, 128]⟩ : Shape).Idx → EReal :=
  fun idx => max (((x idx - mean (ix2 (0 : Fin 1) (idx 1))) * rstd (ix2 (0 : Fin 1) (idx 1))) * gamma (ix2 (0 : Fin 1) (idx 1))
    + beta (ix2 (0 : Fin 1) (idx 1))) 0

/-- Normalise, scale, shift: entry (r, d) from x[r,d] and the four rows at (0, d). -/
def bnArr (x : (⟨2, ![50000, 128]⟩ : Shape).Idx → EReal) (mean rstd gamma beta : (⟨2, ![1, 128]⟩ : Shape).Idx → EReal) :
    (⟨2, ![50000, 128]⟩ : Shape).Idx → EReal :=
  fun idx => ((x idx - mean (ix2 (0 : Fin 1) (idx 1))) * rstd (ix2 (0 : Fin 1) (idx 1))) * gamma (ix2 (0 : Fin 1) (idx 1))
    + beta (ix2 (0 : Fin 1) (idx 1))

end Cert.KernelIdeal.Val

end
-- ==== Proof.Val.Final1.lean ====
/-
  Region 1's output array after its ten grid points, as ONE function of the arrays the region finds on entry.
  Point t stores, over rows 5000 t … 5000 t + 4999 of the [50000,128] output array `main_v94`, the normalisation of the
  same rows of `main_v74_0` by the four [1,128] rows `main_v90`, `main_v91`, `main_v92`, `main_v93`, clamped below at zero.  The ten
  tiles are disjoint and fill the array, so the array ends holding `bnReluArr` of the five entry arrays.
-/
import proofs.«118775_j16338055594318_1_alg».proof.Proof.KI.Bn1
import proofs.«118775_j16338055594318_1_alg».proof.Proof.Val.PayBn1
import proofs.«118775_j16338055594318_1_alg».proof.Proof.Val.BnArr
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The block indices over the grid: the tile windows 0 and 5 sit at block (t, 0) at point t, the four row windows
    stay at block (0, 0). -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000 t … 5000 t + 4999 of `main_v74_0` as the region finds it. -/
theorem tile1_apply (c : Dev nD) (t : Fin cfg1.N) (i : Fin 5000) (d : Fin 128) (R : Fin 50000) (hR : R.val = t.val * 5000 + i.val) :
    (iblk1 V c 0 t : Vec Ideal S5000x128 .f32) (ix2 i d) = (V c main_v74_0 : S50000x128.Idx → EReal) (ix2 R d) := by
  have e0 : win1_0.index t (0 : Fin 2) = t.val := (blockIdx1 t).1
  have e1 : win1_0.index t (1 : Fin 2) = 0 := (blockIdx1 t).2.1
  unfold iblk1
  rw [View.read_apply]
  show V c main_v74_0 _ = V c main_v74_0 _
  congr 1
  funext x
  apply Fin.ext
  match x with
  | ⟨0, _⟩ => show win1_0.index t (0 : Fin 2) * 5000 + 1 * i.val = R.val; rw [e0, hR]; omega
  | ⟨1, _⟩ => show win1_0.index t (1 : Fin 2) * 128 + 1 * d.val = d.val; rw [e1]; omega

/-- Window 1's block at any point is the whole [1,128] row array `main_v90` as the region finds it. -/
theorem row1_1_apply (c : Dev nD) (t : Fin cfg1.N) (d : Fin 128) :
    (iblk1 V c 1 t : Vec Ideal S1x128 .f32) (ix2 (0 : Fin 1) d) = (V c main_v90 : S1x128.Idx → EReal) (ix2 (0 : Fin 1) d) := by
  have e0 : win1_1.index t (0 : Fin 2) = 0 := (blockIdx1 t).2.2.1
  have e1 : win1_1.index t (1 : Fin 2) = 0 := (blockIdx1 t).2.2.2.1
  unfold iblk1
  rw [View.read_apply]
  show V c main_v90 _ = V c main_v90 _
  congr 1
  funext x
  apply Fin.ext
  match x with
  | ⟨0, _⟩ => show win1_1.index t (0 : Fin 2) * 1 + 1 * (0 : Fin 1).val = (0 : Fin 1).val; rw [e0]; rfl
  | ⟨1, _⟩ => show win1_1.index t (1 : Fin 2) * 128 + 1 * d.val = d.val; rw [e1]; omega

/-- Window 2's block at any point is the whole [1,128] row array `main_v91` as the region finds it. -/
theorem row1_2_apply (c : Dev nD) (t : Fin cfg1.N) (d : Fin 128) :
    (iblk1 V c 2 t : Vec Ideal S1x128 .f32) (ix2 (0 : Fin 1) d) = (V c main_v91 : S1x128.Idx → EReal) (ix2 (0 : Fin 1) d) := by
  have e0 : win1_2.index t (0 : Fin 2) = 0 := (blockIdx1 t).2.2.2.2.1
  have e1 : win1_2.index t (1 : Fin 2) = 0 := (blockIdx1 t).2.2.2.2.2.1
  unfold iblk1
  rw [View.read_apply]
  show V c main_v91 _ = V c main_v91 _
  congr 1
  funext x
  apply Fin.ext
  match x with
  | ⟨0, _⟩ => show win1_2.index t (0 : Fin 2) * 1 + 1 * (0 : Fin 1).val = (0 : Fin 1).val; rw [e0]; rfl
  | ⟨1, _⟩ => show win1_2.index t (1 : Fin 2) * 128 + 1 * d.val = d.val; rw [e1]; omega

/-- Window 3's block at any point is the whole [1,128] row array `main_v92` as the region finds it. -/
theorem row1_3_apply (c : Dev nD) (t : Fin cfg1.N) (d : Fin 128) :
    (iblk1 V c 3 t : Vec Ideal S1x128 .f32) (ix2 (0 : Fin 1) d) = (V c main_v92 : S1x128.Idx → EReal) (ix2 (0 : Fin 1) d) := by
  have e0 : win1_3.index t (0 : Fin 2) = 0 := (blockIdx1 t).2.2.2.2.2.2.1
  have e1 : win1_3.index t (1 : Fin 2) = 0 := (blockIdx1 t).2.2.2.2.2.2.2.1
  unfold iblk1
  rw [View.read_apply]
  show V c main_v92 _ = V c main_v92 _
  congr 1
  funext x
  apply Fin.ext
  match x with
  | ⟨0, _⟩ => show win1_3.index t (0 : Fin 2) * 1 + 1 * (0 : Fin 1).val = (0 : Fin 1).val; rw [e0]; rfl
  | ⟨1, _⟩ => show win1_3.index t (1 : Fin 2) * 128 + 1 * d.val = d.val; rw [e1]; omega

/-- Window 4's block at any point is the whole [1,128] row array `main_v93` as the region finds it. -/
theorem row1_4_apply (c : Dev nD) (t : Fin cfg1.N) (d : Fin 128) :
    (iblk1 V c 4 t : Vec Ideal S1x128 .f32) (ix2 (0 : Fin 1) d) = (V c main_v93 : S1x128.Idx → EReal) (ix2 (0 : Fin 1) d) := by
  have e0 : win1_4.index t (0 : Fin 2) = 0 := (blockIdx1 t).2.2.2.2.2.2.2.2.1
  have e1 : win1_4.index t (1 : Fin 2) = 0 := (blockIdx1 t).2.2.2.2.2.2.2.2.2.1
  unfold iblk1
  rw [View.read_apply]
  show V c main_v93 _ = V c main_v93 _
  congr 1
  funext x
  apply Fin.ext
  match x with
  | ⟨0, _⟩ => show win1_4.index t (0 : Fin 2) * 1 + 1 * (0 : Fin 1).val = (0 : Fin 1).val; rw [e0]; rfl
  | ⟨1, _⟩ => show win1_4.index t (1 : Fin 2) * 128 + 1 * d.val = d.val; rw [e1]; omega

/-- The body's stored value at (i, d), when its tile block reads entry (R, d) of an array `A` and its four row
    blocks read the rows `mean`, `rstd`, `gamma`, `beta` at (0, d), is entry (R, d) of the normalised array. -/
theorem pay1_block (A : S50000x128.Idx → EReal) (mean rstd gamma beta : S1x128.Idx → EReal)
    (x0 : Vec Ideal S5000x128 .f32) (x1 x2 x3 x4 : Vec Ideal S1x128 .f32) (i : Fin 5000) (d : Fin 128) (R : Fin 50000)
    (h0 : x0 (ix2 i d) = A (ix2 R d)) (h1 : x1 (ix2 (0 : Fin 1) d) = mean (ix2 (0 : Fin 1) d))
    (h2 : x2 (ix2 (0 : Fin 1) d) = rstd (ix2 (0 : Fin 1) d)) (h3 : x3 (ix2 (0 : Fin 1) d) = gamma (ix2 (0 : Fin 1) d))
    (h4 : x4 (ix2 (0 : Fin 1) d) = beta (ix2 (0 : Fin 1) d)) :
    k1_pay1 (F := Ideal) x0 x1 x2 x3 x4 (ix2 i d) = bnReluArr A mean rstd gamma beta (ix2 R d) := by
  rw [bn_relu_apply, h0, h1, h2, h3, h4]
  rfl

/-- Entry (i, d) of window 5's block at point t is entry (5000 t + i, d) of the output array. -/
theorem outIdx1 (t : Fin cfg1.N) (i : Fin 5000) (d : Fin 128) (R : Fin 50000) (hR : R.val = t.val * 5000 + i.val) :
    ((cfg1.win 5).blk t).view.emb (ix2 i d) = (ix2 R d : S50000x128.Idx) := by
  have e0 : win1_5.index t (0 : Fin 2) = t.val := (blockIdx1 t).2.2.2.2.2.2.2.2.2.2.1
  have e1 : win1_5.index t (1 : Fin 2) = 0 := (blockIdx1 t).2.2.2.2.2.2.2.2.2.2.2
  funext x
  apply Fin.ext
  match x with
  | ⟨0, _⟩ => show win1_5.index t (0 : Fin 2) * 5000 + 1 * i.val = R.val; rw [e0, hR]; omega
  | ⟨1, _⟩ => show win1_5.index t (1 : Fin 2) * 128 + 1 * d.val = d.val; rw [e1]; omega

/-- What point t writes back to the output array is block t of the normalised array. -/
theorem flushed1_eq (c : Dev nD) (t : Fin cfg1.N) :
    (dat1 (F := Ideal) V c).flushed 5 t
      = ((cfg1.win 5).blk t).view.read (Elt Ideal) (bnReluArr (V c main_v74_0) (V c main_v90) (V c main_v91) (V c main_v92) (V c main_v93)) := by
  show (cfg1.win 5).cut (grid1.coords t) ((dat1 (F := Ideal) V c).after 5 t) = _
  rw [after1_5]
  funext j
  obtain ⟨i, d, rfl⟩ : ∃ (i : Fin 5000) (d : Fin 128), j = ix2 i d := ⟨j 0, j 1, eq_ix2 j⟩
  have ht : t.val < 10 := Nat.lt_of_lt_of_eq t.isLt (show cfg1.N = 10 from N_1)
  have hR : t.val * 5000 + i.val < 50000 := by have := i.isLt; omega
  rw [View.read_apply, outIdx1 t i d ⟨t.val * 5000 + i.val, hR⟩ rfl]
  show out1 V c t (ix2 i d) = _
  unfold out1
  exact pay1_block (V c main_v74_0) (V c main_v90) (V c main_v91) (V c main_v92) (V c main_v93)
    (iblk1 V c 0 t) (iblk1 V c 1 t) (iblk1 V c 2 t) (iblk1 V c 3 t) (iblk1 V c 4 t) i d ⟨t.val * 5000 + i.val, hR⟩
    (tile1_apply V c t i d ⟨t.val * 5000 + i.val, hR⟩ rfl) (row1_1_apply V c t d) (row1_2_apply V c t d)
    (row1_3_apply V c t d) (row1_4_apply V c t d)

/-- An index of the output array is in point t's block iff each coordinate is in the block's range on its axis. -/
theorem mem_tile1 (t : Fin cfg1.N) (idx : S50000x128.Idx) :
    idx ∈ ((cfg1.win 5).blk t).view.set ↔ ∀ a : Fin 2, win1_5.index t a * S5000x128.size a ≤ (idx a).val
      ∧ (idx a).val < win1_5.index t a * S5000x128.size a + S5000x128.size a := by
  show idx ∈ ((View.whole main_v94).slice (win1_5.rect t)).set ↔ _
  rw [View.set_slice_whole, Rect.mem_set_unit]
  exact Iff.rfl

/-- Every index of the output array is in the block of the point its row falls in: row r is written at point r / 5000. -/
theorem tiles_cover1 (idx : S50000x128.Idx) :
    ∃ t : Fin cfg1.N, (cfg1.win 5).flush t = true ∧ idx ∈ ((cfg1.win 5).blk t).view.set := by
  have h0 : (idx 0).val < 50000 := (idx 0).isLt
  have h1 : (idx 1).val < 128 := (idx 1).isLt
  have hN : (idx 0).val / 5000 < cfg1.N := by rw [show cfg1.N = 10 from N_1]; omega
  have e0 : win1_5.index ⟨(idx 0).val / 5000, hN⟩ (0 : Fin 2) = (idx 0).val / 5000 := (blockIdx1 ⟨(idx 0).val / 5000, hN⟩).2.2.2.2.2.2.2.2.2.2.1
  have e1 : win1_5.index ⟨(idx 0).val / 5000, hN⟩ (1 : Fin 2) = 0 := (blockIdx1 ⟨(idx 0).val / 5000, hN⟩).2.2.2.2.2.2.2.2.2.2.2
  refine ⟨⟨(idx 0).val / 5000, hN⟩, flush1_5 _, ?_⟩
  rw [mem_tile1]
  intro a
  match a with
  | ⟨0, _⟩ =>
    show win1_5.index ⟨(idx 0).val / 5000, hN⟩ (0 : Fin 2) * 5000 ≤ (idx 0).val
      ∧ (idx 0).val < win1_5.index ⟨(idx 0).val / 5000, hN⟩ (0 : Fin 2) * 5000 + 5000
    rw [e0]; omega
  | ⟨1, _⟩ =>
    show win1_5.index ⟨(idx 0).val / 5000, hN⟩ (1 : Fin 2) * 128 ≤ (idx 1).val
      ∧ (idx 1).val < win1_5.index ⟨(idx 0).val / 5000, hN⟩ (1 : Fin 2) * 128 + 128
    rw [e1]; omega

/-- THE OUTPUT ARRAY after the region's ten points: the normalised array of the five entry arrays. -/
theorem final1 (c : Dev nD) :
    (dat1 (F := Ideal) V c).arrAt 5 cfg1.N = bnReluArr (V c main_v74_0) (V c main_v90) (V c main_v91) (V c main_v92) (V c main_v93) :=
  (dat1 (F := Ideal) V c).arrAt_eq_of_cover 5 (bnReluArr (V c main_v74_0) (V c main_v90) (V c main_v91) (V c main_v92) (V c main_v93))
    (fun t _ => flushed1_eq V c t) (tiles_cover1)

end Cert.KernelIdeal.Val

end
-- ==== Proof.Val.GlueOps.lean ====
/-
  What the host operations between the regions compute, as pure functions of the buffers they read, at the ideal
  float values (extended reals, every operation exact), each read at one element:
  one layer's parameters cut out of the stacked tables (row r of a [5,128] or [5,256] table as a one-row matrix,
  matrix r of a [5,128,256] or [5,256,128] stack), and the batch statistics from a region's two column sums
  (the mean, sum / n, and the inverse standard deviation, rsqrt ((sum of squares / n - mean * mean) + eps), n and eps
  the program's two f32 literals).
-/
import proofs.«118775_j16338055594318_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The layer's parameters: one row of a stacked table -/

/-- A rank-3 array cut along axis 0 from `o` reads, at `(j, a, e)`, the source at `(k, a, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row r of a [5,128] table as a [1,128] row: the slice of that row, the unit axis dropped and put back. -/
def row128 (r : ℕ) (h : S5x128.Slices ![r, 0] S1x128) (x : Vec Ideal S5x128 .f32) : Vec Ideal S1x128 .f32 :=
  shapeCast S1x128 (shapeCast S128 (extractStridedSlice S1x128 ![r, 0] x h) shapeCasts_S1x128_S128) shapeCasts_S128_S1x128

/-- It reads the table's row r at every column. -/
theorem row128_apply (r : ℕ) (h : S5x128.Slices ![r, 0] S1x128) (x : Vec Ideal S5x128 .f32) (k : Fin 5) (hk : k.val = r)
    (u : Fin 1) (d : Fin 128) : row128 r h x (ix2 u d) = x (ix2 k d) := by
  unfold row128
  rw [shapeCast_a_1a_apply, shapeCast_1a_a_apply]
  exact slice2_axis0_apply r x h (0 : Fin 1) d k (by rw [hk]; rfl)

/-- Row r of a [5,256] table as a [1,256] row. -/
def row256 (r : ℕ) (h : S5x256.Slices ![r, 0] S1x256) (x : Vec Ideal S5x256 .f32) : Vec Ideal S1x256 .f32 :=
  shapeCast S1x256 (shapeCast S256 (extractStridedSlice S1x256 ![r, 0] x h) shapeCasts_S1x256_S256) shapeCasts_S256_S1x256

/-- It reads the table's row r at every column. -/
theorem row256_apply (r : ℕ) (h : S5x256.Slices ![r, 0] S1x256) (x : Vec Ideal S5x256 .f32) (k : Fin 5) (hk : k.val = r)
    (u : Fin 1) (j : Fin 256) : row256 r h x (ix2 u j) = x (ix2 k j) := by
  unfold row256
  rw [shapeCast_a_1a_apply, shapeCast_1a_a_apply]
  exact slice2_axis0_apply r x h (0 : Fin 1) j k (by rw [hk]; rfl)

/-- Matrix r of a [5,128,256] stack as a [128,256] matrix: the slice of that matrix, the unit axis dropped. -/
def mat128x256 (r : ℕ) (h : S5x128x256.Slices ![r, 0, 0] S1x128x256) (x : Vec Ideal S5x128x256 .f32) : Vec Ideal S128x256 .f32 :=
  shapeCast S128x256 (extractStridedSlice S1x128x256 ![r, 0, 0] x h) shapeCasts_S1x128x256_S128x256

/-- It reads the stack's matrix r. -/
theorem mat128x256_apply (r : ℕ) (h : S5x128x256.Slices ![r, 0, 0] S1x128x256) (x : Vec Ideal S5x128x256 .f32) (k : Fin 5)
    (hk : k.val = r) (a : Fin 128) (b : Fin 256) : mat128x256 r h x (ix2 a b) = x (ix3 k a b) := by
  unfold mat128x256
  rw [shapeCast_1ab_ab_apply]
  exact slice3_axis0_apply r x h (0 : Fin 1) a b k (by rw [hk]; rfl)

/-- Matrix r of a [5,256,128] stack as a [256,128] matrix. -/
def mat256x128 (r : ℕ) (h : S5x256x128.Slices ![r, 0, 0] S1x256x128) (x : Vec Ideal S5x256x128 .f32) : Vec Ideal S256x128 .f32 :=
  shapeCast S256x128 (extractStridedSlice S1x256x128 ![r, 0, 0] x h) shapeCasts_S1x256x128_S256x128

/-- It reads the stack's matrix r. -/
theorem mat256x128_apply (r : ℕ) (h : S5x256x128.Slices ![r, 0, 0] S1x256x128) (x : Vec Ideal S5x256x128 .f32) (k : Fin 5)
    (hk : k.val = r) (a : Fin 256) (b : Fin 128) : mat256x128 r h x (ix2 a b) = x (ix3 k a b) := by
  unfold mat256x128
  rw [shapeCast_1ab_ab_apply]
  exact slice3_axis0_apply r x h (0 : Fin 1) a b k (by rw [hk]; rfl)

/-! ## The batch statistics from the two column sums -/

/-- The splat of an f32 literal over 128 lanes reads the literal's value everywhere. -/
theorem splat128_apply (c : BitVec 32) (h : S_.BroadcastsInDim S128 (![] : Fin 0 → Fin S128.rank)) (d : Fin 128) :
    broadcastInDim S128 ![] h (constant (F := Ideal) S_ .f32 c) (ix1 d) = Ideal.ofBits .f32 c :=
  broadcastInDim_apply ![] h _ (ix1 d) ix0 (fun a => a.elim0)

/-- The number of rows, 50000, as the f32 literal the program divides by. -/
abbrev nRows : EReal := Ideal.ofBits .f32 0x47435000#32
/-- The variance's guard, the f32 literal the program adds before the inverse square root. -/
abbrev epsBn : EReal := Ideal.ofBits .f32 0x3727C5AC#32

/-- The divisor literal is exactly fifty thousand: its word's sign, exponent and fraction spell 2^15 * (1 + 4411392 / 2^23). -/
theorem nRows_eq : nRows = ((50000 : ℝ) : EReal) := by
  simp [Ideal.ofBits, Ideal.ieee, -EReal.coe_mul] <;> norm_num

/-- A [1,128] row of column sums divided by the number of rows, as a [128] vector. -/
def perRow (s : Vec Ideal S1x128 .f32) : FVec Ideal S128 .f32 :=
  Host.divf (shapeCast S128 s shapeCasts_S1x128_S128) (broadcastInDim S128 ![] bcast_S_S128 (constant (F := Ideal) S_ .f32 0x47435000#32))

theorem perRow_apply (s : Vec Ideal S1x128 .f32) (d : Fin 128) :
    perRow s (ix1 d) = Ideal.div (s (ix2 (0 : Fin 1) d)) nRows := by
  unfold perRow
  show Ideal.div (shapeCast S128 s shapeCasts_S1x128_S128 (ix1 d)) (broadcastInDim S128 ![] bcast_S_S128 (constant (F := Ideal) S_ .f32 0x47435000#32) (ix1 d)) = _
  rw [shapeCast_1a_a_apply, splat128_apply]

/-- The batch mean as a [1,128] row. -/
def meanRow (s1 : Vec Ideal S1x128 .f32) : Vec Ideal S1x128 .f32 := shapeCast S1x128 (perRow s1) shapeCasts_S128_S1x128

/-- The batch mean at column d: the column sum over the number of rows. -/
theorem meanRow_apply (s1 : Vec Ideal S1x128 .f32) (u : Fin 1) (d : Fin 128) :
    meanRow s1 (ix2 u d) = Ideal.div (s1 (ix2 (0 : Fin 1) d)) nRows := by
  unfold meanRow
  rw [shapeCast_a_1a_apply, perRow_apply]

/-- The inverse standard deviation as a [1,128] row: rsqrt ((sum of squares / n − mean · mean) + eps). -/
def rstdRow (s1 s2 : Vec Ideal S1x128 .f32) : Vec Ideal S1x128 .f32 :=
  shapeCast S1x128
    (Host.rsqrt (addf (subf (perRow s2) (mulf (perRow s1) (perRow s1)))
      (broadcastInDim S128 ![] bcast_S_S128 (constant (F := Ideal) S_ .f32 0x3727C5AC#32))))
    shapeCasts_S128_S1x128

/-- The inverse standard deviation at column d. -/
theorem rstdRow_apply (s1 s2 : Vec Ideal S1x128 .f32) (u : Fin 1) (d : Fin 128) :
    rstdRow s1 s2 (ix2 u d)
      = Ideal.rsqrt ((Ideal.div (s2 (ix2 (0 : Fin 1) d)) nRows
          - Ideal.div (s1 (ix2 (0 : Fin 1) d)) nRows * Ideal.div (s1 (ix2 (0 : Fin 1) d)) nRows) + epsBn) := by
  unfold rstdRow
  rw [shapeCast_a_1a_apply]
  show Ideal.rsqrt ((perRow s2 (ix1 d) - perRow s1 (ix1 d) * perRow s1 (ix1 d))
    + broadcastInDim S128 ![] bcast_S_S128 (constant (F := Ideal) S_ .f32 0x3727C5AC#32) (ix1 d)) = _
  rw [perRow_apply, perRow_apply, splat128_apply]

end Cert.KernelIdeal.Val

end
-- ==== Proof.Val.Glue0.lean ====
/-
  Host stretch 0 (before region 0)'s last operations read at one element, at the ideal float values, from an arbitrary
  valuation of the buffers before it: the layer's two weight matrices and two bias rows as region 0's windows find them,
  cut out of the stacked parameter tables.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 0 the first layer's weights' buffer holds matrix 0 of the stacked first-layer weights. -/
theorem glue0_w1_eq (W : Valuation τ sig (Elt Ideal)) :
    (StableHlo.after hostOps0 W (Proc.devRef .tc main_v65) : (⟨S128x256, .f32⟩ : BufTy).Contents (Elt Ideal))
      = mat128x256 0 slices_S5x128x256_S1x128x256_0_0_0 (W (Proc.devRef .tc main_arg7)) := by
  after_results_simp
  rfl

theorem glue0_w1 (W : Valuation τ sig (Elt Ideal)) (k : Fin 128) (j : Fin 256) :
    (StableHlo.after hostOps0 W (Proc.devRef .tc main_v65) : (⟨S128x256, .f32⟩ : BufTy).Contents (Elt Ideal)) (ix2 k j)
      = (W (Proc.devRef .tc main_arg7) : (⟨S5x128x256, .f32⟩ : BufTy).Contents (Elt Ideal)) (ix3 (0 : Fin 5) k j) := by
  rw [glue0_w1_eq]; exact mat128x256_apply 0 _ _ (0 : Fin 5) rfl k j

set_option maxHeartbeats 4000000 in
/-- After stretch 0 the first layer's bias's buffer holds row 0 of the stacked first-layer biases. -/
theorem glue0_b1_eq (W : Valuation τ sig (Elt Ideal)) :
    (StableHlo.after hostOps0 W (Proc.devRef .tc main_v72) : (⟨S1x256, .f32⟩ : BufTy).Contents (Elt Ideal))
      = row256 0 slices_S5x256_S1x256_0_0 (W (Proc.devRef .tc main_arg8)) := by
  after_results_simp
  rfl

theorem glue0_b1 (W : Valuation τ sig (Elt Ideal)) (u : Fin 1) (j : Fin 256) :
    (StableHlo.after hostOps0 W (Proc.devRef .tc main_v72) : (⟨S1x256, .f32⟩ : BufTy).Contents (Elt Ideal)) (ix2 u j)
      = (W (Proc.devRef .tc main_arg8) : (⟨S5x256, .f32⟩ : BufTy).Contents (Elt Ideal)) (ix2 (0 : Fin 5) j) := by
  rw [glue0_b1_eq]; exact row256_apply 0 _ _ (0 : Fin 5) rfl u j

set_option maxHeartbeats 4000000 in
/-- After stretch 0 the second layer's weights' buffer holds matrix 0 of the stacked second-layer weights. -/
theorem glue0_w2_eq (W : Valuation τ sig (Elt Ideal)) :
    (StableHlo.after hostOps0 W (Proc.devRef .tc main_v69) : (⟨S256x128, .f32⟩ : BufTy).Contents (Elt Ideal))
      = mat256x128 0 slices_S5x256x128_S1x256x128_0_0_0 (W (Proc.devRef .tc main_arg9)) := by
  after_results_simp
  rfl

theorem glue0_w2 (W : Valuation τ sig (Elt Ideal)) (j : Fin 256) (d : Fin 128) :
    (StableHlo.after hostOps0 W (Proc.devRef .tc main_v69) : (⟨S256x128, .f32⟩ : BufTy).Contents (Elt Ideal)) (ix2 j d)
      = (W (Proc.devRef .tc main_arg9) : (⟨S5x256x128, .f32⟩ : BufTy).Contents (Elt Ideal)) (ix3 (0 : Fin 5) j d) := by
  rw [glue0_w2_eq]; exact mat256x128_apply 0 _ _ (0 : Fin 5) rfl j d

set_option maxHeartbeats 4000000 in
/-- After stretch 0 the second layer's bias's buffer holds row 0 of the stacked second-layer biases. -/
theorem glue0_b2_eq (W : Valuation τ sig (Elt Ideal)) :
    (StableHlo.after hostOps0 W (Proc.devRef .tc main_v73) : (⟨S1x128, .f32⟩ : BufTy).Contents (Elt Ideal))
      = row128 0 slices_S5x128_S1x128_0_0 (W (Proc.devRef .tc main_arg10)) := by
  after_results_simp
  rfl

theorem glue0_b2 (W : Valuation τ sig (Elt Ideal)) (u : Fin 1) (d : Fin 128) :
    (StableHlo.after hostOps0 W (Proc.devRef .tc main_v73) : (⟨S1x128, .f32⟩ : BufTy).Contents (Elt Ideal)) (ix2 u d)
      = (W (Proc.devRef .tc main_arg10) : (⟨S5x128, .f32⟩ : BufTy).Contents (Elt Ideal)) (ix2 (0 : Fin 5) d) := by
  rw [glue0_b2_eq]; exact row128_apply 0 _ _ (0 : Fin 5) rfl u d

end Cert.KernelIdeal.Val

end
-- ==== Proof.Val.Glue1.lean ====
/-
  Host stretch 1 (between region 0 and region 1) read at one element, at the ideal float values, from an arbitrary
  valuation of the buffers before it: the four [1,128] rows region 1 reads — the batch mean and the inverse standard
  deviation computed from region 0's column sum and column sum of squares, and the layer's row of gamma and of
  beta — and that the stretch leaves region 0's output tile as it was.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

/-- After stretch 1 the mean's buffer holds the batch mean of region 0's column sums. -/
theorem glue1_mean_eq (W : Valuation τ sig (Elt Ideal)) :
    (StableHlo.after hostOps1 W (Proc.devRef .tc main_v90) : (⟨S1x128, .f32⟩ : BufTy).Contents (Elt Ideal))
      = meanRow (W (Proc.devRef .tc main_v74_1)) := by
  after_results
  rfl

theorem glue1_mean (W : Valuation τ sig (Elt Ideal)) (u : Fin 1) (d : Fin 128) :
    (StableHlo.after hostOps1 W (Proc.devRef .tc main_v90) : (⟨S1x128, .f32⟩ : BufTy).Contents (Elt Ideal)) (ix2 u d)
      = Ideal.div ((W (Proc.devRef .tc main_v74_1) : (⟨S1x128, .f32⟩ : BufTy).Contents (Elt Ideal)) (ix2 (0 : Fin 1) d)) nRows := by
  rw [glue1_mean_eq, meanRow_apply]

/-- After stretch 1 the inverse standard deviation's buffer holds it, from region 0's two column sums. -/
theorem glue1_rstd_eq (W : Valuation τ sig (Elt Ideal)) :
    (StableHlo.after hostOps1 W (Proc.devRef .tc main_v91) : (⟨S1x128, .f32⟩ : BufTy).Contents (Elt Ideal))
      = rstdRow (W (Proc.devRef .tc main_v74_1)) (W (Proc.devRef .tc main_v74_2)) := by
  after_results
  rfl

theorem glue1_rstd (W : Valuation τ sig (Elt Ideal)) (u : Fin 1) (d : Fin 128) :
    (StableHlo.after hostOps1 W (Proc.devRef .tc main_v91) : (⟨S1x128, .f32⟩ : BufTy).Contents (Elt Ideal)) (ix2 u d)
      = Ideal.rsqrt ((Ideal.div ((W (Proc.devRef .tc main_v74_2) : (⟨S1x128, .f32⟩ : BufTy).Contents (Elt Ideal)) (ix2 (0 : Fin 1) d)) nRows
          - Ideal.div ((W (Proc.devRef .tc main_v74_1) : (⟨S1x128, .f32⟩ : BufTy).Contents (Elt Ideal)) (ix2 (0 : Fin 1) d)) nRows
            * Ideal.div ((W (Proc.devRef .tc main_v74_1) : (⟨S1x128, .f32⟩ : BufTy).Contents (Elt Ideal)) (ix2 (0 : Fin 1) d)) nRows) + epsBn) := by
  rw [glue1_rstd_eq, rstdRow_apply]

/-- After stretch 1 the scale's buffer holds row 0 of gamma. -/
theorem glue1_gamma_eq (W : Valuation τ sig (Elt Ideal)) :
    (StableHlo.after hostOps1 W (Proc.devRef .tc main_v92) : (⟨S1x128, .f32⟩ : BufTy).Contents (Elt Ideal))
      = row128 0 slices_S5x128_S1x128_0_0 (W (Proc.devRef .tc main_arg11)) := by
  after_results
  rfl

theorem glue1_gamma (W : Valuation τ sig (Elt Ideal)) (u : Fin 1) (d : Fin 128) :
    (StableHlo.after hostOps1 W (Proc.devRef .tc main_v92) : (⟨S1x128, .f32⟩ : BufTy).Contents (Elt Ideal)) (ix2 u d)
      = (W (Proc.devRef .tc main_arg11) : (⟨S5x128, .f32⟩ : BufTy).Contents (Elt Ideal)) (ix2 (0 : Fin 5) d) := by
  rw [glue1_gamma_eq]; exact row128_apply 0 _ _ (0 : Fin 5) rfl u d

/-- After stretch 1 the shift's buffer holds row 0 of beta. -/
theorem glue1_beta_eq (W : Valuation τ sig (Elt Ideal)) :
    (StableHlo.after hostOps1 W (Proc.devRef .tc main_v93) : (⟨S1x128, .f32⟩ : BufTy).Contents (Elt Ideal))
      = row128 0 slices_S5x128_S1x128_0_0 (W (Proc.devRef .tc main_arg12)) := by
  after_results
  rfl

theorem glue1_beta (W : Valuation τ sig (Elt Ideal)) (u : Fin 1) (d : Fin 128) :
    (StableHlo.after hostOps1 W (Proc.devRef .tc main_v93) : (⟨S1x128, .f32⟩ : BufTy).Contents (Elt Ideal)) (ix2 u d)
      = (W (Proc.devRef .tc main_arg12) : (⟨S5x128, .f32⟩ : BufTy).Contents (Elt Ideal)) (ix2 (0 : Fin 5) d) := by
  rw [glue1_beta_eq]; exact row128_apply 0 _ _ (0 : Fin 5) rfl u d

/-- Stretch 1 writes none of region 0's output tile: its buffer holds after the stretch what it held before. -/
theorem glue1_keep (W : Valuation τ sig (Elt Ideal)) :
    StableHlo.after hostOps1 W (Proc.devRef .tc main_v74_0) = W (Proc.devRef .tc main_v74_0) := by
  after_results <;> rfl

end Cert.KernelIdeal.Val

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.Val.Spec.lean ====
/-
  One layer's dense part as functions of plain coordinates, in the extended reals, in the two arrangements the two
  programs use, and the law that joins them.

  Both programs compute, for the aggregated features `agg` (50000 rows of 128), the two-layer perceptron
    hn r d = (∑ j, max ((∑ k, agg r k · w1 k j) + b1 j) 0 · w2 j d) + b2 d,
  then normalize each column by its batch statistics. One takes the column's mean and the CENTRED variance (the mean
  of the squared deviations from the mean) over the whole column. The other collects, tile by tile (ten tiles of 5000
  rows), the column's sum and its sum of squares, and takes the RAW variance (the mean of the squares less the square
  of the mean). A sum collected tile by tile is the whole sum in any commutative monoid, so the means agree always;
  the two variances agree when every entry of the column is a real number, and then the variance is a nonnegative real,
  so that with a positive ε the reciprocal square root is a real and the normalized value is one again.
-/
import proofs.«118775_j16338055594318_1_alg».proof.Proof.LibColumnMoments
import proofs.«118775_j16338055594318_1_alg».proof.Proof.LibFinite
import Idealize.ShloMosaic.PureOps.Ideal

noncomputable section

namespace Cert.Spec

open Idealize.ShloMosaic Cert.Finite Cert.Moments

/-- Row `i` of tile `t` among ten tiles of 5000 rows: row `5000 · t + i` of the column. -/
def row (t : Fin 10) (i : Fin 5000) : Fin 50000 := ⟨5000 * t.val + i.val, by have := t.isLt; have := i.isLt; omega⟩

section Layer

variable (agg : Fin 50000 → Fin 128 → EReal) (w1 : Fin 128 → Fin 256 → EReal) (b1 : Fin 256 → EReal)
  (w2 : Fin 256 → Fin 128 → EReal) (b2 : Fin 128 → EReal) (γ β : Fin 128 → EReal) (N ε : EReal)

/-- The two-layer perceptron at row `r`, column `d`. -/
def hn (r : Fin 50000) (d : Fin 128) : EReal :=
  (∑ j : Fin 256, max ((∑ k : Fin 128, agg r k * w1 k j) + b1 j) 0 * w2 j d) + b2 d

/-- The column's mean over the whole column. -/
def meanC (d : Fin 128) : EReal := Ideal.div (∑ r : Fin 50000, hn agg w1 b1 w2 b2 r d) N
/-- The centred variance: the mean of the squared deviations. -/
def varC (d : Fin 128) : EReal :=
  Ideal.div (∑ r : Fin 50000, (hn agg w1 b1 w2 b2 r d - meanC agg w1 b1 w2 b2 N d) * (hn agg w1 b1 w2 b2 r d - meanC agg w1 b1 w2 b2 N d)) N
/-- The normalized value before the final rectifier, centred arrangement. -/
def normC (r : Fin 50000) (d : Fin 128) : EReal :=
  ((hn agg w1 b1 w2 b2 r d - meanC agg w1 b1 w2 b2 N d) * Ideal.rsqrt (varC agg w1 b1 w2 b2 N d + ε)) * γ d + β d

/-- The column's sum collected tile by tile, -/
def sumT (d : Fin 128) : EReal := ∑ t : Fin 10, ∑ i : Fin 5000, hn agg w1 b1 w2 b2 (row t i) d
/-- its sum of squares collected tile by tile, -/
def sumsqT (d : Fin 128) : EReal := ∑ t : Fin 10, ∑ i : Fin 5000, hn agg w1 b1 w2 b2 (row t i) d * hn agg w1 b1 w2 b2 (row t i) d
/-- the mean from the tiles' sums, -/
def meanT (d : Fin 128) : EReal := Ideal.div (sumT agg w1 b1 w2 b2 d) N
/-- the raw variance: the mean of the squares less the squared mean, -/
def varT (d : Fin 128) : EReal := Ideal.div (sumsqT agg w1 b1 w2 b2 d) N - meanT agg w1 b1 w2 b2 N d * meanT agg w1 b1 w2 b2 N d
/-- and the normalized value before the final rectifier, tiled arrangement. -/
def normT (r : Fin 50000) (d : Fin 128) : EReal :=
  ((hn agg w1 b1 w2 b2 r d - meanT agg w1 b1 w2 b2 N d) * Ideal.rsqrt (varT agg w1 b1 w2 b2 N d + ε)) * γ d + β d

end Layer

section Law

variable {agg : Fin 50000 → Fin 128 → EReal} {w1 : Fin 128 → Fin 256 → EReal} {b1 : Fin 256 → EReal}
  {w2 : Fin 256 → Fin 128 → EReal} {b2 : Fin 128 → EReal} {γ β : Fin 128 → EReal} {N ε : EReal}

/-- A sum over the 50000 rows is the sum over the ten tiles of the sums over each tile's 5000 rows. -/
theorem sum_rows {M : Type*} [AddCommMonoid M] (f : Fin 50000 → M) :
    ∑ r : Fin 50000, f r = ∑ t : Fin 10, ∑ i : Fin 5000, f (row t i) := by
  have h := Cert.Moments.sum_tiles (g := 10) (b := 5000) (fun r : Fin (10 * 5000) => f r)
  refine h.trans (Finset.sum_congr rfl fun t _ => Finset.sum_congr rfl fun i _ => ?_)
  refine congrArg f (Fin.ext ?_)
  show (tileRow t i).val = 5000 * t.val + i.val
  rw [tileRow_val]; omega

/-- The perceptron of finite inputs is finite. -/
theorem isReal_hn (ha : ∀ r k, IsReal (agg r k)) (h1 : ∀ k j, IsReal (w1 k j)) (hb1 : ∀ j, IsReal (b1 j))
    (h2 : ∀ j d, IsReal (w2 j d)) (hb2 : ∀ d, IsReal (b2 d)) (r : Fin 50000) (d : Fin 128) :
    IsReal (hn agg w1 b1 w2 b2 r d) :=
  (IsReal.sum _ _ fun j _ =>
    (((IsReal.sum _ _ fun k _ => (ha r k).mul (h1 k j)).add (hb1 j)).max isReal_zero).mul (h2 j d)).add (hb2 d)

/-- The mean from the tiles' sums is the column's mean: no finiteness is needed. -/
theorem meanT_eq_meanC (d : Fin 128) : meanT agg w1 b1 w2 b2 N d = meanC agg w1 b1 w2 b2 N d := by
  unfold meanT meanC sumT
  rw [sum_rows (fun r => hn agg w1 b1 w2 b2 r d)]

/-- The raw variance from the tiles' sums is the centred variance of the column, when the column's entries are finite
    and `N` is the number of rows. -/
theorem varT_eq_varC (d : Fin 128) (hreal : ∀ r, IsReal (hn agg w1 b1 w2 b2 r d)) (hN : N = ((50000 : ℝ) : EReal)) :
    varT agg w1 b1 w2 b2 N d = varC agg w1 b1 w2 b2 N d := by
  choose x hx using hreal
  unfold varT varC meanT meanC sumT sumsqT
  rw [← sum_rows (fun r => hn agg w1 b1 w2 b2 r d * hn agg w1 b1 w2 b2 r d), ← sum_rows (fun r => hn agg w1 b1 w2 b2 r d)]
  simp only [hx, hN]
  exact Cert.Moments.var_two_forms_coe x 50000 (by simp) (by norm_num)

/-- So the two arrangements normalize to the same value. -/
theorem normT_eq_normC (r : Fin 50000) (d : Fin 128) (hreal : ∀ r, IsReal (hn agg w1 b1 w2 b2 r d)) (hN : N = ((50000 : ℝ) : EReal)) :
    normT agg w1 b1 w2 b2 γ β N ε r d = normC agg w1 b1 w2 b2 γ β N ε r d := by
  unfold normT normC
  rw [meanT_eq_meanC, varT_eq_varC d hreal hN]

/-- The normalized value of a finite column is finite: the centred variance is a nonnegative real, so with a positive
    real `ε` the reciprocal square root is a real. -/
theorem isReal_normC (r : Fin 50000) (d : Fin 128) (hreal : ∀ r, IsReal (hn agg w1 b1 w2 b2 r d)) (hγ : IsReal (γ d)) (hβ : IsReal (β d))
    (hN : N = ((50000 : ℝ) : EReal)) (hε : ∃ e : ℝ, 0 < e ∧ ε = (e : EReal)) :
    IsReal (normC agg w1 b1 w2 b2 γ β N ε r d) := by
  choose x hx using hreal
  obtain ⟨e, he, rfl⟩ := hε
  have hmean : IsReal (meanC agg w1 b1 w2 b2 N d) := by
    unfold meanC; rw [hN]
    exact (IsReal.sum _ _ fun r _ => ⟨x r, hx r⟩).div_coe (by norm_num)
  have hvar : ∃ v : ℝ, 0 ≤ v ∧ varC agg w1 b1 w2 b2 N d = (v : EReal) := by
    unfold varC meanC
    simp only [hx, hN]
    exact Cert.Moments.var_centred_coe x 50000 (by norm_num)
  obtain ⟨v, hv, hvar⟩ := hvar
  unfold normC
  rw [hvar, ← EReal.coe_add]
  have hx' : IsReal (hn agg w1 b1 w2 b2 r d) := ⟨x r, hx r⟩
  exact (((hx'.sub hmean).mul (isReal_rsqrt_of_pos (by linarith))).mul hγ).add hβ

end Law

end Cert.Spec

end
-- ==== Proof.Val.Step.lean ====
/-
  One layer's step of the comparison, free of either program: if the two programs' aggregated features are the same
  array of real numbers, the layer's weights are real, and each program's result is, entry by entry, the normalized
  perceptron in its own arrangement (the tiled raw-variance one, the whole-column centred one), then the two results are
  the same array, again of real numbers — so the next layer starts from the same place.
-/
import proofs.«118775_j16338055594318_1_alg».proof.Proof.Val.Spec
import Idealize.ShloMosaic.Lib.ValueIdx

noncomputable section

namespace Cert.Spec

open Idealize.ShloMosaic Idealize.ShloMosaic.ValueIdx Cert.Finite

/-- A matrix of 50000 rows of 128, as the programs index it. -/
abbrev Feat : Type := (⟨2, ![50000, 128]⟩ : Shape).Idx → EReal

/-- A function on matrix indices is determined by its values at the indices built from coordinates. -/
theorem feat_ext {f g : Feat} (h : ∀ (r : Fin 50000) (d : Fin 128), f (ix2 r d) = g (ix2 r d)) : f = g := by
  funext j
  obtain ⟨r, d, rfl⟩ : ∃ (r : Fin 50000) (d : Fin 128), j = ix2 r d := ⟨j 0, j 1, eq_ix2 j⟩
  exact h r d

theorem feat_real {f : Feat} (h : ∀ (r : Fin 50000) (d : Fin 128), IsReal (f (ix2 r d))) : ∀ j, IsReal (f j) := by
  intro j
  obtain ⟨r, d, rfl⟩ : ∃ (r : Fin 50000) (d : Fin 128), j = ix2 r d := ⟨j 0, j 1, eq_ix2 j⟩
  exact h r d

variable {w1 : Fin 128 → Fin 256 → EReal} {b1 : Fin 256 → EReal} {w2 : Fin 256 → Fin 128 → EReal} {b2 : Fin 128 → EReal}
  {γ β : Fin 128 → EReal} {N ε : EReal}

/-- A layer that ends in the rectifier. -/
theorem step_relu (agg outK outR : Feat) (hreal : ∀ j, IsReal (agg j))
    (h1 : ∀ k j, IsReal (w1 k j)) (hb1 : ∀ j, IsReal (b1 j)) (h2 : ∀ j d, IsReal (w2 j d)) (hb2 : ∀ d, IsReal (b2 d))
    (hγ : ∀ d, IsReal (γ d)) (hβ : ∀ d, IsReal (β d)) (hN : N = ((50000 : ℝ) : EReal)) (hε : ∃ e : ℝ, 0 < e ∧ ε = (e : EReal))
    (hK : ∀ r d, outK (ix2 r d) = max (normT (fun r k => agg (ix2 r k)) w1 b1 w2 b2 γ β N ε r d) 0)
    (hR : ∀ r d, outR (ix2 r d) = max (normC (fun r k => agg (ix2 r k)) w1 b1 w2 b2 γ β N ε r d) 0) :
    outK = outR ∧ ∀ j, IsReal (outK j) := by
  have hcol : ∀ d r, IsReal (hn (fun r k => agg (ix2 r k)) w1 b1 w2 b2 r d) := fun d r =>
    isReal_hn (fun r k => hreal _) h1 hb1 h2 hb2 r d
  have heq : ∀ r d, outK (ix2 r d) = outR (ix2 r d) := fun r d => by
    rw [hK, hR, normT_eq_normC r d (hcol d) hN]
  refine ⟨feat_ext heq, feat_real fun r d => ?_⟩
  rw [heq, hR]
  exact (isReal_normC r d (hcol d) (hγ d) (hβ d) hN hε).max isReal_zero

/-- The last layer: no rectifier. -/
theorem step_plain (agg outK outR : Feat) (hreal : ∀ j, IsReal (agg j))
    (h1 : ∀ k j, IsReal (w1 k j)) (hb1 : ∀ j, IsReal (b1 j)) (h2 : ∀ j d, IsReal (w2 j d)) (hb2 : ∀ d, IsReal (b2 d))
    (hN : N = ((50000 : ℝ) : EReal))
    (hK : ∀ r d, outK (ix2 r d) = normT (fun r k => agg (ix2 r k)) w1 b1 w2 b2 γ β N ε r d)
    (hR : ∀ r d, outR (ix2 r d) = normC (fun r k => agg (ix2 r k)) w1 b1 w2 b2 γ β N ε r d) :
    outK = outR := by
  have hcol : ∀ d r, IsReal (hn (fun r k => agg (ix2 r k)) w1 b1 w2 b2 r d) := fun d r =>
    isReal_hn (fun r k => hreal _) h1 hb1 h2 hb2 r d
  exact feat_ext fun r d => by rw [hK, hR, normT_eq_normC r d (hcol d) hN]

end Cert.Spec

end
-- ==== Proof.Val.LayerK0.lean ====
/-
  Layer 0 of the program in closed form.  Region 0 leaves, in its three output arrays, the two-layer perceptron of
  the aggregated features it finds and that array's column sums and column sums of squares, collected tile by tile; the
  host stretch after it turns the two sums into the column mean and the reciprocal of the square root of the raw variance
  plus the guard, and cuts row 0 out of the scale and shift tables; region 1 normalises the perceptron's array by those four
  rows, clamping below at zero.  The weights and biases region 0 reads are row 0 of the stacked parameter tables, which no
  operation and no region writes: they are the launch memory's.  So the layer's result is the normalised perceptron in
  the tiled arrangement, of the aggregated features and the launch memory's parameters.
-/
import proofs.«118775_j16338055594318_1_alg».proof.Proof.Val.Keep
import proofs.«118775_j16338055594318_1_alg».proof.Proof.Val.FinalMlp0
import proofs.«118775_j16338055594318_1_alg».proof.Proof.Val.Final1
import proofs.«118775_j16338055594318_1_alg».proof.Proof.Val.Glue0
import proofs.«118775_j16338055594318_1_alg».proof.Proof.Val.Glue1
import proofs.«118775_j16338055594318_1_alg».proof.Proof.Val.Step

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Cert.Spec

/-- Row i of tile t, in the two spellings of the same row number. -/
theorem tileRow_eq_row0 (t : Fin 10) (i : Fin 5000) : (Cert.Moments.tileRow t i : Fin 50000) = Cert.Spec.row t i := by
  apply Fin.ext
  show (Cert.Moments.tileRow t i).val = 5000 * t.val + i.val
  rw [Cert.Moments.tileRow_val]; omega

section
variable (m : (ℓ : Loc nD τ sig) → Buf (Elt Ideal) ℓ) (ρ : Dev nD → PrngReg) (c : Dev nD)

/-- Region 0's weight and bias windows find row 0 of the launch memory's parameter tables. -/
theorem w1At0 (k : Fin 128) (j : Fin 256) :
    (V1 (F := Ideal) m ρ c main_v65 : S128x256.Idx → EReal) (ix2 k j) = (m ((c.tc : Thread nD τ).loc main_arg7) : (⟨S5x128x256, .f32⟩ : BufTy).Contents (Elt Ideal)) (ix3 (0 : Fin 5) k j) :=
  (glue0_w1 (W0 (F := Ideal) m ρ c) k j).trans (congrFun (W0_arg7 (F := Ideal) m ρ c) _)
theorem b1At0 (j : Fin 256) :
    (V1 (F := Ideal) m ρ c main_v72 : S1x256.Idx → EReal) (ix2 (0 : Fin 1) j) = (m ((c.tc : Thread nD τ).loc main_arg8) : (⟨S5x256, .f32⟩ : BufTy).Contents (Elt Ideal)) (ix2 (0 : Fin 5) j) :=
  (glue0_b1 (W0 (F := Ideal) m ρ c) (0 : Fin 1) j).trans (congrFun (W0_arg8 (F := Ideal) m ρ c) _)
theorem w2At0 (j : Fin 256) (d : Fin 128) :
    (V1 (F := Ideal) m ρ c main_v69 : S256x128.Idx → EReal) (ix2 j d) = (m ((c.tc : Thread nD τ).loc main_arg9) : (⟨S5x256x128, .f32⟩ : BufTy).Contents (Elt Ideal)) (ix3 (0 : Fin 5) j d) :=
  (glue0_w2 (W0 (F := Ideal) m ρ c) j d).trans (congrFun (W0_arg9 (F := Ideal) m ρ c) _)
theorem b2At0 (d : Fin 128) :
    (V1 (F := Ideal) m ρ c main_v73 : S1x128.Idx → EReal) (ix2 (0 : Fin 1) d) = (m ((c.tc : Thread nD τ).loc main_arg10) : (⟨S5x128, .f32⟩ : BufTy).Contents (Elt Ideal)) (ix2 (0 : Fin 5) d) :=
  (glue0_b2 (W0 (F := Ideal) m ρ c) (0 : Fin 1) d).trans (congrFun (W0_arg10 (F := Ideal) m ρ c) _)

/-- The perceptron's array of region 0's entry arrays, at (r, d), is the perceptron of the aggregated features and
    the launch memory's parameters. -/
theorem hnAt0 (r : Fin 50000) (d : Fin 128) :
    mlpArr (V1 (F := Ideal) m ρ c main_v63) (V1 (F := Ideal) m ρ c main_v65) (V1 (F := Ideal) m ρ c main_v72) (V1 (F := Ideal) m ρ c main_v69) (V1 (F := Ideal) m ρ c main_v73) (ix2 r d)
      = Cert.Spec.hn (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) r d := by
  unfold mlpArr Cert.Spec.hn
  simp only [w1At0 m ρ c, b1At0 m ρ c, w2At0 m ρ c, b2At0 m ρ c]

/-- Region 0's column sums, as the host stretch after it finds them: the tiled sum of the perceptron's column. -/
theorem sumAt0 (d : Fin 128) :
    (W2 (F := Ideal) m ρ c (Proc.devRef .tc main_v74_1) : S1x128.Idx → EReal) (ix2 (0 : Fin 1) d)
      = Cert.Spec.sumT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) d := by
  have h1 : ((dat0 (F := Ideal) (V1 (F := Ideal) m ρ) c).arrAt 6 cfg0.N : S1x128.Idx → EReal) (ix2 (0 : Fin 1) d) = _ :=
    final0_sum (V1 (F := Ideal) m ρ) c (0 : Fin 1) d
  have h0 : (W2 (F := Ideal) m ρ c (Proc.devRef .tc main_v74_1) : S1x128.Idx → EReal) (ix2 (0 : Fin 1) d)
      = ((dat0 (F := Ideal) (V1 (F := Ideal) m ρ) c).arrAt 6 cfg0.N : S1x128.Idx → EReal) (ix2 (0 : Fin 1) d) :=
    congrFun (W2_arr (F := Ideal) m ρ c 6) (ix2 (0 : Fin 1) d)
  have h2 : (∑ t : Fin 10, ∑ i : Fin 5000, mlpArr (V1 (F := Ideal) m ρ c main_v63) (V1 (F := Ideal) m ρ c main_v65) (V1 (F := Ideal) m ρ c main_v72) (V1 (F := Ideal) m ρ c main_v69) (V1 (F := Ideal) m ρ c main_v73) (ix2 (Cert.Moments.tileRow t i) d)) = Cert.Spec.sumT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) d := by
    unfold Cert.Spec.sumT
    refine Finset.sum_congr rfl fun t _ => Finset.sum_congr rfl fun i _ => ?_
    exact (hnAt0 m ρ c (Cert.Moments.tileRow t i) d).trans (congrArg (fun rr => Cert.Spec.hn (fun r k => (W1 (F := Ideal) m ρ c (Proc.devRef .tc main_v63) : Feat) (ix2 r k))
            (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
            (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) rr d) (tileRow_eq_row0 t i))
  exact (h0.trans h1).trans h2

/-- The same for the column sums of squares. -/
theorem sumsqAt0 (d : Fin 128) :
    (W2 (F := Ideal) m ρ c (Proc.devRef .tc main_v74_2) : S1x128.Idx → EReal) (ix2 (0 : Fin 1) d)
      = Cert.Spec.sumsqT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) d := by
  have h1 : ((dat0 (F := Ideal) (V1 (F := Ideal) m ρ) c).arrAt 7 cfg0.N : S1x128.Idx → EReal) (ix2 (0 : Fin 1) d) = _ :=
    final0_sumsq (V1 (F := Ideal) m ρ) c (0 : Fin 1) d
  have h0 : (W2 (F := Ideal) m ρ c (Proc.devRef .tc main_v74_2) : S1x128.Idx → EReal) (ix2 (0 : Fin 1) d)
      = ((dat0 (F := Ideal) (V1 (F := Ideal) m ρ) c).arrAt 7 cfg0.N : S1x128.Idx → EReal) (ix2 (0 : Fin 1) d) :=
    congrFun (W2_arr (F := Ideal) m ρ c 7) (ix2 (0 : Fin 1) d)
  have h2 : (∑ t : Fin 10, ∑ i : Fin 5000, mlpArr (V1 (F := Ideal) m ρ c main_v63) (V1 (F := Ideal) m ρ c main_v65) (V1 (F := Ideal) m ρ c main_v72) (V1 (F := Ideal) m ρ c main_v69) (V1 (F := Ideal) m ρ c main_v73) (ix2 (Cert.Moments.tileRow t i) d)
      * mlpArr (V1 (F := Ideal) m ρ c main_v63) (V1 (F := Ideal) m ρ c main_v65) (V1 (F := Ideal) m ρ c main_v72) (V1 (F := Ideal) m ρ c main_v69) (V1 (F := Ideal) m ρ c main_v73) (ix2 (Cert.Moments.tileRow t i) d)) = Cert.Spec.sumsqT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) d := by
    unfold Cert.Spec.sumsqT
    refine Finset.sum_congr rfl fun t _ => Finset.sum_congr rfl fun i _ => ?_
    rw [hnAt0 m ρ c (Cert.Moments.tileRow t i) d]
    exact congrArg (fun rr => Cert.Spec.hn (fun r k => (W1 (F := Ideal) m ρ c (Proc.devRef .tc main_v63) : Feat) (ix2 r k))
            (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
            (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) rr d * Cert.Spec.hn (fun r k => (W1 (F := Ideal) m ρ c (Proc.devRef .tc main_v63) : Feat) (ix2 r k))
            (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
            (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) rr d) (tileRow_eq_row0 t i)
  exact (h0.trans h1).trans h2

/-- Region 1's tile window finds region 0's perceptron array. -/
theorem xAt0 (r : Fin 50000) (d : Fin 128) :
    (V3 (F := Ideal) m ρ c main_v74_0 : Feat) (ix2 r d) = Cert.Spec.hn (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) r d := by
  have e1 : V3 (F := Ideal) m ρ c main_v74_0 = W2 (F := Ideal) m ρ c (Proc.devRef .tc main_v74_0) := glue1_keep (W2 (F := Ideal) m ρ c)
  have e2 : W2 (F := Ideal) m ρ c (Proc.devRef .tc main_v74_0) = mlpArr (V1 (F := Ideal) m ρ c main_v63) (V1 (F := Ideal) m ρ c main_v65) (V1 (F := Ideal) m ρ c main_v72) (V1 (F := Ideal) m ρ c main_v69) (V1 (F := Ideal) m ρ c main_v73) :=
    (W2_arr (F := Ideal) m ρ c 5).trans (final0_hn (V1 (F := Ideal) m ρ) c)
  exact (congrFun (e1.trans e2) (ix2 r d)).trans (hnAt0 m ρ c r d)

/-- Its mean row is the mean from the tiles' sums; -/
theorem meanAt0 (d : Fin 128) :
    (V3 (F := Ideal) m ρ c main_v90 : S1x128.Idx → EReal) (ix2 (0 : Fin 1) d)
      = Cert.Spec.meanT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) nRows d := by
  refine (glue1_mean (W2 (F := Ideal) m ρ c) (0 : Fin 1) d).trans ?_
  rw [sumAt0 m ρ c d]
  rfl

/-- its reciprocal-deviation row is the reciprocal square root of the raw variance plus the guard; -/
theorem rstdAt0 (d : Fin 128) :
    (V3 (F := Ideal) m ρ c main_v91 : S1x128.Idx → EReal) (ix2 (0 : Fin 1) d)
      = Ideal.rsqrt (Cert.Spec.varT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d)) nRows d + epsBn) := by
  refine (glue1_rstd (W2 (F := Ideal) m ρ c) (0 : Fin 1) d).trans ?_
  rw [sumAt0 m ρ c d, sumsqAt0 m ρ c d]
  rfl

/-- its scale and shift rows are row 0 of the launch memory's tables. -/
theorem gammaAt0 (d : Fin 128) :
    (V3 (F := Ideal) m ρ c main_v92 : S1x128.Idx → EReal) (ix2 (0 : Fin 1) d) = (m ((c.tc : Thread nD τ).loc main_arg11) : (⟨S5x128, .f32⟩ : BufTy).Contents (Elt Ideal)) (ix2 (0 : Fin 5) d) :=
  (glue1_gamma (W2 (F := Ideal) m ρ c) (0 : Fin 1) d).trans (congrFun (W2_arg11 (F := Ideal) m ρ c) _)
theorem betaAt0 (d : Fin 128) :
    (V3 (F := Ideal) m ρ c main_v93 : S1x128.Idx → EReal) (ix2 (0 : Fin 1) d) = (m ((c.tc : Thread nD τ).loc main_arg12) : (⟨S5x128, .f32⟩ : BufTy).Contents (Elt Ideal)) (ix2 (0 : Fin 5) d) :=
  (glue1_beta (W2 (F := Ideal) m ρ c) (0 : Fin 1) d).trans (congrFun (W2_arg12 (F := Ideal) m ρ c) _)

end

/-- The normalisation at (r, d) from its five inputs read at (r, d) and (0, d). -/
theorem bnReluArr_at0 (X : Feat) (Mn Rs Ga Be : S1x128.Idx → EReal) (r : Fin 50000) (d : Fin 128) (x mn rs ga be : EReal)
    (hX : X (ix2 r d) = x) (hMn : Mn (ix2 (0 : Fin 1) d) = mn) (hRs : Rs (ix2 (0 : Fin 1) d) = rs)
    (hGa : Ga (ix2 (0 : Fin 1) d) = ga) (hBe : Be (ix2 (0 : Fin 1) d) = be) :
    bnReluArr X Mn Rs Ga Be (ix2 r d) = max (((x - mn) * rs) * ga + be) 0 := by
  subst hX hMn hRs hGa hBe
  rfl

/-- LAYER 0: the array region 1 leaves, entry by entry, is the normalised perceptron in the tiled arrangement, clamped below at zero, of the aggregated features region 0 finds and row 0 of the launch memory's parameter tables. -/
theorem layerK0 (m : (ℓ : Loc nD τ sig) → Buf (Elt Ideal) ℓ) (ρ : Dev nD → PrngReg) (c : Dev nD) (r : Fin 50000) (d : Fin 128) :
    (W4 (F := Ideal) m ρ c (Proc.devRef .tc main_v94) : Feat) (ix2 r d)
      = max (normT (fun r k => (W1 (F := Ideal) m ρ c (Proc.devRef .tc main_v63) : Feat) (ix2 r k))
          (fun k j => (m ((c.tc : Thread nD τ).loc main_arg7) : (⟨S5x128x256, .f32⟩ : BufTy).Contents (Elt Ideal)) (ix3 (0 : Fin 5) k j)) (fun j => (m ((c.tc : Thread nD τ).loc main_arg8) : (⟨S5x256, .f32⟩ : BufTy).Contents (Elt Ideal)) (ix2 (0 : Fin 5) j))
          (fun j d => (m ((c.tc : Thread nD τ).loc main_arg9) : (⟨S5x256x128, .f32⟩ : BufTy).Contents (Elt Ideal)) (ix3 (0 : Fin 5) j d)) (fun d => (m ((c.tc : Thread nD τ).loc main_arg10) : (⟨S5x128, .f32⟩ : BufTy).Contents (Elt Ideal)) (ix2 (0 : Fin 5) d))
          (fun d => (m ((c.tc : Thread nD τ).loc main_arg11) : (⟨S5x128, .f32⟩ : BufTy).Contents (Elt Ideal)) (ix2 (0 : Fin 5) d)) (fun d => (m ((c.tc : Thread nD τ).loc main_arg12) : (⟨S5x128, .f32⟩ : BufTy).Contents (Elt Ideal)) (ix2 (0 : Fin 5) d)) nRows epsBn r d) 0 := by
  have hout : W4 (F := Ideal) m ρ c (Proc.devRef .tc main_v94)
      = bnReluArr (V3 (F := Ideal) m ρ c main_v74_0) (V3 (F := Ideal) m ρ c main_v90) (V3 (F := Ideal) m ρ c main_v91) (V3 (F := Ideal) m ρ c main_v92) (V3 (F := Ideal) m ρ c main_v93) :=
    (W4_arr (F := Ideal) m ρ c 5).trans (final1 (V3 (F := Ideal) m ρ) c)
  refine (congrFun hout (ix2 r d)).trans ?_
  exact bnReluArr_at0 _ _ _ _ _ r d _ _ _ _ _ (xAt0 m ρ c r d) (meanAt0 m ρ c d) (rstdAt0 m ρ c d) (gammaAt0 m ρ c d) (betaAt0 m ρ c d)

end Cert.KernelIdeal.Val

end
-- ==== Proof.Val.AggOps.lean ====
/-
  What the host operations in front of each MLP region compute, as pure functions of the buffers they read: a layer's
  aggregate (every edge's message added into its destination node), and, in front of the first layer, the input node
  embedding and the edge lists extended by the self loops. The functions are built from the program's own printed
  operations and dimension records, so that a stretch's result is one of them by unfolding.
-/
import proofs.«118775_j16338055594318_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## Indices -/

/-- An edge-length index vector with negative entries counted from the end of a table of n rows
    (x < 0 ? x + n : x), as the one-column matrix a gather reads its start indices from. -/
def wrapEdges (n : BitVec 32) (x : Vec Ideal S650000 .i32) : Vec Ideal S650000x1 .i32 :=
  broadcastInDim S650000x1 ![0] bcast_S650000_S650000x1_0
    (select (cmpi .slt x (broadcastInDim S650000 ![] bcast_S_S650000 (constantI S_ 32 0#32)))
      (addi x (broadcastInDim S650000 ![] bcast_S_S650000 (constantI S_ 32 n))) x)

/-- The same for a node-length index vector. -/
def wrapNodes (n : BitVec 32) (x : Vec Ideal S50000 .i32) : Vec Ideal S50000x1 .i32 :=
  broadcastInDim S50000x1 ![0] bcast_S50000_S50000x1_0
    (select (cmpi .slt x (broadcastInDim S50000 ![] bcast_S_S50000 (constantI S_ 32 0#32)))
      (addi x (broadcastInDim S50000 ![] bcast_S_S50000 (constantI S_ 32 n))) x)

/-! ## A layer's aggregation -/

/-- Table r of the stacked [5,6,128] edge-embedding tables, as a [6,128] table. -/
def tab6 (r : ℕ) (h : S5x6x128.Slices ![r, 0, 0] S1x6x128) (x : Vec Ideal S5x6x128 .f32) : Vec Ideal S6x128 .f32 :=
  shapeCast S6x128 (extractStridedSlice S1x6x128 ![r, 0, 0] x h) shapeCasts_S1x6x128_S6x128

/-- Table r of the stacked [5,3,128] edge-embedding tables, as a [3,128] table. -/
def tab3 (r : ℕ) (h : S5x3x128.Slices ![r, 0, 0] S1x3x128) (x : Vec Ideal S5x3x128 .f32) : Vec Ideal S3x128 .f32 :=
  shapeCast S3x128 (extractStridedSlice S1x3x128 ![r, 0, 0] x h) shapeCasts_S1x3x128_S3x128

/-- One layer's aggregate: every edge's message, the source node's row of h plus the edge's two embeddings, added
    into the zero array at the edge's destination node. -/
def aggArr (h : Vec Ideal S50000x128 .f32) (src dst ea0 ea1 : Vec Ideal S650000 .i32) (e1 : Vec Ideal S6x128 .f32)
    (e2 : Vec Ideal S3x128 .f32) : Vec Ideal S50000x128 .f32 :=
  Host.scatterAdd scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (addf (Host.gather gather_S50000x128_S650000x1_S650000x128_1_0_n_n_0_1_1128 h (wrapEdges 50000#32 src))
      (addf (Host.gather gather_S6x128_S650000x1_S650000x128_1_0_n_n_0_1_1128 e1 (wrapEdges 6#32 ea0))
        (Host.gather gather_S3x128_S650000x1_S650000x128_1_0_n_n_0_1_1128 e2 (wrapEdges 3#32 ea1))))

/-! ## The prefix: the input embedding and the edge lists with self loops -/

/-- The input node features: the sum of the two embeddings of a node's two integer attributes. -/
def h0Arr (x : Vec Ideal S50000x2 .i32) (t1 : Vec Ideal S120x128 .f32) (t2 : Vec Ideal S3x128 .f32) : Vec Ideal S50000x128 .f32 :=
  addf (F := Ideal) (φ := .f32)
    (Host.gather gather_S120x128_S50000x1_S50000x128_1_0_n_n_0_1_1128 t1
      (wrapNodes 120#32 (shapeCast S50000 (extractStridedSlice S50000x1 ![0, 0] x slices_S50000x2_S50000x1_0_0) shapeCasts_S50000x1_S50000)))
    (Host.gather gather_S3x128_S50000x1_S50000x128_1_0_n_n_0_1_1128 t2
      (wrapNodes 3#32 (shapeCast S50000 (extractStridedSlice S50000x1 ![0, 1] x slices_S50000x2_S50000x1_0_1) shapeCasts_S50000x1_S50000)))

/-- Row r of the edge list followed by every node once (the self loops). -/
def endsOf (r : ℕ) (h : S2x600000.Slices ![r, 0] S1x600000) (ei : Vec Ideal S2x600000 .i32) : Vec Ideal S650000 .i32 :=
  concatenate S650000 0
    [⟨S600000, shapeCast S600000 (extractStridedSlice S1x600000 ![r, 0] ei h) shapeCasts_S1x600000_S600000⟩,
     ⟨S50000, iotaInDim S50000 32 0⟩] concatenates_S600000_S50000_S650000_d0

/-- The edges' sources, then the self loops'. -/
def srcOf (ei : Vec Ideal S2x600000 .i32) : Vec Ideal S650000 .i32 := endsOf 0 slices_S2x600000_S1x600000_0_0 ei
/-- The edges' destinations, then the self loops'. -/
def dstOf (ei : Vec Ideal S2x600000 .i32) : Vec Ideal S650000 .i32 := endsOf 1 slices_S2x600000_S1x600000_1_0 ei

/-- Column c of the edge attributes followed by the self loops' attribute, the constant k. -/
def attrOf (c : ℕ) (h : S600000x2.Slices ![0, c] S600000x1) (k : BitVec 32) (ea : Vec Ideal S600000x2 .i32) : Vec Ideal S650000 .i32 :=
  concatenate S650000 0
    [⟨S600000, shapeCast S600000 (extractStridedSlice S600000x1 ![0, c] ea h) shapeCasts_S600000x1_S600000⟩,
     ⟨S50000, broadcastInDim S50000 ![] bcast_S_S50000 (constantI S_ 32 k)⟩] concatenates_S600000_S50000_S650000_d0

/-- The edges' first attribute, then the self loops' (4). -/
def ea0Of (ea : Vec Ideal S600000x2 .i32) : Vec Ideal S650000 .i32 := attrOf 0 slices_S600000x2_S600000x1_0_0 4#32 ea
/-- The edges' second attribute, then the self loops' (0). -/
def ea1Of (ea : Vec Ideal S600000x2 .i32) : Vec Ideal S650000 .i32 := attrOf 1 slices_S600000x2_S600000x1_0_1 0#32 ea

end Cert.KernelIdeal.Val

end
-- ==== Proof.Val.Agg0.lean ====
/-
  Host stretch 0 (before region 0) up to the aggregate, from an arbitrary valuation of the buffers before it: the
  buffer region 0 reads its input tile from holds the layer's aggregate, as the pure function of the buffers the
  stretch reads (here the program's arguments; and the edge lists the later stretches reuse are the functions of the arguments).
-/
import proofs.«118775_j16338055594318_1_alg».proof.Proof.Gen.KernelIdeal.Launch
import proofs.«118775_j16338055594318_1_alg».proof.Proof.Val.AggOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 0 the aggregate's buffer holds layer 0's aggregate of the input embedding, over the edge lists
    with their self loops, all computed from the program's arguments. -/
theorem agg0_eq (W : Valuation τ sig (Elt Ideal)) :
    (StableHlo.after hostOps0 W (Proc.devRef .tc main_v63) : (⟨S50000x128, .f32⟩ : BufTy).Contents (Elt Ideal))
      = aggArr (h0Arr (W (Proc.devRef .tc main_arg0)) (W (Proc.devRef .tc main_arg3)) (W (Proc.devRef .tc main_arg4)))
          (srcOf (W (Proc.devRef .tc main_arg1))) (dstOf (W (Proc.devRef .tc main_arg1)))
          (ea0Of (W (Proc.devRef .tc main_arg2))) (ea1Of (W (Proc.devRef .tc main_arg2)))
          (tab6 0 slices_S5x6x128_S1x6x128_0_0_0 (W (Proc.devRef .tc main_arg5)))
          (tab3 0 slices_S5x3x128_S1x3x128_0_0_0 (W (Proc.devRef .tc main_arg6))) := by
  after_results_simp
  rfl

set_option maxHeartbeats 4000000 in
/-- After stretch 0 the sources' buffer holds the edges' sources followed by the self loops'. -/
theorem pre_src (W : Valuation τ sig (Elt Ideal)) :
    (StableHlo.after hostOps0 W (Proc.devRef .tc main_v22) : (⟨S650000, .i32⟩ : BufTy).Contents (Elt Ideal))
      = srcOf (W (Proc.devRef .tc main_arg1)) := by
  after_results_simp
  rfl

set_option maxHeartbeats 4000000 in
/-- After stretch 0 the destinations' buffer holds the edges' destinations followed by the self loops'. -/
theorem pre_dst (W : Valuation τ sig (Elt Ideal)) :
    (StableHlo.after hostOps0 W (Proc.devRef .tc main_v25) : (⟨S650000, .i32⟩ : BufTy).Contents (Elt Ideal))
      = dstOf (W (Proc.devRef .tc main_arg1)) := by
  after_results_simp
  rfl

set_option maxHeartbeats 4000000 in
/-- After stretch 0 the first attributes' buffer holds the edges' first attribute followed by the self loops'. -/
theorem pre_ea0 (W : Valuation τ sig (Elt Ideal)) :
    (StableHlo.after hostOps0 W (Proc.devRef .tc main_v29) : (⟨S650000, .i32⟩ : BufTy).Contents (Elt Ideal))
      = ea0Of (W (Proc.devRef .tc main_arg2)) := by
  after_results_simp
  rfl

set_option maxHeartbeats 4000000 in
/-- After stretch 0 the second attributes' buffer holds the edges' second attribute followed by the self loops'. -/
theorem pre_ea1 (W : Valuation τ sig (Elt Ideal)) :
    (StableHlo.after hostOps0 W (Proc.devRef .tc main_v33) : (⟨S650000, .i32⟩ : BufTy).Contents (Elt Ideal))
      = ea1Of (W (Proc.devRef .tc main_arg2)) := by
  after_results_simp
  rfl

end Cert.KernelIdeal.Val

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.Val.RefDenseCore.lean ====
/-
  One layer's dense part of the reference program as pure array functions, and each read at an entry, over the
  extended reals.

  After the layer's aggregation the reference applies, to the aggregate `agg` ([50000,128]) and the layer's weights,
  the two-layer perceptron  hn = max (agg · w1 + b1) 0 · w2 + b2  (each bias a row broadcast down the rows), takes each
  column's mean (the column's sum divided by the literal 50000) and its centred variance (the mean of the squared
  deviations from the mean), and returns  ((hn - mean) · rsqrt (var + ε)) · γ + β,  every row vector broadcast down
  the rows; the four inner layers clamp the result below at zero.  The arrays below are these operations composed in
  the program's order; read at entry (r, d) they are the layer's functions of plain coordinates.
-/
import proofs.«118775_j16338055594318_1_alg».proof.Proof.Gen.ReferenceIdeal
import proofs.«118775_j16338055594318_1_alg».proof.Proof.Val.Spec
import proofs.«118775_j16338055594318_1_alg».proof.Proof.LibHostDot
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- A float array of shape `S` at the ideal values. -/
abbrev Arr (S : Shape) : Type := FVec Ideal S .f32

/-! ## The arrays -/

/-- A [128] vector as a row, broadcast down the 50000 rows. -/
def rowsArr (v : Arr S128) : Arr S50000x128 :=
  broadcastInDim S50000x128 ![0, 1] bcast_S1x128_S50000x128_0_1 (broadcastInDim S1x128 ![1] bcast_S128_S1x128_1 v)

/-- The two-layer perceptron of the aggregate. -/
def mlpArr (agg : Arr S50000x128) (w1 : Arr S128x256) (b1 : Arr S256) (w2 : Arr S256x128) (b2 : Arr S128) : Arr S50000x128 :=
  addf (Host.dotGeneral dot_S50000x256_S256x128_S50000x128_1_0_0_1_n_n none
      (maximumf (addf (Host.dotGeneral dot_S50000x128_S128x256_S50000x256_1_0_0_1_n_n none agg w1)
          (broadcastInDim S50000x256 ![0, 1] bcast_S1x256_S50000x256_0_1 (broadcastInDim S1x256 ![1] bcast_S256_S1x256_1 b1)))
        (broadcastInDim S50000x256 ![] bcast_S_S50000x256 (constant S_ .f32 0x00000000#32))) w2)
    (rowsArr b2)

/-- The columns' means: each column's sum over the 50000 rows, divided by the literal 50000. -/
def meanArr (x : Arr S50000x128) : Arr S128 :=
  Host.divf (Host.reduceAdd x (constant S_ .f32 0x00000000#32) reducesTo_S50000x128_S128_d0 h_S_)
    (broadcastInDim S128 ![] bcast_S_S128 (constant S_ .f32 0x47435000#32))

/-- The columns' centred variances: the mean of the squared deviations from the column's mean. -/
def varArr (x : Arr S50000x128) : Arr S128 :=
  Host.divf (Host.reduceAdd (mulf (subf x (rowsArr (meanArr x))) (subf x (rowsArr (meanArr x))))
      (constant S_ .f32 0x00000000#32) reducesTo_S50000x128_S128_d0 h_S_)
    (broadcastInDim S128 ![] bcast_S_S128 (constant S_ .f32 0x47435000#32))

/-- The normalized array: centre, scale by the reciprocal root of the variance plus ε, then by γ, shift by β. -/
def normArr (x : Arr S50000x128) (γ β : Arr S128) : Arr S50000x128 :=
  addf (mulf (mulf (subf x (rowsArr (meanArr x)))
      (rowsArr (Host.rsqrt (addf (varArr x) (broadcastInDim S128 ![] bcast_S_S128 (constant S_ .f32 0x3727C5AC#32))))))
    (rowsArr γ)) (rowsArr β)

/-- The rectifier: the maximum with the zero array. -/
def reluArr (x : Arr S50000x128) : Arr S50000x128 :=
  maximumf x (broadcastInDim S50000x128 ![] bcast_S_S50000x128 (constant S_ .f32 0x00000000#32))

/-! ## The layer's slices of the stacked weights -/

/-- Row `off 0` of a stack of five [128,256] matrices. -/
def sliceW1 (off : Fin 3 → Nat) (h : S5x128x256.Slices off S1x128x256) (x : Arr S5x128x256) : Arr S128x256 :=
  shapeCast _ (extractStridedSlice S1x128x256 off x h) shapeCasts_S1x128x256_S128x256
/-- Row `off 0` of a stack of five [256,128] matrices. -/
def sliceW2 (off : Fin 3 → Nat) (h : S5x256x128.Slices off S1x256x128) (x : Arr S5x256x128) : Arr S256x128 :=
  shapeCast _ (extractStridedSlice S1x256x128 off x h) shapeCasts_S1x256x128_S256x128
/-- Row `off 0` of a stack of five [256] vectors. -/
def sliceV256 (off : Fin 2 → Nat) (h : S5x256.Slices off S1x256) (x : Arr S5x256) : Arr S256 :=
  shapeCast _ (extractStridedSlice S1x256 off x h) shapeCasts_S1x256_S256
/-- Row `off 0` of a stack of five [128] vectors. -/
def sliceV128 (off : Fin 2 → Nat) (h : S5x128.Slices off S1x128) (x : Arr S5x128) : Arr S128 :=
  shapeCast _ (extractStridedSlice S1x128 off x h) shapeCasts_S1x128_S128

theorem sliceW1_apply (L : Fin 5) (off : Fin 3 → Nat) (hoff : off = ![L.val, 0, 0]) (h : S5x128x256.Slices off S1x128x256)
    (x : Arr S5x128x256) (k : Fin 128) (j : Fin 256) : sliceW1 off h x (ix2 k j) = x (ix3 L k j) := by
  subst hoff
  unfold sliceW1
  rw [shapeCast_apply _ shapeCasts_S1x128x256_S128x256 (ix2 k j) (ix3 (0 : Fin 1) k j)
    (by rewrite [Shape.rowMajor_val_three, Shape.rowMajor_val_two]
        show (0 * 128 + k.val) * 256 + j.val = k.val * 256 + j.val; omega)]
  exact extractStridedSlice_apply _ x h (ix3 (0 : Fin 1) k j) (ix3 L k j) (fun a => match a with
    | ⟨0, _⟩ => by show L.val = L.val + 0; omega
    | ⟨1, _⟩ => by show k.val = 0 + k.val; omega
    | ⟨2, _⟩ => by show j.val = 0 + j.val; omega)

theorem sliceW2_apply (L : Fin 5) (off : Fin 3 → Nat) (hoff : off = ![L.val, 0, 0]) (h : S5x256x128.Slices off S1x256x128)
    (x : Arr S5x256x128) (j : Fin 256) (d : Fin 128) : sliceW2 off h x (ix2 j d) = x (ix3 L j d) := by
  subst hoff
  unfold sliceW2
  rw [shapeCast_apply _ shapeCasts_S1x256x128_S256x128 (ix2 j d) (ix3 (0 : Fin 1) j d)
    (by rewrite [Shape.rowMajor_val_three, Shape.rowMajor_val_two]
        show (0 * 256 + j.val) * 128 + d.val = j.val * 128 + d.val; omega)]
  exact extractStridedSlice_apply _ x h (ix3 (0 : Fin 1) j d) (ix3 L j d) (fun a => match a with
    | ⟨0, _⟩ => by show L.val = L.val + 0; omega
    | ⟨1, _⟩ => by show j.val = 0 + j.val; omega
    | ⟨2, _⟩ => by show d.val = 0 + d.val; omega)

theorem sliceV256_apply (L : Fin 5) (off : Fin 2 → Nat) (hoff : off = ![L.val, 0]) (h : S5x256.Slices off S1x256)
    (x : Arr S5x256) (j : Fin 256) : sliceV256 off h x (ix1 j) = x (ix2 L j) := by
  subst hoff
  unfold sliceV256
  rw [shapeCast_apply _ shapeCasts_S1x256_S256 (ix1 j) (ix2 (0 : Fin 1) j)
    (by rewrite [Shape.rowMajor_val_two, Shape.rowMajor_val_one]
        show 0 * 256 + j.val = j.val; omega)]
  exact extractStridedSlice_apply _ x h (ix2 (0 : Fin 1) j) (ix2 L j) (fun a => match a with
    | ⟨0, _⟩ => by show L.val = L.val + 0; omega
    | ⟨1, _⟩ => by show j.val = 0 + j.val; omega)

theorem sliceV128_apply (L : Fin 5) (off : Fin 2 → Nat) (hoff : off = ![L.val, 0]) (h : S5x128.Slices off S1x128)
    (x : Arr S5x128) (d : Fin 128) : sliceV128 off h x (ix1 d) = x (ix2 L d) := by
  subst hoff
  unfold sliceV128
  rw [shapeCast_apply _ shapeCasts_S1x128_S128 (ix1 d) (ix2 (0 : Fin 1) d)
    (by rewrite [Shape.rowMajor_val_two, Shape.rowMajor_val_one]
        show 0 * 128 + d.val = d.val; omega)]
  exact extractStridedSlice_apply _ x h (ix2 (0 : Fin 1) d) (ix2 L d) (fun a => match a with
    | ⟨0, _⟩ => by show L.val = L.val + 0; omega
    | ⟨1, _⟩ => by show d.val = 0 + d.val; omega)

/-! ## The broadcasts read at an entry -/

/-- A literal splat to any shape reads the literal's value. -/
theorem splat_apply {S : Shape} (h : S_.BroadcastsInDim S ![]) (w : BitVec FTy.f32.bits) (i : S.Idx) :
    broadcastInDim S ![] h (constant (F := Ideal) S_ .f32 w) i = Ideal.ofBits .f32 w :=
  broadcastInDim_apply _ h _ i (fun a => a.elim0) (fun a => a.elim0)

/-- A [128] vector broadcast down the rows reads, at (r, d), its entry d. -/
theorem rowsArr_apply (v : Arr S128) (r : Fin 50000) (d : Fin 128) : rowsArr v (ix2 r d) = v (ix1 d) := by
  unfold rowsArr
  rw [broadcastInDim_apply _ bcast_S1x128_S50000x128_0_1 _ (ix2 r d) (ix2 (0 : Fin 1) d) (fun a => match a with
    | ⟨0, _⟩ => by show 0 = if (1 : Nat) = 1 then 0 else r.val; rw [if_pos rfl]
    | ⟨1, _⟩ => by show d.val = if (128 : Nat) = 1 then 0 else d.val; rw [if_neg (by decide)])]
  exact broadcastInDim_apply _ bcast_S128_S1x128_1 v (ix2 (0 : Fin 1) d) (ix1 d) (fun a => match a with
    | ⟨0, _⟩ => by show d.val = if (128 : Nat) = 1 then 0 else d.val; rw [if_neg (by decide)])

/-- A [256] vector broadcast down the rows reads, at (r, j), its entry j. -/
theorem rows256_apply (v : Arr S256) (r : Fin 50000) (j : Fin 256) :
    broadcastInDim S50000x256 ![0, 1] bcast_S1x256_S50000x256_0_1 (broadcastInDim S1x256 ![1] bcast_S256_S1x256_1 v) (ix2 r j)
      = v (ix1 j) := by
  rw [broadcastInDim_apply _ bcast_S1x256_S50000x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])]
  exact broadcastInDim_apply _ bcast_S256_S1x256_1 v (ix2 (0 : Fin 1) j) (ix1 j) (fun a => match a with
    | ⟨0, _⟩ => by show j.val = if (256 : Nat) = 1 then 0 else j.val; rw [if_neg (by decide)])

/-- The host's division and reciprocal root of vectors read at an entry are the extended reals' functions. -/
theorem hostDivf_apply {S : Shape} (a b : Arr S) (i : S.Idx) : Host.divf a b i = Ideal.div (a i) (b i) := rfl
theorem hostRsqrt_apply {S : Shape} (a : Arr S) (i : S.Idx) : Host.rsqrt a i = Ideal.rsqrt (a i) := rfl

/-! ## The perceptron at an entry -/

theorem mlpArr_apply (agg : Arr S50000x128) (w1 : Arr S128x256) (b1 : Arr S256) (w2 : Arr S256x128) (b2 : Arr S128)
    (r : Fin 50000) (d : Fin 128) :
    mlpArr agg w1 b1 w2 b2 (ix2 r d)
      = Cert.Spec.hn (fun r k => agg (ix2 r k)) (fun k j => w1 (ix2 k j)) (fun j => b1 (ix1 j)) (fun j d => w2 (ix2 j d))
          (fun d => b2 (ix1 d)) r d := by
  unfold mlpArr Cert.Spec.hn
  rw [addf_apply, rowsArr_apply]
  refine congrArg (· + b2 (ix1 d)) ?_
  refine (Cert.HostDot.dotGeneral_plain_apply (M := 50000) (K := 256) (N := 128) none _ w2 r d).trans ?_
  refine Finset.sum_congr rfl fun j _ => ?_
  rw [maximumf_apply, addf_apply, rows256_apply, splat_apply, Ideal.ofBits_zero_f32]
  refine congrArg (fun t => max (t + b1 (ix1 j)) 0 * w2 (ix2 j d)) ?_
  exact Cert.HostDot.dotGeneral_plain_apply (M := 50000) (K := 128) (N := 256) none agg w1 r j

/-! ## The statistics and the normalized value at an entry -/

/-- A column's sum: the reduction over the rows from the zero literal. -/
theorem colSum_apply (x : Arr S50000x128) (d : Fin 128) :
    Host.reduceAdd x (constant (F := Ideal) S_ .f32 0x00000000#32) reducesTo_S50000x128_S128_d0 h_S_ (ix1 d)
      = ∑ r : Fin 50000, x (ix2 r d) := by
  simp only [Host.reduceAdd, Ideal.hostReduceAdd_def]
  rw [Ideal.hostReduceAdd_single reducesTo_S50000x128_S128_d0 (by decide), constant_apply, Ideal.ofBits_zero_f32, zero_add]
  refine Finset.sum_congr rfl fun k _ => ?_
  exact congrArg x (funext fun a => Fin.ext (by match a with | ⟨0, _⟩ => rfl | ⟨1, _⟩ => rfl))

theorem meanArr_apply (x : Arr S50000x128) (d : Fin 128) :
    meanArr x (ix1 d) = Ideal.div (∑ r : Fin 50000, x (ix2 r d)) (Ideal.ofBits .f32 0x47435000#32) := by
  unfold meanArr
  rw [hostDivf_apply, colSum_apply, splat_apply]

theorem varArr_apply (x : Arr S50000x128) (d : Fin 128) :
    varArr x (ix1 d) = Ideal.div (∑ r : Fin 50000, (x (ix2 r d) - meanArr x (ix1 d)) * (x (ix2 r d) - meanArr x (ix1 d)))
      (Ideal.ofBits .f32 0x47435000#32) := by
  unfold varArr
  rw [hostDivf_apply, colSum_apply, splat_apply]
  simp only [mulf_apply, subf_apply, rowsArr_apply]

theorem normArr_apply (x : Arr S50000x128) (γ β : Arr S128) (r : Fin 50000) (d : Fin 128) :
    normArr x γ β (ix2 r d)
      = ((x (ix2 r d) - meanArr x (ix1 d)) * Ideal.rsqrt (varArr x (ix1 d) + Ideal.ofBits .f32 0x3727C5AC#32)) * γ (ix1 d)
          + β (ix1 d) := by
  unfold normArr
  rw [addf_apply, mulf_apply, mulf_apply, subf_apply, rowsArr_apply, rowsArr_apply, rowsArr_apply, rowsArr_apply,
    hostRsqrt_apply, addf_apply, splat_apply]

theorem reluArr_apply (x : Arr S50000x128) (r : Fin 50000) (d : Fin 128) : reluArr x (ix2 r d) = max (x (ix2 r d)) 0 := by
  unfold reluArr
  rw [maximumf_apply, splat_apply, Ideal.ofBits_zero_f32]

/-- The layer's normalized value before the rectifier, at (r, d): the centred arrangement over plain coordinates, with
    N the value of the literal 50000 and ε that of the literal added to the variance. -/
theorem dense_apply (agg : Arr S50000x128) (w1 : Arr S128x256) (b1 : Arr S256) (w2 : Arr S256x128) (b2 γ β : Arr S128)
    (r : Fin 50000) (d : Fin 128) :
    normArr (mlpArr agg w1 b1 w2 b2) γ β (ix2 r d)
      = Cert.Spec.normC (fun r k => agg (ix2 r k)) (fun k j => w1 (ix2 k j)) (fun j => b1 (ix1 j)) (fun j d => w2 (ix2 j d))
          (fun d => b2 (ix1 d)) (fun d => γ (ix1 d)) (fun d => β (ix1 d))
          (Ideal.ofBits .f32 0x47435000#32) (Ideal.ofBits .f32 0x3727C5AC#32) r d := by
  unfold Cert.Spec.normC Cert.Spec.varC Cert.Spec.meanC
  rw [normArr_apply, varArr_apply, meanArr_apply]
  simp only [mlpArr_apply]

end Cert.ReferenceIdeal.Hand

end
-- ==== Proof.Val.RefDense0.lean ====
/-
  Layer 0 of the reference program read at an entry.  The layer's 93 operations are its aggregation (the first 37,
  ending in the scatter that writes `main_v63`) followed by its dense part (the other 56: the slices of the stacked weights at
  row 0, the two-layer perceptron, the column statistics, the normalization and the rectifier), whose result `main_v110` is, at
  row r and column d, the maximum with zero of the centred normalization of the perceptron of the aggregate.  The aggregate is left as
  the buffer `main_v63` after the layer; the weights are the program's arguments, which no operation of the layer writes.
-/
import proofs.«118775_j16338055594318_1_alg».proof.Proof.Val.RefOps
import proofs.«118775_j16338055594318_1_alg».proof.Proof.Val.RefDenseCore

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The layer's aggregation: its first 37 operations, -/
abbrev refAgg0 : List (HloOp τ sig (Elt Ideal)) := List.take 37 (refLayer0 (F := Ideal))
/-- and its dense part: the others. -/
abbrev refDense0 : List (HloOp τ sig (Elt Ideal)) := List.drop 37 (refLayer0 (F := Ideal))

/-- Running the layer is running its aggregation and then its dense part. -/
theorem after_refLayer0_split (W : Valuation τ sig (Elt Ideal)) :
    after (refLayer0 (F := Ideal)) W = after refDense0 (after refAgg0 W) :=
  (congrArg (fun l => after l W) (List.take_append_drop 37 (refLayer0 (F := Ideal))).symm).trans
    (Cert.Lib.RunPieces.after_append _ _ W)

set_option maxHeartbeats 4000000 in
/-- The dense part's result from any contents: the layer's array functions of the aggregate's buffer and the weights'. -/
theorem refDense0_result (W' : Valuation τ sig (Elt Ideal)) :
    after refDense0 W' (Proc.devRef .tc main_v110)
      = reluArr (normArr (mlpArr (W' (Proc.devRef .tc main_v63))
          (sliceW1 ![0, 0, 0] slices_S5x128x256_S1x128x256_0_0_0 (W' (Proc.devRef .tc main_arg7)))
          (sliceV256 ![0, 0] slices_S5x256_S1x256_0_0 (W' (Proc.devRef .tc main_arg8)))
          (sliceW2 ![0, 0, 0] slices_S5x256x128_S1x256x128_0_0_0 (W' (Proc.devRef .tc main_arg9)))
          (sliceV128 ![0, 0] slices_S5x128_S1x128_0_0 (W' (Proc.devRef .tc main_arg10))))
        (sliceV128 ![0, 0] slices_S5x128_S1x128_0_0 (W' (Proc.devRef .tc main_arg11)))
        (sliceV128 ![0, 0] slices_S5x128_S1x128_0_0 (W' (Proc.devRef .tc main_arg12)))) := by
  simp only [refDense0, refLayer0, List.drop_succ_cons, List.drop_zero]
  after_results_simp <;> rfl

set_option maxHeartbeats 4000000 in
/-- The dense part does not write the aggregate's buffer. -/
theorem refDense0_keeps_agg (W' : Valuation τ sig (Elt Ideal)) :
    after refDense0 W' (Proc.devRef .tc main_v63) = W' (Proc.devRef .tc main_v63) := by
  simp only [refDense0, refLayer0, List.drop_succ_cons, List.drop_zero]
  after_results_simp <;> rfl

/-- The aggregation writes none of the program's arguments. -/
theorem refAgg0_keeps (W : Valuation τ sig (Elt Ideal)) (b : Ref sig .tc) (hb : b ∉ refLayer0_W) :
    after refAgg0 W (Proc.devRef .tc b) = W (Proc.devRef .tc b) :=
  after_of_writes_sub refAgg0 W
    (List.forall_iff_forall_mem.mpr fun op h => (List.forall_iff_forall_mem.mp (refLayer0_writes (F := Ideal))) op (List.mem_of_mem_take h)) hb

/-- LAYER 0 AT AN ENTRY: the result buffer at (r, d) from the layer's aggregate and the weights' row 0. -/
theorem refLayer0_apply (W : Valuation τ sig (Elt Ideal)) (r : Fin 50000) (d : Fin 128) :
    after (refLayer0 (F := Ideal)) W (Proc.devRef .tc main_v110) (ix2 r d)
      = max (Cert.Spec.normC (fun r k => after (refLayer0 (F := Ideal)) W (Proc.devRef .tc main_v63) (ix2 r k))
          (fun k j => W (Proc.devRef .tc main_arg7) (ix3 (0 : Fin 5) k j)) (fun j => W (Proc.devRef .tc main_arg8) (ix2 (0 : Fin 5) j))
          (fun j d => W (Proc.devRef .tc main_arg9) (ix3 (0 : Fin 5) j d)) (fun d => W (Proc.devRef .tc main_arg10) (ix2 (0 : Fin 5) d))
          (fun d => W (Proc.devRef .tc main_arg11) (ix2 (0 : Fin 5) d)) (fun d => W (Proc.devRef .tc main_arg12) (ix2 (0 : Fin 5) d))
          (Ideal.ofBits .f32 0x47435000#32) (Ideal.ofBits .f32 0x3727C5AC#32) r d) 0 := by
  have hA : after (refLayer0 (F := Ideal)) W (Proc.devRef .tc main_v63) = after refAgg0 W (Proc.devRef .tc main_v63) := by
    rw [after_refLayer0_split]; exact refDense0_keeps_agg _
  have key := congrFun (refDense0_result (after refAgg0 W)) (ix2 r d)
  rw [refAgg0_keeps W main_arg7 (by decide), refAgg0_keeps W main_arg8 (by decide), refAgg0_keeps W main_arg9 (by decide),
    refAgg0_keeps W main_arg10 (by decide), refAgg0_keeps W main_arg11 (by decide), refAgg0_keeps W main_arg12 (by decide),
    reluArr_apply, dense_apply] at key
  rw [hA, after_refLayer0_split]
  refine key.trans ?_
  simp only [sliceW1_apply (0 : Fin 5) ![0, 0, 0] rfl, sliceW2_apply (0 : Fin 5) ![0, 0, 0] rfl,
    sliceV256_apply (0 : Fin 5) ![0, 0] rfl, sliceV128_apply (0 : Fin 5) ![0, 0] rfl]

end Cert.ReferenceIdeal.Hand

end
-- ==== Proof.Val.PayMlp2.lean ====
/-
  The payloads of region 2's MLP-and-statistics body read at one element, at the ideal float values (extended
  reals, every operation exact, a change of float format the identity): the output tile hn at (i, d) as the
  two-layer perceptron's value; the running column sum and column sum of squares after a grid point as what
  they held plus the tile's column sum (of squares); the two resets as zero.
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The MLP's output tile at (i, d): the second layer applied to the ReLU of the first,
    hn[i,d] = (∑ j, max ((∑ k, x[i,k] * w1[k,j]) + b1[0,j]) 0 * w2[j,d]) + b2[0,d]
    (the changes of float format are the identity at the ideal values). -/
theorem hn_apply2 (x : Vec Ideal S5000x128 .f32) (w1 : Vec Ideal S128x256 .f32) (b1 : Vec Ideal S1x256 .f32)
    (w2 : Vec Ideal S256x128 .f32) (b2 : Vec Ideal S1x128 .f32) (i : Fin 5000) (d : Fin 128) :
    k2_pay4 (F := Ideal) x w1 b1 w2 b2 (ix2 i d)
      = (∑ j : Fin 256, max ((∑ k : Fin 128, x (ix2 i k) * w1 (ix2 k j)) + b1 (ix2 (0 : Fin 1) j)) 0 * w2 (ix2 j d))
          + b2 (ix2 (0 : Fin 1) d) := by
  unfold k2_pay4
  simp only [addf_apply, matmul2_apply, truncf_apply, maximumf_apply, matmul1_apply, broadcast_apply, shapeCast_self,
    broadcastTo_1b_ab_apply, scalar_zero_f32]

/-- The running column sum after a grid point, at column d: what it held plus the sum of the tile's column. -/
theorem sum_apply2 (x : Vec Ideal S5000x128 .f32) (w1 : Vec Ideal S128x256 .f32) (b1 : Vec Ideal S1x256 .f32)
    (w2 : Vec Ideal S256x128 .f32) (b2 : Vec Ideal S1x128 .f32) (acc : Vec Ideal S1x128 .f32) (u : Fin 1) (d : Fin 128) :
    k2_pay5 (F := Ideal) x w1 b1 w2 b2 acc (ix2 u d)
      = acc (ix2 u d) + ∑ i : Fin 5000, k2_pay4 (F := Ideal) x w1 b1 w2 b2 (ix2 i d) := by
  unfold k2_pay5
  simp only [shapeCast_self, addf_apply, shapeCast_a_1a_apply]
  exact congrArg (acc (ix2 u d) + ·) (colsum_apply _ _ _ _ d)

/-- The running column sum of squares after a grid point, at column d: what it held plus the sum of the squares of
    the tile's column. -/
theorem sumsq_apply2 (hn : FVec Ideal S5000x128 .f32) (acc : Vec Ideal S1x128 .f32) (u : Fin 1) (d : Fin 128) :
    k2_pay1 (F := Ideal) hn acc (ix2 u d) = acc (ix2 u d) + ∑ i : Fin 5000, hn (ix2 i d) * hn (ix2 i d) := by
  unfold k2_pay1
  simp only [shapeCast_self, addf_apply, shapeCast_a_1a_apply]
  exact congrArg (acc (ix2 u d) + ·) (colsum_apply (mulf hn hn) _ _ _ d)

/-- The reset of the running sum at the first grid point writes zero everywhere. -/
theorem reset0_apply2 (u : Fin 1) (d : Fin 128) : k2_pay2 (F := Ideal) (ix2 u d) = 0 := by
  unfold k2_pay2
  simp only [shapeCast_self, broadcast_apply, scalar_zero_f32]

/-- The reset of the running sum of squares at the first grid point writes zero everywhere. -/
theorem reset1_apply2 (u : Fin 1) (d : Fin 128) : k2_pay3 (F := Ideal) (ix2 u d) = 0 := by
  unfold k2_pay3
  simp only [shapeCast_self, broadcast_apply, scalar_zero_f32]

end Cert.KernelIdeal.Val

end
-- ==== Proof.Val.FinalMlp2.lean ====
/-
  Region 2's three output arrays after its ten grid points, as functions of the arrays the region finds on entry.
  Point t stores, over rows 5000 t … 5000 t + 4999 of the [50000,128] array `main_v135_0`, the two-layer perceptron of the
  same rows of `main_v124` (weights `main_v126`, `main_v130`, bias rows `main_v133`, `main_v134`); the ten tiles are disjoint and
  fill the array, which ends holding `mlpArr` of the five entry arrays.  Two scratch rows keep, column by column, the
  running sum of the stored values and of their squares: zero plus the first tile's column sums after the first point,
  increased by each later tile's; the last point copies them to the [1,128] arrays `main_v135_1` and `main_v135_2`, which
  end holding the sums over all ten tiles.
-/
import proofs.«118775_j16338055594318_1_alg».proof.Proof.KI.Mlp2
import proofs.«118775_j16338055594318_1_alg».proof.Proof.Val.PayMlp2
import proofs.«118775_j16338055594318_1_alg».proof.Proof.Val.MlpArr
import proofs.«118775_j16338055594318_1_alg».proof.Proof.LibColumnMoments
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## The block indices over the grid -/

/-- The tile windows 0 and 5 sit at block (t, 0) at point t; -/
theorem idx2_0 : ∀ t : Fin cfg2.N, win2_0.index t (0 : Fin 2) = t.val ∧ win2_0.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
/-- the weight, bias and statistics windows stay at block (0, 0). -/
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)

/-- The last point is a point. -/
theorem h9_2 : 9 < cfg2.N := by rw [show cfg2.N = 10 from N_2]; decide

/-! ## The input blocks, read off the entry arrays -/

/-- Window 0's block at point t is rows 5000 t … 5000 t + 4999 of `main_v124` as the region finds it. -/
theorem tile2_apply (c : Dev nD) (t : Fin cfg2.N) (i : Fin 5000) (k : Fin 128) (R : Fin 50000) (hR : R.val = t.val * 5000 + i.val) :
    (iblk2 V c 0 t : Vec Ideal S5000x128 .f32) (ix2 i k) = (V c main_v124 : S50000x128.Idx → EReal) (ix2 R k) := by
  have e0 : win2_0.index t (0 : Fin 2) = t.val := (idx2_0 t).1
  have e1 : win2_0.index t (1 : Fin 2) = 0 := (idx2_0 t).2
  unfold iblk2
  rw [View.read_apply]
  show V c main_v124 _ = V c main_v124 _
  congr 1
  funext x
  apply Fin.ext
  match x with
  | ⟨0, _⟩ => show win2_0.index t (0 : Fin 2) * 5000 + 1 * i.val = R.val; rw [e0, hR]; omega
  | ⟨1, _⟩ => show win2_0.index t (1 : Fin 2) * 128 + 1 * k.val = k.val; rw [e1]; omega

/-- Window 1 stays at block (0, 0), and its one block is its whole array `main_v126` as the region finds it. -/
theorem blk2_1_apply (c : Dev nD) (t : Fin cfg2.N) (a : Fin 128) (b : Fin 256) :
    (iblk2 V c 1 t : Vec Ideal S128x256 .f32) (ix2 a b) = (V c main_v126 : S128x256.Idx → EReal) (ix2 a b) := by
  have e0 : win2_1.index t (0 : Fin 2) = 0 := (idx2_1 t).1
  have e1 : win2_1.index t (1 : Fin 2) = 0 := (idx2_1 t).2
  unfold iblk2
  rw [View.read_apply]
  show V c main_v126 _ = V c main_v126 _
  congr 1
  funext x
  apply Fin.ext
  match x with
  | ⟨0, _⟩ => show win2_1.index t (0 : Fin 2) * 128 + 1 * a.val = a.val; rw [e0]; omega
  | ⟨1, _⟩ => show win2_1.index t (1 : Fin 2) * 256 + 1 * b.val = b.val; rw [e1]; omega

/-- Window 2 stays at block (0, 0), and its one block is its whole array `main_v133` as the region finds it. -/
theorem blk2_2_apply (c : Dev nD) (t : Fin cfg2.N) (a : Fin 1) (b : Fin 256) :
    (iblk2 V c 2 t : Vec Ideal S1x256 .f32) (ix2 a b) = (V c main_v133 : S1x256.Idx → EReal) (ix2 a b) := by
  have e0 : win2_2.index t (0 : Fin 2) = 0 := (idx2_2 t).1
  have e1 : win2_2.index t (1 : Fin 2) = 0 := (idx2_2 t).2
  unfold iblk2
  rw [View.read_apply]
  show V c main_v133 _ = V c main_v133 _
  congr 1
  funext x
  apply Fin.ext
  match x with
  | ⟨0, _⟩ => show win2_2.index t (0 : Fin 2) * 1 + 1 * a.val = a.val; rw [e0]; omega
  | ⟨1, _⟩ => show win2_2.index t (1 : Fin 2) * 256 + 1 * b.val = b.val; rw [e1]; omega

/-- Window 3 stays at block (0, 0), and its one block is its whole array `main_v130` as the region finds it. -/
theorem blk2_3_apply (c : Dev nD) (t : Fin cfg2.N) (a : Fin 256) (b : Fin 128) :
    (iblk2 V c 3 t : Vec Ideal S256x128 .f32) (ix2 a b) = (V c main_v130 : S256x128.Idx → EReal) (ix2 a b) := by
  have e0 : win2_3.index t (0 : Fin 2) = 0 := (idx2_3 t).1
  have e1 : win2_3.index t (1 : Fin 2) = 0 := (idx2_3 t).2
  unfold iblk2
  rw [View.read_apply]
  show V c main_v130 _ = V c main_v130 _
  congr 1
  funext x
  apply Fin.ext
  match x with
  | ⟨0, _⟩ => show win2_3.index t (0 : Fin 2) * 256 + 1 * a.val = a.val; rw [e0]; omega
  | ⟨1, _⟩ => show win2_3.index t (1 : Fin 2) * 128 + 1 * b.val = b.val; rw [e1]; omega

/-- Window 4 stays at block (0, 0), and its one block is its whole array `main_v134` as the region finds it. -/
theorem blk2_4_apply (c : Dev nD) (t : Fin cfg2.N) (a : Fin 1) (b : Fin 128) :
    (iblk2 V c 4 t : Vec Ideal S1x128 .f32) (ix2 a b) = (V c main_v134 : S1x128.Idx → EReal) (ix2 a b) := by
  have e0 : win2_4.index t (0 : Fin 2) = 0 := (idx2_4 t).1
  have e1 : win2_4.index t (1 : Fin 2) = 0 := (idx2_4 t).2
  unfold iblk2
  rw [View.read_apply]
  show V c main_v134 _ = V c main_v134 _
  congr 1
  funext x
  apply Fin.ext
  match x with
  | ⟨0, _⟩ => show win2_4.index t (0 : Fin 2) * 1 + 1 * a.val = a.val; rw [e0]; omega
  | ⟨1, _⟩ => show win2_4.index t (1 : Fin 2) * 128 + 1 * b.val = b.val; rw [e1]; omega

/-! ## What a point stores into window 5 -/

/-- The stored value at (i, d), when the tile block's row i is row R of an array `A` and the other four blocks are
    the arrays `W1`, `B1`, `W2`, `B2`, is entry (R, d) of the perceptron's output array. -/
theorem mlp_block2 (A : S50000x128.Idx → EReal) (W1 : S128x256.Idx → EReal) (B1 : S1x256.Idx → EReal)
    (W2 : S256x128.Idx → EReal) (B2 : S1x128.Idx → EReal)
    (x0 : Vec Ideal S5000x128 .f32) (x1 : Vec Ideal S128x256 .f32) (x2 : Vec Ideal S1x256 .f32)
    (x3 : Vec Ideal S256x128 .f32) (x4 : Vec Ideal S1x128 .f32) (i : Fin 5000) (d : Fin 128) (R : Fin 50000)
    (h0 : ∀ k : Fin 128, x0 (ix2 i k) = A (ix2 R k)) (h1 : ∀ (k : Fin 128) (j : Fin 256), x1 (ix2 k j) = W1 (ix2 k j))
    (h2 : ∀ j : Fin 256, x2 (ix2 (0 : Fin 1) j) = B1 (ix2 (0 : Fin 1) j))
    (h3 : ∀ (j : Fin 256) (d' : Fin 128), x3 (ix2 j d') = W2 (ix2 j d'))
    (h4 : ∀ d' : Fin 128, x4 (ix2 (0 : Fin 1) d') = B2 (ix2 (0 : Fin 1) d')) :
    k2_pay4 (F := Ideal) x0 x1 x2 x3 x4 (ix2 i d) = mlpArr A W1 B1 W2 B2 (ix2 R d) := by
  rw [hn_apply2]
  simp only [h0, h1, h2, h3, h4]
  rfl

/-- Entry (i, d) of what point t stores into window 5 is entry (5000 t + i, d) of the perceptron's output array. -/
theorem hn2_apply (c : Dev nD) (t : Fin cfg2.N) (i : Fin 5000) (d : Fin 128) (R : Fin 50000) (hR : R.val = t.val * 5000 + i.val) :
    hn2 (F := Ideal) V c t (ix2 i d) = mlpArr (V c main_v124) (V c main_v126) (V c main_v133) (V c main_v130) (V c main_v134) (ix2 R d) := by
  unfold hn2
  exact mlp_block2 (V c main_v124) (V c main_v126) (V c main_v133) (V c main_v130) (V c main_v134)
    (iblk2 V c 0 t) (iblk2 V c 1 t) (iblk2 V c 2 t) (iblk2 V c 3 t) (iblk2 V c 4 t) i d R
    (fun k => tile2_apply V c t i k R hR) (fun k j => blk2_1_apply V c t k j) (fun j => blk2_2_apply V c t (0 : Fin 1) j)
    (fun j d' => blk2_3_apply V c t j d') (fun d' => blk2_4_apply V c t (0 : Fin 1) d')

/-! ## Window 5: the ten tiles fill the output array -/

/-- Entry (i, d) of window 5's block at point t is entry (5000 t + i, d) of the output array. -/
theorem outIdx2 (t : Fin cfg2.N) (i : Fin 5000) (d : Fin 128) (R : Fin 50000) (hR : R.val = t.val * 5000 + i.val) :
    ((cfg2.win 5).blk t).view.emb (ix2 i d) = (ix2 R d : S50000x128.Idx) := by
  have e0 : win2_5.index t (0 : Fin 2) = t.val := (idx2_5 t).1
  have e1 : win2_5.index t (1 : Fin 2) = 0 := (idx2_5 t).2
  funext x
  apply Fin.ext
  match x with
  | ⟨0, _⟩ => show win2_5.index t (0 : Fin 2) * 5000 + 1 * i.val = R.val; rw [e0, hR]; omega
  | ⟨1, _⟩ => show win2_5.index t (1 : Fin 2) * 128 + 1 * d.val = d.val; rw [e1]; omega

/-- What point t writes back to the output array is block t of the perceptron's output array. -/
theorem flushed2_5_eq (c : Dev nD) (t : Fin cfg2.N) :
    (dat2 (F := Ideal) V c).flushed 5 t
      = ((cfg2.win 5).blk t).view.read (Elt Ideal) (mlpArr (V c main_v124) (V c main_v126) (V c main_v133) (V c main_v130) (V c main_v134)) := by
  show (cfg2.win 5).cut (grid2.coords t) ((dat2 (F := Ideal) V c).after 5 t) = _
  rw [after2_5]
  funext j
  obtain ⟨i, d, rfl⟩ : ∃ (i : Fin 5000) (d : Fin 128), j = ix2 i d := ⟨j 0, j 1, eq_ix2 j⟩
  have ht : t.val < 10 := Nat.lt_of_lt_of_eq t.isLt (show cfg2.N = 10 from N_2)
  have hR : t.val * 5000 + i.val < 50000 := by have := i.isLt; omega
  rw [View.read_apply, outIdx2 t i d ⟨t.val * 5000 + i.val, hR⟩ rfl]
  show hn2 (F := Ideal) V c t (ix2 i d) = _
  exact hn2_apply V c t i d ⟨t.val * 5000 + i.val, hR⟩ rfl

/-- An index of the output array is in point t's block iff each coordinate is in the block's range on its axis. -/
theorem mem_tile2 (t : Fin cfg2.N) (idx : S50000x128.Idx) :
    idx ∈ ((cfg2.win 5).blk t).view.set ↔ ∀ a : Fin 2, win2_5.index t a * S5000x128.size a ≤ (idx a).val
      ∧ (idx a).val < win2_5.index t a * S5000x128.size a + S5000x128.size a := by
  show idx ∈ ((View.whole main_v135_0).slice (win2_5.rect t)).set ↔ _
  rw [View.set_slice_whole, Rect.mem_set_unit]
  exact Iff.rfl

/-- Every index of the output array is in the block of the point its row falls in: row r is written at point r / 5000. -/
theorem tiles_cover2 (idx : S50000x128.Idx) :
    ∃ t : Fin cfg2.N, (cfg2.win 5).flush t = true ∧ idx ∈ ((cfg2.win 5).blk t).view.set := by
  have h0 : (idx 0).val < 50000 := (idx 0).isLt
  have h1 : (idx 1).val < 128 := (idx 1).isLt
  have hN : (idx 0).val / 5000 < cfg2.N := by rw [show cfg2.N = 10 from N_2]; omega
  have e0 : win2_5.index ⟨(idx 0).val / 5000, hN⟩ (0 : Fin 2) = (idx 0).val / 5000 := (idx2_5 ⟨(idx 0).val / 5000, hN⟩).1
  have e1 : win2_5.index ⟨(idx 0).val / 5000, hN⟩ (1 : Fin 2) = 0 := (idx2_5 ⟨(idx 0).val / 5000, hN⟩).2
  refine ⟨⟨(idx 0).val / 5000, hN⟩, flush2_5 _, ?_⟩
  rw [mem_tile2]
  intro a
  match a with
  | ⟨0, _⟩ =>
    show win2_5.index ⟨(idx 0).val / 5000, hN⟩ (0 : Fin 2) * 5000 ≤ (idx 0).val
      ∧ (idx 0).val < win2_5.index ⟨(idx 0).val / 5000, hN⟩ (0 : Fin 2) * 5000 + 5000
    rw [e0]; omega
  | ⟨1, _⟩ =>
    show win2_5.index ⟨(idx 0).val / 5000, hN⟩ (1 : Fin 2) * 128 ≤ (idx 1).val
      ∧ (idx 1).val < win2_5.index ⟨(idx 0).val / 5000, hN⟩ (1 : Fin 2) * 128 + 128
    rw [e1]; omega

/-- THE OUTPUT ARRAY after the region's ten points: the perceptron's output array of the five entry arrays. -/
theorem final2_hn (c : Dev nD) :
    (dat2 (F := Ideal) V c).arrAt 5 cfg2.N = mlpArr (V c main_v124) (V c main_v126) (V c main_v133) (V c main_v130) (V c main_v134) :=
  (dat2 (F := Ideal) V c).arrAt_eq_of_cover 5 (mlpArr (V c main_v124) (V c main_v126) (V c main_v133) (V c main_v130) (V c main_v134))
    (fun t _ => flushed2_5_eq V c t) (tiles_cover2)

/-! ## Window 6: the column sums, written back at the last point only -/

/-- Window 6's one block is the whole [1,128] array. -/
theorem rowIdx2_6 (t : Fin cfg2.N) (u : Fin 1) (d : Fin 128) :
    ((cfg2.win 6).blk t).view.emb (ix2 u d) = (ix2 u d : S1x128.Idx) := by
  have e0 : win2_6.index t (0 : Fin 2) = 0 := (idx2_6 t).1
  have e1 : win2_6.index t (1 : Fin 2) = 0 := (idx2_6 t).2
  funext x
  apply Fin.ext
  match x with
  | ⟨0, _⟩ => show win2_6.index t (0 : Fin 2) * 1 + 1 * u.val = u.val; rw [e0]; omega
  | ⟨1, _⟩ => show win2_6.index t (1 : Fin 2) * 128 + 1 * d.val = d.val; rw [e1]; omega

/-- The only point that writes window 6 back is the last, and it writes what the scratch row then holds. -/
theorem flushed2_6_eq (c : Dev nD) (t : Fin cfg2.N) (hf : (cfg2.win 6).flush t = true) :
    (dat2 (F := Ideal) V c).flushed 6 t
      = ((cfg2.win 6).blk t).view.read (Elt Ideal) ((acc2 (F := Ideal) V c 9 h9_2).1 : S1x128.Idx → EReal) := by
  have hN : t.val < 10 := Nat.lt_of_lt_of_eq t.isLt (show cfg2.N = 10 from N_2)
  have ht9 : t.val = 9 := by have := (flush2_6 t).mp hf; omega
  obtain rfl : t = ⟨9, h9_2⟩ := Fin.ext ht9
  show (cfg2.win 6).cut (grid2.coords ⟨9, h9_2⟩) ((dat2 (F := Ideal) V c).after 6 ⟨9, h9_2⟩) = _
  rw [after2_6]
  funext j
  obtain ⟨u, d, rfl⟩ : ∃ (u : Fin 1) (d : Fin 128), j = ix2 u d := ⟨j 0, j 1, eq_ix2 j⟩
  rw [View.read_apply, rowIdx2_6 ⟨9, h9_2⟩ u d]
  rfl

theorem mem_row2_6 (t : Fin cfg2.N) (idx : S1x128.Idx) :
    idx ∈ ((cfg2.win 6).blk t).view.set ↔ ∀ a : Fin 2, win2_6.index t a * S1x128.size a ≤ (idx a).val
      ∧ (idx a).val < win2_6.index t a * S1x128.size a + S1x128.size a := by
  show idx ∈ ((View.whole main_v135_1).slice (win2_6.rect t)).set ↔ _
  rw [View.set_slice_whole, Rect.mem_set_unit]
  exact Iff.rfl

/-- The last point's block covers the whole [1,128] array. -/
theorem row_cover2_6 (idx : S1x128.Idx) :
    ∃ t : Fin cfg2.N, (cfg2.win 6).flush t = true ∧ idx ∈ ((cfg2.win 6).blk t).view.set := by
  have h0 : (idx 0).val < 1 := (idx 0).isLt
  have h1 : (idx 1).val < 128 := (idx 1).isLt
  have e0 : win2_6.index ⟨9, h9_2⟩ (0 : Fin 2) = 0 := (idx2_6 ⟨9, h9_2⟩).1
  have e1 : win2_6.index ⟨9, h9_2⟩ (1 : Fin 2) = 0 := (idx2_6 ⟨9, h9_2⟩).2
  refine ⟨⟨9, h9_2⟩, (flush2_6 _).mpr rfl, ?_⟩
  rw [mem_row2_6]
  intro a
  match a with
  | ⟨0, _⟩ =>
    show win2_6.index ⟨9, h9_2⟩ (0 : Fin 2) * 1 ≤ (idx 0).val ∧ (idx 0).val < win2_6.index ⟨9, h9_2⟩ (0 : Fin 2) * 1 + 1
    rw [e0]; omega
  | ⟨1, _⟩ =>
    show win2_6.index ⟨9, h9_2⟩ (1 : Fin 2) * 128 ≤ (idx 1).val ∧ (idx 1).val < win2_6.index ⟨9, h9_2⟩ (1 : Fin 2) * 128 + 128
    rw [e1]; omega

/-- Window 6's array after the ten points is what the scratch row holds after the last. -/
theorem arr2_6 (c : Dev nD) :
    (dat2 (F := Ideal) V c).arrAt 6 cfg2.N = ((acc2 (F := Ideal) V c 9 h9_2).1 : S1x128.Idx → EReal) :=
  (dat2 (F := Ideal) V c).arrAt_eq_of_cover 6 ((acc2 (F := Ideal) V c 9 h9_2).1 : S1x128.Idx → EReal)
    (fun t hf => flushed2_6_eq V c t hf) row_cover2_6

/-! ## Window 7: the column sums of squares, written back at the last point only -/

/-- Window 7's one block is the whole [1,128] array. -/
theorem rowIdx2_7 (t : Fin cfg2.N) (u : Fin 1) (d : Fin 128) :
    ((cfg2.win 7).blk t).view.emb (ix2 u d) = (ix2 u d : S1x128.Idx) := by
  have e0 : win2_7.index t (0 : Fin 2) = 0 := (idx2_7 t).1
  have e1 : win2_7.index t (1 : Fin 2) = 0 := (idx2_7 t).2
  funext x
  apply Fin.ext
  match x with
  | ⟨0, _⟩ => show win2_7.index t (0 : Fin 2) * 1 + 1 * u.val = u.val; rw [e0]; omega
  | ⟨1, _⟩ => show win2_7.index t (1 : Fin 2) * 128 + 1 * d.val = d.val; rw [e1]; omega

/-- The only point that writes window 7 back is the last, and it writes what the scratch row then holds. -/
theorem flushed2_7_eq (c : Dev nD) (t : Fin cfg2.N) (hf : (cfg2.win 7).flush t = true) :
    (dat2 (F := Ideal) V c).flushed 7 t
      = ((cfg2.win 7).blk t).view.read (Elt Ideal) ((acc2 (F := Ideal) V c 9 h9_2).2 : S1x128.Idx → EReal) := by
  have hN : t.val < 10 := Nat.lt_of_lt_of_eq t.isLt (show cfg2.N = 10 from N_2)
  have ht9 : t.val = 9 := by have := (flush2_7 t).mp hf; omega
  obtain rfl : t = ⟨9, h9_2⟩ := Fin.ext ht9
  show (cfg2.win 7).cut (grid2.coords ⟨9, h9_2⟩) ((dat2 (F := Ideal) V c).after 7 ⟨9, h9_2⟩) = _
  rw [after2_7]
  funext j
  obtain ⟨u, d, rfl⟩ : ∃ (u : Fin 1) (d : Fin 128), j = ix2 u d := ⟨j 0, j 1, eq_ix2 j⟩
  rw [View.read_apply, rowIdx2_7 ⟨9, h9_2⟩ u d]
  rfl

theorem mem_row2_7 (t : Fin cfg2.N) (idx : S1x128.Idx) :
    idx ∈ ((cfg2.win 7).blk t).view.set ↔ ∀ a : Fin 2, win2_7.index t a * S1x128.size a ≤ (idx a).val
      ∧ (idx a).val < win2_7.index t a * S1x128.size a + S1x128.size a := by
  show idx ∈ ((View.whole main_v135_2).slice (win2_7.rect t)).set ↔ _
  rw [View.set_slice_whole, Rect.mem_set_unit]
  exact Iff.rfl

/-- The last point's block covers the whole [1,128] array. -/
theorem row_cover2_7 (idx : S1x128.Idx) :
    ∃ t : Fin cfg2.N, (cfg2.win 7).flush t = true ∧ idx ∈ ((cfg2.win 7).blk t).view.set := by
  have h0 : (idx 0).val < 1 := (idx 0).isLt
  have h1 : (idx 1).val < 128 := (idx 1).isLt
  have e0 : win2_7.index ⟨9, h9_2⟩ (0 : Fin 2) = 0 := (idx2_7 ⟨9, h9_2⟩).1
  have e1 : win2_7.index ⟨9, h9_2⟩ (1 : Fin 2) = 0 := (idx2_7 ⟨9, h9_2⟩).2
  refine ⟨⟨9, h9_2⟩, (flush2_7 _).mpr rfl, ?_⟩
  rw [mem_row2_7]
  intro a
  match a with
  | ⟨0, _⟩ =>
    show win2_7.index ⟨9, h9_2⟩ (0 : Fin 2) * 1 ≤ (idx 0).val ∧ (idx 0).val < win2_7.index ⟨9, h9_2⟩ (0 : Fin 2) * 1 + 1
    rw [e0]; omega
  | ⟨1, _⟩ =>
    show win2_7.index ⟨9, h9_2⟩ (1 : Fin 2) * 128 ≤ (idx 1).val ∧ (idx 1).val < win2_7.index ⟨9, h9_2⟩ (1 : Fin 2) * 128 + 128
    rw [e1]; omega

/-- Window 7's array after the ten points is what the scratch row holds after the last. -/
theorem arr2_7 (c : Dev nD) :
    (dat2 (F := Ideal) V c).arrAt 7 cfg2.N = ((acc2 (F := Ideal) V c 9 h9_2).2 : S1x128.Idx → EReal) :=
  (dat2 (F := Ideal) V c).arrAt_eq_of_cover 7 ((acc2 (F := Ideal) V c 9 h9_2).2 : S1x128.Idx → EReal)
    (fun t hf => flushed2_7_eq V c t hf) row_cover2_7

/-! ## The scratch rows are running totals over the tiles -/

/-- One point's step of the running column sum, at column d: what the row held plus the column sum of the point's tile
    of the perceptron's output array (`T` the point, as a tile number). -/
theorem acc2_step_sum (c : Dev nD) (t : Fin cfg2.N) (T : Fin 10) (hT : T.val = t.val) (acc : Vec Ideal S1x128 .f32)
    (u : Fin 1) (d : Fin 128) :
    k2_pay5 (F := Ideal) (iblk2 V c 0 t) (iblk2 V c 1 t) (iblk2 V c 2 t) (iblk2 V c 3 t) (iblk2 V c 4 t) acc (ix2 u d)
      = acc (ix2 u d) + ∑ i : Fin 5000, mlpArr (V c main_v124) (V c main_v126) (V c main_v133) (V c main_v130) (V c main_v134) (ix2 (Cert.Moments.tileRow T i) d) :=
  (sum_apply2 (iblk2 V c 0 t) (iblk2 V c 1 t) (iblk2 V c 2 t) (iblk2 V c 3 t) (iblk2 V c 4 t) acc u d).trans
    (congrArg (acc (ix2 u d) + ·) (Finset.sum_congr rfl fun i _ =>
      hn2_apply V c t i d (Cert.Moments.tileRow T i) (by rw [Cert.Moments.tileRow_val, hT]; omega)))

/-- The same for the running column sum of squares. -/
theorem acc2_step_sumsq (c : Dev nD) (t : Fin cfg2.N) (T : Fin 10) (hT : T.val = t.val) (acc : Vec Ideal S1x128 .f32)
    (u : Fin 1) (d : Fin 128) :
    k2_pay1 (F := Ideal) (hn2 (F := Ideal) V c t) acc (ix2 u d)
      = acc (ix2 u d) + ∑ i : Fin 5000, mlpArr (V c main_v124) (V c main_v126) (V c main_v133) (V c main_v130) (V c main_v134) (ix2 (Cert.Moments.tileRow T i) d)
          * mlpArr (V c main_v124) (V c main_v126) (V c main_v133) (V c main_v130) (V c main_v134) (ix2 (Cert.Moments.tileRow T i) d) :=
  (sumsq_apply2 (hn2 (F := Ideal) V c t) acc u d).trans
    (congrArg (acc (ix2 u d) + ·) (Finset.sum_congr rfl fun i _ => by
      rw [hn2_apply V c t i d (Cert.Moments.tileRow T i) (by rw [Cert.Moments.tileRow_val, hT]; omega)]))

/-- A point number below ten is a grid point. -/
theorem pt_lt2 (T : Fin (9 + 1)) : T.val < cfg2.N := Nat.lt_of_lt_of_eq T.isLt (show (9 + 1 : ℕ) = cfg2.N from N_2.symm)

/-- THE COLUMN SUMS after the region's ten points: column d of `main_v135_1` holds the sum, over the ten tiles and the
    5000 rows of each, of column d of the perceptron's output array. -/
theorem final2_sum (c : Dev nD) (u : Fin 1) (d : Fin 128) :
    (dat2 (F := Ideal) V c).arrAt 6 cfg2.N (ix2 u d)
      = ∑ t : Fin 10, ∑ i : Fin 5000, mlpArr (V c main_v124) (V c main_v126) (V c main_v133) (V c main_v130) (V c main_v134) (ix2 (Cert.Moments.tileRow t i) d) := by
  rw [arr2_6 V c]
  exact Cert.ColumnMoments.running_total_last (g := 9)
    (fun T : Fin (9 + 1) => ∑ i : Fin 5000, mlpArr (V c main_v124) (V c main_v126) (V c main_v133) (V c main_v130) (V c main_v134) (ix2 (Cert.Moments.tileRow (g := 10) (b := 5000) T i) d))
    (fun T : Fin (9 + 1) => ((acc2 (F := Ideal) V c T.val (pt_lt2 T)).1 : S1x128.Idx → EReal) (ix2 u d))
    ((acc2_step_sum V c ⟨0, pt_lt2 0⟩ 0 rfl (k2_pay2 (F := Ideal)) u d).trans (by rw [reset0_apply2]))
    (fun T => acc2_step_sum V c ⟨T.val + 1, pt_lt2 T.succ⟩ T.succ rfl (acc2 (F := Ideal) V c T.val (pt_lt2 T.castSucc)).1 u d)

/-- THE COLUMN SUMS OF SQUARES after the region's ten points, the same way in `main_v135_2`. -/
theorem final2_sumsq (c : Dev nD) (u : Fin 1) (d : Fin 128) :
    (dat2 (F := Ideal) V c).arrAt 7 cfg2.N (ix2 u d)
      = ∑ t : Fin 10, ∑ i : Fin 5000, mlpArr (V c main_v124) (V c main_v126) (V c main_v133) (V c main_v130) (V c main_v134) (ix2 (Cert.Moments.tileRow t i) d)
          * mlpArr (V c main_v124) (V c main_v126) (V c main_v133) (V c main_v130) (V c main_v134) (ix2 (Cert.Moments.tileRow t i) d) := by
  rw [arr2_7 V c]
  exact Cert.ColumnMoments.running_total_last (g := 9)
    (fun T : Fin (9 + 1) => ∑ i : Fin 5000, mlpArr (V c main_v124) (V c main_v126) (V c main_v133) (V c main_v130) (V c main_v134) (ix2 (Cert.Moments.tileRow (g := 10) (b := 5000) T i) d)
      * mlpArr (V c main_v124) (V c main_v126) (V c main_v133) (V c main_v130) (V c main_v134) (ix2 (Cert.Moments.tileRow (g := 10) (b := 5000) T i) d))
    (fun T : Fin (9 + 1) => ((acc2 (F := Ideal) V c T.val (pt_lt2 T)).2 : S1x128.Idx → EReal) (ix2 u d))
    ((acc2_step_sumsq V c ⟨0, pt_lt2 0⟩ 0 rfl (k2_pay3 (F := Ideal)) u d).trans (by rw [reset1_apply2]))
    (fun T => acc2_step_sumsq V c ⟨T.val + 1, pt_lt2 T.succ⟩ T.succ rfl (acc2 (F := Ideal) V c T.val (pt_lt2 T.castSucc)).2 u d)

end Cert.KernelIdeal.Val

end
-- ==== Proof.Val.PayBn3.lean ====
/-
  The payload of region 3's batch-norm-apply-and-ReLU body read at one element, at the ideal float values
  (extended reals, every operation exact): at row i and column d it is
  max (((hn[i,d] - mean[0,d]) * rstd[0,d]) * gamma[0,d] + beta[0,d]) 0.
  Each of the four [1,128] rows is broadcast over the 5000 rows of the tile, so it is read at (0, d).
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- Region 3's stored value at (i, d): normalize, scale, shift, then clamp below at zero. -/
theorem bn_relu_apply3 (hn : Vec Ideal S5000x128 .f32) (mean rstd gamma beta : Vec Ideal S1x128 .f32)
    (i : Fin 5000) (d : Fin 128) :
    k3_pay1 (F := Ideal) hn mean rstd gamma beta (ix2 i d)
      = max (((hn (ix2 i d) - mean (ix2 (0 : Fin 1) d)) * rstd (ix2 (0 : Fin 1) d)) * gamma (ix2 (0 : Fin 1) d)
          + beta (ix2 (0 : Fin 1) d)) 0 := by
  unfold k3_pay1
  simp only [maximumf_apply, addf_apply, mulf_apply, subf_apply, broadcast_apply, shapeCast_self,
    broadcastTo_1b_ab_apply, scalar_zero_f32]

end Cert.KernelIdeal.Val

end
-- ==== Proof.Val.Final3.lean ====
/-
  Region 3's output array after its ten grid points, as ONE function of the arrays the region finds on entry.
  Point t stores, over rows 5000 t … 5000 t + 4999 of the [50000,128] output array `main_v155`, the normalisation of the
  same rows of `main_v135_0` by the four [1,128] rows `main_v151`, `main_v152`, `main_v153`, `main_v154`, clamped below at zero.  The ten
  tiles are disjoint and fill the array, so the array ends holding `bnReluArr` of the five entry arrays.
-/
import proofs.«118775_j16338055594318_1_alg».proof.Proof.KI.Bn3
import proofs.«118775_j16338055594318_1_alg».proof.Proof.Val.PayBn3
import proofs.«118775_j16338055594318_1_alg».proof.Proof.Val.BnArr
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The block indices over the grid: the tile windows 0 and 5 sit at block (t, 0) at point t, the four row windows
    stay at block (0, 0). -/
theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t is rows 5000 t … 5000 t + 4999 of `main_v135_0` as the region finds it. -/
theorem tile3_apply (c : Dev nD) (t : Fin cfg3.N) (i : Fin 5000) (d : Fin 128) (R : Fin 50000) (hR : R.val = t.val * 5000 + i.val) :
    (iblk3 V c 0 t : Vec Ideal S5000x128 .f32) (ix2 i d) = (V c main_v135_0 : S50000x128.Idx → EReal) (ix2 R d) := by
  have e0 : win3_0.index t (0 : Fin 2) = t.val := (blockIdx3 t).1
  have e1 : win3_0.index t (1 : Fin 2) = 0 := (blockIdx3 t).2.1
  unfold iblk3
  rw [View.read_apply]
  show V c main_v135_0 _ = V c main_v135_0 _
  congr 1
  funext x
  apply Fin.ext
  match x with
  | ⟨0, _⟩ => show win3_0.index t (0 : Fin 2) * 5000 + 1 * i.val = R.val; rw [e0, hR]; omega
  | ⟨1, _⟩ => show win3_0.index t (1 : Fin 2) * 128 + 1 * d.val = d.val; rw [e1]; omega

/-- Window 1's block at any point is the whole [1,128] row array `main_v151` as the region finds it. -/
theorem row3_1_apply (c : Dev nD) (t : Fin cfg3.N) (d : Fin 128) :
    (iblk3 V c 1 t : Vec Ideal S1x128 .f32) (ix2 (0 : Fin 1) d) = (V c main_v151 : S1x128.Idx → EReal) (ix2 (0 : Fin 1) d) := by
  have e0 : win3_1.index t (0 : Fin 2) = 0 := (blockIdx3 t).2.2.1
  have e1 : win3_1.index t (1 : Fin 2) = 0 := (blockIdx3 t).2.2.2.1
  unfold iblk3
  rw [View.read_apply]
  show V c main_v151 _ = V c main_v151 _
  congr 1
  funext x
  apply Fin.ext
  match x with
  | ⟨0, _⟩ => show win3_1.index t (0 : Fin 2) * 1 + 1 * (0 : Fin 1).val = (0 : Fin 1).val; rw [e0]; rfl
  | ⟨1, _⟩ => show win3_1.index t (1 : Fin 2) * 128 + 1 * d.val = d.val; rw [e1]; omega

/-- Window 2's block at any point is the whole [1,128] row array `main_v152` as the region finds it. -/
theorem row3_2_apply (c : Dev nD) (t : Fin cfg3.N) (d : Fin 128) :
    (iblk3 V c 2 t : Vec Ideal S1x128 .f32) (ix2 (0 : Fin 1) d) = (V c main_v152 : S1x128.Idx → EReal) (ix2 (0 : Fin 1) d) := by
  have e0 : win3_2.index t (0 : Fin 2) = 0 := (blockIdx3 t).2.2.2.2.1
  have e1 : win3_2.index t (1 : Fin 2) = 0 := (blockIdx3 t).2.2.2.2.2.1
  unfold iblk3
  rw [View.read_apply]
  show V c main_v152 _ = V c main_v152 _
  congr 1
  funext x
  apply Fin.ext
  match x with
  | ⟨0, _⟩ => show win3_2.index t (0 : Fin 2) * 1 + 1 * (0 : Fin 1).val = (0 : Fin 1).val; rw [e0]; rfl
  | ⟨1, _⟩ => show win3_2.index t (1 : Fin 2) * 128 + 1 * d.val = d.val; rw [e1]; omega

/-- Window 3's block at any point is the whole [1,128] row array `main_v153` as the region finds it. -/
theorem row3_3_apply (c : Dev nD) (t : Fin cfg3.N) (d : Fin 128) :
    (iblk3 V c 3 t : Vec Ideal S1x128 .f32) (ix2 (0 : Fin 1) d) = (V c main_v153 : S1x128.Idx → EReal) (ix2 (0 : Fin 1) d) := by
  have e0 : win3_3.index t (0 : Fin 2) = 0 := (blockIdx3 t).2.2.2.2.2.2.1
  have e1 : win3_3.index t (1 : Fin 2) = 0 := (blockIdx3 t).2.2.2.2.2.2.2.1
  unfold iblk3
  rw [View.read_apply]
  show V c main_v153 _ = V c main_v153 _
  congr 1
  funext x
  apply Fin.ext
  match x with
  | ⟨0, _⟩ => show win3_3.index t (0 : Fin 2) * 1 + 1 * (0 : Fin 1).val = (0 : Fin 1).val; rw [e0]; rfl
  | ⟨1, _⟩ => show win3_3.index t (1 : Fin 2) * 128 + 1 * d.val = d.val; rw [e1]; omega

/-- Window 4's block at any point is the whole [1,128] row array `main_v154` as the region finds it. -/
theorem row3_4_apply (c : Dev nD) (t : Fin cfg3.N) (d : Fin 128) :
    (iblk3 V c 4 t : Vec Ideal S1x128 .f32) (ix2 (0 : Fin 1) d) = (V c main_v154 : S1x128.Idx → EReal) (ix2 (0 : Fin 1) d) := by
  have e0 : win3_4.index t (0 : Fin 2) = 0 := (blockIdx3 t).2.2.2.2.2.2.2.2.1
  have e1 : win3_4.index t (1 : Fin 2) = 0 := (blockIdx3 t).2.2.2.2.2.2.2.2.2.1
  unfold iblk3
  rw [View.read_apply]
  show V c main_v154 _ = V c main_v154 _
  congr 1
  funext x
  apply Fin.ext
  match x with
  | ⟨0, _⟩ => show win3_4.index t (0 : Fin 2) * 1 + 1 * (0 : Fin 1).val = (0 : Fin 1).val; rw [e0]; rfl
  | ⟨1, _⟩ => show win3_4.index t (1 : Fin 2) * 128 + 1 * d.val = d.val; rw [e1]; omega

/-- The body's stored value at (i, d), when its tile block reads entry (R, d) of an array `A` and its four row
    blocks read the rows `mean`, `rstd`, `gamma`, `beta` at (0, d), is entry (R, d) of the normalised array. -/
theorem pay3_block (A : S50000x128.Idx → EReal) (mean rstd gamma beta : S1x128.Idx → EReal)
    (x0 : Vec Ideal S5000x128 .f32) (x1 x2 x3 x4 : Vec Ideal S1x128 .f32) (i : Fin 5000) (d : Fin 128) (R : Fin 50000)
    (h0 : x0 (ix2 i d) = A (ix2 R d)) (h1 : x1 (ix2 (0 : Fin 1) d) = mean (ix2 (0 : Fin 1) d))
    (h2 : x2 (ix2 (0 : Fin 1) d) = rstd (ix2 (0 : Fin 1) d)) (h3 : x3 (ix2 (0 : Fin 1) d) = gamma (ix2 (0 : Fin 1) d))
    (h4 : x4 (ix2 (0 : Fin 1) d) = beta (ix2 (0 : Fin 1) d)) :
    k3_pay1 (F := Ideal) x0 x1 x2 x3 x4 (ix2 i d) = bnReluArr A mean rstd gamma beta (ix2 R d) := by
  rw [bn_relu_apply3, h0, h1, h2, h3, h4]
  rfl

/-- Entry (i, d) of window 5's block at point t is entry (5000 t + i, d) of the output array. -/
theorem outIdx3 (t : Fin cfg3.N) (i : Fin 5000) (d : Fin 128) (R : Fin 50000) (hR : R.val = t.val * 5000 + i.val) :
    ((cfg3.win 5).blk t).view.emb (ix2 i d) = (ix2 R d : S50000x128.Idx) := by
  have e0 : win3_5.index t (0 : Fin 2) = t.val := (blockIdx3 t).2.2.2.2.2.2.2.2.2.2.1
  have e1 : win3_5.index t (1 : Fin 2) = 0 := (blockIdx3 t).2.2.2.2.2.2.2.2.2.2.2
  funext x
  apply Fin.ext
  match x with
  | ⟨0, _⟩ => show win3_5.index t (0 : Fin 2) * 5000 + 1 * i.val = R.val; rw [e0, hR]; omega
  | ⟨1, _⟩ => show win3_5.index t (1 : Fin 2) * 128 + 1 * d.val = d.val; rw [e1]; omega

/-- What point t writes back to the output array is block t of the normalised array. -/
theorem flushed3_eq (c : Dev nD) (t : Fin cfg3.N) :
    (dat3 (F := Ideal) V c).flushed 5 t
      = ((cfg3.win 5).blk t).view.read (Elt Ideal) (bnReluArr (V c main_v135_0) (V c main_v151) (V c main_v152) (V c main_v153) (V c main_v154)) := by
  show (cfg3.win 5).cut (grid3.coords t) ((dat3 (F := Ideal) V c).after 5 t) = _
  rw [after3_5]
  funext j
  obtain ⟨i, d, rfl⟩ : ∃ (i : Fin 5000) (d : Fin 128), j = ix2 i d := ⟨j 0, j 1, eq_ix2 j⟩
  have ht : t.val < 10 := Nat.lt_of_lt_of_eq t.isLt (show cfg3.N = 10 from N_3)
  have hR : t.val * 5000 + i.val < 50000 := by have := i.isLt; omega
  rw [View.read_apply, outIdx3 t i d ⟨t.val * 5000 + i.val, hR⟩ rfl]
  show out3 V c t (ix2 i d) = _
  unfold out3
  exact pay3_block (V c main_v135_0) (V c main_v151) (V c main_v152) (V c main_v153) (V c main_v154)
    (iblk3 V c 0 t) (iblk3 V c 1 t) (iblk3 V c 2 t) (iblk3 V c 3 t) (iblk3 V c 4 t) i d ⟨t.val * 5000 + i.val, hR⟩
    (tile3_apply V c t i d ⟨t.val * 5000 + i.val, hR⟩ rfl) (row3_1_apply V c t d) (row3_2_apply V c t d)
    (row3_3_apply V c t d) (row3_4_apply V c t d)

/-- An index of the output array is in point t's block iff each coordinate is in the block's range on its axis. -/
theorem mem_tile3 (t : Fin cfg3.N) (idx : S50000x128.Idx) :
    idx ∈ ((cfg3.win 5).blk t).view.set ↔ ∀ a : Fin 2, win3_5.index t a * S5000x128.size a ≤ (idx a).val
      ∧ (idx a).val < win3_5.index t a * S5000x128.size a + S5000x128.size a := by
  show idx ∈ ((View.whole main_v155).slice (win3_5.rect t)).set ↔ _
  rw [View.set_slice_whole, Rect.mem_set_unit]
  exact Iff.rfl

/-- Every index of the output array is in the block of the point its row falls in: row r is written at point r / 5000. -/
theorem tiles_cover3 (idx : S50000x128.Idx) :
    ∃ t : Fin cfg3.N, (cfg3.win 5).flush t = true ∧ idx ∈ ((cfg3.win 5).blk t).view.set := by
  have h0 : (idx 0).val < 50000 := (idx 0).isLt
  have h1 : (idx 1).val < 128 := (idx 1).isLt
  have hN : (idx 0).val / 5000 < cfg3.N := by rw [show cfg3.N = 10 from N_3]; omega
  have e0 : win3_5.index ⟨(idx 0).val / 5000, hN⟩ (0 : Fin 2) = (idx 0).val / 5000 := (blockIdx3 ⟨(idx 0).val / 5000, hN⟩).2.2.2.2.2.2.2.2.2.2.1
  have e1 : win3_5.index ⟨(idx 0).val / 5000, hN⟩ (1 : Fin 2) = 0 := (blockIdx3 ⟨(idx 0).val / 5000, hN⟩).2.2.2.2.2.2.2.2.2.2.2
  refine ⟨⟨(idx 0).val / 5000, hN⟩, flush3_5 _, ?_⟩
  rw [mem_tile3]
  intro a
  match a with
  | ⟨0, _⟩ =>
    show win3_5.index ⟨(idx 0).val / 5000, hN⟩ (0 : Fin 2) * 5000 ≤ (idx 0).val
      ∧ (idx 0).val < win3_5.index ⟨(idx 0).val / 5000, hN⟩ (0 : Fin 2) * 5000 + 5000
    rw [e0]; omega
  | ⟨1, _⟩ =>
    show win3_5.index ⟨(idx 0).val / 5000, hN⟩ (1 : Fin 2) * 128 ≤ (idx 1).val
      ∧ (idx 1).val < win3_5.index ⟨(idx 0).val / 5000, hN⟩ (1 : Fin 2) * 128 + 128
    rw [e1]; omega

/-- THE OUTPUT ARRAY after the region's ten points: the normalised array of the five entry arrays. -/
theorem final3 (c : Dev nD) :
    (dat3 (F := Ideal) V c).arrAt 5 cfg3.N = bnReluArr (V c main_v135_0) (V c main_v151) (V c main_v152) (V c main_v153) (V c main_v154) :=
  (dat3 (F := Ideal) V c).arrAt_eq_of_cover 5 (bnReluArr (V c main_v135_0) (V c main_v151) (V c main_v152) (V c main_v153) (V c main_v154))
    (fun t _ => flushed3_eq V c t) (tiles_cover3)

end Cert.KernelIdeal.Val

end
-- ==== Proof.Val.Glue2.lean ====
/-
  Host stretch 2 (before region 2)'s last operations read at one element, at the ideal float values, from an arbitrary
  valuation of the buffers before it: the layer's two weight matrices and two bias rows as region 2's windows find them,
  cut out of the stacked parameter tables.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 2 the first layer's weights' buffer holds matrix 1 of the stacked first-layer weights. -/
theorem glue2_w1_eq (W : Valuation τ sig (Elt Ideal)) :
    (StableHlo.after hostOps2 W (Proc.devRef .tc main_v126) : (⟨S128x256, .f32⟩ : BufTy).Contents (Elt Ideal))
      = mat128x256 1 slices_S5x128x256_S1x128x256_1_0_0 (W (Proc.devRef .tc main_arg7)) := by
  after_results_simp
  rfl

theorem glue2_w1 (W : Valuation τ sig (Elt Ideal)) (k : Fin 128) (j : Fin 256) :
    (StableHlo.after hostOps2 W (Proc.devRef .tc main_v126) : (⟨S128x256, .f32⟩ : BufTy).Contents (Elt Ideal)) (ix2 k j)
      = (W (Proc.devRef .tc main_arg7) : (⟨S5x128x256, .f32⟩ : BufTy).Contents (Elt Ideal)) (ix3 (1 : Fin 5) k j) := by
  rw [glue2_w1_eq]; exact mat128x256_apply 1 _ _ (1 : Fin 5) rfl k j

set_option maxHeartbeats 4000000 in
/-- After stretch 2 the first layer's bias's buffer holds row 1 of the stacked first-layer biases. -/
theorem glue2_b1_eq (W : Valuation τ sig (Elt Ideal)) :
    (StableHlo.after hostOps2 W (Proc.devRef .tc main_v133) : (⟨S1x256, .f32⟩ : BufTy).Contents (Elt Ideal))
      = row256 1 slices_S5x256_S1x256_1_0 (W (Proc.devRef .tc main_arg8)) := by
  after_results_simp
  rfl

theorem glue2_b1 (W : Valuation τ sig (Elt Ideal)) (u : Fin 1) (j : Fin 256) :
    (StableHlo.after hostOps2 W (Proc.devRef .tc main_v133) : (⟨S1x256, .f32⟩ : BufTy).Contents (Elt Ideal)) (ix2 u j)
      = (W (Proc.devRef .tc main_arg8) : (⟨S5x256, .f32⟩ : BufTy).Contents (Elt Ideal)) (ix2 (1 : Fin 5) j) := by
  rw [glue2_b1_eq]; exact row256_apply 1 _ _ (1 : Fin 5) rfl u j

set_option maxHeartbeats 4000000 in
/-- After stretch 2 the second layer's weights' buffer holds matrix 1 of the stacked second-layer weights. -/
theorem glue2_w2_eq (W : Valuation τ sig (Elt Ideal)) :
    (StableHlo.after hostOps2 W (Proc.devRef .tc main_v130) : (⟨S256x128, .f32⟩ : BufTy).Contents (Elt Ideal))
      = mat256x128 1 slices_S5x256x128_S1x256x128_1_0_0 (W (Proc.devRef .tc main_arg9)) := by
  after_results_simp
  rfl

theorem glue2_w2 (W : Valuation τ sig (Elt Ideal)) (j : Fin 256) (d : Fin 128) :
    (StableHlo.after hostOps2 W (Proc.devRef .tc main_v130) : (⟨S256x128, .f32⟩ : BufTy).Contents (Elt Ideal)) (ix2 j d)
      = (W (Proc.devRef .tc main_arg9) : (⟨S5x256x128, .f32⟩ : BufTy).Contents (Elt Ideal)) (ix3 (1 : Fin 5) j d) := by
  rw [glue2_w2_eq]; exact mat256x128_apply 1 _ _ (1 : Fin 5) rfl j d

set_option maxHeartbeats 4000000 in
/-- After stretch 2 the second layer's bias's buffer holds row 1 of the stacked second-layer biases. -/
theorem glue2_b2_eq (W : Valuation τ sig (Elt Ideal)) :
    (StableHlo.after hostOps2 W (Proc.devRef .tc main_v134) : (⟨S1x128, .f32⟩ : BufTy).Contents (Elt Ideal))
      = row128 1 slices_S5x128_S1x128_1_0 (W (Proc.devRef .tc main_arg10)) := by
  after_results_simp
  rfl

theorem glue2_b2 (W : Valuation τ sig (Elt Ideal)) (u : Fin 1) (d : Fin 128) :
    (StableHlo.after hostOps2 W (Proc.devRef .tc main_v134) : (⟨S1x128, .f32⟩ : BufTy).Contents (Elt Ideal)) (ix2 u d)
      = (W (Proc.devRef .tc main_arg10) : (⟨S5x128, .f32⟩ : BufTy).Contents (Elt Ideal)) (ix2 (1 : Fin 5) d) := by
  rw [glue2_b2_eq]; exact row128_apply 1 _ _ (1 : Fin 5) rfl u d

end Cert.KernelIdeal.Val

end
-- ==== Proof.Val.Glue3.lean ====
/-
  Host stretch 3 (between region 2 and region 3) read at one element, at the ideal float values, from an arbitrary
  valuation of the buffers before it: the four [1,128] rows region 3 reads — the batch mean and the inverse standard
  deviation computed from region 2's column sum and column sum of squares, and the layer's row of gamma and of
  beta — and that the stretch leaves region 2's output tile as it was.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

/-- After stretch 3 the mean's buffer holds the batch mean of region 2's column sums. -/
theorem glue3_mean_eq (W : Valuation τ sig (Elt Ideal)) :
    (StableHlo.after hostOps3 W (Proc.devRef .tc main_v151) : (⟨S1x128, .f32⟩ : BufTy).Contents (Elt Ideal))
      = meanRow (W (Proc.devRef .tc main_v135_1)) := by
  after_results
  rfl

theorem glue3_mean (W : Valuation τ sig (Elt Ideal)) (u : Fin 1) (d : Fin 128) :
    (StableHlo.after hostOps3 W (Proc.devRef .tc main_v151) : (⟨S1x128, .f32⟩ : BufTy).Contents (Elt Ideal)) (ix2 u d)
      = Ideal.div ((W (Proc.devRef .tc main_v135_1) : (⟨S1x128, .f32⟩ : BufTy).Contents (Elt Ideal)) (ix2 (0 : Fin 1) d)) nRows := by
  rw [glue3_mean_eq, meanRow_apply]

/-- After stretch 3 the inverse standard deviation's buffer holds it, from region 2's two column sums. -/
theorem glue3_rstd_eq (W : Valuation τ sig (Elt Ideal)) :
    (StableHlo.after hostOps3 W (Proc.devRef .tc main_v152) : (⟨S1x128, .f32⟩ : BufTy).Contents (Elt Ideal))
      = rstdRow (W (Proc.devRef .tc main_v135_1)) (W (Proc.devRef .tc main_v135_2)) := by
  after_results
  rfl

theorem glue3_rstd (W : Valuation τ sig (Elt Ideal)) (u : Fin 1) (d : Fin 128) :
    (StableHlo.after hostOps3 W (Proc.devRef .tc main_v152) : (⟨S1x128, .f32⟩ : BufTy).Contents (Elt Ideal)) (ix2 u d)
      = Ideal.rsqrt ((Ideal.div ((W (Proc.devRef .tc main_v135_2) : (⟨S1x128, .f32⟩ : BufTy).Contents (Elt Ideal)) (ix2 (0 : Fin 1) d)) nRows
          - Ideal.div ((W (Proc.devRef .tc main_v135_1) : (⟨S1x128, .f32⟩ : BufTy).Contents (Elt Ideal)) (ix2 (0 : Fin 1) d)) nRows
            * Ideal.div ((W (Proc.devRef .tc main_v135_1) : (⟨S1x128, .f32⟩ : BufTy).Contents (Elt Ideal)) (ix2 (0 : Fin 1) d)) nRows) + epsBn) := by
  rw [glue3_rstd_eq, rstdRow_apply]

/-- After stretch 3 the scale's buffer holds row 1 of gamma. -/
theorem glue3_gamma_eq (W : Valuation τ sig (Elt Ideal)) :
    (StableHlo.after hostOps3 W (Proc.devRef .tc main_v153) : (⟨S1x128, .f32⟩ : BufTy).Contents (Elt Ideal))
      = row128 1 slices_S5x128_S1x128_1_0 (W (Proc.devRef .tc main_arg11)) := by
  after_results
  rfl

theorem glue3_gamma (W : Valuation τ sig (Elt Ideal)) (u : Fin 1) (d : Fin 128) :
    (StableHlo.after hostOps3 W (Proc.devRef .tc main_v153) : (⟨S1x128, .f32⟩ : BufTy).Contents (Elt Ideal)) (ix2 u d)
      = (W (Proc.devRef .tc main_arg11) : (⟨S5x128, .f32⟩ : BufTy).Contents (Elt Ideal)) (ix2 (1 : Fin 5) d) := by
  rw [glue3_gamma_eq]; exact row128_apply 1 _ _ (1 : Fin 5) rfl u d

/-- After stretch 3 the shift's buffer holds row 1 of beta. -/
theorem glue3_beta_eq (W : Valuation τ sig (Elt Ideal)) :
    (StableHlo.after hostOps3 W (Proc.devRef .tc main_v154) : (⟨S1x128, .f32⟩ : BufTy).Contents (Elt Ideal))
      = row128 1 slices_S5x128_S1x128_1_0 (W (Proc.devRef .tc main_arg12)) := by
  after_results
  rfl

theorem glue3_beta (W : Valuation τ sig (Elt Ideal)) (u : Fin 1) (d : Fin 128) :
    (StableHlo.after hostOps3 W (Proc.devRef .tc main_v154) : (⟨S1x128, .f32⟩ : BufTy).Contents (Elt Ideal)) (ix2 u d)
      = (W (Proc.devRef .tc main_arg12) : (⟨S5x128, .f32⟩ : BufTy).Contents (Elt Ideal)) (ix2 (1 : Fin 5) d) := by
  rw [glue3_beta_eq]; exact row128_apply 1 _ _ (1 : Fin 5) rfl u d

/-- Stretch 3 writes none of region 2's output tile: its buffer holds after the stretch what it held before. -/
theorem glue3_keep (W : Valuation τ sig (Elt Ideal)) :
    StableHlo.after hostOps3 W (Proc.devRef .tc main_v135_0) = W (Proc.devRef .tc main_v135_0) := by
  after_results <;> rfl

end Cert.KernelIdeal.Val

end
-- ==== Proof.Val.LayerK1.lean ====
/-
  Layer 1 of the program in closed form.  Region 2 leaves, in its three output arrays, the two-layer perceptron of
  the aggregated features it finds and that array's column sums and column sums of squares, collected tile by tile; the
  host stretch after it turns the two sums into the column mean and the reciprocal of the square root of the raw variance
  plus the guard, and cuts row 1 out of the scale and shift tables; region 3 normalises the perceptron's array by those four
  rows, clamping below at zero.  The weights and biases region 2 reads are row 1 of the stacked parameter tables, which no
  operation and no region writes: they are the launch memory's.  So the layer's result is the normalised perceptron in
  the tiled arrangement, of the aggregated features and the launch memory's parameters.
-/
import proofs.«118775_j16338055594318_1_alg».proof.Proof.Val.Keep
import proofs.«118775_j16338055594318_1_alg».proof.Proof.Val.FinalMlp2
import proofs.«118775_j16338055594318_1_alg».proof.Proof.Val.Final3
import proofs.«118775_j16338055594318_1_alg».proof.Proof.Val.Glue2
import proofs.«118775_j16338055594318_1_alg».proof.Proof.Val.Glue3
import proofs.«118775_j16338055594318_1_alg».proof.Proof.Val.Step

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Cert.Spec

/-- Row i of tile t, in the two spellings of the same row number. -/
theorem tileRow_eq_row1 (t : Fin 10) (i : Fin 5000) : (Cert.Moments.tileRow t i : Fin 50000) = Cert.Spec.row t i := by
  apply Fin.ext
  show (Cert.Moments.tileRow t i).val = 5000 * t.val + i.val
  rw [Cert.Moments.tileRow_val]; omega

section
variable (m : (ℓ : Loc nD τ sig) → Buf (Elt Ideal) ℓ) (ρ : Dev nD → PrngReg) (c : Dev nD)

/-- Region 2's weight and bias windows find row 1 of the launch memory's parameter tables. -/
theorem w1At1 (k : Fin 128) (j : Fin 256) :
    (V5 (F := Ideal) m ρ c main_v126 : S128x256.Idx → EReal) (ix2 k j) = (m ((c.tc : Thread nD τ).loc main_arg7) : (⟨S5x128x256, .f32⟩ : BufTy).Contents (Elt Ideal)) (ix3 (1 : Fin 5) k j) :=
  (glue2_w1 (W4 (F := Ideal) m ρ c) k j).trans (congrFun (W4_arg7 (F := Ideal) m ρ c) _)
theorem b1At1 (j : Fin 256) :
    (V5 (F := Ideal) m ρ c main_v133 : S1x256.Idx → EReal) (ix2 (0 : Fin 1) j) = (m ((c.tc : Thread nD τ).loc main_arg8) : (⟨S5x256, .f32⟩ : BufTy).Contents (Elt Ideal)) (ix2 (1 : Fin 5) j) :=
  (glue2_b1 (W4 (F := Ideal) m ρ c) (0 : Fin 1) j).trans (congrFun (W4_arg8 (F := Ideal) m ρ c) _)
theorem w2At1 (j : Fin 256) (d : Fin 128) :
    (V5 (F := Ideal) m ρ c main_v130 : S256x128.Idx → EReal) (ix2 j d) = (m ((c.tc : Thread nD τ).loc main_arg9) : (⟨S5x256x128, .f32⟩ : BufTy).Contents (Elt Ideal)) (ix3 (1 : Fin 5) j d) :=
  (glue2_w2 (W4 (F := Ideal) m ρ c) j d).trans (congrFun (W4_arg9 (F := Ideal) m ρ c) _)
theorem b2At1 (d : Fin 128) :
    (V5 (F := Ideal) m ρ c main_v134 : S1x128.Idx → EReal) (ix2 (0 : Fin 1) d) = (m ((c.tc : Thread nD τ).loc main_arg10) : (⟨S5x128, .f32⟩ : BufTy).Contents (Elt Ideal)) (ix2 (1 : Fin 5) d) :=
  (glue2_b2 (W4 (F := Ideal) m ρ c) (0 : Fin 1) d).trans (congrFun (W4_arg10 (F := Ideal) m ρ c) _)

/-- The perceptron's array of region 2's entry arrays, at (r, d), is the perceptron of the aggregated features and
    the launch memory's parameters. -/
theorem hnAt1 (r : Fin 50000) (d : Fin 128) :
    mlpArr (V5 (F := Ideal) m ρ c main_v124) (V5 (F := Ideal) m ρ c main_v126) (V5 (F := Ideal) m ρ c main_v133) (V5 (F := Ideal) m ρ c main_v130) (V5 (F := Ideal) m ρ c main_v134) (ix2 r d)
      = Cert.Spec.hn (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) r d := by
  unfold mlpArr Cert.Spec.hn
  simp only [w1At1 m ρ c, b1At1 m ρ c, w2At1 m ρ c, b2At1 m ρ c]

/-- Region 2's column sums, as the host stretch after it finds them: the tiled sum of the perceptron's column. -/
theorem sumAt1 (d : Fin 128) :
    (W6 (F := Ideal) m ρ c (Proc.devRef .tc main_v135_1) : S1x128.Idx → EReal) (ix2 (0 : Fin 1) d)
      = Cert.Spec.sumT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) d := by
  have h1 : ((dat2 (F := Ideal) (V5 (F := Ideal) m ρ) c).arrAt 6 cfg2.N : S1x128.Idx → EReal) (ix2 (0 : Fin 1) d) = _ :=
    final2_sum (V5 (F := Ideal) m ρ) c (0 : Fin 1) d
  have h0 : (W6 (F := Ideal) m ρ c (Proc.devRef .tc main_v135_1) : S1x128.Idx → EReal) (ix2 (0 : Fin 1) d)
      = ((dat2 (F := Ideal) (V5 (F := Ideal) m ρ) c).arrAt 6 cfg2.N : S1x128.Idx → EReal) (ix2 (0 : Fin 1) d) :=
    congrFun (W6_arr (F := Ideal) m ρ c 6) (ix2 (0 : Fin 1) d)
  have h2 : (∑ t : Fin 10, ∑ i : Fin 5000, mlpArr (V5 (F := Ideal) m ρ c main_v124) (V5 (F := Ideal) m ρ c main_v126) (V5 (F := Ideal) m ρ c main_v133) (V5 (F := Ideal) m ρ c main_v130) (V5 (F := Ideal) m ρ c main_v134) (ix2 (Cert.Moments.tileRow t i) d)) = Cert.Spec.sumT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) d := by
    unfold Cert.Spec.sumT
    refine Finset.sum_congr rfl fun t _ => Finset.sum_congr rfl fun i _ => ?_
    exact (hnAt1 m ρ c (Cert.Moments.tileRow t i) d).trans (congrArg (fun rr => Cert.Spec.hn (fun r k => (W5 (F := Ideal) m ρ c (Proc.devRef .tc main_v124) : Feat) (ix2 r k))
            (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
            (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) rr d) (tileRow_eq_row1 t i))
  exact (h0.trans h1).trans h2

/-- The same for the column sums of squares. -/
theorem sumsqAt1 (d : Fin 128) :
    (W6 (F := Ideal) m ρ c (Proc.devRef .tc main_v135_2) : S1x128.Idx → EReal) (ix2 (0 : Fin 1) d)
      = Cert.Spec.sumsqT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) d := by
  have h1 : ((dat2 (F := Ideal) (V5 (F := Ideal) m ρ) c).arrAt 7 cfg2.N : S1x128.Idx → EReal) (ix2 (0 : Fin 1) d) = _ :=
    final2_sumsq (V5 (F := Ideal) m ρ) c (0 : Fin 1) d
  have h0 : (W6 (F := Ideal) m ρ c (Proc.devRef .tc main_v135_2) : S1x128.Idx → EReal) (ix2 (0 : Fin 1) d)
      = ((dat2 (F := Ideal) (V5 (F := Ideal) m ρ) c).arrAt 7 cfg2.N : S1x128.Idx → EReal) (ix2 (0 : Fin 1) d) :=
    congrFun (W6_arr (F := Ideal) m ρ c 7) (ix2 (0 : Fin 1) d)
  have h2 : (∑ t : Fin 10, ∑ i : Fin 5000, mlpArr (V5 (F := Ideal) m ρ c main_v124) (V5 (F := Ideal) m ρ c main_v126) (V5 (F := Ideal) m ρ c main_v133) (V5 (F := Ideal) m ρ c main_v130) (V5 (F := Ideal) m ρ c main_v134) (ix2 (Cert.Moments.tileRow t i) d)
      * mlpArr (V5 (F := Ideal) m ρ c main_v124) (V5 (F := Ideal) m ρ c main_v126) (V5 (F := Ideal) m ρ c main_v133) (V5 (F := Ideal) m ρ c main_v130) (V5 (F := Ideal) m ρ c main_v134) (ix2 (Cert.Moments.tileRow t i) d)) = Cert.Spec.sumsqT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) d := by
    unfold Cert.Spec.sumsqT
    refine Finset.sum_congr rfl fun t _ => Finset.sum_congr rfl fun i _ => ?_
    rw [hnAt1 m ρ c (Cert.Moments.tileRow t i) d]
    exact congrArg (fun rr => Cert.Spec.hn (fun r k => (W5 (F := Ideal) m ρ c (Proc.devRef .tc main_v124) : Feat) (ix2 r k))
            (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
            (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) rr d * Cert.Spec.hn (fun r k => (W5 (F := Ideal) m ρ c (Proc.devRef .tc main_v124) : Feat) (ix2 r k))
            (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
            (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) rr d) (tileRow_eq_row1 t i)
  exact (h0.trans h1).trans h2

/-- Region 3's tile window finds region 2's perceptron array. -/
theorem xAt1 (r : Fin 50000) (d : Fin 128) :
    (V7 (F := Ideal) m ρ c main_v135_0 : Feat) (ix2 r d) = Cert.Spec.hn (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) r d := by
  have e1 : V7 (F := Ideal) m ρ c main_v135_0 = W6 (F := Ideal) m ρ c (Proc.devRef .tc main_v135_0) := glue3_keep (W6 (F := Ideal) m ρ c)
  have e2 : W6 (F := Ideal) m ρ c (Proc.devRef .tc main_v135_0) = mlpArr (V5 (F := Ideal) m ρ c main_v124) (V5 (F := Ideal) m ρ c main_v126) (V5 (F := Ideal) m ρ c main_v133) (V5 (F := Ideal) m ρ c main_v130) (V5 (F := Ideal) m ρ c main_v134) :=
    (W6_arr (F := Ideal) m ρ c 5).trans (final2_hn (V5 (F := Ideal) m ρ) c)
  exact (congrFun (e1.trans e2) (ix2 r d)).trans (hnAt1 m ρ c r d)

/-- Its mean row is the mean from the tiles' sums; -/
theorem meanAt1 (d : Fin 128) :
    (V7 (F := Ideal) m ρ c main_v151 : S1x128.Idx → EReal) (ix2 (0 : Fin 1) d)
      = Cert.Spec.meanT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) nRows d := by
  refine (glue3_mean (W6 (F := Ideal) m ρ c) (0 : Fin 1) d).trans ?_
  rw [sumAt1 m ρ c d]
  rfl

/-- its reciprocal-deviation row is the reciprocal square root of the raw variance plus the guard; -/
theorem rstdAt1 (d : Fin 128) :
    (V7 (F := Ideal) m ρ c main_v152 : S1x128.Idx → EReal) (ix2 (0 : Fin 1) d)
      = Ideal.rsqrt (Cert.Spec.varT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d)) nRows d + epsBn) := by
  refine (glue3_rstd (W6 (F := Ideal) m ρ c) (0 : Fin 1) d).trans ?_
  rw [sumAt1 m ρ c d, sumsqAt1 m ρ c d]
  rfl

/-- its scale and shift rows are row 1 of the launch memory's tables. -/
theorem gammaAt1 (d : Fin 128) :
    (V7 (F := Ideal) m ρ c main_v153 : S1x128.Idx → EReal) (ix2 (0 : Fin 1) d) = (m ((c.tc : Thread nD τ).loc main_arg11) : (⟨S5x128, .f32⟩ : BufTy).Contents (Elt Ideal)) (ix2 (1 : Fin 5) d) :=
  (glue3_gamma (W6 (F := Ideal) m ρ c) (0 : Fin 1) d).trans (congrFun (W6_arg11 (F := Ideal) m ρ c) _)
theorem betaAt1 (d : Fin 128) :
    (V7 (F := Ideal) m ρ c main_v154 : S1x128.Idx → EReal) (ix2 (0 : Fin 1) d) = (m ((c.tc : Thread nD τ).loc main_arg12) : (⟨S5x128, .f32⟩ : BufTy).Contents (Elt Ideal)) (ix2 (1 : Fin 5) d) :=
  (glue3_beta (W6 (F := Ideal) m ρ c) (0 : Fin 1) d).trans (congrFun (W6_arg12 (F := Ideal) m ρ c) _)

end

/-- The normalisation at (r, d) from its five inputs read at (r, d) and (0, d). -/
theorem bnReluArr_at1 (X : Feat) (Mn Rs Ga Be : S1x128.Idx → EReal) (r : Fin 50000) (d : Fin 128) (x mn rs ga be : EReal)
    (hX : X (ix2 r d) = x) (hMn : Mn (ix2 (0 : Fin 1) d) = mn) (hRs : Rs (ix2 (0 : Fin 1) d) = rs)
    (hGa : Ga (ix2 (0 : Fin 1) d) = ga) (hBe : Be (ix2 (0 : Fin 1) d) = be) :
    bnReluArr X Mn Rs Ga Be (ix2 r d) = max (((x - mn) * rs) * ga + be) 0 := by
  subst hX hMn hRs hGa hBe
  rfl

/-- LAYER 1: the array region 3 leaves, entry by entry, is the normalised perceptron in the tiled arrangement, clamped below at zero, of the aggregated features region 2 finds and row 1 of the launch memory's parameter tables. -/
theorem layerK1 (m : (ℓ : Loc nD τ sig) → Buf (Elt Ideal) ℓ) (ρ : Dev nD → PrngReg) (c : Dev nD) (r : Fin 50000) (d : Fin 128) :
    (W8 (F := Ideal) m ρ c (Proc.devRef .tc main_v155) : Feat) (ix2 r d)
      = max (normT (fun r k => (W5 (F := Ideal) m ρ c (Proc.devRef .tc main_v124) : Feat) (ix2 r k))
          (fun k j => (m ((c.tc : Thread nD τ).loc main_arg7) : (⟨S5x128x256, .f32⟩ : BufTy).Contents (Elt Ideal)) (ix3 (1 : Fin 5) k j)) (fun j => (m ((c.tc : Thread nD τ).loc main_arg8) : (⟨S5x256, .f32⟩ : BufTy).Contents (Elt Ideal)) (ix2 (1 : Fin 5) j))
          (fun j d => (m ((c.tc : Thread nD τ).loc main_arg9) : (⟨S5x256x128, .f32⟩ : BufTy).Contents (Elt Ideal)) (ix3 (1 : Fin 5) j d)) (fun d => (m ((c.tc : Thread nD τ).loc main_arg10) : (⟨S5x128, .f32⟩ : BufTy).Contents (Elt Ideal)) (ix2 (1 : Fin 5) d))
          (fun d => (m ((c.tc : Thread nD τ).loc main_arg11) : (⟨S5x128, .f32⟩ : BufTy).Contents (Elt Ideal)) (ix2 (1 : Fin 5) d)) (fun d => (m ((c.tc : Thread nD τ).loc main_arg12) : (⟨S5x128, .f32⟩ : BufTy).Contents (Elt Ideal)) (ix2 (1 : Fin 5) d)) nRows epsBn r d) 0 := by
  have hout : W8 (F := Ideal) m ρ c (Proc.devRef .tc main_v155)
      = bnReluArr (V7 (F := Ideal) m ρ c main_v135_0) (V7 (F := Ideal) m ρ c main_v151) (V7 (F := Ideal) m ρ c main_v152) (V7 (F := Ideal) m ρ c main_v153) (V7 (F := Ideal) m ρ c main_v154) :=
    (W8_arr (F := Ideal) m ρ c 5).trans (final3 (V7 (F := Ideal) m ρ) c)
  refine (congrFun hout (ix2 r d)).trans ?_
  exact bnReluArr_at1 _ _ _ _ _ r d _ _ _ _ _ (xAt1 m ρ c r d) (meanAt1 m ρ c d) (rstdAt1 m ρ c d) (gammaAt1 m ρ c d) (betaAt1 m ρ c d)

end Cert.KernelIdeal.Val

end
-- ==== Proof.Val.Agg2.lean ====
/-
  Host stretch 2 (before region 2) up to the aggregate, from an arbitrary valuation of the buffers before it: the
  buffer region 2 reads its input tile from holds the layer's aggregate, as the pure function of the buffers the
  stretch reads.
-/
import proofs.«118775_j16338055594318_1_alg».proof.Proof.Gen.KernelIdeal.Launch
import proofs.«118775_j16338055594318_1_alg».proof.Proof.Val.AggOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 2 the aggregate's buffer holds layer 1's aggregate of region 1's output. -/
theorem agg2_eq (W : Valuation τ sig (Elt Ideal)) :
    (StableHlo.after hostOps2 W (Proc.devRef .tc main_v124) : (⟨S50000x128, .f32⟩ : BufTy).Contents (Elt Ideal))
      = aggArr (W (Proc.devRef .tc main_v94)) (W (Proc.devRef .tc main_v22)) (W (Proc.devRef .tc main_v25))
          (W (Proc.devRef .tc main_v29)) (W (Proc.devRef .tc main_v33))
          (tab6 1 slices_S5x6x128_S1x6x128_1_0_0 (W (Proc.devRef .tc main_arg5)))
          (tab3 1 slices_S5x3x128_S1x3x128_1_0_0 (W (Proc.devRef .tc main_arg6))) := by
  after_results_simp
  rfl

end Cert.KernelIdeal.Val

end
-- ==== Proof.Val.RefDense1.lean ====
/-
  Layer 1 of the reference program read at an entry.  The layer's 93 operations are its aggregation (the first 37,
  ending in the scatter that writes `main_v140`) followed by its dense part (the other 56: the slices of the stacked weights at
  row 1, the two-layer perceptron, the column statistics, the normalization and the rectifier), whose result `main_v187` is, at
  row r and column d, the maximum with zero of the centred normalization of the perceptron of the aggregate.  The aggregate is left as
  the buffer `main_v140` after the layer; the weights are the program's arguments, which no operation of the layer writes.
-/
import proofs.«118775_j16338055594318_1_alg».proof.Proof.Val.RefOps
import proofs.«118775_j16338055594318_1_alg».proof.Proof.Val.RefDenseCore

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The layer's aggregation: its first 37 operations, -/
abbrev refAgg1 : List (HloOp τ sig (Elt Ideal)) := List.take 37 (refLayer1 (F := Ideal))
/-- and its dense part: the others. -/
abbrev refDense1 : List (HloOp τ sig (Elt Ideal)) := List.drop 37 (refLayer1 (F := Ideal))

/-- Running the layer is running its aggregation and then its dense part. -/
theorem after_refLayer1_split (W : Valuation τ sig (Elt Ideal)) :
    after (refLayer1 (F := Ideal)) W = after refDense1 (after refAgg1 W) :=
  (congrArg (fun l => after l W) (List.take_append_drop 37 (refLayer1 (F := Ideal))).symm).trans
    (Cert.Lib.RunPieces.after_append _ _ W)

set_option maxHeartbeats 4000000 in
/-- The dense part's result from any contents: the layer's array functions of the aggregate's buffer and the weights'. -/
theorem refDense1_result (W' : Valuation τ sig (Elt Ideal)) :
    after refDense1 W' (Proc.devRef .tc main_v187)
      = reluArr (normArr (mlpArr (W' (Proc.devRef .tc main_v140))
          (sliceW1 ![1, 0, 0] slices_S5x128x256_S1x128x256_1_0_0 (W' (Proc.devRef .tc main_arg7)))
          (sliceV256 ![1, 0] slices_S5x256_S1x256_1_0 (W' (Proc.devRef .tc main_arg8)))
          (sliceW2 ![1, 0, 0] slices_S5x256x128_S1x256x128_1_0_0 (W' (Proc.devRef .tc main_arg9)))
          (sliceV128 ![1, 0] slices_S5x128_S1x128_1_0 (W' (Proc.devRef .tc main_arg10))))
        (sliceV128 ![1, 0] slices_S5x128_S1x128_1_0 (W' (Proc.devRef .tc main_arg11)))
        (sliceV128 ![1, 0] slices_S5x128_S1x128_1_0 (W' (Proc.devRef .tc main_arg12)))) := by
  simp only [refDense1, refLayer1, List.drop_succ_cons, List.drop_zero]
  after_results_simp <;> rfl

set_option maxHeartbeats 4000000 in
/-- The dense part does not write the aggregate's buffer. -/
theorem refDense1_keeps_agg (W' : Valuation τ sig (Elt Ideal)) :
    after refDense1 W' (Proc.devRef .tc main_v140) = W' (Proc.devRef .tc main_v140) := by
  simp only [refDense1, refLayer1, List.drop_succ_cons, List.drop_zero]
  after_results_simp <;> rfl

/-- The aggregation writes none of the program's arguments. -/
theorem refAgg1_keeps (W : Valuation τ sig (Elt Ideal)) (b : Ref sig .tc) (hb : b ∉ refLayer1_W) :
    after refAgg1 W (Proc.devRef .tc b) = W (Proc.devRef .tc b) :=
  after_of_writes_sub refAgg1 W
    (List.forall_iff_forall_mem.mpr fun op h => (List.forall_iff_forall_mem.mp (refLayer1_writes (F := Ideal))) op (List.mem_of_mem_take h)) hb

/-- LAYER 1 AT AN ENTRY: the result buffer at (r, d) from the layer's aggregate and the weights' row 1. -/
theorem refLayer1_apply (W : Valuation τ sig (Elt Ideal)) (r : Fin 50000) (d : Fin 128) :
    after (refLayer1 (F := Ideal)) W (Proc.devRef .tc main_v187) (ix2 r d)
      = max (Cert.Spec.normC (fun r k => after (refLayer1 (F := Ideal)) W (Proc.devRef .tc main_v140) (ix2 r k))
          (fun k j => W (Proc.devRef .tc main_arg7) (ix3 (1 : Fin 5) k j)) (fun j => W (Proc.devRef .tc main_arg8) (ix2 (1 : Fin 5) j))
          (fun j d => W (Proc.devRef .tc main_arg9) (ix3 (1 : Fin 5) j d)) (fun d => W (Proc.devRef .tc main_arg10) (ix2 (1 : Fin 5) d))
          (fun d => W (Proc.devRef .tc main_arg11) (ix2 (1 : Fin 5) d)) (fun d => W (Proc.devRef .tc main_arg12) (ix2 (1 : Fin 5) d))
          (Ideal.ofBits .f32 0x47435000#32) (Ideal.ofBits .f32 0x3727C5AC#32) r d) 0 := by
  have hA : after (refLayer1 (F := Ideal)) W (Proc.devRef .tc main_v140) = after refAgg1 W (Proc.devRef .tc main_v140) := by
    rw [after_refLayer1_split]; exact refDense1_keeps_agg _
  have key := congrFun (refDense1_result (after refAgg1 W)) (ix2 r d)
  rw [refAgg1_keeps W main_arg7 (by decide), refAgg1_keeps W main_arg8 (by decide), refAgg1_keeps W main_arg9 (by decide),
    refAgg1_keeps W main_arg10 (by decide), refAgg1_keeps W main_arg11 (by decide), refAgg1_keeps W main_arg12 (by decide),
    reluArr_apply, dense_apply] at key
  rw [hA, after_refLayer1_split]
  refine key.trans ?_
  simp only [sliceW1_apply (1 : Fin 5) ![1, 0, 0] rfl, sliceW2_apply (1 : Fin 5) ![1, 0, 0] rfl,
    sliceV256_apply (1 : Fin 5) ![1, 0] rfl, sliceV128_apply (1 : Fin 5) ![1, 0] rfl]

end Cert.ReferenceIdeal.Hand

end
-- ==== Proof.Val.PayMlp4.lean ====
/-
  The payloads of region 4's MLP-and-statistics body read at one element, at the ideal float values (extended
  reals, every operation exact, a change of float format the identity): the output tile hn at (i, d) as the
  two-layer perceptron's value; the running column sum and column sum of squares after a grid point as what
  they held plus the tile's column sum (of squares); the two resets as zero.
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The MLP's output tile at (i, d): the second layer applied to the ReLU of the first,
    hn[i,d] = (∑ j, max ((∑ k, x[i,k] * w1[k,j]) + b1[0,j]) 0 * w2[j,d]) + b2[0,d]
    (the changes of float format are the identity at the ideal values). -/
theorem hn_apply4 (x : Vec Ideal S5000x128 .f32) (w1 : Vec Ideal S128x256 .f32) (b1 : Vec Ideal S1x256 .f32)
    (w2 : Vec Ideal S256x128 .f32) (b2 : Vec Ideal S1x128 .f32) (i : Fin 5000) (d : Fin 128) :
    k4_pay4 (F := Ideal) x w1 b1 w2 b2 (ix2 i d)
      = (∑ j : Fin 256, max ((∑ k : Fin 128, x (ix2 i k) * w1 (ix2 k j)) + b1 (ix2 (0 : Fin 1) j)) 0 * w2 (ix2 j d))
          + b2 (ix2 (0 : Fin 1) d) := by
  unfold k4_pay4
  simp only [addf_apply, matmul2_apply, truncf_apply, maximumf_apply, matmul1_apply, broadcast_apply, shapeCast_self,
    broadcastTo_1b_ab_apply, scalar_zero_f32]

/-- The running column sum after a grid point, at column d: what it held plus the sum of the tile's column. -/
theorem sum_apply4 (x : Vec Ideal S5000x128 .f32) (w1 : Vec Ideal S128x256 .f32) (b1 : Vec Ideal S1x256 .f32)
    (w2 : Vec Ideal S256x128 .f32) (b2 : Vec Ideal S1x128 .f32) (acc : Vec Ideal S1x128 .f32) (u : Fin 1) (d : Fin 128) :
    k4_pay5 (F := Ideal) x w1 b1 w2 b2 acc (ix2 u d)
      = acc (ix2 u d) + ∑ i : Fin 5000, k4_pay4 (F := Ideal) x w1 b1 w2 b2 (ix2 i d) := by
  unfold k4_pay5
  simp only [shapeCast_self, addf_apply, shapeCast_a_1a_apply]
  exact congrArg (acc (ix2 u d) + ·) (colsum_apply _ _ _ _ d)

/-- The running column sum of squares after a grid point, at column d: what it held plus the sum of the squares of
    the tile's column. -/
theorem sumsq_apply4 (hn : FVec Ideal S5000x128 .f32) (acc : Vec Ideal S1x128 .f32) (u : Fin 1) (d : Fin 128) :
    k4_pay1 (F := Ideal) hn acc (ix2 u d) = acc (ix2 u d) + ∑ i : Fin 5000, hn (ix2 i d) * hn (ix2 i d) := by
  unfold k4_pay1
  simp only [shapeCast_self, addf_apply, shapeCast_a_1a_apply]
  exact congrArg (acc (ix2 u d) + ·) (colsum_apply (mulf hn hn) _ _ _ d)

/-- The reset of the running sum at the first grid point writes zero everywhere. -/
theorem reset0_apply4 (u : Fin 1) (d : Fin 128) : k4_pay2 (F := Ideal) (ix2 u d) = 0 := by
  unfold k4_pay2
  simp only [shapeCast_self, broadcast_apply, scalar_zero_f32]

/-- The reset of the running sum of squares at the first grid point writes zero everywhere. -/
theorem reset1_apply4 (u : Fin 1) (d : Fin 128) : k4_pay3 (F := Ideal) (ix2 u d) = 0 := by
  unfold k4_pay3
  simp only [shapeCast_self, broadcast_apply, scalar_zero_f32]

end Cert.KernelIdeal.Val

end
-- ==== Proof.Val.FinalMlp4.lean ====
/-
  Region 4's three output arrays after its ten grid points, as functions of the arrays the region finds on entry.
  Point t stores, over rows 5000 t … 5000 t + 4999 of the [50000,128] array `main_v196_0`, the two-layer perceptron of the
  same rows of `main_v185` (weights `main_v187`, `main_v191`, bias rows `main_v194`, `main_v195`); the ten tiles are disjoint and
  fill the array, which ends holding `mlpArr` of the five entry arrays.  Two scratch rows keep, column by column, the
  running sum of the stored values and of their squares: zero plus the first tile's column sums after the first point,
  increased by each later tile's; the last point copies them to the [1,128] arrays `main_v196_1` and `main_v196_2`, which
  end holding the sums over all ten tiles.
-/
import proofs.«118775_j16338055594318_1_alg».proof.Proof.KI.Mlp4
import proofs.«118775_j16338055594318_1_alg».proof.Proof.Val.PayMlp4
import proofs.«118775_j16338055594318_1_alg».proof.Proof.Val.MlpArr
import proofs.«118775_j16338055594318_1_alg».proof.Proof.LibColumnMoments
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## The block indices over the grid -/

/-- The tile windows 0 and 5 sit at block (t, 0) at point t; -/
theorem idx4_0 : ∀ t : Fin cfg4.N, win4_0.index t (0 : Fin 2) = t.val ∧ win4_0.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)
/-- the weight, bias and statistics windows stay at block (0, 0). -/
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)

/-- The last point is a point. -/
theorem h9_4 : 9 < cfg4.N := by rw [show cfg4.N = 10 from N_4]; decide

/-! ## The input blocks, read off the entry arrays -/

/-- Window 0's block at point t is rows 5000 t … 5000 t + 4999 of `main_v185` as the region finds it. -/
theorem tile4_apply (c : Dev nD) (t : Fin cfg4.N) (i : Fin 5000) (k : Fin 128) (R : Fin 50000) (hR : R.val = t.val * 5000 + i.val) :
    (iblk4 V c 0 t : Vec Ideal S5000x128 .f32) (ix2 i k) = (V c main_v185 : S50000x128.Idx → EReal) (ix2 R k) := by
  have e0 : win4_0.index t (0 : Fin 2) = t.val := (idx4_0 t).1
  have e1 : win4_0.index t (1 : Fin 2) = 0 := (idx4_0 t).2
  unfold iblk4
  rw [View.read_apply]
  show V c main_v185 _ = V c main_v185 _
  congr 1
  funext x
  apply Fin.ext
  match x with
  | ⟨0, _⟩ => show win4_0.index t (0 : Fin 2) * 5000 + 1 * i.val = R.val; rw [e0, hR]; omega
  | ⟨1, _⟩ => show win4_0.index t (1 : Fin 2) * 128 + 1 * k.val = k.val; rw [e1]; omega

/-- Window 1 stays at block (0, 0), and its one block is its whole array `main_v187` as the region finds it. -/
theorem blk4_1_apply (c : Dev nD) (t : Fin cfg4.N) (a : Fin 128) (b : Fin 256) :
    (iblk4 V c 1 t : Vec Ideal S128x256 .f32) (ix2 a b) = (V c main_v187 : S128x256.Idx → EReal) (ix2 a b) := by
  have e0 : win4_1.index t (0 : Fin 2) = 0 := (idx4_1 t).1
  have e1 : win4_1.index t (1 : Fin 2) = 0 := (idx4_1 t).2
  unfold iblk4
  rw [View.read_apply]
  show V c main_v187 _ = V c main_v187 _
  congr 1
  funext x
  apply Fin.ext
  match x with
  | ⟨0, _⟩ => show win4_1.index t (0 : Fin 2) * 128 + 1 * a.val = a.val; rw [e0]; omega
  | ⟨1, _⟩ => show win4_1.index t (1 : Fin 2) * 256 + 1 * b.val = b.val; rw [e1]; omega

/-- Window 2 stays at block (0, 0), and its one block is its whole array `main_v194` as the region finds it. -/
theorem blk4_2_apply (c : Dev nD) (t : Fin cfg4.N) (a : Fin 1) (b : Fin 256) :
    (iblk4 V c 2 t : Vec Ideal S1x256 .f32) (ix2 a b) = (V c main_v194 : S1x256.Idx → EReal) (ix2 a b) := by
  have e0 : win4_2.index t (0 : Fin 2) = 0 := (idx4_2 t).1
  have e1 : win4_2.index t (1 : Fin 2) = 0 := (idx4_2 t).2
  unfold iblk4
  rw [View.read_apply]
  show V c main_v194 _ = V c main_v194 _
  congr 1
  funext x
  apply Fin.ext
  match x with
  | ⟨0, _⟩ => show win4_2.index t (0 : Fin 2) * 1 + 1 * a.val = a.val; rw [e0]; omega
  | ⟨1, _⟩ => show win4_2.index t (1 : Fin 2) * 256 + 1 * b.val = b.val; rw [e1]; omega

/-- Window 3 stays at block (0, 0), and its one block is its whole array `main_v191` as the region finds it. -/
theorem blk4_3_apply (c : Dev nD) (t : Fin cfg4.N) (a : Fin 256) (b : Fin 128) :
    (iblk4 V c 3 t : Vec Ideal S256x128 .f32) (ix2 a b) = (V c main_v191 : S256x128.Idx → EReal) (ix2 a b) := by
  have e0 : win4_3.index t (0 : Fin 2) = 0 := (idx4_3 t).1
  have e1 : win4_3.index t (1 : Fin 2) = 0 := (idx4_3 t).2
  unfold iblk4
  rw [View.read_apply]
  show V c main_v191 _ = V c main_v191 _
  congr 1
  funext x
  apply Fin.ext
  match x with
  | ⟨0, _⟩ => show win4_3.index t (0 : Fin 2) * 256 + 1 * a.val = a.val; rw [e0]; omega
  | ⟨1, _⟩ => show win4_3.index t (1 : Fin 2) * 128 + 1 * b.val = b.val; rw [e1]; omega

/-- Window 4 stays at block (0, 0), and its one block is its whole array `main_v195` as the region finds it. -/
theorem blk4_4_apply (c : Dev nD) (t : Fin cfg4.N) (a : Fin 1) (b : Fin 128) :
    (iblk4 V c 4 t : Vec Ideal S1x128 .f32) (ix2 a b) = (V c main_v195 : S1x128.Idx → EReal) (ix2 a b) := by
  have e0 : win4_4.index t (0 : Fin 2) = 0 := (idx4_4 t).1
  have e1 : win4_4.index t (1 : Fin 2) = 0 := (idx4_4 t).2
  unfold iblk4
  rw [View.read_apply]
  show V c main_v195 _ = V c main_v195 _
  congr 1
  funext x
  apply Fin.ext
  match x with
  | ⟨0, _⟩ => show win4_4.index t (0 : Fin 2) * 1 + 1 * a.val = a.val; rw [e0]; omega
  | ⟨1, _⟩ => show win4_4.index t (1 : Fin 2) * 128 + 1 * b.val = b.val; rw [e1]; omega

/-! ## What a point stores into window 5 -/

/-- The stored value at (i, d), when the tile block's row i is row R of an array `A` and the other four blocks are
    the arrays `W1`, `B1`, `W2`, `B2`, is entry (R, d) of the perceptron's output array. -/
theorem mlp_block4 (A : S50000x128.Idx → EReal) (W1 : S128x256.Idx → EReal) (B1 : S1x256.Idx → EReal)
    (W2 : S256x128.Idx → EReal) (B2 : S1x128.Idx → EReal)
    (x0 : Vec Ideal S5000x128 .f32) (x1 : Vec Ideal S128x256 .f32) (x2 : Vec Ideal S1x256 .f32)
    (x3 : Vec Ideal S256x128 .f32) (x4 : Vec Ideal S1x128 .f32) (i : Fin 5000) (d : Fin 128) (R : Fin 50000)
    (h0 : ∀ k : Fin 128, x0 (ix2 i k) = A (ix2 R k)) (h1 : ∀ (k : Fin 128) (j : Fin 256), x1 (ix2 k j) = W1 (ix2 k j))
    (h2 : ∀ j : Fin 256, x2 (ix2 (0 : Fin 1) j) = B1 (ix2 (0 : Fin 1) j))
    (h3 : ∀ (j : Fin 256) (d' : Fin 128), x3 (ix2 j d') = W2 (ix2 j d'))
    (h4 : ∀ d' : Fin 128, x4 (ix2 (0 : Fin 1) d') = B2 (ix2 (0 : Fin 1) d')) :
    k4_pay4 (F := Ideal) x0 x1 x2 x3 x4 (ix2 i d) = mlpArr A W1 B1 W2 B2 (ix2 R d) := by
  rw [hn_apply4]
  simp only [h0, h1, h2, h3, h4]
  rfl

/-- Entry (i, d) of what point t stores into window 5 is entry (5000 t + i, d) of the perceptron's output array. -/
theorem hn4_apply (c : Dev nD) (t : Fin cfg4.N) (i : Fin 5000) (d : Fin 128) (R : Fin 50000) (hR : R.val = t.val * 5000 + i.val) :
    hn4 (F := Ideal) V c t (ix2 i d) = mlpArr (V c main_v185) (V c main_v187) (V c main_v194) (V c main_v191) (V c main_v195) (ix2 R d) := by
  unfold hn4
  exact mlp_block4 (V c main_v185) (V c main_v187) (V c main_v194) (V c main_v191) (V c main_v195)
    (iblk4 V c 0 t) (iblk4 V c 1 t) (iblk4 V c 2 t) (iblk4 V c 3 t) (iblk4 V c 4 t) i d R
    (fun k => tile4_apply V c t i k R hR) (fun k j => blk4_1_apply V c t k j) (fun j => blk4_2_apply V c t (0 : Fin 1) j)
    (fun j d' => blk4_3_apply V c t j d') (fun d' => blk4_4_apply V c t (0 : Fin 1) d')

/-! ## Window 5: the ten tiles fill the output array -/

/-- Entry (i, d) of window 5's block at point t is entry (5000 t + i, d) of the output array. -/
theorem outIdx4 (t : Fin cfg4.N) (i : Fin 5000) (d : Fin 128) (R : Fin 50000) (hR : R.val = t.val * 5000 + i.val) :
    ((cfg4.win 5).blk t).view.emb (ix2 i d) = (ix2 R d : S50000x128.Idx) := by
  have e0 : win4_5.index t (0 : Fin 2) = t.val := (idx4_5 t).1
  have e1 : win4_5.index t (1 : Fin 2) = 0 := (idx4_5 t).2
  funext x
  apply Fin.ext
  match x with
  | ⟨0, _⟩ => show win4_5.index t (0 : Fin 2) * 5000 + 1 * i.val = R.val; rw [e0, hR]; omega
  | ⟨1, _⟩ => show win4_5.index t (1 : Fin 2) * 128 + 1 * d.val = d.val; rw [e1]; omega

/-- What point t writes back to the output array is block t of the perceptron's output array. -/
theorem flushed4_5_eq (c : Dev nD) (t : Fin cfg4.N) :
    (dat4 (F := Ideal) V c).flushed 5 t
      = ((cfg4.win 5).blk t).view.read (Elt Ideal) (mlpArr (V c main_v185) (V c main_v187) (V c main_v194) (V c main_v191) (V c main_v195)) := by
  show (cfg4.win 5).cut (grid4.coords t) ((dat4 (F := Ideal) V c).after 5 t) = _
  rw [after4_5]
  funext j
  obtain ⟨i, d, rfl⟩ : ∃ (i : Fin 5000) (d : Fin 128), j = ix2 i d := ⟨j 0, j 1, eq_ix2 j⟩
  have ht : t.val < 10 := Nat.lt_of_lt_of_eq t.isLt (show cfg4.N = 10 from N_4)
  have hR : t.val * 5000 + i.val < 50000 := by have := i.isLt; omega
  rw [View.read_apply, outIdx4 t i d ⟨t.val * 5000 + i.val, hR⟩ rfl]
  show hn4 (F := Ideal) V c t (ix2 i d) = _
  exact hn4_apply V c t i d ⟨t.val * 5000 + i.val, hR⟩ rfl

/-- An index of the output array is in point t's block iff each coordinate is in the block's range on its axis. -/
theorem mem_tile4 (t : Fin cfg4.N) (idx : S50000x128.Idx) :
    idx ∈ ((cfg4.win 5).blk t).view.set ↔ ∀ a : Fin 2, win4_5.index t a * S5000x128.size a ≤ (idx a).val
      ∧ (idx a).val < win4_5.index t a * S5000x128.size a + S5000x128.size a := by
  show idx ∈ ((View.whole main_v196_0).slice (win4_5.rect t)).set ↔ _
  rw [View.set_slice_whole, Rect.mem_set_unit]
  exact Iff.rfl

/-- Every index of the output array is in the block of the point its row falls in: row r is written at point r / 5000. -/
theorem tiles_cover4 (idx : S50000x128.Idx) :
    ∃ t : Fin cfg4.N, (cfg4.win 5).flush t = true ∧ idx ∈ ((cfg4.win 5).blk t).view.set := by
  have h0 : (idx 0).val < 50000 := (idx 0).isLt
  have h1 : (idx 1).val < 128 := (idx 1).isLt
  have hN : (idx 0).val / 5000 < cfg4.N := by rw [show cfg4.N = 10 from N_4]; omega
  have e0 : win4_5.index ⟨(idx 0).val / 5000, hN⟩ (0 : Fin 2) = (idx 0).val / 5000 := (idx4_5 ⟨(idx 0).val / 5000, hN⟩).1
  have e1 : win4_5.index ⟨(idx 0).val / 5000, hN⟩ (1 : Fin 2) = 0 := (idx4_5 ⟨(idx 0).val / 5000, hN⟩).2
  refine ⟨⟨(idx 0).val / 5000, hN⟩, flush4_5 _, ?_⟩
  rw [mem_tile4]
  intro a
  match a with
  | ⟨0, _⟩ =>
    show win4_5.index ⟨(idx 0).val / 5000, hN⟩ (0 : Fin 2) * 5000 ≤ (idx 0).val
      ∧ (idx 0).val < win4_5.index ⟨(idx 0).val / 5000, hN⟩ (0 : Fin 2) * 5000 + 5000
    rw [e0]; omega
  | ⟨1, _⟩ =>
    show win4_5.index ⟨(idx 0).val / 5000, hN⟩ (1 : Fin 2) * 128 ≤ (idx 1).val
      ∧ (idx 1).val < win4_5.index ⟨(idx 0).val / 5000, hN⟩ (1 : Fin 2) * 128 + 128
    rw [e1]; omega

/-- THE OUTPUT ARRAY after the region's ten points: the perceptron's output array of the five entry arrays. -/
theorem final4_hn (c : Dev nD) :
    (dat4 (F := Ideal) V c).arrAt 5 cfg4.N = mlpArr (V c main_v185) (V c main_v187) (V c main_v194) (V c main_v191) (V c main_v195) :=
  (dat4 (F := Ideal) V c).arrAt_eq_of_cover 5 (mlpArr (V c main_v185) (V c main_v187) (V c main_v194) (V c main_v191) (V c main_v195))
    (fun t _ => flushed4_5_eq V c t) (tiles_cover4)

/-! ## Window 6: the column sums, written back at the last point only -/

/-- Window 6's one block is the whole [1,128] array. -/
theorem rowIdx4_6 (t : Fin cfg4.N) (u : Fin 1) (d : Fin 128) :
    ((cfg4.win 6).blk t).view.emb (ix2 u d) = (ix2 u d : S1x128.Idx) := by
  have e0 : win4_6.index t (0 : Fin 2) = 0 := (idx4_6 t).1
  have e1 : win4_6.index t (1 : Fin 2) = 0 := (idx4_6 t).2
  funext x
  apply Fin.ext
  match x with
  | ⟨0, _⟩ => show win4_6.index t (0 : Fin 2) * 1 + 1 * u.val = u.val; rw [e0]; omega
  | ⟨1, _⟩ => show win4_6.index t (1 : Fin 2) * 128 + 1 * d.val = d.val; rw [e1]; omega

/-- The only point that writes window 6 back is the last, and it writes what the scratch row then holds. -/
theorem flushed4_6_eq (c : Dev nD) (t : Fin cfg4.N) (hf : (cfg4.win 6).flush t = true) :
    (dat4 (F := Ideal) V c).flushed 6 t
      = ((cfg4.win 6).blk t).view.read (Elt Ideal) ((acc4 (F := Ideal) V c 9 h9_4).1 : S1x128.Idx → EReal) := by
  have hN : t.val < 10 := Nat.lt_of_lt_of_eq t.isLt (show cfg4.N = 10 from N_4)
  have ht9 : t.val = 9 := by have := (flush4_6 t).mp hf; omega
  obtain rfl : t = ⟨9, h9_4⟩ := Fin.ext ht9
  show (cfg4.win 6).cut (grid4.coords ⟨9, h9_4⟩) ((dat4 (F := Ideal) V c).after 6 ⟨9, h9_4⟩) = _
  rw [after4_6]
  funext j
  obtain ⟨u, d, rfl⟩ : ∃ (u : Fin 1) (d : Fin 128), j = ix2 u d := ⟨j 0, j 1, eq_ix2 j⟩
  rw [View.read_apply, rowIdx4_6 ⟨9, h9_4⟩ u d]
  rfl

theorem mem_row4_6 (t : Fin cfg4.N) (idx : S1x128.Idx) :
    idx ∈ ((cfg4.win 6).blk t).view.set ↔ ∀ a : Fin 2, win4_6.index t a * S1x128.size a ≤ (idx a).val
      ∧ (idx a).val < win4_6.index t a * S1x128.size a + S1x128.size a := by
  show idx ∈ ((View.whole main_v196_1).slice (win4_6.rect t)).set ↔ _
  rw [View.set_slice_whole, Rect.mem_set_unit]
  exact Iff.rfl

/-- The last point's block covers the whole [1,128] array. -/
theorem row_cover4_6 (idx : S1x128.Idx) :
    ∃ t : Fin cfg4.N, (cfg4.win 6).flush t = true ∧ idx ∈ ((cfg4.win 6).blk t).view.set := by
  have h0 : (idx 0).val < 1 := (idx 0).isLt
  have h1 : (idx 1).val < 128 := (idx 1).isLt
  have e0 : win4_6.index ⟨9, h9_4⟩ (0 : Fin 2) = 0 := (idx4_6 ⟨9, h9_4⟩).1
  have e1 : win4_6.index ⟨9, h9_4⟩ (1 : Fin 2) = 0 := (idx4_6 ⟨9, h9_4⟩).2
  refine ⟨⟨9, h9_4⟩, (flush4_6 _).mpr rfl, ?_⟩
  rw [mem_row4_6]
  intro a
  match a with
  | ⟨0, _⟩ =>
    show win4_6.index ⟨9, h9_4⟩ (0 : Fin 2) * 1 ≤ (idx 0).val ∧ (idx 0).val < win4_6.index ⟨9, h9_4⟩ (0 : Fin 2) * 1 + 1
    rw [e0]; omega
  | ⟨1, _⟩ =>
    show win4_6.index ⟨9, h9_4⟩ (1 : Fin 2) * 128 ≤ (idx 1).val ∧ (idx 1).val < win4_6.index ⟨9, h9_4⟩ (1 : Fin 2) * 128 + 128
    rw [e1]; omega

/-- Window 6's array after the ten points is what the scratch row holds after the last. -/
theorem arr4_6 (c : Dev nD) :
    (dat4 (F := Ideal) V c).arrAt 6 cfg4.N = ((acc4 (F := Ideal) V c 9 h9_4).1 : S1x128.Idx → EReal) :=
  (dat4 (F := Ideal) V c).arrAt_eq_of_cover 6 ((acc4 (F := Ideal) V c 9 h9_4).1 : S1x128.Idx → EReal)
    (fun t hf => flushed4_6_eq V c t hf) row_cover4_6

/-! ## Window 7: the column sums of squares, written back at the last point only -/

/-- Window 7's one block is the whole [1,128] array. -/
theorem rowIdx4_7 (t : Fin cfg4.N) (u : Fin 1) (d : Fin 128) :
    ((cfg4.win 7).blk t).view.emb (ix2 u d) = (ix2 u d : S1x128.Idx) := by
  have e0 : win4_7.index t (0 : Fin 2) = 0 := (idx4_7 t).1
  have e1 : win4_7.index t (1 : Fin 2) = 0 := (idx4_7 t).2
  funext x
  apply Fin.ext
  match x with
  | ⟨0, _⟩ => show win4_7.index t (0 : Fin 2) * 1 + 1 * u.val = u.val; rw [e0]; omega
  | ⟨1, _⟩ => show win4_7.index t (1 : Fin 2) * 128 + 1 * d.val = d.val; rw [e1]; omega

/-- The only point that writes window 7 back is the last, and it writes what the scratch row then holds. -/
theorem flushed4_7_eq (c : Dev nD) (t : Fin cfg4.N) (hf : (cfg4.win 7).flush t = true) :
    (dat4 (F := Ideal) V c).flushed 7 t
      = ((cfg4.win 7).blk t).view.read (Elt Ideal) ((acc4 (F := Ideal) V c 9 h9_4).2 : S1x128.Idx → EReal) := by
  have hN : t.val < 10 := Nat.lt_of_lt_of_eq t.isLt (show cfg4.N = 10 from N_4)
  have ht9 : t.val = 9 := by have := (flush4_7 t).mp hf; omega
  obtain rfl : t = ⟨9, h9_4⟩ := Fin.ext ht9
  show (cfg4.win 7).cut (grid4.coords ⟨9, h9_4⟩) ((dat4 (F := Ideal) V c).after 7 ⟨9, h9_4⟩) = _
  rw [after4_7]
  funext j
  obtain ⟨u, d, rfl⟩ : ∃ (u : Fin 1) (d : Fin 128), j = ix2 u d := ⟨j 0, j 1, eq_ix2 j⟩
  rw [View.read_apply, rowIdx4_7 ⟨9, h9_4⟩ u d]
  rfl

theorem mem_row4_7 (t : Fin cfg4.N) (idx : S1x128.Idx) :
    idx ∈ ((cfg4.win 7).blk t).view.set ↔ ∀ a : Fin 2, win4_7.index t a * S1x128.size a ≤ (idx a).val
      ∧ (idx a).val < win4_7.index t a * S1x128.size a + S1x128.size a := by
  show idx ∈ ((View.whole main_v196_2).slice (win4_7.rect t)).set ↔ _
  rw [View.set_slice_whole, Rect.mem_set_unit]
  exact Iff.rfl

/-- The last point's block covers the whole [1,128] array. -/
theorem row_cover4_7 (idx : S1x128.Idx) :
    ∃ t : Fin cfg4.N, (cfg4.win 7).flush t = true ∧ idx ∈ ((cfg4.win 7).blk t).view.set := by
  have h0 : (idx 0).val < 1 := (idx 0).isLt
  have h1 : (idx 1).val < 128 := (idx 1).isLt
  have e0 : win4_7.index ⟨9, h9_4⟩ (0 : Fin 2) = 0 := (idx4_7 ⟨9, h9_4⟩).1
  have e1 : win4_7.index ⟨9, h9_4⟩ (1 : Fin 2) = 0 := (idx4_7 ⟨9, h9_4⟩).2
  refine ⟨⟨9, h9_4⟩, (flush4_7 _).mpr rfl, ?_⟩
  rw [mem_row4_7]
  intro a
  match a with
  | ⟨0, _⟩ =>
    show win4_7.index ⟨9, h9_4⟩ (0 : Fin 2) * 1 ≤ (idx 0).val ∧ (idx 0).val < win4_7.index ⟨9, h9_4⟩ (0 : Fin 2) * 1 + 1
    rw [e0]; omega
  | ⟨1, _⟩ =>
    show win4_7.index ⟨9, h9_4⟩ (1 : Fin 2) * 128 ≤ (idx 1).val ∧ (idx 1).val < win4_7.index ⟨9, h9_4⟩ (1 : Fin 2) * 128 + 128
    rw [e1]; omega

/-- Window 7's array after the ten points is what the scratch row holds after the last. -/
theorem arr4_7 (c : Dev nD) :
    (dat4 (F := Ideal) V c).arrAt 7 cfg4.N = ((acc4 (F := Ideal) V c 9 h9_4).2 : S1x128.Idx → EReal) :=
  (dat4 (F := Ideal) V c).arrAt_eq_of_cover 7 ((acc4 (F := Ideal) V c 9 h9_4).2 : S1x128.Idx → EReal)
    (fun t hf => flushed4_7_eq V c t hf) row_cover4_7

/-! ## The scratch rows are running totals over the tiles -/

/-- One point's step of the running column sum, at column d: what the row held plus the column sum of the point's tile
    of the perceptron's output array (`T` the point, as a tile number). -/
theorem acc4_step_sum (c : Dev nD) (t : Fin cfg4.N) (T : Fin 10) (hT : T.val = t.val) (acc : Vec Ideal S1x128 .f32)
    (u : Fin 1) (d : Fin 128) :
    k4_pay5 (F := Ideal) (iblk4 V c 0 t) (iblk4 V c 1 t) (iblk4 V c 2 t) (iblk4 V c 3 t) (iblk4 V c 4 t) acc (ix2 u d)
      = acc (ix2 u d) + ∑ i : Fin 5000, mlpArr (V c main_v185) (V c main_v187) (V c main_v194) (V c main_v191) (V c main_v195) (ix2 (Cert.Moments.tileRow T i) d) :=
  (sum_apply4 (iblk4 V c 0 t) (iblk4 V c 1 t) (iblk4 V c 2 t) (iblk4 V c 3 t) (iblk4 V c 4 t) acc u d).trans
    (congrArg (acc (ix2 u d) + ·) (Finset.sum_congr rfl fun i _ =>
      hn4_apply V c t i d (Cert.Moments.tileRow T i) (by rw [Cert.Moments.tileRow_val, hT]; omega)))

/-- The same for the running column sum of squares. -/
theorem acc4_step_sumsq (c : Dev nD) (t : Fin cfg4.N) (T : Fin 10) (hT : T.val = t.val) (acc : Vec Ideal S1x128 .f32)
    (u : Fin 1) (d : Fin 128) :
    k4_pay1 (F := Ideal) (hn4 (F := Ideal) V c t) acc (ix2 u d)
      = acc (ix2 u d) + ∑ i : Fin 5000, mlpArr (V c main_v185) (V c main_v187) (V c main_v194) (V c main_v191) (V c main_v195) (ix2 (Cert.Moments.tileRow T i) d)
          * mlpArr (V c main_v185) (V c main_v187) (V c main_v194) (V c main_v191) (V c main_v195) (ix2 (Cert.Moments.tileRow T i) d) :=
  (sumsq_apply4 (hn4 (F := Ideal) V c t) acc u d).trans
    (congrArg (acc (ix2 u d) + ·) (Finset.sum_congr rfl fun i _ => by
      rw [hn4_apply V c t i d (Cert.Moments.tileRow T i) (by rw [Cert.Moments.tileRow_val, hT]; omega)]))

/-- A point number below ten is a grid point. -/
theorem pt_lt4 (T : Fin (9 + 1)) : T.val < cfg4.N := Nat.lt_of_lt_of_eq T.isLt (show (9 + 1 : ℕ) = cfg4.N from N_4.symm)

/-- THE COLUMN SUMS after the region's ten points: column d of `main_v196_1` holds the sum, over the ten tiles and the
    5000 rows of each, of column d of the perceptron's output array. -/
theorem final4_sum (c : Dev nD) (u : Fin 1) (d : Fin 128) :
    (dat4 (F := Ideal) V c).arrAt 6 cfg4.N (ix2 u d)
      = ∑ t : Fin 10, ∑ i : Fin 5000, mlpArr (V c main_v185) (V c main_v187) (V c main_v194) (V c main_v191) (V c main_v195) (ix2 (Cert.Moments.tileRow t i) d) := by
  rw [arr4_6 V c]
  exact Cert.ColumnMoments.running_total_last (g := 9)
    (fun T : Fin (9 + 1) => ∑ i : Fin 5000, mlpArr (V c main_v185) (V c main_v187) (V c main_v194) (V c main_v191) (V c main_v195) (ix2 (Cert.Moments.tileRow (g := 10) (b := 5000) T i) d))
    (fun T : Fin (9 + 1) => ((acc4 (F := Ideal) V c T.val (pt_lt4 T)).1 : S1x128.Idx → EReal) (ix2 u d))
    ((acc4_step_sum V c ⟨0, pt_lt4 0⟩ 0 rfl (k4_pay2 (F := Ideal)) u d).trans (by rw [reset0_apply4]))
    (fun T => acc4_step_sum V c ⟨T.val + 1, pt_lt4 T.succ⟩ T.succ rfl (acc4 (F := Ideal) V c T.val (pt_lt4 T.castSucc)).1 u d)

/-- THE COLUMN SUMS OF SQUARES after the region's ten points, the same way in `main_v196_2`. -/
theorem final4_sumsq (c : Dev nD) (u : Fin 1) (d : Fin 128) :
    (dat4 (F := Ideal) V c).arrAt 7 cfg4.N (ix2 u d)
      = ∑ t : Fin 10, ∑ i : Fin 5000, mlpArr (V c main_v185) (V c main_v187) (V c main_v194) (V c main_v191) (V c main_v195) (ix2 (Cert.Moments.tileRow t i) d)
          * mlpArr (V c main_v185) (V c main_v187) (V c main_v194) (V c main_v191) (V c main_v195) (ix2 (Cert.Moments.tileRow t i) d) := by
  rw [arr4_7 V c]
  exact Cert.ColumnMoments.running_total_last (g := 9)
    (fun T : Fin (9 + 1) => ∑ i : Fin 5000, mlpArr (V c main_v185) (V c main_v187) (V c main_v194) (V c main_v191) (V c main_v195) (ix2 (Cert.Moments.tileRow (g := 10) (b := 5000) T i) d)
      * mlpArr (V c main_v185) (V c main_v187) (V c main_v194) (V c main_v191) (V c main_v195) (ix2 (Cert.Moments.tileRow (g := 10) (b := 5000) T i) d))
    (fun T : Fin (9 + 1) => ((acc4 (F := Ideal) V c T.val (pt_lt4 T)).2 : S1x128.Idx → EReal) (ix2 u d))
    ((acc4_step_sumsq V c ⟨0, pt_lt4 0⟩ 0 rfl (k4_pay3 (F := Ideal)) u d).trans (by rw [reset1_apply4]))
    (fun T => acc4_step_sumsq V c ⟨T.val + 1, pt_lt4 T.succ⟩ T.succ rfl (acc4 (F := Ideal) V c T.val (pt_lt4 T.castSucc)).2 u d)

end Cert.KernelIdeal.Val

end
-- ==== Proof.Val.PayBn5.lean ====
/-
  The payload of region 5's batch-norm-apply-and-ReLU body read at one element, at the ideal float values
  (extended reals, every operation exact): at row i and column d it is
  max (((hn[i,d] - mean[0,d]) * rstd[0,d]) * gamma[0,d] + beta[0,d]) 0.
  Each of the four [1,128] rows is broadcast over the 5000 rows of the tile, so it is read at (0, d).
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- Region 5's stored value at (i, d): normalize, scale, shift, then clamp below at zero. -/
theorem bn_relu_apply5 (hn : Vec Ideal S5000x128 .f32) (mean rstd gamma beta : Vec Ideal S1x128 .f32)
    (i : Fin 5000) (d : Fin 128) :
    k5_pay1 (F := Ideal) hn mean rstd gamma beta (ix2 i d)
      = max (((hn (ix2 i d) - mean (ix2 (0 : Fin 1) d)) * rstd (ix2 (0 : Fin 1) d)) * gamma (ix2 (0 : Fin 1) d)
          + beta (ix2 (0 : Fin 1) d)) 0 := by
  unfold k5_pay1
  simp only [maximumf_apply, addf_apply, mulf_apply, subf_apply, broadcast_apply, shapeCast_self,
    broadcastTo_1b_ab_apply, scalar_zero_f32]

end Cert.KernelIdeal.Val

end
-- ==== Proof.Val.Final5.lean ====
/-
  Region 5's output array after its ten grid points, as ONE function of the arrays the region finds on entry.
  Point t stores, over rows 5000 t … 5000 t + 4999 of the [50000,128] output array `main_v216`, the normalisation of the
  same rows of `main_v196_0` by the four [1,128] rows `main_v212`, `main_v213`, `main_v214`, `main_v215`, clamped below at zero.  The ten
  tiles are disjoint and fill the array, so the array ends holding `bnReluArr` of the five entry arrays.
-/
import proofs.«118775_j16338055594318_1_alg».proof.Proof.KI.Bn5
import proofs.«118775_j16338055594318_1_alg».proof.Proof.Val.PayBn5
import proofs.«118775_j16338055594318_1_alg».proof.Proof.Val.BnArr
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The block indices over the grid: the tile windows 0 and 5 sit at block (t, 0) at point t, the four row windows
    stay at block (0, 0). -/
theorem blockIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 0's block at point t is rows 5000 t … 5000 t + 4999 of `main_v196_0` as the region finds it. -/
theorem tile5_apply (c : Dev nD) (t : Fin cfg5.N) (i : Fin 5000) (d : Fin 128) (R : Fin 50000) (hR : R.val = t.val * 5000 + i.val) :
    (iblk5 V c 0 t : Vec Ideal S5000x128 .f32) (ix2 i d) = (V c main_v196_0 : S50000x128.Idx → EReal) (ix2 R d) := by
  have e0 : win5_0.index t (0 : Fin 2) = t.val := (blockIdx5 t).1
  have e1 : win5_0.index t (1 : Fin 2) = 0 := (blockIdx5 t).2.1
  unfold iblk5
  rw [View.read_apply]
  show V c main_v196_0 _ = V c main_v196_0 _
  congr 1
  funext x
  apply Fin.ext
  match x with
  | ⟨0, _⟩ => show win5_0.index t (0 : Fin 2) * 5000 + 1 * i.val = R.val; rw [e0, hR]; omega
  | ⟨1, _⟩ => show win5_0.index t (1 : Fin 2) * 128 + 1 * d.val = d.val; rw [e1]; omega

/-- Window 1's block at any point is the whole [1,128] row array `main_v212` as the region finds it. -/
theorem row5_1_apply (c : Dev nD) (t : Fin cfg5.N) (d : Fin 128) :
    (iblk5 V c 1 t : Vec Ideal S1x128 .f32) (ix2 (0 : Fin 1) d) = (V c main_v212 : S1x128.Idx → EReal) (ix2 (0 : Fin 1) d) := by
  have e0 : win5_1.index t (0 : Fin 2) = 0 := (blockIdx5 t).2.2.1
  have e1 : win5_1.index t (1 : Fin 2) = 0 := (blockIdx5 t).2.2.2.1
  unfold iblk5
  rw [View.read_apply]
  show V c main_v212 _ = V c main_v212 _
  congr 1
  funext x
  apply Fin.ext
  match x with
  | ⟨0, _⟩ => show win5_1.index t (0 : Fin 2) * 1 + 1 * (0 : Fin 1).val = (0 : Fin 1).val; rw [e0]; rfl
  | ⟨1, _⟩ => show win5_1.index t (1 : Fin 2) * 128 + 1 * d.val = d.val; rw [e1]; omega

/-- Window 2's block at any point is the whole [1,128] row array `main_v213` as the region finds it. -/
theorem row5_2_apply (c : Dev nD) (t : Fin cfg5.N) (d : Fin 128) :
    (iblk5 V c 2 t : Vec Ideal S1x128 .f32) (ix2 (0 : Fin 1) d) = (V c main_v213 : S1x128.Idx → EReal) (ix2 (0 : Fin 1) d) := by
  have e0 : win5_2.index t (0 : Fin 2) = 0 := (blockIdx5 t).2.2.2.2.1
  have e1 : win5_2.index t (1 : Fin 2) = 0 := (blockIdx5 t).2.2.2.2.2.1
  unfold iblk5
  rw [View.read_apply]
  show V c main_v213 _ = V c main_v213 _
  congr 1
  funext x
  apply Fin.ext
  match x with
  | ⟨0, _⟩ => show win5_2.index t (0 : Fin 2) * 1 + 1 * (0 : Fin 1).val = (0 : Fin 1).val; rw [e0]; rfl
  | ⟨1, _⟩ => show win5_2.index t (1 : Fin 2) * 128 + 1 * d.val = d.val; rw [e1]; omega

/-- Window 3's block at any point is the whole [1,128] row array `main_v214` as the region finds it. -/
theorem row5_3_apply (c : Dev nD) (t : Fin cfg5.N) (d : Fin 128) :
    (iblk5 V c 3 t : Vec Ideal S1x128 .f32) (ix2 (0 : Fin 1) d) = (V c main_v214 : S1x128.Idx → EReal) (ix2 (0 : Fin 1) d) := by
  have e0 : win5_3.index t (0 : Fin 2) = 0 := (blockIdx5 t).2.2.2.2.2.2.1
  have e1 : win5_3.index t (1 : Fin 2) = 0 := (blockIdx5 t).2.2.2.2.2.2.2.1
  unfold iblk5
  rw [View.read_apply]
  show V c main_v214 _ = V c main_v214 _
  congr 1
  funext x
  apply Fin.ext
  match x with
  | ⟨0, _⟩ => show win5_3.index t (0 : Fin 2) * 1 + 1 * (0 : Fin 1).val = (0 : Fin 1).val; rw [e0]; rfl
  | ⟨1, _⟩ => show win5_3.index t (1 : Fin 2) * 128 + 1 * d.val = d.val; rw [e1]; omega

/-- Window 4's block at any point is the whole [1,128] row array `main_v215` as the region finds it. -/
theorem row5_4_apply (c : Dev nD) (t : Fin cfg5.N) (d : Fin 128) :
    (iblk5 V c 4 t : Vec Ideal S1x128 .f32) (ix2 (0 : Fin 1) d) = (V c main_v215 : S1x128.Idx → EReal) (ix2 (0 : Fin 1) d) := by
  have e0 : win5_4.index t (0 : Fin 2) = 0 := (blockIdx5 t).2.2.2.2.2.2.2.2.1
  have e1 : win5_4.index t (1 : Fin 2) = 0 := (blockIdx5 t).2.2.2.2.2.2.2.2.2.1
  unfold iblk5
  rw [View.read_apply]
  show V c main_v215 _ = V c main_v215 _
  congr 1
  funext x
  apply Fin.ext
  match x with
  | ⟨0, _⟩ => show win5_4.index t (0 : Fin 2) * 1 + 1 * (0 : Fin 1).val = (0 : Fin 1).val; rw [e0]; rfl
  | ⟨1, _⟩ => show win5_4.index t (1 : Fin 2) * 128 + 1 * d.val = d.val; rw [e1]; omega

/-- The body's stored value at (i, d), when its tile block reads entry (R, d) of an array `A` and its four row
    blocks read the rows `mean`, `rstd`, `gamma`, `beta` at (0, d), is entry (R, d) of the normalised array. -/
theorem pay5_block (A : S50000x128.Idx → EReal) (mean rstd gamma beta : S1x128.Idx → EReal)
    (x0 : Vec Ideal S5000x128 .f32) (x1 x2 x3 x4 : Vec Ideal S1x128 .f32) (i : Fin 5000) (d : Fin 128) (R : Fin 50000)
    (h0 : x0 (ix2 i d) = A (ix2 R d)) (h1 : x1 (ix2 (0 : Fin 1) d) = mean (ix2 (0 : Fin 1) d))
    (h2 : x2 (ix2 (0 : Fin 1) d) = rstd (ix2 (0 : Fin 1) d)) (h3 : x3 (ix2 (0 : Fin 1) d) = gamma (ix2 (0 : Fin 1) d))
    (h4 : x4 (ix2 (0 : Fin 1) d) = beta (ix2 (0 : Fin 1) d)) :
    k5_pay1 (F := Ideal) x0 x1 x2 x3 x4 (ix2 i d) = bnReluArr A mean rstd gamma beta (ix2 R d) := by
  rw [bn_relu_apply5, h0, h1, h2, h3, h4]
  rfl

/-- Entry (i, d) of window 5's block at point t is entry (5000 t + i, d) of the output array. -/
theorem outIdx5 (t : Fin cfg5.N) (i : Fin 5000) (d : Fin 128) (R : Fin 50000) (hR : R.val = t.val * 5000 + i.val) :
    ((cfg5.win 5).blk t).view.emb (ix2 i d) = (ix2 R d : S50000x128.Idx) := by
  have e0 : win5_5.index t (0 : Fin 2) = t.val := (blockIdx5 t).2.2.2.2.2.2.2.2.2.2.1
  have e1 : win5_5.index t (1 : Fin 2) = 0 := (blockIdx5 t).2.2.2.2.2.2.2.2.2.2.2
  funext x
  apply Fin.ext
  match x with
  | ⟨0, _⟩ => show win5_5.index t (0 : Fin 2) * 5000 + 1 * i.val = R.val; rw [e0, hR]; omega
  | ⟨1, _⟩ => show win5_5.index t (1 : Fin 2) * 128 + 1 * d.val = d.val; rw [e1]; omega

/-- What point t writes back to the output array is block t of the normalised array. -/
theorem flushed5_eq (c : Dev nD) (t : Fin cfg5.N) :
    (dat5 (F := Ideal) V c).flushed 5 t
      = ((cfg5.win 5).blk t).view.read (Elt Ideal) (bnReluArr (V c main_v196_0) (V c main_v212) (V c main_v213) (V c main_v214) (V c main_v215)) := by
  show (cfg5.win 5).cut (grid5.coords t) ((dat5 (F := Ideal) V c).after 5 t) = _
  rw [after5_5]
  funext j
  obtain ⟨i, d, rfl⟩ : ∃ (i : Fin 5000) (d : Fin 128), j = ix2 i d := ⟨j 0, j 1, eq_ix2 j⟩
  have ht : t.val < 10 := Nat.lt_of_lt_of_eq t.isLt (show cfg5.N = 10 from N_5)
  have hR : t.val * 5000 + i.val < 50000 := by have := i.isLt; omega
  rw [View.read_apply, outIdx5 t i d ⟨t.val * 5000 + i.val, hR⟩ rfl]
  show out5 V c t (ix2 i d) = _
  unfold out5
  exact pay5_block (V c main_v196_0) (V c main_v212) (V c main_v213) (V c main_v214) (V c main_v215)
    (iblk5 V c 0 t) (iblk5 V c 1 t) (iblk5 V c 2 t) (iblk5 V c 3 t) (iblk5 V c 4 t) i d ⟨t.val * 5000 + i.val, hR⟩
    (tile5_apply V c t i d ⟨t.val * 5000 + i.val, hR⟩ rfl) (row5_1_apply V c t d) (row5_2_apply V c t d)
    (row5_3_apply V c t d) (row5_4_apply V c t d)

/-- An index of the output array is in point t's block iff each coordinate is in the block's range on its axis. -/
theorem mem_tile5 (t : Fin cfg5.N) (idx : S50000x128.Idx) :
    idx ∈ ((cfg5.win 5).blk t).view.set ↔ ∀ a : Fin 2, win5_5.index t a * S5000x128.size a ≤ (idx a).val
      ∧ (idx a).val < win5_5.index t a * S5000x128.size a + S5000x128.size a := by
  show idx ∈ ((View.whole main_v216).slice (win5_5.rect t)).set ↔ _
  rw [View.set_slice_whole, Rect.mem_set_unit]
  exact Iff.rfl

/-- Every index of the output array is in the block of the point its row falls in: row r is written at point r / 5000. -/
theorem tiles_cover5 (idx : S50000x128.Idx) :
    ∃ t : Fin cfg5.N, (cfg5.win 5).flush t = true ∧ idx ∈ ((cfg5.win 5).blk t).view.set := by
  have h0 : (idx 0).val < 50000 := (idx 0).isLt
  have h1 : (idx 1).val < 128 := (idx 1).isLt
  have hN : (idx 0).val / 5000 < cfg5.N := by rw [show cfg5.N = 10 from N_5]; omega
  have e0 : win5_5.index ⟨(idx 0).val / 5000, hN⟩ (0 : Fin 2) = (idx 0).val / 5000 := (blockIdx5 ⟨(idx 0).val / 5000, hN⟩).2.2.2.2.2.2.2.2.2.2.1
  have e1 : win5_5.index ⟨(idx 0).val / 5000, hN⟩ (1 : Fin 2) = 0 := (blockIdx5 ⟨(idx 0).val / 5000, hN⟩).2.2.2.2.2.2.2.2.2.2.2
  refine ⟨⟨(idx 0).val / 5000, hN⟩, flush5_5 _, ?_⟩
  rw [mem_tile5]
  intro a
  match a with
  | ⟨0, _⟩ =>
    show win5_5.index ⟨(idx 0).val / 5000, hN⟩ (0 : Fin 2) * 5000 ≤ (idx 0).val
      ∧ (idx 0).val < win5_5.index ⟨(idx 0).val / 5000, hN⟩ (0 : Fin 2) * 5000 + 5000
    rw [e0]; omega
  | ⟨1, _⟩ =>
    show win5_5.index ⟨(idx 0).val / 5000, hN⟩ (1 : Fin 2) * 128 ≤ (idx 1).val
      ∧ (idx 1).val < win5_5.index ⟨(idx 0).val / 5000, hN⟩ (1 : Fin 2) * 128 + 128
    rw [e1]; omega

/-- THE OUTPUT ARRAY after the region's ten points: the normalised array of the five entry arrays. -/
theorem final5 (c : Dev nD) :
    (dat5 (F := Ideal) V c).arrAt 5 cfg5.N = bnReluArr (V c main_v196_0) (V c main_v212) (V c main_v213) (V c main_v214) (V c main_v215) :=
  (dat5 (F := Ideal) V c).arrAt_eq_of_cover 5 (bnReluArr (V c main_v196_0) (V c main_v212) (V c main_v213) (V c main_v214) (V c main_v215))
    (fun t _ => flushed5_eq V c t) (tiles_cover5)

end Cert.KernelIdeal.Val

end
-- ==== Proof.Val.Glue4.lean ====
/-
  Host stretch 4 (before region 4)'s last operations read at one element, at the ideal float values, from an arbitrary
  valuation of the buffers before it: the layer's two weight matrices and two bias rows as region 4's windows find them,
  cut out of the stacked parameter tables.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 4 the first layer's weights' buffer holds matrix 2 of the stacked first-layer weights. -/
theorem glue4_w1_eq (W : Valuation τ sig (Elt Ideal)) :
    (StableHlo.after hostOps4 W (Proc.devRef .tc main_v187) : (⟨S128x256, .f32⟩ : BufTy).Contents (Elt Ideal))
      = mat128x256 2 slices_S5x128x256_S1x128x256_2_0_0 (W (Proc.devRef .tc main_arg7)) := by
  after_results_simp
  rfl

theorem glue4_w1 (W : Valuation τ sig (Elt Ideal)) (k : Fin 128) (j : Fin 256) :
    (StableHlo.after hostOps4 W (Proc.devRef .tc main_v187) : (⟨S128x256, .f32⟩ : BufTy).Contents (Elt Ideal)) (ix2 k j)
      = (W (Proc.devRef .tc main_arg7) : (⟨S5x128x256, .f32⟩ : BufTy).Contents (Elt Ideal)) (ix3 (2 : Fin 5) k j) := by
  rw [glue4_w1_eq]; exact mat128x256_apply 2 _ _ (2 : Fin 5) rfl k j

set_option maxHeartbeats 4000000 in
/-- After stretch 4 the first layer's bias's buffer holds row 2 of the stacked first-layer biases. -/
theorem glue4_b1_eq (W : Valuation τ sig (Elt Ideal)) :
    (StableHlo.after hostOps4 W (Proc.devRef .tc main_v194) : (⟨S1x256, .f32⟩ : BufTy).Contents (Elt Ideal))
      = row256 2 slices_S5x256_S1x256_2_0 (W (Proc.devRef .tc main_arg8)) := by
  after_results_simp
  rfl

theorem glue4_b1 (W : Valuation τ sig (Elt Ideal)) (u : Fin 1) (j : Fin 256) :
    (StableHlo.after hostOps4 W (Proc.devRef .tc main_v194) : (⟨S1x256, .f32⟩ : BufTy).Contents (Elt Ideal)) (ix2 u j)
      = (W (Proc.devRef .tc main_arg8) : (⟨S5x256, .f32⟩ : BufTy).Contents (Elt Ideal)) (ix2 (2 : Fin 5) j) := by
  rw [glue4_b1_eq]; exact row256_apply 2 _ _ (2 : Fin 5) rfl u j

set_option maxHeartbeats 4000000 in
/-- After stretch 4 the second layer's weights' buffer holds matrix 2 of the stacked second-layer weights. -/
theorem glue4_w2_eq (W : Valuation τ sig (Elt Ideal)) :
    (StableHlo.after hostOps4 W (Proc.devRef .tc main_v191) : (⟨S256x128, .f32⟩ : BufTy).Contents (Elt Ideal))
      = mat256x128 2 slices_S5x256x128_S1x256x128_2_0_0 (W (Proc.devRef .tc main_arg9)) := by
  after_results_simp
  rfl

theorem glue4_w2 (W : Valuation τ sig (Elt Ideal)) (j : Fin 256) (d : Fin 128) :
    (StableHlo.after hostOps4 W (Proc.devRef .tc main_v191) : (⟨S256x128, .f32⟩ : BufTy).Contents (Elt Ideal)) (ix2 j d)
      = (W (Proc.devRef .tc main_arg9) : (⟨S5x256x128, .f32⟩ : BufTy).Contents (Elt Ideal)) (ix3 (2 : Fin 5) j d) := by
  rw [glue4_w2_eq]; exact mat256x128_apply 2 _ _ (2 : Fin 5) rfl j d

set_option maxHeartbeats 4000000 in
/-- After stretch 4 the second layer's bias's buffer holds row 2 of the stacked second-layer biases. -/
theorem glue4_b2_eq (W : Valuation τ sig (Elt Ideal)) :
    (StableHlo.after hostOps4 W (Proc.devRef .tc main_v195) : (⟨S1x128, .f32⟩ : BufTy).Contents (Elt Ideal))
      = row128 2 slices_S5x128_S1x128_2_0 (W (Proc.devRef .tc main_arg10)) := by
  after_results_simp
  rfl

theorem glue4_b2 (W : Valuation τ sig (Elt Ideal)) (u : Fin 1) (d : Fin 128) :
    (StableHlo.after hostOps4 W (Proc.devRef .tc main_v195) : (⟨S1x128, .f32⟩ : BufTy).Contents (Elt Ideal)) (ix2 u d)
      = (W (Proc.devRef .tc main_arg10) : (⟨S5x128, .f32⟩ : BufTy).Contents (Elt Ideal)) (ix2 (2 : Fin 5) d) := by
  rw [glue4_b2_eq]; exact row128_apply 2 _ _ (2 : Fin 5) rfl u d

end Cert.KernelIdeal.Val

end
-- ==== Proof.Val.Glue5.lean ====
/-
  Host stretch 5 (between region 4 and region 5) read at one element, at the ideal float values, from an arbitrary
  valuation of the buffers before it: the four [1,128] rows region 5 reads — the batch mean and the inverse standard
  deviation computed from region 4's column sum and column sum of squares, and the layer's row of gamma and of
  beta — and that the stretch leaves region 4's output tile as it was.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

/-- After stretch 5 the mean's buffer holds the batch mean of region 4's column sums. -/
theorem glue5_mean_eq (W : Valuation τ sig (Elt Ideal)) :
    (StableHlo.after hostOps5 W (Proc.devRef .tc main_v212) : (⟨S1x128, .f32⟩ : BufTy).Contents (Elt Ideal))
      = meanRow (W (Proc.devRef .tc main_v196_1)) := by
  after_results
  rfl

theorem glue5_mean (W : Valuation τ sig (Elt Ideal)) (u : Fin 1) (d : Fin 128) :
    (StableHlo.after hostOps5 W (Proc.devRef .tc main_v212) : (⟨S1x128, .f32⟩ : BufTy).Contents (Elt Ideal)) (ix2 u d)
      = Ideal.div ((W (Proc.devRef .tc main_v196_1) : (⟨S1x128, .f32⟩ : BufTy).Contents (Elt Ideal)) (ix2 (0 : Fin 1) d)) nRows := by
  rw [glue5_mean_eq, meanRow_apply]

/-- After stretch 5 the inverse standard deviation's buffer holds it, from region 4's two column sums. -/
theorem glue5_rstd_eq (W : Valuation τ sig (Elt Ideal)) :
    (StableHlo.after hostOps5 W (Proc.devRef .tc main_v213) : (⟨S1x128, .f32⟩ : BufTy).Contents (Elt Ideal))
      = rstdRow (W (Proc.devRef .tc main_v196_1)) (W (Proc.devRef .tc main_v196_2)) := by
  after_results
  rfl

theorem glue5_rstd (W : Valuation τ sig (Elt Ideal)) (u : Fin 1) (d : Fin 128) :
    (StableHlo.after hostOps5 W (Proc.devRef .tc main_v213) : (⟨S1x128, .f32⟩ : BufTy).Contents (Elt Ideal)) (ix2 u d)
      = Ideal.rsqrt ((Ideal.div ((W (Proc.devRef .tc main_v196_2) : (⟨S1x128, .f32⟩ : BufTy).Contents (Elt Ideal)) (ix2 (0 : Fin 1) d)) nRows
          - Ideal.div ((W (Proc.devRef .tc main_v196_1) : (⟨S1x128, .f32⟩ : BufTy).Contents (Elt Ideal)) (ix2 (0 : Fin 1) d)) nRows
            * Ideal.div ((W (Proc.devRef .tc main_v196_1) : (⟨S1x128, .f32⟩ : BufTy).Contents (Elt Ideal)) (ix2 (0 : Fin 1) d)) nRows) + epsBn) := by
  rw [glue5_rstd_eq, rstdRow_apply]

/-- After stretch 5 the scale's buffer holds row 2 of gamma. -/
theorem glue5_gamma_eq (W : Valuation τ sig (Elt Ideal)) :
    (StableHlo.after hostOps5 W (Proc.devRef .tc main_v214) : (⟨S1x128, .f32⟩ : BufTy).Contents (Elt Ideal))
      = row128 2 slices_S5x128_S1x128_2_0 (W (Proc.devRef .tc main_arg11)) := by
  after_results
  rfl

theorem glue5_gamma (W : Valuation τ sig (Elt Ideal)) (u : Fin 1) (d : Fin 128) :
    (StableHlo.after hostOps5 W (Proc.devRef .tc main_v214) : (⟨S1x128, .f32⟩ : BufTy).Contents (Elt Ideal)) (ix2 u d)
      = (W (Proc.devRef .tc main_arg11) : (⟨S5x128, .f32⟩ : BufTy).Contents (Elt Ideal)) (ix2 (2 : Fin 5) d) := by
  rw [glue5_gamma_eq]; exact row128_apply 2 _ _ (2 : Fin 5) rfl u d

/-- After stretch 5 the shift's buffer holds row 2 of beta. -/
theorem glue5_beta_eq (W : Valuation τ sig (Elt Ideal)) :
    (StableHlo.after hostOps5 W (Proc.devRef .tc main_v215) : (⟨S1x128, .f32⟩ : BufTy).Contents (Elt Ideal))
      = row128 2 slices_S5x128_S1x128_2_0 (W (Proc.devRef .tc main_arg12)) := by
  after_results
  rfl

theorem glue5_beta (W : Valuation τ sig (Elt Ideal)) (u : Fin 1) (d : Fin 128) :
    (StableHlo.after hostOps5 W (Proc.devRef .tc main_v215) : (⟨S1x128, .f32⟩ : BufTy).Contents (Elt Ideal)) (ix2 u d)
      = (W (Proc.devRef .tc main_arg12) : (⟨S5x128, .f32⟩ : BufTy).Contents (Elt Ideal)) (ix2 (2 : Fin 5) d) := by
  rw [glue5_beta_eq]; exact row128_apply 2 _ _ (2 : Fin 5) rfl u d

/-- Stretch 5 writes none of region 4's output tile: its buffer holds after the stretch what it held before. -/
theorem glue5_keep (W : Valuation τ sig (Elt Ideal)) :
    StableHlo.after hostOps5 W (Proc.devRef .tc main_v196_0) = W (Proc.devRef .tc main_v196_0) := by
  after_results <;> rfl

end Cert.KernelIdeal.Val

end
-- ==== Proof.Val.LayerK2.lean ====
/-
  Layer 2 of the program in closed form.  Region 4 leaves, in its three output arrays, the two-layer perceptron of
  the aggregated features it finds and that array's column sums and column sums of squares, collected tile by tile; the
  host stretch after it turns the two sums into the column mean and the reciprocal of the square root of the raw variance
  plus the guard, and cuts row 2 out of the scale and shift tables; region 5 normalises the perceptron's array by those four
  rows, clamping below at zero.  The weights and biases region 4 reads are row 2 of the stacked parameter tables, which no
  operation and no region writes: they are the launch memory's.  So the layer's result is the normalised perceptron in
  the tiled arrangement, of the aggregated features and the launch memory's parameters.
-/
import proofs.«118775_j16338055594318_1_alg».proof.Proof.Val.Keep
import proofs.«118775_j16338055594318_1_alg».proof.Proof.Val.FinalMlp4
import proofs.«118775_j16338055594318_1_alg».proof.Proof.Val.Final5
import proofs.«118775_j16338055594318_1_alg».proof.Proof.Val.Glue4
import proofs.«118775_j16338055594318_1_alg».proof.Proof.Val.Glue5
import proofs.«118775_j16338055594318_1_alg».proof.Proof.Val.Step

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Cert.Spec

/-- Row i of tile t, in the two spellings of the same row number. -/
theorem tileRow_eq_row2 (t : Fin 10) (i : Fin 5000) : (Cert.Moments.tileRow t i : Fin 50000) = Cert.Spec.row t i := by
  apply Fin.ext
  show (Cert.Moments.tileRow t i).val = 5000 * t.val + i.val
  rw [Cert.Moments.tileRow_val]; omega

section
variable (m : (ℓ : Loc nD τ sig) → Buf (Elt Ideal) ℓ) (ρ : Dev nD → PrngReg) (c : Dev nD)

/-- Region 4's weight and bias windows find row 2 of the launch memory's parameter tables. -/
theorem w1At2 (k : Fin 128) (j : Fin 256) :
    (V9 (F := Ideal) m ρ c main_v187 : S128x256.Idx → EReal) (ix2 k j) = (m ((c.tc : Thread nD τ).loc main_arg7) : (⟨S5x128x256, .f32⟩ : BufTy).Contents (Elt Ideal)) (ix3 (2 : Fin 5) k j) :=
  (glue4_w1 (W8 (F := Ideal) m ρ c) k j).trans (congrFun (W8_arg7 (F := Ideal) m ρ c) _)
theorem b1At2 (j : Fin 256) :
    (V9 (F := Ideal) m ρ c main_v194 : S1x256.Idx → EReal) (ix2 (0 : Fin 1) j) = (m ((c.tc : Thread nD τ).loc main_arg8) : (⟨S5x256, .f32⟩ : BufTy).Contents (Elt Ideal)) (ix2 (2 : Fin 5) j) :=
  (glue4_b1 (W8 (F := Ideal) m ρ c) (0 : Fin 1) j).trans (congrFun (W8_arg8 (F := Ideal) m ρ c) _)
theorem w2At2 (j : Fin 256) (d : Fin 128) :
    (V9 (F := Ideal) m ρ c main_v191 : S256x128.Idx → EReal) (ix2 j d) = (m ((c.tc : Thread nD τ).loc main_arg9) : (⟨S5x256x128, .f32⟩ : BufTy).Contents (Elt Ideal)) (ix3 (2 : Fin 5) j d) :=
  (glue4_w2 (W8 (F := Ideal) m ρ c) j d).trans (congrFun (W8_arg9 (F := Ideal) m ρ c) _)
theorem b2At2 (d : Fin 128) :
    (V9 (F := Ideal) m ρ c main_v195 : S1x128.Idx → EReal) (ix2 (0 : Fin 1) d) = (m ((c.tc : Thread nD τ).loc main_arg10) : (⟨S5x128, .f32⟩ : BufTy).Contents (Elt Ideal)) (ix2 (2 : Fin 5) d) :=
  (glue4_b2 (W8 (F := Ideal) m ρ c) (0 : Fin 1) d).trans (congrFun (W8_arg10 (F := Ideal) m ρ c) _)

/-- The perceptron's array of region 4's entry arrays, at (r, d), is the perceptron of the aggregated features and
    the launch memory's parameters. -/
theorem hnAt2 (r : Fin 50000) (d : Fin 128) :
    mlpArr (V9 (F := Ideal) m ρ c main_v185) (V9 (F := Ideal) m ρ c main_v187) (V9 (F := Ideal) m ρ c main_v194) (V9 (F := Ideal) m ρ c main_v191) (V9 (F := Ideal) m ρ c main_v195) (ix2 r d)
      = Cert.Spec.hn (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) r d := by
  unfold mlpArr Cert.Spec.hn
  simp only [w1At2 m ρ c, b1At2 m ρ c, w2At2 m ρ c, b2At2 m ρ c]

/-- Region 4's column sums, as the host stretch after it finds them: the tiled sum of the perceptron's column. -/
theorem sumAt2 (d : Fin 128) :
    (W10 (F := Ideal) m ρ c (Proc.devRef .tc main_v196_1) : S1x128.Idx → EReal) (ix2 (0 : Fin 1) d)
      = Cert.Spec.sumT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) d := by
  have h1 : ((dat4 (F := Ideal) (V9 (F := Ideal) m ρ) c).arrAt 6 cfg4.N : S1x128.Idx → EReal) (ix2 (0 : Fin 1) d) = _ :=
    final4_sum (V9 (F := Ideal) m ρ) c (0 : Fin 1) d
  have h0 : (W10 (F := Ideal) m ρ c (Proc.devRef .tc main_v196_1) : S1x128.Idx → EReal) (ix2 (0 : Fin 1) d)
      = ((dat4 (F := Ideal) (V9 (F := Ideal) m ρ) c).arrAt 6 cfg4.N : S1x128.Idx → EReal) (ix2 (0 : Fin 1) d) :=
    congrFun (W10_arr (F := Ideal) m ρ c 6) (ix2 (0 : Fin 1) d)
  have h2 : (∑ t : Fin 10, ∑ i : Fin 5000, mlpArr (V9 (F := Ideal) m ρ c main_v185) (V9 (F := Ideal) m ρ c main_v187) (V9 (F := Ideal) m ρ c main_v194) (V9 (F := Ideal) m ρ c main_v191) (V9 (F := Ideal) m ρ c main_v195) (ix2 (Cert.Moments.tileRow t i) d)) = Cert.Spec.sumT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) d := by
    unfold Cert.Spec.sumT
    refine Finset.sum_congr rfl fun t _ => Finset.sum_congr rfl fun i _ => ?_
    exact (hnAt2 m ρ c (Cert.Moments.tileRow t i) d).trans (congrArg (fun rr => Cert.Spec.hn (fun r k => (W9 (F := Ideal) m ρ c (Proc.devRef .tc main_v185) : Feat) (ix2 r k))
            (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
            (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) rr d) (tileRow_eq_row2 t i))
  exact (h0.trans h1).trans h2

/-- The same for the column sums of squares. -/
theorem sumsqAt2 (d : Fin 128) :
    (W10 (F := Ideal) m ρ c (Proc.devRef .tc main_v196_2) : S1x128.Idx → EReal) (ix2 (0 : Fin 1) d)
      = Cert.Spec.sumsqT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) d := by
  have h1 : ((dat4 (F := Ideal) (V9 (F := Ideal) m ρ) c).arrAt 7 cfg4.N : S1x128.Idx → EReal) (ix2 (0 : Fin 1) d) = _ :=
    final4_sumsq (V9 (F := Ideal) m ρ) c (0 : Fin 1) d
  have h0 : (W10 (F := Ideal) m ρ c (Proc.devRef .tc main_v196_2) : S1x128.Idx → EReal) (ix2 (0 : Fin 1) d)
      = ((dat4 (F := Ideal) (V9 (F := Ideal) m ρ) c).arrAt 7 cfg4.N : S1x128.Idx → EReal) (ix2 (0 : Fin 1) d) :=
    congrFun (W10_arr (F := Ideal) m ρ c 7) (ix2 (0 : Fin 1) d)
  have h2 : (∑ t : Fin 10, ∑ i : Fin 5000, mlpArr (V9 (F := Ideal) m ρ c main_v185) (V9 (F := Ideal) m ρ c main_v187) (V9 (F := Ideal) m ρ c main_v194) (V9 (F := Ideal) m ρ c main_v191) (V9 (F := Ideal) m ρ c main_v195) (ix2 (Cert.Moments.tileRow t i) d)
      * mlpArr (V9 (F := Ideal) m ρ c main_v185) (V9 (F := Ideal) m ρ c main_v187) (V9 (F := Ideal) m ρ c main_v194) (V9 (F := Ideal) m ρ c main_v191) (V9 (F := Ideal) m ρ c main_v195) (ix2 (Cert.Moments.tileRow t i) d)) = Cert.Spec.sumsqT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) d := by
    unfold Cert.Spec.sumsqT
    refine Finset.sum_congr rfl fun t _ => Finset.sum_congr rfl fun i _ => ?_
    rw [hnAt2 m ρ c (Cert.Moments.tileRow t i) d]
    exact congrArg (fun rr => Cert.Spec.hn (fun r k => (W9 (F := Ideal) m ρ c (Proc.devRef .tc main_v185) : Feat) (ix2 r k))
            (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
            (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) rr d * Cert.Spec.hn (fun r k => (W9 (F := Ideal) m ρ c (Proc.devRef .tc main_v185) : Feat) (ix2 r k))
            (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
            (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) rr d) (tileRow_eq_row2 t i)
  exact (h0.trans h1).trans h2

/-- Region 5's tile window finds region 4's perceptron array. -/
theorem xAt2 (r : Fin 50000) (d : Fin 128) :
    (V11 (F := Ideal) m ρ c main_v196_0 : Feat) (ix2 r d) = Cert.Spec.hn (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) r d := by
  have e1 : V11 (F := Ideal) m ρ c main_v196_0 = W10 (F := Ideal) m ρ c (Proc.devRef .tc main_v196_0) := glue5_keep (W10 (F := Ideal) m ρ c)
  have e2 : W10 (F := Ideal) m ρ c (Proc.devRef .tc main_v196_0) = mlpArr (V9 (F := Ideal) m ρ c main_v185) (V9 (F := Ideal) m ρ c main_v187) (V9 (F := Ideal) m ρ c main_v194) (V9 (F := Ideal) m ρ c main_v191) (V9 (F := Ideal) m ρ c main_v195) :=
    (W10_arr (F := Ideal) m ρ c 5).trans (final4_hn (V9 (F := Ideal) m ρ) c)
  exact (congrFun (e1.trans e2) (ix2 r d)).trans (hnAt2 m ρ c r d)

/-- Its mean row is the mean from the tiles' sums; -/
theorem meanAt2 (d : Fin 128) :
    (V11 (F := Ideal) m ρ c main_v212 : S1x128.Idx → EReal) (ix2 (0 : Fin 1) d)
      = Cert.Spec.meanT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) nRows d := by
  refine (glue5_mean (W10 (F := Ideal) m ρ c) (0 : Fin 1) d).trans ?_
  rw [sumAt2 m ρ c d]
  rfl

/-- its reciprocal-deviation row is the reciprocal square root of the raw variance plus the guard; -/
theorem rstdAt2 (d : Fin 128) :
    (V11 (F := Ideal) m ρ c main_v213 : S1x128.Idx → EReal) (ix2 (0 : Fin 1) d)
      = Ideal.rsqrt (Cert.Spec.varT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d)) nRows d + epsBn) := by
  refine (glue5_rstd (W10 (F := Ideal) m ρ c) (0 : Fin 1) d).trans ?_
  rw [sumAt2 m ρ c d, sumsqAt2 m ρ c d]
  rfl

/-- its scale and shift rows are row 2 of the launch memory's tables. -/
theorem gammaAt2 (d : Fin 128) :
    (V11 (F := Ideal) m ρ c main_v214 : S1x128.Idx → EReal) (ix2 (0 : Fin 1) d) = (m ((c.tc : Thread nD τ).loc main_arg11) : (⟨S5x128, .f32⟩ : BufTy).Contents (Elt Ideal)) (ix2 (2 : Fin 5) d) :=
  (glue5_gamma (W10 (F := Ideal) m ρ c) (0 : Fin 1) d).trans (congrFun (W10_arg11 (F := Ideal) m ρ c) _)
theorem betaAt2 (d : Fin 128) :
    (V11 (F := Ideal) m ρ c main_v215 : S1x128.Idx → EReal) (ix2 (0 : Fin 1) d) = (m ((c.tc : Thread nD τ).loc main_arg12) : (⟨S5x128, .f32⟩ : BufTy).Contents (Elt Ideal)) (ix2 (2 : Fin 5) d) :=
  (glue5_beta (W10 (F := Ideal) m ρ c) (0 : Fin 1) d).trans (congrFun (W10_arg12 (F := Ideal) m ρ c) _)

end

/-- The normalisation at (r, d) from its five inputs read at (r, d) and (0, d). -/
theorem bnReluArr_at2 (X : Feat) (Mn Rs Ga Be : S1x128.Idx → EReal) (r : Fin 50000) (d : Fin 128) (x mn rs ga be : EReal)
    (hX : X (ix2 r d) = x) (hMn : Mn (ix2 (0 : Fin 1) d) = mn) (hRs : Rs (ix2 (0 : Fin 1) d) = rs)
    (hGa : Ga (ix2 (0 : Fin 1) d) = ga) (hBe : Be (ix2 (0 : Fin 1) d) = be) :
    bnReluArr X Mn Rs Ga Be (ix2 r d) = max (((x - mn) * rs) * ga + be) 0 := by
  subst hX hMn hRs hGa hBe
  rfl

/-- LAYER 2: the array region 5 leaves, entry by entry, is the normalised perceptron in the tiled arrangement, clamped below at zero, of the aggregated features region 4 finds and row 2 of the launch memory's parameter tables. -/
theorem layerK2 (m : (ℓ : Loc nD τ sig) → Buf (Elt Ideal) ℓ) (ρ : Dev nD → PrngReg) (c : Dev nD) (r : Fin 50000) (d : Fin 128) :
    (W12 (F := Ideal) m ρ c (Proc.devRef .tc main_v216) : Feat) (ix2 r d)
      = max (normT (fun r k => (W9 (F := Ideal) m ρ c (Proc.devRef .tc main_v185) : Feat) (ix2 r k))
          (fun k j => (m ((c.tc : Thread nD τ).loc main_arg7) : (⟨S5x128x256, .f32⟩ : BufTy).Contents (Elt Ideal)) (ix3 (2 : Fin 5) k j)) (fun j => (m ((c.tc : Thread nD τ).loc main_arg8) : (⟨S5x256, .f32⟩ : BufTy).Contents (Elt Ideal)) (ix2 (2 : Fin 5) j))
          (fun j d => (m ((c.tc : Thread nD τ).loc main_arg9) : (⟨S5x256x128, .f32⟩ : BufTy).Contents (Elt Ideal)) (ix3 (2 : Fin 5) j d)) (fun d => (m ((c.tc : Thread nD τ).loc main_arg10) : (⟨S5x128, .f32⟩ : BufTy).Contents (Elt Ideal)) (ix2 (2 : Fin 5) d))
          (fun d => (m ((c.tc : Thread nD τ).loc main_arg11) : (⟨S5x128, .f32⟩ : BufTy).Contents (Elt Ideal)) (ix2 (2 : Fin 5) d)) (fun d => (m ((c.tc : Thread nD τ).loc main_arg12) : (⟨S5x128, .f32⟩ : BufTy).Contents (Elt Ideal)) (ix2 (2 : Fin 5) d)) nRows epsBn r d) 0 := by
  have hout : W12 (F := Ideal) m ρ c (Proc.devRef .tc main_v216)
      = bnReluArr (V11 (F := Ideal) m ρ c main_v196_0) (V11 (F := Ideal) m ρ c main_v212) (V11 (F := Ideal) m ρ c main_v213) (V11 (F := Ideal) m ρ c main_v214) (V11 (F := Ideal) m ρ c main_v215) :=
    (W12_arr (F := Ideal) m ρ c 5).trans (final5 (V11 (F := Ideal) m ρ) c)
  refine (congrFun hout (ix2 r d)).trans ?_
  exact bnReluArr_at2 _ _ _ _ _ r d _ _ _ _ _ (xAt2 m ρ c r d) (meanAt2 m ρ c d) (rstdAt2 m ρ c d) (gammaAt2 m ρ c d) (betaAt2 m ρ c d)

end Cert.KernelIdeal.Val

end
-- ==== Proof.Val.Agg4.lean ====
/-
  Host stretch 4 (before region 4) up to the aggregate, from an arbitrary valuation of the buffers before it: the
  buffer region 4 reads its input tile from holds the layer's aggregate, as the pure function of the buffers the
  stretch reads.
-/
import proofs.«118775_j16338055594318_1_alg».proof.Proof.Gen.KernelIdeal.Launch
import proofs.«118775_j16338055594318_1_alg».proof.Proof.Val.AggOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 4 the aggregate's buffer holds layer 2's aggregate of region 3's output. -/
theorem agg4_eq (W : Valuation τ sig (Elt Ideal)) :
    (StableHlo.after hostOps4 W (Proc.devRef .tc main_v185) : (⟨S50000x128, .f32⟩ : BufTy).Contents (Elt Ideal))
      = aggArr (W (Proc.devRef .tc main_v155)) (W (Proc.devRef .tc main_v22)) (W (Proc.devRef .tc main_v25))
          (W (Proc.devRef .tc main_v29)) (W (Proc.devRef .tc main_v33))
          (tab6 2 slices_S5x6x128_S1x6x128_2_0_0 (W (Proc.devRef .tc main_arg5)))
          (tab3 2 slices_S5x3x128_S1x3x128_2_0_0 (W (Proc.devRef .tc main_arg6))) := by
  after_results_simp
  rfl

end Cert.KernelIdeal.Val

end
-- ==== Proof.Val.RefDense2.lean ====
/-
  Layer 2 of the reference program read at an entry.  The layer's 93 operations are its aggregation (the first 37,
  ending in the scatter that writes `main_v217`) followed by its dense part (the other 56: the slices of the stacked weights at
  row 2, the two-layer perceptron, the column statistics, the normalization and the rectifier), whose result `main_v264` is, at
  row r and column d, the maximum with zero of the centred normalization of the perceptron of the aggregate.  The aggregate is left as
  the buffer `main_v217` after the layer; the weights are the program's arguments, which no operation of the layer writes.
-/
import proofs.«118775_j16338055594318_1_alg».proof.Proof.Val.RefOps
import proofs.«118775_j16338055594318_1_alg».proof.Proof.Val.RefDenseCore

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The layer's aggregation: its first 37 operations, -/
abbrev refAgg2 : List (HloOp τ sig (Elt Ideal)) := List.take 37 (refLayer2 (F := Ideal))
/-- and its dense part: the others. -/
abbrev refDense2 : List (HloOp τ sig (Elt Ideal)) := List.drop 37 (refLayer2 (F := Ideal))

/-- Running the layer is running its aggregation and then its dense part. -/
theorem after_refLayer2_split (W : Valuation τ sig (Elt Ideal)) :
    after (refLayer2 (F := Ideal)) W = after refDense2 (after refAgg2 W) :=
  (congrArg (fun l => after l W) (List.take_append_drop 37 (refLayer2 (F := Ideal))).symm).trans
    (Cert.Lib.RunPieces.after_append _ _ W)

set_option maxHeartbeats 4000000 in
/-- The dense part's result from any contents: the layer's array functions of the aggregate's buffer and the weights'. -/
theorem refDense2_result (W' : Valuation τ sig (Elt Ideal)) :
    after refDense2 W' (Proc.devRef .tc main_v264)
      = reluArr (normArr (mlpArr (W' (Proc.devRef .tc main_v217))
          (sliceW1 ![2, 0, 0] slices_S5x128x256_S1x128x256_2_0_0 (W' (Proc.devRef .tc main_arg7)))
          (sliceV256 ![2, 0] slices_S5x256_S1x256_2_0 (W' (Proc.devRef .tc main_arg8)))
          (sliceW2 ![2, 0, 0] slices_S5x256x128_S1x256x128_2_0_0 (W' (Proc.devRef .tc main_arg9)))
          (sliceV128 ![2, 0] slices_S5x128_S1x128_2_0 (W' (Proc.devRef .tc main_arg10))))
        (sliceV128 ![2, 0] slices_S5x128_S1x128_2_0 (W' (Proc.devRef .tc main_arg11)))
        (sliceV128 ![2, 0] slices_S5x128_S1x128_2_0 (W' (Proc.devRef .tc main_arg12)))) := by
  simp only [refDense2, refLayer2, List.drop_succ_cons, List.drop_zero]
  after_results_simp <;> rfl

set_option maxHeartbeats 4000000 in
/-- The dense part does not write the aggregate's buffer. -/
theorem refDense2_keeps_agg (W' : Valuation τ sig (Elt Ideal)) :
    after refDense2 W' (Proc.devRef .tc main_v217) = W' (Proc.devRef .tc main_v217) := by
  simp only [refDense2, refLayer2, List.drop_succ_cons, List.drop_zero]
  after_results_simp <;> rfl

/-- The aggregation writes none of the program's arguments. -/
theorem refAgg2_keeps (W : Valuation τ sig (Elt Ideal)) (b : Ref sig .tc) (hb : b ∉ refLayer2_W) :
    after refAgg2 W (Proc.devRef .tc b) = W (Proc.devRef .tc b) :=
  after_of_writes_sub refAgg2 W
    (List.forall_iff_forall_mem.mpr fun op h => (List.forall_iff_forall_mem.mp (refLayer2_writes (F := Ideal))) op (List.mem_of_mem_take h)) hb

/-- LAYER 2 AT AN ENTRY: the result buffer at (r, d) from the layer's aggregate and the weights' row 2. -/
theorem refLayer2_apply (W : Valuation τ sig (Elt Ideal)) (r : Fin 50000) (d : Fin 128) :
    after (refLayer2 (F := Ideal)) W (Proc.devRef .tc main_v264) (ix2 r d)
      = max (Cert.Spec.normC (fun r k => after (refLayer2 (F := Ideal)) W (Proc.devRef .tc main_v217) (ix2 r k))
          (fun k j => W (Proc.devRef .tc main_arg7) (ix3 (2 : Fin 5) k j)) (fun j => W (Proc.devRef .tc main_arg8) (ix2 (2 : Fin 5) j))
          (fun j d => W (Proc.devRef .tc main_arg9) (ix3 (2 : Fin 5) j d)) (fun d => W (Proc.devRef .tc main_arg10) (ix2 (2 : Fin 5) d))
          (fun d => W (Proc.devRef .tc main_arg11) (ix2 (2 : Fin 5) d)) (fun d => W (Proc.devRef .tc main_arg12) (ix2 (2 : Fin 5) d))
          (Ideal.ofBits .f32 0x47435000#32) (Ideal.ofBits .f32 0x3727C5AC#32) r d) 0 := by
  have hA : after (refLayer2 (F := Ideal)) W (Proc.devRef .tc main_v217) = after refAgg2 W (Proc.devRef .tc main_v217) := by
    rw [after_refLayer2_split]; exact refDense2_keeps_agg _
  have key := congrFun (refDense2_result (after refAgg2 W)) (ix2 r d)
  rw [refAgg2_keeps W main_arg7 (by decide), refAgg2_keeps W main_arg8 (by decide), refAgg2_keeps W main_arg9 (by decide),
    refAgg2_keeps W main_arg10 (by decide), refAgg2_keeps W main_arg11 (by decide), refAgg2_keeps W main_arg12 (by decide),
    reluArr_apply, dense_apply] at key
  rw [hA, after_refLayer2_split]
  refine key.trans ?_
  simp only [sliceW1_apply (2 : Fin 5) ![2, 0, 0] rfl, sliceW2_apply (2 : Fin 5) ![2, 0, 0] rfl,
    sliceV256_apply (2 : Fin 5) ![2, 0] rfl, sliceV128_apply (2 : Fin 5) ![2, 0] rfl]

end Cert.ReferenceIdeal.Hand

end
-- ==== Proof.Val.PayMlp6.lean ====
/-
  The payloads of region 6's MLP-and-statistics body read at one element, at the ideal float values (extended
  reals, every operation exact, a change of float format the identity): the output tile hn at (i, d) as the
  two-layer perceptron's value; the running column sum and column sum of squares after a grid point as what
  they held plus the tile's column sum (of squares); the two resets as zero.
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The MLP's output tile at (i, d): the second layer applied to the ReLU of the first,
    hn[i,d] = (∑ j, max ((∑ k, x[i,k] * w1[k,j]) + b1[0,j]) 0 * w2[j,d]) + b2[0,d]
    (the changes of float format are the identity at the ideal values). -/
theorem hn_apply6 (x : Vec Ideal S5000x128 .f32) (w1 : Vec Ideal S128x256 .f32) (b1 : Vec Ideal S1x256 .f32)
    (w2 : Vec Ideal S256x128 .f32) (b2 : Vec Ideal S1x128 .f32) (i : Fin 5000) (d : Fin 128) :
    k6_pay4 (F := Ideal) x w1 b1 w2 b2 (ix2 i d)
      = (∑ j : Fin 256, max ((∑ k : Fin 128, x (ix2 i k) * w1 (ix2 k j)) + b1 (ix2 (0 : Fin 1) j)) 0 * w2 (ix2 j d))
          + b2 (ix2 (0 : Fin 1) d) := by
  unfold k6_pay4
  simp only [addf_apply, matmul2_apply, truncf_apply, maximumf_apply, matmul1_apply, broadcast_apply, shapeCast_self,
    broadcastTo_1b_ab_apply, scalar_zero_f32]

/-- The running column sum after a grid point, at column d: what it held plus the sum of the tile's column. -/
theorem sum_apply6 (x : Vec Ideal S5000x128 .f32) (w1 : Vec Ideal S128x256 .f32) (b1 : Vec Ideal S1x256 .f32)
    (w2 : Vec Ideal S256x128 .f32) (b2 : Vec Ideal S1x128 .f32) (acc : Vec Ideal S1x128 .f32) (u : Fin 1) (d : Fin 128) :
    k6_pay5 (F := Ideal) x w1 b1 w2 b2 acc (ix2 u d)
      = acc (ix2 u d) + ∑ i : Fin 5000, k6_pay4 (F := Ideal) x w1 b1 w2 b2 (ix2 i d) := by
  unfold k6_pay5
  simp only [shapeCast_self, addf_apply, shapeCast_a_1a_apply]
  exact congrArg (acc (ix2 u d) + ·) (colsum_apply _ _ _ _ d)

/-- The running column sum of squares after a grid point, at column d: what it held plus the sum of the squares of
    the tile's column. -/
theorem sumsq_apply6 (hn : FVec Ideal S5000x128 .f32) (acc : Vec Ideal S1x128 .f32) (u : Fin 1) (d : Fin 128) :
    k6_pay1 (F := Ideal) hn acc (ix2 u d) = acc (ix2 u d) + ∑ i : Fin 5000, hn (ix2 i d) * hn (ix2 i d) := by
  unfold k6_pay1
  simp only [shapeCast_self, addf_apply, shapeCast_a_1a_apply]
  exact congrArg (acc (ix2 u d) + ·) (colsum_apply (mulf hn hn) _ _ _ d)

/-- The reset of the running sum at the first grid point writes zero everywhere. -/
theorem reset0_apply6 (u : Fin 1) (d : Fin 128) : k6_pay2 (F := Ideal) (ix2 u d) = 0 := by
  unfold k6_pay2
  simp only [shapeCast_self, broadcast_apply, scalar_zero_f32]

/-- The reset of the running sum of squares at the first grid point writes zero everywhere. -/
theorem reset1_apply6 (u : Fin 1) (d : Fin 128) : k6_pay3 (F := Ideal) (ix2 u d) = 0 := by
  unfold k6_pay3
  simp only [shapeCast_self, broadcast_apply, scalar_zero_f32]

end Cert.KernelIdeal.Val

end
-- ==== Proof.Val.FinalMlp6.lean ====
/-
  Region 6's three output arrays after its ten grid points, as functions of the arrays the region finds on entry.
  Point t stores, over rows 5000 t … 5000 t + 4999 of the [50000,128] array `main_v257_0`, the two-layer perceptron of the
  same rows of `main_v246` (weights `main_v248`, `main_v252`, bias rows `main_v255`, `main_v256`); the ten tiles are disjoint and
  fill the array, which ends holding `mlpArr` of the five entry arrays.  Two scratch rows keep, column by column, the
  running sum of the stored values and of their squares: zero plus the first tile's column sums after the first point,
  increased by each later tile's; the last point copies them to the [1,128] arrays `main_v257_1` and `main_v257_2`, which
  end holding the sums over all ten tiles.
-/
import proofs.«118775_j16338055594318_1_alg».proof.Proof.KI.Mlp6
import proofs.«118775_j16338055594318_1_alg».proof.Proof.Val.PayMlp6
import proofs.«118775_j16338055594318_1_alg».proof.Proof.Val.MlpArr
import proofs.«118775_j16338055594318_1_alg».proof.Proof.LibColumnMoments
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## The block indices over the grid -/

/-- The tile windows 0 and 5 sit at block (t, 0) at point t; -/
theorem idx6_0 : ∀ t : Fin cfg6.N, win6_0.index t (0 : Fin 2) = t.val ∧ win6_0.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)
/-- the weight, bias and statistics windows stay at block (0, 0). -/
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = 0 ∧ win6_7.index t (1 : Fin 2) = 0 :=
  (by decide +kernel : ∀ t : Fin grid6.N, _)

/-- The last point is a point. -/
theorem h9_6 : 9 < cfg6.N := by rw [show cfg6.N = 10 from N_6]; decide

/-! ## The input blocks, read off the entry arrays -/

/-- Window 0's block at point t is rows 5000 t … 5000 t + 4999 of `main_v246` as the region finds it. -/
theorem tile6_apply (c : Dev nD) (t : Fin cfg6.N) (i : Fin 5000) (k : Fin 128) (R : Fin 50000) (hR : R.val = t.val * 5000 + i.val) :
    (iblk6 V c 0 t : Vec Ideal S5000x128 .f32) (ix2 i k) = (V c main_v246 : S50000x128.Idx → EReal) (ix2 R k) := by
  have e0 : win6_0.index t (0 : Fin 2) = t.val := (idx6_0 t).1
  have e1 : win6_0.index t (1 : Fin 2) = 0 := (idx6_0 t).2
  unfold iblk6
  rw [View.read_apply]
  show V c main_v246 _ = V c main_v246 _
  congr 1
  funext x
  apply Fin.ext
  match x with
  | ⟨0, _⟩ => show win6_0.index t (0 : Fin 2) * 5000 + 1 * i.val = R.val; rw [e0, hR]; omega
  | ⟨1, _⟩ => show win6_0.index t (1 : Fin 2) * 128 + 1 * k.val = k.val; rw [e1]; omega

/-- Window 1 stays at block (0, 0), and its one block is its whole array `main_v248` as the region finds it. -/
theorem blk6_1_apply (c : Dev nD) (t : Fin cfg6.N) (a : Fin 128) (b : Fin 256) :
    (iblk6 V c 1 t : Vec Ideal S128x256 .f32) (ix2 a b) = (V c main_v248 : S128x256.Idx → EReal) (ix2 a b) := by
  have e0 : win6_1.index t (0 : Fin 2) = 0 := (idx6_1 t).1
  have e1 : win6_1.index t (1 : Fin 2) = 0 := (idx6_1 t).2
  unfold iblk6
  rw [View.read_apply]
  show V c main_v248 _ = V c main_v248 _
  congr 1
  funext x
  apply Fin.ext
  match x with
  | ⟨0, _⟩ => show win6_1.index t (0 : Fin 2) * 128 + 1 * a.val = a.val; rw [e0]; omega
  | ⟨1, _⟩ => show win6_1.index t (1 : Fin 2) * 256 + 1 * b.val = b.val; rw [e1]; omega

/-- Window 2 stays at block (0, 0), and its one block is its whole array `main_v255` as the region finds it. -/
theorem blk6_2_apply (c : Dev nD) (t : Fin cfg6.N) (a : Fin 1) (b : Fin 256) :
    (iblk6 V c 2 t : Vec Ideal S1x256 .f32) (ix2 a b) = (V c main_v255 : S1x256.Idx → EReal) (ix2 a b) := by
  have e0 : win6_2.index t (0 : Fin 2) = 0 := (idx6_2 t).1
  have e1 : win6_2.index t (1 : Fin 2) = 0 := (idx6_2 t).2
  unfold iblk6
  rw [View.read_apply]
  show V c main_v255 _ = V c main_v255 _
  congr 1
  funext x
  apply Fin.ext
  match x with
  | ⟨0, _⟩ => show win6_2.index t (0 : Fin 2) * 1 + 1 * a.val = a.val; rw [e0]; omega
  | ⟨1, _⟩ => show win6_2.index t (1 : Fin 2) * 256 + 1 * b.val = b.val; rw [e1]; omega

/-- Window 3 stays at block (0, 0), and its one block is its whole array `main_v252` as the region finds it. -/
theorem blk6_3_apply (c : Dev nD) (t : Fin cfg6.N) (a : Fin 256) (b : Fin 128) :
    (iblk6 V c 3 t : Vec Ideal S256x128 .f32) (ix2 a b) = (V c main_v252 : S256x128.Idx → EReal) (ix2 a b) := by
  have e0 : win6_3.index t (0 : Fin 2) = 0 := (idx6_3 t).1
  have e1 : win6_3.index t (1 : Fin 2) = 0 := (idx6_3 t).2
  unfold iblk6
  rw [View.read_apply]
  show V c main_v252 _ = V c main_v252 _
  congr 1
  funext x
  apply Fin.ext
  match x with
  | ⟨0, _⟩ => show win6_3.index t (0 : Fin 2) * 256 + 1 * a.val = a.val; rw [e0]; omega
  | ⟨1, _⟩ => show win6_3.index t (1 : Fin 2) * 128 + 1 * b.val = b.val; rw [e1]; omega

/-- Window 4 stays at block (0, 0), and its one block is its whole array `main_v256` as the region finds it. -/
theorem blk6_4_apply (c : Dev nD) (t : Fin cfg6.N) (a : Fin 1) (b : Fin 128) :
    (iblk6 V c 4 t : Vec Ideal S1x128 .f32) (ix2 a b) = (V c main_v256 : S1x128.Idx → EReal) (ix2 a b) := by
  have e0 : win6_4.index t (0 : Fin 2) = 0 := (idx6_4 t).1
  have e1 : win6_4.index t (1 : Fin 2) = 0 := (idx6_4 t).2
  unfold iblk6
  rw [View.read_apply]
  show V c main_v256 _ = V c main_v256 _
  congr 1
  funext x
  apply Fin.ext
  match x with
  | ⟨0, _⟩ => show win6_4.index t (0 : Fin 2) * 1 + 1 * a.val = a.val; rw [e0]; omega
  | ⟨1, _⟩ => show win6_4.index t (1 : Fin 2) * 128 + 1 * b.val = b.val; rw [e1]; omega

/-! ## What a point stores into window 5 -/

/-- The stored value at (i, d), when the tile block's row i is row R of an array `A` and the other four blocks are
    the arrays `W1`, `B1`, `W2`, `B2`, is entry (R, d) of the perceptron's output array. -/
theorem mlp_block6 (A : S50000x128.Idx → EReal) (W1 : S128x256.Idx → EReal) (B1 : S1x256.Idx → EReal)
    (W2 : S256x128.Idx → EReal) (B2 : S1x128.Idx → EReal)
    (x0 : Vec Ideal S5000x128 .f32) (x1 : Vec Ideal S128x256 .f32) (x2 : Vec Ideal S1x256 .f32)
    (x3 : Vec Ideal S256x128 .f32) (x4 : Vec Ideal S1x128 .f32) (i : Fin 5000) (d : Fin 128) (R : Fin 50000)
    (h0 : ∀ k : Fin 128, x0 (ix2 i k) = A (ix2 R k)) (h1 : ∀ (k : Fin 128) (j : Fin 256), x1 (ix2 k j) = W1 (ix2 k j))
    (h2 : ∀ j : Fin 256, x2 (ix2 (0 : Fin 1) j) = B1 (ix2 (0 : Fin 1) j))
    (h3 : ∀ (j : Fin 256) (d' : Fin 128), x3 (ix2 j d') = W2 (ix2 j d'))
    (h4 : ∀ d' : Fin 128, x4 (ix2 (0 : Fin 1) d') = B2 (ix2 (0 : Fin 1) d')) :
    k6_pay4 (F := Ideal) x0 x1 x2 x3 x4 (ix2 i d) = mlpArr A W1 B1 W2 B2 (ix2 R d) := by
  rw [hn_apply6]
  simp only [h0, h1, h2, h3, h4]
  rfl

/-- Entry (i, d) of what point t stores into window 5 is entry (5000 t + i, d) of the perceptron's output array. -/
theorem hn6_apply (c : Dev nD) (t : Fin cfg6.N) (i : Fin 5000) (d : Fin 128) (R : Fin 50000) (hR : R.val = t.val * 5000 + i.val) :
    hn6 (F := Ideal) V c t (ix2 i d) = mlpArr (V c main_v246) (V c main_v248) (V c main_v255) (V c main_v252) (V c main_v256) (ix2 R d) := by
  unfold hn6
  exact mlp_block6 (V c main_v246) (V c main_v248) (V c main_v255) (V c main_v252) (V c main_v256)
    (iblk6 V c 0 t) (iblk6 V c 1 t) (iblk6 V c 2 t) (iblk6 V c 3 t) (iblk6 V c 4 t) i d R
    (fun k => tile6_apply V c t i k R hR) (fun k j => blk6_1_apply V c t k j) (fun j => blk6_2_apply V c t (0 : Fin 1) j)
    (fun j d' => blk6_3_apply V c t j d') (fun d' => blk6_4_apply V c t (0 : Fin 1) d')

/-! ## Window 5: the ten tiles fill the output array -/

/-- Entry (i, d) of window 5's block at point t is entry (5000 t + i, d) of the output array. -/
theorem outIdx6 (t : Fin cfg6.N) (i : Fin 5000) (d : Fin 128) (R : Fin 50000) (hR : R.val = t.val * 5000 + i.val) :
    ((cfg6.win 5).blk t).view.emb (ix2 i d) = (ix2 R d : S50000x128.Idx) := by
  have e0 : win6_5.index t (0 : Fin 2) = t.val := (idx6_5 t).1
  have e1 : win6_5.index t (1 : Fin 2) = 0 := (idx6_5 t).2
  funext x
  apply Fin.ext
  match x with
  | ⟨0, _⟩ => show win6_5.index t (0 : Fin 2) * 5000 + 1 * i.val = R.val; rw [e0, hR]; omega
  | ⟨1, _⟩ => show win6_5.index t (1 : Fin 2) * 128 + 1 * d.val = d.val; rw [e1]; omega

/-- What point t writes back to the output array is block t of the perceptron's output array. -/
theorem flushed6_5_eq (c : Dev nD) (t : Fin cfg6.N) :
    (dat6 (F := Ideal) V c).flushed 5 t
      = ((cfg6.win 5).blk t).view.read (Elt Ideal) (mlpArr (V c main_v246) (V c main_v248) (V c main_v255) (V c main_v252) (V c main_v256)) := by
  show (cfg6.win 5).cut (grid6.coords t) ((dat6 (F := Ideal) V c).after 5 t) = _
  rw [after6_5]
  funext j
  obtain ⟨i, d, rfl⟩ : ∃ (i : Fin 5000) (d : Fin 128), j = ix2 i d := ⟨j 0, j 1, eq_ix2 j⟩
  have ht : t.val < 10 := Nat.lt_of_lt_of_eq t.isLt (show cfg6.N = 10 from N_6)
  have hR : t.val * 5000 + i.val < 50000 := by have := i.isLt; omega
  rw [View.read_apply, outIdx6 t i d ⟨t.val * 5000 + i.val, hR⟩ rfl]
  show hn6 (F := Ideal) V c t (ix2 i d) = _
  exact hn6_apply V c t i d ⟨t.val * 5000 + i.val, hR⟩ rfl

/-- An index of the output array is in point t's block iff each coordinate is in the block's range on its axis. -/
theorem mem_tile6 (t : Fin cfg6.N) (idx : S50000x128.Idx) :
    idx ∈ ((cfg6.win 5).blk t).view.set ↔ ∀ a : Fin 2, win6_5.index t a * S5000x128.size a ≤ (idx a).val
      ∧ (idx a).val < win6_5.index t a * S5000x128.size a + S5000x128.size a := by
  show idx ∈ ((View.whole main_v257_0).slice (win6_5.rect t)).set ↔ _
  rw [View.set_slice_whole, Rect.mem_set_unit]
  exact Iff.rfl

/-- Every index of the output array is in the block of the point its row falls in: row r is written at point r / 5000. -/
theorem tiles_cover6 (idx : S50000x128.Idx) :
    ∃ t : Fin cfg6.N, (cfg6.win 5).flush t = true ∧ idx ∈ ((cfg6.win 5).blk t).view.set := by
  have h0 : (idx 0).val < 50000 := (idx 0).isLt
  have h1 : (idx 1).val < 128 := (idx 1).isLt
  have hN : (idx 0).val / 5000 < cfg6.N := by rw [show cfg6.N = 10 from N_6]; omega
  have e0 : win6_5.index ⟨(idx 0).val / 5000, hN⟩ (0 : Fin 2) = (idx 0).val / 5000 := (idx6_5 ⟨(idx 0).val / 5000, hN⟩).1
  have e1 : win6_5.index ⟨(idx 0).val / 5000, hN⟩ (1 : Fin 2) = 0 := (idx6_5 ⟨(idx 0).val / 5000, hN⟩).2
  refine ⟨⟨(idx 0).val / 5000, hN⟩, flush6_5 _, ?_⟩
  rw [mem_tile6]
  intro a
  match a with
  | ⟨0, _⟩ =>
    show win6_5.index ⟨(idx 0).val / 5000, hN⟩ (0 : Fin 2) * 5000 ≤ (idx 0).val
      ∧ (idx 0).val < win6_5.index ⟨(idx 0).val / 5000, hN⟩ (0 : Fin 2) * 5000 + 5000
    rw [e0]; omega
  | ⟨1, _⟩ =>
    show win6_5.index ⟨(idx 0).val / 5000, hN⟩ (1 : Fin 2) * 128 ≤ (idx 1).val
      ∧ (idx 1).val < win6_5.index ⟨(idx 0).val / 5000, hN⟩ (1 : Fin 2) * 128 + 128
    rw [e1]; omega

/-- THE OUTPUT ARRAY after the region's ten points: the perceptron's output array of the five entry arrays. -/
theorem final6_hn (c : Dev nD) :
    (dat6 (F := Ideal) V c).arrAt 5 cfg6.N = mlpArr (V c main_v246) (V c main_v248) (V c main_v255) (V c main_v252) (V c main_v256) :=
  (dat6 (F := Ideal) V c).arrAt_eq_of_cover 5 (mlpArr (V c main_v246) (V c main_v248) (V c main_v255) (V c main_v252) (V c main_v256))
    (fun t _ => flushed6_5_eq V c t) (tiles_cover6)

/-! ## Window 6: the column sums, written back at the last point only -/

/-- Window 6's one block is the whole [1,128] array. -/
theorem rowIdx6_6 (t : Fin cfg6.N) (u : Fin 1) (d : Fin 128) :
    ((cfg6.win 6).blk t).view.emb (ix2 u d) = (ix2 u d : S1x128.Idx) := by
  have e0 : win6_6.index t (0 : Fin 2) = 0 := (idx6_6 t).1
  have e1 : win6_6.index t (1 : Fin 2) = 0 := (idx6_6 t).2
  funext x
  apply Fin.ext
  match x with
  | ⟨0, _⟩ => show win6_6.index t (0 : Fin 2) * 1 + 1 * u.val = u.val; rw [e0]; omega
  | ⟨1, _⟩ => show win6_6.index t (1 : Fin 2) * 128 + 1 * d.val = d.val; rw [e1]; omega

/-- The only point that writes window 6 back is the last, and it writes what the scratch row then holds. -/
theorem flushed6_6_eq (c : Dev nD) (t : Fin cfg6.N) (hf : (cfg6.win 6).flush t = true) :
    (dat6 (F := Ideal) V c).flushed 6 t
      = ((cfg6.win 6).blk t).view.read (Elt Ideal) ((acc6 (F := Ideal) V c 9 h9_6).1 : S1x128.Idx → EReal) := by
  have hN : t.val < 10 := Nat.lt_of_lt_of_eq t.isLt (show cfg6.N = 10 from N_6)
  have ht9 : t.val = 9 := by have := (flush6_6 t).mp hf; omega
  obtain rfl : t = ⟨9, h9_6⟩ := Fin.ext ht9
  show (cfg6.win 6).cut (grid6.coords ⟨9, h9_6⟩) ((dat6 (F := Ideal) V c).after 6 ⟨9, h9_6⟩) = _
  rw [after6_6]
  funext j
  obtain ⟨u, d, rfl⟩ : ∃ (u : Fin 1) (d : Fin 128), j = ix2 u d := ⟨j 0, j 1, eq_ix2 j⟩
  rw [View.read_apply, rowIdx6_6 ⟨9, h9_6⟩ u d]
  rfl

theorem mem_row6_6 (t : Fin cfg6.N) (idx : S1x128.Idx) :
    idx ∈ ((cfg6.win 6).blk t).view.set ↔ ∀ a : Fin 2, win6_6.index t a * S1x128.size a ≤ (idx a).val
      ∧ (idx a).val < win6_6.index t a * S1x128.size a + S1x128.size a := by
  show idx ∈ ((View.whole main_v257_1).slice (win6_6.rect t)).set ↔ _
  rw [View.set_slice_whole, Rect.mem_set_unit]
  exact Iff.rfl

/-- The last point's block covers the whole [1,128] array. -/
theorem row_cover6_6 (idx : S1x128.Idx) :
    ∃ t : Fin cfg6.N, (cfg6.win 6).flush t = true ∧ idx ∈ ((cfg6.win 6).blk t).view.set := by
  have h0 : (idx 0).val < 1 := (idx 0).isLt
  have h1 : (idx 1).val < 128 := (idx 1).isLt
  have e0 : win6_6.index ⟨9, h9_6⟩ (0 : Fin 2) = 0 := (idx6_6 ⟨9, h9_6⟩).1
  have e1 : win6_6.index ⟨9, h9_6⟩ (1 : Fin 2) = 0 := (idx6_6 ⟨9, h9_6⟩).2
  refine ⟨⟨9, h9_6⟩, (flush6_6 _).mpr rfl, ?_⟩
  rw [mem_row6_6]
  intro a
  match a with
  | ⟨0, _⟩ =>
    show win6_6.index ⟨9, h9_6⟩ (0 : Fin 2) * 1 ≤ (idx 0).val ∧ (idx 0).val < win6_6.index ⟨9, h9_6⟩ (0 : Fin 2) * 1 + 1
    rw [e0]; omega
  | ⟨1, _⟩ =>
    show win6_6.index ⟨9, h9_6⟩ (1 : Fin 2) * 128 ≤ (idx 1).val ∧ (idx 1).val < win6_6.index ⟨9, h9_6⟩ (1 : Fin 2) * 128 + 128
    rw [e1]; omega

/-- Window 6's array after the ten points is what the scratch row holds after the last. -/
theorem arr6_6 (c : Dev nD) :
    (dat6 (F := Ideal) V c).arrAt 6 cfg6.N = ((acc6 (F := Ideal) V c 9 h9_6).1 : S1x128.Idx → EReal) :=
  (dat6 (F := Ideal) V c).arrAt_eq_of_cover 6 ((acc6 (F := Ideal) V c 9 h9_6).1 : S1x128.Idx → EReal)
    (fun t hf => flushed6_6_eq V c t hf) row_cover6_6

/-! ## Window 7: the column sums of squares, written back at the last point only -/

/-- Window 7's one block is the whole [1,128] array. -/
theorem rowIdx6_7 (t : Fin cfg6.N) (u : Fin 1) (d : Fin 128) :
    ((cfg6.win 7).blk t).view.emb (ix2 u d) = (ix2 u d : S1x128.Idx) := by
  have e0 : win6_7.index t (0 : Fin 2) = 0 := (idx6_7 t).1
  have e1 : win6_7.index t (1 : Fin 2) = 0 := (idx6_7 t).2
  funext x
  apply Fin.ext
  match x with
  | ⟨0, _⟩ => show win6_7.index t (0 : Fin 2) * 1 + 1 * u.val = u.val; rw [e0]; omega
  | ⟨1, _⟩ => show win6_7.index t (1 : Fin 2) * 128 + 1 * d.val = d.val; rw [e1]; omega

/-- The only point that writes window 7 back is the last, and it writes what the scratch row then holds. -/
theorem flushed6_7_eq (c : Dev nD) (t : Fin cfg6.N) (hf : (cfg6.win 7).flush t = true) :
    (dat6 (F := Ideal) V c).flushed 7 t
      = ((cfg6.win 7).blk t).view.read (Elt Ideal) ((acc6 (F := Ideal) V c 9 h9_6).2 : S1x128.Idx → EReal) := by
  have hN : t.val < 10 := Nat.lt_of_lt_of_eq t.isLt (show cfg6.N = 10 from N_6)
  have ht9 : t.val = 9 := by have := (flush6_7 t).mp hf; omega
  obtain rfl : t = ⟨9, h9_6⟩ := Fin.ext ht9
  show (cfg6.win 7).cut (grid6.coords ⟨9, h9_6⟩) ((dat6 (F := Ideal) V c).after 7 ⟨9, h9_6⟩) = _
  rw [after6_7]
  funext j
  obtain ⟨u, d, rfl⟩ : ∃ (u : Fin 1) (d : Fin 128), j = ix2 u d := ⟨j 0, j 1, eq_ix2 j⟩
  rw [View.read_apply, rowIdx6_7 ⟨9, h9_6⟩ u d]
  rfl

theorem mem_row6_7 (t : Fin cfg6.N) (idx : S1x128.Idx) :
    idx ∈ ((cfg6.win 7).blk t).view.set ↔ ∀ a : Fin 2, win6_7.index t a * S1x128.size a ≤ (idx a).val
      ∧ (idx a).val < win6_7.index t a * S1x128.size a + S1x128.size a := by
  show idx ∈ ((View.whole main_v257_2).slice (win6_7.rect t)).set ↔ _
  rw [View.set_slice_whole, Rect.mem_set_unit]
  exact Iff.rfl

/-- The last point's block covers the whole [1,128] array. -/
theorem row_cover6_7 (idx : S1x128.Idx) :
    ∃ t : Fin cfg6.N, (cfg6.win 7).flush t = true ∧ idx ∈ ((cfg6.win 7).blk t).view.set := by
  have h0 : (idx 0).val < 1 := (idx 0).isLt
  have h1 : (idx 1).val < 128 := (idx 1).isLt
  have e0 : win6_7.index ⟨9, h9_6⟩ (0 : Fin 2) = 0 := (idx6_7 ⟨9, h9_6⟩).1
  have e1 : win6_7.index ⟨9, h9_6⟩ (1 : Fin 2) = 0 := (idx6_7 ⟨9, h9_6⟩).2
  refine ⟨⟨9, h9_6⟩, (flush6_7 _).mpr rfl, ?_⟩
  rw [mem_row6_7]
  intro a
  match a with
  | ⟨0, _⟩ =>
    show win6_7.index ⟨9, h9_6⟩ (0 : Fin 2) * 1 ≤ (idx 0).val ∧ (idx 0).val < win6_7.index ⟨9, h9_6⟩ (0 : Fin 2) * 1 + 1
    rw [e0]; omega
  | ⟨1, _⟩ =>
    show win6_7.index ⟨9, h9_6⟩ (1 : Fin 2) * 128 ≤ (idx 1).val ∧ (idx 1).val < win6_7.index ⟨9, h9_6⟩ (1 : Fin 2) * 128 + 128
    rw [e1]; omega

/-- Window 7's array after the ten points is what the scratch row holds after the last. -/
theorem arr6_7 (c : Dev nD) :
    (dat6 (F := Ideal) V c).arrAt 7 cfg6.N = ((acc6 (F := Ideal) V c 9 h9_6).2 : S1x128.Idx → EReal) :=
  (dat6 (F := Ideal) V c).arrAt_eq_of_cover 7 ((acc6 (F := Ideal) V c 9 h9_6).2 : S1x128.Idx → EReal)
    (fun t hf => flushed6_7_eq V c t hf) row_cover6_7

/-! ## The scratch rows are running totals over the tiles -/

/-- One point's step of the running column sum, at column d: what the row held plus the column sum of the point's tile
    of the perceptron's output array (`T` the point, as a tile number). -/
theorem acc6_step_sum (c : Dev nD) (t : Fin cfg6.N) (T : Fin 10) (hT : T.val = t.val) (acc : Vec Ideal S1x128 .f32)
    (u : Fin 1) (d : Fin 128) :
    k6_pay5 (F := Ideal) (iblk6 V c 0 t) (iblk6 V c 1 t) (iblk6 V c 2 t) (iblk6 V c 3 t) (iblk6 V c 4 t) acc (ix2 u d)
      = acc (ix2 u d) + ∑ i : Fin 5000, mlpArr (V c main_v246) (V c main_v248) (V c main_v255) (V c main_v252) (V c main_v256) (ix2 (Cert.Moments.tileRow T i) d) :=
  (sum_apply6 (iblk6 V c 0 t) (iblk6 V c 1 t) (iblk6 V c 2 t) (iblk6 V c 3 t) (iblk6 V c 4 t) acc u d).trans
    (congrArg (acc (ix2 u d) + ·) (Finset.sum_congr rfl fun i _ =>
      hn6_apply V c t i d (Cert.Moments.tileRow T i) (by rw [Cert.Moments.tileRow_val, hT]; omega)))

/-- The same for the running column sum of squares. -/
theorem acc6_step_sumsq (c : Dev nD) (t : Fin cfg6.N) (T : Fin 10) (hT : T.val = t.val) (acc : Vec Ideal S1x128 .f32)
    (u : Fin 1) (d : Fin 128) :
    k6_pay1 (F := Ideal) (hn6 (F := Ideal) V c t) acc (ix2 u d)
      = acc (ix2 u d) + ∑ i : Fin 5000, mlpArr (V c main_v246) (V c main_v248) (V c main_v255) (V c main_v252) (V c main_v256) (ix2 (Cert.Moments.tileRow T i) d)
          * mlpArr (V c main_v246) (V c main_v248) (V c main_v255) (V c main_v252) (V c main_v256) (ix2 (Cert.Moments.tileRow T i) d) :=
  (sumsq_apply6 (hn6 (F := Ideal) V c t) acc u d).trans
    (congrArg (acc (ix2 u d) + ·) (Finset.sum_congr rfl fun i _ => by
      rw [hn6_apply V c t i d (Cert.Moments.tileRow T i) (by rw [Cert.Moments.tileRow_val, hT]; omega)]))

/-- A point number below ten is a grid point. -/
theorem pt_lt6 (T : Fin (9 + 1)) : T.val < cfg6.N := Nat.lt_of_lt_of_eq T.isLt (show (9 + 1 : ℕ) = cfg6.N from N_6.symm)

/-- THE COLUMN SUMS after the region's ten points: column d of `main_v257_1` holds the sum, over the ten tiles and the
    5000 rows of each, of column d of the perceptron's output array. -/
theorem final6_sum (c : Dev nD) (u : Fin 1) (d : Fin 128) :
    (dat6 (F := Ideal) V c).arrAt 6 cfg6.N (ix2 u d)
      = ∑ t : Fin 10, ∑ i : Fin 5000, mlpArr (V c main_v246) (V c main_v248) (V c main_v255) (V c main_v252) (V c main_v256) (ix2 (Cert.Moments.tileRow t i) d) := by
  rw [arr6_6 V c]
  exact Cert.ColumnMoments.running_total_last (g := 9)
    (fun T : Fin (9 + 1) => ∑ i : Fin 5000, mlpArr (V c main_v246) (V c main_v248) (V c main_v255) (V c main_v252) (V c main_v256) (ix2 (Cert.Moments.tileRow (g := 10) (b := 5000) T i) d))
    (fun T : Fin (9 + 1) => ((acc6 (F := Ideal) V c T.val (pt_lt6 T)).1 : S1x128.Idx → EReal) (ix2 u d))
    ((acc6_step_sum V c ⟨0, pt_lt6 0⟩ 0 rfl (k6_pay2 (F := Ideal)) u d).trans (by rw [reset0_apply6]))
    (fun T => acc6_step_sum V c ⟨T.val + 1, pt_lt6 T.succ⟩ T.succ rfl (acc6 (F := Ideal) V c T.val (pt_lt6 T.castSucc)).1 u d)

/-- THE COLUMN SUMS OF SQUARES after the region's ten points, the same way in `main_v257_2`. -/
theorem final6_sumsq (c : Dev nD) (u : Fin 1) (d : Fin 128) :
    (dat6 (F := Ideal) V c).arrAt 7 cfg6.N (ix2 u d)
      = ∑ t : Fin 10, ∑ i : Fin 5000, mlpArr (V c main_v246) (V c main_v248) (V c main_v255) (V c main_v252) (V c main_v256) (ix2 (Cert.Moments.tileRow t i) d)
          * mlpArr (V c main_v246) (V c main_v248) (V c main_v255) (V c main_v252) (V c main_v256) (ix2 (Cert.Moments.tileRow t i) d) := by
  rw [arr6_7 V c]
  exact Cert.ColumnMoments.running_total_last (g := 9)
    (fun T : Fin (9 + 1) => ∑ i : Fin 5000, mlpArr (V c main_v246) (V c main_v248) (V c main_v255) (V c main_v252) (V c main_v256) (ix2 (Cert.Moments.tileRow (g := 10) (b := 5000) T i) d)
      * mlpArr (V c main_v246) (V c main_v248) (V c main_v255) (V c main_v252) (V c main_v256) (ix2 (Cert.Moments.tileRow (g := 10) (b := 5000) T i) d))
    (fun T : Fin (9 + 1) => ((acc6 (F := Ideal) V c T.val (pt_lt6 T)).2 : S1x128.Idx → EReal) (ix2 u d))
    ((acc6_step_sumsq V c ⟨0, pt_lt6 0⟩ 0 rfl (k6_pay3 (F := Ideal)) u d).trans (by rw [reset1_apply6]))
    (fun T => acc6_step_sumsq V c ⟨T.val + 1, pt_lt6 T.succ⟩ T.succ rfl (acc6 (F := Ideal) V c T.val (pt_lt6 T.castSucc)).2 u d)

end Cert.KernelIdeal.Val

end
-- ==== Proof.Val.PayBn7.lean ====
/-
  The payload of region 7's batch-norm-apply-and-ReLU body read at one element, at the ideal float values
  (extended reals, every operation exact): at row i and column d it is
  max (((hn[i,d] - mean[0,d]) * rstd[0,d]) * gamma[0,d] + beta[0,d]) 0.
  Each of the four [1,128] rows is broadcast over the 5000 rows of the tile, so it is read at (0, d).
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- Region 7's stored value at (i, d): normalize, scale, shift, then clamp below at zero. -/
theorem bn_relu_apply7 (hn : Vec Ideal S5000x128 .f32) (mean rstd gamma beta : Vec Ideal S1x128 .f32)
    (i : Fin 5000) (d : Fin 128) :
    k7_pay1 (F := Ideal) hn mean rstd gamma beta (ix2 i d)
      = max (((hn (ix2 i d) - mean (ix2 (0 : Fin 1) d)) * rstd (ix2 (0 : Fin 1) d)) * gamma (ix2 (0 : Fin 1) d)
          + beta (ix2 (0 : Fin 1) d)) 0 := by
  unfold k7_pay1
  simp only [maximumf_apply, addf_apply, mulf_apply, subf_apply, broadcast_apply, shapeCast_self,
    broadcastTo_1b_ab_apply, scalar_zero_f32]

end Cert.KernelIdeal.Val

end
-- ==== Proof.Val.Final7.lean ====
/-
  Region 7's output array after its ten grid points, as ONE function of the arrays the region finds on entry.
  Point t stores, over rows 5000 t … 5000 t + 4999 of the [50000,128] output array `main_v277`, the normalisation of the
  same rows of `main_v257_0` by the four [1,128] rows `main_v273`, `main_v274`, `main_v275`, `main_v276`, clamped below at zero.  The ten
  tiles are disjoint and fill the array, so the array ends holding `bnReluArr` of the five entry arrays.
-/
import proofs.«118775_j16338055594318_1_alg».proof.Proof.KI.Bn7
import proofs.«118775_j16338055594318_1_alg».proof.Proof.Val.PayBn7
import proofs.«118775_j16338055594318_1_alg».proof.Proof.Val.BnArr
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The block indices over the grid: the tile windows 0 and 5 sit at block (t, 0) at point t, the four row windows
    stay at block (0, 0). -/
theorem blockIdx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Window 0's block at point t is rows 5000 t … 5000 t + 4999 of `main_v257_0` as the region finds it. -/
theorem tile7_apply (c : Dev nD) (t : Fin cfg7.N) (i : Fin 5000) (d : Fin 128) (R : Fin 50000) (hR : R.val = t.val * 5000 + i.val) :
    (iblk7 V c 0 t : Vec Ideal S5000x128 .f32) (ix2 i d) = (V c main_v257_0 : S50000x128.Idx → EReal) (ix2 R d) := by
  have e0 : win7_0.index t (0 : Fin 2) = t.val := (blockIdx7 t).1
  have e1 : win7_0.index t (1 : Fin 2) = 0 := (blockIdx7 t).2.1
  unfold iblk7
  rw [View.read_apply]
  show V c main_v257_0 _ = V c main_v257_0 _
  congr 1
  funext x
  apply Fin.ext
  match x with
  | ⟨0, _⟩ => show win7_0.index t (0 : Fin 2) * 5000 + 1 * i.val = R.val; rw [e0, hR]; omega
  | ⟨1, _⟩ => show win7_0.index t (1 : Fin 2) * 128 + 1 * d.val = d.val; rw [e1]; omega

/-- Window 1's block at any point is the whole [1,128] row array `main_v273` as the region finds it. -/
theorem row7_1_apply (c : Dev nD) (t : Fin cfg7.N) (d : Fin 128) :
    (iblk7 V c 1 t : Vec Ideal S1x128 .f32) (ix2 (0 : Fin 1) d) = (V c main_v273 : S1x128.Idx → EReal) (ix2 (0 : Fin 1) d) := by
  have e0 : win7_1.index t (0 : Fin 2) = 0 := (blockIdx7 t).2.2.1
  have e1 : win7_1.index t (1 : Fin 2) = 0 := (blockIdx7 t).2.2.2.1
  unfold iblk7
  rw [View.read_apply]
  show V c main_v273 _ = V c main_v273 _
  congr 1
  funext x
  apply Fin.ext
  match x with
  | ⟨0, _⟩ => show win7_1.index t (0 : Fin 2) * 1 + 1 * (0 : Fin 1).val = (0 : Fin 1).val; rw [e0]; rfl
  | ⟨1, _⟩ => show win7_1.index t (1 : Fin 2) * 128 + 1 * d.val = d.val; rw [e1]; omega

/-- Window 2's block at any point is the whole [1,128] row array `main_v274` as the region finds it. -/
theorem row7_2_apply (c : Dev nD) (t : Fin cfg7.N) (d : Fin 128) :
    (iblk7 V c 2 t : Vec Ideal S1x128 .f32) (ix2 (0 : Fin 1) d) = (V c main_v274 : S1x128.Idx → EReal) (ix2 (0 : Fin 1) d) := by
  have e0 : win7_2.index t (0 : Fin 2) = 0 := (blockIdx7 t).2.2.2.2.1
  have e1 : win7_2.index t (1 : Fin 2) = 0 := (blockIdx7 t).2.2.2.2.2.1
  unfold iblk7
  rw [View.read_apply]
  show V c main_v274 _ = V c main_v274 _
  congr 1
  funext x
  apply Fin.ext
  match x with
  | ⟨0, _⟩ => show win7_2.index t (0 : Fin 2) * 1 + 1 * (0 : Fin 1).val = (0 : Fin 1).val; rw [e0]; rfl
  | ⟨1, _⟩ => show win7_2.index t (1 : Fin 2) * 128 + 1 * d.val = d.val; rw [e1]; omega

/-- Window 3's block at any point is the whole [1,128] row array `main_v275` as the region finds it. -/
theorem row7_3_apply (c : Dev nD) (t : Fin cfg7.N) (d : Fin 128) :
    (iblk7 V c 3 t : Vec Ideal S1x128 .f32) (ix2 (0 : Fin 1) d) = (V c main_v275 : S1x128.Idx → EReal) (ix2 (0 : Fin 1) d) := by
  have e0 : win7_3.index t (0 : Fin 2) = 0 := (blockIdx7 t).2.2.2.2.2.2.1
  have e1 : win7_3.index t (1 : Fin 2) = 0 := (blockIdx7 t).2.2.2.2.2.2.2.1
  unfold iblk7
  rw [View.read_apply]
  show V c main_v275 _ = V c main_v275 _
  congr 1
  funext x
  apply Fin.ext
  match x with
  | ⟨0, _⟩ => show win7_3.index t (0 : Fin 2) * 1 + 1 * (0 : Fin 1).val = (0 : Fin 1).val; rw [e0]; rfl
  | ⟨1, _⟩ => show win7_3.index t (1 : Fin 2) * 128 + 1 * d.val = d.val; rw [e1]; omega

/-- Window 4's block at any point is the whole [1,128] row array `main_v276` as the region finds it. -/
theorem row7_4_apply (c : Dev nD) (t : Fin cfg7.N) (d : Fin 128) :
    (iblk7 V c 4 t : Vec Ideal S1x128 .f32) (ix2 (0 : Fin 1) d) = (V c main_v276 : S1x128.Idx → EReal) (ix2 (0 : Fin 1) d) := by
  have e0 : win7_4.index t (0 : Fin 2) = 0 := (blockIdx7 t).2.2.2.2.2.2.2.2.1
  have e1 : win7_4.index t (1 : Fin 2) = 0 := (blockIdx7 t).2.2.2.2.2.2.2.2.2.1
  unfold iblk7
  rw [View.read_apply]
  show V c main_v276 _ = V c main_v276 _
  congr 1
  funext x
  apply Fin.ext
  match x with
  | ⟨0, _⟩ => show win7_4.index t (0 : Fin 2) * 1 + 1 * (0 : Fin 1).val = (0 : Fin 1).val; rw [e0]; rfl
  | ⟨1, _⟩ => show win7_4.index t (1 : Fin 2) * 128 + 1 * d.val = d.val; rw [e1]; omega

/-- The body's stored value at (i, d), when its tile block reads entry (R, d) of an array `A` and its four row
    blocks read the rows `mean`, `rstd`, `gamma`, `beta` at (0, d), is entry (R, d) of the normalised array. -/
theorem pay7_block (A : S50000x128.Idx → EReal) (mean rstd gamma beta : S1x128.Idx → EReal)
    (x0 : Vec Ideal S5000x128 .f32) (x1 x2 x3 x4 : Vec Ideal S1x128 .f32) (i : Fin 5000) (d : Fin 128) (R : Fin 50000)
    (h0 : x0 (ix2 i d) = A (ix2 R d)) (h1 : x1 (ix2 (0 : Fin 1) d) = mean (ix2 (0 : Fin 1) d))
    (h2 : x2 (ix2 (0 : Fin 1) d) = rstd (ix2 (0 : Fin 1) d)) (h3 : x3 (ix2 (0 : Fin 1) d) = gamma (ix2 (0 : Fin 1) d))
    (h4 : x4 (ix2 (0 : Fin 1) d) = beta (ix2 (0 : Fin 1) d)) :
    k7_pay1 (F := Ideal) x0 x1 x2 x3 x4 (ix2 i d) = bnReluArr A mean rstd gamma beta (ix2 R d) := by
  rw [bn_relu_apply7, h0, h1, h2, h3, h4]
  rfl

/-- Entry (i, d) of window 5's block at point t is entry (5000 t + i, d) of the output array. -/
theorem outIdx7 (t : Fin cfg7.N) (i : Fin 5000) (d : Fin 128) (R : Fin 50000) (hR : R.val = t.val * 5000 + i.val) :
    ((cfg7.win 5).blk t).view.emb (ix2 i d) = (ix2 R d : S50000x128.Idx) := by
  have e0 : win7_5.index t (0 : Fin 2) = t.val := (blockIdx7 t).2.2.2.2.2.2.2.2.2.2.1
  have e1 : win7_5.index t (1 : Fin 2) = 0 := (blockIdx7 t).2.2.2.2.2.2.2.2.2.2.2
  funext x
  apply Fin.ext
  match x with
  | ⟨0, _⟩ => show win7_5.index t (0 : Fin 2) * 5000 + 1 * i.val = R.val; rw [e0, hR]; omega
  | ⟨1, _⟩ => show win7_5.index t (1 : Fin 2) * 128 + 1 * d.val = d.val; rw [e1]; omega

/-- What point t writes back to the output array is block t of the normalised array. -/
theorem flushed7_eq (c : Dev nD) (t : Fin cfg7.N) :
    (dat7 (F := Ideal) V c).flushed 5 t
      = ((cfg7.win 5).blk t).view.read (Elt Ideal) (bnReluArr (V c main_v257_0) (V c main_v273) (V c main_v274) (V c main_v275) (V c main_v276)) := by
  show (cfg7.win 5).cut (grid7.coords t) ((dat7 (F := Ideal) V c).after 5 t) = _
  rw [after7_5]
  funext j
  obtain ⟨i, d, rfl⟩ : ∃ (i : Fin 5000) (d : Fin 128), j = ix2 i d := ⟨j 0, j 1, eq_ix2 j⟩
  have ht : t.val < 10 := Nat.lt_of_lt_of_eq t.isLt (show cfg7.N = 10 from N_7)
  have hR : t.val * 5000 + i.val < 50000 := by have := i.isLt; omega
  rw [View.read_apply, outIdx7 t i d ⟨t.val * 5000 + i.val, hR⟩ rfl]
  show out7 V c t (ix2 i d) = _
  unfold out7
  exact pay7_block (V c main_v257_0) (V c main_v273) (V c main_v274) (V c main_v275) (V c main_v276)
    (iblk7 V c 0 t) (iblk7 V c 1 t) (iblk7 V c 2 t) (iblk7 V c 3 t) (iblk7 V c 4 t) i d ⟨t.val * 5000 + i.val, hR⟩
    (tile7_apply V c t i d ⟨t.val * 5000 + i.val, hR⟩ rfl) (row7_1_apply V c t d) (row7_2_apply V c t d)
    (row7_3_apply V c t d) (row7_4_apply V c t d)

/-- An index of the output array is in point t's block iff each coordinate is in the block's range on its axis. -/
theorem mem_tile7 (t : Fin cfg7.N) (idx : S50000x128.Idx) :
    idx ∈ ((cfg7.win 5).blk t).view.set ↔ ∀ a : Fin 2, win7_5.index t a * S5000x128.size a ≤ (idx a).val
      ∧ (idx a).val < win7_5.index t a * S5000x128.size a + S5000x128.size a := by
  show idx ∈ ((View.whole main_v277).slice (win7_5.rect t)).set ↔ _
  rw [View.set_slice_whole, Rect.mem_set_unit]
  exact Iff.rfl

/-- Every index of the output array is in the block of the point its row falls in: row r is written at point r / 5000. -/
theorem tiles_cover7 (idx : S50000x128.Idx) :
    ∃ t : Fin cfg7.N, (cfg7.win 5).flush t = true ∧ idx ∈ ((cfg7.win 5).blk t).view.set := by
  have h0 : (idx 0).val < 50000 := (idx 0).isLt
  have h1 : (idx 1).val < 128 := (idx 1).isLt
  have hN : (idx 0).val / 5000 < cfg7.N := by rw [show cfg7.N = 10 from N_7]; omega
  have e0 : win7_5.index ⟨(idx 0).val / 5000, hN⟩ (0 : Fin 2) = (idx 0).val / 5000 := (blockIdx7 ⟨(idx 0).val / 5000, hN⟩).2.2.2.2.2.2.2.2.2.2.1
  have e1 : win7_5.index ⟨(idx 0).val / 5000, hN⟩ (1 : Fin 2) = 0 := (blockIdx7 ⟨(idx 0).val / 5000, hN⟩).2.2.2.2.2.2.2.2.2.2.2
  refine ⟨⟨(idx 0).val / 5000, hN⟩, flush7_5 _, ?_⟩
  rw [mem_tile7]
  intro a
  match a with
  | ⟨0, _⟩ =>
    show win7_5.index ⟨(idx 0).val / 5000, hN⟩ (0 : Fin 2) * 5000 ≤ (idx 0).val
      ∧ (idx 0).val < win7_5.index ⟨(idx 0).val / 5000, hN⟩ (0 : Fin 2) * 5000 + 5000
    rw [e0]; omega
  | ⟨1, _⟩ =>
    show win7_5.index ⟨(idx 0).val / 5000, hN⟩ (1 : Fin 2) * 128 ≤ (idx 1).val
      ∧ (idx 1).val < win7_5.index ⟨(idx 0).val / 5000, hN⟩ (1 : Fin 2) * 128 + 128
    rw [e1]; omega

/-- THE OUTPUT ARRAY after the region's ten points: the normalised array of the five entry arrays. -/
theorem final7 (c : Dev nD) :
    (dat7 (F := Ideal) V c).arrAt 5 cfg7.N = bnReluArr (V c main_v257_0) (V c main_v273) (V c main_v274) (V c main_v275) (V c main_v276) :=
  (dat7 (F := Ideal) V c).arrAt_eq_of_cover 5 (bnReluArr (V c main_v257_0) (V c main_v273) (V c main_v274) (V c main_v275) (V c main_v276))
    (fun t _ => flushed7_eq V c t) (tiles_cover7)

end Cert.KernelIdeal.Val

end
-- ==== Proof.Val.Glue6.lean ====
/-
  Host stretch 6 (before region 6)'s last operations read at one element, at the ideal float values, from an arbitrary
  valuation of the buffers before it: the layer's two weight matrices and two bias rows as region 6's windows find them,
  cut out of the stacked parameter tables.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 6 the first layer's weights' buffer holds matrix 3 of the stacked first-layer weights. -/
theorem glue6_w1_eq (W : Valuation τ sig (Elt Ideal)) :
    (StableHlo.after hostOps6 W (Proc.devRef .tc main_v248) : (⟨S128x256, .f32⟩ : BufTy).Contents (Elt Ideal))
      = mat128x256 3 slices_S5x128x256_S1x128x256_3_0_0 (W (Proc.devRef .tc main_arg7)) := by
  after_results_simp
  rfl

theorem glue6_w1 (W : Valuation τ sig (Elt Ideal)) (k : Fin 128) (j : Fin 256) :
    (StableHlo.after hostOps6 W (Proc.devRef .tc main_v248) : (⟨S128x256, .f32⟩ : BufTy).Contents (Elt Ideal)) (ix2 k j)
      = (W (Proc.devRef .tc main_arg7) : (⟨S5x128x256, .f32⟩ : BufTy).Contents (Elt Ideal)) (ix3 (3 : Fin 5) k j) := by
  rw [glue6_w1_eq]; exact mat128x256_apply 3 _ _ (3 : Fin 5) rfl k j

set_option maxHeartbeats 4000000 in
/-- After stretch 6 the first layer's bias's buffer holds row 3 of the stacked first-layer biases. -/
theorem glue6_b1_eq (W : Valuation τ sig (Elt Ideal)) :
    (StableHlo.after hostOps6 W (Proc.devRef .tc main_v255) : (⟨S1x256, .f32⟩ : BufTy).Contents (Elt Ideal))
      = row256 3 slices_S5x256_S1x256_3_0 (W (Proc.devRef .tc main_arg8)) := by
  after_results_simp
  rfl

theorem glue6_b1 (W : Valuation τ sig (Elt Ideal)) (u : Fin 1) (j : Fin 256) :
    (StableHlo.after hostOps6 W (Proc.devRef .tc main_v255) : (⟨S1x256, .f32⟩ : BufTy).Contents (Elt Ideal)) (ix2 u j)
      = (W (Proc.devRef .tc main_arg8) : (⟨S5x256, .f32⟩ : BufTy).Contents (Elt Ideal)) (ix2 (3 : Fin 5) j) := by
  rw [glue6_b1_eq]; exact row256_apply 3 _ _ (3 : Fin 5) rfl u j

set_option maxHeartbeats 4000000 in
/-- After stretch 6 the second layer's weights' buffer holds matrix 3 of the stacked second-layer weights. -/
theorem glue6_w2_eq (W : Valuation τ sig (Elt Ideal)) :
    (StableHlo.after hostOps6 W (Proc.devRef .tc main_v252) : (⟨S256x128, .f32⟩ : BufTy).Contents (Elt Ideal))
      = mat256x128 3 slices_S5x256x128_S1x256x128_3_0_0 (W (Proc.devRef .tc main_arg9)) := by
  after_results_simp
  rfl

theorem glue6_w2 (W : Valuation τ sig (Elt Ideal)) (j : Fin 256) (d : Fin 128) :
    (StableHlo.after hostOps6 W (Proc.devRef .tc main_v252) : (⟨S256x128, .f32⟩ : BufTy).Contents (Elt Ideal)) (ix2 j d)
      = (W (Proc.devRef .tc main_arg9) : (⟨S5x256x128, .f32⟩ : BufTy).Contents (Elt Ideal)) (ix3 (3 : Fin 5) j d) := by
  rw [glue6_w2_eq]; exact mat256x128_apply 3 _ _ (3 : Fin 5) rfl j d

set_option maxHeartbeats 4000000 in
/-- After stretch 6 the second layer's bias's buffer holds row 3 of the stacked second-layer biases. -/
theorem glue6_b2_eq (W : Valuation τ sig (Elt Ideal)) :
    (StableHlo.after hostOps6 W (Proc.devRef .tc main_v256) : (⟨S1x128, .f32⟩ : BufTy).Contents (Elt Ideal))
      = row128 3 slices_S5x128_S1x128_3_0 (W (Proc.devRef .tc main_arg10)) := by
  after_results_simp
  rfl

theorem glue6_b2 (W : Valuation τ sig (Elt Ideal)) (u : Fin 1) (d : Fin 128) :
    (StableHlo.after hostOps6 W (Proc.devRef .tc main_v256) : (⟨S1x128, .f32⟩ : BufTy).Contents (Elt Ideal)) (ix2 u d)
      = (W (Proc.devRef .tc main_arg10) : (⟨S5x128, .f32⟩ : BufTy).Contents (Elt Ideal)) (ix2 (3 : Fin 5) d) := by
  rw [glue6_b2_eq]; exact row128_apply 3 _ _ (3 : Fin 5) rfl u d

end Cert.KernelIdeal.Val

end
-- ==== Proof.Val.Glue7.lean ====
/-
  Host stretch 7 (between region 6 and region 7) read at one element, at the ideal float values, from an arbitrary
  valuation of the buffers before it: the four [1,128] rows region 7 reads — the batch mean and the inverse standard
  deviation computed from region 6's column sum and column sum of squares, and the layer's row of gamma and of
  beta — and that the stretch leaves region 6's output tile as it was.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

/-- After stretch 7 the mean's buffer holds the batch mean of region 6's column sums. -/
theorem glue7_mean_eq (W : Valuation τ sig (Elt Ideal)) :
    (StableHlo.after hostOps7 W (Proc.devRef .tc main_v273) : (⟨S1x128, .f32⟩ : BufTy).Contents (Elt Ideal))
      = meanRow (W (Proc.devRef .tc main_v257_1)) := by
  after_results
  rfl

theorem glue7_mean (W : Valuation τ sig (Elt Ideal)) (u : Fin 1) (d : Fin 128) :
    (StableHlo.after hostOps7 W (Proc.devRef .tc main_v273) : (⟨S1x128, .f32⟩ : BufTy).Contents (Elt Ideal)) (ix2 u d)
      = Ideal.div ((W (Proc.devRef .tc main_v257_1) : (⟨S1x128, .f32⟩ : BufTy).Contents (Elt Ideal)) (ix2 (0 : Fin 1) d)) nRows := by
  rw [glue7_mean_eq, meanRow_apply]

/-- After stretch 7 the inverse standard deviation's buffer holds it, from region 6's two column sums. -/
theorem glue7_rstd_eq (W : Valuation τ sig (Elt Ideal)) :
    (StableHlo.after hostOps7 W (Proc.devRef .tc main_v274) : (⟨S1x128, .f32⟩ : BufTy).Contents (Elt Ideal))
      = rstdRow (W (Proc.devRef .tc main_v257_1)) (W (Proc.devRef .tc main_v257_2)) := by
  after_results
  rfl

theorem glue7_rstd (W : Valuation τ sig (Elt Ideal)) (u : Fin 1) (d : Fin 128) :
    (StableHlo.after hostOps7 W (Proc.devRef .tc main_v274) : (⟨S1x128, .f32⟩ : BufTy).Contents (Elt Ideal)) (ix2 u d)
      = Ideal.rsqrt ((Ideal.div ((W (Proc.devRef .tc main_v257_2) : (⟨S1x128, .f32⟩ : BufTy).Contents (Elt Ideal)) (ix2 (0 : Fin 1) d)) nRows
          - Ideal.div ((W (Proc.devRef .tc main_v257_1) : (⟨S1x128, .f32⟩ : BufTy).Contents (Elt Ideal)) (ix2 (0 : Fin 1) d)) nRows
            * Ideal.div ((W (Proc.devRef .tc main_v257_1) : (⟨S1x128, .f32⟩ : BufTy).Contents (Elt Ideal)) (ix2 (0 : Fin 1) d)) nRows) + epsBn) := by
  rw [glue7_rstd_eq, rstdRow_apply]

/-- After stretch 7 the scale's buffer holds row 3 of gamma. -/
theorem glue7_gamma_eq (W : Valuation τ sig (Elt Ideal)) :
    (StableHlo.after hostOps7 W (Proc.devRef .tc main_v275) : (⟨S1x128, .f32⟩ : BufTy).Contents (Elt Ideal))
      = row128 3 slices_S5x128_S1x128_3_0 (W (Proc.devRef .tc main_arg11)) := by
  after_results
  rfl

theorem glue7_gamma (W : Valuation τ sig (Elt Ideal)) (u : Fin 1) (d : Fin 128) :
    (StableHlo.after hostOps7 W (Proc.devRef .tc main_v275) : (⟨S1x128, .f32⟩ : BufTy).Contents (Elt Ideal)) (ix2 u d)
      = (W (Proc.devRef .tc main_arg11) : (⟨S5x128, .f32⟩ : BufTy).Contents (Elt Ideal)) (ix2 (3 : Fin 5) d) := by
  rw [glue7_gamma_eq]; exact row128_apply 3 _ _ (3 : Fin 5) rfl u d

/-- After stretch 7 the shift's buffer holds row 3 of beta. -/
theorem glue7_beta_eq (W : Valuation τ sig (Elt Ideal)) :
    (StableHlo.after hostOps7 W (Proc.devRef .tc main_v276) : (⟨S1x128, .f32⟩ : BufTy).Contents (Elt Ideal))
      = row128 3 slices_S5x128_S1x128_3_0 (W (Proc.devRef .tc main_arg12)) := by
  after_results
  rfl

theorem glue7_beta (W : Valuation τ sig (Elt Ideal)) (u : Fin 1) (d : Fin 128) :
    (StableHlo.after hostOps7 W (Proc.devRef .tc main_v276) : (⟨S1x128, .f32⟩ : BufTy).Contents (Elt Ideal)) (ix2 u d)
      = (W (Proc.devRef .tc main_arg12) : (⟨S5x128, .f32⟩ : BufTy).Contents (Elt Ideal)) (ix2 (3 : Fin 5) d) := by
  rw [glue7_beta_eq]; exact row128_apply 3 _ _ (3 : Fin 5) rfl u d

/-- Stretch 7 writes none of region 6's output tile: its buffer holds after the stretch what it held before. -/
theorem glue7_keep (W : Valuation τ sig (Elt Ideal)) :
    StableHlo.after hostOps7 W (Proc.devRef .tc main_v257_0) = W (Proc.devRef .tc main_v257_0) := by
  after_results <;> rfl

end Cert.KernelIdeal.Val

end
-- ==== Proof.Val.LayerK3.lean ====
/-
  Layer 3 of the program in closed form.  Region 6 leaves, in its three output arrays, the two-layer perceptron of
  the aggregated features it finds and that array's column sums and column sums of squares, collected tile by tile; the
  host stretch after it turns the two sums into the column mean and the reciprocal of the square root of the raw variance
  plus the guard, and cuts row 3 out of the scale and shift tables; region 7 normalises the perceptron's array by those four
  rows, clamping below at zero.  The weights and biases region 6 reads are row 3 of the stacked parameter tables, which no
  operation and no region writes: they are the launch memory's.  So the layer's result is the normalised perceptron in
  the tiled arrangement, of the aggregated features and the launch memory's parameters.
-/
import proofs.«118775_j16338055594318_1_alg».proof.Proof.Val.Keep
import proofs.«118775_j16338055594318_1_alg».proof.Proof.Val.FinalMlp6
import proofs.«118775_j16338055594318_1_alg».proof.Proof.Val.Final7
import proofs.«118775_j16338055594318_1_alg».proof.Proof.Val.Glue6
import proofs.«118775_j16338055594318_1_alg».proof.Proof.Val.Glue7
import proofs.«118775_j16338055594318_1_alg».proof.Proof.Val.Step

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Cert.Spec

/-- Row i of tile t, in the two spellings of the same row number. -/
theorem tileRow_eq_row3 (t : Fin 10) (i : Fin 5000) : (Cert.Moments.tileRow t i : Fin 50000) = Cert.Spec.row t i := by
  apply Fin.ext
  show (Cert.Moments.tileRow t i).val = 5000 * t.val + i.val
  rw [Cert.Moments.tileRow_val]; omega

section
variable (m : (ℓ : Loc nD τ sig) → Buf (Elt Ideal) ℓ) (ρ : Dev nD → PrngReg) (c : Dev nD)

/-- Region 6's weight and bias windows find row 3 of the launch memory's parameter tables. -/
theorem w1At3 (k : Fin 128) (j : Fin 256) :
    (V13 (F := Ideal) m ρ c main_v248 : S128x256.Idx → EReal) (ix2 k j) = (m ((c.tc : Thread nD τ).loc main_arg7) : (⟨S5x128x256, .f32⟩ : BufTy).Contents (Elt Ideal)) (ix3 (3 : Fin 5) k j) :=
  (glue6_w1 (W12 (F := Ideal) m ρ c) k j).trans (congrFun (W12_arg7 (F := Ideal) m ρ c) _)
theorem b1At3 (j : Fin 256) :
    (V13 (F := Ideal) m ρ c main_v255 : S1x256.Idx → EReal) (ix2 (0 : Fin 1) j) = (m ((c.tc : Thread nD τ).loc main_arg8) : (⟨S5x256, .f32⟩ : BufTy).Contents (Elt Ideal)) (ix2 (3 : Fin 5) j) :=
  (glue6_b1 (W12 (F := Ideal) m ρ c) (0 : Fin 1) j).trans (congrFun (W12_arg8 (F := Ideal) m ρ c) _)
theorem w2At3 (j : Fin 256) (d : Fin 128) :
    (V13 (F := Ideal) m ρ c main_v252 : S256x128.Idx → EReal) (ix2 j d) = (m ((c.tc : Thread nD τ).loc main_arg9) : (⟨S5x256x128, .f32⟩ : BufTy).Contents (Elt Ideal)) (ix3 (3 : Fin 5) j d) :=
  (glue6_w2 (W12 (F := Ideal) m ρ c) j d).trans (congrFun (W12_arg9 (F := Ideal) m ρ c) _)
theorem b2At3 (d : Fin 128) :
    (V13 (F := Ideal) m ρ c main_v256 : S1x128.Idx → EReal) (ix2 (0 : Fin 1) d) = (m ((c.tc : Thread nD τ).loc main_arg10) : (⟨S5x128, .f32⟩ : BufTy).Contents (Elt Ideal)) (ix2 (3 : Fin 5) d) :=
  (glue6_b2 (W12 (F := Ideal) m ρ c) (0 : Fin 1) d).trans (congrFun (W12_arg10 (F := Ideal) m ρ c) _)

/-- The perceptron's array of region 6's entry arrays, at (r, d), is the perceptron of the aggregated features and
    the launch memory's parameters. -/
theorem hnAt3 (r : Fin 50000) (d : Fin 128) :
    mlpArr (V13 (F := Ideal) m ρ c main_v246) (V13 (F := Ideal) m ρ c main_v248) (V13 (F := Ideal) m ρ c main_v255) (V13 (F := Ideal) m ρ c main_v252) (V13 (F := Ideal) m ρ c main_v256) (ix2 r d)
      = Cert.Spec.hn (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) r d := by
  unfold mlpArr Cert.Spec.hn
  simp only [w1At3 m ρ c, b1At3 m ρ c, w2At3 m ρ c, b2At3 m ρ c]

/-- Region 6's column sums, as the host stretch after it finds them: the tiled sum of the perceptron's column. -/
theorem sumAt3 (d : Fin 128) :
    (W14 (F := Ideal) m ρ c (Proc.devRef .tc main_v257_1) : S1x128.Idx → EReal) (ix2 (0 : Fin 1) d)
      = Cert.Spec.sumT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) d := by
  have h1 : ((dat6 (F := Ideal) (V13 (F := Ideal) m ρ) c).arrAt 6 cfg6.N : S1x128.Idx → EReal) (ix2 (0 : Fin 1) d) = _ :=
    final6_sum (V13 (F := Ideal) m ρ) c (0 : Fin 1) d
  have h0 : (W14 (F := Ideal) m ρ c (Proc.devRef .tc main_v257_1) : S1x128.Idx → EReal) (ix2 (0 : Fin 1) d)
      = ((dat6 (F := Ideal) (V13 (F := Ideal) m ρ) c).arrAt 6 cfg6.N : S1x128.Idx → EReal) (ix2 (0 : Fin 1) d) :=
    congrFun (W14_arr (F := Ideal) m ρ c 6) (ix2 (0 : Fin 1) d)
  have h2 : (∑ t : Fin 10, ∑ i : Fin 5000, mlpArr (V13 (F := Ideal) m ρ c main_v246) (V13 (F := Ideal) m ρ c main_v248) (V13 (F := Ideal) m ρ c main_v255) (V13 (F := Ideal) m ρ c main_v252) (V13 (F := Ideal) m ρ c main_v256) (ix2 (Cert.Moments.tileRow t i) d)) = Cert.Spec.sumT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) d := by
    unfold Cert.Spec.sumT
    refine Finset.sum_congr rfl fun t _ => Finset.sum_congr rfl fun i _ => ?_
    exact (hnAt3 m ρ c (Cert.Moments.tileRow t i) d).trans (congrArg (fun rr => Cert.Spec.hn (fun r k => (W13 (F := Ideal) m ρ c (Proc.devRef .tc main_v246) : Feat) (ix2 r k))
            (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
            (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) rr d) (tileRow_eq_row3 t i))
  exact (h0.trans h1).trans h2

/-- The same for the column sums of squares. -/
theorem sumsqAt3 (d : Fin 128) :
    (W14 (F := Ideal) m ρ c (Proc.devRef .tc main_v257_2) : S1x128.Idx → EReal) (ix2 (0 : Fin 1) d)
      = Cert.Spec.sumsqT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) d := by
  have h1 : ((dat6 (F := Ideal) (V13 (F := Ideal) m ρ) c).arrAt 7 cfg6.N : S1x128.Idx → EReal) (ix2 (0 : Fin 1) d) = _ :=
    final6_sumsq (V13 (F := Ideal) m ρ) c (0 : Fin 1) d
  have h0 : (W14 (F := Ideal) m ρ c (Proc.devRef .tc main_v257_2) : S1x128.Idx → EReal) (ix2 (0 : Fin 1) d)
      = ((dat6 (F := Ideal) (V13 (F := Ideal) m ρ) c).arrAt 7 cfg6.N : S1x128.Idx → EReal) (ix2 (0 : Fin 1) d) :=
    congrFun (W14_arr (F := Ideal) m ρ c 7) (ix2 (0 : Fin 1) d)
  have h2 : (∑ t : Fin 10, ∑ i : Fin 5000, mlpArr (V13 (F := Ideal) m ρ c main_v246) (V13 (F := Ideal) m ρ c main_v248) (V13 (F := Ideal) m ρ c main_v255) (V13 (F := Ideal) m ρ c main_v252) (V13 (F := Ideal) m ρ c main_v256) (ix2 (Cert.Moments.tileRow t i) d)
      * mlpArr (V13 (F := Ideal) m ρ c main_v246) (V13 (F := Ideal) m ρ c main_v248) (V13 (F := Ideal) m ρ c main_v255) (V13 (F := Ideal) m ρ c main_v252) (V13 (F := Ideal) m ρ c main_v256) (ix2 (Cert.Moments.tileRow t i) d)) = Cert.Spec.sumsqT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) d := by
    unfold Cert.Spec.sumsqT
    refine Finset.sum_congr rfl fun t _ => Finset.sum_congr rfl fun i _ => ?_
    rw [hnAt3 m ρ c (Cert.Moments.tileRow t i) d]
    exact congrArg (fun rr => Cert.Spec.hn (fun r k => (W13 (F := Ideal) m ρ c (Proc.devRef .tc main_v246) : Feat) (ix2 r k))
            (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
            (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) rr d * Cert.Spec.hn (fun r k => (W13 (F := Ideal) m ρ c (Proc.devRef .tc main_v246) : Feat) (ix2 r k))
            (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
            (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) rr d) (tileRow_eq_row3 t i)
  exact (h0.trans h1).trans h2

/-- Region 7's tile window finds region 6's perceptron array. -/
theorem xAt3 (r : Fin 50000) (d : Fin 128) :
    (V15 (F := Ideal) m ρ c main_v257_0 : Feat) (ix2 r d) = Cert.Spec.hn (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) r d := by
  have e1 : V15 (F := Ideal) m ρ c main_v257_0 = W14 (F := Ideal) m ρ c (Proc.devRef .tc main_v257_0) := glue7_keep (W14 (F := Ideal) m ρ c)
  have e2 : W14 (F := Ideal) m ρ c (Proc.devRef .tc main_v257_0) = mlpArr (V13 (F := Ideal) m ρ c main_v246) (V13 (F := Ideal) m ρ c main_v248) (V13 (F := Ideal) m ρ c main_v255) (V13 (F := Ideal) m ρ c main_v252) (V13 (F := Ideal) m ρ c main_v256) :=
    (W14_arr (F := Ideal) m ρ c 5).trans (final6_hn (V13 (F := Ideal) m ρ) c)
  exact (congrFun (e1.trans e2) (ix2 r d)).trans (hnAt3 m ρ c r d)

/-- Its mean row is the mean from the tiles' sums; -/
theorem meanAt3 (d : Fin 128) :
    (V15 (F := Ideal) m ρ c main_v273 : S1x128.Idx → EReal) (ix2 (0 : Fin 1) d)
      = Cert.Spec.meanT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) nRows d := by
  refine (glue7_mean (W14 (F := Ideal) m ρ c) (0 : Fin 1) d).trans ?_
  rw [sumAt3 m ρ c d]
  rfl

/-- its reciprocal-deviation row is the reciprocal square root of the raw variance plus the guard; -/
theorem rstdAt3 (d : Fin 128) :
    (V15 (F := Ideal) m ρ c main_v274 : S1x128.Idx → EReal) (ix2 (0 : Fin 1) d)
      = Ideal.rsqrt (Cert.Spec.varT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d)) nRows d + epsBn) := by
  refine (glue7_rstd (W14 (F := Ideal) m ρ c) (0 : Fin 1) d).trans ?_
  rw [sumAt3 m ρ c d, sumsqAt3 m ρ c d]
  rfl

/-- its scale and shift rows are row 3 of the launch memory's tables. -/
theorem gammaAt3 (d : Fin 128) :
    (V15 (F := Ideal) m ρ c main_v275 : S1x128.Idx → EReal) (ix2 (0 : Fin 1) d) = (m ((c.tc : Thread nD τ).loc main_arg11) : (⟨S5x128, .f32⟩ : BufTy).Contents (Elt Ideal)) (ix2 (3 : Fin 5) d) :=
  (glue7_gamma (W14 (F := Ideal) m ρ c) (0 : Fin 1) d).trans (congrFun (W14_arg11 (F := Ideal) m ρ c) _)
theorem betaAt3 (d : Fin 128) :
    (V15 (F := Ideal) m ρ c main_v276 : S1x128.Idx → EReal) (ix2 (0 : Fin 1) d) = (m ((c.tc : Thread nD τ).loc main_arg12) : (⟨S5x128, .f32⟩ : BufTy).Contents (Elt Ideal)) (ix2 (3 : Fin 5) d) :=
  (glue7_beta (W14 (F := Ideal) m ρ c) (0 : Fin 1) d).trans (congrFun (W14_arg12 (F := Ideal) m ρ c) _)

end

/-- The normalisation at (r, d) from its five inputs read at (r, d) and (0, d). -/
theorem bnReluArr_at3 (X : Feat) (Mn Rs Ga Be : S1x128.Idx → EReal) (r : Fin 50000) (d : Fin 128) (x mn rs ga be : EReal)
    (hX : X (ix2 r d) = x) (hMn : Mn (ix2 (0 : Fin 1) d) = mn) (hRs : Rs (ix2 (0 : Fin 1) d) = rs)
    (hGa : Ga (ix2 (0 : Fin 1) d) = ga) (hBe : Be (ix2 (0 : Fin 1) d) = be) :
    bnReluArr X Mn Rs Ga Be (ix2 r d) = max (((x - mn) * rs) * ga + be) 0 := by
  subst hX hMn hRs hGa hBe
  rfl

/-- LAYER 3: the array region 7 leaves, entry by entry, is the normalised perceptron in the tiled arrangement, clamped below at zero, of the aggregated features region 6 finds and row 3 of the launch memory's parameter tables. -/
theorem layerK3 (m : (ℓ : Loc nD τ sig) → Buf (Elt Ideal) ℓ) (ρ : Dev nD → PrngReg) (c : Dev nD) (r : Fin 50000) (d : Fin 128) :
    (W16 (F := Ideal) m ρ c (Proc.devRef .tc main_v277) : Feat) (ix2 r d)
      = max (normT (fun r k => (W13 (F := Ideal) m ρ c (Proc.devRef .tc main_v246) : Feat) (ix2 r k))
          (fun k j => (m ((c.tc : Thread nD τ).loc main_arg7) : (⟨S5x128x256, .f32⟩ : BufTy).Contents (Elt Ideal)) (ix3 (3 : Fin 5) k j)) (fun j => (m ((c.tc : Thread nD τ).loc main_arg8) : (⟨S5x256, .f32⟩ : BufTy).Contents (Elt Ideal)) (ix2 (3 : Fin 5) j))
          (fun j d => (m ((c.tc : Thread nD τ).loc main_arg9) : (⟨S5x256x128, .f32⟩ : BufTy).Contents (Elt Ideal)) (ix3 (3 : Fin 5) j d)) (fun d => (m ((c.tc : Thread nD τ).loc main_arg10) : (⟨S5x128, .f32⟩ : BufTy).Contents (Elt Ideal)) (ix2 (3 : Fin 5) d))
          (fun d => (m ((c.tc : Thread nD τ).loc main_arg11) : (⟨S5x128, .f32⟩ : BufTy).Contents (Elt Ideal)) (ix2 (3 : Fin 5) d)) (fun d => (m ((c.tc : Thread nD τ).loc main_arg12) : (⟨S5x128, .f32⟩ : BufTy).Contents (Elt Ideal)) (ix2 (3 : Fin 5) d)) nRows epsBn r d) 0 := by
  have hout : W16 (F := Ideal) m ρ c (Proc.devRef .tc main_v277)
      = bnReluArr (V15 (F := Ideal) m ρ c main_v257_0) (V15 (F := Ideal) m ρ c main_v273) (V15 (F := Ideal) m ρ c main_v274) (V15 (F := Ideal) m ρ c main_v275) (V15 (F := Ideal) m ρ c main_v276) :=
    (W16_arr (F := Ideal) m ρ c 5).trans (final7 (V15 (F := Ideal) m ρ) c)
  refine (congrFun hout (ix2 r d)).trans ?_
  exact bnReluArr_at3 _ _ _ _ _ r d _ _ _ _ _ (xAt3 m ρ c r d) (meanAt3 m ρ c d) (rstdAt3 m ρ c d) (gammaAt3 m ρ c d) (betaAt3 m ρ c d)

end Cert.KernelIdeal.Val

end
-- ==== Proof.Val.Agg6.lean ====
/-
  Host stretch 6 (before region 6) up to the aggregate, from an arbitrary valuation of the buffers before it: the
  buffer region 6 reads its input tile from holds the layer's aggregate, as the pure function of the buffers the
  stretch reads.
-/
import proofs.«118775_j16338055594318_1_alg».proof.Proof.Gen.KernelIdeal.Launch
import proofs.«118775_j16338055594318_1_alg».proof.Proof.Val.AggOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 6 the aggregate's buffer holds layer 3's aggregate of region 5's output. -/
theorem agg6_eq (W : Valuation τ sig (Elt Ideal)) :
    (StableHlo.after hostOps6 W (Proc.devRef .tc main_v246) : (⟨S50000x128, .f32⟩ : BufTy).Contents (Elt Ideal))
      = aggArr (W (Proc.devRef .tc main_v216)) (W (Proc.devRef .tc main_v22)) (W (Proc.devRef .tc main_v25))
          (W (Proc.devRef .tc main_v29)) (W (Proc.devRef .tc main_v33))
          (tab6 3 slices_S5x6x128_S1x6x128_3_0_0 (W (Proc.devRef .tc main_arg5)))
          (tab3 3 slices_S5x3x128_S1x3x128_3_0_0 (W (Proc.devRef .tc main_arg6))) := by
  after_results_simp
  rfl

end Cert.KernelIdeal.Val

end
-- ==== Proof.Val.RefDense3.lean ====
/-
  Layer 3 of the reference program read at an entry.  The layer's 93 operations are its aggregation (the first 37,
  ending in the scatter that writes `main_v294`) followed by its dense part (the other 56: the slices of the stacked weights at
  row 3, the two-layer perceptron, the column statistics, the normalization and the rectifier), whose result `main_v341` is, at
  row r and column d, the maximum with zero of the centred normalization of the perceptron of the aggregate.  The aggregate is left as
  the buffer `main_v294` after the layer; the weights are the program's arguments, which no operation of the layer writes.
-/
import proofs.«118775_j16338055594318_1_alg».proof.Proof.Val.RefOps
import proofs.«118775_j16338055594318_1_alg».proof.Proof.Val.RefDenseCore

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The layer's aggregation: its first 37 operations, -/
abbrev refAgg3 : List (HloOp τ sig (Elt Ideal)) := List.take 37 (refLayer3 (F := Ideal))
/-- and its dense part: the others. -/
abbrev refDense3 : List (HloOp τ sig (Elt Ideal)) := List.drop 37 (refLayer3 (F := Ideal))

/-- Running the layer is running its aggregation and then its dense part. -/
theorem after_refLayer3_split (W : Valuation τ sig (Elt Ideal)) :
    after (refLayer3 (F := Ideal)) W = after refDense3 (after refAgg3 W) :=
  (congrArg (fun l => after l W) (List.take_append_drop 37 (refLayer3 (F := Ideal))).symm).trans
    (Cert.Lib.RunPieces.after_append _ _ W)

set_option maxHeartbeats 4000000 in
/-- The dense part's result from any contents: the layer's array functions of the aggregate's buffer and the weights'. -/
theorem refDense3_result (W' : Valuation τ sig (Elt Ideal)) :
    after refDense3 W' (Proc.devRef .tc main_v341)
      = reluArr (normArr (mlpArr (W' (Proc.devRef .tc main_v294))
          (sliceW1 ![3, 0, 0] slices_S5x128x256_S1x128x256_3_0_0 (W' (Proc.devRef .tc main_arg7)))
          (sliceV256 ![3, 0] slices_S5x256_S1x256_3_0 (W' (Proc.devRef .tc main_arg8)))
          (sliceW2 ![3, 0, 0] slices_S5x256x128_S1x256x128_3_0_0 (W' (Proc.devRef .tc main_arg9)))
          (sliceV128 ![3, 0] slices_S5x128_S1x128_3_0 (W' (Proc.devRef .tc main_arg10))))
        (sliceV128 ![3, 0] slices_S5x128_S1x128_3_0 (W' (Proc.devRef .tc main_arg11)))
        (sliceV128 ![3, 0] slices_S5x128_S1x128_3_0 (W' (Proc.devRef .tc main_arg12)))) := by
  simp only [refDense3, refLayer3, List.drop_succ_cons, List.drop_zero]
  after_results_simp <;> rfl

set_option maxHeartbeats 4000000 in
/-- The dense part does not write the aggregate's buffer. -/
theorem refDense3_keeps_agg (W' : Valuation τ sig (Elt Ideal)) :
    after refDense3 W' (Proc.devRef .tc main_v294) = W' (Proc.devRef .tc main_v294) := by
  simp only [refDense3, refLayer3, List.drop_succ_cons, List.drop_zero]
  after_results_simp <;> rfl

/-- The aggregation writes none of the program's arguments. -/
theorem refAgg3_keeps (W : Valuation τ sig (Elt Ideal)) (b : Ref sig .tc) (hb : b ∉ refLayer3_W) :
    after refAgg3 W (Proc.devRef .tc b) = W (Proc.devRef .tc b) :=
  after_of_writes_sub refAgg3 W
    (List.forall_iff_forall_mem.mpr fun op h => (List.forall_iff_forall_mem.mp (refLayer3_writes (F := Ideal))) op (List.mem_of_mem_take h)) hb

/-- LAYER 3 AT AN ENTRY: the result buffer at (r, d) from the layer's aggregate and the weights' row 3. -/
theorem refLayer3_apply (W : Valuation τ sig (Elt Ideal)) (r : Fin 50000) (d : Fin 128) :
    after (refLayer3 (F := Ideal)) W (Proc.devRef .tc main_v341) (ix2 r d)
      = max (Cert.Spec.normC (fun r k => after (refLayer3 (F := Ideal)) W (Proc.devRef .tc main_v294) (ix2 r k))
          (fun k j => W (Proc.devRef .tc main_arg7) (ix3 (3 : Fin 5) k j)) (fun j => W (Proc.devRef .tc main_arg8) (ix2 (3 : Fin 5) j))
          (fun j d => W (Proc.devRef .tc main_arg9) (ix3 (3 : Fin 5) j d)) (fun d => W (Proc.devRef .tc main_arg10) (ix2 (3 : Fin 5) d))
          (fun d => W (Proc.devRef .tc main_arg11) (ix2 (3 : Fin 5) d)) (fun d => W (Proc.devRef .tc main_arg12) (ix2 (3 : Fin 5) d))
          (Ideal.ofBits .f32 0x47435000#32) (Ideal.ofBits .f32 0x3727C5AC#32) r d) 0 := by
  have hA : after (refLayer3 (F := Ideal)) W (Proc.devRef .tc main_v294) = after refAgg3 W (Proc.devRef .tc main_v294) := by
    rw [after_refLayer3_split]; exact refDense3_keeps_agg _
  have key := congrFun (refDense3_result (after refAgg3 W)) (ix2 r d)
  rw [refAgg3_keeps W main_arg7 (by decide), refAgg3_keeps W main_arg8 (by decide), refAgg3_keeps W main_arg9 (by decide),
    refAgg3_keeps W main_arg10 (by decide), refAgg3_keeps W main_arg11 (by decide), refAgg3_keeps W main_arg12 (by decide),
    reluArr_apply, dense_apply] at key
  rw [hA, after_refLayer3_split]
  refine key.trans ?_
  simp only [sliceW1_apply (3 : Fin 5) ![3, 0, 0] rfl, sliceW2_apply (3 : Fin 5) ![3, 0, 0] rfl,
    sliceV256_apply (3 : Fin 5) ![3, 0] rfl, sliceV128_apply (3 : Fin 5) ![3, 0] rfl]

end Cert.ReferenceIdeal.Hand

end
-- ==== Proof.Val.PayMlp8.lean ====
/-
  The payloads of region 8's MLP-and-statistics body read at one element, at the ideal float values (extended
  reals, every operation exact, a change of float format the identity): the output tile hn at (i, d) as the
  two-layer perceptron's value; the running column sum and column sum of squares after a grid point as what
  they held plus the tile's column sum (of squares); the two resets as zero.
-/
import proofs.«118775_j16338055594318_1_alg».proof.Proof.Gen.KernelIdeal.Skeleton
import proofs.«118775_j16338055594318_1_alg».proof.Proof.Val.PayOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The MLP's output tile at (i, d): the second layer applied to the ReLU of the first,
    hn[i,d] = (∑ j, max ((∑ k, x[i,k] * w1[k,j]) + b1[0,j]) 0 * w2[j,d]) + b2[0,d]
    (the changes of float format are the identity at the ideal values). -/
theorem hn_apply8 (x : Vec Ideal S5000x128 .f32) (w1 : Vec Ideal S128x256 .f32) (b1 : Vec Ideal S1x256 .f32)
    (w2 : Vec Ideal S256x128 .f32) (b2 : Vec Ideal S1x128 .f32) (i : Fin 5000) (d : Fin 128) :
    k8_pay4 (F := Ideal) x w1 b1 w2 b2 (ix2 i d)
      = (∑ j : Fin 256, max ((∑ k : Fin 128, x (ix2 i k) * w1 (ix2 k j)) + b1 (ix2 (0 : Fin 1) j)) 0 * w2 (ix2 j d))
          + b2 (ix2 (0 : Fin 1) d) := by
  unfold k8_pay4
  simp only [addf_apply, matmul2_apply, truncf_apply, maximumf_apply, matmul1_apply, broadcast_apply, shapeCast_self,
    broadcastTo_1b_ab_apply, scalar_zero_f32]

/-- The running column sum after a grid point, at column d: what it held plus the sum of the tile's column. -/
theorem sum_apply8 (x : Vec Ideal S5000x128 .f32) (w1 : Vec Ideal S128x256 .f32) (b1 : Vec Ideal S1x256 .f32)
    (w2 : Vec Ideal S256x128 .f32) (b2 : Vec Ideal S1x128 .f32) (acc : Vec Ideal S1x128 .f32) (u : Fin 1) (d : Fin 128) :
    k8_pay5 (F := Ideal) x w1 b1 w2 b2 acc (ix2 u d)
      = acc (ix2 u d) + ∑ i : Fin 5000, k8_pay4 (F := Ideal) x w1 b1 w2 b2 (ix2 i d) := by
  unfold k8_pay5
  simp only [shapeCast_self, addf_apply, shapeCast_a_1a_apply]
  exact congrArg (acc (ix2 u d) + ·) (colsum_apply _ _ _ _ d)

/-- The running column sum of squares after a grid point, at column d: what it held plus the sum of the squares of
    the tile's column. -/
theorem sumsq_apply8 (hn : FVec Ideal S5000x128 .f32) (acc : Vec Ideal S1x128 .f32) (u : Fin 1) (d : Fin 128) :
    k8_pay1 (F := Ideal) hn acc (ix2 u d) = acc (ix2 u d) + ∑ i : Fin 5000, hn (ix2 i d) * hn (ix2 i d) := by
  unfold k8_pay1
  simp only [shapeCast_self, addf_apply, shapeCast_a_1a_apply]
  exact congrArg (acc (ix2 u d) + ·) (colsum_apply (mulf hn hn) _ _ _ d)

/-- The reset of the running sum at the first grid point writes zero everywhere. -/
theorem reset0_apply8 (u : Fin 1) (d : Fin 128) : k8_pay2 (F := Ideal) (ix2 u d) = 0 := by
  unfold k8_pay2
  simp only [shapeCast_self, broadcast_apply, scalar_zero_f32]

/-- The reset of the running sum of squares at the first grid point writes zero everywhere. -/
theorem reset1_apply8 (u : Fin 1) (d : Fin 128) : k8_pay3 (F := Ideal) (ix2 u d) = 0 := by
  unfold k8_pay3
  simp only [shapeCast_self, broadcast_apply, scalar_zero_f32]

end Cert.KernelIdeal.Val

end
-- ==== Proof.Val.FinalMlp8.lean ====
/-
  Region 8's three output arrays after its ten grid points, as functions of the arrays the region finds on entry.
  Point t stores, over rows 5000 t … 5000 t + 4999 of the [50000,128] array `main_v318_0`, the two-layer perceptron of the
  same rows of `main_v307` (weights `main_v309`, `main_v313`, bias rows `main_v316`, `main_v317`); the ten tiles are disjoint and
  fill the array, which ends holding `mlpArr` of the five entry arrays.  Two scratch rows keep, column by column, the
  running sum of the stored values and of their squares: zero plus the first tile's column sums after the first point,
  increased by each later tile's; the last point copies them to the [1,128] arrays `main_v318_1` and `main_v318_2`, which
  end holding the sums over all ten tiles.
-/
import proofs.«118775_j16338055594318_1_alg».proof.Proof.KI.Mlp8
import proofs.«118775_j16338055594318_1_alg».proof.Proof.Val.PayMlp8
import proofs.«118775_j16338055594318_1_alg».proof.Proof.Val.MlpArr
import proofs.«118775_j16338055594318_1_alg».proof.Proof.LibColumnMoments
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## The block indices over the grid -/

/-- The tile windows 0 and 5 sit at block (t, 0) at point t; -/
theorem idx8_0 : ∀ t : Fin cfg8.N, win8_0.index t (0 : Fin 2) = t.val ∧ win8_0.index t (1 : Fin 2) = 0 :=
  (by decide +kernel : ∀ t : Fin grid8.N, _)
theorem idx8_5 : ∀ t : Fin cfg8.N, win8_5.index t (0 : Fin 2) = t.val ∧ win8_5.index t (1 : Fin 2) = 0 :=
  (by decide +kernel : ∀ t : Fin grid8.N, _)
/-- the weight, bias and statistics windows stay at block (0, 0). -/
theorem idx8_1 : ∀ t : Fin cfg8.N, win8_1.index t (0 : Fin 2) = 0 ∧ win8_1.index t (1 : Fin 2) = 0 :=
  (by decide +kernel : ∀ t : Fin grid8.N, _)
theorem idx8_2 : ∀ t : Fin cfg8.N, win8_2.index t (0 : Fin 2) = 0 ∧ win8_2.index t (1 : Fin 2) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)
theorem idx8_4 : ∀ t : Fin cfg8.N, win8_4.index t (0 : Fin 2) = 0 ∧ win8_4.index t (1 : Fin 2) = 0 :=
  (by decide +kernel : ∀ t : Fin grid8.N, _)
theorem idx8_6 : ∀ t : Fin cfg8.N, win8_6.index t (0 : Fin 2) = 0 ∧ win8_6.index t (1 : Fin 2) = 0 :=
  (by decide +kernel : ∀ t : Fin grid8.N, _)
theorem idx8_7 : ∀ t : Fin cfg8.N, win8_7.index t (0 : Fin 2) = 0 ∧ win8_7.index t (1 : Fin 2) = 0 :=
  (by decide +kernel : ∀ t : Fin grid8.N, _)

/-- The last point is a point. -/
theorem h9_8 : 9 < cfg8.N := by rw [show cfg8.N = 10 from N_8]; decide

/-! ## The input blocks, read off the entry arrays -/

/-- Window 0's block at point t is rows 5000 t … 5000 t + 4999 of `main_v307` as the region finds it. -/
theorem tile8_apply (c : Dev nD) (t : Fin cfg8.N) (i : Fin 5000) (k : Fin 128) (R : Fin 50000) (hR : R.val = t.val * 5000 + i.val) :
    (iblk8 V c 0 t : Vec Ideal S5000x128 .f32) (ix2 i k) = (V c main_v307 : S50000x128.Idx → EReal) (ix2 R k) := by
  have e0 : win8_0.index t (0 : Fin 2) = t.val := (idx8_0 t).1
  have e1 : win8_0.index t (1 : Fin 2) = 0 := (idx8_0 t).2
  unfold iblk8
  rw [View.read_apply]
  show V c main_v307 _ = V c main_v307 _
  congr 1
  funext x
  apply Fin.ext
  match x with
  | ⟨0, _⟩ => show win8_0.index t (0 : Fin 2) * 5000 + 1 * i.val = R.val; rw [e0, hR]; omega
  | ⟨1, _⟩ => show win8_0.index t (1 : Fin 2) * 128 + 1 * k.val = k.val; rw [e1]; omega

/-- Window 1 stays at block (0, 0), and its one block is its whole array `main_v309` as the region finds it. -/
theorem blk8_1_apply (c : Dev nD) (t : Fin cfg8.N) (a : Fin 128) (b : Fin 256) :
    (iblk8 V c 1 t : Vec Ideal S128x256 .f32) (ix2 a b) = (V c main_v309 : S128x256.Idx → EReal) (ix2 a b) := by
  have e0 : win8_1.index t (0 : Fin 2) = 0 := (idx8_1 t).1
  have e1 : win8_1.index t (1 : Fin 2) = 0 := (idx8_1 t).2
  unfold iblk8
  rw [View.read_apply]
  show V c main_v309 _ = V c main_v309 _
  congr 1
  funext x
  apply Fin.ext
  match x with
  | ⟨0, _⟩ => show win8_1.index t (0 : Fin 2) * 128 + 1 * a.val = a.val; rw [e0]; omega
  | ⟨1, _⟩ => show win8_1.index t (1 : Fin 2) * 256 + 1 * b.val = b.val; rw [e1]; omega

/-- Window 2 stays at block (0, 0), and its one block is its whole array `main_v316` as the region finds it. -/
theorem blk8_2_apply (c : Dev nD) (t : Fin cfg8.N) (a : Fin 1) (b : Fin 256) :
    (iblk8 V c 2 t : Vec Ideal S1x256 .f32) (ix2 a b) = (V c main_v316 : S1x256.Idx → EReal) (ix2 a b) := by
  have e0 : win8_2.index t (0 : Fin 2) = 0 := (idx8_2 t).1
  have e1 : win8_2.index t (1 : Fin 2) = 0 := (idx8_2 t).2
  unfold iblk8
  rw [View.read_apply]
  show V c main_v316 _ = V c main_v316 _
  congr 1
  funext x
  apply Fin.ext
  match x with
  | ⟨0, _⟩ => show win8_2.index t (0 : Fin 2) * 1 + 1 * a.val = a.val; rw [e0]; omega
  | ⟨1, _⟩ => show win8_2.index t (1 : Fin 2) * 256 + 1 * b.val = b.val; rw [e1]; omega

/-- Window 3 stays at block (0, 0), and its one block is its whole array `main_v313` as the region finds it. -/
theorem blk8_3_apply (c : Dev nD) (t : Fin cfg8.N) (a : Fin 256) (b : Fin 128) :
    (iblk8 V c 3 t : Vec Ideal S256x128 .f32) (ix2 a b) = (V c main_v313 : S256x128.Idx → EReal) (ix2 a b) := by
  have e0 : win8_3.index t (0 : Fin 2) = 0 := (idx8_3 t).1
  have e1 : win8_3.index t (1 : Fin 2) = 0 := (idx8_3 t).2
  unfold iblk8
  rw [View.read_apply]
  show V c main_v313 _ = V c main_v313 _
  congr 1
  funext x
  apply Fin.ext
  match x with
  | ⟨0, _⟩ => show win8_3.index t (0 : Fin 2) * 256 + 1 * a.val = a.val; rw [e0]; omega
  | ⟨1, _⟩ => show win8_3.index t (1 : Fin 2) * 128 + 1 * b.val = b.val; rw [e1]; omega

/-- Window 4 stays at block (0, 0), and its one block is its whole array `main_v317` as the region finds it. -/
theorem blk8_4_apply (c : Dev nD) (t : Fin cfg8.N) (a : Fin 1) (b : Fin 128) :
    (iblk8 V c 4 t : Vec Ideal S1x128 .f32) (ix2 a b) = (V c main_v317 : S1x128.Idx → EReal) (ix2 a b) := by
  have e0 : win8_4.index t (0 : Fin 2) = 0 := (idx8_4 t).1
  have e1 : win8_4.index t (1 : Fin 2) = 0 := (idx8_4 t).2
  unfold iblk8
  rw [View.read_apply]
  show V c main_v317 _ = V c main_v317 _
  congr 1
  funext x
  apply Fin.ext
  match x with
  | ⟨0, _⟩ => show win8_4.index t (0 : Fin 2) * 1 + 1 * a.val = a.val; rw [e0]; omega
  | ⟨1, _⟩ => show win8_4.index t (1 : Fin 2) * 128 + 1 * b.val = b.val; rw [e1]; omega

/-! ## What a point stores into window 5 -/

/-- The stored value at (i, d), when the tile block's row i is row R of an array `A` and the other four blocks are
    the arrays `W1`, `B1`, `W2`, `B2`, is entry (R, d) of the perceptron's output array. -/
theorem mlp_block8 (A : S50000x128.Idx → EReal) (W1 : S128x256.Idx → EReal) (B1 : S1x256.Idx → EReal)
    (W2 : S256x128.Idx → EReal) (B2 : S1x128.Idx → EReal)
    (x0 : Vec Ideal S5000x128 .f32) (x1 : Vec Ideal S128x256 .f32) (x2 : Vec Ideal S1x256 .f32)
    (x3 : Vec Ideal S256x128 .f32) (x4 : Vec Ideal S1x128 .f32) (i : Fin 5000) (d : Fin 128) (R : Fin 50000)
    (h0 : ∀ k : Fin 128, x0 (ix2 i k) = A (ix2 R k)) (h1 : ∀ (k : Fin 128) (j : Fin 256), x1 (ix2 k j) = W1 (ix2 k j))
    (h2 : ∀ j : Fin 256, x2 (ix2 (0 : Fin 1) j) = B1 (ix2 (0 : Fin 1) j))
    (h3 : ∀ (j : Fin 256) (d' : Fin 128), x3 (ix2 j d') = W2 (ix2 j d'))
    (h4 : ∀ d' : Fin 128, x4 (ix2 (0 : Fin 1) d') = B2 (ix2 (0 : Fin 1) d')) :
    k8_pay4 (F := Ideal) x0 x1 x2 x3 x4 (ix2 i d) = mlpArr A W1 B1 W2 B2 (ix2 R d) := by
  rw [hn_apply8]
  simp only [h0, h1, h2, h3, h4]
  rfl

/-- Entry (i, d) of what point t stores into window 5 is entry (5000 t + i, d) of the perceptron's output array. -/
theorem hn8_apply (c : Dev nD) (t : Fin cfg8.N) (i : Fin 5000) (d : Fin 128) (R : Fin 50000) (hR : R.val = t.val * 5000 + i.val) :
    hn8 (F := Ideal) V c t (ix2 i d) = mlpArr (V c main_v307) (V c main_v309) (V c main_v316) (V c main_v313) (V c main_v317) (ix2 R d) := by
  unfold hn8
  exact mlp_block8 (V c main_v307) (V c main_v309) (V c main_v316) (V c main_v313) (V c main_v317)
    (iblk8 V c 0 t) (iblk8 V c 1 t) (iblk8 V c 2 t) (iblk8 V c 3 t) (iblk8 V c 4 t) i d R
    (fun k => tile8_apply V c t i k R hR) (fun k j => blk8_1_apply V c t k j) (fun j => blk8_2_apply V c t (0 : Fin 1) j)
    (fun j d' => blk8_3_apply V c t j d') (fun d' => blk8_4_apply V c t (0 : Fin 1) d')

/-! ## Window 5: the ten tiles fill the output array -/

/-- Entry (i, d) of window 5's block at point t is entry (5000 t + i, d) of the output array. -/
theorem outIdx8 (t : Fin cfg8.N) (i : Fin 5000) (d : Fin 128) (R : Fin 50000) (hR : R.val = t.val * 5000 + i.val) :
    ((cfg8.win 5).blk t).view.emb (ix2 i d) = (ix2 R d : S50000x128.Idx) := by
  have e0 : win8_5.index t (0 : Fin 2) = t.val := (idx8_5 t).1
  have e1 : win8_5.index t (1 : Fin 2) = 0 := (idx8_5 t).2
  funext x
  apply Fin.ext
  match x with
  | ⟨0, _⟩ => show win8_5.index t (0 : Fin 2) * 5000 + 1 * i.val = R.val; rw [e0, hR]; omega
  | ⟨1, _⟩ => show win8_5.index t (1 : Fin 2) * 128 + 1 * d.val = d.val; rw [e1]; omega

/-- What point t writes back to the output array is block t of the perceptron's output array. -/
theorem flushed8_5_eq (c : Dev nD) (t : Fin cfg8.N) :
    (dat8 (F := Ideal) V c).flushed 5 t
      = ((cfg8.win 5).blk t).view.read (Elt Ideal) (mlpArr (V c main_v307) (V c main_v309) (V c main_v316) (V c main_v313) (V c main_v317)) := by
  show (cfg8.win 5).cut (grid8.coords t) ((dat8 (F := Ideal) V c).after 5 t) = _
  rw [after8_5]
  funext j
  obtain ⟨i, d, rfl⟩ : ∃ (i : Fin 5000) (d : Fin 128), j = ix2 i d := ⟨j 0, j 1, eq_ix2 j⟩
  have ht : t.val < 10 := Nat.lt_of_lt_of_eq t.isLt (show cfg8.N = 10 from N_8)
  have hR : t.val * 5000 + i.val < 50000 := by have := i.isLt; omega
  rw [View.read_apply, outIdx8 t i d ⟨t.val * 5000 + i.val, hR⟩ rfl]
  show hn8 (F := Ideal) V c t (ix2 i d) = _
  exact hn8_apply V c t i d ⟨t.val * 5000 + i.val, hR⟩ rfl

/-- An index of the output array is in point t's block iff each coordinate is in the block's range on its axis. -/
theorem mem_tile8 (t : Fin cfg8.N) (idx : S50000x128.Idx) :
    idx ∈ ((cfg8.win 5).blk t).view.set ↔ ∀ a : Fin 2, win8_5.index t a * S5000x128.size a ≤ (idx a).val
      ∧ (idx a).val < win8_5.index t a * S5000x128.size a + S5000x128.size a := by
  show idx ∈ ((View.whole main_v318_0).slice (win8_5.rect t)).set ↔ _
  rw [View.set_slice_whole, Rect.mem_set_unit]
  exact Iff.rfl

/-- Every index of the output array is in the block of the point its row falls in: row r is written at point r / 5000. -/
theorem tiles_cover8 (idx : S50000x128.Idx) :
    ∃ t : Fin cfg8.N, (cfg8.win 5).flush t = true ∧ idx ∈ ((cfg8.win 5).blk t).view.set := by
  have h0 : (idx 0).val < 50000 := (idx 0).isLt
  have h1 : (idx 1).val < 128 := (idx 1).isLt
  have hN : (idx 0).val / 5000 < cfg8.N := by rw [show cfg8.N = 10 from N_8]; omega
  have e0 : win8_5.index ⟨(idx 0).val / 5000, hN⟩ (0 : Fin 2) = (idx 0).val / 5000 := (idx8_5 ⟨(idx 0).val / 5000, hN⟩).1
  have e1 : win8_5.index ⟨(idx 0).val / 5000, hN⟩ (1 : Fin 2) = 0 := (idx8_5 ⟨(idx 0).val / 5000, hN⟩).2
  refine ⟨⟨(idx 0).val / 5000, hN⟩, flush8_5 _, ?_⟩
  rw [mem_tile8]
  intro a
  match a with
  | ⟨0, _⟩ =>
    show win8_5.index ⟨(idx 0).val / 5000, hN⟩ (0 : Fin 2) * 5000 ≤ (idx 0).val
      ∧ (idx 0).val < win8_5.index ⟨(idx 0).val / 5000, hN⟩ (0 : Fin 2) * 5000 + 5000
    rw [e0]; omega
  | ⟨1, _⟩ =>
    show win8_5.index ⟨(idx 0).val / 5000, hN⟩ (1 : Fin 2) * 128 ≤ (idx 1).val
      ∧ (idx 1).val < win8_5.index ⟨(idx 0).val / 5000, hN⟩ (1 : Fin 2) * 128 + 128
    rw [e1]; omega

/-- THE OUTPUT ARRAY after the region's ten points: the perceptron's output array of the five entry arrays. -/
theorem final8_hn (c : Dev nD) :
    (dat8 (F := Ideal) V c).arrAt 5 cfg8.N = mlpArr (V c main_v307) (V c main_v309) (V c main_v316) (V c main_v313) (V c main_v317) :=
  (dat8 (F := Ideal) V c).arrAt_eq_of_cover 5 (mlpArr (V c main_v307) (V c main_v309) (V c main_v316) (V c main_v313) (V c main_v317))
    (fun t _ => flushed8_5_eq V c t) (tiles_cover8)

/-! ## Window 6: the column sums, written back at the last point only -/

/-- Window 6's one block is the whole [1,128] array. -/
theorem rowIdx8_6 (t : Fin cfg8.N) (u : Fin 1) (d : Fin 128) :
    ((cfg8.win 6).blk t).view.emb (ix2 u d) = (ix2 u d : S1x128.Idx) := by
  have e0 : win8_6.index t (0 : Fin 2) = 0 := (idx8_6 t).1
  have e1 : win8_6.index t (1 : Fin 2) = 0 := (idx8_6 t).2
  funext x
  apply Fin.ext
  match x with
  | ⟨0, _⟩ => show win8_6.index t (0 : Fin 2) * 1 + 1 * u.val = u.val; rw [e0]; omega
  | ⟨1, _⟩ => show win8_6.index t (1 : Fin 2) * 128 + 1 * d.val = d.val; rw [e1]; omega

/-- The only point that writes window 6 back is the last, and it writes what the scratch row then holds. -/
theorem flushed8_6_eq (c : Dev nD) (t : Fin cfg8.N) (hf : (cfg8.win 6).flush t = true) :
    (dat8 (F := Ideal) V c).flushed 6 t
      = ((cfg8.win 6).blk t).view.read (Elt Ideal) ((acc8 (F := Ideal) V c 9 h9_8).1 : S1x128.Idx → EReal) := by
  have hN : t.val < 10 := Nat.lt_of_lt_of_eq t.isLt (show cfg8.N = 10 from N_8)
  have ht9 : t.val = 9 := by have := (flush8_6 t).mp hf; omega
  obtain rfl : t = ⟨9, h9_8⟩ := Fin.ext ht9
  show (cfg8.win 6).cut (grid8.coords ⟨9, h9_8⟩) ((dat8 (F := Ideal) V c).after 6 ⟨9, h9_8⟩) = _
  rw [after8_6]
  funext j
  obtain ⟨u, d, rfl⟩ : ∃ (u : Fin 1) (d : Fin 128), j = ix2 u d := ⟨j 0, j 1, eq_ix2 j⟩
  rw [View.read_apply, rowIdx8_6 ⟨9, h9_8⟩ u d]
  rfl

theorem mem_row8_6 (t : Fin cfg8.N) (idx : S1x128.Idx) :
    idx ∈ ((cfg8.win 6).blk t).view.set ↔ ∀ a : Fin 2, win8_6.index t a * S1x128.size a ≤ (idx a).val
      ∧ (idx a).val < win8_6.index t a * S1x128.size a + S1x128.size a := by
  show idx ∈ ((View.whole main_v318_1).slice (win8_6.rect t)).set ↔ _
  rw [View.set_slice_whole, Rect.mem_set_unit]
  exact Iff.rfl

/-- The last point's block covers the whole [1,128] array. -/
theorem row_cover8_6 (idx : S1x128.Idx) :
    ∃ t : Fin cfg8.N, (cfg8.win 6).flush t = true ∧ idx ∈ ((cfg8.win 6).blk t).view.set := by
  have h0 : (idx 0).val < 1 := (idx 0).isLt
  have h1 : (idx 1).val < 128 := (idx 1).isLt
  have e0 : win8_6.index ⟨9, h9_8⟩ (0 : Fin 2) = 0 := (idx8_6 ⟨9, h9_8⟩).1
  have e1 : win8_6.index ⟨9, h9_8⟩ (1 : Fin 2) = 0 := (idx8_6 ⟨9, h9_8⟩).2
  refine ⟨⟨9, h9_8⟩, (flush8_6 _).mpr rfl, ?_⟩
  rw [mem_row8_6]
  intro a
  match a with
  | ⟨0, _⟩ =>
    show win8_6.index ⟨9, h9_8⟩ (0 : Fin 2) * 1 ≤ (idx 0).val ∧ (idx 0).val < win8_6.index ⟨9, h9_8⟩ (0 : Fin 2) * 1 + 1
    rw [e0]; omega
  | ⟨1, _⟩ =>
    show win8_6.index ⟨9, h9_8⟩ (1 : Fin 2) * 128 ≤ (idx 1).val ∧ (idx 1).val < win8_6.index ⟨9, h9_8⟩ (1 : Fin 2) * 128 + 128
    rw [e1]; omega

/-- Window 6's array after the ten points is what the scratch row holds after the last. -/
theorem arr8_6 (c : Dev nD) :
    (dat8 (F := Ideal) V c).arrAt 6 cfg8.N = ((acc8 (F := Ideal) V c 9 h9_8).1 : S1x128.Idx → EReal) :=
  (dat8 (F := Ideal) V c).arrAt_eq_of_cover 6 ((acc8 (F := Ideal) V c 9 h9_8).1 : S1x128.Idx → EReal)
    (fun t hf => flushed8_6_eq V c t hf) row_cover8_6

/-! ## Window 7: the column sums of squares, written back at the last point only -/

/-- Window 7's one block is the whole [1,128] array. -/
theorem rowIdx8_7 (t : Fin cfg8.N) (u : Fin 1) (d : Fin 128) :
    ((cfg8.win 7).blk t).view.emb (ix2 u d) = (ix2 u d : S1x128.Idx) := by
  have e0 : win8_7.index t (0 : Fin 2) = 0 := (idx8_7 t).1
  have e1 : win8_7.index t (1 : Fin 2) = 0 := (idx8_7 t).2
  funext x
  apply Fin.ext
  match x with
  | ⟨0, _⟩ => show win8_7.index t (0 : Fin 2) * 1 + 1 * u.val = u.val; rw [e0]; omega
  | ⟨1, _⟩ => show win8_7.index t (1 : Fin 2) * 128 + 1 * d.val = d.val; rw [e1]; omega

/-- The only point that writes window 7 back is the last, and it writes what the scratch row then holds. -/
theorem flushed8_7_eq (c : Dev nD) (t : Fin cfg8.N) (hf : (cfg8.win 7).flush t = true) :
    (dat8 (F := Ideal) V c).flushed 7 t
      = ((cfg8.win 7).blk t).view.read (Elt Ideal) ((acc8 (F := Ideal) V c 9 h9_8).2 : S1x128.Idx → EReal) := by
  have hN : t.val < 10 := Nat.lt_of_lt_of_eq t.isLt (show cfg8.N = 10 from N_8)
  have ht9 : t.val = 9 := by have := (flush8_7 t).mp hf; omega
  obtain rfl : t = ⟨9, h9_8⟩ := Fin.ext ht9
  show (cfg8.win 7).cut (grid8.coords ⟨9, h9_8⟩) ((dat8 (F := Ideal) V c).after 7 ⟨9, h9_8⟩) = _
  rw [after8_7]
  funext j
  obtain ⟨u, d, rfl⟩ : ∃ (u : Fin 1) (d : Fin 128), j = ix2 u d := ⟨j 0, j 1, eq_ix2 j⟩
  rw [View.read_apply, rowIdx8_7 ⟨9, h9_8⟩ u d]
  rfl

theorem mem_row8_7 (t : Fin cfg8.N) (idx : S1x128.Idx) :
    idx ∈ ((cfg8.win 7).blk t).view.set ↔ ∀ a : Fin 2, win8_7.index t a * S1x128.size a ≤ (idx a).val
      ∧ (idx a).val < win8_7.index t a * S1x128.size a + S1x128.size a := by
  show idx ∈ ((View.whole main_v318_2).slice (win8_7.rect t)).set ↔ _
  rw [View.set_slice_whole, Rect.mem_set_unit]
  exact Iff.rfl

/-- The last point's block covers the whole [1,128] array. -/
theorem row_cover8_7 (idx : S1x128.Idx) :
    ∃ t : Fin cfg8.N, (cfg8.win 7).flush t = true ∧ idx ∈ ((cfg8.win 7).blk t).view.set := by
  have h0 : (idx 0).val < 1 := (idx 0).isLt
  have h1 : (idx 1).val < 128 := (idx 1).isLt
  have e0 : win8_7.index ⟨9, h9_8⟩ (0 : Fin 2) = 0 := (idx8_7 ⟨9, h9_8⟩).1
  have e1 : win8_7.index ⟨9, h9_8⟩ (1 : Fin 2) = 0 := (idx8_7 ⟨9, h9_8⟩).2
  refine ⟨⟨9, h9_8⟩, (flush8_7 _).mpr rfl, ?_⟩
  rw [mem_row8_7]
  intro a
  match a with
  | ⟨0, _⟩ =>
    show win8_7.index ⟨9, h9_8⟩ (0 : Fin 2) * 1 ≤ (idx 0).val ∧ (idx 0).val < win8_7.index ⟨9, h9_8⟩ (0 : Fin 2) * 1 + 1
    rw [e0]; omega
  | ⟨1, _⟩ =>
    show win8_7.index ⟨9, h9_8⟩ (1 : Fin 2) * 128 ≤ (idx 1).val ∧ (idx 1).val < win8_7.index ⟨9, h9_8⟩ (1 : Fin 2) * 128 + 128
    rw [e1]; omega

/-- Window 7's array after the ten points is what the scratch row holds after the last. -/
theorem arr8_7 (c : Dev nD) :
    (dat8 (F := Ideal) V c).arrAt 7 cfg8.N = ((acc8 (F := Ideal) V c 9 h9_8).2 : S1x128.Idx → EReal) :=
  (dat8 (F := Ideal) V c).arrAt_eq_of_cover 7 ((acc8 (F := Ideal) V c 9 h9_8).2 : S1x128.Idx → EReal)
    (fun t hf => flushed8_7_eq V c t hf) row_cover8_7

/-! ## The scratch rows are running totals over the tiles -/

/-- One point's step of the running column sum, at column d: what the row held plus the column sum of the point's tile
    of the perceptron's output array (`T` the point, as a tile number). -/
theorem acc8_step_sum (c : Dev nD) (t : Fin cfg8.N) (T : Fin 10) (hT : T.val = t.val) (acc : Vec Ideal S1x128 .f32)
    (u : Fin 1) (d : Fin 128) :
    k8_pay5 (F := Ideal) (iblk8 V c 0 t) (iblk8 V c 1 t) (iblk8 V c 2 t) (iblk8 V c 3 t) (iblk8 V c 4 t) acc (ix2 u d)
      = acc (ix2 u d) + ∑ i : Fin 5000, mlpArr (V c main_v307) (V c main_v309) (V c main_v316) (V c main_v313) (V c main_v317) (ix2 (Cert.Moments.tileRow T i) d) :=
  (sum_apply8 (iblk8 V c 0 t) (iblk8 V c 1 t) (iblk8 V c 2 t) (iblk8 V c 3 t) (iblk8 V c 4 t) acc u d).trans
    (congrArg (acc (ix2 u d) + ·) (Finset.sum_congr rfl fun i _ =>
      hn8_apply V c t i d (Cert.Moments.tileRow T i) (by rw [Cert.Moments.tileRow_val, hT]; omega)))

/-- The same for the running column sum of squares. -/
theorem acc8_step_sumsq (c : Dev nD) (t : Fin cfg8.N) (T : Fin 10) (hT : T.val = t.val) (acc : Vec Ideal S1x128 .f32)
    (u : Fin 1) (d : Fin 128) :
    k8_pay1 (F := Ideal) (hn8 (F := Ideal) V c t) acc (ix2 u d)
      = acc (ix2 u d) + ∑ i : Fin 5000, mlpArr (V c main_v307) (V c main_v309) (V c main_v316) (V c main_v313) (V c main_v317) (ix2 (Cert.Moments.tileRow T i) d)
          * mlpArr (V c main_v307) (V c main_v309) (V c main_v316) (V c main_v313) (V c main_v317) (ix2 (Cert.Moments.tileRow T i) d) :=
  (sumsq_apply8 (hn8 (F := Ideal) V c t) acc u d).trans
    (congrArg (acc (ix2 u d) + ·) (Finset.sum_congr rfl fun i _ => by
      rw [hn8_apply V c t i d (Cert.Moments.tileRow T i) (by rw [Cert.Moments.tileRow_val, hT]; omega)]))

/-- A point number below ten is a grid point. -/
theorem pt_lt8 (T : Fin (9 + 1)) : T.val < cfg8.N := Nat.lt_of_lt_of_eq T.isLt (show (9 + 1 : ℕ) = cfg8.N from N_8.symm)

/-- THE COLUMN SUMS after the region's ten points: column d of `main_v318_1` holds the sum, over the ten tiles and the
    5000 rows of each, of column d of the perceptron's output array. -/
theorem final8_sum (c : Dev nD) (u : Fin 1) (d : Fin 128) :
    (dat8 (F := Ideal) V c).arrAt 6 cfg8.N (ix2 u d)
      = ∑ t : Fin 10, ∑ i : Fin 5000, mlpArr (V c main_v307) (V c main_v309) (V c main_v316) (V c main_v313) (V c main_v317) (ix2 (Cert.Moments.tileRow t i) d) := by
  rw [arr8_6 V c]
  exact Cert.ColumnMoments.running_total_last (g := 9)
    (fun T : Fin (9 + 1) => ∑ i : Fin 5000, mlpArr (V c main_v307) (V c main_v309) (V c main_v316) (V c main_v313) (V c main_v317) (ix2 (Cert.Moments.tileRow (g := 10) (b := 5000) T i) d))
    (fun T : Fin (9 + 1) => ((acc8 (F := Ideal) V c T.val (pt_lt8 T)).1 : S1x128.Idx → EReal) (ix2 u d))
    ((acc8_step_sum V c ⟨0, pt_lt8 0⟩ 0 rfl (k8_pay2 (F := Ideal)) u d).trans (by rw [reset0_apply8]))
    (fun T => acc8_step_sum V c ⟨T.val + 1, pt_lt8 T.succ⟩ T.succ rfl (acc8 (F := Ideal) V c T.val (pt_lt8 T.castSucc)).1 u d)

/-- THE COLUMN SUMS OF SQUARES after the region's ten points, the same way in `main_v318_2`. -/
theorem final8_sumsq (c : Dev nD) (u : Fin 1) (d : Fin 128) :
    (dat8 (F := Ideal) V c).arrAt 7 cfg8.N (ix2 u d)
      = ∑ t : Fin 10, ∑ i : Fin 5000, mlpArr (V c main_v307) (V c main_v309) (V c main_v316) (V c main_v313) (V c main_v317) (ix2 (Cert.Moments.tileRow t i) d)
          * mlpArr (V c main_v307) (V c main_v309) (V c main_v316) (V c main_v313) (V c main_v317) (ix2 (Cert.Moments.tileRow t i) d) := by
  rw [arr8_7 V c]
  exact Cert.ColumnMoments.running_total_last (g := 9)
    (fun T : Fin (9 + 1) => ∑ i : Fin 5000, mlpArr (V c main_v307) (V c main_v309) (V c main_v316) (V c main_v313) (V c main_v317) (ix2 (Cert.Moments.tileRow (g := 10) (b := 5000) T i) d)
      * mlpArr (V c main_v307) (V c main_v309) (V c main_v316) (V c main_v313) (V c main_v317) (ix2 (Cert.Moments.tileRow (g := 10) (b := 5000) T i) d))
    (fun T : Fin (9 + 1) => ((acc8 (F := Ideal) V c T.val (pt_lt8 T)).2 : S1x128.Idx → EReal) (ix2 u d))
    ((acc8_step_sumsq V c ⟨0, pt_lt8 0⟩ 0 rfl (k8_pay3 (F := Ideal)) u d).trans (by rw [reset1_apply8]))
    (fun T => acc8_step_sumsq V c ⟨T.val + 1, pt_lt8 T.succ⟩ T.succ rfl (acc8 (F := Ideal) V c T.val (pt_lt8 T.castSucc)).2 u d)

end Cert.KernelIdeal.Val

end
-- ==== Proof.Val.PayBn9.lean ====
/-
  The payload of the last region's batch-norm-apply body read at one element, at the ideal float values
  (extended reals, every operation exact): at row i and column d it is
  ((hn[i,d] - mean[0,d]) * rstd[0,d]) * gamma[0,d] + beta[0,d].
  Each of the four [1,128] rows is broadcast over the 5000 rows of the tile, so it is read at (0, d).
-/
import proofs.«118775_j16338055594318_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- Region 9's stored value at (i, d): normalize, scale, shift. -/
theorem bn_apply (hn : Vec Ideal S5000x128 .f32) (mean rstd gamma beta : Vec Ideal S1x128 .f32)
    (i : Fin 5000) (d : Fin 128) :
    k9_pay1 (F := Ideal) hn mean rstd gamma beta (ix2 i d)
      = ((hn (ix2 i d) - mean (ix2 (0 : Fin 1) d)) * rstd (ix2 (0 : Fin 1) d)) * gamma (ix2 (0 : Fin 1) d)
          + beta (ix2 (0 : Fin 1) d) := by
  unfold k9_pay1
  simp only [addf_apply, mulf_apply, subf_apply, shapeCast_self, broadcastTo_1b_ab_apply]

end Cert.KernelIdeal.Val

end
-- ==== Proof.Val.Final9.lean ====
/-
  Region 9's output array after its ten grid points, as ONE function of the arrays the region finds on entry.
  Point t stores, over rows 5000 t … 5000 t + 4999 of the [50000,128] output array `main_v338`, the normalisation of the
  same rows of `main_v318_0` by the four [1,128] rows `main_v334`, `main_v335`, `main_v336`, `main_v337`.  The ten
  tiles are disjoint and fill the array, so the array ends holding `bnArr` of the five entry arrays.
-/
import proofs.«118775_j16338055594318_1_alg».proof.Proof.KI.Bn9
import proofs.«118775_j16338055594318_1_alg».proof.Proof.Val.PayBn9
import proofs.«118775_j16338055594318_1_alg».proof.Proof.Val.BnArr
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-- The block indices over the grid: the tile windows 0 and 5 sit at block (t, 0) at point t, the four row windows
    stay at block (0, 0). -/
theorem blockIdx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Window 0's block at point t is rows 5000 t … 5000 t + 4999 of `main_v318_0` as the region finds it. -/
theorem tile9_apply (c : Dev nD) (t : Fin cfg9.N) (i : Fin 5000) (d : Fin 128) (R : Fin 50000) (hR : R.val = t.val * 5000 + i.val) :
    (iblk9 V c 0 t : Vec Ideal S5000x128 .f32) (ix2 i d) = (V c main_v318_0 : S50000x128.Idx → EReal) (ix2 R d) := by
  have e0 : win9_0.index t (0 : Fin 2) = t.val := (blockIdx9 t).1
  have e1 : win9_0.index t (1 : Fin 2) = 0 := (blockIdx9 t).2.1
  unfold iblk9
  rw [View.read_apply]
  show V c main_v318_0 _ = V c main_v318_0 _
  congr 1
  funext x
  apply Fin.ext
  match x with
  | ⟨0, _⟩ => show win9_0.index t (0 : Fin 2) * 5000 + 1 * i.val = R.val; rw [e0, hR]; omega
  | ⟨1, _⟩ => show win9_0.index t (1 : Fin 2) * 128 + 1 * d.val = d.val; rw [e1]; omega

/-- Window 1's block at any point is the whole [1,128] row array `main_v334` as the region finds it. -/
theorem row9_1_apply (c : Dev nD) (t : Fin cfg9.N) (d : Fin 128) :
    (iblk9 V c 1 t : Vec Ideal S1x128 .f32) (ix2 (0 : Fin 1) d) = (V c main_v334 : S1x128.Idx → EReal) (ix2 (0 : Fin 1) d) := by
  have e0 : win9_1.index t (0 : Fin 2) = 0 := (blockIdx9 t).2.2.1
  have e1 : win9_1.index t (1 : Fin 2) = 0 := (blockIdx9 t).2.2.2.1
  unfold iblk9
  rw [View.read_apply]
  show V c main_v334 _ = V c main_v334 _
  congr 1
  funext x
  apply Fin.ext
  match x with
  | ⟨0, _⟩ => show win9_1.index t (0 : Fin 2) * 1 + 1 * (0 : Fin 1).val = (0 : Fin 1).val; rw [e0]; rfl
  | ⟨1, _⟩ => show win9_1.index t (1 : Fin 2) * 128 + 1 * d.val = d.val; rw [e1]; omega

/-- Window 2's block at any point is the whole [1,128] row array `main_v335` as the region finds it. -/
theorem row9_2_apply (c : Dev nD) (t : Fin cfg9.N) (d : Fin 128) :
    (iblk9 V c 2 t : Vec Ideal S1x128 .f32) (ix2 (0 : Fin 1) d) = (V c main_v335 : S1x128.Idx → EReal) (ix2 (0 : Fin 1) d) := by
  have e0 : win9_2.index t (0 : Fin 2) = 0 := (blockIdx9 t).2.2.2.2.1
  have e1 : win9_2.index t (1 : Fin 2) = 0 := (blockIdx9 t).2.2.2.2.2.1
  unfold iblk9
  rw [View.read_apply]
  show V c main_v335 _ = V c main_v335 _
  congr 1
  funext x
  apply Fin.ext
  match x with
  | ⟨0, _⟩ => show win9_2.index t (0 : Fin 2) * 1 + 1 * (0 : Fin 1).val = (0 : Fin 1).val; rw [e0]; rfl
  | ⟨1, _⟩ => show win9_2.index t (1 : Fin 2) * 128 + 1 * d.val = d.val; rw [e1]; omega

/-- Window 3's block at any point is the whole [1,128] row array `main_v336` as the region finds it. -/
theorem row9_3_apply (c : Dev nD) (t : Fin cfg9.N) (d : Fin 128) :
    (iblk9 V c 3 t : Vec Ideal S1x128 .f32) (ix2 (0 : Fin 1) d) = (V c main_v336 : S1x128.Idx → EReal) (ix2 (0 : Fin 1) d) := by
  have e0 : win9_3.index t (0 : Fin 2) = 0 := (blockIdx9 t).2.2.2.2.2.2.1
  have e1 : win9_3.index t (1 : Fin 2) = 0 := (blockIdx9 t).2.2.2.2.2.2.2.1
  unfold iblk9
  rw [View.read_apply]
  show V c main_v336 _ = V c main_v336 _
  congr 1
  funext x
  apply Fin.ext
  match x with
  | ⟨0, _⟩ => show win9_3.index t (0 : Fin 2) * 1 + 1 * (0 : Fin 1).val = (0 : Fin 1).val; rw [e0]; rfl
  | ⟨1, _⟩ => show win9_3.index t (1 : Fin 2) * 128 + 1 * d.val = d.val; rw [e1]; omega

/-- Window 4's block at any point is the whole [1,128] row array `main_v337` as the region finds it. -/
theorem row9_4_apply (c : Dev nD) (t : Fin cfg9.N) (d : Fin 128) :
    (iblk9 V c 4 t : Vec Ideal S1x128 .f32) (ix2 (0 : Fin 1) d) = (V c main_v337 : S1x128.Idx → EReal) (ix2 (0 : Fin 1) d) := by
  have e0 : win9_4.index t (0 : Fin 2) = 0 := (blockIdx9 t).2.2.2.2.2.2.2.2.1
  have e1 : win9_4.index t (1 : Fin 2) = 0 := (blockIdx9 t).2.2.2.2.2.2.2.2.2.1
  unfold iblk9
  rw [View.read_apply]
  show V c main_v337 _ = V c main_v337 _
  congr 1
  funext x
  apply Fin.ext
  match x with
  | ⟨0, _⟩ => show win9_4.index t (0 : Fin 2) * 1 + 1 * (0 : Fin 1).val = (0 : Fin 1).val; rw [e0]; rfl
  | ⟨1, _⟩ => show win9_4.index t (1 : Fin 2) * 128 + 1 * d.val = d.val; rw [e1]; omega

/-- The body's stored value at (i, d), when its tile block reads entry (R, d) of an array `A` and its four row
    blocks read the rows `mean`, `rstd`, `gamma`, `beta` at (0, d), is entry (R, d) of the normalised array. -/
theorem pay9_block (A : S50000x128.Idx → EReal) (mean rstd gamma beta : S1x128.Idx → EReal)
    (x0 : Vec Ideal S5000x128 .f32) (x1 x2 x3 x4 : Vec Ideal S1x128 .f32) (i : Fin 5000) (d : Fin 128) (R : Fin 50000)
    (h0 : x0 (ix2 i d) = A (ix2 R d)) (h1 : x1 (ix2 (0 : Fin 1) d) = mean (ix2 (0 : Fin 1) d))
    (h2 : x2 (ix2 (0 : Fin 1) d) = rstd (ix2 (0 : Fin 1) d)) (h3 : x3 (ix2 (0 : Fin 1) d) = gamma (ix2 (0 : Fin 1) d))
    (h4 : x4 (ix2 (0 : Fin 1) d) = beta (ix2 (0 : Fin 1) d)) :
    k9_pay1 (F := Ideal) x0 x1 x2 x3 x4 (ix2 i d) = bnArr A mean rstd gamma beta (ix2 R d) := by
  rw [bn_apply, h0, h1, h2, h3, h4]
  rfl

/-- Entry (i, d) of window 5's block at point t is entry (5000 t + i, d) of the output array. -/
theorem outIdx9 (t : Fin cfg9.N) (i : Fin 5000) (d : Fin 128) (R : Fin 50000) (hR : R.val = t.val * 5000 + i.val) :
    ((cfg9.win 5).blk t).view.emb (ix2 i d) = (ix2 R d : S50000x128.Idx) := by
  have e0 : win9_5.index t (0 : Fin 2) = t.val := (blockIdx9 t).2.2.2.2.2.2.2.2.2.2.1
  have e1 : win9_5.index t (1 : Fin 2) = 0 := (blockIdx9 t).2.2.2.2.2.2.2.2.2.2.2
  funext x
  apply Fin.ext
  match x with
  | ⟨0, _⟩ => show win9_5.index t (0 : Fin 2) * 5000 + 1 * i.val = R.val; rw [e0, hR]; omega
  | ⟨1, _⟩ => show win9_5.index t (1 : Fin 2) * 128 + 1 * d.val = d.val; rw [e1]; omega

/-- What point t writes back to the output array is block t of the normalised array. -/
theorem flushed9_eq (c : Dev nD) (t : Fin cfg9.N) :
    (dat9 (F := Ideal) V c).flushed 5 t
      = ((cfg9.win 5).blk t).view.read (Elt Ideal) (bnArr (V c main_v318_0) (V c main_v334) (V c main_v335) (V c main_v336) (V c main_v337)) := by
  show (cfg9.win 5).cut (grid9.coords t) ((dat9 (F := Ideal) V c).after 5 t) = _
  rw [after9_5]
  funext j
  obtain ⟨i, d, rfl⟩ : ∃ (i : Fin 5000) (d : Fin 128), j = ix2 i d := ⟨j 0, j 1, eq_ix2 j⟩
  have ht : t.val < 10 := Nat.lt_of_lt_of_eq t.isLt (show cfg9.N = 10 from N_9)
  have hR : t.val * 5000 + i.val < 50000 := by have := i.isLt; omega
  rw [View.read_apply, outIdx9 t i d ⟨t.val * 5000 + i.val, hR⟩ rfl]
  show out9 V c t (ix2 i d) = _
  unfold out9
  exact pay9_block (V c main_v318_0) (V c main_v334) (V c main_v335) (V c main_v336) (V c main_v337)
    (iblk9 V c 0 t) (iblk9 V c 1 t) (iblk9 V c 2 t) (iblk9 V c 3 t) (iblk9 V c 4 t) i d ⟨t.val * 5000 + i.val, hR⟩
    (tile9_apply V c t i d ⟨t.val * 5000 + i.val, hR⟩ rfl) (row9_1_apply V c t d) (row9_2_apply V c t d)
    (row9_3_apply V c t d) (row9_4_apply V c t d)

/-- An index of the output array is in point t's block iff each coordinate is in the block's range on its axis. -/
theorem mem_tile9 (t : Fin cfg9.N) (idx : S50000x128.Idx) :
    idx ∈ ((cfg9.win 5).blk t).view.set ↔ ∀ a : Fin 2, win9_5.index t a * S5000x128.size a ≤ (idx a).val
      ∧ (idx a).val < win9_5.index t a * S5000x128.size a + S5000x128.size a := by
  show idx ∈ ((View.whole main_v338).slice (win9_5.rect t)).set ↔ _
  rw [View.set_slice_whole, Rect.mem_set_unit]
  exact Iff.rfl

/-- Every index of the output array is in the block of the point its row falls in: row r is written at point r / 5000. -/
theorem tiles_cover9 (idx : S50000x128.Idx) :
    ∃ t : Fin cfg9.N, (cfg9.win 5).flush t = true ∧ idx ∈ ((cfg9.win 5).blk t).view.set := by
  have h0 : (idx 0).val < 50000 := (idx 0).isLt
  have h1 : (idx 1).val < 128 := (idx 1).isLt
  have hN : (idx 0).val / 5000 < cfg9.N := by rw [show cfg9.N = 10 from N_9]; omega
  have e0 : win9_5.index ⟨(idx 0).val / 5000, hN⟩ (0 : Fin 2) = (idx 0).val / 5000 := (blockIdx9 ⟨(idx 0).val / 5000, hN⟩).2.2.2.2.2.2.2.2.2.2.1
  have e1 : win9_5.index ⟨(idx 0).val / 5000, hN⟩ (1 : Fin 2) = 0 := (blockIdx9 ⟨(idx 0).val / 5000, hN⟩).2.2.2.2.2.2.2.2.2.2.2
  refine ⟨⟨(idx 0).val / 5000, hN⟩, flush9_5 _, ?_⟩
  rw [mem_tile9]
  intro a
  match a with
  | ⟨0, _⟩ =>
    show win9_5.index ⟨(idx 0).val / 5000, hN⟩ (0 : Fin 2) * 5000 ≤ (idx 0).val
      ∧ (idx 0).val < win9_5.index ⟨(idx 0).val / 5000, hN⟩ (0 : Fin 2) * 5000 + 5000
    rw [e0]; omega
  | ⟨1, _⟩ =>
    show win9_5.index ⟨(idx 0).val / 5000, hN⟩ (1 : Fin 2) * 128 ≤ (idx 1).val
      ∧ (idx 1).val < win9_5.index ⟨(idx 0).val / 5000, hN⟩ (1 : Fin 2) * 128 + 128
    rw [e1]; omega

/-- THE OUTPUT ARRAY after the region's ten points: the normalised array of the five entry arrays. -/
theorem final9 (c : Dev nD) :
    (dat9 (F := Ideal) V c).arrAt 5 cfg9.N = bnArr (V c main_v318_0) (V c main_v334) (V c main_v335) (V c main_v336) (V c main_v337) :=
  (dat9 (F := Ideal) V c).arrAt_eq_of_cover 5 (bnArr (V c main_v318_0) (V c main_v334) (V c main_v335) (V c main_v336) (V c main_v337))
    (fun t _ => flushed9_eq V c t) (tiles_cover9)

end Cert.KernelIdeal.Val

end
-- ==== Proof.Val.Glue8.lean ====
/-
  Host stretch 8 (before region 8)'s last operations read at one element, at the ideal float values, from an arbitrary
  valuation of the buffers before it: the layer's two weight matrices and two bias rows as region 8's windows find them,
  cut out of the stacked parameter tables.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 8 the first layer's weights' buffer holds matrix 4 of the stacked first-layer weights. -/
theorem glue8_w1_eq (W : Valuation τ sig (Elt Ideal)) :
    (StableHlo.after hostOps8 W (Proc.devRef .tc main_v309) : (⟨S128x256, .f32⟩ : BufTy).Contents (Elt Ideal))
      = mat128x256 4 slices_S5x128x256_S1x128x256_4_0_0 (W (Proc.devRef .tc main_arg7)) := by
  after_results_simp
  rfl

theorem glue8_w1 (W : Valuation τ sig (Elt Ideal)) (k : Fin 128) (j : Fin 256) :
    (StableHlo.after hostOps8 W (Proc.devRef .tc main_v309) : (⟨S128x256, .f32⟩ : BufTy).Contents (Elt Ideal)) (ix2 k j)
      = (W (Proc.devRef .tc main_arg7) : (⟨S5x128x256, .f32⟩ : BufTy).Contents (Elt Ideal)) (ix3 (4 : Fin 5) k j) := by
  rw [glue8_w1_eq]; exact mat128x256_apply 4 _ _ (4 : Fin 5) rfl k j

set_option maxHeartbeats 4000000 in
/-- After stretch 8 the first layer's bias's buffer holds row 4 of the stacked first-layer biases. -/
theorem glue8_b1_eq (W : Valuation τ sig (Elt Ideal)) :
    (StableHlo.after hostOps8 W (Proc.devRef .tc main_v316) : (⟨S1x256, .f32⟩ : BufTy).Contents (Elt Ideal))
      = row256 4 slices_S5x256_S1x256_4_0 (W (Proc.devRef .tc main_arg8)) := by
  after_results_simp
  rfl

theorem glue8_b1 (W : Valuation τ sig (Elt Ideal)) (u : Fin 1) (j : Fin 256) :
    (StableHlo.after hostOps8 W (Proc.devRef .tc main_v316) : (⟨S1x256, .f32⟩ : BufTy).Contents (Elt Ideal)) (ix2 u j)
      = (W (Proc.devRef .tc main_arg8) : (⟨S5x256, .f32⟩ : BufTy).Contents (Elt Ideal)) (ix2 (4 : Fin 5) j) := by
  rw [glue8_b1_eq]; exact row256_apply 4 _ _ (4 : Fin 5) rfl u j

set_option maxHeartbeats 4000000 in
/-- After stretch 8 the second layer's weights' buffer holds matrix 4 of the stacked second-layer weights. -/
theorem glue8_w2_eq (W : Valuation τ sig (Elt Ideal)) :
    (StableHlo.after hostOps8 W (Proc.devRef .tc main_v313) : (⟨S256x128, .f32⟩ : BufTy).Contents (Elt Ideal))
      = mat256x128 4 slices_S5x256x128_S1x256x128_4_0_0 (W (Proc.devRef .tc main_arg9)) := by
  after_results_simp
  rfl

theorem glue8_w2 (W : Valuation τ sig (Elt Ideal)) (j : Fin 256) (d : Fin 128) :
    (StableHlo.after hostOps8 W (Proc.devRef .tc main_v313) : (⟨S256x128, .f32⟩ : BufTy).Contents (Elt Ideal)) (ix2 j d)
      = (W (Proc.devRef .tc main_arg9) : (⟨S5x256x128, .f32⟩ : BufTy).Contents (Elt Ideal)) (ix3 (4 : Fin 5) j d) := by
  rw [glue8_w2_eq]; exact mat256x128_apply 4 _ _ (4 : Fin 5) rfl j d

set_option maxHeartbeats 4000000 in
/-- After stretch 8 the second layer's bias's buffer holds row 4 of the stacked second-layer biases. -/
theorem glue8_b2_eq (W : Valuation τ sig (Elt Ideal)) :
    (StableHlo.after hostOps8 W (Proc.devRef .tc main_v317) : (⟨S1x128, .f32⟩ : BufTy).Contents (Elt Ideal))
      = row128 4 slices_S5x128_S1x128_4_0 (W (Proc.devRef .tc main_arg10)) := by
  after_results_simp
  rfl

theorem glue8_b2 (W : Valuation τ sig (Elt Ideal)) (u : Fin 1) (d : Fin 128) :
    (StableHlo.after hostOps8 W (Proc.devRef .tc main_v317) : (⟨S1x128, .f32⟩ : BufTy).Contents (Elt Ideal)) (ix2 u d)
      = (W (Proc.devRef .tc main_arg10) : (⟨S5x128, .f32⟩ : BufTy).Contents (Elt Ideal)) (ix2 (4 : Fin 5) d) := by
  rw [glue8_b2_eq]; exact row128_apply 4 _ _ (4 : Fin 5) rfl u d

end Cert.KernelIdeal.Val

end
-- ==== Proof.Val.Glue9.lean ====
/-
  Host stretch 9 (between region 8 and region 9) read at one element, at the ideal float values, from an arbitrary
  valuation of the buffers before it: the four [1,128] rows region 9 reads — the batch mean and the inverse standard
  deviation computed from region 8's column sum and column sum of squares, and the layer's row of gamma and of
  beta — and that the stretch leaves region 8's output tile as it was.
-/
import proofs.«118775_j16338055594318_1_alg».proof.Proof.Gen.KernelIdeal.Launch
import proofs.«118775_j16338055594318_1_alg».proof.Proof.Val.GlueOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

/-- After stretch 9 the mean's buffer holds the batch mean of region 8's column sums. -/
theorem glue9_mean_eq (W : Valuation τ sig (Elt Ideal)) :
    (StableHlo.after hostOps9 W (Proc.devRef .tc main_v334) : (⟨S1x128, .f32⟩ : BufTy).Contents (Elt Ideal))
      = meanRow (W (Proc.devRef .tc main_v318_1)) := by
  after_results
  rfl

theorem glue9_mean (W : Valuation τ sig (Elt Ideal)) (u : Fin 1) (d : Fin 128) :
    (StableHlo.after hostOps9 W (Proc.devRef .tc main_v334) : (⟨S1x128, .f32⟩ : BufTy).Contents (Elt Ideal)) (ix2 u d)
      = Ideal.div ((W (Proc.devRef .tc main_v318_1) : (⟨S1x128, .f32⟩ : BufTy).Contents (Elt Ideal)) (ix2 (0 : Fin 1) d)) nRows := by
  rw [glue9_mean_eq, meanRow_apply]

/-- After stretch 9 the inverse standard deviation's buffer holds it, from region 8's two column sums. -/
theorem glue9_rstd_eq (W : Valuation τ sig (Elt Ideal)) :
    (StableHlo.after hostOps9 W (Proc.devRef .tc main_v335) : (⟨S1x128, .f32⟩ : BufTy).Contents (Elt Ideal))
      = rstdRow (W (Proc.devRef .tc main_v318_1)) (W (Proc.devRef .tc main_v318_2)) := by
  after_results
  rfl

theorem glue9_rstd (W : Valuation τ sig (Elt Ideal)) (u : Fin 1) (d : Fin 128) :
    (StableHlo.after hostOps9 W (Proc.devRef .tc main_v335) : (⟨S1x128, .f32⟩ : BufTy).Contents (Elt Ideal)) (ix2 u d)
      = Ideal.rsqrt ((Ideal.div ((W (Proc.devRef .tc main_v318_2) : (⟨S1x128, .f32⟩ : BufTy).Contents (Elt Ideal)) (ix2 (0 : Fin 1) d)) nRows
          - Ideal.div ((W (Proc.devRef .tc main_v318_1) : (⟨S1x128, .f32⟩ : BufTy).Contents (Elt Ideal)) (ix2 (0 : Fin 1) d)) nRows
            * Ideal.div ((W (Proc.devRef .tc main_v318_1) : (⟨S1x128, .f32⟩ : BufTy).Contents (Elt Ideal)) (ix2 (0 : Fin 1) d)) nRows) + epsBn) := by
  rw [glue9_rstd_eq, rstdRow_apply]

/-- After stretch 9 the scale's buffer holds row 4 of gamma. -/
theorem glue9_gamma_eq (W : Valuation τ sig (Elt Ideal)) :
    (StableHlo.after hostOps9 W (Proc.devRef .tc main_v336) : (⟨S1x128, .f32⟩ : BufTy).Contents (Elt Ideal))
      = row128 4 slices_S5x128_S1x128_4_0 (W (Proc.devRef .tc main_arg11)) := by
  after_results
  rfl

theorem glue9_gamma (W : Valuation τ sig (Elt Ideal)) (u : Fin 1) (d : Fin 128) :
    (StableHlo.after hostOps9 W (Proc.devRef .tc main_v336) : (⟨S1x128, .f32⟩ : BufTy).Contents (Elt Ideal)) (ix2 u d)
      = (W (Proc.devRef .tc main_arg11) : (⟨S5x128, .f32⟩ : BufTy).Contents (Elt Ideal)) (ix2 (4 : Fin 5) d) := by
  rw [glue9_gamma_eq]; exact row128_apply 4 _ _ (4 : Fin 5) rfl u d

/-- After stretch 9 the shift's buffer holds row 4 of beta. -/
theorem glue9_beta_eq (W : Valuation τ sig (Elt Ideal)) :
    (StableHlo.after hostOps9 W (Proc.devRef .tc main_v337) : (⟨S1x128, .f32⟩ : BufTy).Contents (Elt Ideal))
      = row128 4 slices_S5x128_S1x128_4_0 (W (Proc.devRef .tc main_arg12)) := by
  after_results
  rfl

theorem glue9_beta (W : Valuation τ sig (Elt Ideal)) (u : Fin 1) (d : Fin 128) :
    (StableHlo.after hostOps9 W (Proc.devRef .tc main_v337) : (⟨S1x128, .f32⟩ : BufTy).Contents (Elt Ideal)) (ix2 u d)
      = (W (Proc.devRef .tc main_arg12) : (⟨S5x128, .f32⟩ : BufTy).Contents (Elt Ideal)) (ix2 (4 : Fin 5) d) := by
  rw [glue9_beta_eq]; exact row128_apply 4 _ _ (4 : Fin 5) rfl u d

/-- Stretch 9 writes none of region 8's output tile: its buffer holds after the stretch what it held before. -/
theorem glue9_keep (W : Valuation τ sig (Elt Ideal)) :
    StableHlo.after hostOps9 W (Proc.devRef .tc main_v318_0) = W (Proc.devRef .tc main_v318_0) := by
  after_results <;> rfl

end Cert.KernelIdeal.Val

end
-- ==== Proof.Val.LayerK4.lean ====
/-
  Layer 4 of the program in closed form.  Region 8 leaves, in its three output arrays, the two-layer perceptron of
  the aggregated features it finds and that array's column sums and column sums of squares, collected tile by tile; the
  host stretch after it turns the two sums into the column mean and the reciprocal of the square root of the raw variance
  plus the guard, and cuts row 4 out of the scale and shift tables; region 9 normalises the perceptron's array by those four
  rows.  The weights and biases region 8 reads are row 4 of the stacked parameter tables, which no
  operation and no region writes: they are the launch memory's.  So the layer's result is the normalised perceptron in
  the tiled arrangement, of the aggregated features and the launch memory's parameters.
-/
import proofs.«118775_j16338055594318_1_alg».proof.Proof.Val.Keep
import proofs.«118775_j16338055594318_1_alg».proof.Proof.Val.FinalMlp8
import proofs.«118775_j16338055594318_1_alg».proof.Proof.Val.Final9
import proofs.«118775_j16338055594318_1_alg».proof.Proof.Val.Glue8
import proofs.«118775_j16338055594318_1_alg».proof.Proof.Val.Glue9
import proofs.«118775_j16338055594318_1_alg».proof.Proof.Val.Step

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Cert.Spec

/-- Row i of tile t, in the two spellings of the same row number. -/
theorem tileRow_eq_row4 (t : Fin 10) (i : Fin 5000) : (Cert.Moments.tileRow t i : Fin 50000) = Cert.Spec.row t i := by
  apply Fin.ext
  show (Cert.Moments.tileRow t i).val = 5000 * t.val + i.val
  rw [Cert.Moments.tileRow_val]; omega

section
variable (m : (ℓ : Loc nD τ sig) → Buf (Elt Ideal) ℓ) (ρ : Dev nD → PrngReg) (c : Dev nD)

/-- Region 8's weight and bias windows find row 4 of the launch memory's parameter tables. -/
theorem w1At4 (k : Fin 128) (j : Fin 256) :
    (V17 (F := Ideal) m ρ c main_v309 : S128x256.Idx → EReal) (ix2 k j) = (m ((c.tc : Thread nD τ).loc main_arg7) : (⟨S5x128x256, .f32⟩ : BufTy).Contents (Elt Ideal)) (ix3 (4 : Fin 5) k j) :=
  (glue8_w1 (W16 (F := Ideal) m ρ c) k j).trans (congrFun (W16_arg7 (F := Ideal) m ρ c) _)
theorem b1At4 (j : Fin 256) :
    (V17 (F := Ideal) m ρ c main_v316 : S1x256.Idx → EReal) (ix2 (0 : Fin 1) j) = (m ((c.tc : Thread nD τ).loc main_arg8) : (⟨S5x256, .f32⟩ : BufTy).Contents (Elt Ideal)) (ix2 (4 : Fin 5) j) :=
  (glue8_b1 (W16 (F := Ideal) m ρ c) (0 : Fin 1) j).trans (congrFun (W16_arg8 (F := Ideal) m ρ c) _)
theorem w2At4 (j : Fin 256) (d : Fin 128) :
    (V17 (F := Ideal) m ρ c main_v313 : S256x128.Idx → EReal) (ix2 j d) = (m ((c.tc : Thread nD τ).loc main_arg9) : (⟨S5x256x128, .f32⟩ : BufTy).Contents (Elt Ideal)) (ix3 (4 : Fin 5) j d) :=
  (glue8_w2 (W16 (F := Ideal) m ρ c) j d).trans (congrFun (W16_arg9 (F := Ideal) m ρ c) _)
theorem b2At4 (d : Fin 128) :
    (V17 (F := Ideal) m ρ c main_v317 : S1x128.Idx → EReal) (ix2 (0 : Fin 1) d) = (m ((c.tc : Thread nD τ).loc main_arg10) : (⟨S5x128, .f32⟩ : BufTy).Contents (Elt Ideal)) (ix2 (4 : Fin 5) d) :=
  (glue8_b2 (W16 (F := Ideal) m ρ c) (0 : Fin 1) d).trans (congrFun (W16_arg10 (F := Ideal) m ρ c) _)

/-- The perceptron's array of region 8's entry arrays, at (r, d), is the perceptron of the aggregated features and
    the launch memory's parameters. -/
theorem hnAt4 (r : Fin 50000) (d : Fin 128) :
    mlpArr (V17 (F := Ideal) m ρ c main_v307) (V17 (F := Ideal) m ρ c main_v309) (V17 (F := Ideal) m ρ c main_v316) (V17 (F := Ideal) m ρ c main_v313) (V17 (F := Ideal) m ρ c main_v317) (ix2 r d)
      = Cert.Spec.hn (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) r d := by
  unfold mlpArr Cert.Spec.hn
  simp only [w1At4 m ρ c, b1At4 m ρ c, w2At4 m ρ c, b2At4 m ρ c]

/-- Region 8's column sums, as the host stretch after it finds them: the tiled sum of the perceptron's column. -/
theorem sumAt4 (d : Fin 128) :
    (W18 (F := Ideal) m ρ c (Proc.devRef .tc main_v318_1) : S1x128.Idx → EReal) (ix2 (0 : Fin 1) d)
      = Cert.Spec.sumT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) d := by
  have h1 : ((dat8 (F := Ideal) (V17 (F := Ideal) m ρ) c).arrAt 6 cfg8.N : S1x128.Idx → EReal) (ix2 (0 : Fin 1) d) = _ :=
    final8_sum (V17 (F := Ideal) m ρ) c (0 : Fin 1) d
  have h0 : (W18 (F := Ideal) m ρ c (Proc.devRef .tc main_v318_1) : S1x128.Idx → EReal) (ix2 (0 : Fin 1) d)
      = ((dat8 (F := Ideal) (V17 (F := Ideal) m ρ) c).arrAt 6 cfg8.N : S1x128.Idx → EReal) (ix2 (0 : Fin 1) d) :=
    congrFun (W18_arr (F := Ideal) m ρ c 6) (ix2 (0 : Fin 1) d)
  have h2 : (∑ t : Fin 10, ∑ i : Fin 5000, mlpArr (V17 (F := Ideal) m ρ c main_v307) (V17 (F := Ideal) m ρ c main_v309) (V17 (F := Ideal) m ρ c main_v316) (V17 (F := Ideal) m ρ c main_v313) (V17 (F := Ideal) m ρ c main_v317) (ix2 (Cert.Moments.tileRow t i) d)) = Cert.Spec.sumT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) d := by
    unfold Cert.Spec.sumT
    refine Finset.sum_congr rfl fun t _ => Finset.sum_congr rfl fun i _ => ?_
    exact (hnAt4 m ρ c (Cert.Moments.tileRow t i) d).trans (congrArg (fun rr => Cert.Spec.hn (fun r k => (W17 (F := Ideal) m ρ c (Proc.devRef .tc main_v307) : Feat) (ix2 r k))
            (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
            (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) rr d) (tileRow_eq_row4 t i))
  exact (h0.trans h1).trans h2

/-- The same for the column sums of squares. -/
theorem sumsqAt4 (d : Fin 128) :
    (W18 (F := Ideal) m ρ c (Proc.devRef .tc main_v318_2) : S1x128.Idx → EReal) (ix2 (0 : Fin 1) d)
      = Cert.Spec.sumsqT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) d := by
  have h1 : ((dat8 (F := Ideal) (V17 (F := Ideal) m ρ) c).arrAt 7 cfg8.N : S1x128.Idx → EReal) (ix2 (0 : Fin 1) d) = _ :=
    final8_sumsq (V17 (F := Ideal) m ρ) c (0 : Fin 1) d
  have h0 : (W18 (F := Ideal) m ρ c (Proc.devRef .tc main_v318_2) : S1x128.Idx → EReal) (ix2 (0 : Fin 1) d)
      = ((dat8 (F := Ideal) (V17 (F := Ideal) m ρ) c).arrAt 7 cfg8.N : S1x128.Idx → EReal) (ix2 (0 : Fin 1) d) :=
    congrFun (W18_arr (F := Ideal) m ρ c 7) (ix2 (0 : Fin 1) d)
  have h2 : (∑ t : Fin 10, ∑ i : Fin 5000, mlpArr (V17 (F := Ideal) m ρ c main_v307) (V17 (F := Ideal) m ρ c main_v309) (V17 (F := Ideal) m ρ c main_v316) (V17 (F := Ideal) m ρ c main_v313) (V17 (F := Ideal) m ρ c main_v317) (ix2 (Cert.Moments.tileRow t i) d)
      * mlpArr (V17 (F := Ideal) m ρ c main_v307) (V17 (F := Ideal) m ρ c main_v309) (V17 (F := Ideal) m ρ c main_v316) (V17 (F := Ideal) m ρ c main_v313) (V17 (F := Ideal) m ρ c main_v317) (ix2 (Cert.Moments.tileRow t i) d)) = Cert.Spec.sumsqT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) d := by
    unfold Cert.Spec.sumsqT
    refine Finset.sum_congr rfl fun t _ => Finset.sum_congr rfl fun i _ => ?_
    rw [hnAt4 m ρ c (Cert.Moments.tileRow t i) d]
    exact congrArg (fun rr => Cert.Spec.hn (fun r k => (W17 (F := Ideal) m ρ c (Proc.devRef .tc main_v307) : Feat) (ix2 r k))
            (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
            (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) rr d * Cert.Spec.hn (fun r k => (W17 (F := Ideal) m ρ c (Proc.devRef .tc main_v307) : Feat) (ix2 r k))
            (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
            (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) rr d) (tileRow_eq_row4 t i)
  exact (h0.trans h1).trans h2

/-- Region 9's tile window finds region 8's perceptron array. -/
theorem xAt4 (r : Fin 50000) (d : Fin 128) :
    (V19 (F := Ideal) m ρ c main_v318_0 : Feat) (ix2 r d) = Cert.Spec.hn (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) r d := by
  have e1 : V19 (F := Ideal) m ρ c main_v318_0 = W18 (F := Ideal) m ρ c (Proc.devRef .tc main_v318_0) := glue9_keep (W18 (F := Ideal) m ρ c)
  have e2 : W18 (F := Ideal) m ρ c (Proc.devRef .tc main_v318_0) = mlpArr (V17 (F := Ideal) m ρ c main_v307) (V17 (F := Ideal) m ρ c main_v309) (V17 (F := Ideal) m ρ c main_v316) (V17 (F := Ideal) m ρ c main_v313) (V17 (F := Ideal) m ρ c main_v317) :=
    (W18_arr (F := Ideal) m ρ c 5).trans (final8_hn (V17 (F := Ideal) m ρ) c)
  exact (congrFun (e1.trans e2) (ix2 r d)).trans (hnAt4 m ρ c r d)

/-- Its mean row is the mean from the tiles' sums; -/
theorem meanAt4 (d : Fin 128) :
    (V19 (F := Ideal) m ρ c main_v334 : S1x128.Idx → EReal) (ix2 (0 : Fin 1) d)
      = Cert.Spec.meanT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) nRows d := by
  refine (glue9_mean (W18 (F := Ideal) m ρ c) (0 : Fin 1) d).trans ?_
  rw [sumAt4 m ρ c d]
  rfl

/-- its reciprocal-deviation row is the reciprocal square root of the raw variance plus the guard; -/
theorem rstdAt4 (d : Fin 128) :
    (V19 (F := Ideal) m ρ c main_v335 : S1x128.Idx → EReal) (ix2 (0 : Fin 1) d)
      = Ideal.rsqrt (Cert.Spec.varT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d)) nRows d + epsBn) := by
  refine (glue9_rstd (W18 (F := Ideal) m ρ c) (0 : Fin 1) d).trans ?_
  rw [sumAt4 m ρ c d, sumsqAt4 m ρ c d]
  rfl

/-- its scale and shift rows are row 4 of the launch memory's tables. -/
theorem gammaAt4 (d : Fin 128) :
    (V19 (F := Ideal) m ρ c main_v336 : S1x128.Idx → EReal) (ix2 (0 : Fin 1) d) = (m ((c.tc : Thread nD τ).loc main_arg11) : (⟨S5x128, .f32⟩ : BufTy).Contents (Elt Ideal)) (ix2 (4 : Fin 5) d) :=
  (glue9_gamma (W18 (F := Ideal) m ρ c) (0 : Fin 1) d).trans (congrFun (W18_arg11 (F := Ideal) m ρ c) _)
theorem betaAt4 (d : Fin 128) :
    (V19 (F := Ideal) m ρ c main_v337 : S1x128.Idx → EReal) (ix2 (0 : Fin 1) d) = (m ((c.tc : Thread nD τ).loc main_arg12) : (⟨S5x128, .f32⟩ : BufTy).Contents (Elt Ideal)) (ix2 (4 : Fin 5) d) :=
  (glue9_beta (W18 (F := Ideal) m ρ c) (0 : Fin 1) d).trans (congrFun (W18_arg12 (F := Ideal) m ρ c) _)

end

/-- The normalisation at (r, d) from its five inputs read at (r, d) and (0, d). -/
theorem bnArr_at4 (X : Feat) (Mn Rs Ga Be : S1x128.Idx → EReal) (r : Fin 50000) (d : Fin 128) (x mn rs ga be : EReal)
    (hX : X (ix2 r d) = x) (hMn : Mn (ix2 (0 : Fin 1) d) = mn) (hRs : Rs (ix2 (0 : Fin 1) d) = rs)
    (hGa : Ga (ix2 (0 : Fin 1) d) = ga) (hBe : Be (ix2 (0 : Fin 1) d) = be) :
    bnArr X Mn Rs Ga Be (ix2 r d) = ((x - mn) * rs) * ga + be := by
  subst hX hMn hRs hGa hBe
  rfl

/-- LAYER 4: the array region 9 leaves, entry by entry, is the normalised perceptron in the tiled arrangement, of the aggregated features region 8 finds and row 4 of the launch memory's parameter tables. -/
theorem layerK4 (m : (ℓ : Loc nD τ sig) → Buf (Elt Ideal) ℓ) (ρ : Dev nD → PrngReg) (c : Dev nD) (r : Fin 50000) (d : Fin 128) :
    (W20 (F := Ideal) m ρ c (Proc.devRef .tc main_v338) : Feat) (ix2 r d)
      = normT (fun r k => (W17 (F := Ideal) m ρ c (Proc.devRef .tc main_v307) : Feat) (ix2 r k))
          (fun k j => (m ((c.tc : Thread nD τ).loc main_arg7) : (⟨S5x128x256, .f32⟩ : BufTy).Contents (Elt Ideal)) (ix3 (4 : Fin 5) k j)) (fun j => (m ((c.tc : Thread nD τ).loc main_arg8) : (⟨S5x256, .f32⟩ : BufTy).Contents (Elt Ideal)) (ix2 (4 : Fin 5) j))
          (fun j d => (m ((c.tc : Thread nD τ).loc main_arg9) : (⟨S5x256x128, .f32⟩ : BufTy).Contents (Elt Ideal)) (ix3 (4 : Fin 5) j d)) (fun d => (m ((c.tc : Thread nD τ).loc main_arg10) : (⟨S5x128, .f32⟩ : BufTy).Contents (Elt Ideal)) (ix2 (4 : Fin 5) d))
          (fun d => (m ((c.tc : Thread nD τ).loc main_arg11) : (⟨S5x128, .f32⟩ : BufTy).Contents (Elt Ideal)) (ix2 (4 : Fin 5) d)) (fun d => (m ((c.tc : Thread nD τ).loc main_arg12) : (⟨S5x128, .f32⟩ : BufTy).Contents (Elt Ideal)) (ix2 (4 : Fin 5) d)) nRows epsBn r d := by
  have hout : W20 (F := Ideal) m ρ c (Proc.devRef .tc main_v338)
      = bnArr (V19 (F := Ideal) m ρ c main_v318_0) (V19 (F := Ideal) m ρ c main_v334) (V19 (F := Ideal) m ρ c main_v335) (V19 (F := Ideal) m ρ c main_v336) (V19 (F := Ideal) m ρ c main_v337) :=
    (W20_arr (F := Ideal) m ρ c 5).trans (final9 (V19 (F := Ideal) m ρ) c)
  refine (congrFun hout (ix2 r d)).trans ?_
  exact bnArr_at4 _ _ _ _ _ r d _ _ _ _ _ (xAt4 m ρ c r d) (meanAt4 m ρ c d) (rstdAt4 m ρ c d) (gammaAt4 m ρ c d) (betaAt4 m ρ c d)

end Cert.KernelIdeal.Val

end
-- ==== Proof.Val.Agg8.lean ====
/-
  Host stretch 8 (before region 8) up to the aggregate, from an arbitrary valuation of the buffers before it: the
  buffer region 8 reads its input tile from holds the layer's aggregate, as the pure function of the buffers the
  stretch reads.
-/
import proofs.«118775_j16338055594318_1_alg».proof.Proof.Gen.KernelIdeal.Launch
import proofs.«118775_j16338055594318_1_alg».proof.Proof.Val.AggOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

set_option maxHeartbeats 4000000 in
/-- After stretch 8 the aggregate's buffer holds layer 4's aggregate of region 7's output. -/
theorem agg8_eq (W : Valuation τ sig (Elt Ideal)) :
    (StableHlo.after hostOps8 W (Proc.devRef .tc main_v307) : (⟨S50000x128, .f32⟩ : BufTy).Contents (Elt Ideal))
      = aggArr (W (Proc.devRef .tc main_v277)) (W (Proc.devRef .tc main_v22)) (W (Proc.devRef .tc main_v25))
          (W (Proc.devRef .tc main_v29)) (W (Proc.devRef .tc main_v33))
          (tab6 4 slices_S5x6x128_S1x6x128_4_0_0 (W (Proc.devRef .tc main_arg5)))
          (tab3 4 slices_S5x3x128_S1x3x128_4_0_0 (W (Proc.devRef .tc main_arg6))) := by
  after_results_simp
  rfl

end Cert.KernelIdeal.Val

end
-- ==== Proof.Val.RefDense4.lean ====
/-
  Layer 4 of the reference program read at an entry.  The layer's 90 operations are its aggregation (the first 37,
  ending in the scatter that writes `main_v371`) followed by its dense part (the other 53: the slices of the stacked weights at
  row 4, the two-layer perceptron, the column statistics, the normalization), whose result `main_v417` is, at
  row r and column d, the centred normalization of the perceptron of the aggregate.  The aggregate is left as
  the buffer `main_v371` after the layer; the weights are the program's arguments, which no operation of the layer writes.
-/
import proofs.«118775_j16338055594318_1_alg».proof.Proof.Val.RefOps
import proofs.«118775_j16338055594318_1_alg».proof.Proof.Val.RefDenseCore

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The layer's aggregation: its first 37 operations, -/
abbrev refAgg4 : List (HloOp τ sig (Elt Ideal)) := List.take 37 (refLayer4 (F := Ideal))
/-- and its dense part: the others. -/
abbrev refDense4 : List (HloOp τ sig (Elt Ideal)) := List.drop 37 (refLayer4 (F := Ideal))

/-- Running the layer is running its aggregation and then its dense part. -/
theorem after_refLayer4_split (W : Valuation τ sig (Elt Ideal)) :
    after (refLayer4 (F := Ideal)) W = after refDense4 (after refAgg4 W) :=
  (congrArg (fun l => after l W) (List.take_append_drop 37 (refLayer4 (F := Ideal))).symm).trans
    (Cert.Lib.RunPieces.after_append _ _ W)

set_option maxHeartbeats 4000000 in
/-- The dense part's result from any contents: the layer's array functions of the aggregate's buffer and the weights'. -/
theorem refDense4_result (W' : Valuation τ sig (Elt Ideal)) :
    after refDense4 W' (Proc.devRef .tc main_v417)
      = normArr (mlpArr (W' (Proc.devRef .tc main_v371))
          (sliceW1 ![4, 0, 0] slices_S5x128x256_S1x128x256_4_0_0 (W' (Proc.devRef .tc main_arg7)))
          (sliceV256 ![4, 0] slices_S5x256_S1x256_4_0 (W' (Proc.devRef .tc main_arg8)))
          (sliceW2 ![4, 0, 0] slices_S5x256x128_S1x256x128_4_0_0 (W' (Proc.devRef .tc main_arg9)))
          (sliceV128 ![4, 0] slices_S5x128_S1x128_4_0 (W' (Proc.devRef .tc main_arg10))))
        (sliceV128 ![4, 0] slices_S5x128_S1x128_4_0 (W' (Proc.devRef .tc main_arg11)))
        (sliceV128 ![4, 0] slices_S5x128_S1x128_4_0 (W' (Proc.devRef .tc main_arg12))) := by
  simp only [refDense4, refLayer4, List.drop_succ_cons, List.drop_zero]
  after_results_simp <;> rfl

set_option maxHeartbeats 4000000 in
/-- The dense part does not write the aggregate's buffer. -/
theorem refDense4_keeps_agg (W' : Valuation τ sig (Elt Ideal)) :
    after refDense4 W' (Proc.devRef .tc main_v371) = W' (Proc.devRef .tc main_v371) := by
  simp only [refDense4, refLayer4, List.drop_succ_cons, List.drop_zero]
  after_results_simp <;> rfl

/-- The aggregation writes none of the program's arguments. -/
theorem refAgg4_keeps (W : Valuation τ sig (Elt Ideal)) (b : Ref sig .tc) (hb : b ∉ refLayer4_W) :
    after refAgg4 W (Proc.devRef .tc b) = W (Proc.devRef .tc b) :=
  after_of_writes_sub refAgg4 W
    (List.forall_iff_forall_mem.mpr fun op h => (List.forall_iff_forall_mem.mp (refLayer4_writes (F := Ideal))) op (List.mem_of_mem_take h)) hb

/-- LAYER 4 AT AN ENTRY: the result buffer at (r, d) from the layer's aggregate and the weights' row 4. -/
theorem refLayer4_apply (W : Valuation τ sig (Elt Ideal)) (r : Fin 50000) (d : Fin 128) :
    after (refLayer4 (F := Ideal)) W (Proc.devRef .tc main_v417) (ix2 r d)
      = Cert.Spec.normC (fun r k => after (refLayer4 (F := Ideal)) W (Proc.devRef .tc main_v371) (ix2 r k))
          (fun k j => W (Proc.devRef .tc main_arg7) (ix3 (4 : Fin 5) k j)) (fun j => W (Proc.devRef .tc main_arg8) (ix2 (4 : Fin 5) j))
          (fun j d => W (Proc.devRef .tc main_arg9) (ix3 (4 : Fin 5) j d)) (fun d => W (Proc.devRef .tc main_arg10) (ix2 (4 : Fin 5) d))
          (fun d => W (Proc.devRef .tc main_arg11) (ix2 (4 : Fin 5) d)) (fun d => W (Proc.devRef .tc main_arg12) (ix2 (4 : Fin 5) d))
          (Ideal.ofBits .f32 0x47435000#32) (Ideal.ofBits .f32 0x3727C5AC#32) r d := by
  have hA : after (refLayer4 (F := Ideal)) W (Proc.devRef .tc main_v371) = after refAgg4 W (Proc.devRef .tc main_v371) := by
    rw [after_refLayer4_split]; exact refDense4_keeps_agg _
  have key := congrFun (refDense4_result (after refAgg4 W)) (ix2 r d)
  rw [refAgg4_keeps W main_arg7 (by decide), refAgg4_keeps W main_arg8 (by decide), refAgg4_keeps W main_arg9 (by decide),
    refAgg4_keeps W main_arg10 (by decide), refAgg4_keeps W main_arg11 (by decide), refAgg4_keeps W main_arg12 (by decide),
    dense_apply] at key
  rw [hA, after_refLayer4_split]
  refine key.trans ?_
  simp only [sliceW1_apply (4 : Fin 5) ![4, 0, 0] rfl, sliceW2_apply (4 : Fin 5) ![4, 0, 0] rfl,
    sliceV256_apply (4 : Fin 5) ![4, 0] rfl, sliceV128_apply (4 : Fin 5) ![4, 0] rfl]

end Cert.ReferenceIdeal.Hand

end
-- ==== Proof.Val.AggReal.lean ====
/-
  The aggregation keeps finite values finite. A gather reads an entry of its operand, whatever the indices say; a
  scatter that adds into the zero array leaves at each entry a finite sum of the updates; the sum of finite values is
  finite. So a layer's aggregate of finite node features and finite embedding tables is finite at every entry, and so
  is the input embedding of finite tables.
-/
import proofs.«118775_j16338055594318_1_alg».proof.Proof.Val.AggOps
import proofs.«118775_j16338055594318_1_alg».proof.Proof.LibFinite
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Cert.Finite

/-- A table cut out of a stack of finite tables is finite. -/
theorem isReal_tab6 (r : ℕ) (h : S5x6x128.Slices ![r, 0, 0] S1x6x128) (x : Vec Ideal S5x6x128 .f32)
    (hx : ∀ i, IsReal (x i)) : ∀ i, IsReal (tab6 r h x i) := fun i => by
  unfold tab6 shapeCast extractStridedSlice
  exact hx _

theorem isReal_tab3 (r : ℕ) (h : S5x3x128.Slices ![r, 0, 0] S1x3x128) (x : Vec Ideal S5x3x128 .f32)
    (hx : ∀ i, IsReal (x i)) : ∀ i, IsReal (tab3 r h x i) := fun i => by
  unfold tab3 shapeCast extractStridedSlice
  exact hx _

/-- A gather of a finite operand is finite: each entry is an entry of the operand. -/
theorem isReal_gather {s si so : Shape} {w : Nat} (d : GatherDims s si so) (x : s.Idx → EReal) (idx : IVec si w)
    (hx : ∀ i, IsReal (x i)) : ∀ j, IsReal (Host.gather d x idx j) := fun j => by
  unfold Host.gather
  exact hx _

/-- The zero splat over the node features' shape is zero at every entry. -/
theorem zeroNodes_apply (i : S50000x128.Idx) :
    broadcastInDim S50000x128 ![] bcast_S_S50000x128 (constant (F := Ideal) S_ .f32 0x00000000#32) i = 0 :=
  (broadcastInDim_apply ![] bcast_S_S50000x128 _ i ix0 (fun a => a.elim0)).trans Ideal.ofBits_zero_f32

/-- A layer's aggregate of finite node features and finite embedding tables is finite at every entry. -/
theorem isReal_aggArr (h : Vec Ideal S50000x128 .f32) (src dst ea0 ea1 : Vec Ideal S650000 .i32) (e1 : Vec Ideal S6x128 .f32)
    (e2 : Vec Ideal S3x128 .f32) (hh : ∀ i, IsReal (h i)) (h1 : ∀ i, IsReal (e1 i)) (h2 : ∀ i, IsReal (e2 i)) :
    ∀ i, IsReal (aggArr h src dst ea0 ea1 e1 e2 i) := fun i => by
  unfold aggArr Host.scatterAdd
  refine isReal_hostScatterAdd _ _ _ _ (fun k => ?_) (fun j => ?_) i
  · rw [zeroNodes_apply]; exact isReal_zero
  · exact (isReal_gather _ _ _ hh j).add ((isReal_gather _ _ _ h1 j).add (isReal_gather _ _ _ h2 j))

/-- The input embedding of finite tables is finite at every entry. -/
theorem isReal_h0Arr (x : Vec Ideal S50000x2 .i32) (t1 : Vec Ideal S120x128 .f32) (t2 : Vec Ideal S3x128 .f32)
    (h1 : ∀ i, IsReal (t1 i)) (h2 : ∀ i, IsReal (t2 i)) : ∀ i, IsReal (h0Arr x t1 t2 i) := fun i => by
  unfold h0Arr
  exact (isReal_gather _ _ _ h1 i).add (isReal_gather _ _ _ h2 i)

end Cert.KernelIdeal.Val

end
-- ==== Proof.Val.AggRef.lean ====
/-
  The reference program computes each layer's aggregate as the same pure function as the kernel's program: after a
  layer's piece of the reference, from an arbitrary valuation of its buffers before the piece, the aggregate's buffer
  holds the aggregation function (built from the kernel's program's printed records) of the buffers the piece reads.
  The two programs' shapes and dimension records are the same literal structures, so the two sides meet by unfolding.
-/
import proofs.«118775_j16338055594318_1_alg».proof.Proof.Gen.ReferenceIdeal
import proofs.«118775_j16338055594318_1_alg».proof.Proof.Val.RefOps
import proofs.«118775_j16338055594318_1_alg».proof.Proof.Val.AggOps
import Idealize.ShloMosaic.Lib.StableHlo.Run

set_option maxRecDepth 16384

noncomputable section

namespace Cert.ReferenceIdeal.Hand

open Cert.ReferenceIdeal Cert.ReferenceIdeal.Gen Cert.ReferenceIdeal.Hand Idealize.ShloMosaic Idealize.ShloMosaic.TcCoe Idealize.SL.Sem
open Cert.KernelIdeal.Val (aggArr tab6 tab3 h0Arr srcOf dstOf ea0Of ea1Of)

set_option maxHeartbeats 4000000 in
/-- After the reference's layer 0 the aggregate's buffer holds layer 0's aggregate of the input embedding: the same function
    of the buffers read as the kernel's program computes. -/
theorem refAgg0_eq (W : Valuation τ sig (Elt Ideal)) :
    (StableHlo.after refLayer0 W (Proc.devRef .tc main_v63) : (⟨S50000x128, .f32⟩ : BufTy).Contents (Elt Ideal))
      = aggArr (W (Proc.devRef .tc main_v18)) (W (Proc.devRef .tc main_v22)) (W (Proc.devRef .tc main_v25))
          (W (Proc.devRef .tc main_v29)) (W (Proc.devRef .tc main_v33))
          (tab6 0 Cert.KernelIdeal.Gen.slices_S5x6x128_S1x6x128_0_0_0 (W (Proc.devRef .tc main_arg5)))
          (tab3 0 Cert.KernelIdeal.Gen.slices_S5x3x128_S1x3x128_0_0_0 (W (Proc.devRef .tc main_arg6))) := by
  after_results_simp
  rfl

set_option maxHeartbeats 4000000 in
/-- After the reference's layer 1 the aggregate's buffer holds layer 1's aggregate of the previous layer's output: the same function
    of the buffers read as the kernel's program computes. -/
theorem refAgg1_eq (W : Valuation τ sig (Elt Ideal)) :
    (StableHlo.after refLayer1 W (Proc.devRef .tc main_v140) : (⟨S50000x128, .f32⟩ : BufTy).Contents (Elt Ideal))
      = aggArr (W (Proc.devRef .tc main_v110)) (W (Proc.devRef .tc main_v22)) (W (Proc.devRef .tc main_v25))
          (W (Proc.devRef .tc main_v29)) (W (Proc.devRef .tc main_v33))
          (tab6 1 Cert.KernelIdeal.Gen.slices_S5x6x128_S1x6x128_1_0_0 (W (Proc.devRef .tc main_arg5)))
          (tab3 1 Cert.KernelIdeal.Gen.slices_S5x3x128_S1x3x128_1_0_0 (W (Proc.devRef .tc main_arg6))) := by
  after_results_simp
  rfl

set_option maxHeartbeats 4000000 in
/-- After the reference's layer 2 the aggregate's buffer holds layer 2's aggregate of the previous layer's output: the same function
    of the buffers read as the kernel's program computes. -/
theorem refAgg2_eq (W : Valuation τ sig (Elt Ideal)) :
    (StableHlo.after refLayer2 W (Proc.devRef .tc main_v217) : (⟨S50000x128, .f32⟩ : BufTy).Contents (Elt Ideal))
      = aggArr (W (Proc.devRef .tc main_v187)) (W (Proc.devRef .tc main_v22)) (W (Proc.devRef .tc main_v25))
          (W (Proc.devRef .tc main_v29)) (W (Proc.devRef .tc main_v33))
          (tab6 2 Cert.KernelIdeal.Gen.slices_S5x6x128_S1x6x128_2_0_0 (W (Proc.devRef .tc main_arg5)))
          (tab3 2 Cert.KernelIdeal.Gen.slices_S5x3x128_S1x3x128_2_0_0 (W (Proc.devRef .tc main_arg6))) := by
  after_results_simp
  rfl

set_option maxHeartbeats 4000000 in
/-- After the reference's layer 3 the aggregate's buffer holds layer 3's aggregate of the previous layer's output: the same function
    of the buffers read as the kernel's program computes. -/
theorem refAgg3_eq (W : Valuation τ sig (Elt Ideal)) :
    (StableHlo.after refLayer3 W (Proc.devRef .tc main_v294) : (⟨S50000x128, .f32⟩ : BufTy).Contents (Elt Ideal))
      = aggArr (W (Proc.devRef .tc main_v264)) (W (Proc.devRef .tc main_v22)) (W (Proc.devRef .tc main_v25))
          (W (Proc.devRef .tc main_v29)) (W (Proc.devRef .tc main_v33))
          (tab6 3 Cert.KernelIdeal.Gen.slices_S5x6x128_S1x6x128_3_0_0 (W (Proc.devRef .tc main_arg5)))
          (tab3 3 Cert.KernelIdeal.Gen.slices_S5x3x128_S1x3x128_3_0_0 (W (Proc.devRef .tc main_arg6))) := by
  after_results_simp
  rfl

set_option maxHeartbeats 4000000 in
/-- After the reference's layer 4 the aggregate's buffer holds layer 4's aggregate of the previous layer's output: the same function
    of the buffers read as the kernel's program computes. -/
theorem refAgg4_eq (W : Valuation τ sig (Elt Ideal)) :
    (StableHlo.after refLayer4 W (Proc.devRef .tc main_v371) : (⟨S50000x128, .f32⟩ : BufTy).Contents (Elt Ideal))
      = aggArr (W (Proc.devRef .tc main_v341)) (W (Proc.devRef .tc main_v22)) (W (Proc.devRef .tc main_v25))
          (W (Proc.devRef .tc main_v29)) (W (Proc.devRef .tc main_v33))
          (tab6 4 Cert.KernelIdeal.Gen.slices_S5x6x128_S1x6x128_4_0_0 (W (Proc.devRef .tc main_arg5)))
          (tab3 4 Cert.KernelIdeal.Gen.slices_S5x3x128_S1x3x128_4_0_0 (W (Proc.devRef .tc main_arg6))) := by
  after_results_simp
  rfl

end Cert.ReferenceIdeal.Hand

end
-- ==== Proof.Val.AggRefPre.lean ====
/-
  The reference program's prefix computes the input embedding and the edge lists with their self loops as the same pure
  functions of the arguments as the kernel's program: after the prefix, from an arbitrary valuation of the buffers
  before it, each of the five buffers the layers read holds its function of the arguments.
-/
import proofs.«118775_j16338055594318_1_alg».proof.Proof.Gen.ReferenceIdeal
import proofs.«118775_j16338055594318_1_alg».proof.Proof.Val.RefOps
import proofs.«118775_j16338055594318_1_alg».proof.Proof.Val.AggOps
import Idealize.ShloMosaic.Lib.StableHlo.Run

set_option maxRecDepth 16384

noncomputable section

namespace Cert.ReferenceIdeal.Hand

open Cert.ReferenceIdeal Cert.ReferenceIdeal.Gen Cert.ReferenceIdeal.Hand Idealize.ShloMosaic Idealize.ShloMosaic.TcCoe Idealize.SL.Sem
open Cert.KernelIdeal.Val (aggArr tab6 tab3 h0Arr srcOf dstOf ea0Of ea1Of)

set_option maxHeartbeats 4000000 in
/-- After the prefix the node features' buffer holds the input embedding of the arguments. -/
theorem refPre_h0 (W : Valuation τ sig (Elt Ideal)) :
    (StableHlo.after refPre W (Proc.devRef .tc main_v18) : (⟨S50000x128, .f32⟩ : BufTy).Contents (Elt Ideal))
      = h0Arr (W (Proc.devRef .tc main_arg0)) (W (Proc.devRef .tc main_arg3)) (W (Proc.devRef .tc main_arg4)) := by
  after_results_simp
  rfl

set_option maxHeartbeats 4000000 in
/-- After the prefix the sources' buffer holds the edges' sources followed by the self loops'. -/
theorem refPre_src (W : Valuation τ sig (Elt Ideal)) :
    (StableHlo.after refPre W (Proc.devRef .tc main_v22) : (⟨S650000, .i32⟩ : BufTy).Contents (Elt Ideal))
      = srcOf (W (Proc.devRef .tc main_arg1)) := by
  after_results_simp
  rfl

set_option maxHeartbeats 4000000 in
/-- After the prefix the destinations' buffer holds the edges' destinations followed by the self loops'. -/
theorem refPre_dst (W : Valuation τ sig (Elt Ideal)) :
    (StableHlo.after refPre W (Proc.devRef .tc main_v25) : (⟨S650000, .i32⟩ : BufTy).Contents (Elt Ideal))
      = dstOf (W (Proc.devRef .tc main_arg1)) := by
  after_results_simp
  rfl

set_option maxHeartbeats 4000000 in
/-- After the prefix the first attributes' buffer holds the edges' first attribute followed by the self loops'. -/
theorem refPre_ea0 (W : Valuation τ sig (Elt Ideal)) :
    (StableHlo.after refPre W (Proc.devRef .tc main_v29) : (⟨S650000, .i32⟩ : BufTy).Contents (Elt Ideal))
      = ea0Of (W (Proc.devRef .tc main_arg2)) := by
  after_results_simp
  rfl

set_option maxHeartbeats 4000000 in
/-- After the prefix the second attributes' buffer holds the edges' second attribute followed by the self loops'. -/
theorem refPre_ea1 (W : Valuation τ sig (Elt Ideal)) :
    (StableHlo.after refPre W (Proc.devRef .tc main_v33) : (⟨S650000, .i32⟩ : BufTy).Contents (Elt Ideal))
      = ea1Of (W (Proc.devRef .tc main_arg2)) := by
  after_results_simp
  rfl

end Cert.ReferenceIdeal.Hand

end
-- ==== Proof.Val.RefChain.lean ====
/-
  The reference's run as a chain of boundaries: the buffer contents after the prefix, then after each layer's piece.
  An argument array holds its launch contents at every boundary, and the edge lists the prefix built hold what it left:
  no layer's piece writes them.
-/
import proofs.«118775_j16338055594318_1_alg».proof.Proof.Val.RefOps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- After the prefix. -/
abbrev R0 : Valuation τ sig (Elt F) := after refPre (launchContents m c)
/-- After layer 0's piece. -/
abbrev R1 : Valuation τ sig (Elt F) := after refLayer0 (R0 m c)
/-- After layer 1's piece. -/
abbrev R2 : Valuation τ sig (Elt F) := after refLayer1 (R1 m c)
/-- After layer 2's piece. -/
abbrev R3 : Valuation τ sig (Elt F) := after refLayer2 (R2 m c)
/-- After layer 3's piece. -/
abbrev R4 : Valuation τ sig (Elt F) := after refLayer3 (R3 m c)
/-- After layer 4's piece. -/
abbrev R5 : Valuation τ sig (Elt F) := after refLayer4 (R4 m c)

/-- The whole program's fold is the last boundary. -/
theorem after_refOps_eq : after refOps (launchContents m c) = R5 m c := after_refOps _

theorem R0_arg3 : R0 m c (Proc.devRef .tc main_arg3) = m ((c.tc : Thread nD τ).loc main_arg3) := after_of_writes_sub refPre _ refPre_writes (by decide)
theorem R1_arg3 : R1 m c (Proc.devRef .tc main_arg3) = m ((c.tc : Thread nD τ).loc main_arg3) := (after_of_writes_sub refLayer0 _ refLayer0_writes (by decide)).trans (R0_arg3 m c)
theorem R2_arg3 : R2 m c (Proc.devRef .tc main_arg3) = m ((c.tc : Thread nD τ).loc main_arg3) := (after_of_writes_sub refLayer1 _ refLayer1_writes (by decide)).trans (R1_arg3 m c)
theorem R3_arg3 : R3 m c (Proc.devRef .tc main_arg3) = m ((c.tc : Thread nD τ).loc main_arg3) := (after_of_writes_sub refLayer2 _ refLayer2_writes (by decide)).trans (R2_arg3 m c)
theorem R4_arg3 : R4 m c (Proc.devRef .tc main_arg3) = m ((c.tc : Thread nD τ).loc main_arg3) := (after_of_writes_sub refLayer3 _ refLayer3_writes (by decide)).trans (R3_arg3 m c)
theorem R5_arg3 : R5 m c (Proc.devRef .tc main_arg3) = m ((c.tc : Thread nD τ).loc main_arg3) := (after_of_writes_sub refLayer4 _ refLayer4_writes (by decide)).trans (R4_arg3 m c)
theorem R0_arg4 : R0 m c (Proc.devRef .tc main_arg4) = m ((c.tc : Thread nD τ).loc main_arg4) := after_of_writes_sub refPre _ refPre_writes (by decide)
theorem R1_arg4 : R1 m c (Proc.devRef .tc main_arg4) = m ((c.tc : Thread nD τ).loc main_arg4) := (after_of_writes_sub refLayer0 _ refLayer0_writes (by decide)).trans (R0_arg4 m c)
theorem R2_arg4 : R2 m c (Proc.devRef .tc main_arg4) = m ((c.tc : Thread nD τ).loc main_arg4) := (after_of_writes_sub refLayer1 _ refLayer1_writes (by decide)).trans (R1_arg4 m c)
theorem R3_arg4 : R3 m c (Proc.devRef .tc main_arg4) = m ((c.tc : Thread nD τ).loc main_arg4) := (after_of_writes_sub refLayer2 _ refLayer2_writes (by decide)).trans (R2_arg4 m c)
theorem R4_arg4 : R4 m c (Proc.devRef .tc main_arg4) = m ((c.tc : Thread nD τ).loc main_arg4) := (after_of_writes_sub refLayer3 _ refLayer3_writes (by decide)).trans (R3_arg4 m c)
theorem R5_arg4 : R5 m c (Proc.devRef .tc main_arg4) = m ((c.tc : Thread nD τ).loc main_arg4) := (after_of_writes_sub refLayer4 _ refLayer4_writes (by decide)).trans (R4_arg4 m c)
theorem R0_arg5 : R0 m c (Proc.devRef .tc main_arg5) = m ((c.tc : Thread nD τ).loc main_arg5) := after_of_writes_sub refPre _ refPre_writes (by decide)
theorem R1_arg5 : R1 m c (Proc.devRef .tc main_arg5) = m ((c.tc : Thread nD τ).loc main_arg5) := (after_of_writes_sub refLayer0 _ refLayer0_writes (by decide)).trans (R0_arg5 m c)
theorem R2_arg5 : R2 m c (Proc.devRef .tc main_arg5) = m ((c.tc : Thread nD τ).loc main_arg5) := (after_of_writes_sub refLayer1 _ refLayer1_writes (by decide)).trans (R1_arg5 m c)
theorem R3_arg5 : R3 m c (Proc.devRef .tc main_arg5) = m ((c.tc : Thread nD τ).loc main_arg5) := (after_of_writes_sub refLayer2 _ refLayer2_writes (by decide)).trans (R2_arg5 m c)
theorem R4_arg5 : R4 m c (Proc.devRef .tc main_arg5) = m ((c.tc : Thread nD τ).loc main_arg5) := (after_of_writes_sub refLayer3 _ refLayer3_writes (by decide)).trans (R3_arg5 m c)
theorem R5_arg5 : R5 m c (Proc.devRef .tc main_arg5) = m ((c.tc : Thread nD τ).loc main_arg5) := (after_of_writes_sub refLayer4 _ refLayer4_writes (by decide)).trans (R4_arg5 m c)
theorem R0_arg6 : R0 m c (Proc.devRef .tc main_arg6) = m ((c.tc : Thread nD τ).loc main_arg6) := after_of_writes_sub refPre _ refPre_writes (by decide)
theorem R1_arg6 : R1 m c (Proc.devRef .tc main_arg6) = m ((c.tc : Thread nD τ).loc main_arg6) := (after_of_writes_sub refLayer0 _ refLayer0_writes (by decide)).trans (R0_arg6 m c)
theorem R2_arg6 : R2 m c (Proc.devRef .tc main_arg6) = m ((c.tc : Thread nD τ).loc main_arg6) := (after_of_writes_sub refLayer1 _ refLayer1_writes (by decide)).trans (R1_arg6 m c)
theorem R3_arg6 : R3 m c (Proc.devRef .tc main_arg6) = m ((c.tc : Thread nD τ).loc main_arg6) := (after_of_writes_sub refLayer2 _ refLayer2_writes (by decide)).trans (R2_arg6 m c)
theorem R4_arg6 : R4 m c (Proc.devRef .tc main_arg6) = m ((c.tc : Thread nD τ).loc main_arg6) := (after_of_writes_sub refLayer3 _ refLayer3_writes (by decide)).trans (R3_arg6 m c)
theorem R5_arg6 : R5 m c (Proc.devRef .tc main_arg6) = m ((c.tc : Thread nD τ).loc main_arg6) := (after_of_writes_sub refLayer4 _ refLayer4_writes (by decide)).trans (R4_arg6 m c)
theorem R0_arg7 : R0 m c (Proc.devRef .tc main_arg7) = m ((c.tc : Thread nD τ).loc main_arg7) := after_of_writes_sub refPre _ refPre_writes (by decide)
theorem R1_arg7 : R1 m c (Proc.devRef .tc main_arg7) = m ((c.tc : Thread nD τ).loc main_arg7) := (after_of_writes_sub refLayer0 _ refLayer0_writes (by decide)).trans (R0_arg7 m c)
theorem R2_arg7 : R2 m c (Proc.devRef .tc main_arg7) = m ((c.tc : Thread nD τ).loc main_arg7) := (after_of_writes_sub refLayer1 _ refLayer1_writes (by decide)).trans (R1_arg7 m c)
theorem R3_arg7 : R3 m c (Proc.devRef .tc main_arg7) = m ((c.tc : Thread nD τ).loc main_arg7) := (after_of_writes_sub refLayer2 _ refLayer2_writes (by decide)).trans (R2_arg7 m c)
theorem R4_arg7 : R4 m c (Proc.devRef .tc main_arg7) = m ((c.tc : Thread nD τ).loc main_arg7) := (after_of_writes_sub refLayer3 _ refLayer3_writes (by decide)).trans (R3_arg7 m c)
theorem R5_arg7 : R5 m c (Proc.devRef .tc main_arg7) = m ((c.tc : Thread nD τ).loc main_arg7) := (after_of_writes_sub refLayer4 _ refLayer4_writes (by decide)).trans (R4_arg7 m c)
theorem R0_arg8 : R0 m c (Proc.devRef .tc main_arg8) = m ((c.tc : Thread nD τ).loc main_arg8) := after_of_writes_sub refPre _ refPre_writes (by decide)
theorem R1_arg8 : R1 m c (Proc.devRef .tc main_arg8) = m ((c.tc : Thread nD τ).loc main_arg8) := (after_of_writes_sub refLayer0 _ refLayer0_writes (by decide)).trans (R0_arg8 m c)
theorem R2_arg8 : R2 m c (Proc.devRef .tc main_arg8) = m ((c.tc : Thread nD τ).loc main_arg8) := (after_of_writes_sub refLayer1 _ refLayer1_writes (by decide)).trans (R1_arg8 m c)
theorem R3_arg8 : R3 m c (Proc.devRef .tc main_arg8) = m ((c.tc : Thread nD τ).loc main_arg8) := (after_of_writes_sub refLayer2 _ refLayer2_writes (by decide)).trans (R2_arg8 m c)
theorem R4_arg8 : R4 m c (Proc.devRef .tc main_arg8) = m ((c.tc : Thread nD τ).loc main_arg8) := (after_of_writes_sub refLayer3 _ refLayer3_writes (by decide)).trans (R3_arg8 m c)
theorem R5_arg8 : R5 m c (Proc.devRef .tc main_arg8) = m ((c.tc : Thread nD τ).loc main_arg8) := (after_of_writes_sub refLayer4 _ refLayer4_writes (by decide)).trans (R4_arg8 m c)
theorem R0_arg9 : R0 m c (Proc.devRef .tc main_arg9) = m ((c.tc : Thread nD τ).loc main_arg9) := after_of_writes_sub refPre _ refPre_writes (by decide)
theorem R1_arg9 : R1 m c (Proc.devRef .tc main_arg9) = m ((c.tc : Thread nD τ).loc main_arg9) := (after_of_writes_sub refLayer0 _ refLayer0_writes (by decide)).trans (R0_arg9 m c)
theorem R2_arg9 : R2 m c (Proc.devRef .tc main_arg9) = m ((c.tc : Thread nD τ).loc main_arg9) := (after_of_writes_sub refLayer1 _ refLayer1_writes (by decide)).trans (R1_arg9 m c)
theorem R3_arg9 : R3 m c (Proc.devRef .tc main_arg9) = m ((c.tc : Thread nD τ).loc main_arg9) := (after_of_writes_sub refLayer2 _ refLayer2_writes (by decide)).trans (R2_arg9 m c)
theorem R4_arg9 : R4 m c (Proc.devRef .tc main_arg9) = m ((c.tc : Thread nD τ).loc main_arg9) := (after_of_writes_sub refLayer3 _ refLayer3_writes (by decide)).trans (R3_arg9 m c)
theorem R5_arg9 : R5 m c (Proc.devRef .tc main_arg9) = m ((c.tc : Thread nD τ).loc main_arg9) := (after_of_writes_sub refLayer4 _ refLayer4_writes (by decide)).trans (R4_arg9 m c)
theorem R0_arg10 : R0 m c (Proc.devRef .tc main_arg10) = m ((c.tc : Thread nD τ).loc main_arg10) := after_of_writes_sub refPre _ refPre_writes (by decide)
theorem R1_arg10 : R1 m c (Proc.devRef .tc main_arg10) = m ((c.tc : Thread nD τ).loc main_arg10) := (after_of_writes_sub refLayer0 _ refLayer0_writes (by decide)).trans (R0_arg10 m c)
theorem R2_arg10 : R2 m c (Proc.devRef .tc main_arg10) = m ((c.tc : Thread nD τ).loc main_arg10) := (after_of_writes_sub refLayer1 _ refLayer1_writes (by decide)).trans (R1_arg10 m c)
theorem R3_arg10 : R3 m c (Proc.devRef .tc main_arg10) = m ((c.tc : Thread nD τ).loc main_arg10) := (after_of_writes_sub refLayer2 _ refLayer2_writes (by decide)).trans (R2_arg10 m c)
theorem R4_arg10 : R4 m c (Proc.devRef .tc main_arg10) = m ((c.tc : Thread nD τ).loc main_arg10) := (after_of_writes_sub refLayer3 _ refLayer3_writes (by decide)).trans (R3_arg10 m c)
theorem R5_arg10 : R5 m c (Proc.devRef .tc main_arg10) = m ((c.tc : Thread nD τ).loc main_arg10) := (after_of_writes_sub refLayer4 _ refLayer4_writes (by decide)).trans (R4_arg10 m c)
theorem R0_arg11 : R0 m c (Proc.devRef .tc main_arg11) = m ((c.tc : Thread nD τ).loc main_arg11) := after_of_writes_sub refPre _ refPre_writes (by decide)
theorem R1_arg11 : R1 m c (Proc.devRef .tc main_arg11) = m ((c.tc : Thread nD τ).loc main_arg11) := (after_of_writes_sub refLayer0 _ refLayer0_writes (by decide)).trans (R0_arg11 m c)
theorem R2_arg11 : R2 m c (Proc.devRef .tc main_arg11) = m ((c.tc : Thread nD τ).loc main_arg11) := (after_of_writes_sub refLayer1 _ refLayer1_writes (by decide)).trans (R1_arg11 m c)
theorem R3_arg11 : R3 m c (Proc.devRef .tc main_arg11) = m ((c.tc : Thread nD τ).loc main_arg11) := (after_of_writes_sub refLayer2 _ refLayer2_writes (by decide)).trans (R2_arg11 m c)
theorem R4_arg11 : R4 m c (Proc.devRef .tc main_arg11) = m ((c.tc : Thread nD τ).loc main_arg11) := (after_of_writes_sub refLayer3 _ refLayer3_writes (by decide)).trans (R3_arg11 m c)
theorem R5_arg11 : R5 m c (Proc.devRef .tc main_arg11) = m ((c.tc : Thread nD τ).loc main_arg11) := (after_of_writes_sub refLayer4 _ refLayer4_writes (by decide)).trans (R4_arg11 m c)
theorem R0_arg12 : R0 m c (Proc.devRef .tc main_arg12) = m ((c.tc : Thread nD τ).loc main_arg12) := after_of_writes_sub refPre _ refPre_writes (by decide)
theorem R1_arg12 : R1 m c (Proc.devRef .tc main_arg12) = m ((c.tc : Thread nD τ).loc main_arg12) := (after_of_writes_sub refLayer0 _ refLayer0_writes (by decide)).trans (R0_arg12 m c)
theorem R2_arg12 : R2 m c (Proc.devRef .tc main_arg12) = m ((c.tc : Thread nD τ).loc main_arg12) := (after_of_writes_sub refLayer1 _ refLayer1_writes (by decide)).trans (R1_arg12 m c)
theorem R3_arg12 : R3 m c (Proc.devRef .tc main_arg12) = m ((c.tc : Thread nD τ).loc main_arg12) := (after_of_writes_sub refLayer2 _ refLayer2_writes (by decide)).trans (R2_arg12 m c)
theorem R4_arg12 : R4 m c (Proc.devRef .tc main_arg12) = m ((c.tc : Thread nD τ).loc main_arg12) := (after_of_writes_sub refLayer3 _ refLayer3_writes (by decide)).trans (R3_arg12 m c)
theorem R5_arg12 : R5 m c (Proc.devRef .tc main_arg12) = m ((c.tc : Thread nD τ).loc main_arg12) := (after_of_writes_sub refLayer4 _ refLayer4_writes (by decide)).trans (R4_arg12 m c)
theorem R1_src : R1 m c (Proc.devRef .tc main_v22) = R0 m c (Proc.devRef .tc main_v22) := (after_of_writes_sub refLayer0 _ refLayer0_writes (by decide)).trans (rfl)
theorem R2_src : R2 m c (Proc.devRef .tc main_v22) = R0 m c (Proc.devRef .tc main_v22) := (after_of_writes_sub refLayer1 _ refLayer1_writes (by decide)).trans (R1_src m c)
theorem R3_src : R3 m c (Proc.devRef .tc main_v22) = R0 m c (Proc.devRef .tc main_v22) := (after_of_writes_sub refLayer2 _ refLayer2_writes (by decide)).trans (R2_src m c)
theorem R4_src : R4 m c (Proc.devRef .tc main_v22) = R0 m c (Proc.devRef .tc main_v22) := (after_of_writes_sub refLayer3 _ refLayer3_writes (by decide)).trans (R3_src m c)
theorem R1_dst : R1 m c (Proc.devRef .tc main_v25) = R0 m c (Proc.devRef .tc main_v25) := (after_of_writes_sub refLayer0 _ refLayer0_writes (by decide)).trans (rfl)
theorem R2_dst : R2 m c (Proc.devRef .tc main_v25) = R0 m c (Proc.devRef .tc main_v25) := (after_of_writes_sub refLayer1 _ refLayer1_writes (by decide)).trans (R1_dst m c)
theorem R3_dst : R3 m c (Proc.devRef .tc main_v25) = R0 m c (Proc.devRef .tc main_v25) := (after_of_writes_sub refLayer2 _ refLayer2_writes (by decide)).trans (R2_dst m c)
theorem R4_dst : R4 m c (Proc.devRef .tc main_v25) = R0 m c (Proc.devRef .tc main_v25) := (after_of_writes_sub refLayer3 _ refLayer3_writes (by decide)).trans (R3_dst m c)
theorem R1_ea0 : R1 m c (Proc.devRef .tc main_v29) = R0 m c (Proc.devRef .tc main_v29) := (after_of_writes_sub refLayer0 _ refLayer0_writes (by decide)).trans (rfl)
theorem R2_ea0 : R2 m c (Proc.devRef .tc main_v29) = R0 m c (Proc.devRef .tc main_v29) := (after_of_writes_sub refLayer1 _ refLayer1_writes (by decide)).trans (R1_ea0 m c)
theorem R3_ea0 : R3 m c (Proc.devRef .tc main_v29) = R0 m c (Proc.devRef .tc main_v29) := (after_of_writes_sub refLayer2 _ refLayer2_writes (by decide)).trans (R2_ea0 m c)
theorem R4_ea0 : R4 m c (Proc.devRef .tc main_v29) = R0 m c (Proc.devRef .tc main_v29) := (after_of_writes_sub refLayer3 _ refLayer3_writes (by decide)).trans (R3_ea0 m c)
theorem R1_ea1 : R1 m c (Proc.devRef .tc main_v33) = R0 m c (Proc.devRef .tc main_v33) := (after_of_writes_sub refLayer0 _ refLayer0_writes (by decide)).trans (rfl)
theorem R2_ea1 : R2 m c (Proc.devRef .tc main_v33) = R0 m c (Proc.devRef .tc main_v33) := (after_of_writes_sub refLayer1 _ refLayer1_writes (by decide)).trans (R1_ea1 m c)
theorem R3_ea1 : R3 m c (Proc.devRef .tc main_v33) = R0 m c (Proc.devRef .tc main_v33) := (after_of_writes_sub refLayer2 _ refLayer2_writes (by decide)).trans (R2_ea1 m c)
theorem R4_ea1 : R4 m c (Proc.devRef .tc main_v33) = R0 m c (Proc.devRef .tc main_v33) := (after_of_writes_sub refLayer3 _ refLayer3_writes (by decide)).trans (R3_ea1 m c)

end Cert.ReferenceIdeal.Hand

end
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«118775_j16338055594318_1_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.Val.FiniteInputs.lean ====
/-
  The precondition read back: it is the conjunction, over the ten float arguments, of "every entry's absolute value
  compares below +inf", each a fold by "and" of the entries' comparisons. If it evaluates to 1 then every entry of every
  float argument is (the cast of) a real number.
-/
import proofs.«118775_j16338055594318_1_alg».proof.Pre_finite_inputs
import proofs.«118775_j16338055594318_1_alg».proof.Proof.LibAllFinite
import Idealize.ShloMosaic.Lib.Affine

set_option maxRecDepth 16384

noncomputable section

namespace Cert.FiniteInputs

open Idealize.ShloMosaic Idealize.ShloMosaic.ValueIdx Cert.Finite Cert.Pre_finite_inputs Cert.Lib.AllFinite

/-- A conjunction of two bits is 1 only if both are. -/
theorem both_of_andi (x y : IVec S_ 1) (h : andi x y ix0 = 1#1) : x ix0 = 1#1 ∧ y ix0 = 1#1 :=
  IntOp.andi_eq_one.1 h

/-- Under the precondition every float argument holds real numbers only. -/
theorem real_of_pre [Cert.Pre_finite_inputs.Facts] (a0 : IVec S50000x2 32) (a1 : IVec S2x600000 32) (a2 : IVec S600000x2 32)
    (a3 : FVec Ideal S120x128 .f32) (a4 : FVec Ideal S3x128 .f32) (a5 : FVec Ideal S5x6x128 .f32) (a6 : FVec Ideal S5x3x128 .f32)
    (a7 : FVec Ideal S5x128x256 .f32) (a8 : FVec Ideal S5x256 .f32) (a9 : FVec Ideal S5x256x128 .f32) (a10 a11 a12 : FVec Ideal S5x128 .f32)
    (h : Cert.Pre_finite_inputs.fn (F := Ideal) a0 a1 a2 a3 a4 a5 a6 a7 a8 a9 a10 a11 a12 = fun _ => 1#1) :
    (∀ i, IsReal (a3 i)) ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) ∧ (∀ i, IsReal (a12 i)) := by
  have h0 := congrFun h ValueIdx.ix0
  dsimp only [Cert.Pre_finite_inputs.fn, Cert.Pre_finite_inputs.fn_part1, Cert.Pre_finite_inputs.fn_part2] at h0
  obtain ⟨h0, e12⟩ := both_of_andi _ _ h0
  obtain ⟨h0, e11⟩ := both_of_andi _ _ h0
  obtain ⟨h0, e10⟩ := both_of_andi _ _ h0
  obtain ⟨h0, e9⟩ := both_of_andi _ _ h0
  obtain ⟨h0, e8⟩ := both_of_andi _ _ h0
  obtain ⟨h0, e7⟩ := both_of_andi _ _ h0
  obtain ⟨h0, e6⟩ := both_of_andi _ _ h0
  obtain ⟨h0, e5⟩ := both_of_andi _ _ h0
  obtain ⟨e3, e4⟩ := both_of_andi _ _ h0
  exact ⟨entry_of_all a3 _ _ _ ix0 e3, entry_of_all a4 _ _ _ ix0 e4, entry_of_all a5 _ _ _ ix0 e5, entry_of_all a6 _ _ _ ix0 e6,
    entry_of_all a7 _ _ _ ix0 e7, entry_of_all a8 _ _ _ ix0 e8, entry_of_all a9 _ _ _ ix0 e9, entry_of_all a10 _ _ _ ix0 e10,
    entry_of_all a11 _ _ _ ix0 e11, entry_of_all a12 _ _ _ ix0 e12⟩

end Cert.FiniteInputs

end
-- ==== Proof.Val.GlueLit.lean ====
/-
  The variance's guard literal as a real number: a positive real, so that the sum it guards is never zero or negative
  when the variance is a nonnegative real.
-/
import proofs.«118775_j16338055594318_1_alg».proof.Proof.Gen.KernelIdeal
import proofs.«118775_j16338055594318_1_alg».proof.Proof.Val.GlueOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The variance's guard is a positive real: its word's sign, exponent and fraction spell 10995116 * 2^(-40). -/
theorem epsBn_eq : epsBn = (((10995116 : ℝ) * (2 : ℝ) ^ (-40 : ℤ) : ℝ) : EReal) := by
  simp [Ideal.ofBits, Ideal.ieee, -EReal.coe_mul] <;> norm_num

theorem epsBn_real : ∃ e : ℝ, 0 < e ∧ epsBn = (e : EReal) :=
  ⟨(10995116 : ℝ) * (2 : ℝ) ^ (-40 : ℤ), by positivity, epsBn_eq⟩

end Cert.KernelIdeal.Val

end
-- ==== Proof.Val.Bridge.lean ====
/-
  The two idealized programs compute the same array. Layer by layer, with the invariant "the layer's input features are
  the same array on both sides, and every entry is a real number":
  the aggregated features are the same host term of equal inputs, and real (a gather picks entries, a scatter-add sums
  them into zeros); the layer's result is, on one side, the normalized perceptron in the tiled raw-variance arrangement
  (read off the run's regions and the host operations between them) and, on the other, the same in the whole-column
  centred arrangement (read off the reference's operations); the two arrangements agree on real data, and give real
  data again. The precondition makes every float argument real, which starts the induction.
-/
import proofs.«118775_j16338055594318_1_alg».proof.Defs
import proofs.«118775_j16338055594318_1_alg».proof.Proof.KI.Run
import proofs.«118775_j16338055594318_1_alg».proof.Proof.Val.Keep
import proofs.«118775_j16338055594318_1_alg».proof.Proof.Val.LayerK0
import proofs.«118775_j16338055594318_1_alg».proof.Proof.Val.Agg0
import proofs.«118775_j16338055594318_1_alg».proof.Proof.Val.RefDense0
import proofs.«118775_j16338055594318_1_alg».proof.Proof.Val.LayerK1
import proofs.«118775_j16338055594318_1_alg».proof.Proof.Val.Agg2
import proofs.«118775_j16338055594318_1_alg».proof.Proof.Val.RefDense1
import proofs.«118775_j16338055594318_1_alg».proof.Proof.Val.LayerK2
import proofs.«118775_j16338055594318_1_alg».proof.Proof.Val.Agg4
import proofs.«118775_j16338055594318_1_alg».proof.Proof.Val.RefDense2
import proofs.«118775_j16338055594318_1_alg».proof.Proof.Val.LayerK3
import proofs.«118775_j16338055594318_1_alg».proof.Proof.Val.Agg6
import proofs.«118775_j16338055594318_1_alg».proof.Proof.Val.RefDense3
import proofs.«118775_j16338055594318_1_alg».proof.Proof.Val.LayerK4
import proofs.«118775_j16338055594318_1_alg».proof.Proof.Val.Agg8
import proofs.«118775_j16338055594318_1_alg».proof.Proof.Val.RefDense4
import proofs.«118775_j16338055594318_1_alg».proof.Proof.Val.AggReal
import proofs.«118775_j16338055594318_1_alg».proof.Proof.Val.AggRef
import proofs.«118775_j16338055594318_1_alg».proof.Proof.Val.AggRefPre
import proofs.«118775_j16338055594318_1_alg».proof.Proof.Val.RefChain
import proofs.«118775_j16338055594318_1_alg».proof.Proof.Val.Step
import proofs.«118775_j16338055594318_1_alg».proof.Proof.Val.FiniteInputs
import proofs.«118775_j16338055594318_1_alg».proof.Proof.Val.GlueLit
import proofs.«118775_j16338055594318_1_alg».proof.Proof.Gen.Pre_finite_inputs

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Spec Cert.Finite
open Cert.ReferenceIdeal.Hand (R0 R1 R2 R3 R4 R5)

section Bridge

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)
  (g0 : m' ((c.tc : Thread Cert.ReferenceIdeal.nD Cert.ReferenceIdeal.τ).loc Cert.ReferenceIdeal.main_arg0) = m ((c.tc : Thread nD τ).loc main_arg0))
  (g1 : m' ((c.tc : Thread Cert.ReferenceIdeal.nD Cert.ReferenceIdeal.τ).loc Cert.ReferenceIdeal.main_arg1) = m ((c.tc : Thread nD τ).loc main_arg1))
  (g2 : m' ((c.tc : Thread Cert.ReferenceIdeal.nD Cert.ReferenceIdeal.τ).loc Cert.ReferenceIdeal.main_arg2) = m ((c.tc : Thread nD τ).loc main_arg2))
  (g3 : m' ((c.tc : Thread Cert.ReferenceIdeal.nD Cert.ReferenceIdeal.τ).loc Cert.ReferenceIdeal.main_arg3) = m ((c.tc : Thread nD τ).loc main_arg3))
  (g4 : m' ((c.tc : Thread Cert.ReferenceIdeal.nD Cert.ReferenceIdeal.τ).loc Cert.ReferenceIdeal.main_arg4) = m ((c.tc : Thread nD τ).loc main_arg4))
  (g5 : m' ((c.tc : Thread Cert.ReferenceIdeal.nD Cert.ReferenceIdeal.τ).loc Cert.ReferenceIdeal.main_arg5) = m ((c.tc : Thread nD τ).loc main_arg5))
  (g6 : m' ((c.tc : Thread Cert.ReferenceIdeal.nD Cert.ReferenceIdeal.τ).loc Cert.ReferenceIdeal.main_arg6) = m ((c.tc : Thread nD τ).loc main_arg6))
  (g7 : m' ((c.tc : Thread Cert.ReferenceIdeal.nD Cert.ReferenceIdeal.τ).loc Cert.ReferenceIdeal.main_arg7) = m ((c.tc : Thread nD τ).loc main_arg7))
  (g8 : m' ((c.tc : Thread Cert.ReferenceIdeal.nD Cert.ReferenceIdeal.τ).loc Cert.ReferenceIdeal.main_arg8) = m ((c.tc : Thread nD τ).loc main_arg8))
  (g9 : m' ((c.tc : Thread Cert.ReferenceIdeal.nD Cert.ReferenceIdeal.τ).loc Cert.ReferenceIdeal.main_arg9) = m ((c.tc : Thread nD τ).loc main_arg9))
  (g10 : m' ((c.tc : Thread Cert.ReferenceIdeal.nD Cert.ReferenceIdeal.τ).loc Cert.ReferenceIdeal.main_arg10) = m ((c.tc : Thread nD τ).loc main_arg10))
  (g11 : m' ((c.tc : Thread Cert.ReferenceIdeal.nD Cert.ReferenceIdeal.τ).loc Cert.ReferenceIdeal.main_arg11) = m ((c.tc : Thread nD τ).loc main_arg11))
  (g12 : m' ((c.tc : Thread Cert.ReferenceIdeal.nD Cert.ReferenceIdeal.τ).loc Cert.ReferenceIdeal.main_arg12) = m ((c.tc : Thread nD τ).loc main_arg12))
  (r3 : ∀ i, IsReal ((m ((c.tc : Thread nD τ).loc main_arg3) : (⟨S120x128, .f32⟩ : BufTy).Contents (Elt Ideal)) i))
  (r4 : ∀ i, IsReal ((m ((c.tc : Thread nD τ).loc main_arg4) : (⟨S3x128, .f32⟩ : BufTy).Contents (Elt Ideal)) i))
  (r5 : ∀ i, IsReal ((m ((c.tc : Thread nD τ).loc main_arg5) : (⟨S5x6x128, .f32⟩ : BufTy).Contents (Elt Ideal)) i))
  (r6 : ∀ i, IsReal ((m ((c.tc : Thread nD τ).loc main_arg6) : (⟨S5x3x128, .f32⟩ : BufTy).Contents (Elt Ideal)) i))
  (r7 : ∀ i, IsReal ((m ((c.tc : Thread nD τ).loc main_arg7) : (⟨S5x128x256, .f32⟩ : BufTy).Contents (Elt Ideal)) i))
  (r8 : ∀ i, IsReal ((m ((c.tc : Thread nD τ).loc main_arg8) : (⟨S5x256, .f32⟩ : BufTy).Contents (Elt Ideal)) i))
  (r9 : ∀ i, IsReal ((m ((c.tc : Thread nD τ).loc main_arg9) : (⟨S5x256x128, .f32⟩ : BufTy).Contents (Elt Ideal)) i))
  (r10 : ∀ i, IsReal ((m ((c.tc : Thread nD τ).loc main_arg10) : (⟨S5x128, .f32⟩ : BufTy).Contents (Elt Ideal)) i))
  (r11 : ∀ i, IsReal ((m ((c.tc : Thread nD τ).loc main_arg11) : (⟨S5x128, .f32⟩ : BufTy).Contents (Elt Ideal)) i))
  (r12 : ∀ i, IsReal ((m ((c.tc : Thread nD τ).loc main_arg12) : (⟨S5x128, .f32⟩ : BufTy).Contents (Elt Ideal)) i))

include g0 g1 g2 g3 g4 g5 g6 g7 g8 g9 g10 g11 g12 r3 r4 r5 r6 r7 r8 r9 r10 r11 r12

/-- Layer 0's aggregated features: the same array on both sides, of real numbers. -/
theorem agg0 :
    (W1 (F := Ideal) m ρ c (Proc.devRef .tc main_v63) : Feat) = (after (Cert.ReferenceIdeal.Hand.refLayer0 (F := Ideal)) (R0 m' c) (Proc.devRef .tc Cert.ReferenceIdeal.main_v63) : Feat)
      ∧ ∀ j, IsReal ((W1 (F := Ideal) m ρ c (Proc.devRef .tc main_v63) : Feat) j) := by
  have eK := agg0_eq (W0 (F := Ideal) m ρ c)
  have eR := Cert.ReferenceIdeal.Hand.refAgg0_eq (R0 (F := Ideal) m' c)
  rw [show R0 (F := Ideal) m' c (Proc.devRef .tc Cert.ReferenceIdeal.main_v18) = _ from Cert.ReferenceIdeal.Hand.refPre_h0 _,
    show R0 (F := Ideal) m' c (Proc.devRef .tc Cert.ReferenceIdeal.main_v22) = _ from Cert.ReferenceIdeal.Hand.refPre_src _, show R0 (F := Ideal) m' c (Proc.devRef .tc Cert.ReferenceIdeal.main_v25) = _ from Cert.ReferenceIdeal.Hand.refPre_dst _,
    show R0 (F := Ideal) m' c (Proc.devRef .tc Cert.ReferenceIdeal.main_v29) = _ from Cert.ReferenceIdeal.Hand.refPre_ea0 _, show R0 (F := Ideal) m' c (Proc.devRef .tc Cert.ReferenceIdeal.main_v33) = _ from Cert.ReferenceIdeal.Hand.refPre_ea1 _,
    Cert.ReferenceIdeal.Hand.R0_arg5, Cert.ReferenceIdeal.Hand.R0_arg6] at eR
  refine ⟨?_, ?_⟩
  · rw [show (W1 (F := Ideal) m ρ c (Proc.devRef .tc main_v63) : Feat) = _ from eK, show (after (Cert.ReferenceIdeal.Hand.refLayer0 (F := Ideal)) (R0 m' c) (Proc.devRef .tc Cert.ReferenceIdeal.main_v63) : Feat) = _ from eR]
    show aggArr (h0Arr (m ((c.tc : Thread nD τ).loc main_arg0) : (⟨S50000x2, .i32⟩ : BufTy).Contents (Elt Ideal)) (m ((c.tc : Thread nD τ).loc main_arg3) : (⟨S120x128, .f32⟩ : BufTy).Contents (Elt Ideal)) (m ((c.tc : Thread nD τ).loc main_arg4) : (⟨S3x128, .f32⟩ : BufTy).Contents (Elt Ideal))) (srcOf (m ((c.tc : Thread nD τ).loc main_arg1) : (⟨S2x600000, .i32⟩ : BufTy).Contents (Elt Ideal))) (dstOf (m ((c.tc : Thread nD τ).loc main_arg1) : (⟨S2x600000, .i32⟩ : BufTy).Contents (Elt Ideal))) (ea0Of (m ((c.tc : Thread nD τ).loc main_arg2) : (⟨S600000x2, .i32⟩ : BufTy).Contents (Elt Ideal))) (ea1Of (m ((c.tc : Thread nD τ).loc main_arg2) : (⟨S600000x2, .i32⟩ : BufTy).Contents (Elt Ideal))) (tab6 0 _ (m ((c.tc : Thread nD τ).loc main_arg5) : (⟨S5x6x128, .f32⟩ : BufTy).Contents (Elt Ideal))) (tab3 0 _ (m ((c.tc : Thread nD τ).loc main_arg6) : (⟨S5x3x128, .f32⟩ : BufTy).Contents (Elt Ideal))) = _
    rw [← g0, ← g1, ← g2, ← g3, ← g4, ← g5, ← g6]
    all_goals rfl
  · rw [show (W1 (F := Ideal) m ρ c (Proc.devRef .tc main_v63) : Feat) = _ from eK]
    exact isReal_aggArr _ _ _ _ _ _ _ (isReal_h0Arr _ _ _ r3 r4) (isReal_tab6 _ _ _ r5) (isReal_tab3 _ _ _ r6)

/-- Layer 0's result: the same array on both sides, of real numbers — given that for its aggregated features. -/
theorem out0 (hagg : (W1 (F := Ideal) m ρ c (Proc.devRef .tc main_v63) : Feat) = (after (Cert.ReferenceIdeal.Hand.refLayer0 (F := Ideal)) (R0 m' c) (Proc.devRef .tc Cert.ReferenceIdeal.main_v63) : Feat)) (hreal : ∀ j, IsReal ((W1 (F := Ideal) m ρ c (Proc.devRef .tc main_v63) : Feat) j)) :
    (W4 (F := Ideal) m ρ c (Proc.devRef .tc main_v94) : Feat) = (R1 (F := Ideal) m' c (Proc.devRef .tc Cert.ReferenceIdeal.main_v110) : Feat)
      ∧ ∀ j, IsReal ((W4 (F := Ideal) m ρ c (Proc.devRef .tc main_v94) : Feat) j) := by
  have hR := Cert.ReferenceIdeal.Hand.refLayer0_apply (R0 (F := Ideal) m' c)
  rw [show (after (Cert.ReferenceIdeal.Hand.refLayer0 (F := Ideal)) (R0 m' c) (Proc.devRef .tc Cert.ReferenceIdeal.main_v63) : Feat) = (W1 (F := Ideal) m ρ c (Proc.devRef .tc main_v63) : Feat) from hagg.symm,
    Cert.ReferenceIdeal.Hand.R0_arg7, Cert.ReferenceIdeal.Hand.R0_arg8, Cert.ReferenceIdeal.Hand.R0_arg9, Cert.ReferenceIdeal.Hand.R0_arg10, Cert.ReferenceIdeal.Hand.R0_arg11, Cert.ReferenceIdeal.Hand.R0_arg12, g7, g8, g9, g10, g11, g12] at hR
  exact step_relu (W1 (F := Ideal) m ρ c (Proc.devRef .tc main_v63) : Feat) (W4 (F := Ideal) m ρ c (Proc.devRef .tc main_v94) : Feat) (R1 (F := Ideal) m' c (Proc.devRef .tc Cert.ReferenceIdeal.main_v110) : Feat) hreal
    (fun k j => r7 _) (fun j => r8 _) (fun j d => r9 _) (fun d => r10 _) (fun d => r11 _) (fun d => r12 _) nRows_eq epsBn_real
    (layerK0 m ρ c) hR

/-- Layer 1's aggregated features: the same array on both sides, of real numbers — given that for its input. -/
theorem agg1 (hin : (W4 (F := Ideal) m ρ c (Proc.devRef .tc main_v94) : Feat) = (R1 (F := Ideal) m' c (Proc.devRef .tc Cert.ReferenceIdeal.main_v110) : Feat))
    (hreal : ∀ j, IsReal ((W4 (F := Ideal) m ρ c (Proc.devRef .tc main_v94) : Feat) j)) :
    (W5 (F := Ideal) m ρ c (Proc.devRef .tc main_v124) : Feat) = (after (Cert.ReferenceIdeal.Hand.refLayer1 (F := Ideal)) (R1 m' c) (Proc.devRef .tc Cert.ReferenceIdeal.main_v140) : Feat)
      ∧ ∀ j, IsReal ((W5 (F := Ideal) m ρ c (Proc.devRef .tc main_v124) : Feat) j) := by
  have eK := agg2_eq (W4 (F := Ideal) m ρ c)
  rw [W4_src, W4_dst, W4_ea0, W4_ea1, W4_arg5, W4_arg6] at eK
  have eR := Cert.ReferenceIdeal.Hand.refAgg1_eq (R1 (F := Ideal) m' c)
  rw [Cert.ReferenceIdeal.Hand.R1_src, Cert.ReferenceIdeal.Hand.R1_dst, Cert.ReferenceIdeal.Hand.R1_ea0, Cert.ReferenceIdeal.Hand.R1_ea1, Cert.ReferenceIdeal.Hand.R1_arg5, Cert.ReferenceIdeal.Hand.R1_arg6] at eR
  rw [show R0 (F := Ideal) m' c (Proc.devRef .tc Cert.ReferenceIdeal.main_v22) = _ from Cert.ReferenceIdeal.Hand.refPre_src _, show R0 (F := Ideal) m' c (Proc.devRef .tc Cert.ReferenceIdeal.main_v25) = _ from Cert.ReferenceIdeal.Hand.refPre_dst _,
    show R0 (F := Ideal) m' c (Proc.devRef .tc Cert.ReferenceIdeal.main_v29) = _ from Cert.ReferenceIdeal.Hand.refPre_ea0 _, show R0 (F := Ideal) m' c (Proc.devRef .tc Cert.ReferenceIdeal.main_v33) = _ from Cert.ReferenceIdeal.Hand.refPre_ea1 _] at eR
  rw [show W1 (F := Ideal) m ρ c (Proc.devRef .tc main_v22) = _ from pre_src _, show W1 (F := Ideal) m ρ c (Proc.devRef .tc main_v25) = _ from pre_dst _,
    show W1 (F := Ideal) m ρ c (Proc.devRef .tc main_v29) = _ from pre_ea0 _, show W1 (F := Ideal) m ρ c (Proc.devRef .tc main_v33) = _ from pre_ea1 _] at eK
  refine ⟨?_, ?_⟩
  · rw [show (W5 (F := Ideal) m ρ c (Proc.devRef .tc main_v124) : Feat) = _ from eK, show (after (Cert.ReferenceIdeal.Hand.refLayer1 (F := Ideal)) (R1 m' c) (Proc.devRef .tc Cert.ReferenceIdeal.main_v140) : Feat) = _ from eR, ← hin]
    show aggArr _ (srcOf (m ((c.tc : Thread nD τ).loc main_arg1) : (⟨S2x600000, .i32⟩ : BufTy).Contents (Elt Ideal))) (dstOf (m ((c.tc : Thread nD τ).loc main_arg1) : (⟨S2x600000, .i32⟩ : BufTy).Contents (Elt Ideal))) (ea0Of (m ((c.tc : Thread nD τ).loc main_arg2) : (⟨S600000x2, .i32⟩ : BufTy).Contents (Elt Ideal))) (ea1Of (m ((c.tc : Thread nD τ).loc main_arg2) : (⟨S600000x2, .i32⟩ : BufTy).Contents (Elt Ideal))) (tab6 1 _ (m ((c.tc : Thread nD τ).loc main_arg5) : (⟨S5x6x128, .f32⟩ : BufTy).Contents (Elt Ideal))) (tab3 1 _ (m ((c.tc : Thread nD τ).loc main_arg6) : (⟨S5x3x128, .f32⟩ : BufTy).Contents (Elt Ideal))) = _
    rw [← g1, ← g2, ← g5, ← g6]
    all_goals rfl
  · rw [show (W5 (F := Ideal) m ρ c (Proc.devRef .tc main_v124) : Feat) = _ from eK]
    exact isReal_aggArr _ _ _ _ _ _ _ hreal (isReal_tab6 _ _ _ r5) (isReal_tab3 _ _ _ r6)

/-- Layer 1's result: the same array on both sides, of real numbers — given that for its aggregated features. -/
theorem out1 (hagg : (W5 (F := Ideal) m ρ c (Proc.devRef .tc main_v124) : Feat) = (after (Cert.ReferenceIdeal.Hand.refLayer1 (F := Ideal)) (R1 m' c) (Proc.devRef .tc Cert.ReferenceIdeal.main_v140) : Feat)) (hreal : ∀ j, IsReal ((W5 (F := Ideal) m ρ c (Proc.devRef .tc main_v124) : Feat) j)) :
    (W8 (F := Ideal) m ρ c (Proc.devRef .tc main_v155) : Feat) = (R2 (F := Ideal) m' c (Proc.devRef .tc Cert.ReferenceIdeal.main_v187) : Feat)
      ∧ ∀ j, IsReal ((W8 (F := Ideal) m ρ c (Proc.devRef .tc main_v155) : Feat) j) := by
  have hR := Cert.ReferenceIdeal.Hand.refLayer1_apply (R1 (F := Ideal) m' c)
  rw [show (after (Cert.ReferenceIdeal.Hand.refLayer1 (F := Ideal)) (R1 m' c) (Proc.devRef .tc Cert.ReferenceIdeal.main_v140) : Feat) = (W5 (F := Ideal) m ρ c (Proc.devRef .tc main_v124) : Feat) from hagg.symm,
    Cert.ReferenceIdeal.Hand.R1_arg7, Cert.ReferenceIdeal.Hand.R1_arg8, Cert.ReferenceIdeal.Hand.R1_arg9, Cert.ReferenceIdeal.Hand.R1_arg10, Cert.ReferenceIdeal.Hand.R1_arg11, Cert.ReferenceIdeal.Hand.R1_arg12, g7, g8, g9, g10, g11, g12] at hR
  exact step_relu (W5 (F := Ideal) m ρ c (Proc.devRef .tc main_v124) : Feat) (W8 (F := Ideal) m ρ c (Proc.devRef .tc main_v155) : Feat) (R2 (F := Ideal) m' c (Proc.devRef .tc Cert.ReferenceIdeal.main_v187) : Feat) hreal
    (fun k j => r7 _) (fun j => r8 _) (fun j d => r9 _) (fun d => r10 _) (fun d => r11 _) (fun d => r12 _) nRows_eq epsBn_real
    (layerK1 m ρ c) hR

/-- Layer 2's aggregated features: the same array on both sides, of real numbers — given that for its input. -/
theorem agg2 (hin : (W8 (F := Ideal) m ρ c (Proc.devRef .tc main_v155) : Feat) = (R2 (F := Ideal) m' c (Proc.devRef .tc Cert.ReferenceIdeal.main_v187) : Feat))
    (hreal : ∀ j, IsReal ((W8 (F := Ideal) m ρ c (Proc.devRef .tc main_v155) : Feat) j)) :
    (W9 (F := Ideal) m ρ c (Proc.devRef .tc main_v185) : Feat) = (after (Cert.ReferenceIdeal.Hand.refLayer2 (F := Ideal)) (R2 m' c) (Proc.devRef .tc Cert.ReferenceIdeal.main_v217) : Feat)
      ∧ ∀ j, IsReal ((W9 (F := Ideal) m ρ c (Proc.devRef .tc main_v185) : Feat) j) := by
  have eK := agg4_eq (W8 (F := Ideal) m ρ c)
  rw [W8_src, W8_dst, W8_ea0, W8_ea1, W8_arg5, W8_arg6] at eK
  have eR := Cert.ReferenceIdeal.Hand.refAgg2_eq (R2 (F := Ideal) m' c)
  rw [Cert.ReferenceIdeal.Hand.R2_src, Cert.ReferenceIdeal.Hand.R2_dst, Cert.ReferenceIdeal.Hand.R2_ea0, Cert.ReferenceIdeal.Hand.R2_ea1, Cert.ReferenceIdeal.Hand.R2_arg5, Cert.ReferenceIdeal.Hand.R2_arg6] at eR
  rw [show R0 (F := Ideal) m' c (Proc.devRef .tc Cert.ReferenceIdeal.main_v22) = _ from Cert.ReferenceIdeal.Hand.refPre_src _, show R0 (F := Ideal) m' c (Proc.devRef .tc Cert.ReferenceIdeal.main_v25) = _ from Cert.ReferenceIdeal.Hand.refPre_dst _,
    show R0 (F := Ideal) m' c (Proc.devRef .tc Cert.ReferenceIdeal.main_v29) = _ from Cert.ReferenceIdeal.Hand.refPre_ea0 _, show R0 (F := Ideal) m' c (Proc.devRef .tc Cert.ReferenceIdeal.main_v33) = _ from Cert.ReferenceIdeal.Hand.refPre_ea1 _] at eR
  rw [show W1 (F := Ideal) m ρ c (Proc.devRef .tc main_v22) = _ from pre_src _, show W1 (F := Ideal) m ρ c (Proc.devRef .tc main_v25) = _ from pre_dst _,
    show W1 (F := Ideal) m ρ c (Proc.devRef .tc main_v29) = _ from pre_ea0 _, show W1 (F := Ideal) m ρ c (Proc.devRef .tc main_v33) = _ from pre_ea1 _] at eK
  refine ⟨?_, ?_⟩
  · rw [show (W9 (F := Ideal) m ρ c (Proc.devRef .tc main_v185) : Feat) = _ from eK, show (after (Cert.ReferenceIdeal.Hand.refLayer2 (F := Ideal)) (R2 m' c) (Proc.devRef .tc Cert.ReferenceIdeal.main_v217) : Feat) = _ from eR, ← hin]
    show aggArr _ (srcOf (m ((c.tc : Thread nD τ).loc main_arg1) : (⟨S2x600000, .i32⟩ : BufTy).Contents (Elt Ideal))) (dstOf (m ((c.tc : Thread nD τ).loc main_arg1) : (⟨S2x600000, .i32⟩ : BufTy).Contents (Elt Ideal))) (ea0Of (m ((c.tc : Thread nD τ).loc main_arg2) : (⟨S600000x2, .i32⟩ : BufTy).Contents (Elt Ideal))) (ea1Of (m ((c.tc : Thread nD τ).loc main_arg2) : (⟨S600000x2, .i32⟩ : BufTy).Contents (Elt Ideal))) (tab6 2 _ (m ((c.tc : Thread nD τ).loc main_arg5) : (⟨S5x6x128, .f32⟩ : BufTy).Contents (Elt Ideal))) (tab3 2 _ (m ((c.tc : Thread nD τ).loc main_arg6) : (⟨S5x3x128, .f32⟩ : BufTy).Contents (Elt Ideal))) = _
    rw [← g1, ← g2, ← g5, ← g6]
    all_goals rfl
  · rw [show (W9 (F := Ideal) m ρ c (Proc.devRef .tc main_v185) : Feat) = _ from eK]
    exact isReal_aggArr _ _ _ _ _ _ _ hreal (isReal_tab6 _ _ _ r5) (isReal_tab3 _ _ _ r6)

/-- Layer 2's result: the same array on both sides, of real numbers — given that for its aggregated features. -/
theorem out2 (hagg : (W9 (F := Ideal) m ρ c (Proc.devRef .tc main_v185) : Feat) = (after (Cert.ReferenceIdeal.Hand.refLayer2 (F := Ideal)) (R2 m' c) (Proc.devRef .tc Cert.ReferenceIdeal.main_v217) : Feat)) (hreal : ∀ j, IsReal ((W9 (F := Ideal) m ρ c (Proc.devRef .tc main_v185) : Feat) j)) :
    (W12 (F := Ideal) m ρ c (Proc.devRef .tc main_v216) : Feat) = (R3 (F := Ideal) m' c (Proc.devRef .tc Cert.ReferenceIdeal.main_v264) : Feat)
      ∧ ∀ j, IsReal ((W12 (F := Ideal) m ρ c (Proc.devRef .tc main_v216) : Feat) j) := by
  have hR := Cert.ReferenceIdeal.Hand.refLayer2_apply (R2 (F := Ideal) m' c)
  rw [show (after (Cert.ReferenceIdeal.Hand.refLayer2 (F := Ideal)) (R2 m' c) (Proc.devRef .tc Cert.ReferenceIdeal.main_v217) : Feat) = (W9 (F := Ideal) m ρ c (Proc.devRef .tc main_v185) : Feat) from hagg.symm,
    Cert.ReferenceIdeal.Hand.R2_arg7, Cert.ReferenceIdeal.Hand.R2_arg8, Cert.ReferenceIdeal.Hand.R2_arg9, Cert.ReferenceIdeal.Hand.R2_arg10, Cert.ReferenceIdeal.Hand.R2_arg11, Cert.ReferenceIdeal.Hand.R2_arg12, g7, g8, g9, g10, g11, g12] at hR
  exact step_relu (W9 (F := Ideal) m ρ c (Proc.devRef .tc main_v185) : Feat) (W12 (F := Ideal) m ρ c (Proc.devRef .tc main_v216) : Feat) (R3 (F := Ideal) m' c (Proc.devRef .tc Cert.ReferenceIdeal.main_v264) : Feat) hreal
    (fun k j => r7 _) (fun j => r8 _) (fun j d => r9 _) (fun d => r10 _) (fun d => r11 _) (fun d => r12 _) nRows_eq epsBn_real
    (layerK2 m ρ c) hR

/-- Layer 3's aggregated features: the same array on both sides, of real numbers — given that for its input. -/
theorem agg3 (hin : (W12 (F := Ideal) m ρ c (Proc.devRef .tc main_v216) : Feat) = (R3 (F := Ideal) m' c (Proc.devRef .tc Cert.ReferenceIdeal.main_v264) : Feat))
    (hreal : ∀ j, IsReal ((W12 (F := Ideal) m ρ c (Proc.devRef .tc main_v216) : Feat) j)) :
    (W13 (F := Ideal) m ρ c (Proc.devRef .tc main_v246) : Feat) = (after (Cert.ReferenceIdeal.Hand.refLayer3 (F := Ideal)) (R3 m' c) (Proc.devRef .tc Cert.ReferenceIdeal.main_v294) : Feat)
      ∧ ∀ j, IsReal ((W13 (F := Ideal) m ρ c (Proc.devRef .tc main_v246) : Feat) j) := by
  have eK := agg6_eq (W12 (F := Ideal) m ρ c)
  rw [W12_src, W12_dst, W12_ea0, W12_ea1, W12_arg5, W12_arg6] at eK
  have eR := Cert.ReferenceIdeal.Hand.refAgg3_eq (R3 (F := Ideal) m' c)
  rw [Cert.ReferenceIdeal.Hand.R3_src, Cert.ReferenceIdeal.Hand.R3_dst, Cert.ReferenceIdeal.Hand.R3_ea0, Cert.ReferenceIdeal.Hand.R3_ea1, Cert.ReferenceIdeal.Hand.R3_arg5, Cert.ReferenceIdeal.Hand.R3_arg6] at eR
  rw [show R0 (F := Ideal) m' c (Proc.devRef .tc Cert.ReferenceIdeal.main_v22) = _ from Cert.ReferenceIdeal.Hand.refPre_src _, show R0 (F := Ideal) m' c (Proc.devRef .tc Cert.ReferenceIdeal.main_v25) = _ from Cert.ReferenceIdeal.Hand.refPre_dst _,
    show R0 (F := Ideal) m' c (Proc.devRef .tc Cert.ReferenceIdeal.main_v29) = _ from Cert.ReferenceIdeal.Hand.refPre_ea0 _, show R0 (F := Ideal) m' c (Proc.devRef .tc Cert.ReferenceIdeal.main_v33) = _ from Cert.ReferenceIdeal.Hand.refPre_ea1 _] at eR
  rw [show W1 (F := Ideal) m ρ c (Proc.devRef .tc main_v22) = _ from pre_src _, show W1 (F := Ideal) m ρ c (Proc.devRef .tc main_v25) = _ from pre_dst _,
    show W1 (F := Ideal) m ρ c (Proc.devRef .tc main_v29) = _ from pre_ea0 _, show W1 (F := Ideal) m ρ c (Proc.devRef .tc main_v33) = _ from pre_ea1 _] at eK
  refine ⟨?_, ?_⟩
  · rw [show (W13 (F := Ideal) m ρ c (Proc.devRef .tc main_v246) : Feat) = _ from eK, show (after (Cert.ReferenceIdeal.Hand.refLayer3 (F := Ideal)) (R3 m' c) (Proc.devRef .tc Cert.ReferenceIdeal.main_v294) : Feat) = _ from eR, ← hin]
    show aggArr _ (srcOf (m ((c.tc : Thread nD τ).loc main_arg1) : (⟨S2x600000, .i32⟩ : BufTy).Contents (Elt Ideal))) (dstOf (m ((c.tc : Thread nD τ).loc main_arg1) : (⟨S2x600000, .i32⟩ : BufTy).Contents (Elt Ideal))) (ea0Of (m ((c.tc : Thread nD τ).loc main_arg2) : (⟨S600000x2, .i32⟩ : BufTy).Contents (Elt Ideal))) (ea1Of (m ((c.tc : Thread nD τ).loc main_arg2) : (⟨S600000x2, .i32⟩ : BufTy).Contents (Elt Ideal))) (tab6 3 _ (m ((c.tc : Thread nD τ).loc main_arg5) : (⟨S5x6x128, .f32⟩ : BufTy).Contents (Elt Ideal))) (tab3 3 _ (m ((c.tc : Thread nD τ).loc main_arg6) : (⟨S5x3x128, .f32⟩ : BufTy).Contents (Elt Ideal))) = _
    rw [← g1, ← g2, ← g5, ← g6]
    all_goals rfl
  · rw [show (W13 (F := Ideal) m ρ c (Proc.devRef .tc main_v246) : Feat) = _ from eK]
    exact isReal_aggArr _ _ _ _ _ _ _ hreal (isReal_tab6 _ _ _ r5) (isReal_tab3 _ _ _ r6)

/-- Layer 3's result: the same array on both sides, of real numbers — given that for its aggregated features. -/
theorem out3 (hagg : (W13 (F := Ideal) m ρ c (Proc.devRef .tc main_v246) : Feat) = (after (Cert.ReferenceIdeal.Hand.refLayer3 (F := Ideal)) (R3 m' c) (Proc.devRef .tc Cert.ReferenceIdeal.main_v294) : Feat)) (hreal : ∀ j, IsReal ((W13 (F := Ideal) m ρ c (Proc.devRef .tc main_v246) : Feat) j)) :
    (W16 (F := Ideal) m ρ c (Proc.devRef .tc main_v277) : Feat) = (R4 (F := Ideal) m' c (Proc.devRef .tc Cert.ReferenceIdeal.main_v341) : Feat)
      ∧ ∀ j, IsReal ((W16 (F := Ideal) m ρ c (Proc.devRef .tc main_v277) : Feat) j) := by
  have hR := Cert.ReferenceIdeal.Hand.refLayer3_apply (R3 (F := Ideal) m' c)
  rw [show (after (Cert.ReferenceIdeal.Hand.refLayer3 (F := Ideal)) (R3 m' c) (Proc.devRef .tc Cert.ReferenceIdeal.main_v294) : Feat) = (W13 (F := Ideal) m ρ c (Proc.devRef .tc main_v246) : Feat) from hagg.symm,
    Cert.ReferenceIdeal.Hand.R3_arg7, Cert.ReferenceIdeal.Hand.R3_arg8, Cert.ReferenceIdeal.Hand.R3_arg9, Cert.ReferenceIdeal.Hand.R3_arg10, Cert.ReferenceIdeal.Hand.R3_arg11, Cert.ReferenceIdeal.Hand.R3_arg12, g7, g8, g9, g10, g11, g12] at hR
  exact step_relu (W13 (F := Ideal) m ρ c (Proc.devRef .tc main_v246) : Feat) (W16 (F := Ideal) m ρ c (Proc.devRef .tc main_v277) : Feat) (R4 (F := Ideal) m' c (Proc.devRef .tc Cert.ReferenceIdeal.main_v341) : Feat) hreal
    (fun k j => r7 _) (fun j => r8 _) (fun j d => r9 _) (fun d => r10 _) (fun d => r11 _) (fun d => r12 _) nRows_eq epsBn_real
    (layerK3 m ρ c) hR

/-- Layer 4's aggregated features: the same array on both sides, of real numbers — given that for its input. -/
theorem agg4 (hin : (W16 (F := Ideal) m ρ c (Proc.devRef .tc main_v277) : Feat) = (R4 (F := Ideal) m' c (Proc.devRef .tc Cert.ReferenceIdeal.main_v341) : Feat))
    (hreal : ∀ j, IsReal ((W16 (F := Ideal) m ρ c (Proc.devRef .tc main_v277) : Feat) j)) :
    (W17 (F := Ideal) m ρ c (Proc.devRef .tc main_v307) : Feat) = (after (Cert.ReferenceIdeal.Hand.refLayer4 (F := Ideal)) (R4 m' c) (Proc.devRef .tc Cert.ReferenceIdeal.main_v371) : Feat)
      ∧ ∀ j, IsReal ((W17 (F := Ideal) m ρ c (Proc.devRef .tc main_v307) : Feat) j) := by
  have eK := agg8_eq (W16 (F := Ideal) m ρ c)
  rw [W16_src, W16_dst, W16_ea0, W16_ea1, W16_arg5, W16_arg6] at eK
  have eR := Cert.ReferenceIdeal.Hand.refAgg4_eq (R4 (F := Ideal) m' c)
  rw [Cert.ReferenceIdeal.Hand.R4_src, Cert.ReferenceIdeal.Hand.R4_dst, Cert.ReferenceIdeal.Hand.R4_ea0, Cert.ReferenceIdeal.Hand.R4_ea1, Cert.ReferenceIdeal.Hand.R4_arg5, Cert.ReferenceIdeal.Hand.R4_arg6] at eR
  rw [show R0 (F := Ideal) m' c (Proc.devRef .tc Cert.ReferenceIdeal.main_v22) = _ from Cert.ReferenceIdeal.Hand.refPre_src _, show R0 (F := Ideal) m' c (Proc.devRef .tc Cert.ReferenceIdeal.main_v25) = _ from Cert.ReferenceIdeal.Hand.refPre_dst _,
    show R0 (F := Ideal) m' c (Proc.devRef .tc Cert.ReferenceIdeal.main_v29) = _ from Cert.ReferenceIdeal.Hand.refPre_ea0 _, show R0 (F := Ideal) m' c (Proc.devRef .tc Cert.ReferenceIdeal.main_v33) = _ from Cert.ReferenceIdeal.Hand.refPre_ea1 _] at eR
  rw [show W1 (F := Ideal) m ρ c (Proc.devRef .tc main_v22) = _ from pre_src _, show W1 (F := Ideal) m ρ c (Proc.devRef .tc main_v25) = _ from pre_dst _,
    show W1 (F := Ideal) m ρ c (Proc.devRef .tc main_v29) = _ from pre_ea0 _, show W1 (F := Ideal) m ρ c (Proc.devRef .tc main_v33) = _ from pre_ea1 _] at eK
  refine ⟨?_, ?_⟩
  · rw [show (W17 (F := Ideal) m ρ c (Proc.devRef .tc main_v307) : Feat) = _ from eK, show (after (Cert.ReferenceIdeal.Hand.refLayer4 (F := Ideal)) (R4 m' c) (Proc.devRef .tc Cert.ReferenceIdeal.main_v371) : Feat) = _ from eR, ← hin]
    show aggArr _ (srcOf (m ((c.tc : Thread nD τ).loc main_arg1) : (⟨S2x600000, .i32⟩ : BufTy).Contents (Elt Ideal))) (dstOf (m ((c.tc : Thread nD τ).loc main_arg1) : (⟨S2x600000, .i32⟩ : BufTy).Contents (Elt Ideal))) (ea0Of (m ((c.tc : Thread nD τ).loc main_arg2) : (⟨S600000x2, .i32⟩ : BufTy).Contents (Elt Ideal))) (ea1Of (m ((c.tc : Thread nD τ).loc main_arg2) : (⟨S600000x2, .i32⟩ : BufTy).Contents (Elt Ideal))) (tab6 4 _ (m ((c.tc : Thread nD τ).loc main_arg5) : (⟨S5x6x128, .f32⟩ : BufTy).Contents (Elt Ideal))) (tab3 4 _ (m ((c.tc : Thread nD τ).loc main_arg6) : (⟨S5x3x128, .f32⟩ : BufTy).Contents (Elt Ideal))) = _
    rw [← g1, ← g2, ← g5, ← g6]
    all_goals rfl
  · rw [show (W17 (F := Ideal) m ρ c (Proc.devRef .tc main_v307) : Feat) = _ from eK]
    exact isReal_aggArr _ _ _ _ _ _ _ hreal (isReal_tab6 _ _ _ r5) (isReal_tab3 _ _ _ r6)

/-- Layer 4's result: the same array on both sides — given that for its aggregated features. -/
theorem out4 (hagg : (W17 (F := Ideal) m ρ c (Proc.devRef .tc main_v307) : Feat) = (after (Cert.ReferenceIdeal.Hand.refLayer4 (F := Ideal)) (R4 m' c) (Proc.devRef .tc Cert.ReferenceIdeal.main_v371) : Feat)) (hreal : ∀ j, IsReal ((W17 (F := Ideal) m ρ c (Proc.devRef .tc main_v307) : Feat) j)) :
    (W20 (F := Ideal) m ρ c (Proc.devRef .tc main_v338) : Feat) = (R5 (F := Ideal) m' c (Proc.devRef .tc Cert.ReferenceIdeal.main_v417) : Feat) := by
  have hR := Cert.ReferenceIdeal.Hand.refLayer4_apply (R4 (F := Ideal) m' c)
  rw [show (after (Cert.ReferenceIdeal.Hand.refLayer4 (F := Ideal)) (R4 m' c) (Proc.devRef .tc Cert.ReferenceIdeal.main_v371) : Feat) = (W17 (F := Ideal) m ρ c (Proc.devRef .tc main_v307) : Feat) from hagg.symm,
    Cert.ReferenceIdeal.Hand.R4_arg7, Cert.ReferenceIdeal.Hand.R4_arg8, Cert.ReferenceIdeal.Hand.R4_arg9, Cert.ReferenceIdeal.Hand.R4_arg10, Cert.ReferenceIdeal.Hand.R4_arg11, Cert.ReferenceIdeal.Hand.R4_arg12, g7, g8, g9, g10, g11, g12] at hR
  exact step_plain (W17 (F := Ideal) m ρ c (Proc.devRef .tc main_v307) : Feat) (W20 (F := Ideal) m ρ c (Proc.devRef .tc main_v338) : Feat) (R5 (F := Ideal) m' c (Proc.devRef .tc Cert.ReferenceIdeal.main_v417) : Feat) hreal
    (fun k j => r7 _) (fun j => r8 _) (fun j d => r9 _) (fun d => r10 _) nRows_eq
    (layerK4 m ρ c) hR

/-- The run's result array is the reference's. -/
theorem result_eq :
    (W20 (F := Ideal) m ρ c (Proc.devRef .tc main_v338) : Feat) = (R5 (F := Ideal) m' c (Proc.devRef .tc Cert.ReferenceIdeal.main_v417) : Feat) := by
  obtain ⟨a0, ra0⟩ := agg0 m ρ m' c g0 g1 g2 g3 g4 g5 g6 g7 g8 g9 g10 g11 g12 r3 r4 r5 r6 r7 r8 r9 r10 r11 r12
  obtain ⟨o0, ro0⟩ := out0 m ρ m' c g0 g1 g2 g3 g4 g5 g6 g7 g8 g9 g10 g11 g12 r3 r4 r5 r6 r7 r8 r9 r10 r11 r12 a0 ra0
  obtain ⟨a1, ra1⟩ := agg1 m ρ m' c g0 g1 g2 g3 g4 g5 g6 g7 g8 g9 g10 g11 g12 r3 r4 r5 r6 r7 r8 r9 r10 r11 r12 o0 ro0
  obtain ⟨o1, ro1⟩ := out1 m ρ m' c g0 g1 g2 g3 g4 g5 g6 g7 g8 g9 g10 g11 g12 r3 r4 r5 r6 r7 r8 r9 r10 r11 r12 a1 ra1
  obtain ⟨a2, ra2⟩ := agg2 m ρ m' c g0 g1 g2 g3 g4 g5 g6 g7 g8 g9 g10 g11 g12 r3 r4 r5 r6 r7 r8 r9 r10 r11 r12 o1 ro1
  obtain ⟨o2, ro2⟩ := out2 m ρ m' c g0 g1 g2 g3 g4 g5 g6 g7 g8 g9 g10 g11 g12 r3 r4 r5 r6 r7 r8 r9 r10 r11 r12 a2 ra2
  obtain ⟨a3, ra3⟩ := agg3 m ρ m' c g0 g1 g2 g3 g4 g5 g6 g7 g8 g9 g10 g11 g12 r3 r4 r5 r6 r7 r8 r9 r10 r11 r12 o2 ro2
  obtain ⟨o3, ro3⟩ := out3 m ρ m' c g0 g1 g2 g3 g4 g5 g6 g7 g8 g9 g10 g11 g12 r3 r4 r5 r6 r7 r8 r9 r10 r11 r12 a3 ra3
  obtain ⟨a4, ra4⟩ := agg4 m ρ m' c g0 g1 g2 g3 g4 g5 g6 g7 g8 g9 g10 g11 g12 r3 r4 r5 r6 r7 r8 r9 r10 r11 r12 o3 ro3
  exact out4 m ρ m' c g0 g1 g2 g3 g4 g5 g6 g7 g8 g9 g10 g11 g12 r3 r4 r5 r6 r7 r8 r9 r10 r11 r12 a4 ra4

end Bridge

/-- At the idealized instance the two programs, run from memories agreeing on the arguments of which the precondition
    holds, both end, with equal results and unchanged arguments. -/
theorem algebraic : Cert.algebraic_KernelIdeal_ReferenceIdeal := by
  intro m ρ m' ρ' hpre hagree
  refine ⟨fun c => W20 (F := Ideal) m ρ c (Proc.devRef .tc main_v338), run_result (F := Ideal) m ρ, ?_⟩
  refine (θ_run Cert.ReferenceIdeal.defs _ _).mono (fun r h c => ?_) (Cert.ReferenceIdeal.Hand.ref_run (F := Ideal) m' ρ')
  obtain ⟨g0, g1, g2, g3, g4, g5, g6, g7, g8, g9, g10, g11, g12⟩ := hagree c
  obtain ⟨r3, r4, r5, r6, r7, r8, r9, r10, r11, r12⟩ := Cert.FiniteInputs.real_of_pre _ _ _ _ _ _ _ _ _ _ _ _ _ (hpre c)
  refine ⟨?_, (h c Cert.ReferenceIdeal.main_arg0).trans (Cert.ReferenceIdeal.Hand.after_refOps_arg _ _ (by decide) (by decide) (by decide) (by decide) (by decide) (by decide)),
    (h c Cert.ReferenceIdeal.main_arg1).trans (Cert.ReferenceIdeal.Hand.after_refOps_arg _ _ (by decide) (by decide) (by decide) (by decide) (by decide) (by decide)),
    (h c Cert.ReferenceIdeal.main_arg2).trans (Cert.ReferenceIdeal.Hand.after_refOps_arg _ _ (by decide) (by decide) (by decide) (by decide) (by decide) (by decide)),
    (h c Cert.ReferenceIdeal.main_arg3).trans (Cert.ReferenceIdeal.Hand.after_refOps_arg _ _ (by decide) (by decide) (by decide) (by decide) (by decide) (by decide)),
    (h c Cert.ReferenceIdeal.main_arg4).trans (Cert.ReferenceIdeal.Hand.after_refOps_arg _ _ (by decide) (by decide) (by decide) (by decide) (by decide) (by decide)),
    (h c Cert.ReferenceIdeal.main_arg5).trans (Cert.ReferenceIdeal.Hand.after_refOps_arg _ _ (by decide) (by decide) (by decide) (by decide) (by decide) (by decide)),
    (h c Cert.ReferenceIdeal.main_arg6).trans (Cert.ReferenceIdeal.Hand.after_refOps_arg _ _ (by decide) (by decide) (by decide) (by decide) (by decide) (by decide)),
    (h c Cert.ReferenceIdeal.main_arg7).trans (Cert.ReferenceIdeal.Hand.after_refOps_arg _ _ (by decide) (by decide) (by decide) (by decide) (by decide) (by decide)),
    (h c Cert.ReferenceIdeal.main_arg8).trans (Cert.ReferenceIdeal.Hand.after_refOps_arg _ _ (by decide) (by decide) (by decide) (by decide) (by decide) (by decide)),
    (h c Cert.ReferenceIdeal.main_arg9).trans (Cert.ReferenceIdeal.Hand.after_refOps_arg _ _ (by decide) (by decide) (by decide) (by decide) (by decide) (by decide)),
    (h c Cert.ReferenceIdeal.main_arg10).trans (Cert.ReferenceIdeal.Hand.after_refOps_arg _ _ (by decide) (by decide) (by decide) (by decide) (by decide) (by decide)),
    (h c Cert.ReferenceIdeal.main_arg11).trans (Cert.ReferenceIdeal.Hand.after_refOps_arg _ _ (by decide) (by decide) (by decide) (by decide) (by decide) (by decide)),
    (h c Cert.ReferenceIdeal.main_arg12).trans (Cert.ReferenceIdeal.Hand.after_refOps_arg _ _ (by decide) (by decide) (by decide) (by decide) (by decide) (by decide))⟩
  rw [h c Cert.ReferenceIdeal.main_v417, Cert.ReferenceIdeal.Hand.after_refOps_eq]
  exact (result_eq m ρ m' c g0 g1 g2 g3 g4 g5 g6 g7 g8 g9 g10 g11 g12 r3 r4 r5 r6 r7 r8 r9 r10 r11 r12).symm

end Cert.KernelIdeal.Val

end
-- ==== Proof.lean ====
/-
  The certificate of a five-layer message-passing network: per layer a gather and scatter-add aggregation on the host,
  a region computing the two-layer perceptron tile by tile while accumulating each column's sum and sum of squares in
  two carried scratch rows, the batch statistics on the host, and a region normalizing tile by tile.

  Frames: the program is ten regions among ten stretches of host operations; its run is the library's launch over the
  twenty segments, proved once for any float instance and read at the word-level and at the idealized instance; the
  reference has no region: its run leaves every buffer at the fold of its host operations, none of which writes an
  argument. The idealization rewrote nothing, so the
  preservation claim has no conjunct.

  Value: at the idealized instance both programs compute, layer by layer, the same function of the arguments. The
  aggregation is the same host term on both sides. The perceptron is the same double sum. The column mean is the
  same sum, collected tile by tile on one side and whole on the other. The variance is stated raw on one side
  (mean of squares less squared mean) and centred on the other (mean of squared deviations): equal for finite
  entries, which the precondition gives for the inputs and every layer preserves.
-/
import proofs.«118775_j16338055594318_1_alg».proof.Defs
import proofs.«118775_j16338055594318_1_alg».proof.Proof.K.Run
import proofs.«118775_j16338055594318_1_alg».proof.Proof.KI.Run
import proofs.«118775_j16338055594318_1_alg».proof.Proof.Gen.ReferenceIdeal
import proofs.«118775_j16338055594318_1_alg».proof.Proof.Gen.Pre_finite_inputs
import proofs.«118775_j16338055594318_1_alg».proof.Proof.Val.RefFrame
import proofs.«118775_j16338055594318_1_alg».proof.Proof.Val.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ
theorem frame_ki : @Cert.frame_KernelIdeal Cert.KernelIdeal.Gen.facts Cert.Pre_finite_inputs.Gen.facts :=
  fun m ρ _ => Cert.KernelIdeal.Hand.frame (F := Ideal) m ρ
theorem frame_ri : @Cert.frame_ReferenceIdeal Cert.ReferenceIdeal.Gen.facts Cert.Pre_finite_inputs.Gen.facts :=
  fun m ρ _ => Cert.ReferenceIdeal.Hand.ref_frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Val.algebraic⟩

end Cert.Proof

end
